-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  main_v3
-- ==== Kernel.lean ====
abbrev S4x16x2048x128 : Shape := ⟨4, ![4, 16, 2048, 128]⟩
abbrev S16777216 : Shape := ⟨1, ![16777216]⟩
abbrev S62914560 : Shape := ⟨1, ![62914560]⟩
abbrev S16x65536 : Shape := ⟨2, ![16, 65536]⟩
abbrev S65536 : Shape := ⟨1, ![65536]⟩
abbrev S_ : Shape := ⟨0, ![]⟩
abbrev S1x65536 : Shape := ⟨2, ![1, 65536]⟩
abbrev S4x20x3x2048x128 : Shape := ⟨5, ![4, 20, 3, 2048, 128]⟩

abbrev nBuf : Table → Nat
  | .hbm => 4
  | .shared => 1
  | .local .scVector .vmem => 1
  | _ => 0

abbrev bufTy : (tb : Table) → Fin (nBuf tb) → BufTy
  | .hbm, ⟨0, _⟩ => ⟨S4x16x2048x128, .f32⟩
  | .hbm, ⟨1, _⟩ => ⟨S16777216, .f32⟩
  | .hbm, ⟨2, _⟩ => ⟨S62914560, .f32⟩
  | .hbm, ⟨3, _⟩ => ⟨S4x20x3x2048x128, .f32⟩
  | .shared, ⟨0, _⟩ => ⟨S16x65536, .f32⟩
  | .local .scVector .vmem, ⟨0, _⟩ => ⟨S65536, .f32⟩
  | _, _ => ⟨S4x16x2048x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.shared, 0, rfl⟩
abbrev cc0_scratch1 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_13 : BitVec 32 := 0#32
  let v32 : BitVec 1 := Scalar.cmpi .sgt v18 c0_i32_13
  let v33 : BitVec 32 := Scalar.extui v32
  let c0_i32_14 : BitVec 32 := 0#32
  let v34 : BitVec 1 := Scalar.cmpi .slt v18 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v18 c4_i32
  let c0_i32_17 : BitVec 32 := 0#32
  let v44 : BitVec 1 := Scalar.cmpi .ne v43 c0_i32_17
  let v45 : BitVec 1 := Scalar.andi v42 v44
  let v31 : BitVec 32 := Scalar.divsi v18 c4_i32
  let c1_i32_18 : BitVec 32 := 1#32
  let v46 : BitVec 32 := Scalar.subi v31 c1_i32_18
  let v47 : BitVec 32 := Scalar.select v45 v46 v31
  let c16_i32 : BitVec 32 := 16#32
  let v67 : BitVec 32 := Scalar.muli v47 c16_i32
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v18 v49
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let c0_i32_22 : BitVec 32 := 0#32
  let v51 : BitVec 1 := Scalar.cmpi .ne v50 c0_i32_22
  let v55 : BitVec 1 := Scalar.andi v54 v51
  let v56 : BitVec 32 := Scalar.addi v50 v49
  let v57 : BitVec 32 := Scalar.select v55 v56 v50
  let c2_i32_25 : BitVec 32 := 2#32
  let v58 : BitVec 1 := Scalar.cmpi .slt v57 c2_i32_25
  let c6_i32 : BitVec 32 := 6#32
  let v59 : BitVec 32 := Scalar.addi c6_i32 v57
  let c3_i32 : BitVec 32 := 3#32
  let v60 : BitVec 32 := Scalar.muli c3_i32 v57
  let c4_i32_26 : BitVec 32 := 4#32
  let v61 : BitVec 32 := Scalar.subi v60 c4_i32_26
  let v62 : BitVec 32 := Scalar.select v58 v59 v61
  let v68 : BitVec 32 := Scalar.addi v67 v62
  let c4_i32_28 : BitVec 32 := 4#32
  let v69 : BitVec 32 := Scalar.muli v68 c4_i32_28
  let c2_i32_11 : BitVec 32 := 2#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v29 : BitVec 32 := Scalar.muli c2_i32_11 v28
  let c0_i32_12 : BitVec 32 := 0#32
  let v30 : BitVec 32 := Scalar.addi v29 c0_i32_12
  let v70 : BitVec 32 := Scalar.addi v69 v30
  let c65536_i32 : BitVec 32 := 65536#32
  let v71 : BitVec 32 := Scalar.muli v70 c65536_i32
  v71
def k0_off1 (i : grid0.Coords) : Fin 2 → Nat :=
  let arg1 : BitVec 32 := BitVec.ofNat 32 (i 1).val
  let c0_i32_53 : BitVec 32 := 0#32
  ![arg1.toNat, 0]
def k0_off2 (i : grid0.Coords) (c0_i32_12 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_13 : BitVec 32 := 0#32
  let v32 : BitVec 1 := Scalar.cmpi .sgt v18 c0_i32_13
  let v33 : BitVec 32 := Scalar.extui v32
  let c0_i32_14 : BitVec 32 := 0#32
  let v34 : BitVec 1 := Scalar.cmpi .slt v18 c0_i32_14
  let v35 : BitVec 32 := Scalar.extui v34
  let v36 : BitVec 32 := Scalar.subi v33 v35
  let c4_i32 : BitVec 32 := 4#32
  let c0_i32_15 : BitVec 32 := 0#32
  let v37 : BitVec 1 := Scalar.cmpi .sgt c4_i32 c0_i32_15
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v18 c4_i32
  let c0_i32_17 : BitVec 32 := 0#32
  let v44 : BitVec 1 := Scalar.cmpi .ne v43 c0_i32_17
  let v45 : BitVec 1 := Scalar.andi v42 v44
  let v31 : BitVec 32 := Scalar.divsi v18 c4_i32
  let c1_i32_18 : BitVec 32 := 1#32
  let v46 : BitVec 32 := Scalar.subi v31 c1_i32_18
  let v47 : BitVec 32 := Scalar.select v45 v46 v31
  let c16_i32 : BitVec 32 := 16#32
  let v67 : BitVec 32 := Scalar.muli v47 c16_i32
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v18 v49
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let c0_i32_22 : BitVec 32 := 0#32
  let v51 : BitVec 1 := Scalar.cmpi .ne v50 c0_i32_22
  let v55 : BitVec 1 := Scalar.andi v54 v51
  let v56 : BitVec 32 := Scalar.addi v50 v49
  let v57 : BitVec 32 := Scalar.select v55 v56 v50
  let c2_i32_25 : BitVec 32 := 2#32
  let v58 : BitVec 1 := Scalar.cmpi .slt v57 c2_i32_25
  let c6_i32 : BitVec 32 := 6#32
  let v59 : BitVec 32 := Scalar.addi c6_i32 v57
  let c3_i32 : BitVec 32 := 3#32
  let v60 : BitVec 32 := Scalar.muli c3_i32 v57
  let c4_i32_26 : BitVec 32 := 4#32
  let v61 : BitVec 32 := Scalar.subi v60 c4_i32_26
  let v62 : BitVec 32 := Scalar.select v58 v59 v61
  let v68 : BitVec 32 := Scalar.addi v67 v62
  let c4_i32_28 : BitVec 32 := 4#32
  let v69 : BitVec 32 := Scalar.muli v68 c4_i32_28
  let c2_i32_11 : BitVec 32 := 2#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v29 : BitVec 32 := Scalar.muli c2_i32_11 v28
  let v30 : BitVec 32 := Scalar.addi v29 c0_i32_12
  let v70 : BitVec 32 := Scalar.addi v69 v30
  let c65536_i32 : BitVec 32 := 65536#32
  let v71 : BitVec 32 := Scalar.muli v70 c65536_i32
  let v114 : BitVec 32 := v71
  ![v114.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_94 : BitVec 32 := 60#32
  let v191 : BitVec 32 := Scalar.muli v166 c60_i32_94
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v192 : BitVec 32 := Scalar.addi v191 v185
  let c0_i32_95 : BitVec 32 := 0#32
  let v193 : BitVec 32 := Scalar.addi v192 c0_i32_95
  let c4_i32_96 : BitVec 32 := 4#32
  let v194 : BitVec 32 := Scalar.muli v193 c4_i32_96
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let c0_i32_70 : BitVec 32 := 0#32
  let v149 : BitVec 32 := Scalar.addi v148 c0_i32_70
  let v195 : BitVec 32 := Scalar.addi v194 v149
  let c65536_i32_97 : BitVec 32 := 65536#32
  let v196 : BitVec 32 := Scalar.muli v195 c65536_i32_97
  v196
def k0_off3 (i : grid0.Coords) (c0_i32_95 : BitVec 32) (c0_i32_70 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_94 : BitVec 32 := 60#32
  let v191 : BitVec 32 := Scalar.muli v166 c60_i32_94
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v192 : BitVec 32 := Scalar.addi v191 v185
  let v193 : BitVec 32 := Scalar.addi v192 c0_i32_95
  let c4_i32_96 : BitVec 32 := 4#32
  let v194 : BitVec 32 := Scalar.muli v193 c4_i32_96
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let v149 : BitVec 32 := Scalar.addi v148 c0_i32_70
  let v195 : BitVec 32 := Scalar.addi v194 v149
  let c65536_i32_97 : BitVec 32 := 65536#32
  let v196 : BitVec 32 := Scalar.muli v195 c65536_i32_97
  let v233 : BitVec 32 := v196
  ![v233.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_98 : BitVec 32 := 60#32
  let v197 : BitVec 32 := Scalar.muli v166 c60_i32_98
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v198 : BitVec 32 := Scalar.addi v197 v185
  let c3_i32_99 : BitVec 32 := 3#32
  let v199 : BitVec 32 := Scalar.addi v198 c3_i32_99
  let c4_i32_100 : BitVec 32 := 4#32
  let v200 : BitVec 32 := Scalar.muli v199 c4_i32_100
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let c0_i32_70 : BitVec 32 := 0#32
  let v149 : BitVec 32 := Scalar.addi v148 c0_i32_70
  let v201 : BitVec 32 := Scalar.addi v200 v149
  let c65536_i32_101 : BitVec 32 := 65536#32
  let v202 : BitVec 32 := Scalar.muli v201 c65536_i32_101
  v202
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_102 : BitVec 32 := 60#32
  let v203 : BitVec 32 := Scalar.muli v166 c60_i32_102
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v204 : BitVec 32 := Scalar.addi v203 v185
  let c6_i32_103 : BitVec 32 := 6#32
  let v205 : BitVec 32 := Scalar.addi v204 c6_i32_103
  let c4_i32_104 : BitVec 32 := 4#32
  let v206 : BitVec 32 := Scalar.muli v205 c4_i32_104
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let c0_i32_70 : BitVec 32 := 0#32
  let v149 : BitVec 32 := Scalar.addi v148 c0_i32_70
  let v207 : BitVec 32 := Scalar.addi v206 v149
  let c65536_i32_105 : BitVec 32 := 65536#32
  let v208 : BitVec 32 := Scalar.muli v207 c65536_i32_105
  v208
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_106 : BitVec 32 := 60#32
  let v209 : BitVec 32 := Scalar.muli v166 c60_i32_106
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v210 : BitVec 32 := Scalar.addi v209 v185
  let c9_i32_107 : BitVec 32 := 9#32
  let v211 : BitVec 32 := Scalar.addi v210 c9_i32_107
  let c4_i32_108 : BitVec 32 := 4#32
  let v212 : BitVec 32 := Scalar.muli v211 c4_i32_108
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let c0_i32_70 : BitVec 32 := 0#32
  let v149 : BitVec 32 := Scalar.addi v148 c0_i32_70
  let v213 : BitVec 32 := Scalar.addi v212 v149
  let c65536_i32_109 : BitVec 32 := 65536#32
  let v214 : BitVec 32 := Scalar.muli v213 c65536_i32_109
  v214
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_110 : BitVec 32 := 60#32
  let v215 : BitVec 32 := Scalar.muli v166 c60_i32_110
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v216 : BitVec 32 := Scalar.addi v215 v185
  let c12_i32_111 : BitVec 32 := 12#32
  let v217 : BitVec 32 := Scalar.addi v216 c12_i32_111
  let c4_i32_112 : BitVec 32 := 4#32
  let v218 : BitVec 32 := Scalar.muli v217 c4_i32_112
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let c0_i32_70 : BitVec 32 := 0#32
  let v149 : BitVec 32 := Scalar.addi v148 c0_i32_70
  let v219 : BitVec 32 := Scalar.addi v218 v149
  let c65536_i32_113 : BitVec 32 := 65536#32
  let v220 : BitVec 32 := Scalar.muli v219 c65536_i32_113
  v220
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_114 : BitVec 32 := 60#32
  let v221 : BitVec 32 := Scalar.muli v166 c60_i32_114
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v222 : BitVec 32 := Scalar.addi v221 v185
  let c15_i32_115 : BitVec 32 := 15#32
  let v223 : BitVec 32 := Scalar.addi v222 c15_i32_115
  let c4_i32_116 : BitVec 32 := 4#32
  let v224 : BitVec 32 := Scalar.muli v223 c4_i32_116
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let c0_i32_70 : BitVec 32 := 0#32
  let v149 : BitVec 32 := Scalar.addi v148 c0_i32_70
  let v225 : BitVec 32 := Scalar.addi v224 v149
  let c65536_i32_117 : BitVec 32 := 65536#32
  let v226 : BitVec 32 := Scalar.muli v225 c65536_i32_117
  v226
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c2_i32_56 : BitVec 32 := 2#32
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let v121 : BitVec 32 := Scalar.divsi v1 c2_i32_56
  let c1_i32_62 : BitVec 32 := 1#32
  let v136 : BitVec 32 := Scalar.subi v121 c1_i32_62
  let v137 : BitVec 32 := Scalar.select v135 v136 v121
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c4_i32_71 : BitVec 32 := 4#32
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let v150 : BitVec 32 := Scalar.divsi v137 c4_i32_71
  let c1_i32_77 : BitVec 32 := 1#32
  let v165 : BitVec 32 := Scalar.subi v150 c1_i32_77
  let v166 : BitVec 32 := Scalar.select v164 v165 v150
  let c60_i32_118 : BitVec 32 := 60#32
  let v227 : BitVec 32 := Scalar.muli v166 c60_i32_118
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let c0_i32_81 : BitVec 32 := 0#32
  let v170 : BitVec 1 := Scalar.cmpi .ne v169 c0_i32_81
  let v174 : BitVec 1 := Scalar.andi v173 v170
  let v175 : BitVec 32 := Scalar.addi v169 v168
  let v176 : BitVec 32 := Scalar.select v174 v175 v169
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let v228 : BitVec 32 := Scalar.addi v227 v185
  let c18_i32_119 : BitVec 32 := 18#32
  let v229 : BitVec 32 := Scalar.addi v228 c18_i32_119
  let c4_i32_120 : BitVec 32 := 4#32
  let v230 : BitVec 32 := Scalar.muli v229 c4_i32_120
  let c2_i32_69 : BitVec 32 := 2#32
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let c0_i32_66 : BitVec 32 := 0#32
  let v141 : BitVec 1 := Scalar.cmpi .ne v140 c0_i32_66
  let v145 : BitVec 1 := Scalar.andi v144 v141
  let v146 : BitVec 32 := Scalar.addi v140 v139
  let v147 : BitVec 32 := Scalar.select v145 v146 v140
  let v148 : BitVec 32 := Scalar.muli c2_i32_69 v147
  let c0_i32_70 : BitVec 32 := 0#32
  let v149 : BitVec 32 := Scalar.addi v148 c0_i32_70
  let v231 : BitVec 32 := Scalar.addi v230 v149
  let c65536_i32_121 : BitVec 32 := 65536#32
  let v232 : BitVec 32 := Scalar.muli v231 c65536_i32_121
  v232
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_130 : BitVec 32 := 0#32
  let v262 : BitVec 1 := Scalar.cmpi .sgt v1 c0_i32_130
  let v263 : BitVec 32 := Scalar.extui v262
  let c0_i32_131 : BitVec 32 := 0#32
  let v264 : BitVec 1 := Scalar.cmpi .slt v1 c0_i32_131
  let v265 : BitVec 32 := Scalar.extui v264
  let v266 : BitVec 32 := Scalar.subi v263 v265
  let c2_i32_129 : BitVec 32 := 2#32
  let c0_i32_132 : BitVec 32 := 0#32
  let v267 : BitVec 1 := Scalar.cmpi .sgt c2_i32_129 c0_i32_132
  let v268 : BitVec 32 := Scalar.extui v267
  let c0_i32_133 : BitVec 32 := 0#32
  let v269 : BitVec 1 := Scalar.cmpi .slt c2_i32_129 c0_i32_133
  let v270 : BitVec 32 := Scalar.extui v269
  let v271 : BitVec 32 := Scalar.subi v268 v270
  let v272 : BitVec 1 := Scalar.cmpi .ne v266 v271
  let v273 : BitVec 32 := Scalar.remsi v1 c2_i32_129
  let c0_i32_134 : BitVec 32 := 0#32
  let v274 : BitVec 1 := Scalar.cmpi .ne v273 c0_i32_134
  let v275 : BitVec 1 := Scalar.andi v272 v274
  let v261 : BitVec 32 := Scalar.divsi v1 c2_i32_129
  let c1_i32_135 : BitVec 32 := 1#32
  let v276 : BitVec 32 := Scalar.subi v261 c1_i32_135
  let v277 : BitVec 32 := Scalar.select v275 v276 v261
  let c0_i32_145 : BitVec 32 := 0#32
  let v291 : BitVec 1 := Scalar.cmpi .sgt v277 c0_i32_145
  let v292 : BitVec 32 := Scalar.extui v291
  let c0_i32_146 : BitVec 32 := 0#32
  let v293 : BitVec 1 := Scalar.cmpi .slt v277 c0_i32_146
  let v294 : BitVec 32 := Scalar.extui v293
  let v295 : BitVec 32 := Scalar.subi v292 v294
  let c4_i32_144 : BitVec 32 := 4#32
  let c0_i32_147 : BitVec 32 := 0#32
  let v296 : BitVec 1 := Scalar.cmpi .sgt c4_i32_144 c0_i32_147
  let v297 : BitVec 32 := Scalar.extui v296
  let c0_i32_148 : BitVec 32 := 0#32
  let v298 : BitVec 1 := Scalar.cmpi .slt c4_i32_144 c0_i32_148
  let v299 : BitVec 32 := Scalar.extui v298
  let v300 : BitVec 32 := Scalar.subi v297 v299
  let v301 : BitVec 1 := Scalar.cmpi .ne v295 v300
  let v302 : BitVec 32 := Scalar.remsi v277 c4_i32_144
  let c0_i32_149 : BitVec 32 := 0#32
  let v303 : BitVec 1 := Scalar.cmpi .ne v302 c0_i32_149
  let v304 : BitVec 1 := Scalar.andi v301 v303
  let v290 : BitVec 32 := Scalar.divsi v277 c4_i32_144
  let c1_i32_150 : BitVec 32 := 1#32
  let v305 : BitVec 32 := Scalar.subi v290 c1_i32_150
  let v306 : BitVec 32 := Scalar.select v304 v305 v290
  let c16_i32_164 : BitVec 32 := 16#32
  let v326 : BitVec 32 := Scalar.muli v306 c16_i32_164
  let c4_i32_151 : BitVec 32 := 4#32
  let c0_i32_152 : BitVec 32 := 0#32
  let v307 : BitVec 1 := Scalar.cmpi .eq c4_i32_151 c0_i32_152
  let c1_i32_153 : BitVec 32 := 1#32
  let v308 : BitVec 32 := Scalar.select v307 c1_i32_153 c4_i32_151
  let v309 : BitVec 32 := Scalar.remsi v277 v308
  let c0_i32_155 : BitVec 32 := 0#32
  let v311 : BitVec 1 := Scalar.cmpi .slt v309 c0_i32_155
  let c0_i32_156 : BitVec 32 := 0#32
  let v312 : BitVec 1 := Scalar.cmpi .slt v308 c0_i32_156
  let v313 : BitVec 1 := Scalar.xori v311 v312
  let c0_i32_154 : BitVec 32 := 0#32
  let v310 : BitVec 1 := Scalar.cmpi .ne v309 c0_i32_154
  let v314 : BitVec 1 := Scalar.andi v313 v310
  let v315 : BitVec 32 := Scalar.addi v309 v308
  let v316 : BitVec 32 := Scalar.select v314 v315 v309
  let c2_i32_157 : BitVec 32 := 2#32
  let v317 : BitVec 1 := Scalar.cmpi .slt v316 c2_i32_157
  let c6_i32_158 : BitVec 32 := 6#32
  let v318 : BitVec 32 := Scalar.addi c6_i32_158 v316
  let c3_i32_159 : BitVec 32 := 3#32
  let v319 : BitVec 32 := Scalar.muli c3_i32_159 v316
  let c4_i32_160 : BitVec 32 := 4#32
  let v320 : BitVec 32 := Scalar.subi v319 c4_i32_160
  let v321 : BitVec 32 := Scalar.select v317 v318 v320
  let v327 : BitVec 32 := Scalar.addi v326 v321
  let c4_i32_165 : BitVec 32 := 4#32
  let v328 : BitVec 32 := Scalar.muli v327 c4_i32_165
  let c2_i32_142 : BitVec 32 := 2#32
  let c2_i32_136 : BitVec 32 := 2#32
  let c0_i32_137 : BitVec 32 := 0#32
  let v278 : BitVec 1 := Scalar.cmpi .eq c2_i32_136 c0_i32_137
  let c1_i32_138 : BitVec 32 := 1#32
  let v279 : BitVec 32 := Scalar.select v278 c1_i32_138 c2_i32_136
  let v280 : BitVec 32 := Scalar.remsi v1 v279
  let c0_i32_140 : BitVec 32 := 0#32
  let v282 : BitVec 1 := Scalar.cmpi .slt v280 c0_i32_140
  let c0_i32_141 : BitVec 32 := 0#32
  let v283 : BitVec 1 := Scalar.cmpi .slt v279 c0_i32_141
  let v284 : BitVec 1 := Scalar.xori v282 v283
  let c0_i32_139 : BitVec 32 := 0#32
  let v281 : BitVec 1 := Scalar.cmpi .ne v280 c0_i32_139
  let v285 : BitVec 1 := Scalar.andi v284 v281
  let v286 : BitVec 32 := Scalar.addi v280 v279
  let v287 : BitVec 32 := Scalar.select v285 v286 v280
  let v288 : BitVec 32 := Scalar.muli c2_i32_142 v287
  let c1_i32_143 : BitVec 32 := 1#32
  let v289 : BitVec 32 := Scalar.addi v288 c1_i32_143
  let v329 : BitVec 32 := Scalar.addi v328 v289
  let c65536_i32_166 : BitVec 32 := 65536#32
  let v330 : BitVec 32 := Scalar.muli v329 c65536_i32_166
  v330
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c2_i32_197 : BitVec 32 := 2#32
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let v378 : BitVec 32 := Scalar.divsi v1 c2_i32_197
  let c1_i32_203 : BitVec 32 := 1#32
  let v393 : BitVec 32 := Scalar.subi v378 c1_i32_203
  let v394 : BitVec 32 := Scalar.select v392 v393 v378
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c4_i32_212 : BitVec 32 := 4#32
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let v407 : BitVec 32 := Scalar.divsi v394 c4_i32_212
  let c1_i32_218 : BitVec 32 := 1#32
  let v422 : BitVec 32 := Scalar.subi v407 c1_i32_218
  let v423 : BitVec 32 := Scalar.select v421 v422 v407
  let c60_i32_235 : BitVec 32 := 60#32
  let v448 : BitVec 32 := Scalar.muli v423 c60_i32_235
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let c0_i32_222 : BitVec 32 := 0#32
  let v427 : BitVec 1 := Scalar.cmpi .ne v426 c0_i32_222
  let v431 : BitVec 1 := Scalar.andi v430 v427
  let v432 : BitVec 32 := Scalar.addi v426 v425
  let v433 : BitVec 32 := Scalar.select v431 v432 v426
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let v449 : BitVec 32 := Scalar.addi v448 v442
  let c0_i32_236 : BitVec 32 := 0#32
  let v450 : BitVec 32 := Scalar.addi v449 c0_i32_236
  let c4_i32_237 : BitVec 32 := 4#32
  let v451 : BitVec 32 := Scalar.muli v450 c4_i32_237
  let c2_i32_210 : BitVec 32 := 2#32
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let c0_i32_207 : BitVec 32 := 0#32
  let v398 : BitVec 1 := Scalar.cmpi .ne v397 c0_i32_207
  let v402 : BitVec 1 := Scalar.andi v401 v398
  let v403 : BitVec 32 := Scalar.addi v397 v396
  let v404 : BitVec 32 := Scalar.select v402 v403 v397
  let v405 : BitVec 32 := Scalar.muli c2_i32_210 v404
  let c1_i32_211 : BitVec 32 := 1#32
  let v406 : BitVec 32 := Scalar.addi v405 c1_i32_211
  let v452 : BitVec 32 := Scalar.addi v451 v406
  let c65536_i32_238 : BitVec 32 := 65536#32
  let v453 : BitVec 32 := Scalar.muli v452 c65536_i32_238
  v453
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c2_i32_197 : BitVec 32 := 2#32
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let v378 : BitVec 32 := Scalar.divsi v1 c2_i32_197
  let c1_i32_203 : BitVec 32 := 1#32
  let v393 : BitVec 32 := Scalar.subi v378 c1_i32_203
  let v394 : BitVec 32 := Scalar.select v392 v393 v378
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c4_i32_212 : BitVec 32 := 4#32
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let v407 : BitVec 32 := Scalar.divsi v394 c4_i32_212
  let c1_i32_218 : BitVec 32 := 1#32
  let v422 : BitVec 32 := Scalar.subi v407 c1_i32_218
  let v423 : BitVec 32 := Scalar.select v421 v422 v407
  let c60_i32_239 : BitVec 32 := 60#32
  let v454 : BitVec 32 := Scalar.muli v423 c60_i32_239
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let c0_i32_222 : BitVec 32 := 0#32
  let v427 : BitVec 1 := Scalar.cmpi .ne v426 c0_i32_222
  let v431 : BitVec 1 := Scalar.andi v430 v427
  let v432 : BitVec 32 := Scalar.addi v426 v425
  let v433 : BitVec 32 := Scalar.select v431 v432 v426
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let v455 : BitVec 32 := Scalar.addi v454 v442
  let c3_i32_240 : BitVec 32 := 3#32
  let v456 : BitVec 32 := Scalar.addi v455 c3_i32_240
  let c4_i32_241 : BitVec 32 := 4#32
  let v457 : BitVec 32 := Scalar.muli v456 c4_i32_241
  let c2_i32_210 : BitVec 32 := 2#32
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let c0_i32_207 : BitVec 32 := 0#32
  let v398 : BitVec 1 := Scalar.cmpi .ne v397 c0_i32_207
  let v402 : BitVec 1 := Scalar.andi v401 v398
  let v403 : BitVec 32 := Scalar.addi v397 v396
  let v404 : BitVec 32 := Scalar.select v402 v403 v397
  let v405 : BitVec 32 := Scalar.muli c2_i32_210 v404
  let c1_i32_211 : BitVec 32 := 1#32
  let v406 : BitVec 32 := Scalar.addi v405 c1_i32_211
  let v458 : BitVec 32 := Scalar.addi v457 v406
  let c65536_i32_242 : BitVec 32 := 65536#32
  let v459 : BitVec 32 := Scalar.muli v458 c65536_i32_242
  v459
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c2_i32_197 : BitVec 32 := 2#32
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let v378 : BitVec 32 := Scalar.divsi v1 c2_i32_197
  let c1_i32_203 : BitVec 32 := 1#32
  let v393 : BitVec 32 := Scalar.subi v378 c1_i32_203
  let v394 : BitVec 32 := Scalar.select v392 v393 v378
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c4_i32_212 : BitVec 32 := 4#32
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let v407 : BitVec 32 := Scalar.divsi v394 c4_i32_212
  let c1_i32_218 : BitVec 32 := 1#32
  let v422 : BitVec 32 := Scalar.subi v407 c1_i32_218
  let v423 : BitVec 32 := Scalar.select v421 v422 v407
  let c60_i32_243 : BitVec 32 := 60#32
  let v460 : BitVec 32 := Scalar.muli v423 c60_i32_243
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let c0_i32_222 : BitVec 32 := 0#32
  let v427 : BitVec 1 := Scalar.cmpi .ne v426 c0_i32_222
  let v431 : BitVec 1 := Scalar.andi v430 v427
  let v432 : BitVec 32 := Scalar.addi v426 v425
  let v433 : BitVec 32 := Scalar.select v431 v432 v426
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let v461 : BitVec 32 := Scalar.addi v460 v442
  let c6_i32_244 : BitVec 32 := 6#32
  let v462 : BitVec 32 := Scalar.addi v461 c6_i32_244
  let c4_i32_245 : BitVec 32 := 4#32
  let v463 : BitVec 32 := Scalar.muli v462 c4_i32_245
  let c2_i32_210 : BitVec 32 := 2#32
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let c0_i32_207 : BitVec 32 := 0#32
  let v398 : BitVec 1 := Scalar.cmpi .ne v397 c0_i32_207
  let v402 : BitVec 1 := Scalar.andi v401 v398
  let v403 : BitVec 32 := Scalar.addi v397 v396
  let v404 : BitVec 32 := Scalar.select v402 v403 v397
  let v405 : BitVec 32 := Scalar.muli c2_i32_210 v404
  let c1_i32_211 : BitVec 32 := 1#32
  let v406 : BitVec 32 := Scalar.addi v405 c1_i32_211
  let v464 : BitVec 32 := Scalar.addi v463 v406
  let c65536_i32_246 : BitVec 32 := 65536#32
  let v465 : BitVec 32 := Scalar.muli v464 c65536_i32_246
  v465
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c2_i32_197 : BitVec 32 := 2#32
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let v378 : BitVec 32 := Scalar.divsi v1 c2_i32_197
  let c1_i32_203 : BitVec 32 := 1#32
  let v393 : BitVec 32 := Scalar.subi v378 c1_i32_203
  let v394 : BitVec 32 := Scalar.select v392 v393 v378
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c4_i32_212 : BitVec 32 := 4#32
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let v407 : BitVec 32 := Scalar.divsi v394 c4_i32_212
  let c1_i32_218 : BitVec 32 := 1#32
  let v422 : BitVec 32 := Scalar.subi v407 c1_i32_218
  let v423 : BitVec 32 := Scalar.select v421 v422 v407
  let c60_i32_247 : BitVec 32 := 60#32
  let v466 : BitVec 32 := Scalar.muli v423 c60_i32_247
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let c0_i32_222 : BitVec 32 := 0#32
  let v427 : BitVec 1 := Scalar.cmpi .ne v426 c0_i32_222
  let v431 : BitVec 1 := Scalar.andi v430 v427
  let v432 : BitVec 32 := Scalar.addi v426 v425
  let v433 : BitVec 32 := Scalar.select v431 v432 v426
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let v467 : BitVec 32 := Scalar.addi v466 v442
  let c9_i32_248 : BitVec 32 := 9#32
  let v468 : BitVec 32 := Scalar.addi v467 c9_i32_248
  let c4_i32_249 : BitVec 32 := 4#32
  let v469 : BitVec 32 := Scalar.muli v468 c4_i32_249
  let c2_i32_210 : BitVec 32 := 2#32
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let c0_i32_207 : BitVec 32 := 0#32
  let v398 : BitVec 1 := Scalar.cmpi .ne v397 c0_i32_207
  let v402 : BitVec 1 := Scalar.andi v401 v398
  let v403 : BitVec 32 := Scalar.addi v397 v396
  let v404 : BitVec 32 := Scalar.select v402 v403 v397
  let v405 : BitVec 32 := Scalar.muli c2_i32_210 v404
  let c1_i32_211 : BitVec 32 := 1#32
  let v406 : BitVec 32 := Scalar.addi v405 c1_i32_211
  let v470 : BitVec 32 := Scalar.addi v469 v406
  let c65536_i32_250 : BitVec 32 := 65536#32
  let v471 : BitVec 32 := Scalar.muli v470 c65536_i32_250
  v471
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c2_i32_197 : BitVec 32 := 2#32
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let v378 : BitVec 32 := Scalar.divsi v1 c2_i32_197
  let c1_i32_203 : BitVec 32 := 1#32
  let v393 : BitVec 32 := Scalar.subi v378 c1_i32_203
  let v394 : BitVec 32 := Scalar.select v392 v393 v378
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c4_i32_212 : BitVec 32 := 4#32
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let v407 : BitVec 32 := Scalar.divsi v394 c4_i32_212
  let c1_i32_218 : BitVec 32 := 1#32
  let v422 : BitVec 32 := Scalar.subi v407 c1_i32_218
  let v423 : BitVec 32 := Scalar.select v421 v422 v407
  let c60_i32_251 : BitVec 32 := 60#32
  let v472 : BitVec 32 := Scalar.muli v423 c60_i32_251
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let c0_i32_222 : BitVec 32 := 0#32
  let v427 : BitVec 1 := Scalar.cmpi .ne v426 c0_i32_222
  let v431 : BitVec 1 := Scalar.andi v430 v427
  let v432 : BitVec 32 := Scalar.addi v426 v425
  let v433 : BitVec 32 := Scalar.select v431 v432 v426
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let v473 : BitVec 32 := Scalar.addi v472 v442
  let c12_i32_252 : BitVec 32 := 12#32
  let v474 : BitVec 32 := Scalar.addi v473 c12_i32_252
  let c4_i32_253 : BitVec 32 := 4#32
  let v475 : BitVec 32 := Scalar.muli v474 c4_i32_253
  let c2_i32_210 : BitVec 32 := 2#32
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let c0_i32_207 : BitVec 32 := 0#32
  let v398 : BitVec 1 := Scalar.cmpi .ne v397 c0_i32_207
  let v402 : BitVec 1 := Scalar.andi v401 v398
  let v403 : BitVec 32 := Scalar.addi v397 v396
  let v404 : BitVec 32 := Scalar.select v402 v403 v397
  let v405 : BitVec 32 := Scalar.muli c2_i32_210 v404
  let c1_i32_211 : BitVec 32 := 1#32
  let v406 : BitVec 32 := Scalar.addi v405 c1_i32_211
  let v476 : BitVec 32 := Scalar.addi v475 v406
  let c65536_i32_254 : BitVec 32 := 65536#32
  let v477 : BitVec 32 := Scalar.muli v476 c65536_i32_254
  v477
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c2_i32_197 : BitVec 32 := 2#32
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let v378 : BitVec 32 := Scalar.divsi v1 c2_i32_197
  let c1_i32_203 : BitVec 32 := 1#32
  let v393 : BitVec 32 := Scalar.subi v378 c1_i32_203
  let v394 : BitVec 32 := Scalar.select v392 v393 v378
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c4_i32_212 : BitVec 32 := 4#32
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let v407 : BitVec 32 := Scalar.divsi v394 c4_i32_212
  let c1_i32_218 : BitVec 32 := 1#32
  let v422 : BitVec 32 := Scalar.subi v407 c1_i32_218
  let v423 : BitVec 32 := Scalar.select v421 v422 v407
  let c60_i32_255 : BitVec 32 := 60#32
  let v478 : BitVec 32 := Scalar.muli v423 c60_i32_255
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let c0_i32_222 : BitVec 32 := 0#32
  let v427 : BitVec 1 := Scalar.cmpi .ne v426 c0_i32_222
  let v431 : BitVec 1 := Scalar.andi v430 v427
  let v432 : BitVec 32 := Scalar.addi v426 v425
  let v433 : BitVec 32 := Scalar.select v431 v432 v426
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let v479 : BitVec 32 := Scalar.addi v478 v442
  let c15_i32_256 : BitVec 32 := 15#32
  let v480 : BitVec 32 := Scalar.addi v479 c15_i32_256
  let c4_i32_257 : BitVec 32 := 4#32
  let v481 : BitVec 32 := Scalar.muli v480 c4_i32_257
  let c2_i32_210 : BitVec 32 := 2#32
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let c0_i32_207 : BitVec 32 := 0#32
  let v398 : BitVec 1 := Scalar.cmpi .ne v397 c0_i32_207
  let v402 : BitVec 1 := Scalar.andi v401 v398
  let v403 : BitVec 32 := Scalar.addi v397 v396
  let v404 : BitVec 32 := Scalar.select v402 v403 v397
  let v405 : BitVec 32 := Scalar.muli c2_i32_210 v404
  let c1_i32_211 : BitVec 32 := 1#32
  let v406 : BitVec 32 := Scalar.addi v405 c1_i32_211
  let v482 : BitVec 32 := Scalar.addi v481 v406
  let c65536_i32_258 : BitVec 32 := 65536#32
  let v483 : BitVec 32 := Scalar.muli v482 c65536_i32_258
  v483
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c2_i32_197 : BitVec 32 := 2#32
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let v378 : BitVec 32 := Scalar.divsi v1 c2_i32_197
  let c1_i32_203 : BitVec 32 := 1#32
  let v393 : BitVec 32 := Scalar.subi v378 c1_i32_203
  let v394 : BitVec 32 := Scalar.select v392 v393 v378
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c4_i32_212 : BitVec 32 := 4#32
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let v407 : BitVec 32 := Scalar.divsi v394 c4_i32_212
  let c1_i32_218 : BitVec 32 := 1#32
  let v422 : BitVec 32 := Scalar.subi v407 c1_i32_218
  let v423 : BitVec 32 := Scalar.select v421 v422 v407
  let c60_i32_259 : BitVec 32 := 60#32
  let v484 : BitVec 32 := Scalar.muli v423 c60_i32_259
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let c0_i32_222 : BitVec 32 := 0#32
  let v427 : BitVec 1 := Scalar.cmpi .ne v426 c0_i32_222
  let v431 : BitVec 1 := Scalar.andi v430 v427
  let v432 : BitVec 32 := Scalar.addi v426 v425
  let v433 : BitVec 32 := Scalar.select v431 v432 v426
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let v485 : BitVec 32 := Scalar.addi v484 v442
  let c18_i32_260 : BitVec 32 := 18#32
  let v486 : BitVec 32 := Scalar.addi v485 c18_i32_260
  let c4_i32_261 : BitVec 32 := 4#32
  let v487 : BitVec 32 := Scalar.muli v486 c4_i32_261
  let c2_i32_210 : BitVec 32 := 2#32
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let c0_i32_207 : BitVec 32 := 0#32
  let v398 : BitVec 1 := Scalar.cmpi .ne v397 c0_i32_207
  let v402 : BitVec 1 := Scalar.andi v401 v398
  let v403 : BitVec 32 := Scalar.addi v397 v396
  let v404 : BitVec 32 := Scalar.select v402 v403 v397
  let v405 : BitVec 32 := Scalar.muli c2_i32_210 v404
  let c1_i32_211 : BitVec 32 := 1#32
  let v406 : BitVec 32 := Scalar.addi v405 c1_i32_211
  let v488 : BitVec 32 := Scalar.addi v487 v406
  let c65536_i32_262 : BitVec 32 := 65536#32
  let v489 : BitVec 32 := Scalar.muli v488 c65536_i32_262
  v489
def k0_mult17 (i : grid0.Coords) : BitVec 32 :=
  let c2_i32_277 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v532 : BitVec 32 := Scalar.muli c2_i32_277 v1
  let c0_i32_278 : BitVec 32 := 0#32
  let v533 : BitVec 32 := Scalar.addi v532 c0_i32_278
  let c0_i32_280 : BitVec 32 := 0#32
  let v535 : BitVec 1 := Scalar.cmpi .sgt v533 c0_i32_280
  let v536 : BitVec 32 := Scalar.extui v535
  let c0_i32_281 : BitVec 32 := 0#32
  let v537 : BitVec 1 := Scalar.cmpi .slt v533 c0_i32_281
  let v538 : BitVec 32 := Scalar.extui v537
  let v539 : BitVec 32 := Scalar.subi v536 v538
  let c16_i32_279 : BitVec 32 := 16#32
  let c0_i32_282 : BitVec 32 := 0#32
  let v540 : BitVec 1 := Scalar.cmpi .sgt c16_i32_279 c0_i32_282
  let v541 : BitVec 32 := Scalar.extui v540
  let c0_i32_283 : BitVec 32 := 0#32
  let v542 : BitVec 1 := Scalar.cmpi .slt c16_i32_279 c0_i32_283
  let v543 : BitVec 32 := Scalar.extui v542
  let v544 : BitVec 32 := Scalar.subi v541 v543
  let v545 : BitVec 1 := Scalar.cmpi .ne v539 v544
  let v546 : BitVec 32 := Scalar.remsi v533 c16_i32_279
  let c0_i32_284 : BitVec 32 := 0#32
  let v547 : BitVec 1 := Scalar.cmpi .ne v546 c0_i32_284
  let v548 : BitVec 1 := Scalar.andi v545 v547
  let v534 : BitVec 32 := Scalar.divsi v533 c16_i32_279
  let c1_i32_285 : BitVec 32 := 1#32
  let v549 : BitVec 32 := Scalar.subi v534 c1_i32_285
  let v550 : BitVec 32 := Scalar.select v548 v549 v534
  let c16_i32_292 : BitVec 32 := 16#32
  let v561 : BitVec 32 := Scalar.muli v550 c16_i32_292
  let c16_i32_286 : BitVec 32 := 16#32
  let c0_i32_287 : BitVec 32 := 0#32
  let v551 : BitVec 1 := Scalar.cmpi .eq c16_i32_286 c0_i32_287
  let c1_i32_288 : BitVec 32 := 1#32
  let v552 : BitVec 32 := Scalar.select v551 c1_i32_288 c16_i32_286
  let v553 : BitVec 32 := Scalar.remsi v533 v552
  let c0_i32_290 : BitVec 32 := 0#32
  let v555 : BitVec 1 := Scalar.cmpi .slt v553 c0_i32_290
  let c0_i32_291 : BitVec 32 := 0#32
  let v556 : BitVec 1 := Scalar.cmpi .slt v552 c0_i32_291
  let v557 : BitVec 1 := Scalar.xori v555 v556
  let c0_i32_289 : BitVec 32 := 0#32
  let v554 : BitVec 1 := Scalar.cmpi .ne v553 c0_i32_289
  let v558 : BitVec 1 := Scalar.andi v557 v554
  let v559 : BitVec 32 := Scalar.addi v553 v552
  let v560 : BitVec 32 := Scalar.select v558 v559 v553
  let v562 : BitVec 32 := Scalar.addi v561 v560
  let c4_i32_293 : BitVec 32 := 4#32
  let v563 : BitVec 32 := Scalar.muli v562 c4_i32_293
  let c0_i32_294 : BitVec 32 := 0#32
  let v564 : BitVec 32 := Scalar.addi v563 c0_i32_294
  let c65536_i32_295 : BitVec 32 := 65536#32
  let v565 : BitVec 32 := Scalar.muli v564 c65536_i32_295
  v565
def k0_off4 (i : grid0.Coords) (c0_i32_278 : BitVec 32) (c0_i32_294 : BitVec 32) : Fin 1 → Nat :=
  let c2_i32_277 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v532 : BitVec 32 := Scalar.muli c2_i32_277 v1
  let v533 : BitVec 32 := Scalar.addi v532 c0_i32_278
  let c0_i32_280 : BitVec 32 := 0#32
  let v535 : BitVec 1 := Scalar.cmpi .sgt v533 c0_i32_280
  let v536 : BitVec 32 := Scalar.extui v535
  let c0_i32_281 : BitVec 32 := 0#32
  let v537 : BitVec 1 := Scalar.cmpi .slt v533 c0_i32_281
  let v538 : BitVec 32 := Scalar.extui v537
  let v539 : BitVec 32 := Scalar.subi v536 v538
  let c16_i32_279 : BitVec 32 := 16#32
  let c0_i32_282 : BitVec 32 := 0#32
  let v540 : BitVec 1 := Scalar.cmpi .sgt c16_i32_279 c0_i32_282
  let v541 : BitVec 32 := Scalar.extui v540
  let c0_i32_283 : BitVec 32 := 0#32
  let v542 : BitVec 1 := Scalar.cmpi .slt c16_i32_279 c0_i32_283
  let v543 : BitVec 32 := Scalar.extui v542
  let v544 : BitVec 32 := Scalar.subi v541 v543
  let v545 : BitVec 1 := Scalar.cmpi .ne v539 v544
  let v546 : BitVec 32 := Scalar.remsi v533 c16_i32_279
  let c0_i32_284 : BitVec 32 := 0#32
  let v547 : BitVec 1 := Scalar.cmpi .ne v546 c0_i32_284
  let v548 : BitVec 1 := Scalar.andi v545 v547
  let v534 : BitVec 32 := Scalar.divsi v533 c16_i32_279
  let c1_i32_285 : BitVec 32 := 1#32
  let v549 : BitVec 32 := Scalar.subi v534 c1_i32_285
  let v550 : BitVec 32 := Scalar.select v548 v549 v534
  let c16_i32_292 : BitVec 32 := 16#32
  let v561 : BitVec 32 := Scalar.muli v550 c16_i32_292
  let c16_i32_286 : BitVec 32 := 16#32
  let c0_i32_287 : BitVec 32 := 0#32
  let v551 : BitVec 1 := Scalar.cmpi .eq c16_i32_286 c0_i32_287
  let c1_i32_288 : BitVec 32 := 1#32
  let v552 : BitVec 32 := Scalar.select v551 c1_i32_288 c16_i32_286
  let v553 : BitVec 32 := Scalar.remsi v533 v552
  let c0_i32_290 : BitVec 32 := 0#32
  let v555 : BitVec 1 := Scalar.cmpi .slt v553 c0_i32_290
  let c0_i32_291 : BitVec 32 := 0#32
  let v556 : BitVec 1 := Scalar.cmpi .slt v552 c0_i32_291
  let v557 : BitVec 1 := Scalar.xori v555 v556
  let c0_i32_289 : BitVec 32 := 0#32
  let v554 : BitVec 1 := Scalar.cmpi .ne v553 c0_i32_289
  let v558 : BitVec 1 := Scalar.andi v557 v554
  let v559 : BitVec 32 := Scalar.addi v553 v552
  let v560 : BitVec 32 := Scalar.select v558 v559 v553
  let v562 : BitVec 32 := Scalar.addi v561 v560
  let c4_i32_293 : BitVec 32 := 4#32
  let v563 : BitVec 32 := Scalar.muli v562 c4_i32_293
  let v564 : BitVec 32 := Scalar.addi v563 c0_i32_294
  let c65536_i32_295 : BitVec 32 := 65536#32
  let v565 : BitVec 32 := Scalar.muli v564 c65536_i32_295
  let v614 : BitVec 32 := v565
  ![v614.toNat]
def k0_mult18 (i : grid0.Coords) : BitVec 32 :=
  let c2_i32_326 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v621 : BitVec 32 := Scalar.muli c2_i32_326 v1
  let c0_i32_327 : BitVec 32 := 0#32
  let v622 : BitVec 32 := Scalar.addi v621 c0_i32_327
  let c0_i32_329 : BitVec 32 := 0#32
  let v624 : BitVec 1 := Scalar.cmpi .sgt v622 c0_i32_329
  let v625 : BitVec 32 := Scalar.extui v624
  let c0_i32_330 : BitVec 32 := 0#32
  let v626 : BitVec 1 := Scalar.cmpi .slt v622 c0_i32_330
  let v627 : BitVec 32 := Scalar.extui v626
  let v628 : BitVec 32 := Scalar.subi v625 v627
  let c16_i32_328 : BitVec 32 := 16#32
  let c0_i32_331 : BitVec 32 := 0#32
  let v629 : BitVec 1 := Scalar.cmpi .sgt c16_i32_328 c0_i32_331
  let v630 : BitVec 32 := Scalar.extui v629
  let c0_i32_332 : BitVec 32 := 0#32
  let v631 : BitVec 1 := Scalar.cmpi .slt c16_i32_328 c0_i32_332
  let v632 : BitVec 32 := Scalar.extui v631
  let v633 : BitVec 32 := Scalar.subi v630 v632
  let v634 : BitVec 1 := Scalar.cmpi .ne v628 v633
  let v635 : BitVec 32 := Scalar.remsi v622 c16_i32_328
  let c0_i32_333 : BitVec 32 := 0#32
  let v636 : BitVec 1 := Scalar.cmpi .ne v635 c0_i32_333
  let v637 : BitVec 1 := Scalar.andi v634 v636
  let v623 : BitVec 32 := Scalar.divsi v622 c16_i32_328
  let c1_i32_334 : BitVec 32 := 1#32
  let v638 : BitVec 32 := Scalar.subi v623 c1_i32_334
  let v639 : BitVec 32 := Scalar.select v637 v638 v623
  let c60_i32_366 : BitVec 32 := 60#32
  let v693 : BitVec 32 := Scalar.muli v639 c60_i32_366
  let c16_i32_335 : BitVec 32 := 16#32
  let c0_i32_336 : BitVec 32 := 0#32
  let v640 : BitVec 1 := Scalar.cmpi .eq c16_i32_335 c0_i32_336
  let c1_i32_337 : BitVec 32 := 1#32
  let v641 : BitVec 32 := Scalar.select v640 c1_i32_337 c16_i32_335
  let v642 : BitVec 32 := Scalar.remsi v622 v641
  let c0_i32_339 : BitVec 32 := 0#32
  let v644 : BitVec 1 := Scalar.cmpi .slt v642 c0_i32_339
  let c0_i32_340 : BitVec 32 := 0#32
  let v645 : BitVec 1 := Scalar.cmpi .slt v641 c0_i32_340
  let v646 : BitVec 1 := Scalar.xori v644 v645
  let c0_i32_338 : BitVec 32 := 0#32
  let v643 : BitVec 1 := Scalar.cmpi .ne v642 c0_i32_338
  let v647 : BitVec 1 := Scalar.andi v646 v643
  let v648 : BitVec 32 := Scalar.addi v642 v641
  let v649 : BitVec 32 := Scalar.select v647 v648 v642
  let c9_i32_345 : BitVec 32 := 9#32
  let v655 : BitVec 1 := Scalar.cmpi .slt v649 c9_i32_345
  let c3_i32_346 : BitVec 32 := 3#32
  let v656 : BitVec 32 := Scalar.muli c3_i32_346 v649
  let c16_i32_347 : BitVec 32 := 16#32
  let v657 : BitVec 32 := Scalar.subi v656 c16_i32_347
  let v658 : BitVec 32 := Scalar.select v655 v649 v657
  let v694 : BitVec 32 := Scalar.addi v693 v658
  let c4_i32_367 : BitVec 32 := 4#32
  let v695 : BitVec 32 := Scalar.muli v694 c4_i32_367
  let c0_i32_368 : BitVec 32 := 0#32
  let v696 : BitVec 32 := Scalar.addi v695 c0_i32_368
  let c65536_i32_369 : BitVec 32 := 65536#32
  let v697 : BitVec 32 := Scalar.muli v696 c65536_i32_369
  v697
def k0_off5 (i : grid0.Coords) (c0_i32_327 : BitVec 32) (c0_i32_368 : BitVec 32) : Fin 1 → Nat :=
  let c2_i32_326 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v621 : BitVec 32 := Scalar.muli c2_i32_326 v1
  let v622 : BitVec 32 := Scalar.addi v621 c0_i32_327
  let c0_i32_329 : BitVec 32 := 0#32
  let v624 : BitVec 1 := Scalar.cmpi .sgt v622 c0_i32_329
  let v625 : BitVec 32 := Scalar.extui v624
  let c0_i32_330 : BitVec 32 := 0#32
  let v626 : BitVec 1 := Scalar.cmpi .slt v622 c0_i32_330
  let v627 : BitVec 32 := Scalar.extui v626
  let v628 : BitVec 32 := Scalar.subi v625 v627
  let c16_i32_328 : BitVec 32 := 16#32
  let c0_i32_331 : BitVec 32 := 0#32
  let v629 : BitVec 1 := Scalar.cmpi .sgt c16_i32_328 c0_i32_331
  let v630 : BitVec 32 := Scalar.extui v629
  let c0_i32_332 : BitVec 32 := 0#32
  let v631 : BitVec 1 := Scalar.cmpi .slt c16_i32_328 c0_i32_332
  let v632 : BitVec 32 := Scalar.extui v631
  let v633 : BitVec 32 := Scalar.subi v630 v632
  let v634 : BitVec 1 := Scalar.cmpi .ne v628 v633
  let v635 : BitVec 32 := Scalar.remsi v622 c16_i32_328
  let c0_i32_333 : BitVec 32 := 0#32
  let v636 : BitVec 1 := Scalar.cmpi .ne v635 c0_i32_333
  let v637 : BitVec 1 := Scalar.andi v634 v636
  let v623 : BitVec 32 := Scalar.divsi v622 c16_i32_328
  let c1_i32_334 : BitVec 32 := 1#32
  let v638 : BitVec 32 := Scalar.subi v623 c1_i32_334
  let v639 : BitVec 32 := Scalar.select v637 v638 v623
  let c60_i32_366 : BitVec 32 := 60#32
  let v693 : BitVec 32 := Scalar.muli v639 c60_i32_366
  let c16_i32_335 : BitVec 32 := 16#32
  let c0_i32_336 : BitVec 32 := 0#32
  let v640 : BitVec 1 := Scalar.cmpi .eq c16_i32_335 c0_i32_336
  let c1_i32_337 : BitVec 32 := 1#32
  let v641 : BitVec 32 := Scalar.select v640 c1_i32_337 c16_i32_335
  let v642 : BitVec 32 := Scalar.remsi v622 v641
  let c0_i32_339 : BitVec 32 := 0#32
  let v644 : BitVec 1 := Scalar.cmpi .slt v642 c0_i32_339
  let c0_i32_340 : BitVec 32 := 0#32
  let v645 : BitVec 1 := Scalar.cmpi .slt v641 c0_i32_340
  let v646 : BitVec 1 := Scalar.xori v644 v645
  let c0_i32_338 : BitVec 32 := 0#32
  let v643 : BitVec 1 := Scalar.cmpi .ne v642 c0_i32_338
  let v647 : BitVec 1 := Scalar.andi v646 v643
  let v648 : BitVec 32 := Scalar.addi v642 v641
  let v649 : BitVec 32 := Scalar.select v647 v648 v642
  let c9_i32_345 : BitVec 32 := 9#32
  let v655 : BitVec 1 := Scalar.cmpi .slt v649 c9_i32_345
  let c3_i32_346 : BitVec 32 := 3#32
  let v656 : BitVec 32 := Scalar.muli c3_i32_346 v649
  let c16_i32_347 : BitVec 32 := 16#32
  let v657 : BitVec 32 := Scalar.subi v656 c16_i32_347
  let v658 : BitVec 32 := Scalar.select v655 v649 v657
  let v694 : BitVec 32 := Scalar.addi v693 v658
  let c4_i32_367 : BitVec 32 := 4#32
  let v695 : BitVec 32 := Scalar.muli v694 c4_i32_367
  let v696 : BitVec 32 := Scalar.addi v695 c0_i32_368
  let c65536_i32_369 : BitVec 32 := 65536#32
  let v697 : BitVec 32 := Scalar.muli v696 c65536_i32_369
  let v703 : BitVec 32 := v697
  ![v703.toNat]
def k0_mult19 (i : grid0.Coords) : BitVec 32 :=
  let c2_i32_326 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v621 : BitVec 32 := Scalar.muli c2_i32_326 v1
  let c0_i32_327 : BitVec 32 := 0#32
  let v622 : BitVec 32 := Scalar.addi v621 c0_i32_327
  let c0_i32_329 : BitVec 32 := 0#32
  let v624 : BitVec 1 := Scalar.cmpi .sgt v622 c0_i32_329
  let v625 : BitVec 32 := Scalar.extui v624
  let c0_i32_330 : BitVec 32 := 0#32
  let v626 : BitVec 1 := Scalar.cmpi .slt v622 c0_i32_330
  let v627 : BitVec 32 := Scalar.extui v626
  let v628 : BitVec 32 := Scalar.subi v625 v627
  let c16_i32_328 : BitVec 32 := 16#32
  let c0_i32_331 : BitVec 32 := 0#32
  let v629 : BitVec 1 := Scalar.cmpi .sgt c16_i32_328 c0_i32_331
  let v630 : BitVec 32 := Scalar.extui v629
  let c0_i32_332 : BitVec 32 := 0#32
  let v631 : BitVec 1 := Scalar.cmpi .slt c16_i32_328 c0_i32_332
  let v632 : BitVec 32 := Scalar.extui v631
  let v633 : BitVec 32 := Scalar.subi v630 v632
  let v634 : BitVec 1 := Scalar.cmpi .ne v628 v633
  let v635 : BitVec 32 := Scalar.remsi v622 c16_i32_328
  let c0_i32_333 : BitVec 32 := 0#32
  let v636 : BitVec 1 := Scalar.cmpi .ne v635 c0_i32_333
  let v637 : BitVec 1 := Scalar.andi v634 v636
  let v623 : BitVec 32 := Scalar.divsi v622 c16_i32_328
  let c1_i32_334 : BitVec 32 := 1#32
  let v638 : BitVec 32 := Scalar.subi v623 c1_i32_334
  let v639 : BitVec 32 := Scalar.select v637 v638 v623
  let c60_i32_370 : BitVec 32 := 60#32
  let v698 : BitVec 32 := Scalar.muli v639 c60_i32_370
  let c16_i32_335 : BitVec 32 := 16#32
  let c0_i32_336 : BitVec 32 := 0#32
  let v640 : BitVec 1 := Scalar.cmpi .eq c16_i32_335 c0_i32_336
  let c1_i32_337 : BitVec 32 := 1#32
  let v641 : BitVec 32 := Scalar.select v640 c1_i32_337 c16_i32_335
  let v642 : BitVec 32 := Scalar.remsi v622 v641
  let c0_i32_339 : BitVec 32 := 0#32
  let v644 : BitVec 1 := Scalar.cmpi .slt v642 c0_i32_339
  let c0_i32_340 : BitVec 32 := 0#32
  let v645 : BitVec 1 := Scalar.cmpi .slt v641 c0_i32_340
  let v646 : BitVec 1 := Scalar.xori v644 v645
  let c0_i32_338 : BitVec 32 := 0#32
  let v643 : BitVec 1 := Scalar.cmpi .ne v642 c0_i32_338
  let v647 : BitVec 1 := Scalar.andi v646 v643
  let v648 : BitVec 32 := Scalar.addi v642 v641
  let v649 : BitVec 32 := Scalar.select v647 v648 v642
  let c9_i32_348 : BitVec 32 := 9#32
  let v659 : BitVec 1 := Scalar.cmpi .slt v649 c9_i32_348
  let c30_i32_356 : BitVec 32 := 30#32
  let c3_i32_355 : BitVec 32 := 3#32
  let c3_i32_349 : BitVec 32 := 3#32
  let c0_i32_350 : BitVec 32 := 0#32
  let v660 : BitVec 1 := Scalar.cmpi .eq c3_i32_349 c0_i32_350
  let c1_i32_351 : BitVec 32 := 1#32
  let v661 : BitVec 32 := Scalar.select v660 c1_i32_351 c3_i32_349
  let v662 : BitVec 32 := Scalar.remsi v649 v661
  let c0_i32_353 : BitVec 32 := 0#32
  let v664 : BitVec 1 := Scalar.cmpi .slt v662 c0_i32_353
  let c0_i32_354 : BitVec 32 := 0#32
  let v665 : BitVec 1 := Scalar.cmpi .slt v661 c0_i32_354
  let v666 : BitVec 1 := Scalar.xori v664 v665
  let c0_i32_352 : BitVec 32 := 0#32
  let v663 : BitVec 1 := Scalar.cmpi .ne v662 c0_i32_352
  let v667 : BitVec 1 := Scalar.andi v666 v663
  let v668 : BitVec 32 := Scalar.addi v662 v661
  let v669 : BitVec 32 := Scalar.select v667 v668 v662
  let v670 : BitVec 32 := Scalar.muli c3_i32_355 v669
  let v671 : BitVec 32 := Scalar.addi c30_i32_356 v670
  let c0_i32_358 : BitVec 32 := 0#32
  let v673 : BitVec 1 := Scalar.cmpi .sgt v649 c0_i32_358
  let v674 : BitVec 32 := Scalar.extui v673
  let c0_i32_359 : BitVec 32 := 0#32
  let v675 : BitVec 1 := Scalar.cmpi .slt v649 c0_i32_359
  let v676 : BitVec 32 := Scalar.extui v675
  let v677 : BitVec 32 := Scalar.subi v674 v676
  let c3_i32_357 : BitVec 32 := 3#32
  let c0_i32_360 : BitVec 32 := 0#32
  let v678 : BitVec 1 := Scalar.cmpi .sgt c3_i32_357 c0_i32_360
  let v679 : BitVec 32 := Scalar.extui v678
  let c0_i32_361 : BitVec 32 := 0#32
  let v680 : BitVec 1 := Scalar.cmpi .slt c3_i32_357 c0_i32_361
  let v681 : BitVec 32 := Scalar.extui v680
  let v682 : BitVec 32 := Scalar.subi v679 v681
  let v683 : BitVec 1 := Scalar.cmpi .ne v677 v682
  let v684 : BitVec 32 := Scalar.remsi v649 c3_i32_357
  let c0_i32_362 : BitVec 32 := 0#32
  let v685 : BitVec 1 := Scalar.cmpi .ne v684 c0_i32_362
  let v686 : BitVec 1 := Scalar.andi v683 v685
  let v672 : BitVec 32 := Scalar.divsi v649 c3_i32_357
  let c1_i32_363 : BitVec 32 := 1#32
  let v687 : BitVec 32 := Scalar.subi v672 c1_i32_363
  let v688 : BitVec 32 := Scalar.select v686 v687 v672
  let v689 : BitVec 32 := Scalar.addi v671 v688
  let c3_i32_364 : BitVec 32 := 3#32
  let v690 : BitVec 32 := Scalar.muli c3_i32_364 v649
  let c14_i32_365 : BitVec 32 := 14#32
  let v691 : BitVec 32 := Scalar.addi v690 c14_i32_365
  let v692 : BitVec 32 := Scalar.select v659 v689 v691
  let v699 : BitVec 32 := Scalar.addi v698 v692
  let c4_i32_371 : BitVec 32 := 4#32
  let v700 : BitVec 32 := Scalar.muli v699 c4_i32_371
  let c0_i32_372 : BitVec 32 := 0#32
  let v701 : BitVec 32 := Scalar.addi v700 c0_i32_372
  let c65536_i32_373 : BitVec 32 := 65536#32
  let v702 : BitVec 32 := Scalar.muli v701 c65536_i32_373
  v702
def k0_off6 (i : grid0.Coords) (c0_i32_327 : BitVec 32) (c0_i32_372 : BitVec 32) : Fin 1 → Nat :=
  let c2_i32_326 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v621 : BitVec 32 := Scalar.muli c2_i32_326 v1
  let v622 : BitVec 32 := Scalar.addi v621 c0_i32_327
  let c0_i32_329 : BitVec 32 := 0#32
  let v624 : BitVec 1 := Scalar.cmpi .sgt v622 c0_i32_329
  let v625 : BitVec 32 := Scalar.extui v624
  let c0_i32_330 : BitVec 32 := 0#32
  let v626 : BitVec 1 := Scalar.cmpi .slt v622 c0_i32_330
  let v627 : BitVec 32 := Scalar.extui v626
  let v628 : BitVec 32 := Scalar.subi v625 v627
  let c16_i32_328 : BitVec 32 := 16#32
  let c0_i32_331 : BitVec 32 := 0#32
  let v629 : BitVec 1 := Scalar.cmpi .sgt c16_i32_328 c0_i32_331
  let v630 : BitVec 32 := Scalar.extui v629
  let c0_i32_332 : BitVec 32 := 0#32
  let v631 : BitVec 1 := Scalar.cmpi .slt c16_i32_328 c0_i32_332
  let v632 : BitVec 32 := Scalar.extui v631
  let v633 : BitVec 32 := Scalar.subi v630 v632
  let v634 : BitVec 1 := Scalar.cmpi .ne v628 v633
  let v635 : BitVec 32 := Scalar.remsi v622 c16_i32_328
  let c0_i32_333 : BitVec 32 := 0#32
  let v636 : BitVec 1 := Scalar.cmpi .ne v635 c0_i32_333
  let v637 : BitVec 1 := Scalar.andi v634 v636
  let v623 : BitVec 32 := Scalar.divsi v622 c16_i32_328
  let c1_i32_334 : BitVec 32 := 1#32
  let v638 : BitVec 32 := Scalar.subi v623 c1_i32_334
  let v639 : BitVec 32 := Scalar.select v637 v638 v623
  let c60_i32_370 : BitVec 32 := 60#32
  let v698 : BitVec 32 := Scalar.muli v639 c60_i32_370
  let c16_i32_335 : BitVec 32 := 16#32
  let c0_i32_336 : BitVec 32 := 0#32
  let v640 : BitVec 1 := Scalar.cmpi .eq c16_i32_335 c0_i32_336
  let c1_i32_337 : BitVec 32 := 1#32
  let v641 : BitVec 32 := Scalar.select v640 c1_i32_337 c16_i32_335
  let v642 : BitVec 32 := Scalar.remsi v622 v641
  let c0_i32_339 : BitVec 32 := 0#32
  let v644 : BitVec 1 := Scalar.cmpi .slt v642 c0_i32_339
  let c0_i32_340 : BitVec 32 := 0#32
  let v645 : BitVec 1 := Scalar.cmpi .slt v641 c0_i32_340
  let v646 : BitVec 1 := Scalar.xori v644 v645
  let c0_i32_338 : BitVec 32 := 0#32
  let v643 : BitVec 1 := Scalar.cmpi .ne v642 c0_i32_338
  let v647 : BitVec 1 := Scalar.andi v646 v643
  let v648 : BitVec 32 := Scalar.addi v642 v641
  let v649 : BitVec 32 := Scalar.select v647 v648 v642
  let c9_i32_348 : BitVec 32 := 9#32
  let v659 : BitVec 1 := Scalar.cmpi .slt v649 c9_i32_348
  let c30_i32_356 : BitVec 32 := 30#32
  let c3_i32_355 : BitVec 32 := 3#32
  let c3_i32_349 : BitVec 32 := 3#32
  let c0_i32_350 : BitVec 32 := 0#32
  let v660 : BitVec 1 := Scalar.cmpi .eq c3_i32_349 c0_i32_350
  let c1_i32_351 : BitVec 32 := 1#32
  let v661 : BitVec 32 := Scalar.select v660 c1_i32_351 c3_i32_349
  let v662 : BitVec 32 := Scalar.remsi v649 v661
  let c0_i32_353 : BitVec 32 := 0#32
  let v664 : BitVec 1 := Scalar.cmpi .slt v662 c0_i32_353
  let c0_i32_354 : BitVec 32 := 0#32
  let v665 : BitVec 1 := Scalar.cmpi .slt v661 c0_i32_354
  let v666 : BitVec 1 := Scalar.xori v664 v665
  let c0_i32_352 : BitVec 32 := 0#32
  let v663 : BitVec 1 := Scalar.cmpi .ne v662 c0_i32_352
  let v667 : BitVec 1 := Scalar.andi v666 v663
  let v668 : BitVec 32 := Scalar.addi v662 v661
  let v669 : BitVec 32 := Scalar.select v667 v668 v662
  let v670 : BitVec 32 := Scalar.muli c3_i32_355 v669
  let v671 : BitVec 32 := Scalar.addi c30_i32_356 v670
  let c0_i32_358 : BitVec 32 := 0#32
  let v673 : BitVec 1 := Scalar.cmpi .sgt v649 c0_i32_358
  let v674 : BitVec 32 := Scalar.extui v673
  let c0_i32_359 : BitVec 32 := 0#32
  let v675 : BitVec 1 := Scalar.cmpi .slt v649 c0_i32_359
  let v676 : BitVec 32 := Scalar.extui v675
  let v677 : BitVec 32 := Scalar.subi v674 v676
  let c3_i32_357 : BitVec 32 := 3#32
  let c0_i32_360 : BitVec 32 := 0#32
  let v678 : BitVec 1 := Scalar.cmpi .sgt c3_i32_357 c0_i32_360
  let v679 : BitVec 32 := Scalar.extui v678
  let c0_i32_361 : BitVec 32 := 0#32
  let v680 : BitVec 1 := Scalar.cmpi .slt c3_i32_357 c0_i32_361
  let v681 : BitVec 32 := Scalar.extui v680
  let v682 : BitVec 32 := Scalar.subi v679 v681
  let v683 : BitVec 1 := Scalar.cmpi .ne v677 v682
  let v684 : BitVec 32 := Scalar.remsi v649 c3_i32_357
  let c0_i32_362 : BitVec 32 := 0#32
  let v685 : BitVec 1 := Scalar.cmpi .ne v684 c0_i32_362
  let v686 : BitVec 1 := Scalar.andi v683 v685
  let v672 : BitVec 32 := Scalar.divsi v649 c3_i32_357
  let c1_i32_363 : BitVec 32 := 1#32
  let v687 : BitVec 32 := Scalar.subi v672 c1_i32_363
  let v688 : BitVec 32 := Scalar.select v686 v687 v672
  let v689 : BitVec 32 := Scalar.addi v671 v688
  let c3_i32_364 : BitVec 32 := 3#32
  let v690 : BitVec 32 := Scalar.muli c3_i32_364 v649
  let c14_i32_365 : BitVec 32 := 14#32
  let v691 : BitVec 32 := Scalar.addi v690 c14_i32_365
  let v692 : BitVec 32 := Scalar.select v659 v689 v691
  let v699 : BitVec 32 := Scalar.addi v698 v692
  let c4_i32_371 : BitVec 32 := 4#32
  let v700 : BitVec 32 := Scalar.muli v699 c4_i32_371
  let v701 : BitVec 32 := Scalar.addi v700 c0_i32_372
  let c65536_i32_373 : BitVec 32 := 65536#32
  let v702 : BitVec 32 := Scalar.muli v701 c65536_i32_373
  let v707 : BitVec 32 := v702
  ![v707.toNat]
def k0_mult20 (i : grid0.Coords) : BitVec 32 :=
  let c2_i32_390 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v725 : BitVec 32 := Scalar.muli c2_i32_390 v1
  let c0_i32_391 : BitVec 32 := 0#32
  let v726 : BitVec 32 := Scalar.addi v725 c0_i32_391
  let c0_i32_393 : BitVec 32 := 0#32
  let v728 : BitVec 1 := Scalar.cmpi .sgt v726 c0_i32_393
  let v729 : BitVec 32 := Scalar.extui v728
  let c0_i32_394 : BitVec 32 := 0#32
  let v730 : BitVec 1 := Scalar.cmpi .slt v726 c0_i32_394
  let v731 : BitVec 32 := Scalar.extui v730
  let v732 : BitVec 32 := Scalar.subi v729 v731
  let c16_i32_392 : BitVec 32 := 16#32
  let c0_i32_395 : BitVec 32 := 0#32
  let v733 : BitVec 1 := Scalar.cmpi .sgt c16_i32_392 c0_i32_395
  let v734 : BitVec 32 := Scalar.extui v733
  let c0_i32_396 : BitVec 32 := 0#32
  let v735 : BitVec 1 := Scalar.cmpi .slt c16_i32_392 c0_i32_396
  let v736 : BitVec 32 := Scalar.extui v735
  let v737 : BitVec 32 := Scalar.subi v734 v736
  let v738 : BitVec 1 := Scalar.cmpi .ne v732 v737
  let v739 : BitVec 32 := Scalar.remsi v726 c16_i32_392
  let c0_i32_397 : BitVec 32 := 0#32
  let v740 : BitVec 1 := Scalar.cmpi .ne v739 c0_i32_397
  let v741 : BitVec 1 := Scalar.andi v738 v740
  let v727 : BitVec 32 := Scalar.divsi v726 c16_i32_392
  let c1_i32_398 : BitVec 32 := 1#32
  let v742 : BitVec 32 := Scalar.subi v727 c1_i32_398
  let v743 : BitVec 32 := Scalar.select v741 v742 v727
  let c16_i32_405 : BitVec 32 := 16#32
  let v754 : BitVec 32 := Scalar.muli v743 c16_i32_405
  let c16_i32_399 : BitVec 32 := 16#32
  let c0_i32_400 : BitVec 32 := 0#32
  let v744 : BitVec 1 := Scalar.cmpi .eq c16_i32_399 c0_i32_400
  let c1_i32_401 : BitVec 32 := 1#32
  let v745 : BitVec 32 := Scalar.select v744 c1_i32_401 c16_i32_399
  let v746 : BitVec 32 := Scalar.remsi v726 v745
  let c0_i32_403 : BitVec 32 := 0#32
  let v748 : BitVec 1 := Scalar.cmpi .slt v746 c0_i32_403
  let c0_i32_404 : BitVec 32 := 0#32
  let v749 : BitVec 1 := Scalar.cmpi .slt v745 c0_i32_404
  let v750 : BitVec 1 := Scalar.xori v748 v749
  let c0_i32_402 : BitVec 32 := 0#32
  let v747 : BitVec 1 := Scalar.cmpi .ne v746 c0_i32_402
  let v751 : BitVec 1 := Scalar.andi v750 v747
  let v752 : BitVec 32 := Scalar.addi v746 v745
  let v753 : BitVec 32 := Scalar.select v751 v752 v746
  let v755 : BitVec 32 := Scalar.addi v754 v753
  let c4_i32_406 : BitVec 32 := 4#32
  let v756 : BitVec 32 := Scalar.muli v755 c4_i32_406
  let c1_i32_407 : BitVec 32 := 1#32
  let v757 : BitVec 32 := Scalar.addi v756 c1_i32_407
  let c65536_i32_408 : BitVec 32 := 65536#32
  let v758 : BitVec 32 := Scalar.muli v757 c65536_i32_408
  v758
def k0_mult21 (i : grid0.Coords) : BitVec 32 :=
  let c2_i32_440 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v812 : BitVec 32 := Scalar.muli c2_i32_440 v1
  let c0_i32_441 : BitVec 32 := 0#32
  let v813 : BitVec 32 := Scalar.addi v812 c0_i32_441
  let c0_i32_443 : BitVec 32 := 0#32
  let v815 : BitVec 1 := Scalar.cmpi .sgt v813 c0_i32_443
  let v816 : BitVec 32 := Scalar.extui v815
  let c0_i32_444 : BitVec 32 := 0#32
  let v817 : BitVec 1 := Scalar.cmpi .slt v813 c0_i32_444
  let v818 : BitVec 32 := Scalar.extui v817
  let v819 : BitVec 32 := Scalar.subi v816 v818
  let c16_i32_442 : BitVec 32 := 16#32
  let c0_i32_445 : BitVec 32 := 0#32
  let v820 : BitVec 1 := Scalar.cmpi .sgt c16_i32_442 c0_i32_445
  let v821 : BitVec 32 := Scalar.extui v820
  let c0_i32_446 : BitVec 32 := 0#32
  let v822 : BitVec 1 := Scalar.cmpi .slt c16_i32_442 c0_i32_446
  let v823 : BitVec 32 := Scalar.extui v822
  let v824 : BitVec 32 := Scalar.subi v821 v823
  let v825 : BitVec 1 := Scalar.cmpi .ne v819 v824
  let v826 : BitVec 32 := Scalar.remsi v813 c16_i32_442
  let c0_i32_447 : BitVec 32 := 0#32
  let v827 : BitVec 1 := Scalar.cmpi .ne v826 c0_i32_447
  let v828 : BitVec 1 := Scalar.andi v825 v827
  let v814 : BitVec 32 := Scalar.divsi v813 c16_i32_442
  let c1_i32_448 : BitVec 32 := 1#32
  let v829 : BitVec 32 := Scalar.subi v814 c1_i32_448
  let v830 : BitVec 32 := Scalar.select v828 v829 v814
  let c60_i32_480 : BitVec 32 := 60#32
  let v884 : BitVec 32 := Scalar.muli v830 c60_i32_480
  let c16_i32_449 : BitVec 32 := 16#32
  let c0_i32_450 : BitVec 32 := 0#32
  let v831 : BitVec 1 := Scalar.cmpi .eq c16_i32_449 c0_i32_450
  let c1_i32_451 : BitVec 32 := 1#32
  let v832 : BitVec 32 := Scalar.select v831 c1_i32_451 c16_i32_449
  let v833 : BitVec 32 := Scalar.remsi v813 v832
  let c0_i32_453 : BitVec 32 := 0#32
  let v835 : BitVec 1 := Scalar.cmpi .slt v833 c0_i32_453
  let c0_i32_454 : BitVec 32 := 0#32
  let v836 : BitVec 1 := Scalar.cmpi .slt v832 c0_i32_454
  let v837 : BitVec 1 := Scalar.xori v835 v836
  let c0_i32_452 : BitVec 32 := 0#32
  let v834 : BitVec 1 := Scalar.cmpi .ne v833 c0_i32_452
  let v838 : BitVec 1 := Scalar.andi v837 v834
  let v839 : BitVec 32 := Scalar.addi v833 v832
  let v840 : BitVec 32 := Scalar.select v838 v839 v833
  let c9_i32_459 : BitVec 32 := 9#32
  let v846 : BitVec 1 := Scalar.cmpi .slt v840 c9_i32_459
  let c3_i32_460 : BitVec 32 := 3#32
  let v847 : BitVec 32 := Scalar.muli c3_i32_460 v840
  let c16_i32_461 : BitVec 32 := 16#32
  let v848 : BitVec 32 := Scalar.subi v847 c16_i32_461
  let v849 : BitVec 32 := Scalar.select v846 v840 v848
  let v885 : BitVec 32 := Scalar.addi v884 v849
  let c4_i32_481 : BitVec 32 := 4#32
  let v886 : BitVec 32 := Scalar.muli v885 c4_i32_481
  let c1_i32_482 : BitVec 32 := 1#32
  let v887 : BitVec 32 := Scalar.addi v886 c1_i32_482
  let c65536_i32_483 : BitVec 32 := 65536#32
  let v888 : BitVec 32 := Scalar.muli v887 c65536_i32_483
  v888
def k0_mult22 (i : grid0.Coords) : BitVec 32 :=
  let c2_i32_440 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v812 : BitVec 32 := Scalar.muli c2_i32_440 v1
  let c0_i32_441 : BitVec 32 := 0#32
  let v813 : BitVec 32 := Scalar.addi v812 c0_i32_441
  let c0_i32_443 : BitVec 32 := 0#32
  let v815 : BitVec 1 := Scalar.cmpi .sgt v813 c0_i32_443
  let v816 : BitVec 32 := Scalar.extui v815
  let c0_i32_444 : BitVec 32 := 0#32
  let v817 : BitVec 1 := Scalar.cmpi .slt v813 c0_i32_444
  let v818 : BitVec 32 := Scalar.extui v817
  let v819 : BitVec 32 := Scalar.subi v816 v818
  let c16_i32_442 : BitVec 32 := 16#32
  let c0_i32_445 : BitVec 32 := 0#32
  let v820 : BitVec 1 := Scalar.cmpi .sgt c16_i32_442 c0_i32_445
  let v821 : BitVec 32 := Scalar.extui v820
  let c0_i32_446 : BitVec 32 := 0#32
  let v822 : BitVec 1 := Scalar.cmpi .slt c16_i32_442 c0_i32_446
  let v823 : BitVec 32 := Scalar.extui v822
  let v824 : BitVec 32 := Scalar.subi v821 v823
  let v825 : BitVec 1 := Scalar.cmpi .ne v819 v824
  let v826 : BitVec 32 := Scalar.remsi v813 c16_i32_442
  let c0_i32_447 : BitVec 32 := 0#32
  let v827 : BitVec 1 := Scalar.cmpi .ne v826 c0_i32_447
  let v828 : BitVec 1 := Scalar.andi v825 v827
  let v814 : BitVec 32 := Scalar.divsi v813 c16_i32_442
  let c1_i32_448 : BitVec 32 := 1#32
  let v829 : BitVec 32 := Scalar.subi v814 c1_i32_448
  let v830 : BitVec 32 := Scalar.select v828 v829 v814
  let c60_i32_484 : BitVec 32 := 60#32
  let v889 : BitVec 32 := Scalar.muli v830 c60_i32_484
  let c16_i32_449 : BitVec 32 := 16#32
  let c0_i32_450 : BitVec 32 := 0#32
  let v831 : BitVec 1 := Scalar.cmpi .eq c16_i32_449 c0_i32_450
  let c1_i32_451 : BitVec 32 := 1#32
  let v832 : BitVec 32 := Scalar.select v831 c1_i32_451 c16_i32_449
  let v833 : BitVec 32 := Scalar.remsi v813 v832
  let c0_i32_453 : BitVec 32 := 0#32
  let v835 : BitVec 1 := Scalar.cmpi .slt v833 c0_i32_453
  let c0_i32_454 : BitVec 32 := 0#32
  let v836 : BitVec 1 := Scalar.cmpi .slt v832 c0_i32_454
  let v837 : BitVec 1 := Scalar.xori v835 v836
  let c0_i32_452 : BitVec 32 := 0#32
  let v834 : BitVec 1 := Scalar.cmpi .ne v833 c0_i32_452
  let v838 : BitVec 1 := Scalar.andi v837 v834
  let v839 : BitVec 32 := Scalar.addi v833 v832
  let v840 : BitVec 32 := Scalar.select v838 v839 v833
  let c9_i32_462 : BitVec 32 := 9#32
  let v850 : BitVec 1 := Scalar.cmpi .slt v840 c9_i32_462
  let c30_i32_470 : BitVec 32 := 30#32
  let c3_i32_469 : BitVec 32 := 3#32
  let c3_i32_463 : BitVec 32 := 3#32
  let c0_i32_464 : BitVec 32 := 0#32
  let v851 : BitVec 1 := Scalar.cmpi .eq c3_i32_463 c0_i32_464
  let c1_i32_465 : BitVec 32 := 1#32
  let v852 : BitVec 32 := Scalar.select v851 c1_i32_465 c3_i32_463
  let v853 : BitVec 32 := Scalar.remsi v840 v852
  let c0_i32_467 : BitVec 32 := 0#32
  let v855 : BitVec 1 := Scalar.cmpi .slt v853 c0_i32_467
  let c0_i32_468 : BitVec 32 := 0#32
  let v856 : BitVec 1 := Scalar.cmpi .slt v852 c0_i32_468
  let v857 : BitVec 1 := Scalar.xori v855 v856
  let c0_i32_466 : BitVec 32 := 0#32
  let v854 : BitVec 1 := Scalar.cmpi .ne v853 c0_i32_466
  let v858 : BitVec 1 := Scalar.andi v857 v854
  let v859 : BitVec 32 := Scalar.addi v853 v852
  let v860 : BitVec 32 := Scalar.select v858 v859 v853
  let v861 : BitVec 32 := Scalar.muli c3_i32_469 v860
  let v862 : BitVec 32 := Scalar.addi c30_i32_470 v861
  let c0_i32_472 : BitVec 32 := 0#32
  let v864 : BitVec 1 := Scalar.cmpi .sgt v840 c0_i32_472
  let v865 : BitVec 32 := Scalar.extui v864
  let c0_i32_473 : BitVec 32 := 0#32
  let v866 : BitVec 1 := Scalar.cmpi .slt v840 c0_i32_473
  let v867 : BitVec 32 := Scalar.extui v866
  let v868 : BitVec 32 := Scalar.subi v865 v867
  let c3_i32_471 : BitVec 32 := 3#32
  let c0_i32_474 : BitVec 32 := 0#32
  let v869 : BitVec 1 := Scalar.cmpi .sgt c3_i32_471 c0_i32_474
  let v870 : BitVec 32 := Scalar.extui v869
  let c0_i32_475 : BitVec 32 := 0#32
  let v871 : BitVec 1 := Scalar.cmpi .slt c3_i32_471 c0_i32_475
  let v872 : BitVec 32 := Scalar.extui v871
  let v873 : BitVec 32 := Scalar.subi v870 v872
  let v874 : BitVec 1 := Scalar.cmpi .ne v868 v873
  let v875 : BitVec 32 := Scalar.remsi v840 c3_i32_471
  let c0_i32_476 : BitVec 32 := 0#32
  let v876 : BitVec 1 := Scalar.cmpi .ne v875 c0_i32_476
  let v877 : BitVec 1 := Scalar.andi v874 v876
  let v863 : BitVec 32 := Scalar.divsi v840 c3_i32_471
  let c1_i32_477 : BitVec 32 := 1#32
  let v878 : BitVec 32 := Scalar.subi v863 c1_i32_477
  let v879 : BitVec 32 := Scalar.select v877 v878 v863
  let v880 : BitVec 32 := Scalar.addi v862 v879
  let c3_i32_478 : BitVec 32 := 3#32
  let v881 : BitVec 32 := Scalar.muli c3_i32_478 v840
  let c14_i32_479 : BitVec 32 := 14#32
  let v882 : BitVec 32 := Scalar.addi v881 c14_i32_479
  let v883 : BitVec 32 := Scalar.select v850 v880 v882
  let v890 : BitVec 32 := Scalar.addi v889 v883
  let c4_i32_485 : BitVec 32 := 4#32
  let v891 : BitVec 32 := Scalar.muli v890 c4_i32_485
  let c1_i32_486 : BitVec 32 := 1#32
  let v892 : BitVec 32 := Scalar.addi v891 c1_i32_486
  let c65536_i32_487 : BitVec 32 := 65536#32
  let v893 : BitVec 32 := Scalar.muli v892 c65536_i32_487
  v893
def k0_mult23 (i : grid0.Coords) : BitVec 32 :=
  let c2_i32_492 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v906 : BitVec 32 := Scalar.muli c2_i32_492 v1
  let c0_i32_493 : BitVec 32 := 0#32
  let v907 : BitVec 32 := Scalar.addi v906 c0_i32_493
  let c0_i32_495 : BitVec 32 := 0#32
  let v909 : BitVec 1 := Scalar.cmpi .sgt v907 c0_i32_495
  let v910 : BitVec 32 := Scalar.extui v909
  let c0_i32_496 : BitVec 32 := 0#32
  let v911 : BitVec 1 := Scalar.cmpi .slt v907 c0_i32_496
  let v912 : BitVec 32 := Scalar.extui v911
  let v913 : BitVec 32 := Scalar.subi v910 v912
  let c16_i32_494 : BitVec 32 := 16#32
  let c0_i32_497 : BitVec 32 := 0#32
  let v914 : BitVec 1 := Scalar.cmpi .sgt c16_i32_494 c0_i32_497
  let v915 : BitVec 32 := Scalar.extui v914
  let c0_i32_498 : BitVec 32 := 0#32
  let v916 : BitVec 1 := Scalar.cmpi .slt c16_i32_494 c0_i32_498
  let v917 : BitVec 32 := Scalar.extui v916
  let v918 : BitVec 32 := Scalar.subi v915 v917
  let v919 : BitVec 1 := Scalar.cmpi .ne v913 v918
  let v920 : BitVec 32 := Scalar.remsi v907 c16_i32_494
  let c0_i32_499 : BitVec 32 := 0#32
  let v921 : BitVec 1 := Scalar.cmpi .ne v920 c0_i32_499
  let v922 : BitVec 1 := Scalar.andi v919 v921
  let v908 : BitVec 32 := Scalar.divsi v907 c16_i32_494
  let c1_i32_500 : BitVec 32 := 1#32
  let v923 : BitVec 32 := Scalar.subi v908 c1_i32_500
  let v924 : BitVec 32 := Scalar.select v922 v923 v908
  let c16_i32_507 : BitVec 32 := 16#32
  let v935 : BitVec 32 := Scalar.muli v924 c16_i32_507
  let c16_i32_501 : BitVec 32 := 16#32
  let c0_i32_502 : BitVec 32 := 0#32
  let v925 : BitVec 1 := Scalar.cmpi .eq c16_i32_501 c0_i32_502
  let c1_i32_503 : BitVec 32 := 1#32
  let v926 : BitVec 32 := Scalar.select v925 c1_i32_503 c16_i32_501
  let v927 : BitVec 32 := Scalar.remsi v907 v926
  let c0_i32_505 : BitVec 32 := 0#32
  let v929 : BitVec 1 := Scalar.cmpi .slt v927 c0_i32_505
  let c0_i32_506 : BitVec 32 := 0#32
  let v930 : BitVec 1 := Scalar.cmpi .slt v926 c0_i32_506
  let v931 : BitVec 1 := Scalar.xori v929 v930
  let c0_i32_504 : BitVec 32 := 0#32
  let v928 : BitVec 1 := Scalar.cmpi .ne v927 c0_i32_504
  let v932 : BitVec 1 := Scalar.andi v931 v928
  let v933 : BitVec 32 := Scalar.addi v927 v926
  let v934 : BitVec 32 := Scalar.select v932 v933 v927
  let v936 : BitVec 32 := Scalar.addi v935 v934
  let c4_i32_508 : BitVec 32 := 4#32
  let v937 : BitVec 32 := Scalar.muli v936 c4_i32_508
  let c2_i32_509 : BitVec 32 := 2#32
  let v938 : BitVec 32 := Scalar.addi v937 c2_i32_509
  let c65536_i32_510 : BitVec 32 := 65536#32
  let v939 : BitVec 32 := Scalar.muli v938 c65536_i32_510
  v939
def k0_mult24 (i : grid0.Coords) : BitVec 32 :=
  let c2_i32_543 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v995 : BitVec 32 := Scalar.muli c2_i32_543 v1
  let c0_i32_544 : BitVec 32 := 0#32
  let v996 : BitVec 32 := Scalar.addi v995 c0_i32_544
  let c0_i32_546 : BitVec 32 := 0#32
  let v998 : BitVec 1 := Scalar.cmpi .sgt v996 c0_i32_546
  let v999 : BitVec 32 := Scalar.extui v998
  let c0_i32_547 : BitVec 32 := 0#32
  let v1000 : BitVec 1 := Scalar.cmpi .slt v996 c0_i32_547
  let v1001 : BitVec 32 := Scalar.extui v1000
  let v1002 : BitVec 32 := Scalar.subi v999 v1001
  let c16_i32_545 : BitVec 32 := 16#32
  let c0_i32_548 : BitVec 32 := 0#32
  let v1003 : BitVec 1 := Scalar.cmpi .sgt c16_i32_545 c0_i32_548
  let v1004 : BitVec 32 := Scalar.extui v1003
  let c0_i32_549 : BitVec 32 := 0#32
  let v1005 : BitVec 1 := Scalar.cmpi .slt c16_i32_545 c0_i32_549
  let v1006 : BitVec 32 := Scalar.extui v1005
  let v1007 : BitVec 32 := Scalar.subi v1004 v1006
  let v1008 : BitVec 1 := Scalar.cmpi .ne v1002 v1007
  let v1009 : BitVec 32 := Scalar.remsi v996 c16_i32_545
  let c0_i32_550 : BitVec 32 := 0#32
  let v1010 : BitVec 1 := Scalar.cmpi .ne v1009 c0_i32_550
  let v1011 : BitVec 1 := Scalar.andi v1008 v1010
  let v997 : BitVec 32 := Scalar.divsi v996 c16_i32_545
  let c1_i32_551 : BitVec 32 := 1#32
  let v1012 : BitVec 32 := Scalar.subi v997 c1_i32_551
  let v1013 : BitVec 32 := Scalar.select v1011 v1012 v997
  let c60_i32_583 : BitVec 32 := 60#32
  let v1067 : BitVec 32 := Scalar.muli v1013 c60_i32_583
  let c16_i32_552 : BitVec 32 := 16#32
  let c0_i32_553 : BitVec 32 := 0#32
  let v1014 : BitVec 1 := Scalar.cmpi .eq c16_i32_552 c0_i32_553
  let c1_i32_554 : BitVec 32 := 1#32
  let v1015 : BitVec 32 := Scalar.select v1014 c1_i32_554 c16_i32_552
  let v1016 : BitVec 32 := Scalar.remsi v996 v1015
  let c0_i32_556 : BitVec 32 := 0#32
  let v1018 : BitVec 1 := Scalar.cmpi .slt v1016 c0_i32_556
  let c0_i32_557 : BitVec 32 := 0#32
  let v1019 : BitVec 1 := Scalar.cmpi .slt v1015 c0_i32_557
  let v1020 : BitVec 1 := Scalar.xori v1018 v1019
  let c0_i32_555 : BitVec 32 := 0#32
  let v1017 : BitVec 1 := Scalar.cmpi .ne v1016 c0_i32_555
  let v1021 : BitVec 1 := Scalar.andi v1020 v1017
  let v1022 : BitVec 32 := Scalar.addi v1016 v1015
  let v1023 : BitVec 32 := Scalar.select v1021 v1022 v1016
  let c9_i32_562 : BitVec 32 := 9#32
  let v1029 : BitVec 1 := Scalar.cmpi .slt v1023 c9_i32_562
  let c3_i32_563 : BitVec 32 := 3#32
  let v1030 : BitVec 32 := Scalar.muli c3_i32_563 v1023
  let c16_i32_564 : BitVec 32 := 16#32
  let v1031 : BitVec 32 := Scalar.subi v1030 c16_i32_564
  let v1032 : BitVec 32 := Scalar.select v1029 v1023 v1031
  let v1068 : BitVec 32 := Scalar.addi v1067 v1032
  let c4_i32_584 : BitVec 32 := 4#32
  let v1069 : BitVec 32 := Scalar.muli v1068 c4_i32_584
  let c2_i32_585 : BitVec 32 := 2#32
  let v1070 : BitVec 32 := Scalar.addi v1069 c2_i32_585
  let c65536_i32_586 : BitVec 32 := 65536#32
  let v1071 : BitVec 32 := Scalar.muli v1070 c65536_i32_586
  v1071
def k0_mult25 (i : grid0.Coords) : BitVec 32 :=
  let c2_i32_543 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v995 : BitVec 32 := Scalar.muli c2_i32_543 v1
  let c0_i32_544 : BitVec 32 := 0#32
  let v996 : BitVec 32 := Scalar.addi v995 c0_i32_544
  let c0_i32_546 : BitVec 32 := 0#32
  let v998 : BitVec 1 := Scalar.cmpi .sgt v996 c0_i32_546
  let v999 : BitVec 32 := Scalar.extui v998
  let c0_i32_547 : BitVec 32 := 0#32
  let v1000 : BitVec 1 := Scalar.cmpi .slt v996 c0_i32_547
  let v1001 : BitVec 32 := Scalar.extui v1000
  let v1002 : BitVec 32 := Scalar.subi v999 v1001
  let c16_i32_545 : BitVec 32 := 16#32
  let c0_i32_548 : BitVec 32 := 0#32
  let v1003 : BitVec 1 := Scalar.cmpi .sgt c16_i32_545 c0_i32_548
  let v1004 : BitVec 32 := Scalar.extui v1003
  let c0_i32_549 : BitVec 32 := 0#32
  let v1005 : BitVec 1 := Scalar.cmpi .slt c16_i32_545 c0_i32_549
  let v1006 : BitVec 32 := Scalar.extui v1005
  let v1007 : BitVec 32 := Scalar.subi v1004 v1006
  let v1008 : BitVec 1 := Scalar.cmpi .ne v1002 v1007
  let v1009 : BitVec 32 := Scalar.remsi v996 c16_i32_545
  let c0_i32_550 : BitVec 32 := 0#32
  let v1010 : BitVec 1 := Scalar.cmpi .ne v1009 c0_i32_550
  let v1011 : BitVec 1 := Scalar.andi v1008 v1010
  let v997 : BitVec 32 := Scalar.divsi v996 c16_i32_545
  let c1_i32_551 : BitVec 32 := 1#32
  let v1012 : BitVec 32 := Scalar.subi v997 c1_i32_551
  let v1013 : BitVec 32 := Scalar.select v1011 v1012 v997
  let c60_i32_587 : BitVec 32 := 60#32
  let v1072 : BitVec 32 := Scalar.muli v1013 c60_i32_587
  let c16_i32_552 : BitVec 32 := 16#32
  let c0_i32_553 : BitVec 32 := 0#32
  let v1014 : BitVec 1 := Scalar.cmpi .eq c16_i32_552 c0_i32_553
  let c1_i32_554 : BitVec 32 := 1#32
  let v1015 : BitVec 32 := Scalar.select v1014 c1_i32_554 c16_i32_552
  let v1016 : BitVec 32 := Scalar.remsi v996 v1015
  let c0_i32_556 : BitVec 32 := 0#32
  let v1018 : BitVec 1 := Scalar.cmpi .slt v1016 c0_i32_556
  let c0_i32_557 : BitVec 32 := 0#32
  let v1019 : BitVec 1 := Scalar.cmpi .slt v1015 c0_i32_557
  let v1020 : BitVec 1 := Scalar.xori v1018 v1019
  let c0_i32_555 : BitVec 32 := 0#32
  let v1017 : BitVec 1 := Scalar.cmpi .ne v1016 c0_i32_555
  let v1021 : BitVec 1 := Scalar.andi v1020 v1017
  let v1022 : BitVec 32 := Scalar.addi v1016 v1015
  let v1023 : BitVec 32 := Scalar.select v1021 v1022 v1016
  let c9_i32_565 : BitVec 32 := 9#32
  let v1033 : BitVec 1 := Scalar.cmpi .slt v1023 c9_i32_565
  let c30_i32_573 : BitVec 32 := 30#32
  let c3_i32_572 : BitVec 32 := 3#32
  let c3_i32_566 : BitVec 32 := 3#32
  let c0_i32_567 : BitVec 32 := 0#32
  let v1034 : BitVec 1 := Scalar.cmpi .eq c3_i32_566 c0_i32_567
  let c1_i32_568 : BitVec 32 := 1#32
  let v1035 : BitVec 32 := Scalar.select v1034 c1_i32_568 c3_i32_566
  let v1036 : BitVec 32 := Scalar.remsi v1023 v1035
  let c0_i32_570 : BitVec 32 := 0#32
  let v1038 : BitVec 1 := Scalar.cmpi .slt v1036 c0_i32_570
  let c0_i32_571 : BitVec 32 := 0#32
  let v1039 : BitVec 1 := Scalar.cmpi .slt v1035 c0_i32_571
  let v1040 : BitVec 1 := Scalar.xori v1038 v1039
  let c0_i32_569 : BitVec 32 := 0#32
  let v1037 : BitVec 1 := Scalar.cmpi .ne v1036 c0_i32_569
  let v1041 : BitVec 1 := Scalar.andi v1040 v1037
  let v1042 : BitVec 32 := Scalar.addi v1036 v1035
  let v1043 : BitVec 32 := Scalar.select v1041 v1042 v1036
  let v1044 : BitVec 32 := Scalar.muli c3_i32_572 v1043
  let v1045 : BitVec 32 := Scalar.addi c30_i32_573 v1044
  let c0_i32_575 : BitVec 32 := 0#32
  let v1047 : BitVec 1 := Scalar.cmpi .sgt v1023 c0_i32_575
  let v1048 : BitVec 32 := Scalar.extui v1047
  let c0_i32_576 : BitVec 32 := 0#32
  let v1049 : BitVec 1 := Scalar.cmpi .slt v1023 c0_i32_576
  let v1050 : BitVec 32 := Scalar.extui v1049
  let v1051 : BitVec 32 := Scalar.subi v1048 v1050
  let c3_i32_574 : BitVec 32 := 3#32
  let c0_i32_577 : BitVec 32 := 0#32
  let v1052 : BitVec 1 := Scalar.cmpi .sgt c3_i32_574 c0_i32_577
  let v1053 : BitVec 32 := Scalar.extui v1052
  let c0_i32_578 : BitVec 32 := 0#32
  let v1054 : BitVec 1 := Scalar.cmpi .slt c3_i32_574 c0_i32_578
  let v1055 : BitVec 32 := Scalar.extui v1054
  let v1056 : BitVec 32 := Scalar.subi v1053 v1055
  let v1057 : BitVec 1 := Scalar.cmpi .ne v1051 v1056
  let v1058 : BitVec 32 := Scalar.remsi v1023 c3_i32_574
  let c0_i32_579 : BitVec 32 := 0#32
  let v1059 : BitVec 1 := Scalar.cmpi .ne v1058 c0_i32_579
  let v1060 : BitVec 1 := Scalar.andi v1057 v1059
  let v1046 : BitVec 32 := Scalar.divsi v1023 c3_i32_574
  let c1_i32_580 : BitVec 32 := 1#32
  let v1061 : BitVec 32 := Scalar.subi v1046 c1_i32_580
  let v1062 : BitVec 32 := Scalar.select v1060 v1061 v1046
  let v1063 : BitVec 32 := Scalar.addi v1045 v1062
  let c3_i32_581 : BitVec 32 := 3#32
  let v1064 : BitVec 32 := Scalar.muli c3_i32_581 v1023
  let c14_i32_582 : BitVec 32 := 14#32
  let v1065 : BitVec 32 := Scalar.addi v1064 c14_i32_582
  let v1066 : BitVec 32 := Scalar.select v1033 v1063 v1065
  let v1073 : BitVec 32 := Scalar.addi v1072 v1066
  let c4_i32_588 : BitVec 32 := 4#32
  let v1074 : BitVec 32 := Scalar.muli v1073 c4_i32_588
  let c2_i32_589 : BitVec 32 := 2#32
  let v1075 : BitVec 32 := Scalar.addi v1074 c2_i32_589
  let c65536_i32_590 : BitVec 32 := 65536#32
  let v1076 : BitVec 32 := Scalar.muli v1075 c65536_i32_590
  v1076
def k0_mult26 (i : grid0.Coords) : BitVec 32 :=
  let c2_i32_597 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1089 : BitVec 32 := Scalar.muli c2_i32_597 v1
  let c0_i32_598 : BitVec 32 := 0#32
  let v1090 : BitVec 32 := Scalar.addi v1089 c0_i32_598
  let c0_i32_600 : BitVec 32 := 0#32
  let v1092 : BitVec 1 := Scalar.cmpi .sgt v1090 c0_i32_600
  let v1093 : BitVec 32 := Scalar.extui v1092
  let c0_i32_601 : BitVec 32 := 0#32
  let v1094 : BitVec 1 := Scalar.cmpi .slt v1090 c0_i32_601
  let v1095 : BitVec 32 := Scalar.extui v1094
  let v1096 : BitVec 32 := Scalar.subi v1093 v1095
  let c16_i32_599 : BitVec 32 := 16#32
  let c0_i32_602 : BitVec 32 := 0#32
  let v1097 : BitVec 1 := Scalar.cmpi .sgt c16_i32_599 c0_i32_602
  let v1098 : BitVec 32 := Scalar.extui v1097
  let c0_i32_603 : BitVec 32 := 0#32
  let v1099 : BitVec 1 := Scalar.cmpi .slt c16_i32_599 c0_i32_603
  let v1100 : BitVec 32 := Scalar.extui v1099
  let v1101 : BitVec 32 := Scalar.subi v1098 v1100
  let v1102 : BitVec 1 := Scalar.cmpi .ne v1096 v1101
  let v1103 : BitVec 32 := Scalar.remsi v1090 c16_i32_599
  let c0_i32_604 : BitVec 32 := 0#32
  let v1104 : BitVec 1 := Scalar.cmpi .ne v1103 c0_i32_604
  let v1105 : BitVec 1 := Scalar.andi v1102 v1104
  let v1091 : BitVec 32 := Scalar.divsi v1090 c16_i32_599
  let c1_i32_605 : BitVec 32 := 1#32
  let v1106 : BitVec 32 := Scalar.subi v1091 c1_i32_605
  let v1107 : BitVec 32 := Scalar.select v1105 v1106 v1091
  let c16_i32_612 : BitVec 32 := 16#32
  let v1118 : BitVec 32 := Scalar.muli v1107 c16_i32_612
  let c16_i32_606 : BitVec 32 := 16#32
  let c0_i32_607 : BitVec 32 := 0#32
  let v1108 : BitVec 1 := Scalar.cmpi .eq c16_i32_606 c0_i32_607
  let c1_i32_608 : BitVec 32 := 1#32
  let v1109 : BitVec 32 := Scalar.select v1108 c1_i32_608 c16_i32_606
  let v1110 : BitVec 32 := Scalar.remsi v1090 v1109
  let c0_i32_610 : BitVec 32 := 0#32
  let v1112 : BitVec 1 := Scalar.cmpi .slt v1110 c0_i32_610
  let c0_i32_611 : BitVec 32 := 0#32
  let v1113 : BitVec 1 := Scalar.cmpi .slt v1109 c0_i32_611
  let v1114 : BitVec 1 := Scalar.xori v1112 v1113
  let c0_i32_609 : BitVec 32 := 0#32
  let v1111 : BitVec 1 := Scalar.cmpi .ne v1110 c0_i32_609
  let v1115 : BitVec 1 := Scalar.andi v1114 v1111
  let v1116 : BitVec 32 := Scalar.addi v1110 v1109
  let v1117 : BitVec 32 := Scalar.select v1115 v1116 v1110
  let v1119 : BitVec 32 := Scalar.addi v1118 v1117
  let c4_i32_613 : BitVec 32 := 4#32
  let v1120 : BitVec 32 := Scalar.muli v1119 c4_i32_613
  let c3_i32_614 : BitVec 32 := 3#32
  let v1121 : BitVec 32 := Scalar.addi v1120 c3_i32_614
  let c65536_i32_615 : BitVec 32 := 65536#32
  let v1122 : BitVec 32 := Scalar.muli v1121 c65536_i32_615
  v1122
def k0_mult27 (i : grid0.Coords) : BitVec 32 :=
  let c2_i32_647 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1176 : BitVec 32 := Scalar.muli c2_i32_647 v1
  let c0_i32_648 : BitVec 32 := 0#32
  let v1177 : BitVec 32 := Scalar.addi v1176 c0_i32_648
  let c0_i32_650 : BitVec 32 := 0#32
  let v1179 : BitVec 1 := Scalar.cmpi .sgt v1177 c0_i32_650
  let v1180 : BitVec 32 := Scalar.extui v1179
  let c0_i32_651 : BitVec 32 := 0#32
  let v1181 : BitVec 1 := Scalar.cmpi .slt v1177 c0_i32_651
  let v1182 : BitVec 32 := Scalar.extui v1181
  let v1183 : BitVec 32 := Scalar.subi v1180 v1182
  let c16_i32_649 : BitVec 32 := 16#32
  let c0_i32_652 : BitVec 32 := 0#32
  let v1184 : BitVec 1 := Scalar.cmpi .sgt c16_i32_649 c0_i32_652
  let v1185 : BitVec 32 := Scalar.extui v1184
  let c0_i32_653 : BitVec 32 := 0#32
  let v1186 : BitVec 1 := Scalar.cmpi .slt c16_i32_649 c0_i32_653
  let v1187 : BitVec 32 := Scalar.extui v1186
  let v1188 : BitVec 32 := Scalar.subi v1185 v1187
  let v1189 : BitVec 1 := Scalar.cmpi .ne v1183 v1188
  let v1190 : BitVec 32 := Scalar.remsi v1177 c16_i32_649
  let c0_i32_654 : BitVec 32 := 0#32
  let v1191 : BitVec 1 := Scalar.cmpi .ne v1190 c0_i32_654
  let v1192 : BitVec 1 := Scalar.andi v1189 v1191
  let v1178 : BitVec 32 := Scalar.divsi v1177 c16_i32_649
  let c1_i32_655 : BitVec 32 := 1#32
  let v1193 : BitVec 32 := Scalar.subi v1178 c1_i32_655
  let v1194 : BitVec 32 := Scalar.select v1192 v1193 v1178
  let c60_i32_687 : BitVec 32 := 60#32
  let v1248 : BitVec 32 := Scalar.muli v1194 c60_i32_687
  let c16_i32_656 : BitVec 32 := 16#32
  let c0_i32_657 : BitVec 32 := 0#32
  let v1195 : BitVec 1 := Scalar.cmpi .eq c16_i32_656 c0_i32_657
  let c1_i32_658 : BitVec 32 := 1#32
  let v1196 : BitVec 32 := Scalar.select v1195 c1_i32_658 c16_i32_656
  let v1197 : BitVec 32 := Scalar.remsi v1177 v1196
  let c0_i32_660 : BitVec 32 := 0#32
  let v1199 : BitVec 1 := Scalar.cmpi .slt v1197 c0_i32_660
  let c0_i32_661 : BitVec 32 := 0#32
  let v1200 : BitVec 1 := Scalar.cmpi .slt v1196 c0_i32_661
  let v1201 : BitVec 1 := Scalar.xori v1199 v1200
  let c0_i32_659 : BitVec 32 := 0#32
  let v1198 : BitVec 1 := Scalar.cmpi .ne v1197 c0_i32_659
  let v1202 : BitVec 1 := Scalar.andi v1201 v1198
  let v1203 : BitVec 32 := Scalar.addi v1197 v1196
  let v1204 : BitVec 32 := Scalar.select v1202 v1203 v1197
  let c9_i32_666 : BitVec 32 := 9#32
  let v1210 : BitVec 1 := Scalar.cmpi .slt v1204 c9_i32_666
  let c3_i32_667 : BitVec 32 := 3#32
  let v1211 : BitVec 32 := Scalar.muli c3_i32_667 v1204
  let c16_i32_668 : BitVec 32 := 16#32
  let v1212 : BitVec 32 := Scalar.subi v1211 c16_i32_668
  let v1213 : BitVec 32 := Scalar.select v1210 v1204 v1212
  let v1249 : BitVec 32 := Scalar.addi v1248 v1213
  let c4_i32_688 : BitVec 32 := 4#32
  let v1250 : BitVec 32 := Scalar.muli v1249 c4_i32_688
  let c3_i32_689 : BitVec 32 := 3#32
  let v1251 : BitVec 32 := Scalar.addi v1250 c3_i32_689
  let c65536_i32_690 : BitVec 32 := 65536#32
  let v1252 : BitVec 32 := Scalar.muli v1251 c65536_i32_690
  v1252
def k0_mult28 (i : grid0.Coords) : BitVec 32 :=
  let c2_i32_647 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1176 : BitVec 32 := Scalar.muli c2_i32_647 v1
  let c0_i32_648 : BitVec 32 := 0#32
  let v1177 : BitVec 32 := Scalar.addi v1176 c0_i32_648
  let c0_i32_650 : BitVec 32 := 0#32
  let v1179 : BitVec 1 := Scalar.cmpi .sgt v1177 c0_i32_650
  let v1180 : BitVec 32 := Scalar.extui v1179
  let c0_i32_651 : BitVec 32 := 0#32
  let v1181 : BitVec 1 := Scalar.cmpi .slt v1177 c0_i32_651
  let v1182 : BitVec 32 := Scalar.extui v1181
  let v1183 : BitVec 32 := Scalar.subi v1180 v1182
  let c16_i32_649 : BitVec 32 := 16#32
  let c0_i32_652 : BitVec 32 := 0#32
  let v1184 : BitVec 1 := Scalar.cmpi .sgt c16_i32_649 c0_i32_652
  let v1185 : BitVec 32 := Scalar.extui v1184
  let c0_i32_653 : BitVec 32 := 0#32
  let v1186 : BitVec 1 := Scalar.cmpi .slt c16_i32_649 c0_i32_653
  let v1187 : BitVec 32 := Scalar.extui v1186
  let v1188 : BitVec 32 := Scalar.subi v1185 v1187
  let v1189 : BitVec 1 := Scalar.cmpi .ne v1183 v1188
  let v1190 : BitVec 32 := Scalar.remsi v1177 c16_i32_649
  let c0_i32_654 : BitVec 32 := 0#32
  let v1191 : BitVec 1 := Scalar.cmpi .ne v1190 c0_i32_654
  let v1192 : BitVec 1 := Scalar.andi v1189 v1191
  let v1178 : BitVec 32 := Scalar.divsi v1177 c16_i32_649
  let c1_i32_655 : BitVec 32 := 1#32
  let v1193 : BitVec 32 := Scalar.subi v1178 c1_i32_655
  let v1194 : BitVec 32 := Scalar.select v1192 v1193 v1178
  let c60_i32_691 : BitVec 32 := 60#32
  let v1253 : BitVec 32 := Scalar.muli v1194 c60_i32_691
  let c16_i32_656 : BitVec 32 := 16#32
  let c0_i32_657 : BitVec 32 := 0#32
  let v1195 : BitVec 1 := Scalar.cmpi .eq c16_i32_656 c0_i32_657
  let c1_i32_658 : BitVec 32 := 1#32
  let v1196 : BitVec 32 := Scalar.select v1195 c1_i32_658 c16_i32_656
  let v1197 : BitVec 32 := Scalar.remsi v1177 v1196
  let c0_i32_660 : BitVec 32 := 0#32
  let v1199 : BitVec 1 := Scalar.cmpi .slt v1197 c0_i32_660
  let c0_i32_661 : BitVec 32 := 0#32
  let v1200 : BitVec 1 := Scalar.cmpi .slt v1196 c0_i32_661
  let v1201 : BitVec 1 := Scalar.xori v1199 v1200
  let c0_i32_659 : BitVec 32 := 0#32
  let v1198 : BitVec 1 := Scalar.cmpi .ne v1197 c0_i32_659
  let v1202 : BitVec 1 := Scalar.andi v1201 v1198
  let v1203 : BitVec 32 := Scalar.addi v1197 v1196
  let v1204 : BitVec 32 := Scalar.select v1202 v1203 v1197
  let c9_i32_669 : BitVec 32 := 9#32
  let v1214 : BitVec 1 := Scalar.cmpi .slt v1204 c9_i32_669
  let c30_i32_677 : BitVec 32 := 30#32
  let c3_i32_676 : BitVec 32 := 3#32
  let c3_i32_670 : BitVec 32 := 3#32
  let c0_i32_671 : BitVec 32 := 0#32
  let v1215 : BitVec 1 := Scalar.cmpi .eq c3_i32_670 c0_i32_671
  let c1_i32_672 : BitVec 32 := 1#32
  let v1216 : BitVec 32 := Scalar.select v1215 c1_i32_672 c3_i32_670
  let v1217 : BitVec 32 := Scalar.remsi v1204 v1216
  let c0_i32_674 : BitVec 32 := 0#32
  let v1219 : BitVec 1 := Scalar.cmpi .slt v1217 c0_i32_674
  let c0_i32_675 : BitVec 32 := 0#32
  let v1220 : BitVec 1 := Scalar.cmpi .slt v1216 c0_i32_675
  let v1221 : BitVec 1 := Scalar.xori v1219 v1220
  let c0_i32_673 : BitVec 32 := 0#32
  let v1218 : BitVec 1 := Scalar.cmpi .ne v1217 c0_i32_673
  let v1222 : BitVec 1 := Scalar.andi v1221 v1218
  let v1223 : BitVec 32 := Scalar.addi v1217 v1216
  let v1224 : BitVec 32 := Scalar.select v1222 v1223 v1217
  let v1225 : BitVec 32 := Scalar.muli c3_i32_676 v1224
  let v1226 : BitVec 32 := Scalar.addi c30_i32_677 v1225
  let c0_i32_679 : BitVec 32 := 0#32
  let v1228 : BitVec 1 := Scalar.cmpi .sgt v1204 c0_i32_679
  let v1229 : BitVec 32 := Scalar.extui v1228
  let c0_i32_680 : BitVec 32 := 0#32
  let v1230 : BitVec 1 := Scalar.cmpi .slt v1204 c0_i32_680
  let v1231 : BitVec 32 := Scalar.extui v1230
  let v1232 : BitVec 32 := Scalar.subi v1229 v1231
  let c3_i32_678 : BitVec 32 := 3#32
  let c0_i32_681 : BitVec 32 := 0#32
  let v1233 : BitVec 1 := Scalar.cmpi .sgt c3_i32_678 c0_i32_681
  let v1234 : BitVec 32 := Scalar.extui v1233
  let c0_i32_682 : BitVec 32 := 0#32
  let v1235 : BitVec 1 := Scalar.cmpi .slt c3_i32_678 c0_i32_682
  let v1236 : BitVec 32 := Scalar.extui v1235
  let v1237 : BitVec 32 := Scalar.subi v1234 v1236
  let v1238 : BitVec 1 := Scalar.cmpi .ne v1232 v1237
  let v1239 : BitVec 32 := Scalar.remsi v1204 c3_i32_678
  let c0_i32_683 : BitVec 32 := 0#32
  let v1240 : BitVec 1 := Scalar.cmpi .ne v1239 c0_i32_683
  let v1241 : BitVec 1 := Scalar.andi v1238 v1240
  let v1227 : BitVec 32 := Scalar.divsi v1204 c3_i32_678
  let c1_i32_684 : BitVec 32 := 1#32
  let v1242 : BitVec 32 := Scalar.subi v1227 c1_i32_684
  let v1243 : BitVec 32 := Scalar.select v1241 v1242 v1227
  let v1244 : BitVec 32 := Scalar.addi v1226 v1243
  let c3_i32_685 : BitVec 32 := 3#32
  let v1245 : BitVec 32 := Scalar.muli c3_i32_685 v1204
  let c14_i32_686 : BitVec 32 := 14#32
  let v1246 : BitVec 32 := Scalar.addi v1245 c14_i32_686
  let v1247 : BitVec 32 := Scalar.select v1214 v1244 v1246
  let v1254 : BitVec 32 := Scalar.addi v1253 v1247
  let c4_i32_692 : BitVec 32 := 4#32
  let v1255 : BitVec 32 := Scalar.muli v1254 c4_i32_692
  let c3_i32_693 : BitVec 32 := 3#32
  let v1256 : BitVec 32 := Scalar.addi v1255 c3_i32_693
  let c65536_i32_694 : BitVec 32 := 65536#32
  let v1257 : BitVec 32 := Scalar.muli v1256 c65536_i32_694
  v1257
def k0_mult29 (i : grid0.Coords) : BitVec 32 :=
  let c2_i32_699 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1270 : BitVec 32 := Scalar.muli c2_i32_699 v1
  let c1_i32_700 : BitVec 32 := 1#32
  let v1271 : BitVec 32 := Scalar.addi v1270 c1_i32_700
  let c0_i32_702 : BitVec 32 := 0#32
  let v1273 : BitVec 1 := Scalar.cmpi .sgt v1271 c0_i32_702
  let v1274 : BitVec 32 := Scalar.extui v1273
  let c0_i32_703 : BitVec 32 := 0#32
  let v1275 : BitVec 1 := Scalar.cmpi .slt v1271 c0_i32_703
  let v1276 : BitVec 32 := Scalar.extui v1275
  let v1277 : BitVec 32 := Scalar.subi v1274 v1276
  let c16_i32_701 : BitVec 32 := 16#32
  let c0_i32_704 : BitVec 32 := 0#32
  let v1278 : BitVec 1 := Scalar.cmpi .sgt c16_i32_701 c0_i32_704
  let v1279 : BitVec 32 := Scalar.extui v1278
  let c0_i32_705 : BitVec 32 := 0#32
  let v1280 : BitVec 1 := Scalar.cmpi .slt c16_i32_701 c0_i32_705
  let v1281 : BitVec 32 := Scalar.extui v1280
  let v1282 : BitVec 32 := Scalar.subi v1279 v1281
  let v1283 : BitVec 1 := Scalar.cmpi .ne v1277 v1282
  let v1284 : BitVec 32 := Scalar.remsi v1271 c16_i32_701
  let c0_i32_706 : BitVec 32 := 0#32
  let v1285 : BitVec 1 := Scalar.cmpi .ne v1284 c0_i32_706
  let v1286 : BitVec 1 := Scalar.andi v1283 v1285
  let v1272 : BitVec 32 := Scalar.divsi v1271 c16_i32_701
  let c1_i32_707 : BitVec 32 := 1#32
  let v1287 : BitVec 32 := Scalar.subi v1272 c1_i32_707
  let v1288 : BitVec 32 := Scalar.select v1286 v1287 v1272
  let c16_i32_714 : BitVec 32 := 16#32
  let v1299 : BitVec 32 := Scalar.muli v1288 c16_i32_714
  let c16_i32_708 : BitVec 32 := 16#32
  let c0_i32_709 : BitVec 32 := 0#32
  let v1289 : BitVec 1 := Scalar.cmpi .eq c16_i32_708 c0_i32_709
  let c1_i32_710 : BitVec 32 := 1#32
  let v1290 : BitVec 32 := Scalar.select v1289 c1_i32_710 c16_i32_708
  let v1291 : BitVec 32 := Scalar.remsi v1271 v1290
  let c0_i32_712 : BitVec 32 := 0#32
  let v1293 : BitVec 1 := Scalar.cmpi .slt v1291 c0_i32_712
  let c0_i32_713 : BitVec 32 := 0#32
  let v1294 : BitVec 1 := Scalar.cmpi .slt v1290 c0_i32_713
  let v1295 : BitVec 1 := Scalar.xori v1293 v1294
  let c0_i32_711 : BitVec 32 := 0#32
  let v1292 : BitVec 1 := Scalar.cmpi .ne v1291 c0_i32_711
  let v1296 : BitVec 1 := Scalar.andi v1295 v1292
  let v1297 : BitVec 32 := Scalar.addi v1291 v1290
  let v1298 : BitVec 32 := Scalar.select v1296 v1297 v1291
  let v1300 : BitVec 32 := Scalar.addi v1299 v1298
  let c4_i32_715 : BitVec 32 := 4#32
  let v1301 : BitVec 32 := Scalar.muli v1300 c4_i32_715
  let c0_i32_716 : BitVec 32 := 0#32
  let v1302 : BitVec 32 := Scalar.addi v1301 c0_i32_716
  let c65536_i32_717 : BitVec 32 := 65536#32
  let v1303 : BitVec 32 := Scalar.muli v1302 c65536_i32_717
  v1303
def k0_mult30 (i : grid0.Coords) : BitVec 32 :=
  let c2_i32_750 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1359 : BitVec 32 := Scalar.muli c2_i32_750 v1
  let c1_i32_751 : BitVec 32 := 1#32
  let v1360 : BitVec 32 := Scalar.addi v1359 c1_i32_751
  let c0_i32_753 : BitVec 32 := 0#32
  let v1362 : BitVec 1 := Scalar.cmpi .sgt v1360 c0_i32_753
  let v1363 : BitVec 32 := Scalar.extui v1362
  let c0_i32_754 : BitVec 32 := 0#32
  let v1364 : BitVec 1 := Scalar.cmpi .slt v1360 c0_i32_754
  let v1365 : BitVec 32 := Scalar.extui v1364
  let v1366 : BitVec 32 := Scalar.subi v1363 v1365
  let c16_i32_752 : BitVec 32 := 16#32
  let c0_i32_755 : BitVec 32 := 0#32
  let v1367 : BitVec 1 := Scalar.cmpi .sgt c16_i32_752 c0_i32_755
  let v1368 : BitVec 32 := Scalar.extui v1367
  let c0_i32_756 : BitVec 32 := 0#32
  let v1369 : BitVec 1 := Scalar.cmpi .slt c16_i32_752 c0_i32_756
  let v1370 : BitVec 32 := Scalar.extui v1369
  let v1371 : BitVec 32 := Scalar.subi v1368 v1370
  let v1372 : BitVec 1 := Scalar.cmpi .ne v1366 v1371
  let v1373 : BitVec 32 := Scalar.remsi v1360 c16_i32_752
  let c0_i32_757 : BitVec 32 := 0#32
  let v1374 : BitVec 1 := Scalar.cmpi .ne v1373 c0_i32_757
  let v1375 : BitVec 1 := Scalar.andi v1372 v1374
  let v1361 : BitVec 32 := Scalar.divsi v1360 c16_i32_752
  let c1_i32_758 : BitVec 32 := 1#32
  let v1376 : BitVec 32 := Scalar.subi v1361 c1_i32_758
  let v1377 : BitVec 32 := Scalar.select v1375 v1376 v1361
  let c60_i32_790 : BitVec 32 := 60#32
  let v1431 : BitVec 32 := Scalar.muli v1377 c60_i32_790
  let c16_i32_759 : BitVec 32 := 16#32
  let c0_i32_760 : BitVec 32 := 0#32
  let v1378 : BitVec 1 := Scalar.cmpi .eq c16_i32_759 c0_i32_760
  let c1_i32_761 : BitVec 32 := 1#32
  let v1379 : BitVec 32 := Scalar.select v1378 c1_i32_761 c16_i32_759
  let v1380 : BitVec 32 := Scalar.remsi v1360 v1379
  let c0_i32_763 : BitVec 32 := 0#32
  let v1382 : BitVec 1 := Scalar.cmpi .slt v1380 c0_i32_763
  let c0_i32_764 : BitVec 32 := 0#32
  let v1383 : BitVec 1 := Scalar.cmpi .slt v1379 c0_i32_764
  let v1384 : BitVec 1 := Scalar.xori v1382 v1383
  let c0_i32_762 : BitVec 32 := 0#32
  let v1381 : BitVec 1 := Scalar.cmpi .ne v1380 c0_i32_762
  let v1385 : BitVec 1 := Scalar.andi v1384 v1381
  let v1386 : BitVec 32 := Scalar.addi v1380 v1379
  let v1387 : BitVec 32 := Scalar.select v1385 v1386 v1380
  let c9_i32_769 : BitVec 32 := 9#32
  let v1393 : BitVec 1 := Scalar.cmpi .slt v1387 c9_i32_769
  let c3_i32_770 : BitVec 32 := 3#32
  let v1394 : BitVec 32 := Scalar.muli c3_i32_770 v1387
  let c16_i32_771 : BitVec 32 := 16#32
  let v1395 : BitVec 32 := Scalar.subi v1394 c16_i32_771
  let v1396 : BitVec 32 := Scalar.select v1393 v1387 v1395
  let v1432 : BitVec 32 := Scalar.addi v1431 v1396
  let c4_i32_791 : BitVec 32 := 4#32
  let v1433 : BitVec 32 := Scalar.muli v1432 c4_i32_791
  let c0_i32_792 : BitVec 32 := 0#32
  let v1434 : BitVec 32 := Scalar.addi v1433 c0_i32_792
  let c65536_i32_793 : BitVec 32 := 65536#32
  let v1435 : BitVec 32 := Scalar.muli v1434 c65536_i32_793
  v1435
def k0_mult31 (i : grid0.Coords) : BitVec 32 :=
  let c2_i32_750 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1359 : BitVec 32 := Scalar.muli c2_i32_750 v1
  let c1_i32_751 : BitVec 32 := 1#32
  let v1360 : BitVec 32 := Scalar.addi v1359 c1_i32_751
  let c0_i32_753 : BitVec 32 := 0#32
  let v1362 : BitVec 1 := Scalar.cmpi .sgt v1360 c0_i32_753
  let v1363 : BitVec 32 := Scalar.extui v1362
  let c0_i32_754 : BitVec 32 := 0#32
  let v1364 : BitVec 1 := Scalar.cmpi .slt v1360 c0_i32_754
  let v1365 : BitVec 32 := Scalar.extui v1364
  let v1366 : BitVec 32 := Scalar.subi v1363 v1365
  let c16_i32_752 : BitVec 32 := 16#32
  let c0_i32_755 : BitVec 32 := 0#32
  let v1367 : BitVec 1 := Scalar.cmpi .sgt c16_i32_752 c0_i32_755
  let v1368 : BitVec 32 := Scalar.extui v1367
  let c0_i32_756 : BitVec 32 := 0#32
  let v1369 : BitVec 1 := Scalar.cmpi .slt c16_i32_752 c0_i32_756
  let v1370 : BitVec 32 := Scalar.extui v1369
  let v1371 : BitVec 32 := Scalar.subi v1368 v1370
  let v1372 : BitVec 1 := Scalar.cmpi .ne v1366 v1371
  let v1373 : BitVec 32 := Scalar.remsi v1360 c16_i32_752
  let c0_i32_757 : BitVec 32 := 0#32
  let v1374 : BitVec 1 := Scalar.cmpi .ne v1373 c0_i32_757
  let v1375 : BitVec 1 := Scalar.andi v1372 v1374
  let v1361 : BitVec 32 := Scalar.divsi v1360 c16_i32_752
  let c1_i32_758 : BitVec 32 := 1#32
  let v1376 : BitVec 32 := Scalar.subi v1361 c1_i32_758
  let v1377 : BitVec 32 := Scalar.select v1375 v1376 v1361
  let c60_i32_794 : BitVec 32 := 60#32
  let v1436 : BitVec 32 := Scalar.muli v1377 c60_i32_794
  let c16_i32_759 : BitVec 32 := 16#32
  let c0_i32_760 : BitVec 32 := 0#32
  let v1378 : BitVec 1 := Scalar.cmpi .eq c16_i32_759 c0_i32_760
  let c1_i32_761 : BitVec 32 := 1#32
  let v1379 : BitVec 32 := Scalar.select v1378 c1_i32_761 c16_i32_759
  let v1380 : BitVec 32 := Scalar.remsi v1360 v1379
  let c0_i32_763 : BitVec 32 := 0#32
  let v1382 : BitVec 1 := Scalar.cmpi .slt v1380 c0_i32_763
  let c0_i32_764 : BitVec 32 := 0#32
  let v1383 : BitVec 1 := Scalar.cmpi .slt v1379 c0_i32_764
  let v1384 : BitVec 1 := Scalar.xori v1382 v1383
  let c0_i32_762 : BitVec 32 := 0#32
  let v1381 : BitVec 1 := Scalar.cmpi .ne v1380 c0_i32_762
  let v1385 : BitVec 1 := Scalar.andi v1384 v1381
  let v1386 : BitVec 32 := Scalar.addi v1380 v1379
  let v1387 : BitVec 32 := Scalar.select v1385 v1386 v1380
  let c9_i32_772 : BitVec 32 := 9#32
  let v1397 : BitVec 1 := Scalar.cmpi .slt v1387 c9_i32_772
  let c30_i32_780 : BitVec 32 := 30#32
  let c3_i32_779 : BitVec 32 := 3#32
  let c3_i32_773 : BitVec 32 := 3#32
  let c0_i32_774 : BitVec 32 := 0#32
  let v1398 : BitVec 1 := Scalar.cmpi .eq c3_i32_773 c0_i32_774
  let c1_i32_775 : BitVec 32 := 1#32
  let v1399 : BitVec 32 := Scalar.select v1398 c1_i32_775 c3_i32_773
  let v1400 : BitVec 32 := Scalar.remsi v1387 v1399
  let c0_i32_777 : BitVec 32 := 0#32
  let v1402 : BitVec 1 := Scalar.cmpi .slt v1400 c0_i32_777
  let c0_i32_778 : BitVec 32 := 0#32
  let v1403 : BitVec 1 := Scalar.cmpi .slt v1399 c0_i32_778
  let v1404 : BitVec 1 := Scalar.xori v1402 v1403
  let c0_i32_776 : BitVec 32 := 0#32
  let v1401 : BitVec 1 := Scalar.cmpi .ne v1400 c0_i32_776
  let v1405 : BitVec 1 := Scalar.andi v1404 v1401
  let v1406 : BitVec 32 := Scalar.addi v1400 v1399
  let v1407 : BitVec 32 := Scalar.select v1405 v1406 v1400
  let v1408 : BitVec 32 := Scalar.muli c3_i32_779 v1407
  let v1409 : BitVec 32 := Scalar.addi c30_i32_780 v1408
  let c0_i32_782 : BitVec 32 := 0#32
  let v1411 : BitVec 1 := Scalar.cmpi .sgt v1387 c0_i32_782
  let v1412 : BitVec 32 := Scalar.extui v1411
  let c0_i32_783 : BitVec 32 := 0#32
  let v1413 : BitVec 1 := Scalar.cmpi .slt v1387 c0_i32_783
  let v1414 : BitVec 32 := Scalar.extui v1413
  let v1415 : BitVec 32 := Scalar.subi v1412 v1414
  let c3_i32_781 : BitVec 32 := 3#32
  let c0_i32_784 : BitVec 32 := 0#32
  let v1416 : BitVec 1 := Scalar.cmpi .sgt c3_i32_781 c0_i32_784
  let v1417 : BitVec 32 := Scalar.extui v1416
  let c0_i32_785 : BitVec 32 := 0#32
  let v1418 : BitVec 1 := Scalar.cmpi .slt c3_i32_781 c0_i32_785
  let v1419 : BitVec 32 := Scalar.extui v1418
  let v1420 : BitVec 32 := Scalar.subi v1417 v1419
  let v1421 : BitVec 1 := Scalar.cmpi .ne v1415 v1420
  let v1422 : BitVec 32 := Scalar.remsi v1387 c3_i32_781
  let c0_i32_786 : BitVec 32 := 0#32
  let v1423 : BitVec 1 := Scalar.cmpi .ne v1422 c0_i32_786
  let v1424 : BitVec 1 := Scalar.andi v1421 v1423
  let v1410 : BitVec 32 := Scalar.divsi v1387 c3_i32_781
  let c1_i32_787 : BitVec 32 := 1#32
  let v1425 : BitVec 32 := Scalar.subi v1410 c1_i32_787
  let v1426 : BitVec 32 := Scalar.select v1424 v1425 v1410
  let v1427 : BitVec 32 := Scalar.addi v1409 v1426
  let c3_i32_788 : BitVec 32 := 3#32
  let v1428 : BitVec 32 := Scalar.muli c3_i32_788 v1387
  let c14_i32_789 : BitVec 32 := 14#32
  let v1429 : BitVec 32 := Scalar.addi v1428 c14_i32_789
  let v1430 : BitVec 32 := Scalar.select v1397 v1427 v1429
  let v1437 : BitVec 32 := Scalar.addi v1436 v1430
  let c4_i32_795 : BitVec 32 := 4#32
  let v1438 : BitVec 32 := Scalar.muli v1437 c4_i32_795
  let c0_i32_796 : BitVec 32 := 0#32
  let v1439 : BitVec 32 := Scalar.addi v1438 c0_i32_796
  let c65536_i32_797 : BitVec 32 := 65536#32
  let v1440 : BitVec 32 := Scalar.muli v1439 c65536_i32_797
  v1440
def k0_mult32 (i : grid0.Coords) : BitVec 32 :=
  let c2_i32_804 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1453 : BitVec 32 := Scalar.muli c2_i32_804 v1
  let c1_i32_805 : BitVec 32 := 1#32
  let v1454 : BitVec 32 := Scalar.addi v1453 c1_i32_805
  let c0_i32_807 : BitVec 32 := 0#32
  let v1456 : BitVec 1 := Scalar.cmpi .sgt v1454 c0_i32_807
  let v1457 : BitVec 32 := Scalar.extui v1456
  let c0_i32_808 : BitVec 32 := 0#32
  let v1458 : BitVec 1 := Scalar.cmpi .slt v1454 c0_i32_808
  let v1459 : BitVec 32 := Scalar.extui v1458
  let v1460 : BitVec 32 := Scalar.subi v1457 v1459
  let c16_i32_806 : BitVec 32 := 16#32
  let c0_i32_809 : BitVec 32 := 0#32
  let v1461 : BitVec 1 := Scalar.cmpi .sgt c16_i32_806 c0_i32_809
  let v1462 : BitVec 32 := Scalar.extui v1461
  let c0_i32_810 : BitVec 32 := 0#32
  let v1463 : BitVec 1 := Scalar.cmpi .slt c16_i32_806 c0_i32_810
  let v1464 : BitVec 32 := Scalar.extui v1463
  let v1465 : BitVec 32 := Scalar.subi v1462 v1464
  let v1466 : BitVec 1 := Scalar.cmpi .ne v1460 v1465
  let v1467 : BitVec 32 := Scalar.remsi v1454 c16_i32_806
  let c0_i32_811 : BitVec 32 := 0#32
  let v1468 : BitVec 1 := Scalar.cmpi .ne v1467 c0_i32_811
  let v1469 : BitVec 1 := Scalar.andi v1466 v1468
  let v1455 : BitVec 32 := Scalar.divsi v1454 c16_i32_806
  let c1_i32_812 : BitVec 32 := 1#32
  let v1470 : BitVec 32 := Scalar.subi v1455 c1_i32_812
  let v1471 : BitVec 32 := Scalar.select v1469 v1470 v1455
  let c16_i32_819 : BitVec 32 := 16#32
  let v1482 : BitVec 32 := Scalar.muli v1471 c16_i32_819
  let c16_i32_813 : BitVec 32 := 16#32
  let c0_i32_814 : BitVec 32 := 0#32
  let v1472 : BitVec 1 := Scalar.cmpi .eq c16_i32_813 c0_i32_814
  let c1_i32_815 : BitVec 32 := 1#32
  let v1473 : BitVec 32 := Scalar.select v1472 c1_i32_815 c16_i32_813
  let v1474 : BitVec 32 := Scalar.remsi v1454 v1473
  let c0_i32_817 : BitVec 32 := 0#32
  let v1476 : BitVec 1 := Scalar.cmpi .slt v1474 c0_i32_817
  let c0_i32_818 : BitVec 32 := 0#32
  let v1477 : BitVec 1 := Scalar.cmpi .slt v1473 c0_i32_818
  let v1478 : BitVec 1 := Scalar.xori v1476 v1477
  let c0_i32_816 : BitVec 32 := 0#32
  let v1475 : BitVec 1 := Scalar.cmpi .ne v1474 c0_i32_816
  let v1479 : BitVec 1 := Scalar.andi v1478 v1475
  let v1480 : BitVec 32 := Scalar.addi v1474 v1473
  let v1481 : BitVec 32 := Scalar.select v1479 v1480 v1474
  let v1483 : BitVec 32 := Scalar.addi v1482 v1481
  let c4_i32_820 : BitVec 32 := 4#32
  let v1484 : BitVec 32 := Scalar.muli v1483 c4_i32_820
  let c1_i32_821 : BitVec 32 := 1#32
  let v1485 : BitVec 32 := Scalar.addi v1484 c1_i32_821
  let c65536_i32_822 : BitVec 32 := 65536#32
  let v1486 : BitVec 32 := Scalar.muli v1485 c65536_i32_822
  v1486
def k0_mult33 (i : grid0.Coords) : BitVec 32 :=
  let c2_i32_854 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1540 : BitVec 32 := Scalar.muli c2_i32_854 v1
  let c1_i32_855 : BitVec 32 := 1#32
  let v1541 : BitVec 32 := Scalar.addi v1540 c1_i32_855
  let c0_i32_857 : BitVec 32 := 0#32
  let v1543 : BitVec 1 := Scalar.cmpi .sgt v1541 c0_i32_857
  let v1544 : BitVec 32 := Scalar.extui v1543
  let c0_i32_858 : BitVec 32 := 0#32
  let v1545 : BitVec 1 := Scalar.cmpi .slt v1541 c0_i32_858
  let v1546 : BitVec 32 := Scalar.extui v1545
  let v1547 : BitVec 32 := Scalar.subi v1544 v1546
  let c16_i32_856 : BitVec 32 := 16#32
  let c0_i32_859 : BitVec 32 := 0#32
  let v1548 : BitVec 1 := Scalar.cmpi .sgt c16_i32_856 c0_i32_859
  let v1549 : BitVec 32 := Scalar.extui v1548
  let c0_i32_860 : BitVec 32 := 0#32
  let v1550 : BitVec 1 := Scalar.cmpi .slt c16_i32_856 c0_i32_860
  let v1551 : BitVec 32 := Scalar.extui v1550
  let v1552 : BitVec 32 := Scalar.subi v1549 v1551
  let v1553 : BitVec 1 := Scalar.cmpi .ne v1547 v1552
  let v1554 : BitVec 32 := Scalar.remsi v1541 c16_i32_856
  let c0_i32_861 : BitVec 32 := 0#32
  let v1555 : BitVec 1 := Scalar.cmpi .ne v1554 c0_i32_861
  let v1556 : BitVec 1 := Scalar.andi v1553 v1555
  let v1542 : BitVec 32 := Scalar.divsi v1541 c16_i32_856
  let c1_i32_862 : BitVec 32 := 1#32
  let v1557 : BitVec 32 := Scalar.subi v1542 c1_i32_862
  let v1558 : BitVec 32 := Scalar.select v1556 v1557 v1542
  let c60_i32_894 : BitVec 32 := 60#32
  let v1612 : BitVec 32 := Scalar.muli v1558 c60_i32_894
  let c16_i32_863 : BitVec 32 := 16#32
  let c0_i32_864 : BitVec 32 := 0#32
  let v1559 : BitVec 1 := Scalar.cmpi .eq c16_i32_863 c0_i32_864
  let c1_i32_865 : BitVec 32 := 1#32
  let v1560 : BitVec 32 := Scalar.select v1559 c1_i32_865 c16_i32_863
  let v1561 : BitVec 32 := Scalar.remsi v1541 v1560
  let c0_i32_867 : BitVec 32 := 0#32
  let v1563 : BitVec 1 := Scalar.cmpi .slt v1561 c0_i32_867
  let c0_i32_868 : BitVec 32 := 0#32
  let v1564 : BitVec 1 := Scalar.cmpi .slt v1560 c0_i32_868
  let v1565 : BitVec 1 := Scalar.xori v1563 v1564
  let c0_i32_866 : BitVec 32 := 0#32
  let v1562 : BitVec 1 := Scalar.cmpi .ne v1561 c0_i32_866
  let v1566 : BitVec 1 := Scalar.andi v1565 v1562
  let v1567 : BitVec 32 := Scalar.addi v1561 v1560
  let v1568 : BitVec 32 := Scalar.select v1566 v1567 v1561
  let c9_i32_873 : BitVec 32 := 9#32
  let v1574 : BitVec 1 := Scalar.cmpi .slt v1568 c9_i32_873
  let c3_i32_874 : BitVec 32 := 3#32
  let v1575 : BitVec 32 := Scalar.muli c3_i32_874 v1568
  let c16_i32_875 : BitVec 32 := 16#32
  let v1576 : BitVec 32 := Scalar.subi v1575 c16_i32_875
  let v1577 : BitVec 32 := Scalar.select v1574 v1568 v1576
  let v1613 : BitVec 32 := Scalar.addi v1612 v1577
  let c4_i32_895 : BitVec 32 := 4#32
  let v1614 : BitVec 32 := Scalar.muli v1613 c4_i32_895
  let c1_i32_896 : BitVec 32 := 1#32
  let v1615 : BitVec 32 := Scalar.addi v1614 c1_i32_896
  let c65536_i32_897 : BitVec 32 := 65536#32
  let v1616 : BitVec 32 := Scalar.muli v1615 c65536_i32_897
  v1616
def k0_mult34 (i : grid0.Coords) : BitVec 32 :=
  let c2_i32_854 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1540 : BitVec 32 := Scalar.muli c2_i32_854 v1
  let c1_i32_855 : BitVec 32 := 1#32
  let v1541 : BitVec 32 := Scalar.addi v1540 c1_i32_855
  let c0_i32_857 : BitVec 32 := 0#32
  let v1543 : BitVec 1 := Scalar.cmpi .sgt v1541 c0_i32_857
  let v1544 : BitVec 32 := Scalar.extui v1543
  let c0_i32_858 : BitVec 32 := 0#32
  let v1545 : BitVec 1 := Scalar.cmpi .slt v1541 c0_i32_858
  let v1546 : BitVec 32 := Scalar.extui v1545
  let v1547 : BitVec 32 := Scalar.subi v1544 v1546
  let c16_i32_856 : BitVec 32 := 16#32
  let c0_i32_859 : BitVec 32 := 0#32
  let v1548 : BitVec 1 := Scalar.cmpi .sgt c16_i32_856 c0_i32_859
  let v1549 : BitVec 32 := Scalar.extui v1548
  let c0_i32_860 : BitVec 32 := 0#32
  let v1550 : BitVec 1 := Scalar.cmpi .slt c16_i32_856 c0_i32_860
  let v1551 : BitVec 32 := Scalar.extui v1550
  let v1552 : BitVec 32 := Scalar.subi v1549 v1551
  let v1553 : BitVec 1 := Scalar.cmpi .ne v1547 v1552
  let v1554 : BitVec 32 := Scalar.remsi v1541 c16_i32_856
  let c0_i32_861 : BitVec 32 := 0#32
  let v1555 : BitVec 1 := Scalar.cmpi .ne v1554 c0_i32_861
  let v1556 : BitVec 1 := Scalar.andi v1553 v1555
  let v1542 : BitVec 32 := Scalar.divsi v1541 c16_i32_856
  let c1_i32_862 : BitVec 32 := 1#32
  let v1557 : BitVec 32 := Scalar.subi v1542 c1_i32_862
  let v1558 : BitVec 32 := Scalar.select v1556 v1557 v1542
  let c60_i32_898 : BitVec 32 := 60#32
  let v1617 : BitVec 32 := Scalar.muli v1558 c60_i32_898
  let c16_i32_863 : BitVec 32 := 16#32
  let c0_i32_864 : BitVec 32 := 0#32
  let v1559 : BitVec 1 := Scalar.cmpi .eq c16_i32_863 c0_i32_864
  let c1_i32_865 : BitVec 32 := 1#32
  let v1560 : BitVec 32 := Scalar.select v1559 c1_i32_865 c16_i32_863
  let v1561 : BitVec 32 := Scalar.remsi v1541 v1560
  let c0_i32_867 : BitVec 32 := 0#32
  let v1563 : BitVec 1 := Scalar.cmpi .slt v1561 c0_i32_867
  let c0_i32_868 : BitVec 32 := 0#32
  let v1564 : BitVec 1 := Scalar.cmpi .slt v1560 c0_i32_868
  let v1565 : BitVec 1 := Scalar.xori v1563 v1564
  let c0_i32_866 : BitVec 32 := 0#32
  let v1562 : BitVec 1 := Scalar.cmpi .ne v1561 c0_i32_866
  let v1566 : BitVec 1 := Scalar.andi v1565 v1562
  let v1567 : BitVec 32 := Scalar.addi v1561 v1560
  let v1568 : BitVec 32 := Scalar.select v1566 v1567 v1561
  let c9_i32_876 : BitVec 32 := 9#32
  let v1578 : BitVec 1 := Scalar.cmpi .slt v1568 c9_i32_876
  let c30_i32_884 : BitVec 32 := 30#32
  let c3_i32_883 : BitVec 32 := 3#32
  let c3_i32_877 : BitVec 32 := 3#32
  let c0_i32_878 : BitVec 32 := 0#32
  let v1579 : BitVec 1 := Scalar.cmpi .eq c3_i32_877 c0_i32_878
  let c1_i32_879 : BitVec 32 := 1#32
  let v1580 : BitVec 32 := Scalar.select v1579 c1_i32_879 c3_i32_877
  let v1581 : BitVec 32 := Scalar.remsi v1568 v1580
  let c0_i32_881 : BitVec 32 := 0#32
  let v1583 : BitVec 1 := Scalar.cmpi .slt v1581 c0_i32_881
  let c0_i32_882 : BitVec 32 := 0#32
  let v1584 : BitVec 1 := Scalar.cmpi .slt v1580 c0_i32_882
  let v1585 : BitVec 1 := Scalar.xori v1583 v1584
  let c0_i32_880 : BitVec 32 := 0#32
  let v1582 : BitVec 1 := Scalar.cmpi .ne v1581 c0_i32_880
  let v1586 : BitVec 1 := Scalar.andi v1585 v1582
  let v1587 : BitVec 32 := Scalar.addi v1581 v1580
  let v1588 : BitVec 32 := Scalar.select v1586 v1587 v1581
  let v1589 : BitVec 32 := Scalar.muli c3_i32_883 v1588
  let v1590 : BitVec 32 := Scalar.addi c30_i32_884 v1589
  let c0_i32_886 : BitVec 32 := 0#32
  let v1592 : BitVec 1 := Scalar.cmpi .sgt v1568 c0_i32_886
  let v1593 : BitVec 32 := Scalar.extui v1592
  let c0_i32_887 : BitVec 32 := 0#32
  let v1594 : BitVec 1 := Scalar.cmpi .slt v1568 c0_i32_887
  let v1595 : BitVec 32 := Scalar.extui v1594
  let v1596 : BitVec 32 := Scalar.subi v1593 v1595
  let c3_i32_885 : BitVec 32 := 3#32
  let c0_i32_888 : BitVec 32 := 0#32
  let v1597 : BitVec 1 := Scalar.cmpi .sgt c3_i32_885 c0_i32_888
  let v1598 : BitVec 32 := Scalar.extui v1597
  let c0_i32_889 : BitVec 32 := 0#32
  let v1599 : BitVec 1 := Scalar.cmpi .slt c3_i32_885 c0_i32_889
  let v1600 : BitVec 32 := Scalar.extui v1599
  let v1601 : BitVec 32 := Scalar.subi v1598 v1600
  let v1602 : BitVec 1 := Scalar.cmpi .ne v1596 v1601
  let v1603 : BitVec 32 := Scalar.remsi v1568 c3_i32_885
  let c0_i32_890 : BitVec 32 := 0#32
  let v1604 : BitVec 1 := Scalar.cmpi .ne v1603 c0_i32_890
  let v1605 : BitVec 1 := Scalar.andi v1602 v1604
  let v1591 : BitVec 32 := Scalar.divsi v1568 c3_i32_885
  let c1_i32_891 : BitVec 32 := 1#32
  let v1606 : BitVec 32 := Scalar.subi v1591 c1_i32_891
  let v1607 : BitVec 32 := Scalar.select v1605 v1606 v1591
  let v1608 : BitVec 32 := Scalar.addi v1590 v1607
  let c3_i32_892 : BitVec 32 := 3#32
  let v1609 : BitVec 32 := Scalar.muli c3_i32_892 v1568
  let c14_i32_893 : BitVec 32 := 14#32
  let v1610 : BitVec 32 := Scalar.addi v1609 c14_i32_893
  let v1611 : BitVec 32 := Scalar.select v1578 v1608 v1610
  let v1618 : BitVec 32 := Scalar.addi v1617 v1611
  let c4_i32_899 : BitVec 32 := 4#32
  let v1619 : BitVec 32 := Scalar.muli v1618 c4_i32_899
  let c1_i32_900 : BitVec 32 := 1#32
  let v1620 : BitVec 32 := Scalar.addi v1619 c1_i32_900
  let c65536_i32_901 : BitVec 32 := 65536#32
  let v1621 : BitVec 32 := Scalar.muli v1620 c65536_i32_901
  v1621
def k0_mult35 (i : grid0.Coords) : BitVec 32 :=
  let c2_i32_906 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1634 : BitVec 32 := Scalar.muli c2_i32_906 v1
  let c1_i32_907 : BitVec 32 := 1#32
  let v1635 : BitVec 32 := Scalar.addi v1634 c1_i32_907
  let c0_i32_909 : BitVec 32 := 0#32
  let v1637 : BitVec 1 := Scalar.cmpi .sgt v1635 c0_i32_909
  let v1638 : BitVec 32 := Scalar.extui v1637
  let c0_i32_910 : BitVec 32 := 0#32
  let v1639 : BitVec 1 := Scalar.cmpi .slt v1635 c0_i32_910
  let v1640 : BitVec 32 := Scalar.extui v1639
  let v1641 : BitVec 32 := Scalar.subi v1638 v1640
  let c16_i32_908 : BitVec 32 := 16#32
  let c0_i32_911 : BitVec 32 := 0#32
  let v1642 : BitVec 1 := Scalar.cmpi .sgt c16_i32_908 c0_i32_911
  let v1643 : BitVec 32 := Scalar.extui v1642
  let c0_i32_912 : BitVec 32 := 0#32
  let v1644 : BitVec 1 := Scalar.cmpi .slt c16_i32_908 c0_i32_912
  let v1645 : BitVec 32 := Scalar.extui v1644
  let v1646 : BitVec 32 := Scalar.subi v1643 v1645
  let v1647 : BitVec 1 := Scalar.cmpi .ne v1641 v1646
  let v1648 : BitVec 32 := Scalar.remsi v1635 c16_i32_908
  let c0_i32_913 : BitVec 32 := 0#32
  let v1649 : BitVec 1 := Scalar.cmpi .ne v1648 c0_i32_913
  let v1650 : BitVec 1 := Scalar.andi v1647 v1649
  let v1636 : BitVec 32 := Scalar.divsi v1635 c16_i32_908
  let c1_i32_914 : BitVec 32 := 1#32
  let v1651 : BitVec 32 := Scalar.subi v1636 c1_i32_914
  let v1652 : BitVec 32 := Scalar.select v1650 v1651 v1636
  let c16_i32_921 : BitVec 32 := 16#32
  let v1663 : BitVec 32 := Scalar.muli v1652 c16_i32_921
  let c16_i32_915 : BitVec 32 := 16#32
  let c0_i32_916 : BitVec 32 := 0#32
  let v1653 : BitVec 1 := Scalar.cmpi .eq c16_i32_915 c0_i32_916
  let c1_i32_917 : BitVec 32 := 1#32
  let v1654 : BitVec 32 := Scalar.select v1653 c1_i32_917 c16_i32_915
  let v1655 : BitVec 32 := Scalar.remsi v1635 v1654
  let c0_i32_919 : BitVec 32 := 0#32
  let v1657 : BitVec 1 := Scalar.cmpi .slt v1655 c0_i32_919
  let c0_i32_920 : BitVec 32 := 0#32
  let v1658 : BitVec 1 := Scalar.cmpi .slt v1654 c0_i32_920
  let v1659 : BitVec 1 := Scalar.xori v1657 v1658
  let c0_i32_918 : BitVec 32 := 0#32
  let v1656 : BitVec 1 := Scalar.cmpi .ne v1655 c0_i32_918
  let v1660 : BitVec 1 := Scalar.andi v1659 v1656
  let v1661 : BitVec 32 := Scalar.addi v1655 v1654
  let v1662 : BitVec 32 := Scalar.select v1660 v1661 v1655
  let v1664 : BitVec 32 := Scalar.addi v1663 v1662
  let c4_i32_922 : BitVec 32 := 4#32
  let v1665 : BitVec 32 := Scalar.muli v1664 c4_i32_922
  let c2_i32_923 : BitVec 32 := 2#32
  let v1666 : BitVec 32 := Scalar.addi v1665 c2_i32_923
  let c65536_i32_924 : BitVec 32 := 65536#32
  let v1667 : BitVec 32 := Scalar.muli v1666 c65536_i32_924
  v1667
def k0_mult36 (i : grid0.Coords) : BitVec 32 :=
  let c2_i32_957 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1723 : BitVec 32 := Scalar.muli c2_i32_957 v1
  let c1_i32_958 : BitVec 32 := 1#32
  let v1724 : BitVec 32 := Scalar.addi v1723 c1_i32_958
  let c0_i32_960 : BitVec 32 := 0#32
  let v1726 : BitVec 1 := Scalar.cmpi .sgt v1724 c0_i32_960
  let v1727 : BitVec 32 := Scalar.extui v1726
  let c0_i32_961 : BitVec 32 := 0#32
  let v1728 : BitVec 1 := Scalar.cmpi .slt v1724 c0_i32_961
  let v1729 : BitVec 32 := Scalar.extui v1728
  let v1730 : BitVec 32 := Scalar.subi v1727 v1729
  let c16_i32_959 : BitVec 32 := 16#32
  let c0_i32_962 : BitVec 32 := 0#32
  let v1731 : BitVec 1 := Scalar.cmpi .sgt c16_i32_959 c0_i32_962
  let v1732 : BitVec 32 := Scalar.extui v1731
  let c0_i32_963 : BitVec 32 := 0#32
  let v1733 : BitVec 1 := Scalar.cmpi .slt c16_i32_959 c0_i32_963
  let v1734 : BitVec 32 := Scalar.extui v1733
  let v1735 : BitVec 32 := Scalar.subi v1732 v1734
  let v1736 : BitVec 1 := Scalar.cmpi .ne v1730 v1735
  let v1737 : BitVec 32 := Scalar.remsi v1724 c16_i32_959
  let c0_i32_964 : BitVec 32 := 0#32
  let v1738 : BitVec 1 := Scalar.cmpi .ne v1737 c0_i32_964
  let v1739 : BitVec 1 := Scalar.andi v1736 v1738
  let v1725 : BitVec 32 := Scalar.divsi v1724 c16_i32_959
  let c1_i32_965 : BitVec 32 := 1#32
  let v1740 : BitVec 32 := Scalar.subi v1725 c1_i32_965
  let v1741 : BitVec 32 := Scalar.select v1739 v1740 v1725
  let c60_i32_997 : BitVec 32 := 60#32
  let v1795 : BitVec 32 := Scalar.muli v1741 c60_i32_997
  let c16_i32_966 : BitVec 32 := 16#32
  let c0_i32_967 : BitVec 32 := 0#32
  let v1742 : BitVec 1 := Scalar.cmpi .eq c16_i32_966 c0_i32_967
  let c1_i32_968 : BitVec 32 := 1#32
  let v1743 : BitVec 32 := Scalar.select v1742 c1_i32_968 c16_i32_966
  let v1744 : BitVec 32 := Scalar.remsi v1724 v1743
  let c0_i32_970 : BitVec 32 := 0#32
  let v1746 : BitVec 1 := Scalar.cmpi .slt v1744 c0_i32_970
  let c0_i32_971 : BitVec 32 := 0#32
  let v1747 : BitVec 1 := Scalar.cmpi .slt v1743 c0_i32_971
  let v1748 : BitVec 1 := Scalar.xori v1746 v1747
  let c0_i32_969 : BitVec 32 := 0#32
  let v1745 : BitVec 1 := Scalar.cmpi .ne v1744 c0_i32_969
  let v1749 : BitVec 1 := Scalar.andi v1748 v1745
  let v1750 : BitVec 32 := Scalar.addi v1744 v1743
  let v1751 : BitVec 32 := Scalar.select v1749 v1750 v1744
  let c9_i32_976 : BitVec 32 := 9#32
  let v1757 : BitVec 1 := Scalar.cmpi .slt v1751 c9_i32_976
  let c3_i32_977 : BitVec 32 := 3#32
  let v1758 : BitVec 32 := Scalar.muli c3_i32_977 v1751
  let c16_i32_978 : BitVec 32 := 16#32
  let v1759 : BitVec 32 := Scalar.subi v1758 c16_i32_978
  let v1760 : BitVec 32 := Scalar.select v1757 v1751 v1759
  let v1796 : BitVec 32 := Scalar.addi v1795 v1760
  let c4_i32_998 : BitVec 32 := 4#32
  let v1797 : BitVec 32 := Scalar.muli v1796 c4_i32_998
  let c2_i32_999 : BitVec 32 := 2#32
  let v1798 : BitVec 32 := Scalar.addi v1797 c2_i32_999
  let c65536_i32_1000 : BitVec 32 := 65536#32
  let v1799 : BitVec 32 := Scalar.muli v1798 c65536_i32_1000
  v1799
def k0_mult37 (i : grid0.Coords) : BitVec 32 :=
  let c2_i32_957 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1723 : BitVec 32 := Scalar.muli c2_i32_957 v1
  let c1_i32_958 : BitVec 32 := 1#32
  let v1724 : BitVec 32 := Scalar.addi v1723 c1_i32_958
  let c0_i32_960 : BitVec 32 := 0#32
  let v1726 : BitVec 1 := Scalar.cmpi .sgt v1724 c0_i32_960
  let v1727 : BitVec 32 := Scalar.extui v1726
  let c0_i32_961 : BitVec 32 := 0#32
  let v1728 : BitVec 1 := Scalar.cmpi .slt v1724 c0_i32_961
  let v1729 : BitVec 32 := Scalar.extui v1728
  let v1730 : BitVec 32 := Scalar.subi v1727 v1729
  let c16_i32_959 : BitVec 32 := 16#32
  let c0_i32_962 : BitVec 32 := 0#32
  let v1731 : BitVec 1 := Scalar.cmpi .sgt c16_i32_959 c0_i32_962
  let v1732 : BitVec 32 := Scalar.extui v1731
  let c0_i32_963 : BitVec 32 := 0#32
  let v1733 : BitVec 1 := Scalar.cmpi .slt c16_i32_959 c0_i32_963
  let v1734 : BitVec 32 := Scalar.extui v1733
  let v1735 : BitVec 32 := Scalar.subi v1732 v1734
  let v1736 : BitVec 1 := Scalar.cmpi .ne v1730 v1735
  let v1737 : BitVec 32 := Scalar.remsi v1724 c16_i32_959
  let c0_i32_964 : BitVec 32 := 0#32
  let v1738 : BitVec 1 := Scalar.cmpi .ne v1737 c0_i32_964
  let v1739 : BitVec 1 := Scalar.andi v1736 v1738
  let v1725 : BitVec 32 := Scalar.divsi v1724 c16_i32_959
  let c1_i32_965 : BitVec 32 := 1#32
  let v1740 : BitVec 32 := Scalar.subi v1725 c1_i32_965
  let v1741 : BitVec 32 := Scalar.select v1739 v1740 v1725
  let c60_i32_1001 : BitVec 32 := 60#32
  let v1800 : BitVec 32 := Scalar.muli v1741 c60_i32_1001
  let c16_i32_966 : BitVec 32 := 16#32
  let c0_i32_967 : BitVec 32 := 0#32
  let v1742 : BitVec 1 := Scalar.cmpi .eq c16_i32_966 c0_i32_967
  let c1_i32_968 : BitVec 32 := 1#32
  let v1743 : BitVec 32 := Scalar.select v1742 c1_i32_968 c16_i32_966
  let v1744 : BitVec 32 := Scalar.remsi v1724 v1743
  let c0_i32_970 : BitVec 32 := 0#32
  let v1746 : BitVec 1 := Scalar.cmpi .slt v1744 c0_i32_970
  let c0_i32_971 : BitVec 32 := 0#32
  let v1747 : BitVec 1 := Scalar.cmpi .slt v1743 c0_i32_971
  let v1748 : BitVec 1 := Scalar.xori v1746 v1747
  let c0_i32_969 : BitVec 32 := 0#32
  let v1745 : BitVec 1 := Scalar.cmpi .ne v1744 c0_i32_969
  let v1749 : BitVec 1 := Scalar.andi v1748 v1745
  let v1750 : BitVec 32 := Scalar.addi v1744 v1743
  let v1751 : BitVec 32 := Scalar.select v1749 v1750 v1744
  let c9_i32_979 : BitVec 32 := 9#32
  let v1761 : BitVec 1 := Scalar.cmpi .slt v1751 c9_i32_979
  let c30_i32_987 : BitVec 32 := 30#32
  let c3_i32_986 : BitVec 32 := 3#32
  let c3_i32_980 : BitVec 32 := 3#32
  let c0_i32_981 : BitVec 32 := 0#32
  let v1762 : BitVec 1 := Scalar.cmpi .eq c3_i32_980 c0_i32_981
  let c1_i32_982 : BitVec 32 := 1#32
  let v1763 : BitVec 32 := Scalar.select v1762 c1_i32_982 c3_i32_980
  let v1764 : BitVec 32 := Scalar.remsi v1751 v1763
  let c0_i32_984 : BitVec 32 := 0#32
  let v1766 : BitVec 1 := Scalar.cmpi .slt v1764 c0_i32_984
  let c0_i32_985 : BitVec 32 := 0#32
  let v1767 : BitVec 1 := Scalar.cmpi .slt v1763 c0_i32_985
  let v1768 : BitVec 1 := Scalar.xori v1766 v1767
  let c0_i32_983 : BitVec 32 := 0#32
  let v1765 : BitVec 1 := Scalar.cmpi .ne v1764 c0_i32_983
  let v1769 : BitVec 1 := Scalar.andi v1768 v1765
  let v1770 : BitVec 32 := Scalar.addi v1764 v1763
  let v1771 : BitVec 32 := Scalar.select v1769 v1770 v1764
  let v1772 : BitVec 32 := Scalar.muli c3_i32_986 v1771
  let v1773 : BitVec 32 := Scalar.addi c30_i32_987 v1772
  let c0_i32_989 : BitVec 32 := 0#32
  let v1775 : BitVec 1 := Scalar.cmpi .sgt v1751 c0_i32_989
  let v1776 : BitVec 32 := Scalar.extui v1775
  let c0_i32_990 : BitVec 32 := 0#32
  let v1777 : BitVec 1 := Scalar.cmpi .slt v1751 c0_i32_990
  let v1778 : BitVec 32 := Scalar.extui v1777
  let v1779 : BitVec 32 := Scalar.subi v1776 v1778
  let c3_i32_988 : BitVec 32 := 3#32
  let c0_i32_991 : BitVec 32 := 0#32
  let v1780 : BitVec 1 := Scalar.cmpi .sgt c3_i32_988 c0_i32_991
  let v1781 : BitVec 32 := Scalar.extui v1780
  let c0_i32_992 : BitVec 32 := 0#32
  let v1782 : BitVec 1 := Scalar.cmpi .slt c3_i32_988 c0_i32_992
  let v1783 : BitVec 32 := Scalar.extui v1782
  let v1784 : BitVec 32 := Scalar.subi v1781 v1783
  let v1785 : BitVec 1 := Scalar.cmpi .ne v1779 v1784
  let v1786 : BitVec 32 := Scalar.remsi v1751 c3_i32_988
  let c0_i32_993 : BitVec 32 := 0#32
  let v1787 : BitVec 1 := Scalar.cmpi .ne v1786 c0_i32_993
  let v1788 : BitVec 1 := Scalar.andi v1785 v1787
  let v1774 : BitVec 32 := Scalar.divsi v1751 c3_i32_988
  let c1_i32_994 : BitVec 32 := 1#32
  let v1789 : BitVec 32 := Scalar.subi v1774 c1_i32_994
  let v1790 : BitVec 32 := Scalar.select v1788 v1789 v1774
  let v1791 : BitVec 32 := Scalar.addi v1773 v1790
  let c3_i32_995 : BitVec 32 := 3#32
  let v1792 : BitVec 32 := Scalar.muli c3_i32_995 v1751
  let c14_i32_996 : BitVec 32 := 14#32
  let v1793 : BitVec 32 := Scalar.addi v1792 c14_i32_996
  let v1794 : BitVec 32 := Scalar.select v1761 v1791 v1793
  let v1801 : BitVec 32 := Scalar.addi v1800 v1794
  let c4_i32_1002 : BitVec 32 := 4#32
  let v1802 : BitVec 32 := Scalar.muli v1801 c4_i32_1002
  let c2_i32_1003 : BitVec 32 := 2#32
  let v1803 : BitVec 32 := Scalar.addi v1802 c2_i32_1003
  let c65536_i32_1004 : BitVec 32 := 65536#32
  let v1804 : BitVec 32 := Scalar.muli v1803 c65536_i32_1004
  v1804
def k0_mult38 (i : grid0.Coords) : BitVec 32 :=
  let c2_i32_1011 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1817 : BitVec 32 := Scalar.muli c2_i32_1011 v1
  let c1_i32_1012 : BitVec 32 := 1#32
  let v1818 : BitVec 32 := Scalar.addi v1817 c1_i32_1012
  let c0_i32_1014 : BitVec 32 := 0#32
  let v1820 : BitVec 1 := Scalar.cmpi .sgt v1818 c0_i32_1014
  let v1821 : BitVec 32 := Scalar.extui v1820
  let c0_i32_1015 : BitVec 32 := 0#32
  let v1822 : BitVec 1 := Scalar.cmpi .slt v1818 c0_i32_1015
  let v1823 : BitVec 32 := Scalar.extui v1822
  let v1824 : BitVec 32 := Scalar.subi v1821 v1823
  let c16_i32_1013 : BitVec 32 := 16#32
  let c0_i32_1016 : BitVec 32 := 0#32
  let v1825 : BitVec 1 := Scalar.cmpi .sgt c16_i32_1013 c0_i32_1016
  let v1826 : BitVec 32 := Scalar.extui v1825
  let c0_i32_1017 : BitVec 32 := 0#32
  let v1827 : BitVec 1 := Scalar.cmpi .slt c16_i32_1013 c0_i32_1017
  let v1828 : BitVec 32 := Scalar.extui v1827
  let v1829 : BitVec 32 := Scalar.subi v1826 v1828
  let v1830 : BitVec 1 := Scalar.cmpi .ne v1824 v1829
  let v1831 : BitVec 32 := Scalar.remsi v1818 c16_i32_1013
  let c0_i32_1018 : BitVec 32 := 0#32
  let v1832 : BitVec 1 := Scalar.cmpi .ne v1831 c0_i32_1018
  let v1833 : BitVec 1 := Scalar.andi v1830 v1832
  let v1819 : BitVec 32 := Scalar.divsi v1818 c16_i32_1013
  let c1_i32_1019 : BitVec 32 := 1#32
  let v1834 : BitVec 32 := Scalar.subi v1819 c1_i32_1019
  let v1835 : BitVec 32 := Scalar.select v1833 v1834 v1819
  let c16_i32_1026 : BitVec 32 := 16#32
  let v1846 : BitVec 32 := Scalar.muli v1835 c16_i32_1026
  let c16_i32_1020 : BitVec 32 := 16#32
  let c0_i32_1021 : BitVec 32 := 0#32
  let v1836 : BitVec 1 := Scalar.cmpi .eq c16_i32_1020 c0_i32_1021
  let c1_i32_1022 : BitVec 32 := 1#32
  let v1837 : BitVec 32 := Scalar.select v1836 c1_i32_1022 c16_i32_1020
  let v1838 : BitVec 32 := Scalar.remsi v1818 v1837
  let c0_i32_1024 : BitVec 32 := 0#32
  let v1840 : BitVec 1 := Scalar.cmpi .slt v1838 c0_i32_1024
  let c0_i32_1025 : BitVec 32 := 0#32
  let v1841 : BitVec 1 := Scalar.cmpi .slt v1837 c0_i32_1025
  let v1842 : BitVec 1 := Scalar.xori v1840 v1841
  let c0_i32_1023 : BitVec 32 := 0#32
  let v1839 : BitVec 1 := Scalar.cmpi .ne v1838 c0_i32_1023
  let v1843 : BitVec 1 := Scalar.andi v1842 v1839
  let v1844 : BitVec 32 := Scalar.addi v1838 v1837
  let v1845 : BitVec 32 := Scalar.select v1843 v1844 v1838
  let v1847 : BitVec 32 := Scalar.addi v1846 v1845
  let c4_i32_1027 : BitVec 32 := 4#32
  let v1848 : BitVec 32 := Scalar.muli v1847 c4_i32_1027
  let c3_i32_1028 : BitVec 32 := 3#32
  let v1849 : BitVec 32 := Scalar.addi v1848 c3_i32_1028
  let c65536_i32_1029 : BitVec 32 := 65536#32
  let v1850 : BitVec 32 := Scalar.muli v1849 c65536_i32_1029
  v1850
def k0_mult39 (i : grid0.Coords) : BitVec 32 :=
  let c2_i32_1061 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1904 : BitVec 32 := Scalar.muli c2_i32_1061 v1
  let c1_i32_1062 : BitVec 32 := 1#32
  let v1905 : BitVec 32 := Scalar.addi v1904 c1_i32_1062
  let c0_i32_1064 : BitVec 32 := 0#32
  let v1907 : BitVec 1 := Scalar.cmpi .sgt v1905 c0_i32_1064
  let v1908 : BitVec 32 := Scalar.extui v1907
  let c0_i32_1065 : BitVec 32 := 0#32
  let v1909 : BitVec 1 := Scalar.cmpi .slt v1905 c0_i32_1065
  let v1910 : BitVec 32 := Scalar.extui v1909
  let v1911 : BitVec 32 := Scalar.subi v1908 v1910
  let c16_i32_1063 : BitVec 32 := 16#32
  let c0_i32_1066 : BitVec 32 := 0#32
  let v1912 : BitVec 1 := Scalar.cmpi .sgt c16_i32_1063 c0_i32_1066
  let v1913 : BitVec 32 := Scalar.extui v1912
  let c0_i32_1067 : BitVec 32 := 0#32
  let v1914 : BitVec 1 := Scalar.cmpi .slt c16_i32_1063 c0_i32_1067
  let v1915 : BitVec 32 := Scalar.extui v1914
  let v1916 : BitVec 32 := Scalar.subi v1913 v1915
  let v1917 : BitVec 1 := Scalar.cmpi .ne v1911 v1916
  let v1918 : BitVec 32 := Scalar.remsi v1905 c16_i32_1063
  let c0_i32_1068 : BitVec 32 := 0#32
  let v1919 : BitVec 1 := Scalar.cmpi .ne v1918 c0_i32_1068
  let v1920 : BitVec 1 := Scalar.andi v1917 v1919
  let v1906 : BitVec 32 := Scalar.divsi v1905 c16_i32_1063
  let c1_i32_1069 : BitVec 32 := 1#32
  let v1921 : BitVec 32 := Scalar.subi v1906 c1_i32_1069
  let v1922 : BitVec 32 := Scalar.select v1920 v1921 v1906
  let c60_i32_1101 : BitVec 32 := 60#32
  let v1976 : BitVec 32 := Scalar.muli v1922 c60_i32_1101
  let c16_i32_1070 : BitVec 32 := 16#32
  let c0_i32_1071 : BitVec 32 := 0#32
  let v1923 : BitVec 1 := Scalar.cmpi .eq c16_i32_1070 c0_i32_1071
  let c1_i32_1072 : BitVec 32 := 1#32
  let v1924 : BitVec 32 := Scalar.select v1923 c1_i32_1072 c16_i32_1070
  let v1925 : BitVec 32 := Scalar.remsi v1905 v1924
  let c0_i32_1074 : BitVec 32 := 0#32
  let v1927 : BitVec 1 := Scalar.cmpi .slt v1925 c0_i32_1074
  let c0_i32_1075 : BitVec 32 := 0#32
  let v1928 : BitVec 1 := Scalar.cmpi .slt v1924 c0_i32_1075
  let v1929 : BitVec 1 := Scalar.xori v1927 v1928
  let c0_i32_1073 : BitVec 32 := 0#32
  let v1926 : BitVec 1 := Scalar.cmpi .ne v1925 c0_i32_1073
  let v1930 : BitVec 1 := Scalar.andi v1929 v1926
  let v1931 : BitVec 32 := Scalar.addi v1925 v1924
  let v1932 : BitVec 32 := Scalar.select v1930 v1931 v1925
  let c9_i32_1080 : BitVec 32 := 9#32
  let v1938 : BitVec 1 := Scalar.cmpi .slt v1932 c9_i32_1080
  let c3_i32_1081 : BitVec 32 := 3#32
  let v1939 : BitVec 32 := Scalar.muli c3_i32_1081 v1932
  let c16_i32_1082 : BitVec 32 := 16#32
  let v1940 : BitVec 32 := Scalar.subi v1939 c16_i32_1082
  let v1941 : BitVec 32 := Scalar.select v1938 v1932 v1940
  let v1977 : BitVec 32 := Scalar.addi v1976 v1941
  let c4_i32_1102 : BitVec 32 := 4#32
  let v1978 : BitVec 32 := Scalar.muli v1977 c4_i32_1102
  let c3_i32_1103 : BitVec 32 := 3#32
  let v1979 : BitVec 32 := Scalar.addi v1978 c3_i32_1103
  let c65536_i32_1104 : BitVec 32 := 65536#32
  let v1980 : BitVec 32 := Scalar.muli v1979 c65536_i32_1104
  v1980
def k0_mult40 (i : grid0.Coords) : BitVec 32 :=
  let c2_i32_1061 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1904 : BitVec 32 := Scalar.muli c2_i32_1061 v1
  let c1_i32_1062 : BitVec 32 := 1#32
  let v1905 : BitVec 32 := Scalar.addi v1904 c1_i32_1062
  let c0_i32_1064 : BitVec 32 := 0#32
  let v1907 : BitVec 1 := Scalar.cmpi .sgt v1905 c0_i32_1064
  let v1908 : BitVec 32 := Scalar.extui v1907
  let c0_i32_1065 : BitVec 32 := 0#32
  let v1909 : BitVec 1 := Scalar.cmpi .slt v1905 c0_i32_1065
  let v1910 : BitVec 32 := Scalar.extui v1909
  let v1911 : BitVec 32 := Scalar.subi v1908 v1910
  let c16_i32_1063 : BitVec 32 := 16#32
  let c0_i32_1066 : BitVec 32 := 0#32
  let v1912 : BitVec 1 := Scalar.cmpi .sgt c16_i32_1063 c0_i32_1066
  let v1913 : BitVec 32 := Scalar.extui v1912
  let c0_i32_1067 : BitVec 32 := 0#32
  let v1914 : BitVec 1 := Scalar.cmpi .slt c16_i32_1063 c0_i32_1067
  let v1915 : BitVec 32 := Scalar.extui v1914
  let v1916 : BitVec 32 := Scalar.subi v1913 v1915
  let v1917 : BitVec 1 := Scalar.cmpi .ne v1911 v1916
  let v1918 : BitVec 32 := Scalar.remsi v1905 c16_i32_1063
  let c0_i32_1068 : BitVec 32 := 0#32
  let v1919 : BitVec 1 := Scalar.cmpi .ne v1918 c0_i32_1068
  let v1920 : BitVec 1 := Scalar.andi v1917 v1919
  let v1906 : BitVec 32 := Scalar.divsi v1905 c16_i32_1063
  let c1_i32_1069 : BitVec 32 := 1#32
  let v1921 : BitVec 32 := Scalar.subi v1906 c1_i32_1069
  let v1922 : BitVec 32 := Scalar.select v1920 v1921 v1906
  let c60_i32_1105 : BitVec 32 := 60#32
  let v1981 : BitVec 32 := Scalar.muli v1922 c60_i32_1105
  let c16_i32_1070 : BitVec 32 := 16#32
  let c0_i32_1071 : BitVec 32 := 0#32
  let v1923 : BitVec 1 := Scalar.cmpi .eq c16_i32_1070 c0_i32_1071
  let c1_i32_1072 : BitVec 32 := 1#32
  let v1924 : BitVec 32 := Scalar.select v1923 c1_i32_1072 c16_i32_1070
  let v1925 : BitVec 32 := Scalar.remsi v1905 v1924
  let c0_i32_1074 : BitVec 32 := 0#32
  let v1927 : BitVec 1 := Scalar.cmpi .slt v1925 c0_i32_1074
  let c0_i32_1075 : BitVec 32 := 0#32
  let v1928 : BitVec 1 := Scalar.cmpi .slt v1924 c0_i32_1075
  let v1929 : BitVec 1 := Scalar.xori v1927 v1928
  let c0_i32_1073 : BitVec 32 := 0#32
  let v1926 : BitVec 1 := Scalar.cmpi .ne v1925 c0_i32_1073
  let v1930 : BitVec 1 := Scalar.andi v1929 v1926
  let v1931 : BitVec 32 := Scalar.addi v1925 v1924
  let v1932 : BitVec 32 := Scalar.select v1930 v1931 v1925
  let c9_i32_1083 : BitVec 32 := 9#32
  let v1942 : BitVec 1 := Scalar.cmpi .slt v1932 c9_i32_1083
  let c30_i32_1091 : BitVec 32 := 30#32
  let c3_i32_1090 : BitVec 32 := 3#32
  let c3_i32_1084 : BitVec 32 := 3#32
  let c0_i32_1085 : BitVec 32 := 0#32
  let v1943 : BitVec 1 := Scalar.cmpi .eq c3_i32_1084 c0_i32_1085
  let c1_i32_1086 : BitVec 32 := 1#32
  let v1944 : BitVec 32 := Scalar.select v1943 c1_i32_1086 c3_i32_1084
  let v1945 : BitVec 32 := Scalar.remsi v1932 v1944
  let c0_i32_1088 : BitVec 32 := 0#32
  let v1947 : BitVec 1 := Scalar.cmpi .slt v1945 c0_i32_1088
  let c0_i32_1089 : BitVec 32 := 0#32
  let v1948 : BitVec 1 := Scalar.cmpi .slt v1944 c0_i32_1089
  let v1949 : BitVec 1 := Scalar.xori v1947 v1948
  let c0_i32_1087 : BitVec 32 := 0#32
  let v1946 : BitVec 1 := Scalar.cmpi .ne v1945 c0_i32_1087
  let v1950 : BitVec 1 := Scalar.andi v1949 v1946
  let v1951 : BitVec 32 := Scalar.addi v1945 v1944
  let v1952 : BitVec 32 := Scalar.select v1950 v1951 v1945
  let v1953 : BitVec 32 := Scalar.muli c3_i32_1090 v1952
  let v1954 : BitVec 32 := Scalar.addi c30_i32_1091 v1953
  let c0_i32_1093 : BitVec 32 := 0#32
  let v1956 : BitVec 1 := Scalar.cmpi .sgt v1932 c0_i32_1093
  let v1957 : BitVec 32 := Scalar.extui v1956
  let c0_i32_1094 : BitVec 32 := 0#32
  let v1958 : BitVec 1 := Scalar.cmpi .slt v1932 c0_i32_1094
  let v1959 : BitVec 32 := Scalar.extui v1958
  let v1960 : BitVec 32 := Scalar.subi v1957 v1959
  let c3_i32_1092 : BitVec 32 := 3#32
  let c0_i32_1095 : BitVec 32 := 0#32
  let v1961 : BitVec 1 := Scalar.cmpi .sgt c3_i32_1092 c0_i32_1095
  let v1962 : BitVec 32 := Scalar.extui v1961
  let c0_i32_1096 : BitVec 32 := 0#32
  let v1963 : BitVec 1 := Scalar.cmpi .slt c3_i32_1092 c0_i32_1096
  let v1964 : BitVec 32 := Scalar.extui v1963
  let v1965 : BitVec 32 := Scalar.subi v1962 v1964
  let v1966 : BitVec 1 := Scalar.cmpi .ne v1960 v1965
  let v1967 : BitVec 32 := Scalar.remsi v1932 c3_i32_1092
  let c0_i32_1097 : BitVec 32 := 0#32
  let v1968 : BitVec 1 := Scalar.cmpi .ne v1967 c0_i32_1097
  let v1969 : BitVec 1 := Scalar.andi v1966 v1968
  let v1955 : BitVec 32 := Scalar.divsi v1932 c3_i32_1092
  let c1_i32_1098 : BitVec 32 := 1#32
  let v1970 : BitVec 32 := Scalar.subi v1955 c1_i32_1098
  let v1971 : BitVec 32 := Scalar.select v1969 v1970 v1955
  let v1972 : BitVec 32 := Scalar.addi v1954 v1971
  let c3_i32_1099 : BitVec 32 := 3#32
  let v1973 : BitVec 32 := Scalar.muli c3_i32_1099 v1932
  let c14_i32_1100 : BitVec 32 := 14#32
  let v1974 : BitVec 32 := Scalar.addi v1973 c14_i32_1100
  let v1975 : BitVec 32 := Scalar.select v1942 v1972 v1974
  let v1982 : BitVec 32 := Scalar.addi v1981 v1975
  let c4_i32_1106 : BitVec 32 := 4#32
  let v1983 : BitVec 32 := Scalar.muli v1982 c4_i32_1106
  let c3_i32_1107 : BitVec 32 := 3#32
  let v1984 : BitVec 32 := Scalar.addi v1983 c3_i32_1107
  let c65536_i32_1108 : BitVec 32 := 65536#32
  let v1985 : BitVec 32 := Scalar.muli v1984 c65536_i32_1108
  v1985
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x16x2048x128_S16777216 : S4x16x2048x128.ShapeCasts S16777216
  squeezes_S1x65536_S65536 : S1x65536.Squeezes S65536
  inb_S16777216_S65536_0 : ∀ a, (![0] : Fin 1 → Nat) a + S65536.size a ≤ S16777216.size a
  inb_S62914560_S65536_0 : ∀ a, (![0] : Fin 1 → Nat) a + S65536.size a ≤ S62914560.size a
  shapeCasts_S62914560_S4x20x3x2048x128 : S62914560.ShapeCasts S4x20x3x2048x128
  hcc0_scratch2 : 0 + S_.numel ≤ 4
  hcc0_scratch3 : 1 + S_.numel ≤ 4
  hcc0_scratch4 : 2 + S_.numel ≤ 4
  hcc0_scratch5 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 65536 ∣ (k0_mult1 i).toNat
  k0_off1_inb : ∀ i : grid0.Coords, ∀ a, (k0_off1 i) a + S1x65536.size a ≤ S16x65536.size a
  k0_off2_inb : ∀ i : grid0.Coords, ∀ (r : Fin 2), ∀ a, (k0_off2 i (BitVec.ofNat 32 r.val)) a + S65536.size a ≤ S16777216.size a
  k0_mult2_dvd : ∀ i : grid0.Coords, 65536 ∣ (k0_mult2 i).toNat
  k0_off3_inb : ∀ i : grid0.Coords, ∀ (r₁ : Fin 7) (r₂ : Fin 2), ∀ a, (k0_off3 i (BitVec.ofNat 32 (3 * r₁.val)) (BitVec.ofNat 32 r₂.val)) a + S65536.size a ≤ S62914560.size a
  k0_mult3_dvd : ∀ i : grid0.Coords, 65536 ∣ (k0_mult3 i).toNat
  k0_mult4_dvd : ∀ i : grid0.Coords, 65536 ∣ (k0_mult4 i).toNat
  k0_mult5_dvd : ∀ i : grid0.Coords, 65536 ∣ (k0_mult5 i).toNat
  k0_mult6_dvd : ∀ i : grid0.Coords, 65536 ∣ (k0_mult6 i).toNat
  k0_mult7_dvd : ∀ i : grid0.Coords, 65536 ∣ (k0_mult7 i).toNat
  k0_mult8_dvd : ∀ i : grid0.Coords, 65536 ∣ (k0_mult8 i).toNat
  k0_mult9_dvd : ∀ i : grid0.Coords, 65536 ∣ (k0_mult9 i).toNat
  k0_mult10_dvd : ∀ i : grid0.Coords, 65536 ∣ (k0_mult10 i).toNat
  k0_mult11_dvd : ∀ i : grid0.Coords, 65536 ∣ (k0_mult11 i).toNat
  k0_mult12_dvd : ∀ i : grid0.Coords, 65536 ∣ (k0_mult12 i).toNat
  k0_mult13_dvd : ∀ i : grid0.Coords, 65536 ∣ (k0_mult13 i).toNat
  k0_mult14_dvd : ∀ i : grid0.Coords, 65536 ∣ (k0_mult14 i).toNat
  k0_mult15_dvd : ∀ i : grid0.Coords, 65536 ∣ (k0_mult15 i).toNat
  k0_mult16_dvd : ∀ i : grid0.Coords, 65536 ∣ (k0_mult16 i).toNat
  k0_mult17_dvd : ∀ i : grid0.Coords, 65536 ∣ (k0_mult17 i).toNat
  k0_off4_inb : ∀ i : grid0.Coords, ∀ (r₁ : Fin 2) (r₂ : Fin 4), ∀ a, (k0_off4 i (BitVec.ofNat 32 r₁.val) (BitVec.ofNat 32 r₂.val)) a + S65536.size a ≤ S16777216.size a
  k0_mult18_dvd : ∀ i : grid0.Coords, 65536 ∣ (k0_mult18 i).toNat
  k0_off5_inb : ∀ i : grid0.Coords, ∀ (r₁ : Fin 2) (r₂ : Fin 4), ∀ a, (k0_off5 i (BitVec.ofNat 32 r₁.val) (BitVec.ofNat 32 r₂.val)) a + S65536.size a ≤ S62914560.size a
  k0_mult19_dvd : ∀ i : grid0.Coords, 65536 ∣ (k0_mult19 i).toNat
  k0_off6_inb : ∀ i : grid0.Coords, ∀ (r₁ : Fin 2) (r₂ : Fin 4), ∀ a, (k0_off6 i (BitVec.ofNat 32 r₁.val) (BitVec.ofNat 32 r₂.val)) a + S65536.size a ≤ S62914560.size a
  k0_mult20_dvd : ∀ i : grid0.Coords, 65536 ∣ (k0_mult20 i).toNat
  k0_mult21_dvd : ∀ i : grid0.Coords, 65536 ∣ (k0_mult21 i).toNat
  k0_mult22_dvd : ∀ i : grid0.Coords, 65536 ∣ (k0_mult22 i).toNat
  k0_mult23_dvd : ∀ i : grid0.Coords, 65536 ∣ (k0_mult23 i).toNat
  k0_mult24_dvd : ∀ i : grid0.Coords, 65536 ∣ (k0_mult24 i).toNat
  k0_mult25_dvd : ∀ i : grid0.Coords, 65536 ∣ (k0_mult25 i).toNat
  k0_mult26_dvd : ∀ i : grid0.Coords, 65536 ∣ (k0_mult26 i).toNat
  k0_mult27_dvd : ∀ i : grid0.Coords, 65536 ∣ (k0_mult27 i).toNat
  k0_mult28_dvd : ∀ i : grid0.Coords, 65536 ∣ (k0_mult28 i).toNat
  k0_mult29_dvd : ∀ i : grid0.Coords, 65536 ∣ (k0_mult29 i).toNat
  k0_mult30_dvd : ∀ i : grid0.Coords, 65536 ∣ (k0_mult30 i).toNat
  k0_mult31_dvd : ∀ i : grid0.Coords, 65536 ∣ (k0_mult31 i).toNat
  k0_mult32_dvd : ∀ i : grid0.Coords, 65536 ∣ (k0_mult32 i).toNat
  k0_mult33_dvd : ∀ i : grid0.Coords, 65536 ∣ (k0_mult33 i).toNat
  k0_mult34_dvd : ∀ i : grid0.Coords, 65536 ∣ (k0_mult34 i).toNat
  k0_mult35_dvd : ∀ i : grid0.Coords, 65536 ∣ (k0_mult35 i).toNat
  k0_mult36_dvd : ∀ i : grid0.Coords, 65536 ∣ (k0_mult36 i).toNat
  k0_mult37_dvd : ∀ i : grid0.Coords, 65536 ∣ (k0_mult37 i).toNat
  k0_mult38_dvd : ∀ i : grid0.Coords, 65536 ∣ (k0_mult38 i).toNat
  k0_mult39_dvd : ∀ i : grid0.Coords, 65536 ∣ (k0_mult39 i).toNat
  k0_mult40_dvd : ∀ i : grid0.Coords, 65536 ∣ (k0_mult40 i).toNat

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5

class Facts : Prop extends Facts₀ where

variable [Facts]
-- ==== ReferenceIdeal.lean ====
abbrev S4x16x2048x128 : Shape := ⟨4, ![4, 16, 2048, 128]⟩
abbrev S60 : Shape := ⟨1, ![60]⟩
abbrev S_ : Shape := ⟨0, ![]⟩
abbrev S60x1 : Shape := ⟨2, ![60, 1]⟩
abbrev S1 : Shape := ⟨1, ![1]⟩
abbrev S1x1 : Shape := ⟨2, ![1, 1]⟩
abbrev S4x60x2048x128 : Shape := ⟨4, ![4, 60, 2048, 128]⟩
abbrev S4x20x3x2048x128 : Shape := ⟨5, ![4, 20, 3, 2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S60, .i32⟩
  | .hbm, ⟨2, _⟩ => ⟨S_, .i32⟩
  | .hbm, ⟨3, _⟩ => ⟨S60, .i32⟩
  | .hbm, ⟨4, _⟩ => ⟨S60, .i1⟩
  | .hbm, ⟨5, _⟩ => ⟨S_, .i32⟩
  | .hbm, ⟨6, _⟩ => ⟨S60, .i32⟩
  | .hbm, ⟨7, _⟩ => ⟨S60, .i32⟩
  | .hbm, ⟨8, _⟩ => ⟨S60, .i32⟩
  | .hbm, ⟨9, _⟩ => ⟨S60x1, .i32⟩
  | .hbm, ⟨10, _⟩ => ⟨S1, .i32⟩
  | .hbm, ⟨11, _⟩ => ⟨S_, .i32⟩
  | .hbm, ⟨12, _⟩ => ⟨S60x1, .i32⟩
  | .hbm, ⟨13, _⟩ => ⟨S60x1, .i1⟩
  | .hbm, ⟨14, _⟩ => ⟨S1x1, .i32⟩
  | .hbm, ⟨15, _⟩ => ⟨S60x1, .i32⟩
  | .hbm, ⟨16, _⟩ => ⟨S60x1, .i1⟩
  | .hbm, ⟨17, _⟩ => ⟨S60x1, .i1⟩
  | .hbm, ⟨18, _⟩ => ⟨S_, .i1⟩
  | .hbm, ⟨19, _⟩ => ⟨S60, .i1⟩
  | .hbm, ⟨20, _⟩ => ⟨S4x60x2048x128, .f32⟩
  | .hbm, ⟨21, _⟩ => ⟨S4x60x2048x128, .i1⟩
  | .hbm, ⟨22, _⟩ => ⟨S_, .f32⟩
  | .hbm, ⟨23, _⟩ => ⟨S4x60x2048x128, .f32⟩
  | .hbm, ⟨24, _⟩ => ⟨S4x60x2048x128, .f32⟩
  | .hbm, ⟨25, _⟩ => ⟨S4x20x3x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S60 : S_.BroadcastsInDim S60 (![] : Fin 0 → Fin S60.rank)
  bcast_S60_S60x1_0 : S60.BroadcastsInDim S60x1 (![0] : Fin 1 → Fin S60x1.rank)
  bcast_S_S60x1 : S_.BroadcastsInDim S60x1 (![] : Fin 0 → Fin S60x1.rank)
  bcast_S1_S1x1_1 : S1.BroadcastsInDim S1x1 (![1] : Fin 1 → Fin S1x1.rank)
  bcast_S1x1_S60x1_0_1 : S1x1.BroadcastsInDim S60x1 (![0, 1] : Fin 2 → Fin S60x1.rank)
  reducesTo_S60x1_S60_d1 : S60x1.ReducesTo [1] S60
  h_S_ : 0 < S_.numel
  bcast_S60_S4x60x2048x128_1 : S60.BroadcastsInDim S4x60x2048x128 (![1] : Fin 1 → Fin S4x60x2048x128.rank)
  bcast_S_S4x60x2048x128 : S_.BroadcastsInDim S4x60x2048x128 (![] : Fin 0 → Fin S4x60x2048x128.rank)
  shapeCasts_S4x60x2048x128_S4x20x3x2048x128 : S4x60x2048x128.ShapeCasts S4x20x3x2048x128
  gather_S4x16x2048x128_S60x1_S4x60x2048x128_023_1_n_n_1_1_412048128_wf : GatherDims.WF S4x16x2048x128 S60x1 S4x60x2048x128 [0, 2, 3] [1] [] [1] [] 1 ![4, 1, 2048, 128]

variable [Facts₀]

def gather_S4x16x2048x128_S60x1_S4x60x2048x128_023_1_n_n_1_1_412048128 : GatherDims S4x16x2048x128 S60x1 S4x60x2048x128 where
  offsetDims := [0, 2, 3]
  collapsedSliceDims := [1]
  operandBatchingDims := []
  startIndicesBatchingDims := []
  startIndexMap := [1]
  indexVectorDim := 1
  sliceSizes := ![4, 1, 2048, 128]
  wf := gather_S4x16x2048x128_S60x1_S4x60x2048x128_023_1_n_n_1_1_412048128_wf

class Facts : Prop extends Facts₀ where

variable [Facts]
-- ==== Proof.RespeltKernel.lean ====
/-
  The kernel's body with its operands fixed and its windows named.

  The body of `Kernel`'s one kernel moves pieces of 65536 numbers: ten out of the flat input array `xW` (one per step) into a
  staging buffer — row `i 1` of the SparseCore's shared scratch `shW` on even steps, the subcore's own scratch `bW` on odd
  ones — and thirty out of the staging buffers into the flat output array `oW`. Below, `rowM i` is that row, `xw0 i … xw9 i`
  the ten input windows in the order the steps read them (steps 8, 9, 0, …, 7) and `pc0 i … pc29 i` the thirty output
  windows in the order they are written; each is the slice the program itself takes, at the program's own offsets. `q_partN`
  and `qbody` are the printed parts and body at the launch's operands with those names in place of the slices, and each
  `…_eq` says the printed definition at those operands is the copy: the two differ by the names only.
-/
import proofs.«214454_g70703751626829_cont_9to1c4b_566_26_alg».proof.Proof.GenP.Kernel

set_option synthInstance.maxSize 4096

noncomputable section

namespace Cert.Kernel.Respelt

open Cert.Kernel Cert.Kernel.GenP
open Idealize.ShloMosaic Idealize.SL.Sem

variable {F : FTy → Type} [FloatOps F]

/-- The flat input and output arrays, the SparseCore's shared scratch and the subcore's own, whole. -/
abbrev xW : Memref sig .scVector .hbm S16777216 .f32 := Memref.whole main_v0_scv
abbrev oW : Memref sig .scVector .hbm S62914560 .f32 := Memref.whole main_v1_scv
abbrev shW : Memref sig .scVector .shared S16x65536 .f32 := Memref.whole cc0_scratch0
abbrev bW : Memref sig .scVector .vmem S65536 .f32 := Memref.whole cc0_scratch1

/-- The subcore's row of the shared scratch, as one piece. -/
abbrev rowM (i : grid0.Coords) : Memref sig .scVector .shared S65536 .f32 :=
  (shW.slice (Rect.unit (s := S16x65536) (k0_off1 i) S1x65536.size (k0_off1_inb i)) (fun _ => rfl)).squeeze S65536 squeezes_S1x65536_S65536

/-! ## The ten input windows and the thirty output windows -/

abbrev xw0 (i : grid0.Coords) : Memref sig .scVector .hbm S65536 .f32 := xW.slice (Rect.unit (s := S16777216) (k0_off2 i 0#32) S65536.size (k0_off2_inb i 0)) (fun _ => rfl)
abbrev xw1 (i : grid0.Coords) : Memref sig .scVector .hbm S65536 .f32 := xW.slice (Rect.unit (s := S16777216) (k0_off2 i 1#32) S65536.size (k0_off2_inb i 1)) (fun _ => rfl)
abbrev xw2 (i : grid0.Coords) : Memref sig .scVector .hbm S65536 .f32 := xW.slice (Rect.unit (s := S16777216) (k0_off4 i 0#32 0#32) S65536.size (k0_off4_inb i 0 0)) (fun _ => rfl)
abbrev xw3 (i : grid0.Coords) : Memref sig .scVector .hbm S65536 .f32 := xW.slice (Rect.unit (s := S16777216) (k0_off4 i 0#32 1#32) S65536.size (k0_off4_inb i 0 1)) (fun _ => rfl)
abbrev xw4 (i : grid0.Coords) : Memref sig .scVector .hbm S65536 .f32 := xW.slice (Rect.unit (s := S16777216) (k0_off4 i 0#32 2#32) S65536.size (k0_off4_inb i 0 2)) (fun _ => rfl)
abbrev xw5 (i : grid0.Coords) : Memref sig .scVector .hbm S65536 .f32 := xW.slice (Rect.unit (s := S16777216) (k0_off4 i 0#32 3#32) S65536.size (k0_off4_inb i 0 3)) (fun _ => rfl)
abbrev xw6 (i : grid0.Coords) : Memref sig .scVector .hbm S65536 .f32 := xW.slice (Rect.unit (s := S16777216) (k0_off4 i 1#32 0#32) S65536.size (k0_off4_inb i 1 0)) (fun _ => rfl)
abbrev xw7 (i : grid0.Coords) : Memref sig .scVector .hbm S65536 .f32 := xW.slice (Rect.unit (s := S16777216) (k0_off4 i 1#32 1#32) S65536.size (k0_off4_inb i 1 1)) (fun _ => rfl)
abbrev xw8 (i : grid0.Coords) : Memref sig .scVector .hbm S65536 .f32 := xW.slice (Rect.unit (s := S16777216) (k0_off4 i 1#32 2#32) S65536.size (k0_off4_inb i 1 2)) (fun _ => rfl)
abbrev xw9 (i : grid0.Coords) : Memref sig .scVector .hbm S65536 .f32 := xW.slice (Rect.unit (s := S16777216) (k0_off4 i 1#32 3#32) S65536.size (k0_off4_inb i 1 3)) (fun _ => rfl)
abbrev pc0 (i : grid0.Coords) : Memref sig .scVector .hbm S65536 .f32 := oW.slice (Rect.unit (s := S62914560) (k0_off3 i 0#32 0#32) S65536.size (k0_off3_inb i 0 0)) (fun _ => rfl)
abbrev pc1 (i : grid0.Coords) : Memref sig .scVector .hbm S65536 .f32 := oW.slice (Rect.unit (s := S62914560) (k0_off3 i 3#32 0#32) S65536.size (k0_off3_inb i 1 0)) (fun _ => rfl)
abbrev pc2 (i : grid0.Coords) : Memref sig .scVector .hbm S65536 .f32 := oW.slice (Rect.unit (s := S62914560) (k0_off3 i 6#32 0#32) S65536.size (k0_off3_inb i 2 0)) (fun _ => rfl)
abbrev pc3 (i : grid0.Coords) : Memref sig .scVector .hbm S65536 .f32 := oW.slice (Rect.unit (s := S62914560) (k0_off3 i 9#32 0#32) S65536.size (k0_off3_inb i 3 0)) (fun _ => rfl)
abbrev pc4 (i : grid0.Coords) : Memref sig .scVector .hbm S65536 .f32 := oW.slice (Rect.unit (s := S62914560) (k0_off3 i 12#32 0#32) S65536.size (k0_off3_inb i 4 0)) (fun _ => rfl)
abbrev pc5 (i : grid0.Coords) : Memref sig .scVector .hbm S65536 .f32 := oW.slice (Rect.unit (s := S62914560) (k0_off3 i 15#32 0#32) S65536.size (k0_off3_inb i 5 0)) (fun _ => rfl)
abbrev pc6 (i : grid0.Coords) : Memref sig .scVector .hbm S65536 .f32 := oW.slice (Rect.unit (s := S62914560) (k0_off3 i 18#32 0#32) S65536.size (k0_off3_inb i 6 0)) (fun _ => rfl)
abbrev pc7 (i : grid0.Coords) : Memref sig .scVector .hbm S65536 .f32 := oW.slice (Rect.unit (s := S62914560) (k0_off3 i 0#32 1#32) S65536.size (k0_off3_inb i 0 1)) (fun _ => rfl)
abbrev pc8 (i : grid0.Coords) : Memref sig .scVector .hbm S65536 .f32 := oW.slice (Rect.unit (s := S62914560) (k0_off3 i 3#32 1#32) S65536.size (k0_off3_inb i 1 1)) (fun _ => rfl)
abbrev pc9 (i : grid0.Coords) : Memref sig .scVector .hbm S65536 .f32 := oW.slice (Rect.unit (s := S62914560) (k0_off3 i 6#32 1#32) S65536.size (k0_off3_inb i 2 1)) (fun _ => rfl)
abbrev pc10 (i : grid0.Coords) : Memref sig .scVector .hbm S65536 .f32 := oW.slice (Rect.unit (s := S62914560) (k0_off3 i 9#32 1#32) S65536.size (k0_off3_inb i 3 1)) (fun _ => rfl)
abbrev pc11 (i : grid0.Coords) : Memref sig .scVector .hbm S65536 .f32 := oW.slice (Rect.unit (s := S62914560) (k0_off3 i 12#32 1#32) S65536.size (k0_off3_inb i 4 1)) (fun _ => rfl)
abbrev pc12 (i : grid0.Coords) : Memref sig .scVector .hbm S65536 .f32 := oW.slice (Rect.unit (s := S62914560) (k0_off3 i 15#32 1#32) S65536.size (k0_off3_inb i 5 1)) (fun _ => rfl)
abbrev pc13 (i : grid0.Coords) : Memref sig .scVector .hbm S65536 .f32 := oW.slice (Rect.unit (s := S62914560) (k0_off3 i 18#32 1#32) S65536.size (k0_off3_inb i 6 1)) (fun _ => rfl)
abbrev pc14 (i : grid0.Coords) : Memref sig .scVector .hbm S65536 .f32 := oW.slice (Rect.unit (s := S62914560) (k0_off5 i 0#32 0#32) S65536.size (k0_off5_inb i 0 0)) (fun _ => rfl)
abbrev pc15 (i : grid0.Coords) : Memref sig .scVector .hbm S65536 .f32 := oW.slice (Rect.unit (s := S62914560) (k0_off6 i 0#32 0#32) S65536.size (k0_off6_inb i 0 0)) (fun _ => rfl)
abbrev pc16 (i : grid0.Coords) : Memref sig .scVector .hbm S65536 .f32 := oW.slice (Rect.unit (s := S62914560) (k0_off5 i 0#32 1#32) S65536.size (k0_off5_inb i 0 1)) (fun _ => rfl)
abbrev pc17 (i : grid0.Coords) : Memref sig .scVector .hbm S65536 .f32 := oW.slice (Rect.unit (s := S62914560) (k0_off6 i 0#32 1#32) S65536.size (k0_off6_inb i 0 1)) (fun _ => rfl)
abbrev pc18 (i : grid0.Coords) : Memref sig .scVector .hbm S65536 .f32 := oW.slice (Rect.unit (s := S62914560) (k0_off5 i 0#32 2#32) S65536.size (k0_off5_inb i 0 2)) (fun _ => rfl)
abbrev pc19 (i : grid0.Coords) : Memref sig .scVector .hbm S65536 .f32 := oW.slice (Rect.unit (s := S62914560) (k0_off6 i 0#32 2#32) S65536.size (k0_off6_inb i 0 2)) (fun _ => rfl)
abbrev pc20 (i : grid0.Coords) : Memref sig .scVector .hbm S65536 .f32 := oW.slice (Rect.unit (s := S62914560) (k0_off5 i 0#32 3#32) S65536.size (k0_off5_inb i 0 3)) (fun _ => rfl)
abbrev pc21 (i : grid0.Coords) : Memref sig .scVector .hbm S65536 .f32 := oW.slice (Rect.unit (s := S62914560) (k0_off6 i 0#32 3#32) S65536.size (k0_off6_inb i 0 3)) (fun _ => rfl)
abbrev pc22 (i : grid0.Coords) : Memref sig .scVector .hbm S65536 .f32 := oW.slice (Rect.unit (s := S62914560) (k0_off5 i 1#32 0#32) S65536.size (k0_off5_inb i 1 0)) (fun _ => rfl)
abbrev pc23 (i : grid0.Coords) : Memref sig .scVector .hbm S65536 .f32 := oW.slice (Rect.unit (s := S62914560) (k0_off6 i 1#32 0#32) S65536.size (k0_off6_inb i 1 0)) (fun _ => rfl)
abbrev pc24 (i : grid0.Coords) : Memref sig .scVector .hbm S65536 .f32 := oW.slice (Rect.unit (s := S62914560) (k0_off5 i 1#32 1#32) S65536.size (k0_off5_inb i 1 1)) (fun _ => rfl)
abbrev pc25 (i : grid0.Coords) : Memref sig .scVector .hbm S65536 .f32 := oW.slice (Rect.unit (s := S62914560) (k0_off6 i 1#32 1#32) S65536.size (k0_off6_inb i 1 1)) (fun _ => rfl)
abbrev pc26 (i : grid0.Coords) : Memref sig .scVector .hbm S65536 .f32 := oW.slice (Rect.unit (s := S62914560) (k0_off5 i 1#32 2#32) S65536.size (k0_off5_inb i 1 2)) (fun _ => rfl)
abbrev pc27 (i : grid0.Coords) : Memref sig .scVector .hbm S65536 .f32 := oW.slice (Rect.unit (s := S62914560) (k0_off6 i 1#32 2#32) S65536.size (k0_off6_inb i 1 2)) (fun _ => rfl)
abbrev pc28 (i : grid0.Coords) : Memref sig .scVector .hbm S65536 .f32 := oW.slice (Rect.unit (s := S62914560) (k0_off5 i 1#32 3#32) S65536.size (k0_off5_inb i 1 3)) (fun _ => rfl)
abbrev pc29 (i : grid0.Coords) : Memref sig .scVector .hbm S65536 .f32 := oW.slice (Rect.unit (s := S62914560) (k0_off6 i 1#32 3#32) S65536.size (k0_off6_inb i 1 3)) (fun _ => rfl)

/-! ## The parts and the body over those names -/

noncomputable def q_part1 (i : grid0.Coords) :
    Prog (TpuEff nD τ sig (Elt F) Λ₀ (.scVector ((i 0).castLE hcore0) ((i 1).castLE hsub0))) (Σ' (v1 : BitVec 32) (v18 : BitVec 32) (v30 : BitVec 32) (c4_i32 : BitVec 32) (v31 : BitVec 32) (v36 : BitVec 32), BitVec 1) := do
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32_11 : BitVec 32 := 2#32
  let v29 : BitVec 32 := Scalar.muli c2_i32_11 v28
  let c0_i32_12 : BitVec 32 := 0#32
  let v30 : BitVec 32 := Scalar.addi v29 c0_i32_12
  let c4_i32 : BitVec 32 := 4#32
  let v31 : BitVec 32 := Scalar.divsi v18 c4_i32
  let c0_i32_13 : BitVec 32 := 0#32
  let v32 : BitVec 1 := Scalar.cmpi .sgt v18 c0_i32_13
  let v33 : BitVec 32 := Scalar.extui v32
  let c0_i32_14 : BitVec 32 := 0#32
  let v34 : BitVec 1 := Scalar.cmpi .slt v18 c0_i32_14
  let v35 : BitVec 32 := Scalar.extui v34
  let v36 : BitVec 32 := Scalar.subi v33 v35
  let c0_i32_15 : BitVec 32 := 0#32
  let v37 : BitVec 1 := Scalar.cmpi .sgt c4_i32 c0_i32_15
  pure ⟨v1, v18, v30, c4_i32, v31, v36, v37⟩

noncomputable def q_part2 (i : grid0.Coords) (v18 : BitVec 32) (v30 : BitVec 32) (c4_i32 : BitVec 32) (v31 : BitVec 32) (v36 : BitVec 32) (v37 : BitVec 1) :
    Prog (TpuEff nD τ sig (Elt F) Λ₀ (.scVector ((i 0).castLE hcore0) ((i 1).castLE hsub0))) (Σ' (v47 : BitVec 32) (v66 : BitVec 32) (v71 : BitVec 32), BitVec 32) := do
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v18 c4_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v18 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c2_i32_25 : BitVec 32 := 2#32
  let v58 : BitVec 1 := Scalar.cmpi .slt v57 c2_i32_25
  let c6_i32 : BitVec 32 := 6#32
  let v59 : BitVec 32 := Scalar.addi c6_i32 v57
  let c3_i32 : BitVec 32 := 3#32
  let v60 : BitVec 32 := Scalar.muli c3_i32 v57
  let c4_i32_26 : BitVec 32 := 4#32
  let v61 : BitVec 32 := Scalar.subi v60 c4_i32_26
  let v62 : BitVec 32 := Scalar.select v58 v59 v61
  let c2_i32_27 : BitVec 32 := 2#32
  let v63 : BitVec 1 := Scalar.cmpi .slt v57 c2_i32_27
  let c9_i32 : BitVec 32 := 9#32
  let v64 : BitVec 32 := Scalar.addi c9_i32 v57
  let c37_i32 : BitVec 32 := 37#32
  let v65 : BitVec 32 := Scalar.addi c37_i32 v57
  let v66 : BitVec 32 := Scalar.select v63 v64 v65
  let c16_i32 : BitVec 32 := 16#32
  let v67 : BitVec 32 := Scalar.muli v47 c16_i32
  let v68 : BitVec 32 := Scalar.addi v67 v62
  let c4_i32_28 : BitVec 32 := 4#32
  let v69 : BitVec 32 := Scalar.muli v68 c4_i32_28
  let v70 : BitVec 32 := Scalar.addi v69 v30
  let c65536_i32 : BitVec 32 := 65536#32
  let v71 : BitVec 32 := Scalar.muli v70 c65536_i32
  let c60_i32 : BitVec 32 := 60#32
  let v72 : BitVec 32 := Scalar.muli v47 c60_i32
  let v73 : BitVec 32 := Scalar.addi v72 v66
  let c0_i32_29 : BitVec 32 := 0#32
  let v74 : BitVec 32 := Scalar.addi v73 c0_i32_29
  let c4_i32_30 : BitVec 32 := 4#32
  let v75 : BitVec 32 := Scalar.muli v74 c4_i32_30
  pure ⟨v47, v66, v71, v75⟩

noncomputable def q_part3 (i : grid0.Coords) (v30 : BitVec 32) (v47 : BitVec 32) (v66 : BitVec 32) (v75 : BitVec 32) :
    Prog (TpuEff nD τ sig (Elt F) Λ₀ (.scVector ((i 0).castLE hcore0) ((i 1).castLE hsub0))) (BitVec 32) := do
  let v76 : BitVec 32 := Scalar.addi v75 v30
  let c65536_i32_31 : BitVec 32 := 65536#32
  let v77 : BitVec 32 := Scalar.muli v76 c65536_i32_31
  let c60_i32_32 : BitVec 32 := 60#32
  let v78 : BitVec 32 := Scalar.muli v47 c60_i32_32
  let v79 : BitVec 32 := Scalar.addi v78 v66
  let c3_i32_33 : BitVec 32 := 3#32
  let v80 : BitVec 32 := Scalar.addi v79 c3_i32_33
  let c4_i32_34 : BitVec 32 := 4#32
  let v81 : BitVec 32 := Scalar.muli v80 c4_i32_34
  let v82 : BitVec 32 := Scalar.addi v81 v30
  let c65536_i32_35 : BitVec 32 := 65536#32
  let v83 : BitVec 32 := Scalar.muli v82 c65536_i32_35
  let c60_i32_36 : BitVec 32 := 60#32
  let v84 : BitVec 32 := Scalar.muli v47 c60_i32_36
  let v85 : BitVec 32 := Scalar.addi v84 v66
  let c6_i32_37 : BitVec 32 := 6#32
  let v86 : BitVec 32 := Scalar.addi v85 c6_i32_37
  let c4_i32_38 : BitVec 32 := 4#32
  let v87 : BitVec 32 := Scalar.muli v86 c4_i32_38
  let v88 : BitVec 32 := Scalar.addi v87 v30
  let c65536_i32_39 : BitVec 32 := 65536#32
  let v89 : BitVec 32 := Scalar.muli v88 c65536_i32_39
  let c60_i32_40 : BitVec 32 := 60#32
  let v90 : BitVec 32 := Scalar.muli v47 c60_i32_40
  let v91 : BitVec 32 := Scalar.addi v90 v66
  let c9_i32_41 : BitVec 32 := 9#32
  let v92 : BitVec 32 := Scalar.addi v91 c9_i32_41
  let c4_i32_42 : BitVec 32 := 4#32
  let v93 : BitVec 32 := Scalar.muli v92 c4_i32_42
  let v94 : BitVec 32 := Scalar.addi v93 v30
  let c65536_i32_43 : BitVec 32 := 65536#32
  let v95 : BitVec 32 := Scalar.muli v94 c65536_i32_43
  let c60_i32_44 : BitVec 32 := 60#32
  let v96 : BitVec 32 := Scalar.muli v47 c60_i32_44
  let v97 : BitVec 32 := Scalar.addi v96 v66
  let c12_i32 : BitVec 32 := 12#32
  let v98 : BitVec 32 := Scalar.addi v97 c12_i32
  let c4_i32_45 : BitVec 32 := 4#32
  let v99 : BitVec 32 := Scalar.muli v98 c4_i32_45
  let v100 : BitVec 32 := Scalar.addi v99 v30
  let c65536_i32_46 : BitVec 32 := 65536#32
  let v101 : BitVec 32 := Scalar.muli v100 c65536_i32_46
  let c60_i32_47 : BitVec 32 := 60#32
  let v102 : BitVec 32 := Scalar.muli v47 c60_i32_47
  let v103 : BitVec 32 := Scalar.addi v102 v66
  let c15_i32 : BitVec 32 := 15#32
  let v104 : BitVec 32 := Scalar.addi v103 c15_i32
  let c4_i32_48 : BitVec 32 := 4#32
  let v105 : BitVec 32 := Scalar.muli v104 c4_i32_48
  let v106 : BitVec 32 := Scalar.addi v105 v30
  let c65536_i32_49 : BitVec 32 := 65536#32
  let v107 : BitVec 32 := Scalar.muli v106 c65536_i32_49
  let c60_i32_50 : BitVec 32 := 60#32
  let v108 : BitVec 32 := Scalar.muli v47 c60_i32_50
  let v109 : BitVec 32 := Scalar.addi v108 v66
  let c18_i32 : BitVec 32 := 18#32
  let v110 : BitVec 32 := Scalar.addi v109 c18_i32
  let c4_i32_51 : BitVec 32 := 4#32
  let v111 : BitVec 32 := Scalar.muli v110 c4_i32_51
  pure v111

noncomputable def q_part4 (i : grid0.Coords) (v1 : BitVec 32) (v30 : BitVec 32) (v71 : BitVec 32) (v111 : BitVec 32) :
    Prog (TpuEff nD τ sig (Elt F) Λ₀ (.scVector ((i 0).castLE hcore0) ((i 1).castLE hsub0))) (Σ' (v137 : BitVec 32) (v149 : BitVec 32), BitVec 32) := do
  let v112 : BitVec 32 := Scalar.addi v111 v30
  let c65536_i32_52 : BitVec 32 := 65536#32
  let v113 : BitVec 32 := Scalar.muli v112 c65536_i32_52
  let v114 : BitVec 32 := v71
  let c0_i32_53 : BitVec 32 := 0#32
  let v115 : Memref sig .scVector .shared S1x65536 .f32 := shW.slice (Rect.unit (s := S16x65536) (k0_off1 i) S1x65536.size (k0_off1_inb i)) (fun _ => rfl)
  let v116 : Memref sig .scVector .shared S65536 .f32 := rowM i
  let v117 : Memref sig .scVector .hbm S65536 .f32 := (xw0 i)
  Prog.lift (.enqueueDma v117 (.here v116) (.dma cc0_scratch2.sem) (View.wordExact_bits rfl) ((View.wordExact_bits rfl).reshape _ _) ⟨Or.inl rfl, trivial⟩)
  let c0_i32_54 : BitVec 32 := 0#32
  let v118 : Memref sig .scVector .shared S1x65536 .f32 := shW.slice (Rect.unit (s := S16x65536) (k0_off1 i) S1x65536.size (k0_off1_inb i)) (fun _ => rfl)
  let v119 : Memref sig .scVector .shared S65536 .f32 := rowM i
  let c0_i32_55 : BitVec 32 := 0#32
  let v120 : Memref sig .scVector .hbm S65536 .f32 := xW.slice (Rect.unit (s := S16777216) ![0] S65536.size inb_S16777216_S65536_0) (fun _ => rfl)
  Prog.lift (.waitDma2 cc0_scratch2.sem v120 v119 (View.wordExact_bits rfl) ((View.wordExact_bits rfl).reshape _ _))
  let c2_i32_56 : BitVec 32 := 2#32
  let v121 : BitVec 32 := Scalar.divsi v1 c2_i32_56
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let c1_i32_62 : BitVec 32 := 1#32
  let v136 : BitVec 32 := Scalar.subi v121 c1_i32_62
  let v137 : BitVec 32 := Scalar.select v135 v136 v121
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_66 : BitVec 32 := 0#32
  let v141 : BitVec 1 := Scalar.cmpi .ne v140 c0_i32_66
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let v145 : BitVec 1 := Scalar.andi v144 v141
  let v146 : BitVec 32 := Scalar.addi v140 v139
  let v147 : BitVec 32 := Scalar.select v145 v146 v140
  let c2_i32_69 : BitVec 32 := 2#32
  let v148 : BitVec 32 := Scalar.muli c2_i32_69 v147
  let c0_i32_70 : BitVec 32 := 0#32
  let v149 : BitVec 32 := Scalar.addi v148 c0_i32_70
  let c4_i32_71 : BitVec 32 := 4#32
  pure ⟨v137, v149, c4_i32_71⟩

noncomputable def q_part5 (i : grid0.Coords) (v137 : BitVec 32) (c4_i32_71 : BitVec 32) :
    Prog (TpuEff nD τ sig (Elt F) Λ₀ (.scVector ((i 0).castLE hcore0) ((i 1).castLE hsub0))) (Σ' (v166 : BitVec 32) (v185 : BitVec 32), BitVec 32) := do
  let v150 : BitVec 32 := Scalar.divsi v137 c4_i32_71
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let c1_i32_77 : BitVec 32 := 1#32
  let v165 : BitVec 32 := Scalar.subi v150 c1_i32_77
  let v166 : BitVec 32 := Scalar.select v164 v165 v150
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_81 : BitVec 32 := 0#32
  let v170 : BitVec 1 := Scalar.cmpi .ne v169 c0_i32_81
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let v174 : BitVec 1 := Scalar.andi v173 v170
  let v175 : BitVec 32 := Scalar.addi v169 v168
  let v176 : BitVec 32 := Scalar.select v174 v175 v169
  let c2_i32_84 : BitVec 32 := 2#32
  let v177 : BitVec 1 := Scalar.cmpi .slt v176 c2_i32_84
  let c6_i32_85 : BitVec 32 := 6#32
  let v178 : BitVec 32 := Scalar.addi c6_i32_85 v176
  let c3_i32_86 : BitVec 32 := 3#32
  let v179 : BitVec 32 := Scalar.muli c3_i32_86 v176
  let c4_i32_87 : BitVec 32 := 4#32
  let v180 : BitVec 32 := Scalar.subi v179 c4_i32_87
  let v181 : BitVec 32 := Scalar.select v177 v178 v180
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let c16_i32_91 : BitVec 32 := 16#32
  let v186 : BitVec 32 := Scalar.muli v166 c16_i32_91
  let v187 : BitVec 32 := Scalar.addi v186 v181
  let c4_i32_92 : BitVec 32 := 4#32
  let v188 : BitVec 32 := Scalar.muli v187 c4_i32_92
  pure ⟨v166, v185, v188⟩

noncomputable def q_part6 (i : grid0.Coords) (v149 : BitVec 32) (v166 : BitVec 32) (v185 : BitVec 32) (v188 : BitVec 32) :
    Prog (TpuEff nD τ sig (Elt F) Λ₀ (.scVector ((i 0).castLE hcore0) ((i 1).castLE hsub0))) (Σ' (v196 : BitVec 32) (v202 : BitVec 32) (v208 : BitVec 32) (v214 : BitVec 32) (v220 : BitVec 32), BitVec 32) := do
  let v189 : BitVec 32 := Scalar.addi v188 v149
  let c65536_i32_93 : BitVec 32 := 65536#32
  let v190 : BitVec 32 := Scalar.muli v189 c65536_i32_93
  let c60_i32_94 : BitVec 32 := 60#32
  let v191 : BitVec 32 := Scalar.muli v166 c60_i32_94
  let v192 : BitVec 32 := Scalar.addi v191 v185
  let c0_i32_95 : BitVec 32 := 0#32
  let v193 : BitVec 32 := Scalar.addi v192 c0_i32_95
  let c4_i32_96 : BitVec 32 := 4#32
  let v194 : BitVec 32 := Scalar.muli v193 c4_i32_96
  let v195 : BitVec 32 := Scalar.addi v194 v149
  let c65536_i32_97 : BitVec 32 := 65536#32
  let v196 : BitVec 32 := Scalar.muli v195 c65536_i32_97
  let c60_i32_98 : BitVec 32 := 60#32
  let v197 : BitVec 32 := Scalar.muli v166 c60_i32_98
  let v198 : BitVec 32 := Scalar.addi v197 v185
  let c3_i32_99 : BitVec 32 := 3#32
  let v199 : BitVec 32 := Scalar.addi v198 c3_i32_99
  let c4_i32_100 : BitVec 32 := 4#32
  let v200 : BitVec 32 := Scalar.muli v199 c4_i32_100
  let v201 : BitVec 32 := Scalar.addi v200 v149
  let c65536_i32_101 : BitVec 32 := 65536#32
  let v202 : BitVec 32 := Scalar.muli v201 c65536_i32_101
  let c60_i32_102 : BitVec 32 := 60#32
  let v203 : BitVec 32 := Scalar.muli v166 c60_i32_102
  let v204 : BitVec 32 := Scalar.addi v203 v185
  let c6_i32_103 : BitVec 32 := 6#32
  let v205 : BitVec 32 := Scalar.addi v204 c6_i32_103
  let c4_i32_104 : BitVec 32 := 4#32
  let v206 : BitVec 32 := Scalar.muli v205 c4_i32_104
  let v207 : BitVec 32 := Scalar.addi v206 v149
  let c65536_i32_105 : BitVec 32 := 65536#32
  let v208 : BitVec 32 := Scalar.muli v207 c65536_i32_105
  let c60_i32_106 : BitVec 32 := 60#32
  let v209 : BitVec 32 := Scalar.muli v166 c60_i32_106
  let v210 : BitVec 32 := Scalar.addi v209 v185
  let c9_i32_107 : BitVec 32 := 9#32
  let v211 : BitVec 32 := Scalar.addi v210 c9_i32_107
  let c4_i32_108 : BitVec 32 := 4#32
  let v212 : BitVec 32 := Scalar.muli v211 c4_i32_108
  let v213 : BitVec 32 := Scalar.addi v212 v149
  let c65536_i32_109 : BitVec 32 := 65536#32
  let v214 : BitVec 32 := Scalar.muli v213 c65536_i32_109
  let c60_i32_110 : BitVec 32 := 60#32
  let v215 : BitVec 32 := Scalar.muli v166 c60_i32_110
  let v216 : BitVec 32 := Scalar.addi v215 v185
  let c12_i32_111 : BitVec 32 := 12#32
  let v217 : BitVec 32 := Scalar.addi v216 c12_i32_111
  let c4_i32_112 : BitVec 32 := 4#32
  let v218 : BitVec 32 := Scalar.muli v217 c4_i32_112
  let v219 : BitVec 32 := Scalar.addi v218 v149
  let c65536_i32_113 : BitVec 32 := 65536#32
  let v220 : BitVec 32 := Scalar.muli v219 c65536_i32_113
  let c60_i32_114 : BitVec 32 := 60#32
  let v221 : BitVec 32 := Scalar.muli v166 c60_i32_114
  let v222 : BitVec 32 := Scalar.addi v221 v185
  let c15_i32_115 : BitVec 32 := 15#32
  let v223 : BitVec 32 := Scalar.addi v222 c15_i32_115
  let c4_i32_116 : BitVec 32 := 4#32
  let v224 : BitVec 32 := Scalar.muli v223 c4_i32_116
  pure ⟨v196, v202, v208, v214, v220, v224⟩

noncomputable def q_part7 (i : grid0.Coords) (v1 : BitVec 32) (v149 : BitVec 32) (v166 : BitVec 32) (v185 : BitVec 32) (v196 : BitVec 32) (v202 : BitVec 32) (v208 : BitVec 32) (v214 : BitVec 32) (v220 : BitVec 32) (v224 : BitVec 32) :
    Prog (TpuEff nD τ sig (Elt F) Λ₀ (.scVector ((i 0).castLE hcore0) ((i 1).castLE hsub0))) (Σ' (c2_i32_129 : BitVec 32) (v261 : BitVec 32), BitVec 32) := do
  let v225 : BitVec 32 := Scalar.addi v224 v149
  let c65536_i32_117 : BitVec 32 := 65536#32
  let v226 : BitVec 32 := Scalar.muli v225 c65536_i32_117
  let c60_i32_118 : BitVec 32 := 60#32
  let v227 : BitVec 32 := Scalar.muli v166 c60_i32_118
  let v228 : BitVec 32 := Scalar.addi v227 v185
  let c18_i32_119 : BitVec 32 := 18#32
  let v229 : BitVec 32 := Scalar.addi v228 c18_i32_119
  let c4_i32_120 : BitVec 32 := 4#32
  let v230 : BitVec 32 := Scalar.muli v229 c4_i32_120
  let v231 : BitVec 32 := Scalar.addi v230 v149
  let c65536_i32_121 : BitVec 32 := 65536#32
  let v232 : BitVec 32 := Scalar.muli v231 c65536_i32_121
  let v233 : BitVec 32 := v196
  let v234 : Memref sig .scVector .hbm S65536 .f32 := (pc0 i)
  let c0_i32_122 : BitVec 32 := 0#32
  let v235 : Memref sig .scVector .shared S1x65536 .f32 := shW.slice (Rect.unit (s := S16x65536) (k0_off1 i) S1x65536.size (k0_off1_inb i)) (fun _ => rfl)
  let v236 : Memref sig .scVector .shared S65536 .f32 := rowM i
  Prog.lift (.enqueueDma v236 (.here v234) (.dma cc0_scratch4.sem) ((View.wordExact_bits rfl).reshape _ _) (View.wordExact_bits rfl) ⟨Or.inl rfl, trivial⟩)
  let v237 : BitVec 32 := v202
  let v238 : Memref sig .scVector .hbm S65536 .f32 := (pc1 i)
  let c0_i32_123 : BitVec 32 := 0#32
  let v239 : Memref sig .scVector .shared S1x65536 .f32 := shW.slice (Rect.unit (s := S16x65536) (k0_off1 i) S1x65536.size (k0_off1_inb i)) (fun _ => rfl)
  let v240 : Memref sig .scVector .shared S65536 .f32 := rowM i
  Prog.lift (.enqueueDma v240 (.here v238) (.dma cc0_scratch4.sem) ((View.wordExact_bits rfl).reshape _ _) (View.wordExact_bits rfl) ⟨Or.inl rfl, trivial⟩)
  let v241 : BitVec 32 := v208
  let v242 : Memref sig .scVector .hbm S65536 .f32 := (pc2 i)
  let c0_i32_124 : BitVec 32 := 0#32
  let v243 : Memref sig .scVector .shared S1x65536 .f32 := shW.slice (Rect.unit (s := S16x65536) (k0_off1 i) S1x65536.size (k0_off1_inb i)) (fun _ => rfl)
  let v244 : Memref sig .scVector .shared S65536 .f32 := rowM i
  Prog.lift (.enqueueDma v244 (.here v242) (.dma cc0_scratch4.sem) ((View.wordExact_bits rfl).reshape _ _) (View.wordExact_bits rfl) ⟨Or.inl rfl, trivial⟩)
  let v245 : BitVec 32 := v214
  let v246 : Memref sig .scVector .hbm S65536 .f32 := (pc3 i)
  let c0_i32_125 : BitVec 32 := 0#32
  let v247 : Memref sig .scVector .shared S1x65536 .f32 := shW.slice (Rect.unit (s := S16x65536) (k0_off1 i) S1x65536.size (k0_off1_inb i)) (fun _ => rfl)
  let v248 : Memref sig .scVector .shared S65536 .f32 := rowM i
  Prog.lift (.enqueueDma v248 (.here v246) (.dma cc0_scratch4.sem) ((View.wordExact_bits rfl).reshape _ _) (View.wordExact_bits rfl) ⟨Or.inl rfl, trivial⟩)
  let v249 : BitVec 32 := v220
  let v250 : Memref sig .scVector .hbm S65536 .f32 := (pc4 i)
  let c0_i32_126 : BitVec 32 := 0#32
  let v251 : Memref sig .scVector .shared S1x65536 .f32 := shW.slice (Rect.unit (s := S16x65536) (k0_off1 i) S1x65536.size (k0_off1_inb i)) (fun _ => rfl)
  let v252 : Memref sig .scVector .shared S65536 .f32 := rowM i
  Prog.lift (.enqueueDma v252 (.here v250) (.dma cc0_scratch4.sem) ((View.wordExact_bits rfl).reshape _ _) (View.wordExact_bits rfl) ⟨Or.inl rfl, trivial⟩)
  let v253 : BitVec 32 := v226
  let v254 : Memref sig .scVector .hbm S65536 .f32 := (pc5 i)
  let c0_i32_127 : BitVec 32 := 0#32
  let v255 : Memref sig .scVector .shared S1x65536 .f32 := shW.slice (Rect.unit (s := S16x65536) (k0_off1 i) S1x65536.size (k0_off1_inb i)) (fun _ => rfl)
  let v256 : Memref sig .scVector .shared S65536 .f32 := rowM i
  Prog.lift (.enqueueDma v256 (.here v254) (.dma cc0_scratch4.sem) ((View.wordExact_bits rfl).reshape _ _) (View.wordExact_bits rfl) ⟨Or.inl rfl, trivial⟩)
  let v257 : BitVec 32 := v232
  let v258 : Memref sig .scVector .hbm S65536 .f32 := (pc6 i)
  let c0_i32_128 : BitVec 32 := 0#32
  let v259 : Memref sig .scVector .shared S1x65536 .f32 := shW.slice (Rect.unit (s := S16x65536) (k0_off1 i) S1x65536.size (k0_off1_inb i)) (fun _ => rfl)
  let v260 : Memref sig .scVector .shared S65536 .f32 := rowM i
  Prog.lift (.enqueueDma v260 (.here v258) (.dma cc0_scratch4.sem) ((View.wordExact_bits rfl).reshape _ _) (View.wordExact_bits rfl) ⟨Or.inl rfl, trivial⟩)
  let c2_i32_129 : BitVec 32 := 2#32
  let v261 : BitVec 32 := Scalar.divsi v1 c2_i32_129
  let c0_i32_130 : BitVec 32 := 0#32
  let v262 : BitVec 1 := Scalar.cmpi .sgt v1 c0_i32_130
  let v263 : BitVec 32 := Scalar.extui v262
  pure ⟨c2_i32_129, v261, v263⟩

noncomputable def q_part8 (i : grid0.Coords) (v1 : BitVec 32) (c2_i32_129 : BitVec 32) (v261 : BitVec 32) (v263 : BitVec 32) :
    Prog (TpuEff nD τ sig (Elt F) Λ₀ (.scVector ((i 0).castLE hcore0) ((i 1).castLE hsub0))) (Σ' (v277 : BitVec 32) (v289 : BitVec 32) (v290 : BitVec 32), BitVec 1) := do
  let c0_i32_131 : BitVec 32 := 0#32
  let v264 : BitVec 1 := Scalar.cmpi .slt v1 c0_i32_131
  let v265 : BitVec 32 := Scalar.extui v264
  let v266 : BitVec 32 := Scalar.subi v263 v265
  let c0_i32_132 : BitVec 32 := 0#32
  let v267 : BitVec 1 := Scalar.cmpi .sgt c2_i32_129 c0_i32_132
  let v268 : BitVec 32 := Scalar.extui v267
  let c0_i32_133 : BitVec 32 := 0#32
  let v269 : BitVec 1 := Scalar.cmpi .slt c2_i32_129 c0_i32_133
  let v270 : BitVec 32 := Scalar.extui v269
  let v271 : BitVec 32 := Scalar.subi v268 v270
  let v272 : BitVec 1 := Scalar.cmpi .ne v266 v271
  let v273 : BitVec 32 := Scalar.remsi v1 c2_i32_129
  let c0_i32_134 : BitVec 32 := 0#32
  let v274 : BitVec 1 := Scalar.cmpi .ne v273 c0_i32_134
  let v275 : BitVec 1 := Scalar.andi v272 v274
  let c1_i32_135 : BitVec 32 := 1#32
  let v276 : BitVec 32 := Scalar.subi v261 c1_i32_135
  let v277 : BitVec 32 := Scalar.select v275 v276 v261
  let c2_i32_136 : BitVec 32 := 2#32
  let c0_i32_137 : BitVec 32 := 0#32
  let v278 : BitVec 1 := Scalar.cmpi .eq c2_i32_136 c0_i32_137
  let c1_i32_138 : BitVec 32 := 1#32
  let v279 : BitVec 32 := Scalar.select v278 c1_i32_138 c2_i32_136
  let v280 : BitVec 32 := Scalar.remsi v1 v279
  let c0_i32_139 : BitVec 32 := 0#32
  let v281 : BitVec 1 := Scalar.cmpi .ne v280 c0_i32_139
  let c0_i32_140 : BitVec 32 := 0#32
  let v282 : BitVec 1 := Scalar.cmpi .slt v280 c0_i32_140
  let c0_i32_141 : BitVec 32 := 0#32
  let v283 : BitVec 1 := Scalar.cmpi .slt v279 c0_i32_141
  let v284 : BitVec 1 := Scalar.xori v282 v283
  let v285 : BitVec 1 := Scalar.andi v284 v281
  let v286 : BitVec 32 := Scalar.addi v280 v279
  let v287 : BitVec 32 := Scalar.select v285 v286 v280
  let c2_i32_142 : BitVec 32 := 2#32
  let v288 : BitVec 32 := Scalar.muli c2_i32_142 v287
  let c1_i32_143 : BitVec 32 := 1#32
  let v289 : BitVec 32 := Scalar.addi v288 c1_i32_143
  let c4_i32_144 : BitVec 32 := 4#32
  let v290 : BitVec 32 := Scalar.divsi v277 c4_i32_144
  let c0_i32_145 : BitVec 32 := 0#32
  let v291 : BitVec 1 := Scalar.cmpi .sgt v277 c0_i32_145
  let v292 : BitVec 32 := Scalar.extui v291
  let c0_i32_146 : BitVec 32 := 0#32
  let v293 : BitVec 1 := Scalar.cmpi .slt v277 c0_i32_146
  let v294 : BitVec 32 := Scalar.extui v293
  let v295 : BitVec 32 := Scalar.subi v292 v294
  let c0_i32_147 : BitVec 32 := 0#32
  let v296 : BitVec 1 := Scalar.cmpi .sgt c4_i32_144 c0_i32_147
  let v297 : BitVec 32 := Scalar.extui v296
  let c0_i32_148 : BitVec 32 := 0#32
  let v298 : BitVec 1 := Scalar.cmpi .slt c4_i32_144 c0_i32_148
  let v299 : BitVec 32 := Scalar.extui v298
  let v300 : BitVec 32 := Scalar.subi v297 v299
  let v301 : BitVec 1 := Scalar.cmpi .ne v295 v300
  let v302 : BitVec 32 := Scalar.remsi v277 c4_i32_144
  let c0_i32_149 : BitVec 32 := 0#32
  let v303 : BitVec 1 := Scalar.cmpi .ne v302 c0_i32_149
  let v304 : BitVec 1 := Scalar.andi v301 v303
  pure ⟨v277, v289, v290, v304⟩

noncomputable def q_part9 (i : grid0.Coords) (v277 : BitVec 32) (v289 : BitVec 32) (v290 : BitVec 32) (v304 : BitVec 1) :
    Prog (TpuEff nD τ sig (Elt F) Λ₀ (.scVector ((i 0).castLE hcore0) ((i 1).castLE hsub0))) (Σ' (v306 : BitVec 32) (v325 : BitVec 32) (v330 : BitVec 32), BitVec 32) := do
  let c1_i32_150 : BitVec 32 := 1#32
  let v305 : BitVec 32 := Scalar.subi v290 c1_i32_150
  let v306 : BitVec 32 := Scalar.select v304 v305 v290
  let c4_i32_151 : BitVec 32 := 4#32
  let c0_i32_152 : BitVec 32 := 0#32
  let v307 : BitVec 1 := Scalar.cmpi .eq c4_i32_151 c0_i32_152
  let c1_i32_153 : BitVec 32 := 1#32
  let v308 : BitVec 32 := Scalar.select v307 c1_i32_153 c4_i32_151
  let v309 : BitVec 32 := Scalar.remsi v277 v308
  let c0_i32_154 : BitVec 32 := 0#32
  let v310 : BitVec 1 := Scalar.cmpi .ne v309 c0_i32_154
  let c0_i32_155 : BitVec 32 := 0#32
  let v311 : BitVec 1 := Scalar.cmpi .slt v309 c0_i32_155
  let c0_i32_156 : BitVec 32 := 0#32
  let v312 : BitVec 1 := Scalar.cmpi .slt v308 c0_i32_156
  let v313 : BitVec 1 := Scalar.xori v311 v312
  let v314 : BitVec 1 := Scalar.andi v313 v310
  let v315 : BitVec 32 := Scalar.addi v309 v308
  let v316 : BitVec 32 := Scalar.select v314 v315 v309
  let c2_i32_157 : BitVec 32 := 2#32
  let v317 : BitVec 1 := Scalar.cmpi .slt v316 c2_i32_157
  let c6_i32_158 : BitVec 32 := 6#32
  let v318 : BitVec 32 := Scalar.addi c6_i32_158 v316
  let c3_i32_159 : BitVec 32 := 3#32
  let v319 : BitVec 32 := Scalar.muli c3_i32_159 v316
  let c4_i32_160 : BitVec 32 := 4#32
  let v320 : BitVec 32 := Scalar.subi v319 c4_i32_160
  let v321 : BitVec 32 := Scalar.select v317 v318 v320
  let c2_i32_161 : BitVec 32 := 2#32
  let v322 : BitVec 1 := Scalar.cmpi .slt v316 c2_i32_161
  let c9_i32_162 : BitVec 32 := 9#32
  let v323 : BitVec 32 := Scalar.addi c9_i32_162 v316
  let c37_i32_163 : BitVec 32 := 37#32
  let v324 : BitVec 32 := Scalar.addi c37_i32_163 v316
  let v325 : BitVec 32 := Scalar.select v322 v323 v324
  let c16_i32_164 : BitVec 32 := 16#32
  let v326 : BitVec 32 := Scalar.muli v306 c16_i32_164
  let v327 : BitVec 32 := Scalar.addi v326 v321
  let c4_i32_165 : BitVec 32 := 4#32
  let v328 : BitVec 32 := Scalar.muli v327 c4_i32_165
  let v329 : BitVec 32 := Scalar.addi v328 v289
  let c65536_i32_166 : BitVec 32 := 65536#32
  let v330 : BitVec 32 := Scalar.muli v329 c65536_i32_166
  let c60_i32_167 : BitVec 32 := 60#32
  let v331 : BitVec 32 := Scalar.muli v306 c60_i32_167
  let v332 : BitVec 32 := Scalar.addi v331 v325
  let c0_i32_168 : BitVec 32 := 0#32
  let v333 : BitVec 32 := Scalar.addi v332 c0_i32_168
  let c4_i32_169 : BitVec 32 := 4#32
  let v334 : BitVec 32 := Scalar.muli v333 c4_i32_169
  let v335 : BitVec 32 := Scalar.addi v334 v289
  let c65536_i32_170 : BitVec 32 := 65536#32
  let v336 : BitVec 32 := Scalar.muli v335 c65536_i32_170
  let c60_i32_171 : BitVec 32 := 60#32
  let v337 : BitVec 32 := Scalar.muli v306 c60_i32_171
  let v338 : BitVec 32 := Scalar.addi v337 v325
  let c3_i32_172 : BitVec 32 := 3#32
  let v339 : BitVec 32 := Scalar.addi v338 c3_i32_172
  let c4_i32_173 : BitVec 32 := 4#32
  let v340 : BitVec 32 := Scalar.muli v339 c4_i32_173
  pure ⟨v306, v325, v330, v340⟩

noncomputable def q_part10 (i : grid0.Coords) (v289 : BitVec 32) (v306 : BitVec 32) (v325 : BitVec 32) (v330 : BitVec 32) (v340 : BitVec 32) :
    Prog (TpuEff nD τ sig (Elt F) Λ₀ (.scVector ((i 0).castLE hcore0) ((i 1).castLE hsub0))) (PUnit) := do
  let v341 : BitVec 32 := Scalar.addi v340 v289
  let c65536_i32_174 : BitVec 32 := 65536#32
  let v342 : BitVec 32 := Scalar.muli v341 c65536_i32_174
  let c60_i32_175 : BitVec 32 := 60#32
  let v343 : BitVec 32 := Scalar.muli v306 c60_i32_175
  let v344 : BitVec 32 := Scalar.addi v343 v325
  let c6_i32_176 : BitVec 32 := 6#32
  let v345 : BitVec 32 := Scalar.addi v344 c6_i32_176
  let c4_i32_177 : BitVec 32 := 4#32
  let v346 : BitVec 32 := Scalar.muli v345 c4_i32_177
  let v347 : BitVec 32 := Scalar.addi v346 v289
  let c65536_i32_178 : BitVec 32 := 65536#32
  let v348 : BitVec 32 := Scalar.muli v347 c65536_i32_178
  let c60_i32_179 : BitVec 32 := 60#32
  let v349 : BitVec 32 := Scalar.muli v306 c60_i32_179
  let v350 : BitVec 32 := Scalar.addi v349 v325
  let c9_i32_180 : BitVec 32 := 9#32
  let v351 : BitVec 32 := Scalar.addi v350 c9_i32_180
  let c4_i32_181 : BitVec 32 := 4#32
  let v352 : BitVec 32 := Scalar.muli v351 c4_i32_181
  let v353 : BitVec 32 := Scalar.addi v352 v289
  let c65536_i32_182 : BitVec 32 := 65536#32
  let v354 : BitVec 32 := Scalar.muli v353 c65536_i32_182
  let c60_i32_183 : BitVec 32 := 60#32
  let v355 : BitVec 32 := Scalar.muli v306 c60_i32_183
  let v356 : BitVec 32 := Scalar.addi v355 v325
  let c12_i32_184 : BitVec 32 := 12#32
  let v357 : BitVec 32 := Scalar.addi v356 c12_i32_184
  let c4_i32_185 : BitVec 32 := 4#32
  let v358 : BitVec 32 := Scalar.muli v357 c4_i32_185
  let v359 : BitVec 32 := Scalar.addi v358 v289
  let c65536_i32_186 : BitVec 32 := 65536#32
  let v360 : BitVec 32 := Scalar.muli v359 c65536_i32_186
  let c60_i32_187 : BitVec 32 := 60#32
  let v361 : BitVec 32 := Scalar.muli v306 c60_i32_187
  let v362 : BitVec 32 := Scalar.addi v361 v325
  let c15_i32_188 : BitVec 32 := 15#32
  let v363 : BitVec 32 := Scalar.addi v362 c15_i32_188
  let c4_i32_189 : BitVec 32 := 4#32
  let v364 : BitVec 32 := Scalar.muli v363 c4_i32_189
  let v365 : BitVec 32 := Scalar.addi v364 v289
  let c65536_i32_190 : BitVec 32 := 65536#32
  let v366 : BitVec 32 := Scalar.muli v365 c65536_i32_190
  let c60_i32_191 : BitVec 32 := 60#32
  let v367 : BitVec 32 := Scalar.muli v306 c60_i32_191
  let v368 : BitVec 32 := Scalar.addi v367 v325
  let c18_i32_192 : BitVec 32 := 18#32
  let v369 : BitVec 32 := Scalar.addi v368 c18_i32_192
  let c4_i32_193 : BitVec 32 := 4#32
  let v370 : BitVec 32 := Scalar.muli v369 c4_i32_193
  let v371 : BitVec 32 := Scalar.addi v370 v289
  let c65536_i32_194 : BitVec 32 := 65536#32
  let v372 : BitVec 32 := Scalar.muli v371 c65536_i32_194
  let v373 : BitVec 32 := v330
  let v374 : Memref sig .scVector .hbm S65536 .f32 := (xw1 i)
  let v375 : Memref sig .scVector .hbm S65536 .f32 := (xw1 i)
  Prog.lift (.enqueueDma v375 (.here bW) (.dma cc0_scratch3.sem) (View.wordExact_bits rfl) (Memref.isWhole_whole _).wordExact ⟨Or.inl rfl, trivial⟩)
  let c0_i32_195 : BitVec 32 := 0#32
  let v376 : Memref sig .scVector .hbm S65536 .f32 := xW.slice (Rect.unit (s := S16777216) ![0] S65536.size inb_S16777216_S65536_0) (fun _ => rfl)
  let c0_i32_196 : BitVec 32 := 0#32
  pure ⟨⟩

noncomputable def q_part11 (i : grid0.Coords) (v1 : BitVec 32) :
    Prog (TpuEff nD τ sig (Elt F) Λ₀ (.scVector ((i 0).castLE hcore0) ((i 1).castLE hsub0))) (Σ' (v394 : BitVec 32) (v406 : BitVec 32) (c4_i32_212 : BitVec 32) (v407 : BitVec 32) (v412 : BitVec 32) (v414 : BitVec 32), BitVec 1) := do
  let v377 : Memref sig .scVector .hbm S65536 .f32 := xW.slice (Rect.unit (s := S16777216) ![0] S65536.size inb_S16777216_S65536_0) (fun _ => rfl)
  Prog.lift (.waitDma2 cc0_scratch3.sem v377 bW (View.wordExact_bits rfl) (Memref.isWhole_whole _).wordExact)
  let c2_i32_197 : BitVec 32 := 2#32
  let v378 : BitVec 32 := Scalar.divsi v1 c2_i32_197
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let c1_i32_203 : BitVec 32 := 1#32
  let v393 : BitVec 32 := Scalar.subi v378 c1_i32_203
  let v394 : BitVec 32 := Scalar.select v392 v393 v378
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_207 : BitVec 32 := 0#32
  let v398 : BitVec 1 := Scalar.cmpi .ne v397 c0_i32_207
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let v402 : BitVec 1 := Scalar.andi v401 v398
  let v403 : BitVec 32 := Scalar.addi v397 v396
  let v404 : BitVec 32 := Scalar.select v402 v403 v397
  let c2_i32_210 : BitVec 32 := 2#32
  let v405 : BitVec 32 := Scalar.muli c2_i32_210 v404
  let c1_i32_211 : BitVec 32 := 1#32
  let v406 : BitVec 32 := Scalar.addi v405 c1_i32_211
  let c4_i32_212 : BitVec 32 := 4#32
  let v407 : BitVec 32 := Scalar.divsi v394 c4_i32_212
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  pure ⟨v394, v406, c4_i32_212, v407, v412, v414, v415⟩

noncomputable def q_part12 (i : grid0.Coords) (v394 : BitVec 32) (v406 : BitVec 32) (c4_i32_212 : BitVec 32) (v407 : BitVec 32) (v412 : BitVec 32) (v414 : BitVec 32) (v415 : BitVec 1) :
    Prog (TpuEff nD τ sig (Elt F) Λ₀ (.scVector ((i 0).castLE hcore0) ((i 1).castLE hsub0))) (Σ' (v423 : BitVec 32) (v442 : BitVec 32), BitVec 32) := do
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let c1_i32_218 : BitVec 32 := 1#32
  let v422 : BitVec 32 := Scalar.subi v407 c1_i32_218
  let v423 : BitVec 32 := Scalar.select v421 v422 v407
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_222 : BitVec 32 := 0#32
  let v427 : BitVec 1 := Scalar.cmpi .ne v426 c0_i32_222
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let v431 : BitVec 1 := Scalar.andi v430 v427
  let v432 : BitVec 32 := Scalar.addi v426 v425
  let v433 : BitVec 32 := Scalar.select v431 v432 v426
  let c2_i32_225 : BitVec 32 := 2#32
  let v434 : BitVec 1 := Scalar.cmpi .slt v433 c2_i32_225
  let c6_i32_226 : BitVec 32 := 6#32
  let v435 : BitVec 32 := Scalar.addi c6_i32_226 v433
  let c3_i32_227 : BitVec 32 := 3#32
  let v436 : BitVec 32 := Scalar.muli c3_i32_227 v433
  let c4_i32_228 : BitVec 32 := 4#32
  let v437 : BitVec 32 := Scalar.subi v436 c4_i32_228
  let v438 : BitVec 32 := Scalar.select v434 v435 v437
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let c16_i32_232 : BitVec 32 := 16#32
  let v443 : BitVec 32 := Scalar.muli v423 c16_i32_232
  let v444 : BitVec 32 := Scalar.addi v443 v438
  let c4_i32_233 : BitVec 32 := 4#32
  let v445 : BitVec 32 := Scalar.muli v444 c4_i32_233
  let v446 : BitVec 32 := Scalar.addi v445 v406
  let c65536_i32_234 : BitVec 32 := 65536#32
  let v447 : BitVec 32 := Scalar.muli v446 c65536_i32_234
  let c60_i32_235 : BitVec 32 := 60#32
  let v448 : BitVec 32 := Scalar.muli v423 c60_i32_235
  let v449 : BitVec 32 := Scalar.addi v448 v442
  let c0_i32_236 : BitVec 32 := 0#32
  let v450 : BitVec 32 := Scalar.addi v449 c0_i32_236
  let c4_i32_237 : BitVec 32 := 4#32
  let v451 : BitVec 32 := Scalar.muli v450 c4_i32_237
  let v452 : BitVec 32 := Scalar.addi v451 v406
  let c65536_i32_238 : BitVec 32 := 65536#32
  let v453 : BitVec 32 := Scalar.muli v452 c65536_i32_238
  pure ⟨v423, v442, v453⟩

noncomputable def q_part13 (i : grid0.Coords) (v406 : BitVec 32) (v423 : BitVec 32) (v442 : BitVec 32) :
    Prog (TpuEff nD τ sig (Elt F) Λ₀ (.scVector ((i 0).castLE hcore0) ((i 1).castLE hsub0))) (Σ' (v459 : BitVec 32) (v465 : BitVec 32) (v471 : BitVec 32) (v477 : BitVec 32) (v483 : BitVec 32), BitVec 32) := do
  let c60_i32_239 : BitVec 32 := 60#32
  let v454 : BitVec 32 := Scalar.muli v423 c60_i32_239
  let v455 : BitVec 32 := Scalar.addi v454 v442
  let c3_i32_240 : BitVec 32 := 3#32
  let v456 : BitVec 32 := Scalar.addi v455 c3_i32_240
  let c4_i32_241 : BitVec 32 := 4#32
  let v457 : BitVec 32 := Scalar.muli v456 c4_i32_241
  let v458 : BitVec 32 := Scalar.addi v457 v406
  let c65536_i32_242 : BitVec 32 := 65536#32
  let v459 : BitVec 32 := Scalar.muli v458 c65536_i32_242
  let c60_i32_243 : BitVec 32 := 60#32
  let v460 : BitVec 32 := Scalar.muli v423 c60_i32_243
  let v461 : BitVec 32 := Scalar.addi v460 v442
  let c6_i32_244 : BitVec 32 := 6#32
  let v462 : BitVec 32 := Scalar.addi v461 c6_i32_244
  let c4_i32_245 : BitVec 32 := 4#32
  let v463 : BitVec 32 := Scalar.muli v462 c4_i32_245
  let v464 : BitVec 32 := Scalar.addi v463 v406
  let c65536_i32_246 : BitVec 32 := 65536#32
  let v465 : BitVec 32 := Scalar.muli v464 c65536_i32_246
  let c60_i32_247 : BitVec 32 := 60#32
  let v466 : BitVec 32 := Scalar.muli v423 c60_i32_247
  let v467 : BitVec 32 := Scalar.addi v466 v442
  let c9_i32_248 : BitVec 32 := 9#32
  let v468 : BitVec 32 := Scalar.addi v467 c9_i32_248
  let c4_i32_249 : BitVec 32 := 4#32
  let v469 : BitVec 32 := Scalar.muli v468 c4_i32_249
  let v470 : BitVec 32 := Scalar.addi v469 v406
  let c65536_i32_250 : BitVec 32 := 65536#32
  let v471 : BitVec 32 := Scalar.muli v470 c65536_i32_250
  let c60_i32_251 : BitVec 32 := 60#32
  let v472 : BitVec 32 := Scalar.muli v423 c60_i32_251
  let v473 : BitVec 32 := Scalar.addi v472 v442
  let c12_i32_252 : BitVec 32 := 12#32
  let v474 : BitVec 32 := Scalar.addi v473 c12_i32_252
  let c4_i32_253 : BitVec 32 := 4#32
  let v475 : BitVec 32 := Scalar.muli v474 c4_i32_253
  let v476 : BitVec 32 := Scalar.addi v475 v406
  let c65536_i32_254 : BitVec 32 := 65536#32
  let v477 : BitVec 32 := Scalar.muli v476 c65536_i32_254
  let c60_i32_255 : BitVec 32 := 60#32
  let v478 : BitVec 32 := Scalar.muli v423 c60_i32_255
  let v479 : BitVec 32 := Scalar.addi v478 v442
  let c15_i32_256 : BitVec 32 := 15#32
  let v480 : BitVec 32 := Scalar.addi v479 c15_i32_256
  let c4_i32_257 : BitVec 32 := 4#32
  let v481 : BitVec 32 := Scalar.muli v480 c4_i32_257
  let v482 : BitVec 32 := Scalar.addi v481 v406
  let c65536_i32_258 : BitVec 32 := 65536#32
  let v483 : BitVec 32 := Scalar.muli v482 c65536_i32_258
  let c60_i32_259 : BitVec 32 := 60#32
  let v484 : BitVec 32 := Scalar.muli v423 c60_i32_259
  let v485 : BitVec 32 := Scalar.addi v484 v442
  let c18_i32_260 : BitVec 32 := 18#32
  let v486 : BitVec 32 := Scalar.addi v485 c18_i32_260
  let c4_i32_261 : BitVec 32 := 4#32
  let v487 : BitVec 32 := Scalar.muli v486 c4_i32_261
  let v488 : BitVec 32 := Scalar.addi v487 v406
  let c65536_i32_262 : BitVec 32 := 65536#32
  let v489 : BitVec 32 := Scalar.muli v488 c65536_i32_262
  pure ⟨v459, v465, v471, v477, v483, v489⟩

noncomputable def q_part14 (i : grid0.Coords) (v453 : BitVec 32) (v459 : BitVec 32) (v465 : BitVec 32) (v471 : BitVec 32) (v477 : BitVec 32) (v483 : BitVec 32) (v489 : BitVec 32) :
    Prog (TpuEff nD τ sig (Elt F) Λ₀ (.scVector ((i 0).castLE hcore0) ((i 1).castLE hsub0))) (PUnit) := do
  let v490 : BitVec 32 := v453
  let v491 : Memref sig .scVector .hbm S65536 .f32 := (pc7 i)
  let v492 : Memref sig .scVector .hbm S65536 .f32 := (pc7 i)
  Prog.lift (.enqueueDma bW (.here v492) (.dma cc0_scratch5.sem) (Memref.isWhole_whole _).wordExact (View.wordExact_bits rfl) ⟨Or.inl rfl, trivial⟩)
  let v493 : BitVec 32 := v459
  let v494 : Memref sig .scVector .hbm S65536 .f32 := (pc8 i)
  let v495 : Memref sig .scVector .hbm S65536 .f32 := (pc8 i)
  Prog.lift (.enqueueDma bW (.here v495) (.dma cc0_scratch5.sem) (Memref.isWhole_whole _).wordExact (View.wordExact_bits rfl) ⟨Or.inl rfl, trivial⟩)
  let v496 : BitVec 32 := v465
  let v497 : Memref sig .scVector .hbm S65536 .f32 := (pc9 i)
  let v498 : Memref sig .scVector .hbm S65536 .f32 := (pc9 i)
  Prog.lift (.enqueueDma bW (.here v498) (.dma cc0_scratch5.sem) (Memref.isWhole_whole _).wordExact (View.wordExact_bits rfl) ⟨Or.inl rfl, trivial⟩)
  let v499 : BitVec 32 := v471
  let v500 : Memref sig .scVector .hbm S65536 .f32 := (pc10 i)
  let v501 : Memref sig .scVector .hbm S65536 .f32 := (pc10 i)
  Prog.lift (.enqueueDma bW (.here v501) (.dma cc0_scratch5.sem) (Memref.isWhole_whole _).wordExact (View.wordExact_bits rfl) ⟨Or.inl rfl, trivial⟩)
  let v502 : BitVec 32 := v477
  let v503 : Memref sig .scVector .hbm S65536 .f32 := (pc11 i)
  let v504 : Memref sig .scVector .hbm S65536 .f32 := (pc11 i)
  Prog.lift (.enqueueDma bW (.here v504) (.dma cc0_scratch5.sem) (Memref.isWhole_whole _).wordExact (View.wordExact_bits rfl) ⟨Or.inl rfl, trivial⟩)
  let v505 : BitVec 32 := v483
  let v506 : Memref sig .scVector .hbm S65536 .f32 := (pc12 i)
  let v507 : Memref sig .scVector .hbm S65536 .f32 := (pc12 i)
  Prog.lift (.enqueueDma bW (.here v507) (.dma cc0_scratch5.sem) (Memref.isWhole_whole _).wordExact (View.wordExact_bits rfl) ⟨Or.inl rfl, trivial⟩)
  let v508 : BitVec 32 := v489
  let v509 : Memref sig .scVector .hbm S65536 .f32 := (pc13 i)
  let v510 : Memref sig .scVector .hbm S65536 .f32 := (pc13 i)
  Prog.lift (.enqueueDma bW (.here v510) (.dma cc0_scratch5.sem) (Memref.isWhole_whole _).wordExact (View.wordExact_bits rfl) ⟨Or.inl rfl, trivial⟩)
  let c0_i32_263 : BitVec 32 := 0#32
  let v511 : Memref sig .scVector .hbm S65536 .f32 := oW.slice (Rect.unit (s := S62914560) ![0] S65536.size inb_S62914560_S65536_0) (fun _ => rfl)
  let c0_i32_264 : BitVec 32 := 0#32
  let v512 : Memref sig .scVector .shared S1x65536 .f32 := shW.slice (Rect.unit (s := S16x65536) (k0_off1 i) S1x65536.size (k0_off1_inb i)) (fun _ => rfl)
  let v513 : Memref sig .scVector .shared S65536 .f32 := rowM i
  Prog.lift (.waitDma2 cc0_scratch4.sem v513 v511 ((View.wordExact_bits rfl).reshape _ _) (View.wordExact_bits rfl))
  let c0_i32_265 : BitVec 32 := 0#32
  let v514 : Memref sig .scVector .hbm S65536 .f32 := oW.slice (Rect.unit (s := S62914560) ![0] S65536.size inb_S62914560_S65536_0) (fun _ => rfl)
  let c0_i32_266 : BitVec 32 := 0#32
  let v515 : Memref sig .scVector .shared S1x65536 .f32 := shW.slice (Rect.unit (s := S16x65536) (k0_off1 i) S1x65536.size (k0_off1_inb i)) (fun _ => rfl)
  let v516 : Memref sig .scVector .shared S65536 .f32 := rowM i
  Prog.lift (.waitDma2 cc0_scratch4.sem v516 v514 ((View.wordExact_bits rfl).reshape _ _) (View.wordExact_bits rfl))
  let c0_i32_267 : BitVec 32 := 0#32
  let v517 : Memref sig .scVector .hbm S65536 .f32 := oW.slice (Rect.unit (s := S62914560) ![0] S65536.size inb_S62914560_S65536_0) (fun _ => rfl)
  let c0_i32_268 : BitVec 32 := 0#32
  let v518 : Memref sig .scVector .shared S1x65536 .f32 := shW.slice (Rect.unit (s := S16x65536) (k0_off1 i) S1x65536.size (k0_off1_inb i)) (fun _ => rfl)
  let v519 : Memref sig .scVector .shared S65536 .f32 := rowM i
  Prog.lift (.waitDma2 cc0_scratch4.sem v519 v517 ((View.wordExact_bits rfl).reshape _ _) (View.wordExact_bits rfl))
  let c0_i32_269 : BitVec 32 := 0#32
  let v520 : Memref sig .scVector .hbm S65536 .f32 := oW.slice (Rect.unit (s := S62914560) ![0] S65536.size inb_S62914560_S65536_0) (fun _ => rfl)
  let c0_i32_270 : BitVec 32 := 0#32
  let v521 : Memref sig .scVector .shared S1x65536 .f32 := shW.slice (Rect.unit (s := S16x65536) (k0_off1 i) S1x65536.size (k0_off1_inb i)) (fun _ => rfl)
  let v522 : Memref sig .scVector .shared S65536 .f32 := rowM i
  Prog.lift (.waitDma2 cc0_scratch4.sem v522 v520 ((View.wordExact_bits rfl).reshape _ _) (View.wordExact_bits rfl))
  let c0_i32_271 : BitVec 32 := 0#32
  let v523 : Memref sig .scVector .hbm S65536 .f32 := oW.slice (Rect.unit (s := S62914560) ![0] S65536.size inb_S62914560_S65536_0) (fun _ => rfl)
  let c0_i32_272 : BitVec 32 := 0#32
  let v524 : Memref sig .scVector .shared S1x65536 .f32 := shW.slice (Rect.unit (s := S16x65536) (k0_off1 i) S1x65536.size (k0_off1_inb i)) (fun _ => rfl)
  let v525 : Memref sig .scVector .shared S65536 .f32 := rowM i
  Prog.lift (.waitDma2 cc0_scratch4.sem v525 v523 ((View.wordExact_bits rfl).reshape _ _) (View.wordExact_bits rfl))
  let c0_i32_273 : BitVec 32 := 0#32
  let v526 : Memref sig .scVector .hbm S65536 .f32 := oW.slice (Rect.unit (s := S62914560) ![0] S65536.size inb_S62914560_S65536_0) (fun _ => rfl)
  pure ⟨⟩

noncomputable def q_part15 (i : grid0.Coords) (v1 : BitVec 32) :
    Prog (TpuEff nD τ sig (Elt F) Λ₀ (.scVector ((i 0).castLE hcore0) ((i 1).castLE hsub0))) (Σ' (v550 : BitVec 32) (v560 : BitVec 32) (v563 : BitVec 32), BitVec 32) := do
  let c0_i32_274 : BitVec 32 := 0#32
  let v527 : Memref sig .scVector .shared S1x65536 .f32 := shW.slice (Rect.unit (s := S16x65536) (k0_off1 i) S1x65536.size (k0_off1_inb i)) (fun _ => rfl)
  let v528 : Memref sig .scVector .shared S65536 .f32 := rowM i
  let v526 : Memref sig .scVector .hbm S65536 .f32 := oW.slice (Rect.unit (s := S62914560) ![0] S65536.size inb_S62914560_S65536_0) (fun _ => rfl)
  Prog.lift (.waitDma2 cc0_scratch4.sem v528 v526 ((View.wordExact_bits rfl).reshape _ _) (View.wordExact_bits rfl))
  let c0_i32_275 : BitVec 32 := 0#32
  let v529 : Memref sig .scVector .hbm S65536 .f32 := oW.slice (Rect.unit (s := S62914560) ![0] S65536.size inb_S62914560_S65536_0) (fun _ => rfl)
  let c0_i32_276 : BitVec 32 := 0#32
  let v530 : Memref sig .scVector .shared S1x65536 .f32 := shW.slice (Rect.unit (s := S16x65536) (k0_off1 i) S1x65536.size (k0_off1_inb i)) (fun _ => rfl)
  let v531 : Memref sig .scVector .shared S65536 .f32 := rowM i
  Prog.lift (.waitDma2 cc0_scratch4.sem v531 v529 ((View.wordExact_bits rfl).reshape _ _) (View.wordExact_bits rfl))
  let c2_i32_277 : BitVec 32 := 2#32
  let v532 : BitVec 32 := Scalar.muli c2_i32_277 v1
  let c0_i32_278 : BitVec 32 := 0#32
  let v533 : BitVec 32 := Scalar.addi v532 c0_i32_278
  let c16_i32_279 : BitVec 32 := 16#32
  let v534 : BitVec 32 := Scalar.divsi v533 c16_i32_279
  let c0_i32_280 : BitVec 32 := 0#32
  let v535 : BitVec 1 := Scalar.cmpi .sgt v533 c0_i32_280
  let v536 : BitVec 32 := Scalar.extui v535
  let c0_i32_281 : BitVec 32 := 0#32
  let v537 : BitVec 1 := Scalar.cmpi .slt v533 c0_i32_281
  let v538 : BitVec 32 := Scalar.extui v537
  let v539 : BitVec 32 := Scalar.subi v536 v538
  let c0_i32_282 : BitVec 32 := 0#32
  let v540 : BitVec 1 := Scalar.cmpi .sgt c16_i32_279 c0_i32_282
  let v541 : BitVec 32 := Scalar.extui v540
  let c0_i32_283 : BitVec 32 := 0#32
  let v542 : BitVec 1 := Scalar.cmpi .slt c16_i32_279 c0_i32_283
  let v543 : BitVec 32 := Scalar.extui v542
  let v544 : BitVec 32 := Scalar.subi v541 v543
  let v545 : BitVec 1 := Scalar.cmpi .ne v539 v544
  let v546 : BitVec 32 := Scalar.remsi v533 c16_i32_279
  let c0_i32_284 : BitVec 32 := 0#32
  let v547 : BitVec 1 := Scalar.cmpi .ne v546 c0_i32_284
  let v548 : BitVec 1 := Scalar.andi v545 v547
  let c1_i32_285 : BitVec 32 := 1#32
  let v549 : BitVec 32 := Scalar.subi v534 c1_i32_285
  let v550 : BitVec 32 := Scalar.select v548 v549 v534
  let c16_i32_286 : BitVec 32 := 16#32
  let c0_i32_287 : BitVec 32 := 0#32
  let v551 : BitVec 1 := Scalar.cmpi .eq c16_i32_286 c0_i32_287
  let c1_i32_288 : BitVec 32 := 1#32
  let v552 : BitVec 32 := Scalar.select v551 c1_i32_288 c16_i32_286
  let v553 : BitVec 32 := Scalar.remsi v533 v552
  let c0_i32_289 : BitVec 32 := 0#32
  let v554 : BitVec 1 := Scalar.cmpi .ne v553 c0_i32_289
  let c0_i32_290 : BitVec 32 := 0#32
  let v555 : BitVec 1 := Scalar.cmpi .slt v553 c0_i32_290
  let c0_i32_291 : BitVec 32 := 0#32
  let v556 : BitVec 1 := Scalar.cmpi .slt v552 c0_i32_291
  let v557 : BitVec 1 := Scalar.xori v555 v556
  let v558 : BitVec 1 := Scalar.andi v557 v554
  let v559 : BitVec 32 := Scalar.addi v553 v552
  let v560 : BitVec 32 := Scalar.select v558 v559 v553
  let c16_i32_292 : BitVec 32 := 16#32
  let v561 : BitVec 32 := Scalar.muli v550 c16_i32_292
  let v562 : BitVec 32 := Scalar.addi v561 v560
  let c4_i32_293 : BitVec 32 := 4#32
  let v563 : BitVec 32 := Scalar.muli v562 c4_i32_293
  let c0_i32_294 : BitVec 32 := 0#32
  pure ⟨v550, v560, v563, c0_i32_294⟩

noncomputable def q_part16 (i : grid0.Coords) (v560 : BitVec 32) (v563 : BitVec 32) (c0_i32_294 : BitVec 32) :
    Prog (TpuEff nD τ sig (Elt F) Λ₀ (.scVector ((i 0).castLE hcore0) ((i 1).castLE hsub0))) (Σ' (v565 : BitVec 32) (v569 : BitVec 32) (v570 : BitVec 1) (v600 : BitVec 32) (v601 : BitVec 32), BitVec 32) := do
  let v564 : BitVec 32 := Scalar.addi v563 c0_i32_294
  let c65536_i32_295 : BitVec 32 := 65536#32
  let v565 : BitVec 32 := Scalar.muli v564 c65536_i32_295
  let c9_i32_296 : BitVec 32 := 9#32
  let v566 : BitVec 1 := Scalar.cmpi .slt v560 c9_i32_296
  let c3_i32_297 : BitVec 32 := 3#32
  let v567 : BitVec 32 := Scalar.muli c3_i32_297 v560
  let c16_i32_298 : BitVec 32 := 16#32
  let v568 : BitVec 32 := Scalar.subi v567 c16_i32_298
  let v569 : BitVec 32 := Scalar.select v566 v560 v568
  let c9_i32_299 : BitVec 32 := 9#32
  let v570 : BitVec 1 := Scalar.cmpi .slt v560 c9_i32_299
  let c3_i32_300 : BitVec 32 := 3#32
  let c0_i32_301 : BitVec 32 := 0#32
  let v571 : BitVec 1 := Scalar.cmpi .eq c3_i32_300 c0_i32_301
  let c1_i32_302 : BitVec 32 := 1#32
  let v572 : BitVec 32 := Scalar.select v571 c1_i32_302 c3_i32_300
  let v573 : BitVec 32 := Scalar.remsi v560 v572
  let c0_i32_303 : BitVec 32 := 0#32
  let v574 : BitVec 1 := Scalar.cmpi .ne v573 c0_i32_303
  let c0_i32_304 : BitVec 32 := 0#32
  let v575 : BitVec 1 := Scalar.cmpi .slt v573 c0_i32_304
  let c0_i32_305 : BitVec 32 := 0#32
  let v576 : BitVec 1 := Scalar.cmpi .slt v572 c0_i32_305
  let v577 : BitVec 1 := Scalar.xori v575 v576
  let v578 : BitVec 1 := Scalar.andi v577 v574
  let v579 : BitVec 32 := Scalar.addi v573 v572
  let v580 : BitVec 32 := Scalar.select v578 v579 v573
  let c3_i32_306 : BitVec 32 := 3#32
  let v581 : BitVec 32 := Scalar.muli c3_i32_306 v580
  let c30_i32 : BitVec 32 := 30#32
  let v582 : BitVec 32 := Scalar.addi c30_i32 v581
  let c3_i32_307 : BitVec 32 := 3#32
  let v583 : BitVec 32 := Scalar.divsi v560 c3_i32_307
  let c0_i32_308 : BitVec 32 := 0#32
  let v584 : BitVec 1 := Scalar.cmpi .sgt v560 c0_i32_308
  let v585 : BitVec 32 := Scalar.extui v584
  let c0_i32_309 : BitVec 32 := 0#32
  let v586 : BitVec 1 := Scalar.cmpi .slt v560 c0_i32_309
  let v587 : BitVec 32 := Scalar.extui v586
  let v588 : BitVec 32 := Scalar.subi v585 v587
  let c0_i32_310 : BitVec 32 := 0#32
  let v589 : BitVec 1 := Scalar.cmpi .sgt c3_i32_307 c0_i32_310
  let v590 : BitVec 32 := Scalar.extui v589
  let c0_i32_311 : BitVec 32 := 0#32
  let v591 : BitVec 1 := Scalar.cmpi .slt c3_i32_307 c0_i32_311
  let v592 : BitVec 32 := Scalar.extui v591
  let v593 : BitVec 32 := Scalar.subi v590 v592
  let v594 : BitVec 1 := Scalar.cmpi .ne v588 v593
  let v595 : BitVec 32 := Scalar.remsi v560 c3_i32_307
  let c0_i32_312 : BitVec 32 := 0#32
  let v596 : BitVec 1 := Scalar.cmpi .ne v595 c0_i32_312
  let v597 : BitVec 1 := Scalar.andi v594 v596
  let c1_i32_313 : BitVec 32 := 1#32
  let v598 : BitVec 32 := Scalar.subi v583 c1_i32_313
  let v599 : BitVec 32 := Scalar.select v597 v598 v583
  let v600 : BitVec 32 := Scalar.addi v582 v599
  let c3_i32_314 : BitVec 32 := 3#32
  let v601 : BitVec 32 := Scalar.muli c3_i32_314 v560
  let c14_i32 : BitVec 32 := 14#32
  pure ⟨v565, v569, v570, v600, v601, c14_i32⟩

noncomputable def q_part17 (i : grid0.Coords) (v1 : BitVec 32) (v550 : BitVec 32) (v565 : BitVec 32) (v569 : BitVec 32) (v570 : BitVec 1) (v600 : BitVec 32) (v601 : BitVec 32) (c14_i32 : BitVec 32) :
    Prog (TpuEff nD τ sig (Elt F) Λ₀ (.scVector ((i 0).castLE hcore0) ((i 1).castLE hsub0))) (Σ' (v622 : BitVec 32), BitVec 32) := do
  let v602 : BitVec 32 := Scalar.addi v601 c14_i32
  let v603 : BitVec 32 := Scalar.select v570 v600 v602
  let c60_i32_315 : BitVec 32 := 60#32
  let v604 : BitVec 32 := Scalar.muli v550 c60_i32_315
  let v605 : BitVec 32 := Scalar.addi v604 v569
  let c4_i32_316 : BitVec 32 := 4#32
  let v606 : BitVec 32 := Scalar.muli v605 c4_i32_316
  let c0_i32_317 : BitVec 32 := 0#32
  let v607 : BitVec 32 := Scalar.addi v606 c0_i32_317
  let c65536_i32_318 : BitVec 32 := 65536#32
  let v608 : BitVec 32 := Scalar.muli v607 c65536_i32_318
  let c60_i32_319 : BitVec 32 := 60#32
  let v609 : BitVec 32 := Scalar.muli v550 c60_i32_319
  let v610 : BitVec 32 := Scalar.addi v609 v603
  let c4_i32_320 : BitVec 32 := 4#32
  let v611 : BitVec 32 := Scalar.muli v610 c4_i32_320
  let c0_i32_321 : BitVec 32 := 0#32
  let v612 : BitVec 32 := Scalar.addi v611 c0_i32_321
  let c65536_i32_322 : BitVec 32 := 65536#32
  let v613 : BitVec 32 := Scalar.muli v612 c65536_i32_322
  let v614 : BitVec 32 := v565
  let c0_i32_323 : BitVec 32 := 0#32
  let v615 : Memref sig .scVector .shared S1x65536 .f32 := shW.slice (Rect.unit (s := S16x65536) (k0_off1 i) S1x65536.size (k0_off1_inb i)) (fun _ => rfl)
  let v616 : Memref sig .scVector .shared S65536 .f32 := rowM i
  let v617 : Memref sig .scVector .hbm S65536 .f32 := (xw2 i)
  Prog.lift (.enqueueDma v617 (.here v616) (.dma cc0_scratch2.sem) (View.wordExact_bits rfl) ((View.wordExact_bits rfl).reshape _ _) ⟨Or.inl rfl, trivial⟩)
  let c0_i32_324 : BitVec 32 := 0#32
  let v618 : Memref sig .scVector .shared S1x65536 .f32 := shW.slice (Rect.unit (s := S16x65536) (k0_off1 i) S1x65536.size (k0_off1_inb i)) (fun _ => rfl)
  let v619 : Memref sig .scVector .shared S65536 .f32 := rowM i
  let c0_i32_325 : BitVec 32 := 0#32
  let v620 : Memref sig .scVector .hbm S65536 .f32 := xW.slice (Rect.unit (s := S16777216) ![0] S65536.size inb_S16777216_S65536_0) (fun _ => rfl)
  Prog.lift (.waitDma2 cc0_scratch2.sem v620 v619 (View.wordExact_bits rfl) ((View.wordExact_bits rfl).reshape _ _))
  let c2_i32_326 : BitVec 32 := 2#32
  let v621 : BitVec 32 := Scalar.muli c2_i32_326 v1
  let c0_i32_327 : BitVec 32 := 0#32
  let v622 : BitVec 32 := Scalar.addi v621 c0_i32_327
  let c16_i32_328 : BitVec 32 := 16#32
  let v623 : BitVec 32 := Scalar.divsi v622 c16_i32_328
  let c0_i32_329 : BitVec 32 := 0#32
  let v624 : BitVec 1 := Scalar.cmpi .sgt v622 c0_i32_329
  let v625 : BitVec 32 := Scalar.extui v624
  let c0_i32_330 : BitVec 32 := 0#32
  let v626 : BitVec 1 := Scalar.cmpi .slt v622 c0_i32_330
  let v627 : BitVec 32 := Scalar.extui v626
  let v628 : BitVec 32 := Scalar.subi v625 v627
  let c0_i32_331 : BitVec 32 := 0#32
  let v629 : BitVec 1 := Scalar.cmpi .sgt c16_i32_328 c0_i32_331
  let v630 : BitVec 32 := Scalar.extui v629
  let c0_i32_332 : BitVec 32 := 0#32
  let v631 : BitVec 1 := Scalar.cmpi .slt c16_i32_328 c0_i32_332
  let v632 : BitVec 32 := Scalar.extui v631
  let v633 : BitVec 32 := Scalar.subi v630 v632
  let v634 : BitVec 1 := Scalar.cmpi .ne v628 v633
  let v635 : BitVec 32 := Scalar.remsi v622 c16_i32_328
  let c0_i32_333 : BitVec 32 := 0#32
  let v636 : BitVec 1 := Scalar.cmpi .ne v635 c0_i32_333
  let v637 : BitVec 1 := Scalar.andi v634 v636
  let c1_i32_334 : BitVec 32 := 1#32
  let v638 : BitVec 32 := Scalar.subi v623 c1_i32_334
  let v639 : BitVec 32 := Scalar.select v637 v638 v623
  pure ⟨v622, v639⟩

noncomputable def q_part18 (i : grid0.Coords) (v622 : BitVec 32) (v639 : BitVec 32) :
    Prog (TpuEff nD τ sig (Elt F) Λ₀ (.scVector ((i 0).castLE hcore0) ((i 1).castLE hsub0))) (Σ' (v649 : BitVec 32) (v658 : BitVec 32) (v659 : BitVec 1) (v671 : BitVec 32) (c3_i32_357 : BitVec 32) (v672 : BitVec 32) (v674 : BitVec 32), BitVec 32) := do
  let c16_i32_335 : BitVec 32 := 16#32
  let c0_i32_336 : BitVec 32 := 0#32
  let v640 : BitVec 1 := Scalar.cmpi .eq c16_i32_335 c0_i32_336
  let c1_i32_337 : BitVec 32 := 1#32
  let v641 : BitVec 32 := Scalar.select v640 c1_i32_337 c16_i32_335
  let v642 : BitVec 32 := Scalar.remsi v622 v641
  let c0_i32_338 : BitVec 32 := 0#32
  let v643 : BitVec 1 := Scalar.cmpi .ne v642 c0_i32_338
  let c0_i32_339 : BitVec 32 := 0#32
  let v644 : BitVec 1 := Scalar.cmpi .slt v642 c0_i32_339
  let c0_i32_340 : BitVec 32 := 0#32
  let v645 : BitVec 1 := Scalar.cmpi .slt v641 c0_i32_340
  let v646 : BitVec 1 := Scalar.xori v644 v645
  let v647 : BitVec 1 := Scalar.andi v646 v643
  let v648 : BitVec 32 := Scalar.addi v642 v641
  let v649 : BitVec 32 := Scalar.select v647 v648 v642
  let c16_i32_341 : BitVec 32 := 16#32
  let v650 : BitVec 32 := Scalar.muli v639 c16_i32_341
  let v651 : BitVec 32 := Scalar.addi v650 v649
  let c4_i32_342 : BitVec 32 := 4#32
  let v652 : BitVec 32 := Scalar.muli v651 c4_i32_342
  let c0_i32_343 : BitVec 32 := 0#32
  let v653 : BitVec 32 := Scalar.addi v652 c0_i32_343
  let c65536_i32_344 : BitVec 32 := 65536#32
  let v654 : BitVec 32 := Scalar.muli v653 c65536_i32_344
  let c9_i32_345 : BitVec 32 := 9#32
  let v655 : BitVec 1 := Scalar.cmpi .slt v649 c9_i32_345
  let c3_i32_346 : BitVec 32 := 3#32
  let v656 : BitVec 32 := Scalar.muli c3_i32_346 v649
  let c16_i32_347 : BitVec 32 := 16#32
  let v657 : BitVec 32 := Scalar.subi v656 c16_i32_347
  let v658 : BitVec 32 := Scalar.select v655 v649 v657
  let c9_i32_348 : BitVec 32 := 9#32
  let v659 : BitVec 1 := Scalar.cmpi .slt v649 c9_i32_348
  let c3_i32_349 : BitVec 32 := 3#32
  let c0_i32_350 : BitVec 32 := 0#32
  let v660 : BitVec 1 := Scalar.cmpi .eq c3_i32_349 c0_i32_350
  let c1_i32_351 : BitVec 32 := 1#32
  let v661 : BitVec 32 := Scalar.select v660 c1_i32_351 c3_i32_349
  let v662 : BitVec 32 := Scalar.remsi v649 v661
  let c0_i32_352 : BitVec 32 := 0#32
  let v663 : BitVec 1 := Scalar.cmpi .ne v662 c0_i32_352
  let c0_i32_353 : BitVec 32 := 0#32
  let v664 : BitVec 1 := Scalar.cmpi .slt v662 c0_i32_353
  let c0_i32_354 : BitVec 32 := 0#32
  let v665 : BitVec 1 := Scalar.cmpi .slt v661 c0_i32_354
  let v666 : BitVec 1 := Scalar.xori v664 v665
  let v667 : BitVec 1 := Scalar.andi v666 v663
  let v668 : BitVec 32 := Scalar.addi v662 v661
  let v669 : BitVec 32 := Scalar.select v667 v668 v662
  let c3_i32_355 : BitVec 32 := 3#32
  let v670 : BitVec 32 := Scalar.muli c3_i32_355 v669
  let c30_i32_356 : BitVec 32 := 30#32
  let v671 : BitVec 32 := Scalar.addi c30_i32_356 v670
  let c3_i32_357 : BitVec 32 := 3#32
  let v672 : BitVec 32 := Scalar.divsi v649 c3_i32_357
  let c0_i32_358 : BitVec 32 := 0#32
  let v673 : BitVec 1 := Scalar.cmpi .sgt v649 c0_i32_358
  let v674 : BitVec 32 := Scalar.extui v673
  let c0_i32_359 : BitVec 32 := 0#32
  pure ⟨v649, v658, v659, v671, c3_i32_357, v672, v674, c0_i32_359⟩

noncomputable def q_part19 (i : grid0.Coords) (v639 : BitVec 32) (v649 : BitVec 32) (v658 : BitVec 32) (v659 : BitVec 1) (v671 : BitVec 32) (c3_i32_357 : BitVec 32) (v672 : BitVec 32) (v674 : BitVec 32) (c0_i32_359 : BitVec 32) :
    Prog (TpuEff nD τ sig (Elt F) Λ₀ (.scVector ((i 0).castLE hcore0) ((i 1).castLE hsub0))) (PUnit) := do
  let v675 : BitVec 1 := Scalar.cmpi .slt v649 c0_i32_359
  let v676 : BitVec 32 := Scalar.extui v675
  let v677 : BitVec 32 := Scalar.subi v674 v676
  let c0_i32_360 : BitVec 32 := 0#32
  let v678 : BitVec 1 := Scalar.cmpi .sgt c3_i32_357 c0_i32_360
  let v679 : BitVec 32 := Scalar.extui v678
  let c0_i32_361 : BitVec 32 := 0#32
  let v680 : BitVec 1 := Scalar.cmpi .slt c3_i32_357 c0_i32_361
  let v681 : BitVec 32 := Scalar.extui v680
  let v682 : BitVec 32 := Scalar.subi v679 v681
  let v683 : BitVec 1 := Scalar.cmpi .ne v677 v682
  let v684 : BitVec 32 := Scalar.remsi v649 c3_i32_357
  let c0_i32_362 : BitVec 32 := 0#32
  let v685 : BitVec 1 := Scalar.cmpi .ne v684 c0_i32_362
  let v686 : BitVec 1 := Scalar.andi v683 v685
  let c1_i32_363 : BitVec 32 := 1#32
  let v687 : BitVec 32 := Scalar.subi v672 c1_i32_363
  let v688 : BitVec 32 := Scalar.select v686 v687 v672
  let v689 : BitVec 32 := Scalar.addi v671 v688
  let c3_i32_364 : BitVec 32 := 3#32
  let v690 : BitVec 32 := Scalar.muli c3_i32_364 v649
  let c14_i32_365 : BitVec 32 := 14#32
  let v691 : BitVec 32 := Scalar.addi v690 c14_i32_365
  let v692 : BitVec 32 := Scalar.select v659 v689 v691
  let c60_i32_366 : BitVec 32 := 60#32
  let v693 : BitVec 32 := Scalar.muli v639 c60_i32_366
  let v694 : BitVec 32 := Scalar.addi v693 v658
  let c4_i32_367 : BitVec 32 := 4#32
  let v695 : BitVec 32 := Scalar.muli v694 c4_i32_367
  let c0_i32_368 : BitVec 32 := 0#32
  let v696 : BitVec 32 := Scalar.addi v695 c0_i32_368
  let c65536_i32_369 : BitVec 32 := 65536#32
  let v697 : BitVec 32 := Scalar.muli v696 c65536_i32_369
  let c60_i32_370 : BitVec 32 := 60#32
  let v698 : BitVec 32 := Scalar.muli v639 c60_i32_370
  let v699 : BitVec 32 := Scalar.addi v698 v692
  let c4_i32_371 : BitVec 32 := 4#32
  let v700 : BitVec 32 := Scalar.muli v699 c4_i32_371
  let c0_i32_372 : BitVec 32 := 0#32
  let v701 : BitVec 32 := Scalar.addi v700 c0_i32_372
  let c65536_i32_373 : BitVec 32 := 65536#32
  let v702 : BitVec 32 := Scalar.muli v701 c65536_i32_373
  let v703 : BitVec 32 := v697
  let v704 : Memref sig .scVector .hbm S65536 .f32 := (pc14 i)
  let c0_i32_374 : BitVec 32 := 0#32
  let v705 : Memref sig .scVector .shared S1x65536 .f32 := shW.slice (Rect.unit (s := S16x65536) (k0_off1 i) S1x65536.size (k0_off1_inb i)) (fun _ => rfl)
  let v706 : Memref sig .scVector .shared S65536 .f32 := rowM i
  Prog.lift (.enqueueDma v706 (.here v704) (.dma cc0_scratch4.sem) ((View.wordExact_bits rfl).reshape _ _) (View.wordExact_bits rfl) ⟨Or.inl rfl, trivial⟩)
  let v707 : BitVec 32 := v702
  let v708 : Memref sig .scVector .hbm S65536 .f32 := (pc15 i)
  let c0_i32_375 : BitVec 32 := 0#32
  let v709 : Memref sig .scVector .shared S1x65536 .f32 := shW.slice (Rect.unit (s := S16x65536) (k0_off1 i) S1x65536.size (k0_off1_inb i)) (fun _ => rfl)
  let v710 : Memref sig .scVector .shared S65536 .f32 := rowM i
  Prog.lift (.enqueueDma v710 (.here v708) (.dma cc0_scratch4.sem) ((View.wordExact_bits rfl).reshape _ _) (View.wordExact_bits rfl) ⟨Or.inl rfl, trivial⟩)
  let c0_i32_376 : BitVec 32 := 0#32
  let v711 : Memref sig .scVector .hbm S65536 .f32 := oW.slice (Rect.unit (s := S62914560) ![0] S65536.size inb_S62914560_S65536_0) (fun _ => rfl)
  let c0_i32_377 : BitVec 32 := 0#32
  let v712 : Memref sig .scVector .hbm S65536 .f32 := oW.slice (Rect.unit (s := S62914560) ![0] S65536.size inb_S62914560_S65536_0) (fun _ => rfl)
  Prog.lift (.waitDma2 cc0_scratch5.sem bW v712 (Memref.isWhole_whole _).wordExact (View.wordExact_bits rfl))
  let c0_i32_378 : BitVec 32 := 0#32
  pure ⟨⟩

noncomputable def q_part20 (i : grid0.Coords) (v1 : BitVec 32) :
    Prog (TpuEff nD τ sig (Elt F) Λ₀ (.scVector ((i 0).castLE hcore0) ((i 1).castLE hsub0))) (Σ' (v726 : BitVec 32) (v743 : BitVec 32) (c16_i32_399 : BitVec 32), BitVec 1) := do
  let v713 : Memref sig .scVector .hbm S65536 .f32 := oW.slice (Rect.unit (s := S62914560) ![0] S65536.size inb_S62914560_S65536_0) (fun _ => rfl)
  let c0_i32_379 : BitVec 32 := 0#32
  let v714 : Memref sig .scVector .hbm S65536 .f32 := oW.slice (Rect.unit (s := S62914560) ![0] S65536.size inb_S62914560_S65536_0) (fun _ => rfl)
  Prog.lift (.waitDma2 cc0_scratch5.sem bW v714 (Memref.isWhole_whole _).wordExact (View.wordExact_bits rfl))
  let c0_i32_380 : BitVec 32 := 0#32
  let v715 : Memref sig .scVector .hbm S65536 .f32 := oW.slice (Rect.unit (s := S62914560) ![0] S65536.size inb_S62914560_S65536_0) (fun _ => rfl)
  let c0_i32_381 : BitVec 32 := 0#32
  let v716 : Memref sig .scVector .hbm S65536 .f32 := oW.slice (Rect.unit (s := S62914560) ![0] S65536.size inb_S62914560_S65536_0) (fun _ => rfl)
  Prog.lift (.waitDma2 cc0_scratch5.sem bW v716 (Memref.isWhole_whole _).wordExact (View.wordExact_bits rfl))
  let c0_i32_382 : BitVec 32 := 0#32
  let v717 : Memref sig .scVector .hbm S65536 .f32 := oW.slice (Rect.unit (s := S62914560) ![0] S65536.size inb_S62914560_S65536_0) (fun _ => rfl)
  let c0_i32_383 : BitVec 32 := 0#32
  let v718 : Memref sig .scVector .hbm S65536 .f32 := oW.slice (Rect.unit (s := S62914560) ![0] S65536.size inb_S62914560_S65536_0) (fun _ => rfl)
  Prog.lift (.waitDma2 cc0_scratch5.sem bW v718 (Memref.isWhole_whole _).wordExact (View.wordExact_bits rfl))
  let c0_i32_384 : BitVec 32 := 0#32
  let v719 : Memref sig .scVector .hbm S65536 .f32 := oW.slice (Rect.unit (s := S62914560) ![0] S65536.size inb_S62914560_S65536_0) (fun _ => rfl)
  let c0_i32_385 : BitVec 32 := 0#32
  let v720 : Memref sig .scVector .hbm S65536 .f32 := oW.slice (Rect.unit (s := S62914560) ![0] S65536.size inb_S62914560_S65536_0) (fun _ => rfl)
  Prog.lift (.waitDma2 cc0_scratch5.sem bW v720 (Memref.isWhole_whole _).wordExact (View.wordExact_bits rfl))
  let c0_i32_386 : BitVec 32 := 0#32
  let v721 : Memref sig .scVector .hbm S65536 .f32 := oW.slice (Rect.unit (s := S62914560) ![0] S65536.size inb_S62914560_S65536_0) (fun _ => rfl)
  let c0_i32_387 : BitVec 32 := 0#32
  let v722 : Memref sig .scVector .hbm S65536 .f32 := oW.slice (Rect.unit (s := S62914560) ![0] S65536.size inb_S62914560_S65536_0) (fun _ => rfl)
  Prog.lift (.waitDma2 cc0_scratch5.sem bW v722 (Memref.isWhole_whole _).wordExact (View.wordExact_bits rfl))
  let c0_i32_388 : BitVec 32 := 0#32
  let v723 : Memref sig .scVector .hbm S65536 .f32 := oW.slice (Rect.unit (s := S62914560) ![0] S65536.size inb_S62914560_S65536_0) (fun _ => rfl)
  let c0_i32_389 : BitVec 32 := 0#32
  let v724 : Memref sig .scVector .hbm S65536 .f32 := oW.slice (Rect.unit (s := S62914560) ![0] S65536.size inb_S62914560_S65536_0) (fun _ => rfl)
  Prog.lift (.waitDma2 cc0_scratch5.sem bW v724 (Memref.isWhole_whole _).wordExact (View.wordExact_bits rfl))
  let c2_i32_390 : BitVec 32 := 2#32
  let v725 : BitVec 32 := Scalar.muli c2_i32_390 v1
  let c0_i32_391 : BitVec 32 := 0#32
  let v726 : BitVec 32 := Scalar.addi v725 c0_i32_391
  let c16_i32_392 : BitVec 32 := 16#32
  let v727 : BitVec 32 := Scalar.divsi v726 c16_i32_392
  let c0_i32_393 : BitVec 32 := 0#32
  let v728 : BitVec 1 := Scalar.cmpi .sgt v726 c0_i32_393
  let v729 : BitVec 32 := Scalar.extui v728
  let c0_i32_394 : BitVec 32 := 0#32
  let v730 : BitVec 1 := Scalar.cmpi .slt v726 c0_i32_394
  let v731 : BitVec 32 := Scalar.extui v730
  let v732 : BitVec 32 := Scalar.subi v729 v731
  let c0_i32_395 : BitVec 32 := 0#32
  let v733 : BitVec 1 := Scalar.cmpi .sgt c16_i32_392 c0_i32_395
  let v734 : BitVec 32 := Scalar.extui v733
  let c0_i32_396 : BitVec 32 := 0#32
  let v735 : BitVec 1 := Scalar.cmpi .slt c16_i32_392 c0_i32_396
  let v736 : BitVec 32 := Scalar.extui v735
  let v737 : BitVec 32 := Scalar.subi v734 v736
  let v738 : BitVec 1 := Scalar.cmpi .ne v732 v737
  let v739 : BitVec 32 := Scalar.remsi v726 c16_i32_392
  let c0_i32_397 : BitVec 32 := 0#32
  let v740 : BitVec 1 := Scalar.cmpi .ne v739 c0_i32_397
  let v741 : BitVec 1 := Scalar.andi v738 v740
  let c1_i32_398 : BitVec 32 := 1#32
  let v742 : BitVec 32 := Scalar.subi v727 c1_i32_398
  let v743 : BitVec 32 := Scalar.select v741 v742 v727
  let c16_i32_399 : BitVec 32 := 16#32
  let c0_i32_400 : BitVec 32 := 0#32
  let v744 : BitVec 1 := Scalar.cmpi .eq c16_i32_399 c0_i32_400
  pure ⟨v726, v743, c16_i32_399, v744⟩

noncomputable def q_part21 (i : grid0.Coords) (v726 : BitVec 32) (v743 : BitVec 32) (c16_i32_399 : BitVec 32) (v744 : BitVec 1) :
    Prog (TpuEff nD τ sig (Elt F) Λ₀ (.scVector ((i 0).castLE hcore0) ((i 1).castLE hsub0))) (Σ' (v753 : BitVec 32) (v758 : BitVec 32) (v762 : BitVec 32) (v763 : BitVec 1) (v775 : BitVec 32) (c3_i32_421 : BitVec 32) (v776 : BitVec 32), BitVec 32) := do
  let c1_i32_401 : BitVec 32 := 1#32
  let v745 : BitVec 32 := Scalar.select v744 c1_i32_401 c16_i32_399
  let v746 : BitVec 32 := Scalar.remsi v726 v745
  let c0_i32_402 : BitVec 32 := 0#32
  let v747 : BitVec 1 := Scalar.cmpi .ne v746 c0_i32_402
  let c0_i32_403 : BitVec 32 := 0#32
  let v748 : BitVec 1 := Scalar.cmpi .slt v746 c0_i32_403
  let c0_i32_404 : BitVec 32 := 0#32
  let v749 : BitVec 1 := Scalar.cmpi .slt v745 c0_i32_404
  let v750 : BitVec 1 := Scalar.xori v748 v749
  let v751 : BitVec 1 := Scalar.andi v750 v747
  let v752 : BitVec 32 := Scalar.addi v746 v745
  let v753 : BitVec 32 := Scalar.select v751 v752 v746
  let c16_i32_405 : BitVec 32 := 16#32
  let v754 : BitVec 32 := Scalar.muli v743 c16_i32_405
  let v755 : BitVec 32 := Scalar.addi v754 v753
  let c4_i32_406 : BitVec 32 := 4#32
  let v756 : BitVec 32 := Scalar.muli v755 c4_i32_406
  let c1_i32_407 : BitVec 32 := 1#32
  let v757 : BitVec 32 := Scalar.addi v756 c1_i32_407
  let c65536_i32_408 : BitVec 32 := 65536#32
  let v758 : BitVec 32 := Scalar.muli v757 c65536_i32_408
  let c9_i32_409 : BitVec 32 := 9#32
  let v759 : BitVec 1 := Scalar.cmpi .slt v753 c9_i32_409
  let c3_i32_410 : BitVec 32 := 3#32
  let v760 : BitVec 32 := Scalar.muli c3_i32_410 v753
  let c16_i32_411 : BitVec 32 := 16#32
  let v761 : BitVec 32 := Scalar.subi v760 c16_i32_411
  let v762 : BitVec 32 := Scalar.select v759 v753 v761
  let c9_i32_412 : BitVec 32 := 9#32
  let v763 : BitVec 1 := Scalar.cmpi .slt v753 c9_i32_412
  let c3_i32_413 : BitVec 32 := 3#32
  let c0_i32_414 : BitVec 32 := 0#32
  let v764 : BitVec 1 := Scalar.cmpi .eq c3_i32_413 c0_i32_414
  let c1_i32_415 : BitVec 32 := 1#32
  let v765 : BitVec 32 := Scalar.select v764 c1_i32_415 c3_i32_413
  let v766 : BitVec 32 := Scalar.remsi v753 v765
  let c0_i32_416 : BitVec 32 := 0#32
  let v767 : BitVec 1 := Scalar.cmpi .ne v766 c0_i32_416
  let c0_i32_417 : BitVec 32 := 0#32
  let v768 : BitVec 1 := Scalar.cmpi .slt v766 c0_i32_417
  let c0_i32_418 : BitVec 32 := 0#32
  let v769 : BitVec 1 := Scalar.cmpi .slt v765 c0_i32_418
  let v770 : BitVec 1 := Scalar.xori v768 v769
  let v771 : BitVec 1 := Scalar.andi v770 v767
  let v772 : BitVec 32 := Scalar.addi v766 v765
  let v773 : BitVec 32 := Scalar.select v771 v772 v766
  let c3_i32_419 : BitVec 32 := 3#32
  let v774 : BitVec 32 := Scalar.muli c3_i32_419 v773
  let c30_i32_420 : BitVec 32 := 30#32
  let v775 : BitVec 32 := Scalar.addi c30_i32_420 v774
  let c3_i32_421 : BitVec 32 := 3#32
  let v776 : BitVec 32 := Scalar.divsi v753 c3_i32_421
  let c0_i32_422 : BitVec 32 := 0#32
  let v777 : BitVec 1 := Scalar.cmpi .sgt v753 c0_i32_422
  let v778 : BitVec 32 := Scalar.extui v777
  let c0_i32_423 : BitVec 32 := 0#32
  let v779 : BitVec 1 := Scalar.cmpi .slt v753 c0_i32_423
  let v780 : BitVec 32 := Scalar.extui v779
  let v781 : BitVec 32 := Scalar.subi v778 v780
  pure ⟨v753, v758, v762, v763, v775, c3_i32_421, v776, v781⟩

noncomputable def q_part22 (i : grid0.Coords) (v1 : BitVec 32) (v743 : BitVec 32) (v753 : BitVec 32) (v758 : BitVec 32) (v762 : BitVec 32) (v763 : BitVec 1) (v775 : BitVec 32) (c3_i32_421 : BitVec 32) (v776 : BitVec 32) (v781 : BitVec 32) :
    Prog (TpuEff nD τ sig (Elt F) Λ₀ (.scVector ((i 0).castLE hcore0) ((i 1).castLE hsub0))) (Σ' (v813 : BitVec 32) (c16_i32_442 : BitVec 32) (v814 : BitVec 32) (v816 : BitVec 32), BitVec 32) := do
  let c0_i32_424 : BitVec 32 := 0#32
  let v782 : BitVec 1 := Scalar.cmpi .sgt c3_i32_421 c0_i32_424
  let v783 : BitVec 32 := Scalar.extui v782
  let c0_i32_425 : BitVec 32 := 0#32
  let v784 : BitVec 1 := Scalar.cmpi .slt c3_i32_421 c0_i32_425
  let v785 : BitVec 32 := Scalar.extui v784
  let v786 : BitVec 32 := Scalar.subi v783 v785
  let v787 : BitVec 1 := Scalar.cmpi .ne v781 v786
  let v788 : BitVec 32 := Scalar.remsi v753 c3_i32_421
  let c0_i32_426 : BitVec 32 := 0#32
  let v789 : BitVec 1 := Scalar.cmpi .ne v788 c0_i32_426
  let v790 : BitVec 1 := Scalar.andi v787 v789
  let c1_i32_427 : BitVec 32 := 1#32
  let v791 : BitVec 32 := Scalar.subi v776 c1_i32_427
  let v792 : BitVec 32 := Scalar.select v790 v791 v776
  let v793 : BitVec 32 := Scalar.addi v775 v792
  let c3_i32_428 : BitVec 32 := 3#32
  let v794 : BitVec 32 := Scalar.muli c3_i32_428 v753
  let c14_i32_429 : BitVec 32 := 14#32
  let v795 : BitVec 32 := Scalar.addi v794 c14_i32_429
  let v796 : BitVec 32 := Scalar.select v763 v793 v795
  let c60_i32_430 : BitVec 32 := 60#32
  let v797 : BitVec 32 := Scalar.muli v743 c60_i32_430
  let v798 : BitVec 32 := Scalar.addi v797 v762
  let c4_i32_431 : BitVec 32 := 4#32
  let v799 : BitVec 32 := Scalar.muli v798 c4_i32_431
  let c1_i32_432 : BitVec 32 := 1#32
  let v800 : BitVec 32 := Scalar.addi v799 c1_i32_432
  let c65536_i32_433 : BitVec 32 := 65536#32
  let v801 : BitVec 32 := Scalar.muli v800 c65536_i32_433
  let c60_i32_434 : BitVec 32 := 60#32
  let v802 : BitVec 32 := Scalar.muli v743 c60_i32_434
  let v803 : BitVec 32 := Scalar.addi v802 v796
  let c4_i32_435 : BitVec 32 := 4#32
  let v804 : BitVec 32 := Scalar.muli v803 c4_i32_435
  let c1_i32_436 : BitVec 32 := 1#32
  let v805 : BitVec 32 := Scalar.addi v804 c1_i32_436
  let c65536_i32_437 : BitVec 32 := 65536#32
  let v806 : BitVec 32 := Scalar.muli v805 c65536_i32_437
  let v807 : BitVec 32 := v758
  let v808 : Memref sig .scVector .hbm S65536 .f32 := (xw3 i)
  let v809 : Memref sig .scVector .hbm S65536 .f32 := (xw3 i)
  Prog.lift (.enqueueDma v809 (.here bW) (.dma cc0_scratch3.sem) (View.wordExact_bits rfl) (Memref.isWhole_whole _).wordExact ⟨Or.inl rfl, trivial⟩)
  let c0_i32_438 : BitVec 32 := 0#32
  let v810 : Memref sig .scVector .hbm S65536 .f32 := xW.slice (Rect.unit (s := S16777216) ![0] S65536.size inb_S16777216_S65536_0) (fun _ => rfl)
  let c0_i32_439 : BitVec 32 := 0#32
  let v811 : Memref sig .scVector .hbm S65536 .f32 := xW.slice (Rect.unit (s := S16777216) ![0] S65536.size inb_S16777216_S65536_0) (fun _ => rfl)
  Prog.lift (.waitDma2 cc0_scratch3.sem v811 bW (View.wordExact_bits rfl) (Memref.isWhole_whole _).wordExact)
  let c2_i32_440 : BitVec 32 := 2#32
  let v812 : BitVec 32 := Scalar.muli c2_i32_440 v1
  let c0_i32_441 : BitVec 32 := 0#32
  let v813 : BitVec 32 := Scalar.addi v812 c0_i32_441
  let c16_i32_442 : BitVec 32 := 16#32
  let v814 : BitVec 32 := Scalar.divsi v813 c16_i32_442
  let c0_i32_443 : BitVec 32 := 0#32
  let v815 : BitVec 1 := Scalar.cmpi .sgt v813 c0_i32_443
  let v816 : BitVec 32 := Scalar.extui v815
  let c0_i32_444 : BitVec 32 := 0#32
  let v817 : BitVec 1 := Scalar.cmpi .slt v813 c0_i32_444
  let v818 : BitVec 32 := Scalar.extui v817
  pure ⟨v813, c16_i32_442, v814, v816, v818⟩

noncomputable def q_part23 (i : grid0.Coords) (v813 : BitVec 32) (c16_i32_442 : BitVec 32) (v814 : BitVec 32) (v816 : BitVec 32) (v818 : BitVec 32) :
    Prog (TpuEff nD τ sig (Elt F) Λ₀ (.scVector ((i 0).castLE hcore0) ((i 1).castLE hsub0))) (Σ' (v830 : BitVec 32) (v840 : BitVec 32) (v849 : BitVec 32) (v850 : BitVec 1) (v852 : BitVec 32) (v853 : BitVec 32) (v854 : BitVec 1), BitVec 1) := do
  let v819 : BitVec 32 := Scalar.subi v816 v818
  let c0_i32_445 : BitVec 32 := 0#32
  let v820 : BitVec 1 := Scalar.cmpi .sgt c16_i32_442 c0_i32_445
  let v821 : BitVec 32 := Scalar.extui v820
  let c0_i32_446 : BitVec 32 := 0#32
  let v822 : BitVec 1 := Scalar.cmpi .slt c16_i32_442 c0_i32_446
  let v823 : BitVec 32 := Scalar.extui v822
  let v824 : BitVec 32 := Scalar.subi v821 v823
  let v825 : BitVec 1 := Scalar.cmpi .ne v819 v824
  let v826 : BitVec 32 := Scalar.remsi v813 c16_i32_442
  let c0_i32_447 : BitVec 32 := 0#32
  let v827 : BitVec 1 := Scalar.cmpi .ne v826 c0_i32_447
  let v828 : BitVec 1 := Scalar.andi v825 v827
  let c1_i32_448 : BitVec 32 := 1#32
  let v829 : BitVec 32 := Scalar.subi v814 c1_i32_448
  let v830 : BitVec 32 := Scalar.select v828 v829 v814
  let c16_i32_449 : BitVec 32 := 16#32
  let c0_i32_450 : BitVec 32 := 0#32
  let v831 : BitVec 1 := Scalar.cmpi .eq c16_i32_449 c0_i32_450
  let c1_i32_451 : BitVec 32 := 1#32
  let v832 : BitVec 32 := Scalar.select v831 c1_i32_451 c16_i32_449
  let v833 : BitVec 32 := Scalar.remsi v813 v832
  let c0_i32_452 : BitVec 32 := 0#32
  let v834 : BitVec 1 := Scalar.cmpi .ne v833 c0_i32_452
  let c0_i32_453 : BitVec 32 := 0#32
  let v835 : BitVec 1 := Scalar.cmpi .slt v833 c0_i32_453
  let c0_i32_454 : BitVec 32 := 0#32
  let v836 : BitVec 1 := Scalar.cmpi .slt v832 c0_i32_454
  let v837 : BitVec 1 := Scalar.xori v835 v836
  let v838 : BitVec 1 := Scalar.andi v837 v834
  let v839 : BitVec 32 := Scalar.addi v833 v832
  let v840 : BitVec 32 := Scalar.select v838 v839 v833
  let c16_i32_455 : BitVec 32 := 16#32
  let v841 : BitVec 32 := Scalar.muli v830 c16_i32_455
  let v842 : BitVec 32 := Scalar.addi v841 v840
  let c4_i32_456 : BitVec 32 := 4#32
  let v843 : BitVec 32 := Scalar.muli v842 c4_i32_456
  let c1_i32_457 : BitVec 32 := 1#32
  let v844 : BitVec 32 := Scalar.addi v843 c1_i32_457
  let c65536_i32_458 : BitVec 32 := 65536#32
  let v845 : BitVec 32 := Scalar.muli v844 c65536_i32_458
  let c9_i32_459 : BitVec 32 := 9#32
  let v846 : BitVec 1 := Scalar.cmpi .slt v840 c9_i32_459
  let c3_i32_460 : BitVec 32 := 3#32
  let v847 : BitVec 32 := Scalar.muli c3_i32_460 v840
  let c16_i32_461 : BitVec 32 := 16#32
  let v848 : BitVec 32 := Scalar.subi v847 c16_i32_461
  let v849 : BitVec 32 := Scalar.select v846 v840 v848
  let c9_i32_462 : BitVec 32 := 9#32
  let v850 : BitVec 1 := Scalar.cmpi .slt v840 c9_i32_462
  let c3_i32_463 : BitVec 32 := 3#32
  let c0_i32_464 : BitVec 32 := 0#32
  let v851 : BitVec 1 := Scalar.cmpi .eq c3_i32_463 c0_i32_464
  let c1_i32_465 : BitVec 32 := 1#32
  let v852 : BitVec 32 := Scalar.select v851 c1_i32_465 c3_i32_463
  let v853 : BitVec 32 := Scalar.remsi v840 v852
  let c0_i32_466 : BitVec 32 := 0#32
  let v854 : BitVec 1 := Scalar.cmpi .ne v853 c0_i32_466
  let c0_i32_467 : BitVec 32 := 0#32
  let v855 : BitVec 1 := Scalar.cmpi .slt v853 c0_i32_467
  pure ⟨v830, v840, v849, v850, v852, v853, v854, v855⟩

noncomputable def q_part24 (i : grid0.Coords) (v830 : BitVec 32) (v840 : BitVec 32) (v849 : BitVec 32) (v850 : BitVec 1) (v852 : BitVec 32) (v853 : BitVec 32) (v854 : BitVec 1) (v855 : BitVec 1) :
    Prog (TpuEff nD τ sig (Elt F) Λ₀ (.scVector ((i 0).castLE hcore0) ((i 1).castLE hsub0))) (BitVec 32) := do
  let c0_i32_468 : BitVec 32 := 0#32
  let v856 : BitVec 1 := Scalar.cmpi .slt v852 c0_i32_468
  let v857 : BitVec 1 := Scalar.xori v855 v856
  let v858 : BitVec 1 := Scalar.andi v857 v854
  let v859 : BitVec 32 := Scalar.addi v853 v852
  let v860 : BitVec 32 := Scalar.select v858 v859 v853
  let c3_i32_469 : BitVec 32 := 3#32
  let v861 : BitVec 32 := Scalar.muli c3_i32_469 v860
  let c30_i32_470 : BitVec 32 := 30#32
  let v862 : BitVec 32 := Scalar.addi c30_i32_470 v861
  let c3_i32_471 : BitVec 32 := 3#32
  let v863 : BitVec 32 := Scalar.divsi v840 c3_i32_471
  let c0_i32_472 : BitVec 32 := 0#32
  let v864 : BitVec 1 := Scalar.cmpi .sgt v840 c0_i32_472
  let v865 : BitVec 32 := Scalar.extui v864
  let c0_i32_473 : BitVec 32 := 0#32
  let v866 : BitVec 1 := Scalar.cmpi .slt v840 c0_i32_473
  let v867 : BitVec 32 := Scalar.extui v866
  let v868 : BitVec 32 := Scalar.subi v865 v867
  let c0_i32_474 : BitVec 32 := 0#32
  let v869 : BitVec 1 := Scalar.cmpi .sgt c3_i32_471 c0_i32_474
  let v870 : BitVec 32 := Scalar.extui v869
  let c0_i32_475 : BitVec 32 := 0#32
  let v871 : BitVec 1 := Scalar.cmpi .slt c3_i32_471 c0_i32_475
  let v872 : BitVec 32 := Scalar.extui v871
  let v873 : BitVec 32 := Scalar.subi v870 v872
  let v874 : BitVec 1 := Scalar.cmpi .ne v868 v873
  let v875 : BitVec 32 := Scalar.remsi v840 c3_i32_471
  let c0_i32_476 : BitVec 32 := 0#32
  let v876 : BitVec 1 := Scalar.cmpi .ne v875 c0_i32_476
  let v877 : BitVec 1 := Scalar.andi v874 v876
  let c1_i32_477 : BitVec 32 := 1#32
  let v878 : BitVec 32 := Scalar.subi v863 c1_i32_477
  let v879 : BitVec 32 := Scalar.select v877 v878 v863
  let v880 : BitVec 32 := Scalar.addi v862 v879
  let c3_i32_478 : BitVec 32 := 3#32
  let v881 : BitVec 32 := Scalar.muli c3_i32_478 v840
  let c14_i32_479 : BitVec 32 := 14#32
  let v882 : BitVec 32 := Scalar.addi v881 c14_i32_479
  let v883 : BitVec 32 := Scalar.select v850 v880 v882
  let c60_i32_480 : BitVec 32 := 60#32
  let v884 : BitVec 32 := Scalar.muli v830 c60_i32_480
  let v885 : BitVec 32 := Scalar.addi v884 v849
  let c4_i32_481 : BitVec 32 := 4#32
  let v886 : BitVec 32 := Scalar.muli v885 c4_i32_481
  let c1_i32_482 : BitVec 32 := 1#32
  let v887 : BitVec 32 := Scalar.addi v886 c1_i32_482
  let c65536_i32_483 : BitVec 32 := 65536#32
  let v888 : BitVec 32 := Scalar.muli v887 c65536_i32_483
  let c60_i32_484 : BitVec 32 := 60#32
  let v889 : BitVec 32 := Scalar.muli v830 c60_i32_484
  let v890 : BitVec 32 := Scalar.addi v889 v883
  let c4_i32_485 : BitVec 32 := 4#32
  let v891 : BitVec 32 := Scalar.muli v890 c4_i32_485
  let c1_i32_486 : BitVec 32 := 1#32
  let v892 : BitVec 32 := Scalar.addi v891 c1_i32_486
  let c65536_i32_487 : BitVec 32 := 65536#32
  let v893 : BitVec 32 := Scalar.muli v892 c65536_i32_487
  let v894 : BitVec 32 := v888
  let v895 : Memref sig .scVector .hbm S65536 .f32 := (pc16 i)
  pure v893

noncomputable def q_part25 (i : grid0.Coords) (v1 : BitVec 32) (v893 : BitVec 32) :
    Prog (TpuEff nD τ sig (Elt F) Λ₀ (.scVector ((i 0).castLE hcore0) ((i 1).castLE hsub0))) (Σ' (v924 : BitVec 32) (v926 : BitVec 32) (v927 : BitVec 32), BitVec 1) := do
  let v896 : Memref sig .scVector .hbm S65536 .f32 := (pc16 i)
  Prog.lift (.enqueueDma bW (.here v896) (.dma cc0_scratch5.sem) (Memref.isWhole_whole _).wordExact (View.wordExact_bits rfl) ⟨Or.inl rfl, trivial⟩)
  let v897 : BitVec 32 := v893
  let v898 : Memref sig .scVector .hbm S65536 .f32 := (pc17 i)
  let v899 : Memref sig .scVector .hbm S65536 .f32 := (pc17 i)
  Prog.lift (.enqueueDma bW (.here v899) (.dma cc0_scratch5.sem) (Memref.isWhole_whole _).wordExact (View.wordExact_bits rfl) ⟨Or.inl rfl, trivial⟩)
  let c0_i32_488 : BitVec 32 := 0#32
  let v900 : Memref sig .scVector .hbm S65536 .f32 := oW.slice (Rect.unit (s := S62914560) ![0] S65536.size inb_S62914560_S65536_0) (fun _ => rfl)
  let c0_i32_489 : BitVec 32 := 0#32
  let v901 : Memref sig .scVector .shared S1x65536 .f32 := shW.slice (Rect.unit (s := S16x65536) (k0_off1 i) S1x65536.size (k0_off1_inb i)) (fun _ => rfl)
  let v902 : Memref sig .scVector .shared S65536 .f32 := rowM i
  Prog.lift (.waitDma2 cc0_scratch4.sem v902 v900 ((View.wordExact_bits rfl).reshape _ _) (View.wordExact_bits rfl))
  let c0_i32_490 : BitVec 32 := 0#32
  let v903 : Memref sig .scVector .hbm S65536 .f32 := oW.slice (Rect.unit (s := S62914560) ![0] S65536.size inb_S62914560_S65536_0) (fun _ => rfl)
  let c0_i32_491 : BitVec 32 := 0#32
  let v904 : Memref sig .scVector .shared S1x65536 .f32 := shW.slice (Rect.unit (s := S16x65536) (k0_off1 i) S1x65536.size (k0_off1_inb i)) (fun _ => rfl)
  let v905 : Memref sig .scVector .shared S65536 .f32 := rowM i
  Prog.lift (.waitDma2 cc0_scratch4.sem v905 v903 ((View.wordExact_bits rfl).reshape _ _) (View.wordExact_bits rfl))
  let c2_i32_492 : BitVec 32 := 2#32
  let v906 : BitVec 32 := Scalar.muli c2_i32_492 v1
  let c0_i32_493 : BitVec 32 := 0#32
  let v907 : BitVec 32 := Scalar.addi v906 c0_i32_493
  let c16_i32_494 : BitVec 32 := 16#32
  let v908 : BitVec 32 := Scalar.divsi v907 c16_i32_494
  let c0_i32_495 : BitVec 32 := 0#32
  let v909 : BitVec 1 := Scalar.cmpi .sgt v907 c0_i32_495
  let v910 : BitVec 32 := Scalar.extui v909
  let c0_i32_496 : BitVec 32 := 0#32
  let v911 : BitVec 1 := Scalar.cmpi .slt v907 c0_i32_496
  let v912 : BitVec 32 := Scalar.extui v911
  let v913 : BitVec 32 := Scalar.subi v910 v912
  let c0_i32_497 : BitVec 32 := 0#32
  let v914 : BitVec 1 := Scalar.cmpi .sgt c16_i32_494 c0_i32_497
  let v915 : BitVec 32 := Scalar.extui v914
  let c0_i32_498 : BitVec 32 := 0#32
  let v916 : BitVec 1 := Scalar.cmpi .slt c16_i32_494 c0_i32_498
  let v917 : BitVec 32 := Scalar.extui v916
  let v918 : BitVec 32 := Scalar.subi v915 v917
  let v919 : BitVec 1 := Scalar.cmpi .ne v913 v918
  let v920 : BitVec 32 := Scalar.remsi v907 c16_i32_494
  let c0_i32_499 : BitVec 32 := 0#32
  let v921 : BitVec 1 := Scalar.cmpi .ne v920 c0_i32_499
  let v922 : BitVec 1 := Scalar.andi v919 v921
  let c1_i32_500 : BitVec 32 := 1#32
  let v923 : BitVec 32 := Scalar.subi v908 c1_i32_500
  let v924 : BitVec 32 := Scalar.select v922 v923 v908
  let c16_i32_501 : BitVec 32 := 16#32
  let c0_i32_502 : BitVec 32 := 0#32
  let v925 : BitVec 1 := Scalar.cmpi .eq c16_i32_501 c0_i32_502
  let c1_i32_503 : BitVec 32 := 1#32
  let v926 : BitVec 32 := Scalar.select v925 c1_i32_503 c16_i32_501
  let v927 : BitVec 32 := Scalar.remsi v907 v926
  let c0_i32_504 : BitVec 32 := 0#32
  let v928 : BitVec 1 := Scalar.cmpi .ne v927 c0_i32_504
  let c0_i32_505 : BitVec 32 := 0#32
  let v929 : BitVec 1 := Scalar.cmpi .slt v927 c0_i32_505
  let c0_i32_506 : BitVec 32 := 0#32
  let v930 : BitVec 1 := Scalar.cmpi .slt v926 c0_i32_506
  let v931 : BitVec 1 := Scalar.xori v929 v930
  let v932 : BitVec 1 := Scalar.andi v931 v928
  pure ⟨v924, v926, v927, v932⟩

noncomputable def q_part26 (i : grid0.Coords) (v924 : BitVec 32) (v926 : BitVec 32) (v927 : BitVec 32) (v932 : BitVec 1) :
    Prog (TpuEff nD τ sig (Elt F) Λ₀ (.scVector ((i 0).castLE hcore0) ((i 1).castLE hsub0))) (Σ' (v934 : BitVec 32) (v939 : BitVec 32) (v943 : BitVec 32) (v944 : BitVec 1) (v956 : BitVec 32) (v957 : BitVec 32) (v968 : BitVec 1), BitVec 1) := do
  let v933 : BitVec 32 := Scalar.addi v927 v926
  let v934 : BitVec 32 := Scalar.select v932 v933 v927
  let c16_i32_507 : BitVec 32 := 16#32
  let v935 : BitVec 32 := Scalar.muli v924 c16_i32_507
  let v936 : BitVec 32 := Scalar.addi v935 v934
  let c4_i32_508 : BitVec 32 := 4#32
  let v937 : BitVec 32 := Scalar.muli v936 c4_i32_508
  let c2_i32_509 : BitVec 32 := 2#32
  let v938 : BitVec 32 := Scalar.addi v937 c2_i32_509
  let c65536_i32_510 : BitVec 32 := 65536#32
  let v939 : BitVec 32 := Scalar.muli v938 c65536_i32_510
  let c9_i32_511 : BitVec 32 := 9#32
  let v940 : BitVec 1 := Scalar.cmpi .slt v934 c9_i32_511
  let c3_i32_512 : BitVec 32 := 3#32
  let v941 : BitVec 32 := Scalar.muli c3_i32_512 v934
  let c16_i32_513 : BitVec 32 := 16#32
  let v942 : BitVec 32 := Scalar.subi v941 c16_i32_513
  let v943 : BitVec 32 := Scalar.select v940 v934 v942
  let c9_i32_514 : BitVec 32 := 9#32
  let v944 : BitVec 1 := Scalar.cmpi .slt v934 c9_i32_514
  let c3_i32_515 : BitVec 32 := 3#32
  let c0_i32_516 : BitVec 32 := 0#32
  let v945 : BitVec 1 := Scalar.cmpi .eq c3_i32_515 c0_i32_516
  let c1_i32_517 : BitVec 32 := 1#32
  let v946 : BitVec 32 := Scalar.select v945 c1_i32_517 c3_i32_515
  let v947 : BitVec 32 := Scalar.remsi v934 v946
  let c0_i32_518 : BitVec 32 := 0#32
  let v948 : BitVec 1 := Scalar.cmpi .ne v947 c0_i32_518
  let c0_i32_519 : BitVec 32 := 0#32
  let v949 : BitVec 1 := Scalar.cmpi .slt v947 c0_i32_519
  let c0_i32_520 : BitVec 32 := 0#32
  let v950 : BitVec 1 := Scalar.cmpi .slt v946 c0_i32_520
  let v951 : BitVec 1 := Scalar.xori v949 v950
  let v952 : BitVec 1 := Scalar.andi v951 v948
  let v953 : BitVec 32 := Scalar.addi v947 v946
  let v954 : BitVec 32 := Scalar.select v952 v953 v947
  let c3_i32_521 : BitVec 32 := 3#32
  let v955 : BitVec 32 := Scalar.muli c3_i32_521 v954
  let c30_i32_522 : BitVec 32 := 30#32
  let v956 : BitVec 32 := Scalar.addi c30_i32_522 v955
  let c3_i32_523 : BitVec 32 := 3#32
  let v957 : BitVec 32 := Scalar.divsi v934 c3_i32_523
  let c0_i32_524 : BitVec 32 := 0#32
  let v958 : BitVec 1 := Scalar.cmpi .sgt v934 c0_i32_524
  let v959 : BitVec 32 := Scalar.extui v958
  let c0_i32_525 : BitVec 32 := 0#32
  let v960 : BitVec 1 := Scalar.cmpi .slt v934 c0_i32_525
  let v961 : BitVec 32 := Scalar.extui v960
  let v962 : BitVec 32 := Scalar.subi v959 v961
  let c0_i32_526 : BitVec 32 := 0#32
  let v963 : BitVec 1 := Scalar.cmpi .sgt c3_i32_523 c0_i32_526
  let v964 : BitVec 32 := Scalar.extui v963
  let c0_i32_527 : BitVec 32 := 0#32
  let v965 : BitVec 1 := Scalar.cmpi .slt c3_i32_523 c0_i32_527
  let v966 : BitVec 32 := Scalar.extui v965
  let v967 : BitVec 32 := Scalar.subi v964 v966
  let v968 : BitVec 1 := Scalar.cmpi .ne v962 v967
  let v969 : BitVec 32 := Scalar.remsi v934 c3_i32_523
  let c0_i32_528 : BitVec 32 := 0#32
  let v970 : BitVec 1 := Scalar.cmpi .ne v969 c0_i32_528
  pure ⟨v934, v939, v943, v944, v956, v957, v968, v970⟩

noncomputable def q_part27 (i : grid0.Coords) (v1 : BitVec 32) (v924 : BitVec 32) (v934 : BitVec 32) (v939 : BitVec 32) (v943 : BitVec 32) (v944 : BitVec 1) (v956 : BitVec 32) (v957 : BitVec 32) (v968 : BitVec 1) (v970 : BitVec 1) :
    Prog (TpuEff nD τ sig (Elt F) Λ₀ (.scVector ((i 0).castLE hcore0) ((i 1).castLE hsub0))) (Σ' (v996 : BitVec 32) (c16_i32_545 : BitVec 32) (v997 : BitVec 32) (v1002 : BitVec 32), BitVec 32) := do
  let v971 : BitVec 1 := Scalar.andi v968 v970
  let c1_i32_529 : BitVec 32 := 1#32
  let v972 : BitVec 32 := Scalar.subi v957 c1_i32_529
  let v973 : BitVec 32 := Scalar.select v971 v972 v957
  let v974 : BitVec 32 := Scalar.addi v956 v973
  let c3_i32_530 : BitVec 32 := 3#32
  let v975 : BitVec 32 := Scalar.muli c3_i32_530 v934
  let c14_i32_531 : BitVec 32 := 14#32
  let v976 : BitVec 32 := Scalar.addi v975 c14_i32_531
  let v977 : BitVec 32 := Scalar.select v944 v974 v976
  let c60_i32_532 : BitVec 32 := 60#32
  let v978 : BitVec 32 := Scalar.muli v924 c60_i32_532
  let v979 : BitVec 32 := Scalar.addi v978 v943
  let c4_i32_533 : BitVec 32 := 4#32
  let v980 : BitVec 32 := Scalar.muli v979 c4_i32_533
  let c2_i32_534 : BitVec 32 := 2#32
  let v981 : BitVec 32 := Scalar.addi v980 c2_i32_534
  let c65536_i32_535 : BitVec 32 := 65536#32
  let v982 : BitVec 32 := Scalar.muli v981 c65536_i32_535
  let c60_i32_536 : BitVec 32 := 60#32
  let v983 : BitVec 32 := Scalar.muli v924 c60_i32_536
  let v984 : BitVec 32 := Scalar.addi v983 v977
  let c4_i32_537 : BitVec 32 := 4#32
  let v985 : BitVec 32 := Scalar.muli v984 c4_i32_537
  let c2_i32_538 : BitVec 32 := 2#32
  let v986 : BitVec 32 := Scalar.addi v985 c2_i32_538
  let c65536_i32_539 : BitVec 32 := 65536#32
  let v987 : BitVec 32 := Scalar.muli v986 c65536_i32_539
  let v988 : BitVec 32 := v939
  let c0_i32_540 : BitVec 32 := 0#32
  let v989 : Memref sig .scVector .shared S1x65536 .f32 := shW.slice (Rect.unit (s := S16x65536) (k0_off1 i) S1x65536.size (k0_off1_inb i)) (fun _ => rfl)
  let v990 : Memref sig .scVector .shared S65536 .f32 := rowM i
  let v991 : Memref sig .scVector .hbm S65536 .f32 := (xw4 i)
  Prog.lift (.enqueueDma v991 (.here v990) (.dma cc0_scratch2.sem) (View.wordExact_bits rfl) ((View.wordExact_bits rfl).reshape _ _) ⟨Or.inl rfl, trivial⟩)
  let c0_i32_541 : BitVec 32 := 0#32
  let v992 : Memref sig .scVector .shared S1x65536 .f32 := shW.slice (Rect.unit (s := S16x65536) (k0_off1 i) S1x65536.size (k0_off1_inb i)) (fun _ => rfl)
  let v993 : Memref sig .scVector .shared S65536 .f32 := rowM i
  let c0_i32_542 : BitVec 32 := 0#32
  let v994 : Memref sig .scVector .hbm S65536 .f32 := xW.slice (Rect.unit (s := S16777216) ![0] S65536.size inb_S16777216_S65536_0) (fun _ => rfl)
  Prog.lift (.waitDma2 cc0_scratch2.sem v994 v993 (View.wordExact_bits rfl) ((View.wordExact_bits rfl).reshape _ _))
  let c2_i32_543 : BitVec 32 := 2#32
  let v995 : BitVec 32 := Scalar.muli c2_i32_543 v1
  let c0_i32_544 : BitVec 32 := 0#32
  let v996 : BitVec 32 := Scalar.addi v995 c0_i32_544
  let c16_i32_545 : BitVec 32 := 16#32
  let v997 : BitVec 32 := Scalar.divsi v996 c16_i32_545
  let c0_i32_546 : BitVec 32 := 0#32
  let v998 : BitVec 1 := Scalar.cmpi .sgt v996 c0_i32_546
  let v999 : BitVec 32 := Scalar.extui v998
  let c0_i32_547 : BitVec 32 := 0#32
  let v1000 : BitVec 1 := Scalar.cmpi .slt v996 c0_i32_547
  let v1001 : BitVec 32 := Scalar.extui v1000
  let v1002 : BitVec 32 := Scalar.subi v999 v1001
  let c0_i32_548 : BitVec 32 := 0#32
  let v1003 : BitVec 1 := Scalar.cmpi .sgt c16_i32_545 c0_i32_548
  let v1004 : BitVec 32 := Scalar.extui v1003
  let c0_i32_549 : BitVec 32 := 0#32
  let v1005 : BitVec 1 := Scalar.cmpi .slt c16_i32_545 c0_i32_549
  let v1006 : BitVec 32 := Scalar.extui v1005
  let v1007 : BitVec 32 := Scalar.subi v1004 v1006
  pure ⟨v996, c16_i32_545, v997, v1002, v1007⟩

noncomputable def q_part28 (i : grid0.Coords) (v996 : BitVec 32) (c16_i32_545 : BitVec 32) (v997 : BitVec 32) (v1002 : BitVec 32) (v1007 : BitVec 32) :
    Prog (TpuEff nD τ sig (Elt F) Λ₀ (.scVector ((i 0).castLE hcore0) ((i 1).castLE hsub0))) (Σ' (v1013 : BitVec 32) (v1023 : BitVec 32) (v1032 : BitVec 32) (v1033 : BitVec 1), BitVec 32) := do
  let v1008 : BitVec 1 := Scalar.cmpi .ne v1002 v1007
  let v1009 : BitVec 32 := Scalar.remsi v996 c16_i32_545
  let c0_i32_550 : BitVec 32 := 0#32
  let v1010 : BitVec 1 := Scalar.cmpi .ne v1009 c0_i32_550
  let v1011 : BitVec 1 := Scalar.andi v1008 v1010
  let c1_i32_551 : BitVec 32 := 1#32
  let v1012 : BitVec 32 := Scalar.subi v997 c1_i32_551
  let v1013 : BitVec 32 := Scalar.select v1011 v1012 v997
  let c16_i32_552 : BitVec 32 := 16#32
  let c0_i32_553 : BitVec 32 := 0#32
  let v1014 : BitVec 1 := Scalar.cmpi .eq c16_i32_552 c0_i32_553
  let c1_i32_554 : BitVec 32 := 1#32
  let v1015 : BitVec 32 := Scalar.select v1014 c1_i32_554 c16_i32_552
  let v1016 : BitVec 32 := Scalar.remsi v996 v1015
  let c0_i32_555 : BitVec 32 := 0#32
  let v1017 : BitVec 1 := Scalar.cmpi .ne v1016 c0_i32_555
  let c0_i32_556 : BitVec 32 := 0#32
  let v1018 : BitVec 1 := Scalar.cmpi .slt v1016 c0_i32_556
  let c0_i32_557 : BitVec 32 := 0#32
  let v1019 : BitVec 1 := Scalar.cmpi .slt v1015 c0_i32_557
  let v1020 : BitVec 1 := Scalar.xori v1018 v1019
  let v1021 : BitVec 1 := Scalar.andi v1020 v1017
  let v1022 : BitVec 32 := Scalar.addi v1016 v1015
  let v1023 : BitVec 32 := Scalar.select v1021 v1022 v1016
  let c16_i32_558 : BitVec 32 := 16#32
  let v1024 : BitVec 32 := Scalar.muli v1013 c16_i32_558
  let v1025 : BitVec 32 := Scalar.addi v1024 v1023
  let c4_i32_559 : BitVec 32 := 4#32
  let v1026 : BitVec 32 := Scalar.muli v1025 c4_i32_559
  let c2_i32_560 : BitVec 32 := 2#32
  let v1027 : BitVec 32 := Scalar.addi v1026 c2_i32_560
  let c65536_i32_561 : BitVec 32 := 65536#32
  let v1028 : BitVec 32 := Scalar.muli v1027 c65536_i32_561
  let c9_i32_562 : BitVec 32 := 9#32
  let v1029 : BitVec 1 := Scalar.cmpi .slt v1023 c9_i32_562
  let c3_i32_563 : BitVec 32 := 3#32
  let v1030 : BitVec 32 := Scalar.muli c3_i32_563 v1023
  let c16_i32_564 : BitVec 32 := 16#32
  let v1031 : BitVec 32 := Scalar.subi v1030 c16_i32_564
  let v1032 : BitVec 32 := Scalar.select v1029 v1023 v1031
  let c9_i32_565 : BitVec 32 := 9#32
  let v1033 : BitVec 1 := Scalar.cmpi .slt v1023 c9_i32_565
  let c3_i32_566 : BitVec 32 := 3#32
  let c0_i32_567 : BitVec 32 := 0#32
  let v1034 : BitVec 1 := Scalar.cmpi .eq c3_i32_566 c0_i32_567
  let c1_i32_568 : BitVec 32 := 1#32
  let v1035 : BitVec 32 := Scalar.select v1034 c1_i32_568 c3_i32_566
  let v1036 : BitVec 32 := Scalar.remsi v1023 v1035
  let c0_i32_569 : BitVec 32 := 0#32
  let v1037 : BitVec 1 := Scalar.cmpi .ne v1036 c0_i32_569
  let c0_i32_570 : BitVec 32 := 0#32
  let v1038 : BitVec 1 := Scalar.cmpi .slt v1036 c0_i32_570
  let c0_i32_571 : BitVec 32 := 0#32
  let v1039 : BitVec 1 := Scalar.cmpi .slt v1035 c0_i32_571
  let v1040 : BitVec 1 := Scalar.xori v1038 v1039
  let v1041 : BitVec 1 := Scalar.andi v1040 v1037
  let v1042 : BitVec 32 := Scalar.addi v1036 v1035
  let v1043 : BitVec 32 := Scalar.select v1041 v1042 v1036
  let c3_i32_572 : BitVec 32 := 3#32
  let v1044 : BitVec 32 := Scalar.muli c3_i32_572 v1043
  pure ⟨v1013, v1023, v1032, v1033, v1044⟩

noncomputable def q_part29 (i : grid0.Coords) (v1013 : BitVec 32) (v1023 : BitVec 32) (v1032 : BitVec 32) (v1033 : BitVec 1) (v1044 : BitVec 32) :
    Prog (TpuEff nD τ sig (Elt F) Λ₀ (.scVector ((i 0).castLE hcore0) ((i 1).castLE hsub0))) (PUnit) := do
  let c30_i32_573 : BitVec 32 := 30#32
  let v1045 : BitVec 32 := Scalar.addi c30_i32_573 v1044
  let c3_i32_574 : BitVec 32 := 3#32
  let v1046 : BitVec 32 := Scalar.divsi v1023 c3_i32_574
  let c0_i32_575 : BitVec 32 := 0#32
  let v1047 : BitVec 1 := Scalar.cmpi .sgt v1023 c0_i32_575
  let v1048 : BitVec 32 := Scalar.extui v1047
  let c0_i32_576 : BitVec 32 := 0#32
  let v1049 : BitVec 1 := Scalar.cmpi .slt v1023 c0_i32_576
  let v1050 : BitVec 32 := Scalar.extui v1049
  let v1051 : BitVec 32 := Scalar.subi v1048 v1050
  let c0_i32_577 : BitVec 32 := 0#32
  let v1052 : BitVec 1 := Scalar.cmpi .sgt c3_i32_574 c0_i32_577
  let v1053 : BitVec 32 := Scalar.extui v1052
  let c0_i32_578 : BitVec 32 := 0#32
  let v1054 : BitVec 1 := Scalar.cmpi .slt c3_i32_574 c0_i32_578
  let v1055 : BitVec 32 := Scalar.extui v1054
  let v1056 : BitVec 32 := Scalar.subi v1053 v1055
  let v1057 : BitVec 1 := Scalar.cmpi .ne v1051 v1056
  let v1058 : BitVec 32 := Scalar.remsi v1023 c3_i32_574
  let c0_i32_579 : BitVec 32 := 0#32
  let v1059 : BitVec 1 := Scalar.cmpi .ne v1058 c0_i32_579
  let v1060 : BitVec 1 := Scalar.andi v1057 v1059
  let c1_i32_580 : BitVec 32 := 1#32
  let v1061 : BitVec 32 := Scalar.subi v1046 c1_i32_580
  let v1062 : BitVec 32 := Scalar.select v1060 v1061 v1046
  let v1063 : BitVec 32 := Scalar.addi v1045 v1062
  let c3_i32_581 : BitVec 32 := 3#32
  let v1064 : BitVec 32 := Scalar.muli c3_i32_581 v1023
  let c14_i32_582 : BitVec 32 := 14#32
  let v1065 : BitVec 32 := Scalar.addi v1064 c14_i32_582
  let v1066 : BitVec 32 := Scalar.select v1033 v1063 v1065
  let c60_i32_583 : BitVec 32 := 60#32
  let v1067 : BitVec 32 := Scalar.muli v1013 c60_i32_583
  let v1068 : BitVec 32 := Scalar.addi v1067 v1032
  let c4_i32_584 : BitVec 32 := 4#32
  let v1069 : BitVec 32 := Scalar.muli v1068 c4_i32_584
  let c2_i32_585 : BitVec 32 := 2#32
  let v1070 : BitVec 32 := Scalar.addi v1069 c2_i32_585
  let c65536_i32_586 : BitVec 32 := 65536#32
  let v1071 : BitVec 32 := Scalar.muli v1070 c65536_i32_586
  let c60_i32_587 : BitVec 32 := 60#32
  let v1072 : BitVec 32 := Scalar.muli v1013 c60_i32_587
  let v1073 : BitVec 32 := Scalar.addi v1072 v1066
  let c4_i32_588 : BitVec 32 := 4#32
  let v1074 : BitVec 32 := Scalar.muli v1073 c4_i32_588
  let c2_i32_589 : BitVec 32 := 2#32
  let v1075 : BitVec 32 := Scalar.addi v1074 c2_i32_589
  let c65536_i32_590 : BitVec 32 := 65536#32
  let v1076 : BitVec 32 := Scalar.muli v1075 c65536_i32_590
  let v1077 : BitVec 32 := v1071
  let v1078 : Memref sig .scVector .hbm S65536 .f32 := (pc18 i)
  let c0_i32_591 : BitVec 32 := 0#32
  let v1079 : Memref sig .scVector .shared S1x65536 .f32 := shW.slice (Rect.unit (s := S16x65536) (k0_off1 i) S1x65536.size (k0_off1_inb i)) (fun _ => rfl)
  let v1080 : Memref sig .scVector .shared S65536 .f32 := rowM i
  Prog.lift (.enqueueDma v1080 (.here v1078) (.dma cc0_scratch4.sem) ((View.wordExact_bits rfl).reshape _ _) (View.wordExact_bits rfl) ⟨Or.inl rfl, trivial⟩)
  let v1081 : BitVec 32 := v1076
  let v1082 : Memref sig .scVector .hbm S65536 .f32 := (pc19 i)
  let c0_i32_592 : BitVec 32 := 0#32
  let v1083 : Memref sig .scVector .shared S1x65536 .f32 := shW.slice (Rect.unit (s := S16x65536) (k0_off1 i) S1x65536.size (k0_off1_inb i)) (fun _ => rfl)
  pure ⟨⟩

noncomputable def q_part30 (i : grid0.Coords) (v1 : BitVec 32) :
    Prog (TpuEff nD τ sig (Elt F) Λ₀ (.scVector ((i 0).castLE hcore0) ((i 1).castLE hsub0))) (Σ' (v1107 : BitVec 32) (v1117 : BitVec 32) (v1119 : BitVec 32), BitVec 32) := do
  let v1083 : Memref sig .scVector .shared S1x65536 .f32 := shW.slice (Rect.unit (s := S16x65536) (k0_off1 i) S1x65536.size (k0_off1_inb i)) (fun _ => rfl)
  let v1084 : Memref sig .scVector .shared S65536 .f32 := rowM i
  let v1082 : Memref sig .scVector .hbm S65536 .f32 := (pc19 i)
  Prog.lift (.enqueueDma v1084 (.here v1082) (.dma cc0_scratch4.sem) ((View.wordExact_bits rfl).reshape _ _) (View.wordExact_bits rfl) ⟨Or.inl rfl, trivial⟩)
  let c0_i32_593 : BitVec 32 := 0#32
  let v1085 : Memref sig .scVector .hbm S65536 .f32 := oW.slice (Rect.unit (s := S62914560) ![0] S65536.size inb_S62914560_S65536_0) (fun _ => rfl)
  let c0_i32_594 : BitVec 32 := 0#32
  let v1086 : Memref sig .scVector .hbm S65536 .f32 := oW.slice (Rect.unit (s := S62914560) ![0] S65536.size inb_S62914560_S65536_0) (fun _ => rfl)
  Prog.lift (.waitDma2 cc0_scratch5.sem bW v1086 (Memref.isWhole_whole _).wordExact (View.wordExact_bits rfl))
  let c0_i32_595 : BitVec 32 := 0#32
  let v1087 : Memref sig .scVector .hbm S65536 .f32 := oW.slice (Rect.unit (s := S62914560) ![0] S65536.size inb_S62914560_S65536_0) (fun _ => rfl)
  let c0_i32_596 : BitVec 32 := 0#32
  let v1088 : Memref sig .scVector .hbm S65536 .f32 := oW.slice (Rect.unit (s := S62914560) ![0] S65536.size inb_S62914560_S65536_0) (fun _ => rfl)
  Prog.lift (.waitDma2 cc0_scratch5.sem bW v1088 (Memref.isWhole_whole _).wordExact (View.wordExact_bits rfl))
  let c2_i32_597 : BitVec 32 := 2#32
  let v1089 : BitVec 32 := Scalar.muli c2_i32_597 v1
  let c0_i32_598 : BitVec 32 := 0#32
  let v1090 : BitVec 32 := Scalar.addi v1089 c0_i32_598
  let c16_i32_599 : BitVec 32 := 16#32
  let v1091 : BitVec 32 := Scalar.divsi v1090 c16_i32_599
  let c0_i32_600 : BitVec 32 := 0#32
  let v1092 : BitVec 1 := Scalar.cmpi .sgt v1090 c0_i32_600
  let v1093 : BitVec 32 := Scalar.extui v1092
  let c0_i32_601 : BitVec 32 := 0#32
  let v1094 : BitVec 1 := Scalar.cmpi .slt v1090 c0_i32_601
  let v1095 : BitVec 32 := Scalar.extui v1094
  let v1096 : BitVec 32 := Scalar.subi v1093 v1095
  let c0_i32_602 : BitVec 32 := 0#32
  let v1097 : BitVec 1 := Scalar.cmpi .sgt c16_i32_599 c0_i32_602
  let v1098 : BitVec 32 := Scalar.extui v1097
  let c0_i32_603 : BitVec 32 := 0#32
  let v1099 : BitVec 1 := Scalar.cmpi .slt c16_i32_599 c0_i32_603
  let v1100 : BitVec 32 := Scalar.extui v1099
  let v1101 : BitVec 32 := Scalar.subi v1098 v1100
  let v1102 : BitVec 1 := Scalar.cmpi .ne v1096 v1101
  let v1103 : BitVec 32 := Scalar.remsi v1090 c16_i32_599
  let c0_i32_604 : BitVec 32 := 0#32
  let v1104 : BitVec 1 := Scalar.cmpi .ne v1103 c0_i32_604
  let v1105 : BitVec 1 := Scalar.andi v1102 v1104
  let c1_i32_605 : BitVec 32 := 1#32
  let v1106 : BitVec 32 := Scalar.subi v1091 c1_i32_605
  let v1107 : BitVec 32 := Scalar.select v1105 v1106 v1091
  let c16_i32_606 : BitVec 32 := 16#32
  let c0_i32_607 : BitVec 32 := 0#32
  let v1108 : BitVec 1 := Scalar.cmpi .eq c16_i32_606 c0_i32_607
  let c1_i32_608 : BitVec 32 := 1#32
  let v1109 : BitVec 32 := Scalar.select v1108 c1_i32_608 c16_i32_606
  let v1110 : BitVec 32 := Scalar.remsi v1090 v1109
  let c0_i32_609 : BitVec 32 := 0#32
  let v1111 : BitVec 1 := Scalar.cmpi .ne v1110 c0_i32_609
  let c0_i32_610 : BitVec 32 := 0#32
  let v1112 : BitVec 1 := Scalar.cmpi .slt v1110 c0_i32_610
  let c0_i32_611 : BitVec 32 := 0#32
  let v1113 : BitVec 1 := Scalar.cmpi .slt v1109 c0_i32_611
  let v1114 : BitVec 1 := Scalar.xori v1112 v1113
  let v1115 : BitVec 1 := Scalar.andi v1114 v1111
  let v1116 : BitVec 32 := Scalar.addi v1110 v1109
  let v1117 : BitVec 32 := Scalar.select v1115 v1116 v1110
  let c16_i32_612 : BitVec 32 := 16#32
  let v1118 : BitVec 32 := Scalar.muli v1107 c16_i32_612
  let v1119 : BitVec 32 := Scalar.addi v1118 v1117
  let c4_i32_613 : BitVec 32 := 4#32
  pure ⟨v1107, v1117, v1119, c4_i32_613⟩

noncomputable def q_part31 (i : grid0.Coords) (v1117 : BitVec 32) (v1119 : BitVec 32) (c4_i32_613 : BitVec 32) :
    Prog (TpuEff nD τ sig (Elt F) Λ₀ (.scVector ((i 0).castLE hcore0) ((i 1).castLE hsub0))) (Σ' (v1122 : BitVec 32) (v1126 : BitVec 32) (v1127 : BitVec 1) (v1157 : BitVec 32), BitVec 32) := do
  let v1120 : BitVec 32 := Scalar.muli v1119 c4_i32_613
  let c3_i32_614 : BitVec 32 := 3#32
  let v1121 : BitVec 32 := Scalar.addi v1120 c3_i32_614
  let c65536_i32_615 : BitVec 32 := 65536#32
  let v1122 : BitVec 32 := Scalar.muli v1121 c65536_i32_615
  let c9_i32_616 : BitVec 32 := 9#32
  let v1123 : BitVec 1 := Scalar.cmpi .slt v1117 c9_i32_616
  let c3_i32_617 : BitVec 32 := 3#32
  let v1124 : BitVec 32 := Scalar.muli c3_i32_617 v1117
  let c16_i32_618 : BitVec 32 := 16#32
  let v1125 : BitVec 32 := Scalar.subi v1124 c16_i32_618
  let v1126 : BitVec 32 := Scalar.select v1123 v1117 v1125
  let c9_i32_619 : BitVec 32 := 9#32
  let v1127 : BitVec 1 := Scalar.cmpi .slt v1117 c9_i32_619
  let c3_i32_620 : BitVec 32 := 3#32
  let c0_i32_621 : BitVec 32 := 0#32
  let v1128 : BitVec 1 := Scalar.cmpi .eq c3_i32_620 c0_i32_621
  let c1_i32_622 : BitVec 32 := 1#32
  let v1129 : BitVec 32 := Scalar.select v1128 c1_i32_622 c3_i32_620
  let v1130 : BitVec 32 := Scalar.remsi v1117 v1129
  let c0_i32_623 : BitVec 32 := 0#32
  let v1131 : BitVec 1 := Scalar.cmpi .ne v1130 c0_i32_623
  let c0_i32_624 : BitVec 32 := 0#32
  let v1132 : BitVec 1 := Scalar.cmpi .slt v1130 c0_i32_624
  let c0_i32_625 : BitVec 32 := 0#32
  let v1133 : BitVec 1 := Scalar.cmpi .slt v1129 c0_i32_625
  let v1134 : BitVec 1 := Scalar.xori v1132 v1133
  let v1135 : BitVec 1 := Scalar.andi v1134 v1131
  let v1136 : BitVec 32 := Scalar.addi v1130 v1129
  let v1137 : BitVec 32 := Scalar.select v1135 v1136 v1130
  let c3_i32_626 : BitVec 32 := 3#32
  let v1138 : BitVec 32 := Scalar.muli c3_i32_626 v1137
  let c30_i32_627 : BitVec 32 := 30#32
  let v1139 : BitVec 32 := Scalar.addi c30_i32_627 v1138
  let c3_i32_628 : BitVec 32 := 3#32
  let v1140 : BitVec 32 := Scalar.divsi v1117 c3_i32_628
  let c0_i32_629 : BitVec 32 := 0#32
  let v1141 : BitVec 1 := Scalar.cmpi .sgt v1117 c0_i32_629
  let v1142 : BitVec 32 := Scalar.extui v1141
  let c0_i32_630 : BitVec 32 := 0#32
  let v1143 : BitVec 1 := Scalar.cmpi .slt v1117 c0_i32_630
  let v1144 : BitVec 32 := Scalar.extui v1143
  let v1145 : BitVec 32 := Scalar.subi v1142 v1144
  let c0_i32_631 : BitVec 32 := 0#32
  let v1146 : BitVec 1 := Scalar.cmpi .sgt c3_i32_628 c0_i32_631
  let v1147 : BitVec 32 := Scalar.extui v1146
  let c0_i32_632 : BitVec 32 := 0#32
  let v1148 : BitVec 1 := Scalar.cmpi .slt c3_i32_628 c0_i32_632
  let v1149 : BitVec 32 := Scalar.extui v1148
  let v1150 : BitVec 32 := Scalar.subi v1147 v1149
  let v1151 : BitVec 1 := Scalar.cmpi .ne v1145 v1150
  let v1152 : BitVec 32 := Scalar.remsi v1117 c3_i32_628
  let c0_i32_633 : BitVec 32 := 0#32
  let v1153 : BitVec 1 := Scalar.cmpi .ne v1152 c0_i32_633
  let v1154 : BitVec 1 := Scalar.andi v1151 v1153
  let c1_i32_634 : BitVec 32 := 1#32
  let v1155 : BitVec 32 := Scalar.subi v1140 c1_i32_634
  let v1156 : BitVec 32 := Scalar.select v1154 v1155 v1140
  let v1157 : BitVec 32 := Scalar.addi v1139 v1156
  let c3_i32_635 : BitVec 32 := 3#32
  pure ⟨v1122, v1126, v1127, v1157, c3_i32_635⟩

noncomputable def q_part32 (i : grid0.Coords) (v1 : BitVec 32) (v1107 : BitVec 32) (v1117 : BitVec 32) (v1122 : BitVec 32) (v1126 : BitVec 32) (v1127 : BitVec 1) (v1157 : BitVec 32) (c3_i32_635 : BitVec 32) :
    Prog (TpuEff nD τ sig (Elt F) Λ₀ (.scVector ((i 0).castLE hcore0) ((i 1).castLE hsub0))) (Σ' (v1177 : BitVec 32) (v1194 : BitVec 32), BitVec 32) := do
  let v1158 : BitVec 32 := Scalar.muli c3_i32_635 v1117
  let c14_i32_636 : BitVec 32 := 14#32
  let v1159 : BitVec 32 := Scalar.addi v1158 c14_i32_636
  let v1160 : BitVec 32 := Scalar.select v1127 v1157 v1159
  let c60_i32_637 : BitVec 32 := 60#32
  let v1161 : BitVec 32 := Scalar.muli v1107 c60_i32_637
  let v1162 : BitVec 32 := Scalar.addi v1161 v1126
  let c4_i32_638 : BitVec 32 := 4#32
  let v1163 : BitVec 32 := Scalar.muli v1162 c4_i32_638
  let c3_i32_639 : BitVec 32 := 3#32
  let v1164 : BitVec 32 := Scalar.addi v1163 c3_i32_639
  let c65536_i32_640 : BitVec 32 := 65536#32
  let v1165 : BitVec 32 := Scalar.muli v1164 c65536_i32_640
  let c60_i32_641 : BitVec 32 := 60#32
  let v1166 : BitVec 32 := Scalar.muli v1107 c60_i32_641
  let v1167 : BitVec 32 := Scalar.addi v1166 v1160
  let c4_i32_642 : BitVec 32 := 4#32
  let v1168 : BitVec 32 := Scalar.muli v1167 c4_i32_642
  let c3_i32_643 : BitVec 32 := 3#32
  let v1169 : BitVec 32 := Scalar.addi v1168 c3_i32_643
  let c65536_i32_644 : BitVec 32 := 65536#32
  let v1170 : BitVec 32 := Scalar.muli v1169 c65536_i32_644
  let v1171 : BitVec 32 := v1122
  let v1172 : Memref sig .scVector .hbm S65536 .f32 := (xw5 i)
  let v1173 : Memref sig .scVector .hbm S65536 .f32 := (xw5 i)
  Prog.lift (.enqueueDma v1173 (.here bW) (.dma cc0_scratch3.sem) (View.wordExact_bits rfl) (Memref.isWhole_whole _).wordExact ⟨Or.inl rfl, trivial⟩)
  let c0_i32_645 : BitVec 32 := 0#32
  let v1174 : Memref sig .scVector .hbm S65536 .f32 := xW.slice (Rect.unit (s := S16777216) ![0] S65536.size inb_S16777216_S65536_0) (fun _ => rfl)
  let c0_i32_646 : BitVec 32 := 0#32
  let v1175 : Memref sig .scVector .hbm S65536 .f32 := xW.slice (Rect.unit (s := S16777216) ![0] S65536.size inb_S16777216_S65536_0) (fun _ => rfl)
  Prog.lift (.waitDma2 cc0_scratch3.sem v1175 bW (View.wordExact_bits rfl) (Memref.isWhole_whole _).wordExact)
  let c2_i32_647 : BitVec 32 := 2#32
  let v1176 : BitVec 32 := Scalar.muli c2_i32_647 v1
  let c0_i32_648 : BitVec 32 := 0#32
  let v1177 : BitVec 32 := Scalar.addi v1176 c0_i32_648
  let c16_i32_649 : BitVec 32 := 16#32
  let v1178 : BitVec 32 := Scalar.divsi v1177 c16_i32_649
  let c0_i32_650 : BitVec 32 := 0#32
  let v1179 : BitVec 1 := Scalar.cmpi .sgt v1177 c0_i32_650
  let v1180 : BitVec 32 := Scalar.extui v1179
  let c0_i32_651 : BitVec 32 := 0#32
  let v1181 : BitVec 1 := Scalar.cmpi .slt v1177 c0_i32_651
  let v1182 : BitVec 32 := Scalar.extui v1181
  let v1183 : BitVec 32 := Scalar.subi v1180 v1182
  let c0_i32_652 : BitVec 32 := 0#32
  let v1184 : BitVec 1 := Scalar.cmpi .sgt c16_i32_649 c0_i32_652
  let v1185 : BitVec 32 := Scalar.extui v1184
  let c0_i32_653 : BitVec 32 := 0#32
  let v1186 : BitVec 1 := Scalar.cmpi .slt c16_i32_649 c0_i32_653
  let v1187 : BitVec 32 := Scalar.extui v1186
  let v1188 : BitVec 32 := Scalar.subi v1185 v1187
  let v1189 : BitVec 1 := Scalar.cmpi .ne v1183 v1188
  let v1190 : BitVec 32 := Scalar.remsi v1177 c16_i32_649
  let c0_i32_654 : BitVec 32 := 0#32
  let v1191 : BitVec 1 := Scalar.cmpi .ne v1190 c0_i32_654
  let v1192 : BitVec 1 := Scalar.andi v1189 v1191
  let c1_i32_655 : BitVec 32 := 1#32
  let v1193 : BitVec 32 := Scalar.subi v1178 c1_i32_655
  let v1194 : BitVec 32 := Scalar.select v1192 v1193 v1178
  let c16_i32_656 : BitVec 32 := 16#32
  pure ⟨v1177, v1194, c16_i32_656⟩

noncomputable def q_part33 (i : grid0.Coords) (v1177 : BitVec 32) (v1194 : BitVec 32) (c16_i32_656 : BitVec 32) :
    Prog (TpuEff nD τ sig (Elt F) Λ₀ (.scVector ((i 0).castLE hcore0) ((i 1).castLE hsub0))) (Σ' (v1204 : BitVec 32) (v1213 : BitVec 32) (v1214 : BitVec 1) (v1226 : BitVec 32) (c3_i32_678 : BitVec 32) (v1227 : BitVec 32) (v1229 : BitVec 32), BitVec 1) := do
  let c0_i32_657 : BitVec 32 := 0#32
  let v1195 : BitVec 1 := Scalar.cmpi .eq c16_i32_656 c0_i32_657
  let c1_i32_658 : BitVec 32 := 1#32
  let v1196 : BitVec 32 := Scalar.select v1195 c1_i32_658 c16_i32_656
  let v1197 : BitVec 32 := Scalar.remsi v1177 v1196
  let c0_i32_659 : BitVec 32 := 0#32
  let v1198 : BitVec 1 := Scalar.cmpi .ne v1197 c0_i32_659
  let c0_i32_660 : BitVec 32 := 0#32
  let v1199 : BitVec 1 := Scalar.cmpi .slt v1197 c0_i32_660
  let c0_i32_661 : BitVec 32 := 0#32
  let v1200 : BitVec 1 := Scalar.cmpi .slt v1196 c0_i32_661
  let v1201 : BitVec 1 := Scalar.xori v1199 v1200
  let v1202 : BitVec 1 := Scalar.andi v1201 v1198
  let v1203 : BitVec 32 := Scalar.addi v1197 v1196
  let v1204 : BitVec 32 := Scalar.select v1202 v1203 v1197
  let c16_i32_662 : BitVec 32 := 16#32
  let v1205 : BitVec 32 := Scalar.muli v1194 c16_i32_662
  let v1206 : BitVec 32 := Scalar.addi v1205 v1204
  let c4_i32_663 : BitVec 32 := 4#32
  let v1207 : BitVec 32 := Scalar.muli v1206 c4_i32_663
  let c3_i32_664 : BitVec 32 := 3#32
  let v1208 : BitVec 32 := Scalar.addi v1207 c3_i32_664
  let c65536_i32_665 : BitVec 32 := 65536#32
  let v1209 : BitVec 32 := Scalar.muli v1208 c65536_i32_665
  let c9_i32_666 : BitVec 32 := 9#32
  let v1210 : BitVec 1 := Scalar.cmpi .slt v1204 c9_i32_666
  let c3_i32_667 : BitVec 32 := 3#32
  let v1211 : BitVec 32 := Scalar.muli c3_i32_667 v1204
  let c16_i32_668 : BitVec 32 := 16#32
  let v1212 : BitVec 32 := Scalar.subi v1211 c16_i32_668
  let v1213 : BitVec 32 := Scalar.select v1210 v1204 v1212
  let c9_i32_669 : BitVec 32 := 9#32
  let v1214 : BitVec 1 := Scalar.cmpi .slt v1204 c9_i32_669
  let c3_i32_670 : BitVec 32 := 3#32
  let c0_i32_671 : BitVec 32 := 0#32
  let v1215 : BitVec 1 := Scalar.cmpi .eq c3_i32_670 c0_i32_671
  let c1_i32_672 : BitVec 32 := 1#32
  let v1216 : BitVec 32 := Scalar.select v1215 c1_i32_672 c3_i32_670
  let v1217 : BitVec 32 := Scalar.remsi v1204 v1216
  let c0_i32_673 : BitVec 32 := 0#32
  let v1218 : BitVec 1 := Scalar.cmpi .ne v1217 c0_i32_673
  let c0_i32_674 : BitVec 32 := 0#32
  let v1219 : BitVec 1 := Scalar.cmpi .slt v1217 c0_i32_674
  let c0_i32_675 : BitVec 32 := 0#32
  let v1220 : BitVec 1 := Scalar.cmpi .slt v1216 c0_i32_675
  let v1221 : BitVec 1 := Scalar.xori v1219 v1220
  let v1222 : BitVec 1 := Scalar.andi v1221 v1218
  let v1223 : BitVec 32 := Scalar.addi v1217 v1216
  let v1224 : BitVec 32 := Scalar.select v1222 v1223 v1217
  let c3_i32_676 : BitVec 32 := 3#32
  let v1225 : BitVec 32 := Scalar.muli c3_i32_676 v1224
  let c30_i32_677 : BitVec 32 := 30#32
  let v1226 : BitVec 32 := Scalar.addi c30_i32_677 v1225
  let c3_i32_678 : BitVec 32 := 3#32
  let v1227 : BitVec 32 := Scalar.divsi v1204 c3_i32_678
  let c0_i32_679 : BitVec 32 := 0#32
  let v1228 : BitVec 1 := Scalar.cmpi .sgt v1204 c0_i32_679
  let v1229 : BitVec 32 := Scalar.extui v1228
  let c0_i32_680 : BitVec 32 := 0#32
  let v1230 : BitVec 1 := Scalar.cmpi .slt v1204 c0_i32_680
  pure ⟨v1204, v1213, v1214, v1226, c3_i32_678, v1227, v1229, v1230⟩

noncomputable def q_part34 (i : grid0.Coords) (v1194 : BitVec 32) (v1204 : BitVec 32) (v1213 : BitVec 32) (v1214 : BitVec 1) (v1226 : BitVec 32) (c3_i32_678 : BitVec 32) (v1227 : BitVec 32) (v1229 : BitVec 32) (v1230 : BitVec 1) :
    Prog (TpuEff nD τ sig (Elt F) Λ₀ (.scVector ((i 0).castLE hcore0) ((i 1).castLE hsub0))) (PUnit) := do
  let v1231 : BitVec 32 := Scalar.extui v1230
  let v1232 : BitVec 32 := Scalar.subi v1229 v1231
  let c0_i32_681 : BitVec 32 := 0#32
  let v1233 : BitVec 1 := Scalar.cmpi .sgt c3_i32_678 c0_i32_681
  let v1234 : BitVec 32 := Scalar.extui v1233
  let c0_i32_682 : BitVec 32 := 0#32
  let v1235 : BitVec 1 := Scalar.cmpi .slt c3_i32_678 c0_i32_682
  let v1236 : BitVec 32 := Scalar.extui v1235
  let v1237 : BitVec 32 := Scalar.subi v1234 v1236
  let v1238 : BitVec 1 := Scalar.cmpi .ne v1232 v1237
  let v1239 : BitVec 32 := Scalar.remsi v1204 c3_i32_678
  let c0_i32_683 : BitVec 32 := 0#32
  let v1240 : BitVec 1 := Scalar.cmpi .ne v1239 c0_i32_683
  let v1241 : BitVec 1 := Scalar.andi v1238 v1240
  let c1_i32_684 : BitVec 32 := 1#32
  let v1242 : BitVec 32 := Scalar.subi v1227 c1_i32_684
  let v1243 : BitVec 32 := Scalar.select v1241 v1242 v1227
  let v1244 : BitVec 32 := Scalar.addi v1226 v1243
  let c3_i32_685 : BitVec 32 := 3#32
  let v1245 : BitVec 32 := Scalar.muli c3_i32_685 v1204
  let c14_i32_686 : BitVec 32 := 14#32
  let v1246 : BitVec 32 := Scalar.addi v1245 c14_i32_686
  let v1247 : BitVec 32 := Scalar.select v1214 v1244 v1246
  let c60_i32_687 : BitVec 32 := 60#32
  let v1248 : BitVec 32 := Scalar.muli v1194 c60_i32_687
  let v1249 : BitVec 32 := Scalar.addi v1248 v1213
  let c4_i32_688 : BitVec 32 := 4#32
  let v1250 : BitVec 32 := Scalar.muli v1249 c4_i32_688
  let c3_i32_689 : BitVec 32 := 3#32
  let v1251 : BitVec 32 := Scalar.addi v1250 c3_i32_689
  let c65536_i32_690 : BitVec 32 := 65536#32
  let v1252 : BitVec 32 := Scalar.muli v1251 c65536_i32_690
  let c60_i32_691 : BitVec 32 := 60#32
  let v1253 : BitVec 32 := Scalar.muli v1194 c60_i32_691
  let v1254 : BitVec 32 := Scalar.addi v1253 v1247
  let c4_i32_692 : BitVec 32 := 4#32
  let v1255 : BitVec 32 := Scalar.muli v1254 c4_i32_692
  let c3_i32_693 : BitVec 32 := 3#32
  let v1256 : BitVec 32 := Scalar.addi v1255 c3_i32_693
  let c65536_i32_694 : BitVec 32 := 65536#32
  let v1257 : BitVec 32 := Scalar.muli v1256 c65536_i32_694
  let v1258 : BitVec 32 := v1252
  let v1259 : Memref sig .scVector .hbm S65536 .f32 := (pc20 i)
  let v1260 : Memref sig .scVector .hbm S65536 .f32 := (pc20 i)
  Prog.lift (.enqueueDma bW (.here v1260) (.dma cc0_scratch5.sem) (Memref.isWhole_whole _).wordExact (View.wordExact_bits rfl) ⟨Or.inl rfl, trivial⟩)
  let v1261 : BitVec 32 := v1257
  let v1262 : Memref sig .scVector .hbm S65536 .f32 := (pc21 i)
  let v1263 : Memref sig .scVector .hbm S65536 .f32 := (pc21 i)
  Prog.lift (.enqueueDma bW (.here v1263) (.dma cc0_scratch5.sem) (Memref.isWhole_whole _).wordExact (View.wordExact_bits rfl) ⟨Or.inl rfl, trivial⟩)
  let c0_i32_695 : BitVec 32 := 0#32
  let v1264 : Memref sig .scVector .hbm S65536 .f32 := oW.slice (Rect.unit (s := S62914560) ![0] S65536.size inb_S62914560_S65536_0) (fun _ => rfl)
  let c0_i32_696 : BitVec 32 := 0#32
  let v1265 : Memref sig .scVector .shared S1x65536 .f32 := shW.slice (Rect.unit (s := S16x65536) (k0_off1 i) S1x65536.size (k0_off1_inb i)) (fun _ => rfl)
  let v1266 : Memref sig .scVector .shared S65536 .f32 := rowM i
  Prog.lift (.waitDma2 cc0_scratch4.sem v1266 v1264 ((View.wordExact_bits rfl).reshape _ _) (View.wordExact_bits rfl))
  let c0_i32_697 : BitVec 32 := 0#32
  let v1267 : Memref sig .scVector .hbm S65536 .f32 := oW.slice (Rect.unit (s := S62914560) ![0] S65536.size inb_S62914560_S65536_0) (fun _ => rfl)
  let c0_i32_698 : BitVec 32 := 0#32
  let v1268 : Memref sig .scVector .shared S1x65536 .f32 := shW.slice (Rect.unit (s := S16x65536) (k0_off1 i) S1x65536.size (k0_off1_inb i)) (fun _ => rfl)
  let v1269 : Memref sig .scVector .shared S65536 .f32 := rowM i
  pure ⟨⟩

noncomputable def q_part35 (i : grid0.Coords) (v1 : BitVec 32) :
    Prog (TpuEff nD τ sig (Elt F) Λ₀ (.scVector ((i 0).castLE hcore0) ((i 1).castLE hsub0))) (Σ' (v1288 : BitVec 32) (v1298 : BitVec 32) (v1303 : BitVec 32) (v1304 : BitVec 1), BitVec 32) := do
  let v1267 : Memref sig .scVector .hbm S65536 .f32 := oW.slice (Rect.unit (s := S62914560) ![0] S65536.size inb_S62914560_S65536_0) (fun _ => rfl)
  let v1268 : Memref sig .scVector .shared S1x65536 .f32 := shW.slice (Rect.unit (s := S16x65536) (k0_off1 i) S1x65536.size (k0_off1_inb i)) (fun _ => rfl)
  let v1269 : Memref sig .scVector .shared S65536 .f32 := rowM i
  Prog.lift (.waitDma2 cc0_scratch4.sem v1269 v1267 ((View.wordExact_bits rfl).reshape _ _) (View.wordExact_bits rfl))
  let c2_i32_699 : BitVec 32 := 2#32
  let v1270 : BitVec 32 := Scalar.muli c2_i32_699 v1
  let c1_i32_700 : BitVec 32 := 1#32
  let v1271 : BitVec 32 := Scalar.addi v1270 c1_i32_700
  let c16_i32_701 : BitVec 32 := 16#32
  let v1272 : BitVec 32 := Scalar.divsi v1271 c16_i32_701
  let c0_i32_702 : BitVec 32 := 0#32
  let v1273 : BitVec 1 := Scalar.cmpi .sgt v1271 c0_i32_702
  let v1274 : BitVec 32 := Scalar.extui v1273
  let c0_i32_703 : BitVec 32 := 0#32
  let v1275 : BitVec 1 := Scalar.cmpi .slt v1271 c0_i32_703
  let v1276 : BitVec 32 := Scalar.extui v1275
  let v1277 : BitVec 32 := Scalar.subi v1274 v1276
  let c0_i32_704 : BitVec 32 := 0#32
  let v1278 : BitVec 1 := Scalar.cmpi .sgt c16_i32_701 c0_i32_704
  let v1279 : BitVec 32 := Scalar.extui v1278
  let c0_i32_705 : BitVec 32 := 0#32
  let v1280 : BitVec 1 := Scalar.cmpi .slt c16_i32_701 c0_i32_705
  let v1281 : BitVec 32 := Scalar.extui v1280
  let v1282 : BitVec 32 := Scalar.subi v1279 v1281
  let v1283 : BitVec 1 := Scalar.cmpi .ne v1277 v1282
  let v1284 : BitVec 32 := Scalar.remsi v1271 c16_i32_701
  let c0_i32_706 : BitVec 32 := 0#32
  let v1285 : BitVec 1 := Scalar.cmpi .ne v1284 c0_i32_706
  let v1286 : BitVec 1 := Scalar.andi v1283 v1285
  let c1_i32_707 : BitVec 32 := 1#32
  let v1287 : BitVec 32 := Scalar.subi v1272 c1_i32_707
  let v1288 : BitVec 32 := Scalar.select v1286 v1287 v1272
  let c16_i32_708 : BitVec 32 := 16#32
  let c0_i32_709 : BitVec 32 := 0#32
  let v1289 : BitVec 1 := Scalar.cmpi .eq c16_i32_708 c0_i32_709
  let c1_i32_710 : BitVec 32 := 1#32
  let v1290 : BitVec 32 := Scalar.select v1289 c1_i32_710 c16_i32_708
  let v1291 : BitVec 32 := Scalar.remsi v1271 v1290
  let c0_i32_711 : BitVec 32 := 0#32
  let v1292 : BitVec 1 := Scalar.cmpi .ne v1291 c0_i32_711
  let c0_i32_712 : BitVec 32 := 0#32
  let v1293 : BitVec 1 := Scalar.cmpi .slt v1291 c0_i32_712
  let c0_i32_713 : BitVec 32 := 0#32
  let v1294 : BitVec 1 := Scalar.cmpi .slt v1290 c0_i32_713
  let v1295 : BitVec 1 := Scalar.xori v1293 v1294
  let v1296 : BitVec 1 := Scalar.andi v1295 v1292
  let v1297 : BitVec 32 := Scalar.addi v1291 v1290
  let v1298 : BitVec 32 := Scalar.select v1296 v1297 v1291
  let c16_i32_714 : BitVec 32 := 16#32
  let v1299 : BitVec 32 := Scalar.muli v1288 c16_i32_714
  let v1300 : BitVec 32 := Scalar.addi v1299 v1298
  let c4_i32_715 : BitVec 32 := 4#32
  let v1301 : BitVec 32 := Scalar.muli v1300 c4_i32_715
  let c0_i32_716 : BitVec 32 := 0#32
  let v1302 : BitVec 32 := Scalar.addi v1301 c0_i32_716
  let c65536_i32_717 : BitVec 32 := 65536#32
  let v1303 : BitVec 32 := Scalar.muli v1302 c65536_i32_717
  let c9_i32_718 : BitVec 32 := 9#32
  let v1304 : BitVec 1 := Scalar.cmpi .slt v1298 c9_i32_718
  let c3_i32_719 : BitVec 32 := 3#32
  let v1305 : BitVec 32 := Scalar.muli c3_i32_719 v1298
  let c16_i32_720 : BitVec 32 := 16#32
  let v1306 : BitVec 32 := Scalar.subi v1305 c16_i32_720
  pure ⟨v1288, v1298, v1303, v1304, v1306⟩

noncomputable def q_part36 (i : grid0.Coords) (v1288 : BitVec 32) (v1298 : BitVec 32) (v1304 : BitVec 1) (v1306 : BitVec 32) :
    Prog (TpuEff nD τ sig (Elt F) Λ₀ (.scVector ((i 0).castLE hcore0) ((i 1).castLE hsub0))) (Σ' (v1341 : BitVec 32), BitVec 32) := do
  let v1307 : BitVec 32 := Scalar.select v1304 v1298 v1306
  let c9_i32_721 : BitVec 32 := 9#32
  let v1308 : BitVec 1 := Scalar.cmpi .slt v1298 c9_i32_721
  let c3_i32_722 : BitVec 32 := 3#32
  let c0_i32_723 : BitVec 32 := 0#32
  let v1309 : BitVec 1 := Scalar.cmpi .eq c3_i32_722 c0_i32_723
  let c1_i32_724 : BitVec 32 := 1#32
  let v1310 : BitVec 32 := Scalar.select v1309 c1_i32_724 c3_i32_722
  let v1311 : BitVec 32 := Scalar.remsi v1298 v1310
  let c0_i32_725 : BitVec 32 := 0#32
  let v1312 : BitVec 1 := Scalar.cmpi .ne v1311 c0_i32_725
  let c0_i32_726 : BitVec 32 := 0#32
  let v1313 : BitVec 1 := Scalar.cmpi .slt v1311 c0_i32_726
  let c0_i32_727 : BitVec 32 := 0#32
  let v1314 : BitVec 1 := Scalar.cmpi .slt v1310 c0_i32_727
  let v1315 : BitVec 1 := Scalar.xori v1313 v1314
  let v1316 : BitVec 1 := Scalar.andi v1315 v1312
  let v1317 : BitVec 32 := Scalar.addi v1311 v1310
  let v1318 : BitVec 32 := Scalar.select v1316 v1317 v1311
  let c3_i32_728 : BitVec 32 := 3#32
  let v1319 : BitVec 32 := Scalar.muli c3_i32_728 v1318
  let c30_i32_729 : BitVec 32 := 30#32
  let v1320 : BitVec 32 := Scalar.addi c30_i32_729 v1319
  let c3_i32_730 : BitVec 32 := 3#32
  let v1321 : BitVec 32 := Scalar.divsi v1298 c3_i32_730
  let c0_i32_731 : BitVec 32 := 0#32
  let v1322 : BitVec 1 := Scalar.cmpi .sgt v1298 c0_i32_731
  let v1323 : BitVec 32 := Scalar.extui v1322
  let c0_i32_732 : BitVec 32 := 0#32
  let v1324 : BitVec 1 := Scalar.cmpi .slt v1298 c0_i32_732
  let v1325 : BitVec 32 := Scalar.extui v1324
  let v1326 : BitVec 32 := Scalar.subi v1323 v1325
  let c0_i32_733 : BitVec 32 := 0#32
  let v1327 : BitVec 1 := Scalar.cmpi .sgt c3_i32_730 c0_i32_733
  let v1328 : BitVec 32 := Scalar.extui v1327
  let c0_i32_734 : BitVec 32 := 0#32
  let v1329 : BitVec 1 := Scalar.cmpi .slt c3_i32_730 c0_i32_734
  let v1330 : BitVec 32 := Scalar.extui v1329
  let v1331 : BitVec 32 := Scalar.subi v1328 v1330
  let v1332 : BitVec 1 := Scalar.cmpi .ne v1326 v1331
  let v1333 : BitVec 32 := Scalar.remsi v1298 c3_i32_730
  let c0_i32_735 : BitVec 32 := 0#32
  let v1334 : BitVec 1 := Scalar.cmpi .ne v1333 c0_i32_735
  let v1335 : BitVec 1 := Scalar.andi v1332 v1334
  let c1_i32_736 : BitVec 32 := 1#32
  let v1336 : BitVec 32 := Scalar.subi v1321 c1_i32_736
  let v1337 : BitVec 32 := Scalar.select v1335 v1336 v1321
  let v1338 : BitVec 32 := Scalar.addi v1320 v1337
  let c3_i32_737 : BitVec 32 := 3#32
  let v1339 : BitVec 32 := Scalar.muli c3_i32_737 v1298
  let c14_i32_738 : BitVec 32 := 14#32
  let v1340 : BitVec 32 := Scalar.addi v1339 c14_i32_738
  let v1341 : BitVec 32 := Scalar.select v1308 v1338 v1340
  let c60_i32_739 : BitVec 32 := 60#32
  let v1342 : BitVec 32 := Scalar.muli v1288 c60_i32_739
  let v1343 : BitVec 32 := Scalar.addi v1342 v1307
  let c4_i32_740 : BitVec 32 := 4#32
  let v1344 : BitVec 32 := Scalar.muli v1343 c4_i32_740
  let c0_i32_741 : BitVec 32 := 0#32
  let v1345 : BitVec 32 := Scalar.addi v1344 c0_i32_741
  pure ⟨v1341, v1345⟩

noncomputable def q_part37 (i : grid0.Coords) (v1 : BitVec 32) (v1288 : BitVec 32) (v1303 : BitVec 32) (v1341 : BitVec 32) (v1345 : BitVec 32) :
    Prog (TpuEff nD τ sig (Elt F) Λ₀ (.scVector ((i 0).castLE hcore0) ((i 1).castLE hsub0))) (Σ' (v1377 : BitVec 32) (v1379 : BitVec 32) (v1380 : BitVec 32) (v1381 : BitVec 1), BitVec 32) := do
  let c65536_i32_742 : BitVec 32 := 65536#32
  let v1346 : BitVec 32 := Scalar.muli v1345 c65536_i32_742
  let c60_i32_743 : BitVec 32 := 60#32
  let v1347 : BitVec 32 := Scalar.muli v1288 c60_i32_743
  let v1348 : BitVec 32 := Scalar.addi v1347 v1341
  let c4_i32_744 : BitVec 32 := 4#32
  let v1349 : BitVec 32 := Scalar.muli v1348 c4_i32_744
  let c0_i32_745 : BitVec 32 := 0#32
  let v1350 : BitVec 32 := Scalar.addi v1349 c0_i32_745
  let c65536_i32_746 : BitVec 32 := 65536#32
  let v1351 : BitVec 32 := Scalar.muli v1350 c65536_i32_746
  let v1352 : BitVec 32 := v1303
  let c0_i32_747 : BitVec 32 := 0#32
  let v1353 : Memref sig .scVector .shared S1x65536 .f32 := shW.slice (Rect.unit (s := S16x65536) (k0_off1 i) S1x65536.size (k0_off1_inb i)) (fun _ => rfl)
  let v1354 : Memref sig .scVector .shared S65536 .f32 := rowM i
  let v1355 : Memref sig .scVector .hbm S65536 .f32 := (xw6 i)
  Prog.lift (.enqueueDma v1355 (.here v1354) (.dma cc0_scratch2.sem) (View.wordExact_bits rfl) ((View.wordExact_bits rfl).reshape _ _) ⟨Or.inl rfl, trivial⟩)
  let c0_i32_748 : BitVec 32 := 0#32
  let v1356 : Memref sig .scVector .shared S1x65536 .f32 := shW.slice (Rect.unit (s := S16x65536) (k0_off1 i) S1x65536.size (k0_off1_inb i)) (fun _ => rfl)
  let v1357 : Memref sig .scVector .shared S65536 .f32 := rowM i
  let c0_i32_749 : BitVec 32 := 0#32
  let v1358 : Memref sig .scVector .hbm S65536 .f32 := xW.slice (Rect.unit (s := S16777216) ![0] S65536.size inb_S16777216_S65536_0) (fun _ => rfl)
  Prog.lift (.waitDma2 cc0_scratch2.sem v1358 v1357 (View.wordExact_bits rfl) ((View.wordExact_bits rfl).reshape _ _))
  let c2_i32_750 : BitVec 32 := 2#32
  let v1359 : BitVec 32 := Scalar.muli c2_i32_750 v1
  let c1_i32_751 : BitVec 32 := 1#32
  let v1360 : BitVec 32 := Scalar.addi v1359 c1_i32_751
  let c16_i32_752 : BitVec 32 := 16#32
  let v1361 : BitVec 32 := Scalar.divsi v1360 c16_i32_752
  let c0_i32_753 : BitVec 32 := 0#32
  let v1362 : BitVec 1 := Scalar.cmpi .sgt v1360 c0_i32_753
  let v1363 : BitVec 32 := Scalar.extui v1362
  let c0_i32_754 : BitVec 32 := 0#32
  let v1364 : BitVec 1 := Scalar.cmpi .slt v1360 c0_i32_754
  let v1365 : BitVec 32 := Scalar.extui v1364
  let v1366 : BitVec 32 := Scalar.subi v1363 v1365
  let c0_i32_755 : BitVec 32 := 0#32
  let v1367 : BitVec 1 := Scalar.cmpi .sgt c16_i32_752 c0_i32_755
  let v1368 : BitVec 32 := Scalar.extui v1367
  let c0_i32_756 : BitVec 32 := 0#32
  let v1369 : BitVec 1 := Scalar.cmpi .slt c16_i32_752 c0_i32_756
  let v1370 : BitVec 32 := Scalar.extui v1369
  let v1371 : BitVec 32 := Scalar.subi v1368 v1370
  let v1372 : BitVec 1 := Scalar.cmpi .ne v1366 v1371
  let v1373 : BitVec 32 := Scalar.remsi v1360 c16_i32_752
  let c0_i32_757 : BitVec 32 := 0#32
  let v1374 : BitVec 1 := Scalar.cmpi .ne v1373 c0_i32_757
  let v1375 : BitVec 1 := Scalar.andi v1372 v1374
  let c1_i32_758 : BitVec 32 := 1#32
  let v1376 : BitVec 32 := Scalar.subi v1361 c1_i32_758
  let v1377 : BitVec 32 := Scalar.select v1375 v1376 v1361
  let c16_i32_759 : BitVec 32 := 16#32
  let c0_i32_760 : BitVec 32 := 0#32
  let v1378 : BitVec 1 := Scalar.cmpi .eq c16_i32_759 c0_i32_760
  let c1_i32_761 : BitVec 32 := 1#32
  let v1379 : BitVec 32 := Scalar.select v1378 c1_i32_761 c16_i32_759
  let v1380 : BitVec 32 := Scalar.remsi v1360 v1379
  let c0_i32_762 : BitVec 32 := 0#32
  let v1381 : BitVec 1 := Scalar.cmpi .ne v1380 c0_i32_762
  let c0_i32_763 : BitVec 32 := 0#32
  pure ⟨v1377, v1379, v1380, v1381, c0_i32_763⟩

noncomputable def q_part38 (i : grid0.Coords) (v1377 : BitVec 32) (v1379 : BitVec 32) (v1380 : BitVec 32) (v1381 : BitVec 1) (c0_i32_763 : BitVec 32) :
    Prog (TpuEff nD τ sig (Elt F) Λ₀ (.scVector ((i 0).castLE hcore0) ((i 1).castLE hsub0))) (Σ' (v1387 : BitVec 32) (v1396 : BitVec 32) (v1397 : BitVec 1) (v1409 : BitVec 32) (c3_i32_781 : BitVec 32) (v1410 : BitVec 32) (v1415 : BitVec 32) (v1417 : BitVec 32), BitVec 32) := do
  let v1382 : BitVec 1 := Scalar.cmpi .slt v1380 c0_i32_763
  let c0_i32_764 : BitVec 32 := 0#32
  let v1383 : BitVec 1 := Scalar.cmpi .slt v1379 c0_i32_764
  let v1384 : BitVec 1 := Scalar.xori v1382 v1383
  let v1385 : BitVec 1 := Scalar.andi v1384 v1381
  let v1386 : BitVec 32 := Scalar.addi v1380 v1379
  let v1387 : BitVec 32 := Scalar.select v1385 v1386 v1380
  let c16_i32_765 : BitVec 32 := 16#32
  let v1388 : BitVec 32 := Scalar.muli v1377 c16_i32_765
  let v1389 : BitVec 32 := Scalar.addi v1388 v1387
  let c4_i32_766 : BitVec 32 := 4#32
  let v1390 : BitVec 32 := Scalar.muli v1389 c4_i32_766
  let c0_i32_767 : BitVec 32 := 0#32
  let v1391 : BitVec 32 := Scalar.addi v1390 c0_i32_767
  let c65536_i32_768 : BitVec 32 := 65536#32
  let v1392 : BitVec 32 := Scalar.muli v1391 c65536_i32_768
  let c9_i32_769 : BitVec 32 := 9#32
  let v1393 : BitVec 1 := Scalar.cmpi .slt v1387 c9_i32_769
  let c3_i32_770 : BitVec 32 := 3#32
  let v1394 : BitVec 32 := Scalar.muli c3_i32_770 v1387
  let c16_i32_771 : BitVec 32 := 16#32
  let v1395 : BitVec 32 := Scalar.subi v1394 c16_i32_771
  let v1396 : BitVec 32 := Scalar.select v1393 v1387 v1395
  let c9_i32_772 : BitVec 32 := 9#32
  let v1397 : BitVec 1 := Scalar.cmpi .slt v1387 c9_i32_772
  let c3_i32_773 : BitVec 32 := 3#32
  let c0_i32_774 : BitVec 32 := 0#32
  let v1398 : BitVec 1 := Scalar.cmpi .eq c3_i32_773 c0_i32_774
  let c1_i32_775 : BitVec 32 := 1#32
  let v1399 : BitVec 32 := Scalar.select v1398 c1_i32_775 c3_i32_773
  let v1400 : BitVec 32 := Scalar.remsi v1387 v1399
  let c0_i32_776 : BitVec 32 := 0#32
  let v1401 : BitVec 1 := Scalar.cmpi .ne v1400 c0_i32_776
  let c0_i32_777 : BitVec 32 := 0#32
  let v1402 : BitVec 1 := Scalar.cmpi .slt v1400 c0_i32_777
  let c0_i32_778 : BitVec 32 := 0#32
  let v1403 : BitVec 1 := Scalar.cmpi .slt v1399 c0_i32_778
  let v1404 : BitVec 1 := Scalar.xori v1402 v1403
  let v1405 : BitVec 1 := Scalar.andi v1404 v1401
  let v1406 : BitVec 32 := Scalar.addi v1400 v1399
  let v1407 : BitVec 32 := Scalar.select v1405 v1406 v1400
  let c3_i32_779 : BitVec 32 := 3#32
  let v1408 : BitVec 32 := Scalar.muli c3_i32_779 v1407
  let c30_i32_780 : BitVec 32 := 30#32
  let v1409 : BitVec 32 := Scalar.addi c30_i32_780 v1408
  let c3_i32_781 : BitVec 32 := 3#32
  let v1410 : BitVec 32 := Scalar.divsi v1387 c3_i32_781
  let c0_i32_782 : BitVec 32 := 0#32
  let v1411 : BitVec 1 := Scalar.cmpi .sgt v1387 c0_i32_782
  let v1412 : BitVec 32 := Scalar.extui v1411
  let c0_i32_783 : BitVec 32 := 0#32
  let v1413 : BitVec 1 := Scalar.cmpi .slt v1387 c0_i32_783
  let v1414 : BitVec 32 := Scalar.extui v1413
  let v1415 : BitVec 32 := Scalar.subi v1412 v1414
  let c0_i32_784 : BitVec 32 := 0#32
  let v1416 : BitVec 1 := Scalar.cmpi .sgt c3_i32_781 c0_i32_784
  let v1417 : BitVec 32 := Scalar.extui v1416
  let c0_i32_785 : BitVec 32 := 0#32
  let v1418 : BitVec 1 := Scalar.cmpi .slt c3_i32_781 c0_i32_785
  let v1419 : BitVec 32 := Scalar.extui v1418
  pure ⟨v1387, v1396, v1397, v1409, c3_i32_781, v1410, v1415, v1417, v1419⟩

noncomputable def q_part39 (i : grid0.Coords) (v1 : BitVec 32) (v1377 : BitVec 32) (v1387 : BitVec 32) (v1396 : BitVec 32) (v1397 : BitVec 1) (v1409 : BitVec 32) (c3_i32_781 : BitVec 32) (v1410 : BitVec 32) (v1415 : BitVec 32) (v1417 : BitVec 32) (v1419 : BitVec 32) :
    Prog (TpuEff nD τ sig (Elt F) Λ₀ (.scVector ((i 0).castLE hcore0) ((i 1).castLE hsub0))) (Σ' (v1454 : BitVec 32), BitVec 32) := do
  let v1420 : BitVec 32 := Scalar.subi v1417 v1419
  let v1421 : BitVec 1 := Scalar.cmpi .ne v1415 v1420
  let v1422 : BitVec 32 := Scalar.remsi v1387 c3_i32_781
  let c0_i32_786 : BitVec 32 := 0#32
  let v1423 : BitVec 1 := Scalar.cmpi .ne v1422 c0_i32_786
  let v1424 : BitVec 1 := Scalar.andi v1421 v1423
  let c1_i32_787 : BitVec 32 := 1#32
  let v1425 : BitVec 32 := Scalar.subi v1410 c1_i32_787
  let v1426 : BitVec 32 := Scalar.select v1424 v1425 v1410
  let v1427 : BitVec 32 := Scalar.addi v1409 v1426
  let c3_i32_788 : BitVec 32 := 3#32
  let v1428 : BitVec 32 := Scalar.muli c3_i32_788 v1387
  let c14_i32_789 : BitVec 32 := 14#32
  let v1429 : BitVec 32 := Scalar.addi v1428 c14_i32_789
  let v1430 : BitVec 32 := Scalar.select v1397 v1427 v1429
  let c60_i32_790 : BitVec 32 := 60#32
  let v1431 : BitVec 32 := Scalar.muli v1377 c60_i32_790
  let v1432 : BitVec 32 := Scalar.addi v1431 v1396
  let c4_i32_791 : BitVec 32 := 4#32
  let v1433 : BitVec 32 := Scalar.muli v1432 c4_i32_791
  let c0_i32_792 : BitVec 32 := 0#32
  let v1434 : BitVec 32 := Scalar.addi v1433 c0_i32_792
  let c65536_i32_793 : BitVec 32 := 65536#32
  let v1435 : BitVec 32 := Scalar.muli v1434 c65536_i32_793
  let c60_i32_794 : BitVec 32 := 60#32
  let v1436 : BitVec 32 := Scalar.muli v1377 c60_i32_794
  let v1437 : BitVec 32 := Scalar.addi v1436 v1430
  let c4_i32_795 : BitVec 32 := 4#32
  let v1438 : BitVec 32 := Scalar.muli v1437 c4_i32_795
  let c0_i32_796 : BitVec 32 := 0#32
  let v1439 : BitVec 32 := Scalar.addi v1438 c0_i32_796
  let c65536_i32_797 : BitVec 32 := 65536#32
  let v1440 : BitVec 32 := Scalar.muli v1439 c65536_i32_797
  let v1441 : BitVec 32 := v1435
  let v1442 : Memref sig .scVector .hbm S65536 .f32 := (pc22 i)
  let c0_i32_798 : BitVec 32 := 0#32
  let v1443 : Memref sig .scVector .shared S1x65536 .f32 := shW.slice (Rect.unit (s := S16x65536) (k0_off1 i) S1x65536.size (k0_off1_inb i)) (fun _ => rfl)
  let v1444 : Memref sig .scVector .shared S65536 .f32 := rowM i
  Prog.lift (.enqueueDma v1444 (.here v1442) (.dma cc0_scratch4.sem) ((View.wordExact_bits rfl).reshape _ _) (View.wordExact_bits rfl) ⟨Or.inl rfl, trivial⟩)
  let v1445 : BitVec 32 := v1440
  let v1446 : Memref sig .scVector .hbm S65536 .f32 := (pc23 i)
  let c0_i32_799 : BitVec 32 := 0#32
  let v1447 : Memref sig .scVector .shared S1x65536 .f32 := shW.slice (Rect.unit (s := S16x65536) (k0_off1 i) S1x65536.size (k0_off1_inb i)) (fun _ => rfl)
  let v1448 : Memref sig .scVector .shared S65536 .f32 := rowM i
  Prog.lift (.enqueueDma v1448 (.here v1446) (.dma cc0_scratch4.sem) ((View.wordExact_bits rfl).reshape _ _) (View.wordExact_bits rfl) ⟨Or.inl rfl, trivial⟩)
  let c0_i32_800 : BitVec 32 := 0#32
  let v1449 : Memref sig .scVector .hbm S65536 .f32 := oW.slice (Rect.unit (s := S62914560) ![0] S65536.size inb_S62914560_S65536_0) (fun _ => rfl)
  let c0_i32_801 : BitVec 32 := 0#32
  let v1450 : Memref sig .scVector .hbm S65536 .f32 := oW.slice (Rect.unit (s := S62914560) ![0] S65536.size inb_S62914560_S65536_0) (fun _ => rfl)
  Prog.lift (.waitDma2 cc0_scratch5.sem bW v1450 (Memref.isWhole_whole _).wordExact (View.wordExact_bits rfl))
  let c0_i32_802 : BitVec 32 := 0#32
  let v1451 : Memref sig .scVector .hbm S65536 .f32 := oW.slice (Rect.unit (s := S62914560) ![0] S65536.size inb_S62914560_S65536_0) (fun _ => rfl)
  let c0_i32_803 : BitVec 32 := 0#32
  let v1452 : Memref sig .scVector .hbm S65536 .f32 := oW.slice (Rect.unit (s := S62914560) ![0] S65536.size inb_S62914560_S65536_0) (fun _ => rfl)
  Prog.lift (.waitDma2 cc0_scratch5.sem bW v1452 (Memref.isWhole_whole _).wordExact (View.wordExact_bits rfl))
  let c2_i32_804 : BitVec 32 := 2#32
  let v1453 : BitVec 32 := Scalar.muli c2_i32_804 v1
  let c1_i32_805 : BitVec 32 := 1#32
  let v1454 : BitVec 32 := Scalar.addi v1453 c1_i32_805
  let c16_i32_806 : BitVec 32 := 16#32
  pure ⟨v1454, c16_i32_806⟩

noncomputable def q_part40 (i : grid0.Coords) (v1454 : BitVec 32) (c16_i32_806 : BitVec 32) :
    Prog (TpuEff nD τ sig (Elt F) Λ₀ (.scVector ((i 0).castLE hcore0) ((i 1).castLE hsub0))) (Σ' (v1471 : BitVec 32) (v1481 : BitVec 32) (v1486 : BitVec 32) (v1490 : BitVec 32) (v1491 : BitVec 1) (c3_i32_827 : BitVec 32), BitVec 1) := do
  let v1455 : BitVec 32 := Scalar.divsi v1454 c16_i32_806
  let c0_i32_807 : BitVec 32 := 0#32
  let v1456 : BitVec 1 := Scalar.cmpi .sgt v1454 c0_i32_807
  let v1457 : BitVec 32 := Scalar.extui v1456
  let c0_i32_808 : BitVec 32 := 0#32
  let v1458 : BitVec 1 := Scalar.cmpi .slt v1454 c0_i32_808
  let v1459 : BitVec 32 := Scalar.extui v1458
  let v1460 : BitVec 32 := Scalar.subi v1457 v1459
  let c0_i32_809 : BitVec 32 := 0#32
  let v1461 : BitVec 1 := Scalar.cmpi .sgt c16_i32_806 c0_i32_809
  let v1462 : BitVec 32 := Scalar.extui v1461
  let c0_i32_810 : BitVec 32 := 0#32
  let v1463 : BitVec 1 := Scalar.cmpi .slt c16_i32_806 c0_i32_810
  let v1464 : BitVec 32 := Scalar.extui v1463
  let v1465 : BitVec 32 := Scalar.subi v1462 v1464
  let v1466 : BitVec 1 := Scalar.cmpi .ne v1460 v1465
  let v1467 : BitVec 32 := Scalar.remsi v1454 c16_i32_806
  let c0_i32_811 : BitVec 32 := 0#32
  let v1468 : BitVec 1 := Scalar.cmpi .ne v1467 c0_i32_811
  let v1469 : BitVec 1 := Scalar.andi v1466 v1468
  let c1_i32_812 : BitVec 32 := 1#32
  let v1470 : BitVec 32 := Scalar.subi v1455 c1_i32_812
  let v1471 : BitVec 32 := Scalar.select v1469 v1470 v1455
  let c16_i32_813 : BitVec 32 := 16#32
  let c0_i32_814 : BitVec 32 := 0#32
  let v1472 : BitVec 1 := Scalar.cmpi .eq c16_i32_813 c0_i32_814
  let c1_i32_815 : BitVec 32 := 1#32
  let v1473 : BitVec 32 := Scalar.select v1472 c1_i32_815 c16_i32_813
  let v1474 : BitVec 32 := Scalar.remsi v1454 v1473
  let c0_i32_816 : BitVec 32 := 0#32
  let v1475 : BitVec 1 := Scalar.cmpi .ne v1474 c0_i32_816
  let c0_i32_817 : BitVec 32 := 0#32
  let v1476 : BitVec 1 := Scalar.cmpi .slt v1474 c0_i32_817
  let c0_i32_818 : BitVec 32 := 0#32
  let v1477 : BitVec 1 := Scalar.cmpi .slt v1473 c0_i32_818
  let v1478 : BitVec 1 := Scalar.xori v1476 v1477
  let v1479 : BitVec 1 := Scalar.andi v1478 v1475
  let v1480 : BitVec 32 := Scalar.addi v1474 v1473
  let v1481 : BitVec 32 := Scalar.select v1479 v1480 v1474
  let c16_i32_819 : BitVec 32 := 16#32
  let v1482 : BitVec 32 := Scalar.muli v1471 c16_i32_819
  let v1483 : BitVec 32 := Scalar.addi v1482 v1481
  let c4_i32_820 : BitVec 32 := 4#32
  let v1484 : BitVec 32 := Scalar.muli v1483 c4_i32_820
  let c1_i32_821 : BitVec 32 := 1#32
  let v1485 : BitVec 32 := Scalar.addi v1484 c1_i32_821
  let c65536_i32_822 : BitVec 32 := 65536#32
  let v1486 : BitVec 32 := Scalar.muli v1485 c65536_i32_822
  let c9_i32_823 : BitVec 32 := 9#32
  let v1487 : BitVec 1 := Scalar.cmpi .slt v1481 c9_i32_823
  let c3_i32_824 : BitVec 32 := 3#32
  let v1488 : BitVec 32 := Scalar.muli c3_i32_824 v1481
  let c16_i32_825 : BitVec 32 := 16#32
  let v1489 : BitVec 32 := Scalar.subi v1488 c16_i32_825
  let v1490 : BitVec 32 := Scalar.select v1487 v1481 v1489
  let c9_i32_826 : BitVec 32 := 9#32
  let v1491 : BitVec 1 := Scalar.cmpi .slt v1481 c9_i32_826
  let c3_i32_827 : BitVec 32 := 3#32
  let c0_i32_828 : BitVec 32 := 0#32
  let v1492 : BitVec 1 := Scalar.cmpi .eq c3_i32_827 c0_i32_828
  pure ⟨v1471, v1481, v1486, v1490, v1491, c3_i32_827, v1492⟩

noncomputable def q_part41 (i : grid0.Coords) (v1471 : BitVec 32) (v1481 : BitVec 32) (v1490 : BitVec 32) (v1491 : BitVec 1) (c3_i32_827 : BitVec 32) (v1492 : BitVec 1) :
    Prog (TpuEff nD τ sig (Elt F) Λ₀ (.scVector ((i 0).castLE hcore0) ((i 1).castLE hsub0))) (Σ' (v1531 : BitVec 32), BitVec 32) := do
  let c1_i32_829 : BitVec 32 := 1#32
  let v1493 : BitVec 32 := Scalar.select v1492 c1_i32_829 c3_i32_827
  let v1494 : BitVec 32 := Scalar.remsi v1481 v1493
  let c0_i32_830 : BitVec 32 := 0#32
  let v1495 : BitVec 1 := Scalar.cmpi .ne v1494 c0_i32_830
  let c0_i32_831 : BitVec 32 := 0#32
  let v1496 : BitVec 1 := Scalar.cmpi .slt v1494 c0_i32_831
  let c0_i32_832 : BitVec 32 := 0#32
  let v1497 : BitVec 1 := Scalar.cmpi .slt v1493 c0_i32_832
  let v1498 : BitVec 1 := Scalar.xori v1496 v1497
  let v1499 : BitVec 1 := Scalar.andi v1498 v1495
  let v1500 : BitVec 32 := Scalar.addi v1494 v1493
  let v1501 : BitVec 32 := Scalar.select v1499 v1500 v1494
  let c3_i32_833 : BitVec 32 := 3#32
  let v1502 : BitVec 32 := Scalar.muli c3_i32_833 v1501
  let c30_i32_834 : BitVec 32 := 30#32
  let v1503 : BitVec 32 := Scalar.addi c30_i32_834 v1502
  let c3_i32_835 : BitVec 32 := 3#32
  let v1504 : BitVec 32 := Scalar.divsi v1481 c3_i32_835
  let c0_i32_836 : BitVec 32 := 0#32
  let v1505 : BitVec 1 := Scalar.cmpi .sgt v1481 c0_i32_836
  let v1506 : BitVec 32 := Scalar.extui v1505
  let c0_i32_837 : BitVec 32 := 0#32
  let v1507 : BitVec 1 := Scalar.cmpi .slt v1481 c0_i32_837
  let v1508 : BitVec 32 := Scalar.extui v1507
  let v1509 : BitVec 32 := Scalar.subi v1506 v1508
  let c0_i32_838 : BitVec 32 := 0#32
  let v1510 : BitVec 1 := Scalar.cmpi .sgt c3_i32_835 c0_i32_838
  let v1511 : BitVec 32 := Scalar.extui v1510
  let c0_i32_839 : BitVec 32 := 0#32
  let v1512 : BitVec 1 := Scalar.cmpi .slt c3_i32_835 c0_i32_839
  let v1513 : BitVec 32 := Scalar.extui v1512
  let v1514 : BitVec 32 := Scalar.subi v1511 v1513
  let v1515 : BitVec 1 := Scalar.cmpi .ne v1509 v1514
  let v1516 : BitVec 32 := Scalar.remsi v1481 c3_i32_835
  let c0_i32_840 : BitVec 32 := 0#32
  let v1517 : BitVec 1 := Scalar.cmpi .ne v1516 c0_i32_840
  let v1518 : BitVec 1 := Scalar.andi v1515 v1517
  let c1_i32_841 : BitVec 32 := 1#32
  let v1519 : BitVec 32 := Scalar.subi v1504 c1_i32_841
  let v1520 : BitVec 32 := Scalar.select v1518 v1519 v1504
  let v1521 : BitVec 32 := Scalar.addi v1503 v1520
  let c3_i32_842 : BitVec 32 := 3#32
  let v1522 : BitVec 32 := Scalar.muli c3_i32_842 v1481
  let c14_i32_843 : BitVec 32 := 14#32
  let v1523 : BitVec 32 := Scalar.addi v1522 c14_i32_843
  let v1524 : BitVec 32 := Scalar.select v1491 v1521 v1523
  let c60_i32_844 : BitVec 32 := 60#32
  let v1525 : BitVec 32 := Scalar.muli v1471 c60_i32_844
  let v1526 : BitVec 32 := Scalar.addi v1525 v1490
  let c4_i32_845 : BitVec 32 := 4#32
  let v1527 : BitVec 32 := Scalar.muli v1526 c4_i32_845
  let c1_i32_846 : BitVec 32 := 1#32
  let v1528 : BitVec 32 := Scalar.addi v1527 c1_i32_846
  let c65536_i32_847 : BitVec 32 := 65536#32
  let v1529 : BitVec 32 := Scalar.muli v1528 c65536_i32_847
  let c60_i32_848 : BitVec 32 := 60#32
  let v1530 : BitVec 32 := Scalar.muli v1471 c60_i32_848
  let v1531 : BitVec 32 := Scalar.addi v1530 v1524
  let c4_i32_849 : BitVec 32 := 4#32
  pure ⟨v1531, c4_i32_849⟩

noncomputable def q_part42 (i : grid0.Coords) (v1 : BitVec 32) (v1486 : BitVec 32) (v1531 : BitVec 32) (c4_i32_849 : BitVec 32) :
    Prog (TpuEff nD τ sig (Elt F) Λ₀ (.scVector ((i 0).castLE hcore0) ((i 1).castLE hsub0))) (Σ' (v1558 : BitVec 32) (v1568 : BitVec 32), BitVec 32) := do
  let v1532 : BitVec 32 := Scalar.muli v1531 c4_i32_849
  let c1_i32_850 : BitVec 32 := 1#32
  let v1533 : BitVec 32 := Scalar.addi v1532 c1_i32_850
  let c65536_i32_851 : BitVec 32 := 65536#32
  let v1534 : BitVec 32 := Scalar.muli v1533 c65536_i32_851
  let v1535 : BitVec 32 := v1486
  let v1536 : Memref sig .scVector .hbm S65536 .f32 := (xw7 i)
  let v1537 : Memref sig .scVector .hbm S65536 .f32 := (xw7 i)
  Prog.lift (.enqueueDma v1537 (.here bW) (.dma cc0_scratch3.sem) (View.wordExact_bits rfl) (Memref.isWhole_whole _).wordExact ⟨Or.inl rfl, trivial⟩)
  let c0_i32_852 : BitVec 32 := 0#32
  let v1538 : Memref sig .scVector .hbm S65536 .f32 := xW.slice (Rect.unit (s := S16777216) ![0] S65536.size inb_S16777216_S65536_0) (fun _ => rfl)
  let c0_i32_853 : BitVec 32 := 0#32
  let v1539 : Memref sig .scVector .hbm S65536 .f32 := xW.slice (Rect.unit (s := S16777216) ![0] S65536.size inb_S16777216_S65536_0) (fun _ => rfl)
  Prog.lift (.waitDma2 cc0_scratch3.sem v1539 bW (View.wordExact_bits rfl) (Memref.isWhole_whole _).wordExact)
  let c2_i32_854 : BitVec 32 := 2#32
  let v1540 : BitVec 32 := Scalar.muli c2_i32_854 v1
  let c1_i32_855 : BitVec 32 := 1#32
  let v1541 : BitVec 32 := Scalar.addi v1540 c1_i32_855
  let c16_i32_856 : BitVec 32 := 16#32
  let v1542 : BitVec 32 := Scalar.divsi v1541 c16_i32_856
  let c0_i32_857 : BitVec 32 := 0#32
  let v1543 : BitVec 1 := Scalar.cmpi .sgt v1541 c0_i32_857
  let v1544 : BitVec 32 := Scalar.extui v1543
  let c0_i32_858 : BitVec 32 := 0#32
  let v1545 : BitVec 1 := Scalar.cmpi .slt v1541 c0_i32_858
  let v1546 : BitVec 32 := Scalar.extui v1545
  let v1547 : BitVec 32 := Scalar.subi v1544 v1546
  let c0_i32_859 : BitVec 32 := 0#32
  let v1548 : BitVec 1 := Scalar.cmpi .sgt c16_i32_856 c0_i32_859
  let v1549 : BitVec 32 := Scalar.extui v1548
  let c0_i32_860 : BitVec 32 := 0#32
  let v1550 : BitVec 1 := Scalar.cmpi .slt c16_i32_856 c0_i32_860
  let v1551 : BitVec 32 := Scalar.extui v1550
  let v1552 : BitVec 32 := Scalar.subi v1549 v1551
  let v1553 : BitVec 1 := Scalar.cmpi .ne v1547 v1552
  let v1554 : BitVec 32 := Scalar.remsi v1541 c16_i32_856
  let c0_i32_861 : BitVec 32 := 0#32
  let v1555 : BitVec 1 := Scalar.cmpi .ne v1554 c0_i32_861
  let v1556 : BitVec 1 := Scalar.andi v1553 v1555
  let c1_i32_862 : BitVec 32 := 1#32
  let v1557 : BitVec 32 := Scalar.subi v1542 c1_i32_862
  let v1558 : BitVec 32 := Scalar.select v1556 v1557 v1542
  let c16_i32_863 : BitVec 32 := 16#32
  let c0_i32_864 : BitVec 32 := 0#32
  let v1559 : BitVec 1 := Scalar.cmpi .eq c16_i32_863 c0_i32_864
  let c1_i32_865 : BitVec 32 := 1#32
  let v1560 : BitVec 32 := Scalar.select v1559 c1_i32_865 c16_i32_863
  let v1561 : BitVec 32 := Scalar.remsi v1541 v1560
  let c0_i32_866 : BitVec 32 := 0#32
  let v1562 : BitVec 1 := Scalar.cmpi .ne v1561 c0_i32_866
  let c0_i32_867 : BitVec 32 := 0#32
  let v1563 : BitVec 1 := Scalar.cmpi .slt v1561 c0_i32_867
  let c0_i32_868 : BitVec 32 := 0#32
  let v1564 : BitVec 1 := Scalar.cmpi .slt v1560 c0_i32_868
  let v1565 : BitVec 1 := Scalar.xori v1563 v1564
  let v1566 : BitVec 1 := Scalar.andi v1565 v1562
  let v1567 : BitVec 32 := Scalar.addi v1561 v1560
  let v1568 : BitVec 32 := Scalar.select v1566 v1567 v1561
  let c16_i32_869 : BitVec 32 := 16#32
  let v1569 : BitVec 32 := Scalar.muli v1558 c16_i32_869
  pure ⟨v1558, v1568, v1569⟩

noncomputable def q_part43 (i : grid0.Coords) (v1568 : BitVec 32) (v1569 : BitVec 32) :
    Prog (TpuEff nD τ sig (Elt F) Λ₀ (.scVector ((i 0).castLE hcore0) ((i 1).castLE hsub0))) (Σ' (v1577 : BitVec 32) (v1578 : BitVec 1) (v1590 : BitVec 32), BitVec 32) := do
  let v1570 : BitVec 32 := Scalar.addi v1569 v1568
  let c4_i32_870 : BitVec 32 := 4#32
  let v1571 : BitVec 32 := Scalar.muli v1570 c4_i32_870
  let c1_i32_871 : BitVec 32 := 1#32
  let v1572 : BitVec 32 := Scalar.addi v1571 c1_i32_871
  let c65536_i32_872 : BitVec 32 := 65536#32
  let v1573 : BitVec 32 := Scalar.muli v1572 c65536_i32_872
  let c9_i32_873 : BitVec 32 := 9#32
  let v1574 : BitVec 1 := Scalar.cmpi .slt v1568 c9_i32_873
  let c3_i32_874 : BitVec 32 := 3#32
  let v1575 : BitVec 32 := Scalar.muli c3_i32_874 v1568
  let c16_i32_875 : BitVec 32 := 16#32
  let v1576 : BitVec 32 := Scalar.subi v1575 c16_i32_875
  let v1577 : BitVec 32 := Scalar.select v1574 v1568 v1576
  let c9_i32_876 : BitVec 32 := 9#32
  let v1578 : BitVec 1 := Scalar.cmpi .slt v1568 c9_i32_876
  let c3_i32_877 : BitVec 32 := 3#32
  let c0_i32_878 : BitVec 32 := 0#32
  let v1579 : BitVec 1 := Scalar.cmpi .eq c3_i32_877 c0_i32_878
  let c1_i32_879 : BitVec 32 := 1#32
  let v1580 : BitVec 32 := Scalar.select v1579 c1_i32_879 c3_i32_877
  let v1581 : BitVec 32 := Scalar.remsi v1568 v1580
  let c0_i32_880 : BitVec 32 := 0#32
  let v1582 : BitVec 1 := Scalar.cmpi .ne v1581 c0_i32_880
  let c0_i32_881 : BitVec 32 := 0#32
  let v1583 : BitVec 1 := Scalar.cmpi .slt v1581 c0_i32_881
  let c0_i32_882 : BitVec 32 := 0#32
  let v1584 : BitVec 1 := Scalar.cmpi .slt v1580 c0_i32_882
  let v1585 : BitVec 1 := Scalar.xori v1583 v1584
  let v1586 : BitVec 1 := Scalar.andi v1585 v1582
  let v1587 : BitVec 32 := Scalar.addi v1581 v1580
  let v1588 : BitVec 32 := Scalar.select v1586 v1587 v1581
  let c3_i32_883 : BitVec 32 := 3#32
  let v1589 : BitVec 32 := Scalar.muli c3_i32_883 v1588
  let c30_i32_884 : BitVec 32 := 30#32
  let v1590 : BitVec 32 := Scalar.addi c30_i32_884 v1589
  let c3_i32_885 : BitVec 32 := 3#32
  let v1591 : BitVec 32 := Scalar.divsi v1568 c3_i32_885
  let c0_i32_886 : BitVec 32 := 0#32
  let v1592 : BitVec 1 := Scalar.cmpi .sgt v1568 c0_i32_886
  let v1593 : BitVec 32 := Scalar.extui v1592
  let c0_i32_887 : BitVec 32 := 0#32
  let v1594 : BitVec 1 := Scalar.cmpi .slt v1568 c0_i32_887
  let v1595 : BitVec 32 := Scalar.extui v1594
  let v1596 : BitVec 32 := Scalar.subi v1593 v1595
  let c0_i32_888 : BitVec 32 := 0#32
  let v1597 : BitVec 1 := Scalar.cmpi .sgt c3_i32_885 c0_i32_888
  let v1598 : BitVec 32 := Scalar.extui v1597
  let c0_i32_889 : BitVec 32 := 0#32
  let v1599 : BitVec 1 := Scalar.cmpi .slt c3_i32_885 c0_i32_889
  let v1600 : BitVec 32 := Scalar.extui v1599
  let v1601 : BitVec 32 := Scalar.subi v1598 v1600
  let v1602 : BitVec 1 := Scalar.cmpi .ne v1596 v1601
  let v1603 : BitVec 32 := Scalar.remsi v1568 c3_i32_885
  let c0_i32_890 : BitVec 32 := 0#32
  let v1604 : BitVec 1 := Scalar.cmpi .ne v1603 c0_i32_890
  let v1605 : BitVec 1 := Scalar.andi v1602 v1604
  let c1_i32_891 : BitVec 32 := 1#32
  let v1606 : BitVec 32 := Scalar.subi v1591 c1_i32_891
  let v1607 : BitVec 32 := Scalar.select v1605 v1606 v1591
  pure ⟨v1577, v1578, v1590, v1607⟩

noncomputable def q_part44 (i : grid0.Coords) (v1 : BitVec 32) (v1558 : BitVec 32) (v1568 : BitVec 32) (v1577 : BitVec 32) (v1578 : BitVec 1) (v1590 : BitVec 32) (v1607 : BitVec 32) :
    Prog (TpuEff nD τ sig (Elt F) Λ₀ (.scVector ((i 0).castLE hcore0) ((i 1).castLE hsub0))) (Σ' (v1635 : BitVec 32) (c16_i32_908 : BitVec 32) (v1636 : BitVec 32) (v1641 : BitVec 32), BitVec 32) := do
  let v1608 : BitVec 32 := Scalar.addi v1590 v1607
  let c3_i32_892 : BitVec 32 := 3#32
  let v1609 : BitVec 32 := Scalar.muli c3_i32_892 v1568
  let c14_i32_893 : BitVec 32 := 14#32
  let v1610 : BitVec 32 := Scalar.addi v1609 c14_i32_893
  let v1611 : BitVec 32 := Scalar.select v1578 v1608 v1610
  let c60_i32_894 : BitVec 32 := 60#32
  let v1612 : BitVec 32 := Scalar.muli v1558 c60_i32_894
  let v1613 : BitVec 32 := Scalar.addi v1612 v1577
  let c4_i32_895 : BitVec 32 := 4#32
  let v1614 : BitVec 32 := Scalar.muli v1613 c4_i32_895
  let c1_i32_896 : BitVec 32 := 1#32
  let v1615 : BitVec 32 := Scalar.addi v1614 c1_i32_896
  let c65536_i32_897 : BitVec 32 := 65536#32
  let v1616 : BitVec 32 := Scalar.muli v1615 c65536_i32_897
  let c60_i32_898 : BitVec 32 := 60#32
  let v1617 : BitVec 32 := Scalar.muli v1558 c60_i32_898
  let v1618 : BitVec 32 := Scalar.addi v1617 v1611
  let c4_i32_899 : BitVec 32 := 4#32
  let v1619 : BitVec 32 := Scalar.muli v1618 c4_i32_899
  let c1_i32_900 : BitVec 32 := 1#32
  let v1620 : BitVec 32 := Scalar.addi v1619 c1_i32_900
  let c65536_i32_901 : BitVec 32 := 65536#32
  let v1621 : BitVec 32 := Scalar.muli v1620 c65536_i32_901
  let v1622 : BitVec 32 := v1616
  let v1623 : Memref sig .scVector .hbm S65536 .f32 := (pc24 i)
  let v1624 : Memref sig .scVector .hbm S65536 .f32 := (pc24 i)
  Prog.lift (.enqueueDma bW (.here v1624) (.dma cc0_scratch5.sem) (Memref.isWhole_whole _).wordExact (View.wordExact_bits rfl) ⟨Or.inl rfl, trivial⟩)
  let v1625 : BitVec 32 := v1621
  let v1626 : Memref sig .scVector .hbm S65536 .f32 := (pc25 i)
  let v1627 : Memref sig .scVector .hbm S65536 .f32 := (pc25 i)
  Prog.lift (.enqueueDma bW (.here v1627) (.dma cc0_scratch5.sem) (Memref.isWhole_whole _).wordExact (View.wordExact_bits rfl) ⟨Or.inl rfl, trivial⟩)
  let c0_i32_902 : BitVec 32 := 0#32
  let v1628 : Memref sig .scVector .hbm S65536 .f32 := oW.slice (Rect.unit (s := S62914560) ![0] S65536.size inb_S62914560_S65536_0) (fun _ => rfl)
  let c0_i32_903 : BitVec 32 := 0#32
  let v1629 : Memref sig .scVector .shared S1x65536 .f32 := shW.slice (Rect.unit (s := S16x65536) (k0_off1 i) S1x65536.size (k0_off1_inb i)) (fun _ => rfl)
  let v1630 : Memref sig .scVector .shared S65536 .f32 := rowM i
  Prog.lift (.waitDma2 cc0_scratch4.sem v1630 v1628 ((View.wordExact_bits rfl).reshape _ _) (View.wordExact_bits rfl))
  let c0_i32_904 : BitVec 32 := 0#32
  let v1631 : Memref sig .scVector .hbm S65536 .f32 := oW.slice (Rect.unit (s := S62914560) ![0] S65536.size inb_S62914560_S65536_0) (fun _ => rfl)
  let c0_i32_905 : BitVec 32 := 0#32
  let v1632 : Memref sig .scVector .shared S1x65536 .f32 := shW.slice (Rect.unit (s := S16x65536) (k0_off1 i) S1x65536.size (k0_off1_inb i)) (fun _ => rfl)
  let v1633 : Memref sig .scVector .shared S65536 .f32 := rowM i
  Prog.lift (.waitDma2 cc0_scratch4.sem v1633 v1631 ((View.wordExact_bits rfl).reshape _ _) (View.wordExact_bits rfl))
  let c2_i32_906 : BitVec 32 := 2#32
  let v1634 : BitVec 32 := Scalar.muli c2_i32_906 v1
  let c1_i32_907 : BitVec 32 := 1#32
  let v1635 : BitVec 32 := Scalar.addi v1634 c1_i32_907
  let c16_i32_908 : BitVec 32 := 16#32
  let v1636 : BitVec 32 := Scalar.divsi v1635 c16_i32_908
  let c0_i32_909 : BitVec 32 := 0#32
  let v1637 : BitVec 1 := Scalar.cmpi .sgt v1635 c0_i32_909
  let v1638 : BitVec 32 := Scalar.extui v1637
  let c0_i32_910 : BitVec 32 := 0#32
  let v1639 : BitVec 1 := Scalar.cmpi .slt v1635 c0_i32_910
  let v1640 : BitVec 32 := Scalar.extui v1639
  let v1641 : BitVec 32 := Scalar.subi v1638 v1640
  let c0_i32_911 : BitVec 32 := 0#32
  let v1642 : BitVec 1 := Scalar.cmpi .sgt c16_i32_908 c0_i32_911
  let v1643 : BitVec 32 := Scalar.extui v1642
  pure ⟨v1635, c16_i32_908, v1636, v1641, v1643⟩

noncomputable def q_part45 (i : grid0.Coords) (v1635 : BitVec 32) (c16_i32_908 : BitVec 32) (v1636 : BitVec 32) (v1641 : BitVec 32) (v1643 : BitVec 32) :
    Prog (TpuEff nD τ sig (Elt F) Λ₀ (.scVector ((i 0).castLE hcore0) ((i 1).castLE hsub0))) (Σ' (v1652 : BitVec 32) (v1662 : BitVec 32) (v1667 : BitVec 32) (v1671 : BitVec 32) (v1672 : BitVec 1) (v1674 : BitVec 32) (v1675 : BitVec 32), BitVec 1) := do
  let c0_i32_912 : BitVec 32 := 0#32
  let v1644 : BitVec 1 := Scalar.cmpi .slt c16_i32_908 c0_i32_912
  let v1645 : BitVec 32 := Scalar.extui v1644
  let v1646 : BitVec 32 := Scalar.subi v1643 v1645
  let v1647 : BitVec 1 := Scalar.cmpi .ne v1641 v1646
  let v1648 : BitVec 32 := Scalar.remsi v1635 c16_i32_908
  let c0_i32_913 : BitVec 32 := 0#32
  let v1649 : BitVec 1 := Scalar.cmpi .ne v1648 c0_i32_913
  let v1650 : BitVec 1 := Scalar.andi v1647 v1649
  let c1_i32_914 : BitVec 32 := 1#32
  let v1651 : BitVec 32 := Scalar.subi v1636 c1_i32_914
  let v1652 : BitVec 32 := Scalar.select v1650 v1651 v1636
  let c16_i32_915 : BitVec 32 := 16#32
  let c0_i32_916 : BitVec 32 := 0#32
  let v1653 : BitVec 1 := Scalar.cmpi .eq c16_i32_915 c0_i32_916
  let c1_i32_917 : BitVec 32 := 1#32
  let v1654 : BitVec 32 := Scalar.select v1653 c1_i32_917 c16_i32_915
  let v1655 : BitVec 32 := Scalar.remsi v1635 v1654
  let c0_i32_918 : BitVec 32 := 0#32
  let v1656 : BitVec 1 := Scalar.cmpi .ne v1655 c0_i32_918
  let c0_i32_919 : BitVec 32 := 0#32
  let v1657 : BitVec 1 := Scalar.cmpi .slt v1655 c0_i32_919
  let c0_i32_920 : BitVec 32 := 0#32
  let v1658 : BitVec 1 := Scalar.cmpi .slt v1654 c0_i32_920
  let v1659 : BitVec 1 := Scalar.xori v1657 v1658
  let v1660 : BitVec 1 := Scalar.andi v1659 v1656
  let v1661 : BitVec 32 := Scalar.addi v1655 v1654
  let v1662 : BitVec 32 := Scalar.select v1660 v1661 v1655
  let c16_i32_921 : BitVec 32 := 16#32
  let v1663 : BitVec 32 := Scalar.muli v1652 c16_i32_921
  let v1664 : BitVec 32 := Scalar.addi v1663 v1662
  let c4_i32_922 : BitVec 32 := 4#32
  let v1665 : BitVec 32 := Scalar.muli v1664 c4_i32_922
  let c2_i32_923 : BitVec 32 := 2#32
  let v1666 : BitVec 32 := Scalar.addi v1665 c2_i32_923
  let c65536_i32_924 : BitVec 32 := 65536#32
  let v1667 : BitVec 32 := Scalar.muli v1666 c65536_i32_924
  let c9_i32_925 : BitVec 32 := 9#32
  let v1668 : BitVec 1 := Scalar.cmpi .slt v1662 c9_i32_925
  let c3_i32_926 : BitVec 32 := 3#32
  let v1669 : BitVec 32 := Scalar.muli c3_i32_926 v1662
  let c16_i32_927 : BitVec 32 := 16#32
  let v1670 : BitVec 32 := Scalar.subi v1669 c16_i32_927
  let v1671 : BitVec 32 := Scalar.select v1668 v1662 v1670
  let c9_i32_928 : BitVec 32 := 9#32
  let v1672 : BitVec 1 := Scalar.cmpi .slt v1662 c9_i32_928
  let c3_i32_929 : BitVec 32 := 3#32
  let c0_i32_930 : BitVec 32 := 0#32
  let v1673 : BitVec 1 := Scalar.cmpi .eq c3_i32_929 c0_i32_930
  let c1_i32_931 : BitVec 32 := 1#32
  let v1674 : BitVec 32 := Scalar.select v1673 c1_i32_931 c3_i32_929
  let v1675 : BitVec 32 := Scalar.remsi v1662 v1674
  let c0_i32_932 : BitVec 32 := 0#32
  let v1676 : BitVec 1 := Scalar.cmpi .ne v1675 c0_i32_932
  let c0_i32_933 : BitVec 32 := 0#32
  let v1677 : BitVec 1 := Scalar.cmpi .slt v1675 c0_i32_933
  let c0_i32_934 : BitVec 32 := 0#32
  let v1678 : BitVec 1 := Scalar.cmpi .slt v1674 c0_i32_934
  let v1679 : BitVec 1 := Scalar.xori v1677 v1678
  let v1680 : BitVec 1 := Scalar.andi v1679 v1676
  pure ⟨v1652, v1662, v1667, v1671, v1672, v1674, v1675, v1680⟩

noncomputable def q_part46 (i : grid0.Coords) (v1652 : BitVec 32) (v1662 : BitVec 32) (v1667 : BitVec 32) (v1671 : BitVec 32) (v1672 : BitVec 1) (v1674 : BitVec 32) (v1675 : BitVec 32) (v1680 : BitVec 1) :
    Prog (TpuEff nD τ sig (Elt F) Λ₀ (.scVector ((i 0).castLE hcore0) ((i 1).castLE hsub0))) (PUnit) := do
  let v1681 : BitVec 32 := Scalar.addi v1675 v1674
  let v1682 : BitVec 32 := Scalar.select v1680 v1681 v1675
  let c3_i32_935 : BitVec 32 := 3#32
  let v1683 : BitVec 32 := Scalar.muli c3_i32_935 v1682
  let c30_i32_936 : BitVec 32 := 30#32
  let v1684 : BitVec 32 := Scalar.addi c30_i32_936 v1683
  let c3_i32_937 : BitVec 32 := 3#32
  let v1685 : BitVec 32 := Scalar.divsi v1662 c3_i32_937
  let c0_i32_938 : BitVec 32 := 0#32
  let v1686 : BitVec 1 := Scalar.cmpi .sgt v1662 c0_i32_938
  let v1687 : BitVec 32 := Scalar.extui v1686
  let c0_i32_939 : BitVec 32 := 0#32
  let v1688 : BitVec 1 := Scalar.cmpi .slt v1662 c0_i32_939
  let v1689 : BitVec 32 := Scalar.extui v1688
  let v1690 : BitVec 32 := Scalar.subi v1687 v1689
  let c0_i32_940 : BitVec 32 := 0#32
  let v1691 : BitVec 1 := Scalar.cmpi .sgt c3_i32_937 c0_i32_940
  let v1692 : BitVec 32 := Scalar.extui v1691
  let c0_i32_941 : BitVec 32 := 0#32
  let v1693 : BitVec 1 := Scalar.cmpi .slt c3_i32_937 c0_i32_941
  let v1694 : BitVec 32 := Scalar.extui v1693
  let v1695 : BitVec 32 := Scalar.subi v1692 v1694
  let v1696 : BitVec 1 := Scalar.cmpi .ne v1690 v1695
  let v1697 : BitVec 32 := Scalar.remsi v1662 c3_i32_937
  let c0_i32_942 : BitVec 32 := 0#32
  let v1698 : BitVec 1 := Scalar.cmpi .ne v1697 c0_i32_942
  let v1699 : BitVec 1 := Scalar.andi v1696 v1698
  let c1_i32_943 : BitVec 32 := 1#32
  let v1700 : BitVec 32 := Scalar.subi v1685 c1_i32_943
  let v1701 : BitVec 32 := Scalar.select v1699 v1700 v1685
  let v1702 : BitVec 32 := Scalar.addi v1684 v1701
  let c3_i32_944 : BitVec 32 := 3#32
  let v1703 : BitVec 32 := Scalar.muli c3_i32_944 v1662
  let c14_i32_945 : BitVec 32 := 14#32
  let v1704 : BitVec 32 := Scalar.addi v1703 c14_i32_945
  let v1705 : BitVec 32 := Scalar.select v1672 v1702 v1704
  let c60_i32_946 : BitVec 32 := 60#32
  let v1706 : BitVec 32 := Scalar.muli v1652 c60_i32_946
  let v1707 : BitVec 32 := Scalar.addi v1706 v1671
  let c4_i32_947 : BitVec 32 := 4#32
  let v1708 : BitVec 32 := Scalar.muli v1707 c4_i32_947
  let c2_i32_948 : BitVec 32 := 2#32
  let v1709 : BitVec 32 := Scalar.addi v1708 c2_i32_948
  let c65536_i32_949 : BitVec 32 := 65536#32
  let v1710 : BitVec 32 := Scalar.muli v1709 c65536_i32_949
  let c60_i32_950 : BitVec 32 := 60#32
  let v1711 : BitVec 32 := Scalar.muli v1652 c60_i32_950
  let v1712 : BitVec 32 := Scalar.addi v1711 v1705
  let c4_i32_951 : BitVec 32 := 4#32
  let v1713 : BitVec 32 := Scalar.muli v1712 c4_i32_951
  let c2_i32_952 : BitVec 32 := 2#32
  let v1714 : BitVec 32 := Scalar.addi v1713 c2_i32_952
  let c65536_i32_953 : BitVec 32 := 65536#32
  let v1715 : BitVec 32 := Scalar.muli v1714 c65536_i32_953
  let v1716 : BitVec 32 := v1667
  let c0_i32_954 : BitVec 32 := 0#32
  let v1717 : Memref sig .scVector .shared S1x65536 .f32 := shW.slice (Rect.unit (s := S16x65536) (k0_off1 i) S1x65536.size (k0_off1_inb i)) (fun _ => rfl)
  let v1718 : Memref sig .scVector .shared S65536 .f32 := rowM i
  let v1719 : Memref sig .scVector .hbm S65536 .f32 := (xw8 i)
  Prog.lift (.enqueueDma v1719 (.here v1718) (.dma cc0_scratch2.sem) (View.wordExact_bits rfl) ((View.wordExact_bits rfl).reshape _ _) ⟨Or.inl rfl, trivial⟩)
  pure ⟨⟩

noncomputable def q_part47 (i : grid0.Coords) (v1 : BitVec 32) :
    Prog (TpuEff nD τ sig (Elt F) Λ₀ (.scVector ((i 0).castLE hcore0) ((i 1).castLE hsub0))) (Σ' (v1741 : BitVec 32) (v1751 : BitVec 32), BitVec 32) := do
  let c0_i32_955 : BitVec 32 := 0#32
  let v1720 : Memref sig .scVector .shared S1x65536 .f32 := shW.slice (Rect.unit (s := S16x65536) (k0_off1 i) S1x65536.size (k0_off1_inb i)) (fun _ => rfl)
  let v1721 : Memref sig .scVector .shared S65536 .f32 := rowM i
  let c0_i32_956 : BitVec 32 := 0#32
  let v1722 : Memref sig .scVector .hbm S65536 .f32 := xW.slice (Rect.unit (s := S16777216) ![0] S65536.size inb_S16777216_S65536_0) (fun _ => rfl)
  Prog.lift (.waitDma2 cc0_scratch2.sem v1722 v1721 (View.wordExact_bits rfl) ((View.wordExact_bits rfl).reshape _ _))
  let c2_i32_957 : BitVec 32 := 2#32
  let v1723 : BitVec 32 := Scalar.muli c2_i32_957 v1
  let c1_i32_958 : BitVec 32 := 1#32
  let v1724 : BitVec 32 := Scalar.addi v1723 c1_i32_958
  let c16_i32_959 : BitVec 32 := 16#32
  let v1725 : BitVec 32 := Scalar.divsi v1724 c16_i32_959
  let c0_i32_960 : BitVec 32 := 0#32
  let v1726 : BitVec 1 := Scalar.cmpi .sgt v1724 c0_i32_960
  let v1727 : BitVec 32 := Scalar.extui v1726
  let c0_i32_961 : BitVec 32 := 0#32
  let v1728 : BitVec 1 := Scalar.cmpi .slt v1724 c0_i32_961
  let v1729 : BitVec 32 := Scalar.extui v1728
  let v1730 : BitVec 32 := Scalar.subi v1727 v1729
  let c0_i32_962 : BitVec 32 := 0#32
  let v1731 : BitVec 1 := Scalar.cmpi .sgt c16_i32_959 c0_i32_962
  let v1732 : BitVec 32 := Scalar.extui v1731
  let c0_i32_963 : BitVec 32 := 0#32
  let v1733 : BitVec 1 := Scalar.cmpi .slt c16_i32_959 c0_i32_963
  let v1734 : BitVec 32 := Scalar.extui v1733
  let v1735 : BitVec 32 := Scalar.subi v1732 v1734
  let v1736 : BitVec 1 := Scalar.cmpi .ne v1730 v1735
  let v1737 : BitVec 32 := Scalar.remsi v1724 c16_i32_959
  let c0_i32_964 : BitVec 32 := 0#32
  let v1738 : BitVec 1 := Scalar.cmpi .ne v1737 c0_i32_964
  let v1739 : BitVec 1 := Scalar.andi v1736 v1738
  let c1_i32_965 : BitVec 32 := 1#32
  let v1740 : BitVec 32 := Scalar.subi v1725 c1_i32_965
  let v1741 : BitVec 32 := Scalar.select v1739 v1740 v1725
  let c16_i32_966 : BitVec 32 := 16#32
  let c0_i32_967 : BitVec 32 := 0#32
  let v1742 : BitVec 1 := Scalar.cmpi .eq c16_i32_966 c0_i32_967
  let c1_i32_968 : BitVec 32 := 1#32
  let v1743 : BitVec 32 := Scalar.select v1742 c1_i32_968 c16_i32_966
  let v1744 : BitVec 32 := Scalar.remsi v1724 v1743
  let c0_i32_969 : BitVec 32 := 0#32
  let v1745 : BitVec 1 := Scalar.cmpi .ne v1744 c0_i32_969
  let c0_i32_970 : BitVec 32 := 0#32
  let v1746 : BitVec 1 := Scalar.cmpi .slt v1744 c0_i32_970
  let c0_i32_971 : BitVec 32 := 0#32
  let v1747 : BitVec 1 := Scalar.cmpi .slt v1743 c0_i32_971
  let v1748 : BitVec 1 := Scalar.xori v1746 v1747
  let v1749 : BitVec 1 := Scalar.andi v1748 v1745
  let v1750 : BitVec 32 := Scalar.addi v1744 v1743
  let v1751 : BitVec 32 := Scalar.select v1749 v1750 v1744
  let c16_i32_972 : BitVec 32 := 16#32
  let v1752 : BitVec 32 := Scalar.muli v1741 c16_i32_972
  let v1753 : BitVec 32 := Scalar.addi v1752 v1751
  let c4_i32_973 : BitVec 32 := 4#32
  let v1754 : BitVec 32 := Scalar.muli v1753 c4_i32_973
  let c2_i32_974 : BitVec 32 := 2#32
  let v1755 : BitVec 32 := Scalar.addi v1754 c2_i32_974
  let c65536_i32_975 : BitVec 32 := 65536#32
  let v1756 : BitVec 32 := Scalar.muli v1755 c65536_i32_975
  let c9_i32_976 : BitVec 32 := 9#32
  pure ⟨v1741, v1751, c9_i32_976⟩

noncomputable def q_part48 (i : grid0.Coords) (v1741 : BitVec 32) (v1751 : BitVec 32) (c9_i32_976 : BitVec 32) :
    Prog (TpuEff nD τ sig (Elt F) Λ₀ (.scVector ((i 0).castLE hcore0) ((i 1).castLE hsub0))) (Σ' (v1760 : BitVec 32) (v1794 : BitVec 32), BitVec 32) := do
  let v1757 : BitVec 1 := Scalar.cmpi .slt v1751 c9_i32_976
  let c3_i32_977 : BitVec 32 := 3#32
  let v1758 : BitVec 32 := Scalar.muli c3_i32_977 v1751
  let c16_i32_978 : BitVec 32 := 16#32
  let v1759 : BitVec 32 := Scalar.subi v1758 c16_i32_978
  let v1760 : BitVec 32 := Scalar.select v1757 v1751 v1759
  let c9_i32_979 : BitVec 32 := 9#32
  let v1761 : BitVec 1 := Scalar.cmpi .slt v1751 c9_i32_979
  let c3_i32_980 : BitVec 32 := 3#32
  let c0_i32_981 : BitVec 32 := 0#32
  let v1762 : BitVec 1 := Scalar.cmpi .eq c3_i32_980 c0_i32_981
  let c1_i32_982 : BitVec 32 := 1#32
  let v1763 : BitVec 32 := Scalar.select v1762 c1_i32_982 c3_i32_980
  let v1764 : BitVec 32 := Scalar.remsi v1751 v1763
  let c0_i32_983 : BitVec 32 := 0#32
  let v1765 : BitVec 1 := Scalar.cmpi .ne v1764 c0_i32_983
  let c0_i32_984 : BitVec 32 := 0#32
  let v1766 : BitVec 1 := Scalar.cmpi .slt v1764 c0_i32_984
  let c0_i32_985 : BitVec 32 := 0#32
  let v1767 : BitVec 1 := Scalar.cmpi .slt v1763 c0_i32_985
  let v1768 : BitVec 1 := Scalar.xori v1766 v1767
  let v1769 : BitVec 1 := Scalar.andi v1768 v1765
  let v1770 : BitVec 32 := Scalar.addi v1764 v1763
  let v1771 : BitVec 32 := Scalar.select v1769 v1770 v1764
  let c3_i32_986 : BitVec 32 := 3#32
  let v1772 : BitVec 32 := Scalar.muli c3_i32_986 v1771
  let c30_i32_987 : BitVec 32 := 30#32
  let v1773 : BitVec 32 := Scalar.addi c30_i32_987 v1772
  let c3_i32_988 : BitVec 32 := 3#32
  let v1774 : BitVec 32 := Scalar.divsi v1751 c3_i32_988
  let c0_i32_989 : BitVec 32 := 0#32
  let v1775 : BitVec 1 := Scalar.cmpi .sgt v1751 c0_i32_989
  let v1776 : BitVec 32 := Scalar.extui v1775
  let c0_i32_990 : BitVec 32 := 0#32
  let v1777 : BitVec 1 := Scalar.cmpi .slt v1751 c0_i32_990
  let v1778 : BitVec 32 := Scalar.extui v1777
  let v1779 : BitVec 32 := Scalar.subi v1776 v1778
  let c0_i32_991 : BitVec 32 := 0#32
  let v1780 : BitVec 1 := Scalar.cmpi .sgt c3_i32_988 c0_i32_991
  let v1781 : BitVec 32 := Scalar.extui v1780
  let c0_i32_992 : BitVec 32 := 0#32
  let v1782 : BitVec 1 := Scalar.cmpi .slt c3_i32_988 c0_i32_992
  let v1783 : BitVec 32 := Scalar.extui v1782
  let v1784 : BitVec 32 := Scalar.subi v1781 v1783
  let v1785 : BitVec 1 := Scalar.cmpi .ne v1779 v1784
  let v1786 : BitVec 32 := Scalar.remsi v1751 c3_i32_988
  let c0_i32_993 : BitVec 32 := 0#32
  let v1787 : BitVec 1 := Scalar.cmpi .ne v1786 c0_i32_993
  let v1788 : BitVec 1 := Scalar.andi v1785 v1787
  let c1_i32_994 : BitVec 32 := 1#32
  let v1789 : BitVec 32 := Scalar.subi v1774 c1_i32_994
  let v1790 : BitVec 32 := Scalar.select v1788 v1789 v1774
  let v1791 : BitVec 32 := Scalar.addi v1773 v1790
  let c3_i32_995 : BitVec 32 := 3#32
  let v1792 : BitVec 32 := Scalar.muli c3_i32_995 v1751
  let c14_i32_996 : BitVec 32 := 14#32
  let v1793 : BitVec 32 := Scalar.addi v1792 c14_i32_996
  let v1794 : BitVec 32 := Scalar.select v1761 v1791 v1793
  let c60_i32_997 : BitVec 32 := 60#32
  let v1795 : BitVec 32 := Scalar.muli v1741 c60_i32_997
  pure ⟨v1760, v1794, v1795⟩

noncomputable def q_part49 (i : grid0.Coords) (v1 : BitVec 32) (v1741 : BitVec 32) (v1760 : BitVec 32) (v1794 : BitVec 32) (v1795 : BitVec 32) :
    Prog (TpuEff nD τ sig (Elt F) Λ₀ (.scVector ((i 0).castLE hcore0) ((i 1).castLE hsub0))) (Σ' (v1818 : BitVec 32) (v1819 : BitVec 32) (v1830 : BitVec 1), BitVec 32) := do
  let v1796 : BitVec 32 := Scalar.addi v1795 v1760
  let c4_i32_998 : BitVec 32 := 4#32
  let v1797 : BitVec 32 := Scalar.muli v1796 c4_i32_998
  let c2_i32_999 : BitVec 32 := 2#32
  let v1798 : BitVec 32 := Scalar.addi v1797 c2_i32_999
  let c65536_i32_1000 : BitVec 32 := 65536#32
  let v1799 : BitVec 32 := Scalar.muli v1798 c65536_i32_1000
  let c60_i32_1001 : BitVec 32 := 60#32
  let v1800 : BitVec 32 := Scalar.muli v1741 c60_i32_1001
  let v1801 : BitVec 32 := Scalar.addi v1800 v1794
  let c4_i32_1002 : BitVec 32 := 4#32
  let v1802 : BitVec 32 := Scalar.muli v1801 c4_i32_1002
  let c2_i32_1003 : BitVec 32 := 2#32
  let v1803 : BitVec 32 := Scalar.addi v1802 c2_i32_1003
  let c65536_i32_1004 : BitVec 32 := 65536#32
  let v1804 : BitVec 32 := Scalar.muli v1803 c65536_i32_1004
  let v1805 : BitVec 32 := v1799
  let v1806 : Memref sig .scVector .hbm S65536 .f32 := (pc26 i)
  let c0_i32_1005 : BitVec 32 := 0#32
  let v1807 : Memref sig .scVector .shared S1x65536 .f32 := shW.slice (Rect.unit (s := S16x65536) (k0_off1 i) S1x65536.size (k0_off1_inb i)) (fun _ => rfl)
  let v1808 : Memref sig .scVector .shared S65536 .f32 := rowM i
  Prog.lift (.enqueueDma v1808 (.here v1806) (.dma cc0_scratch4.sem) ((View.wordExact_bits rfl).reshape _ _) (View.wordExact_bits rfl) ⟨Or.inl rfl, trivial⟩)
  let v1809 : BitVec 32 := v1804
  let v1810 : Memref sig .scVector .hbm S65536 .f32 := (pc27 i)
  let c0_i32_1006 : BitVec 32 := 0#32
  let v1811 : Memref sig .scVector .shared S1x65536 .f32 := shW.slice (Rect.unit (s := S16x65536) (k0_off1 i) S1x65536.size (k0_off1_inb i)) (fun _ => rfl)
  let v1812 : Memref sig .scVector .shared S65536 .f32 := rowM i
  Prog.lift (.enqueueDma v1812 (.here v1810) (.dma cc0_scratch4.sem) ((View.wordExact_bits rfl).reshape _ _) (View.wordExact_bits rfl) ⟨Or.inl rfl, trivial⟩)
  let c0_i32_1007 : BitVec 32 := 0#32
  let v1813 : Memref sig .scVector .hbm S65536 .f32 := oW.slice (Rect.unit (s := S62914560) ![0] S65536.size inb_S62914560_S65536_0) (fun _ => rfl)
  let c0_i32_1008 : BitVec 32 := 0#32
  let v1814 : Memref sig .scVector .hbm S65536 .f32 := oW.slice (Rect.unit (s := S62914560) ![0] S65536.size inb_S62914560_S65536_0) (fun _ => rfl)
  Prog.lift (.waitDma2 cc0_scratch5.sem bW v1814 (Memref.isWhole_whole _).wordExact (View.wordExact_bits rfl))
  let c0_i32_1009 : BitVec 32 := 0#32
  let v1815 : Memref sig .scVector .hbm S65536 .f32 := oW.slice (Rect.unit (s := S62914560) ![0] S65536.size inb_S62914560_S65536_0) (fun _ => rfl)
  let c0_i32_1010 : BitVec 32 := 0#32
  let v1816 : Memref sig .scVector .hbm S65536 .f32 := oW.slice (Rect.unit (s := S62914560) ![0] S65536.size inb_S62914560_S65536_0) (fun _ => rfl)
  Prog.lift (.waitDma2 cc0_scratch5.sem bW v1816 (Memref.isWhole_whole _).wordExact (View.wordExact_bits rfl))
  let c2_i32_1011 : BitVec 32 := 2#32
  let v1817 : BitVec 32 := Scalar.muli c2_i32_1011 v1
  let c1_i32_1012 : BitVec 32 := 1#32
  let v1818 : BitVec 32 := Scalar.addi v1817 c1_i32_1012
  let c16_i32_1013 : BitVec 32 := 16#32
  let v1819 : BitVec 32 := Scalar.divsi v1818 c16_i32_1013
  let c0_i32_1014 : BitVec 32 := 0#32
  let v1820 : BitVec 1 := Scalar.cmpi .sgt v1818 c0_i32_1014
  let v1821 : BitVec 32 := Scalar.extui v1820
  let c0_i32_1015 : BitVec 32 := 0#32
  let v1822 : BitVec 1 := Scalar.cmpi .slt v1818 c0_i32_1015
  let v1823 : BitVec 32 := Scalar.extui v1822
  let v1824 : BitVec 32 := Scalar.subi v1821 v1823
  let c0_i32_1016 : BitVec 32 := 0#32
  let v1825 : BitVec 1 := Scalar.cmpi .sgt c16_i32_1013 c0_i32_1016
  let v1826 : BitVec 32 := Scalar.extui v1825
  let c0_i32_1017 : BitVec 32 := 0#32
  let v1827 : BitVec 1 := Scalar.cmpi .slt c16_i32_1013 c0_i32_1017
  let v1828 : BitVec 32 := Scalar.extui v1827
  let v1829 : BitVec 32 := Scalar.subi v1826 v1828
  let v1830 : BitVec 1 := Scalar.cmpi .ne v1824 v1829
  let v1831 : BitVec 32 := Scalar.remsi v1818 c16_i32_1013
  pure ⟨v1818, v1819, v1830, v1831⟩

noncomputable def q_part50 (i : grid0.Coords) (v1818 : BitVec 32) (v1819 : BitVec 32) (v1830 : BitVec 1) (v1831 : BitVec 32) :
    Prog (TpuEff nD τ sig (Elt F) Λ₀ (.scVector ((i 0).castLE hcore0) ((i 1).castLE hsub0))) (Σ' (v1835 : BitVec 32) (v1845 : BitVec 32) (v1850 : BitVec 32) (v1854 : BitVec 32) (v1855 : BitVec 1), BitVec 32) := do
  let c0_i32_1018 : BitVec 32 := 0#32
  let v1832 : BitVec 1 := Scalar.cmpi .ne v1831 c0_i32_1018
  let v1833 : BitVec 1 := Scalar.andi v1830 v1832
  let c1_i32_1019 : BitVec 32 := 1#32
  let v1834 : BitVec 32 := Scalar.subi v1819 c1_i32_1019
  let v1835 : BitVec 32 := Scalar.select v1833 v1834 v1819
  let c16_i32_1020 : BitVec 32 := 16#32
  let c0_i32_1021 : BitVec 32 := 0#32
  let v1836 : BitVec 1 := Scalar.cmpi .eq c16_i32_1020 c0_i32_1021
  let c1_i32_1022 : BitVec 32 := 1#32
  let v1837 : BitVec 32 := Scalar.select v1836 c1_i32_1022 c16_i32_1020
  let v1838 : BitVec 32 := Scalar.remsi v1818 v1837
  let c0_i32_1023 : BitVec 32 := 0#32
  let v1839 : BitVec 1 := Scalar.cmpi .ne v1838 c0_i32_1023
  let c0_i32_1024 : BitVec 32 := 0#32
  let v1840 : BitVec 1 := Scalar.cmpi .slt v1838 c0_i32_1024
  let c0_i32_1025 : BitVec 32 := 0#32
  let v1841 : BitVec 1 := Scalar.cmpi .slt v1837 c0_i32_1025
  let v1842 : BitVec 1 := Scalar.xori v1840 v1841
  let v1843 : BitVec 1 := Scalar.andi v1842 v1839
  let v1844 : BitVec 32 := Scalar.addi v1838 v1837
  let v1845 : BitVec 32 := Scalar.select v1843 v1844 v1838
  let c16_i32_1026 : BitVec 32 := 16#32
  let v1846 : BitVec 32 := Scalar.muli v1835 c16_i32_1026
  let v1847 : BitVec 32 := Scalar.addi v1846 v1845
  let c4_i32_1027 : BitVec 32 := 4#32
  let v1848 : BitVec 32 := Scalar.muli v1847 c4_i32_1027
  let c3_i32_1028 : BitVec 32 := 3#32
  let v1849 : BitVec 32 := Scalar.addi v1848 c3_i32_1028
  let c65536_i32_1029 : BitVec 32 := 65536#32
  let v1850 : BitVec 32 := Scalar.muli v1849 c65536_i32_1029
  let c9_i32_1030 : BitVec 32 := 9#32
  let v1851 : BitVec 1 := Scalar.cmpi .slt v1845 c9_i32_1030
  let c3_i32_1031 : BitVec 32 := 3#32
  let v1852 : BitVec 32 := Scalar.muli c3_i32_1031 v1845
  let c16_i32_1032 : BitVec 32 := 16#32
  let v1853 : BitVec 32 := Scalar.subi v1852 c16_i32_1032
  let v1854 : BitVec 32 := Scalar.select v1851 v1845 v1853
  let c9_i32_1033 : BitVec 32 := 9#32
  let v1855 : BitVec 1 := Scalar.cmpi .slt v1845 c9_i32_1033
  let c3_i32_1034 : BitVec 32 := 3#32
  let c0_i32_1035 : BitVec 32 := 0#32
  let v1856 : BitVec 1 := Scalar.cmpi .eq c3_i32_1034 c0_i32_1035
  let c1_i32_1036 : BitVec 32 := 1#32
  let v1857 : BitVec 32 := Scalar.select v1856 c1_i32_1036 c3_i32_1034
  let v1858 : BitVec 32 := Scalar.remsi v1845 v1857
  let c0_i32_1037 : BitVec 32 := 0#32
  let v1859 : BitVec 1 := Scalar.cmpi .ne v1858 c0_i32_1037
  let c0_i32_1038 : BitVec 32 := 0#32
  let v1860 : BitVec 1 := Scalar.cmpi .slt v1858 c0_i32_1038
  let c0_i32_1039 : BitVec 32 := 0#32
  let v1861 : BitVec 1 := Scalar.cmpi .slt v1857 c0_i32_1039
  let v1862 : BitVec 1 := Scalar.xori v1860 v1861
  let v1863 : BitVec 1 := Scalar.andi v1862 v1859
  let v1864 : BitVec 32 := Scalar.addi v1858 v1857
  let v1865 : BitVec 32 := Scalar.select v1863 v1864 v1858
  let c3_i32_1040 : BitVec 32 := 3#32
  let v1866 : BitVec 32 := Scalar.muli c3_i32_1040 v1865
  let c30_i32_1041 : BitVec 32 := 30#32
  let v1867 : BitVec 32 := Scalar.addi c30_i32_1041 v1866
  pure ⟨v1835, v1845, v1850, v1854, v1855, v1867⟩

noncomputable def q_part51 (i : grid0.Coords) (v1 : BitVec 32) (v1835 : BitVec 32) (v1845 : BitVec 32) (v1850 : BitVec 32) (v1854 : BitVec 32) (v1855 : BitVec 1) (v1867 : BitVec 32) :
    Prog (TpuEff nD τ sig (Elt F) Λ₀ (.scVector ((i 0).castLE hcore0) ((i 1).castLE hsub0))) (Σ' (v1904 : BitVec 32), BitVec 32) := do
  let c3_i32_1042 : BitVec 32 := 3#32
  let v1868 : BitVec 32 := Scalar.divsi v1845 c3_i32_1042
  let c0_i32_1043 : BitVec 32 := 0#32
  let v1869 : BitVec 1 := Scalar.cmpi .sgt v1845 c0_i32_1043
  let v1870 : BitVec 32 := Scalar.extui v1869
  let c0_i32_1044 : BitVec 32 := 0#32
  let v1871 : BitVec 1 := Scalar.cmpi .slt v1845 c0_i32_1044
  let v1872 : BitVec 32 := Scalar.extui v1871
  let v1873 : BitVec 32 := Scalar.subi v1870 v1872
  let c0_i32_1045 : BitVec 32 := 0#32
  let v1874 : BitVec 1 := Scalar.cmpi .sgt c3_i32_1042 c0_i32_1045
  let v1875 : BitVec 32 := Scalar.extui v1874
  let c0_i32_1046 : BitVec 32 := 0#32
  let v1876 : BitVec 1 := Scalar.cmpi .slt c3_i32_1042 c0_i32_1046
  let v1877 : BitVec 32 := Scalar.extui v1876
  let v1878 : BitVec 32 := Scalar.subi v1875 v1877
  let v1879 : BitVec 1 := Scalar.cmpi .ne v1873 v1878
  let v1880 : BitVec 32 := Scalar.remsi v1845 c3_i32_1042
  let c0_i32_1047 : BitVec 32 := 0#32
  let v1881 : BitVec 1 := Scalar.cmpi .ne v1880 c0_i32_1047
  let v1882 : BitVec 1 := Scalar.andi v1879 v1881
  let c1_i32_1048 : BitVec 32 := 1#32
  let v1883 : BitVec 32 := Scalar.subi v1868 c1_i32_1048
  let v1884 : BitVec 32 := Scalar.select v1882 v1883 v1868
  let v1885 : BitVec 32 := Scalar.addi v1867 v1884
  let c3_i32_1049 : BitVec 32 := 3#32
  let v1886 : BitVec 32 := Scalar.muli c3_i32_1049 v1845
  let c14_i32_1050 : BitVec 32 := 14#32
  let v1887 : BitVec 32 := Scalar.addi v1886 c14_i32_1050
  let v1888 : BitVec 32 := Scalar.select v1855 v1885 v1887
  let c60_i32_1051 : BitVec 32 := 60#32
  let v1889 : BitVec 32 := Scalar.muli v1835 c60_i32_1051
  let v1890 : BitVec 32 := Scalar.addi v1889 v1854
  let c4_i32_1052 : BitVec 32 := 4#32
  let v1891 : BitVec 32 := Scalar.muli v1890 c4_i32_1052
  let c3_i32_1053 : BitVec 32 := 3#32
  let v1892 : BitVec 32 := Scalar.addi v1891 c3_i32_1053
  let c65536_i32_1054 : BitVec 32 := 65536#32
  let v1893 : BitVec 32 := Scalar.muli v1892 c65536_i32_1054
  let c60_i32_1055 : BitVec 32 := 60#32
  let v1894 : BitVec 32 := Scalar.muli v1835 c60_i32_1055
  let v1895 : BitVec 32 := Scalar.addi v1894 v1888
  let c4_i32_1056 : BitVec 32 := 4#32
  let v1896 : BitVec 32 := Scalar.muli v1895 c4_i32_1056
  let c3_i32_1057 : BitVec 32 := 3#32
  let v1897 : BitVec 32 := Scalar.addi v1896 c3_i32_1057
  let c65536_i32_1058 : BitVec 32 := 65536#32
  let v1898 : BitVec 32 := Scalar.muli v1897 c65536_i32_1058
  let v1899 : BitVec 32 := v1850
  let v1900 : Memref sig .scVector .hbm S65536 .f32 := (xw9 i)
  let v1901 : Memref sig .scVector .hbm S65536 .f32 := (xw9 i)
  Prog.lift (.enqueueDma v1901 (.here bW) (.dma cc0_scratch3.sem) (View.wordExact_bits rfl) (Memref.isWhole_whole _).wordExact ⟨Or.inl rfl, trivial⟩)
  let c0_i32_1059 : BitVec 32 := 0#32
  let v1902 : Memref sig .scVector .hbm S65536 .f32 := xW.slice (Rect.unit (s := S16777216) ![0] S65536.size inb_S16777216_S65536_0) (fun _ => rfl)
  let c0_i32_1060 : BitVec 32 := 0#32
  let v1903 : Memref sig .scVector .hbm S65536 .f32 := xW.slice (Rect.unit (s := S16777216) ![0] S65536.size inb_S16777216_S65536_0) (fun _ => rfl)
  Prog.lift (.waitDma2 cc0_scratch3.sem v1903 bW (View.wordExact_bits rfl) (Memref.isWhole_whole _).wordExact)
  let c2_i32_1061 : BitVec 32 := 2#32
  let v1904 : BitVec 32 := Scalar.muli c2_i32_1061 v1
  let c1_i32_1062 : BitVec 32 := 1#32
  pure ⟨v1904, c1_i32_1062⟩

noncomputable def q_part52 (i : grid0.Coords) (v1904 : BitVec 32) (c1_i32_1062 : BitVec 32) :
    Prog (TpuEff nD τ sig (Elt F) Λ₀ (.scVector ((i 0).castLE hcore0) ((i 1).castLE hsub0))) (Σ' (v1922 : BitVec 32) (v1932 : BitVec 32) (v1941 : BitVec 32) (v1942 : BitVec 1), BitVec 32) := do
  let v1905 : BitVec 32 := Scalar.addi v1904 c1_i32_1062
  let c16_i32_1063 : BitVec 32 := 16#32
  let v1906 : BitVec 32 := Scalar.divsi v1905 c16_i32_1063
  let c0_i32_1064 : BitVec 32 := 0#32
  let v1907 : BitVec 1 := Scalar.cmpi .sgt v1905 c0_i32_1064
  let v1908 : BitVec 32 := Scalar.extui v1907
  let c0_i32_1065 : BitVec 32 := 0#32
  let v1909 : BitVec 1 := Scalar.cmpi .slt v1905 c0_i32_1065
  let v1910 : BitVec 32 := Scalar.extui v1909
  let v1911 : BitVec 32 := Scalar.subi v1908 v1910
  let c0_i32_1066 : BitVec 32 := 0#32
  let v1912 : BitVec 1 := Scalar.cmpi .sgt c16_i32_1063 c0_i32_1066
  let v1913 : BitVec 32 := Scalar.extui v1912
  let c0_i32_1067 : BitVec 32 := 0#32
  let v1914 : BitVec 1 := Scalar.cmpi .slt c16_i32_1063 c0_i32_1067
  let v1915 : BitVec 32 := Scalar.extui v1914
  let v1916 : BitVec 32 := Scalar.subi v1913 v1915
  let v1917 : BitVec 1 := Scalar.cmpi .ne v1911 v1916
  let v1918 : BitVec 32 := Scalar.remsi v1905 c16_i32_1063
  let c0_i32_1068 : BitVec 32 := 0#32
  let v1919 : BitVec 1 := Scalar.cmpi .ne v1918 c0_i32_1068
  let v1920 : BitVec 1 := Scalar.andi v1917 v1919
  let c1_i32_1069 : BitVec 32 := 1#32
  let v1921 : BitVec 32 := Scalar.subi v1906 c1_i32_1069
  let v1922 : BitVec 32 := Scalar.select v1920 v1921 v1906
  let c16_i32_1070 : BitVec 32 := 16#32
  let c0_i32_1071 : BitVec 32 := 0#32
  let v1923 : BitVec 1 := Scalar.cmpi .eq c16_i32_1070 c0_i32_1071
  let c1_i32_1072 : BitVec 32 := 1#32
  let v1924 : BitVec 32 := Scalar.select v1923 c1_i32_1072 c16_i32_1070
  let v1925 : BitVec 32 := Scalar.remsi v1905 v1924
  let c0_i32_1073 : BitVec 32 := 0#32
  let v1926 : BitVec 1 := Scalar.cmpi .ne v1925 c0_i32_1073
  let c0_i32_1074 : BitVec 32 := 0#32
  let v1927 : BitVec 1 := Scalar.cmpi .slt v1925 c0_i32_1074
  let c0_i32_1075 : BitVec 32 := 0#32
  let v1928 : BitVec 1 := Scalar.cmpi .slt v1924 c0_i32_1075
  let v1929 : BitVec 1 := Scalar.xori v1927 v1928
  let v1930 : BitVec 1 := Scalar.andi v1929 v1926
  let v1931 : BitVec 32 := Scalar.addi v1925 v1924
  let v1932 : BitVec 32 := Scalar.select v1930 v1931 v1925
  let c16_i32_1076 : BitVec 32 := 16#32
  let v1933 : BitVec 32 := Scalar.muli v1922 c16_i32_1076
  let v1934 : BitVec 32 := Scalar.addi v1933 v1932
  let c4_i32_1077 : BitVec 32 := 4#32
  let v1935 : BitVec 32 := Scalar.muli v1934 c4_i32_1077
  let c3_i32_1078 : BitVec 32 := 3#32
  let v1936 : BitVec 32 := Scalar.addi v1935 c3_i32_1078
  let c65536_i32_1079 : BitVec 32 := 65536#32
  let v1937 : BitVec 32 := Scalar.muli v1936 c65536_i32_1079
  let c9_i32_1080 : BitVec 32 := 9#32
  let v1938 : BitVec 1 := Scalar.cmpi .slt v1932 c9_i32_1080
  let c3_i32_1081 : BitVec 32 := 3#32
  let v1939 : BitVec 32 := Scalar.muli c3_i32_1081 v1932
  let c16_i32_1082 : BitVec 32 := 16#32
  let v1940 : BitVec 32 := Scalar.subi v1939 c16_i32_1082
  let v1941 : BitVec 32 := Scalar.select v1938 v1932 v1940
  let c9_i32_1083 : BitVec 32 := 9#32
  let v1942 : BitVec 1 := Scalar.cmpi .slt v1932 c9_i32_1083
  let c3_i32_1084 : BitVec 32 := 3#32
  pure ⟨v1922, v1932, v1941, v1942, c3_i32_1084⟩

noncomputable def q_part53 (i : grid0.Coords) (v1922 : BitVec 32) (v1932 : BitVec 32) (v1941 : BitVec 32) (v1942 : BitVec 1) (c3_i32_1084 : BitVec 32) :
    Prog (TpuEff nD τ sig (Elt F) Λ₀ (.scVector ((i 0).castLE hcore0) ((i 1).castLE hsub0))) (Σ' (v1975 : BitVec 32) (v1980 : BitVec 32), BitVec 32) := do
  let c0_i32_1085 : BitVec 32 := 0#32
  let v1943 : BitVec 1 := Scalar.cmpi .eq c3_i32_1084 c0_i32_1085
  let c1_i32_1086 : BitVec 32 := 1#32
  let v1944 : BitVec 32 := Scalar.select v1943 c1_i32_1086 c3_i32_1084
  let v1945 : BitVec 32 := Scalar.remsi v1932 v1944
  let c0_i32_1087 : BitVec 32 := 0#32
  let v1946 : BitVec 1 := Scalar.cmpi .ne v1945 c0_i32_1087
  let c0_i32_1088 : BitVec 32 := 0#32
  let v1947 : BitVec 1 := Scalar.cmpi .slt v1945 c0_i32_1088
  let c0_i32_1089 : BitVec 32 := 0#32
  let v1948 : BitVec 1 := Scalar.cmpi .slt v1944 c0_i32_1089
  let v1949 : BitVec 1 := Scalar.xori v1947 v1948
  let v1950 : BitVec 1 := Scalar.andi v1949 v1946
  let v1951 : BitVec 32 := Scalar.addi v1945 v1944
  let v1952 : BitVec 32 := Scalar.select v1950 v1951 v1945
  let c3_i32_1090 : BitVec 32 := 3#32
  let v1953 : BitVec 32 := Scalar.muli c3_i32_1090 v1952
  let c30_i32_1091 : BitVec 32 := 30#32
  let v1954 : BitVec 32 := Scalar.addi c30_i32_1091 v1953
  let c3_i32_1092 : BitVec 32 := 3#32
  let v1955 : BitVec 32 := Scalar.divsi v1932 c3_i32_1092
  let c0_i32_1093 : BitVec 32 := 0#32
  let v1956 : BitVec 1 := Scalar.cmpi .sgt v1932 c0_i32_1093
  let v1957 : BitVec 32 := Scalar.extui v1956
  let c0_i32_1094 : BitVec 32 := 0#32
  let v1958 : BitVec 1 := Scalar.cmpi .slt v1932 c0_i32_1094
  let v1959 : BitVec 32 := Scalar.extui v1958
  let v1960 : BitVec 32 := Scalar.subi v1957 v1959
  let c0_i32_1095 : BitVec 32 := 0#32
  let v1961 : BitVec 1 := Scalar.cmpi .sgt c3_i32_1092 c0_i32_1095
  let v1962 : BitVec 32 := Scalar.extui v1961
  let c0_i32_1096 : BitVec 32 := 0#32
  let v1963 : BitVec 1 := Scalar.cmpi .slt c3_i32_1092 c0_i32_1096
  let v1964 : BitVec 32 := Scalar.extui v1963
  let v1965 : BitVec 32 := Scalar.subi v1962 v1964
  let v1966 : BitVec 1 := Scalar.cmpi .ne v1960 v1965
  let v1967 : BitVec 32 := Scalar.remsi v1932 c3_i32_1092
  let c0_i32_1097 : BitVec 32 := 0#32
  let v1968 : BitVec 1 := Scalar.cmpi .ne v1967 c0_i32_1097
  let v1969 : BitVec 1 := Scalar.andi v1966 v1968
  let c1_i32_1098 : BitVec 32 := 1#32
  let v1970 : BitVec 32 := Scalar.subi v1955 c1_i32_1098
  let v1971 : BitVec 32 := Scalar.select v1969 v1970 v1955
  let v1972 : BitVec 32 := Scalar.addi v1954 v1971
  let c3_i32_1099 : BitVec 32 := 3#32
  let v1973 : BitVec 32 := Scalar.muli c3_i32_1099 v1932
  let c14_i32_1100 : BitVec 32 := 14#32
  let v1974 : BitVec 32 := Scalar.addi v1973 c14_i32_1100
  let v1975 : BitVec 32 := Scalar.select v1942 v1972 v1974
  let c60_i32_1101 : BitVec 32 := 60#32
  let v1976 : BitVec 32 := Scalar.muli v1922 c60_i32_1101
  let v1977 : BitVec 32 := Scalar.addi v1976 v1941
  let c4_i32_1102 : BitVec 32 := 4#32
  let v1978 : BitVec 32 := Scalar.muli v1977 c4_i32_1102
  let c3_i32_1103 : BitVec 32 := 3#32
  let v1979 : BitVec 32 := Scalar.addi v1978 c3_i32_1103
  let c65536_i32_1104 : BitVec 32 := 65536#32
  let v1980 : BitVec 32 := Scalar.muli v1979 c65536_i32_1104
  let c60_i32_1105 : BitVec 32 := 60#32
  let v1981 : BitVec 32 := Scalar.muli v1922 c60_i32_1105
  pure ⟨v1975, v1980, v1981⟩

noncomputable def q_part54 (i : grid0.Coords) :
    Prog (TpuEff nD τ sig (Elt F) Λ₀ (.scVector ((i 0).castLE hcore0) ((i 1).castLE hsub0))) (Σ' (v1980 : BitVec 32), BitVec 32) := do
  let ⟨v1, v18, v30, c4_i32, v31, v36, v37⟩ : Σ' (v1 : BitVec 32) (v18 : BitVec 32) (v30 : BitVec 32) (c4_i32 : BitVec 32) (v31 : BitVec 32) (v36 : BitVec 32), BitVec 1 ← q_part1 i
  let ⟨v47, v66, v71, v75⟩ : Σ' (v47 : BitVec 32) (v66 : BitVec 32) (v71 : BitVec 32), BitVec 32 ← q_part2 i v18 v30 c4_i32 v31 v36 v37
  let v111 : BitVec 32 ← q_part3 i v30 v47 v66 v75
  let ⟨v137, v149, c4_i32_71⟩ : Σ' (v137 : BitVec 32) (v149 : BitVec 32), BitVec 32 ← q_part4 i v1 v30 v71 v111
  let ⟨v166, v185, v188⟩ : Σ' (v166 : BitVec 32) (v185 : BitVec 32), BitVec 32 ← q_part5 i v137 c4_i32_71
  let ⟨v196, v202, v208, v214, v220, v224⟩ : Σ' (v196 : BitVec 32) (v202 : BitVec 32) (v208 : BitVec 32) (v214 : BitVec 32) (v220 : BitVec 32), BitVec 32 ← q_part6 i v149 v166 v185 v188
  let ⟨c2_i32_129, v261, v263⟩ : Σ' (c2_i32_129 : BitVec 32) (v261 : BitVec 32), BitVec 32 ← q_part7 i v1 v149 v166 v185 v196 v202 v208 v214 v220 v224
  let ⟨v277, v289, v290, v304⟩ : Σ' (v277 : BitVec 32) (v289 : BitVec 32) (v290 : BitVec 32), BitVec 1 ← q_part8 i v1 c2_i32_129 v261 v263
  let ⟨v306, v325, v330, v340⟩ : Σ' (v306 : BitVec 32) (v325 : BitVec 32) (v330 : BitVec 32), BitVec 32 ← q_part9 i v277 v289 v290 v304
  q_part10 i v289 v306 v325 v330 v340
  let ⟨v394, v406, c4_i32_212, v407, v412, v414, v415⟩ : Σ' (v394 : BitVec 32) (v406 : BitVec 32) (c4_i32_212 : BitVec 32) (v407 : BitVec 32) (v412 : BitVec 32) (v414 : BitVec 32), BitVec 1 ← q_part11 i v1
  let ⟨v423, v442, v453⟩ : Σ' (v423 : BitVec 32) (v442 : BitVec 32), BitVec 32 ← q_part12 i v394 v406 c4_i32_212 v407 v412 v414 v415
  let ⟨v459, v465, v471, v477, v483, v489⟩ : Σ' (v459 : BitVec 32) (v465 : BitVec 32) (v471 : BitVec 32) (v477 : BitVec 32) (v483 : BitVec 32), BitVec 32 ← q_part13 i v406 v423 v442
  q_part14 i v453 v459 v465 v471 v477 v483 v489
  let ⟨v550, v560, v563, c0_i32_294⟩ : Σ' (v550 : BitVec 32) (v560 : BitVec 32) (v563 : BitVec 32), BitVec 32 ← q_part15 i v1
  let ⟨v565, v569, v570, v600, v601, c14_i32⟩ : Σ' (v565 : BitVec 32) (v569 : BitVec 32) (v570 : BitVec 1) (v600 : BitVec 32) (v601 : BitVec 32), BitVec 32 ← q_part16 i v560 v563 c0_i32_294
  let ⟨v622, v639⟩ : Σ' (v622 : BitVec 32), BitVec 32 ← q_part17 i v1 v550 v565 v569 v570 v600 v601 c14_i32
  let ⟨v649, v658, v659, v671, c3_i32_357, v672, v674, c0_i32_359⟩ : Σ' (v649 : BitVec 32) (v658 : BitVec 32) (v659 : BitVec 1) (v671 : BitVec 32) (c3_i32_357 : BitVec 32) (v672 : BitVec 32) (v674 : BitVec 32), BitVec 32 ← q_part18 i v622 v639
  q_part19 i v639 v649 v658 v659 v671 c3_i32_357 v672 v674 c0_i32_359
  let ⟨v726, v743, c16_i32_399, v744⟩ : Σ' (v726 : BitVec 32) (v743 : BitVec 32) (c16_i32_399 : BitVec 32), BitVec 1 ← q_part20 i v1
  let ⟨v753, v758, v762, v763, v775, c3_i32_421, v776, v781⟩ : Σ' (v753 : BitVec 32) (v758 : BitVec 32) (v762 : BitVec 32) (v763 : BitVec 1) (v775 : BitVec 32) (c3_i32_421 : BitVec 32) (v776 : BitVec 32), BitVec 32 ← q_part21 i v726 v743 c16_i32_399 v744
  let ⟨v813, c16_i32_442, v814, v816, v818⟩ : Σ' (v813 : BitVec 32) (c16_i32_442 : BitVec 32) (v814 : BitVec 32) (v816 : BitVec 32), BitVec 32 ← q_part22 i v1 v743 v753 v758 v762 v763 v775 c3_i32_421 v776 v781
  let ⟨v830, v840, v849, v850, v852, v853, v854, v855⟩ : Σ' (v830 : BitVec 32) (v840 : BitVec 32) (v849 : BitVec 32) (v850 : BitVec 1) (v852 : BitVec 32) (v853 : BitVec 32) (v854 : BitVec 1), BitVec 1 ← q_part23 i v813 c16_i32_442 v814 v816 v818
  let v893 : BitVec 32 ← q_part24 i v830 v840 v849 v850 v852 v853 v854 v855
  let ⟨v924, v926, v927, v932⟩ : Σ' (v924 : BitVec 32) (v926 : BitVec 32) (v927 : BitVec 32), BitVec 1 ← q_part25 i v1 v893
  let ⟨v934, v939, v943, v944, v956, v957, v968, v970⟩ : Σ' (v934 : BitVec 32) (v939 : BitVec 32) (v943 : BitVec 32) (v944 : BitVec 1) (v956 : BitVec 32) (v957 : BitVec 32) (v968 : BitVec 1), BitVec 1 ← q_part26 i v924 v926 v927 v932
  let ⟨v996, c16_i32_545, v997, v1002, v1007⟩ : Σ' (v996 : BitVec 32) (c16_i32_545 : BitVec 32) (v997 : BitVec 32) (v1002 : BitVec 32), BitVec 32 ← q_part27 i v1 v924 v934 v939 v943 v944 v956 v957 v968 v970
  let ⟨v1013, v1023, v1032, v1033, v1044⟩ : Σ' (v1013 : BitVec 32) (v1023 : BitVec 32) (v1032 : BitVec 32) (v1033 : BitVec 1), BitVec 32 ← q_part28 i v996 c16_i32_545 v997 v1002 v1007
  q_part29 i v1013 v1023 v1032 v1033 v1044
  let ⟨v1107, v1117, v1119, c4_i32_613⟩ : Σ' (v1107 : BitVec 32) (v1117 : BitVec 32) (v1119 : BitVec 32), BitVec 32 ← q_part30 i v1
  let ⟨v1122, v1126, v1127, v1157, c3_i32_635⟩ : Σ' (v1122 : BitVec 32) (v1126 : BitVec 32) (v1127 : BitVec 1) (v1157 : BitVec 32), BitVec 32 ← q_part31 i v1117 v1119 c4_i32_613
  let ⟨v1177, v1194, c16_i32_656⟩ : Σ' (v1177 : BitVec 32) (v1194 : BitVec 32), BitVec 32 ← q_part32 i v1 v1107 v1117 v1122 v1126 v1127 v1157 c3_i32_635
  let ⟨v1204, v1213, v1214, v1226, c3_i32_678, v1227, v1229, v1230⟩ : Σ' (v1204 : BitVec 32) (v1213 : BitVec 32) (v1214 : BitVec 1) (v1226 : BitVec 32) (c3_i32_678 : BitVec 32) (v1227 : BitVec 32) (v1229 : BitVec 32), BitVec 1 ← q_part33 i v1177 v1194 c16_i32_656
  q_part34 i v1194 v1204 v1213 v1214 v1226 c3_i32_678 v1227 v1229 v1230
  let ⟨v1288, v1298, v1303, v1304, v1306⟩ : Σ' (v1288 : BitVec 32) (v1298 : BitVec 32) (v1303 : BitVec 32) (v1304 : BitVec 1), BitVec 32 ← q_part35 i v1
  let ⟨v1341, v1345⟩ : Σ' (v1341 : BitVec 32), BitVec 32 ← q_part36 i v1288 v1298 v1304 v1306
  let ⟨v1377, v1379, v1380, v1381, c0_i32_763⟩ : Σ' (v1377 : BitVec 32) (v1379 : BitVec 32) (v1380 : BitVec 32) (v1381 : BitVec 1), BitVec 32 ← q_part37 i v1 v1288 v1303 v1341 v1345
  let ⟨v1387, v1396, v1397, v1409, c3_i32_781, v1410, v1415, v1417, v1419⟩ : Σ' (v1387 : BitVec 32) (v1396 : BitVec 32) (v1397 : BitVec 1) (v1409 : BitVec 32) (c3_i32_781 : BitVec 32) (v1410 : BitVec 32) (v1415 : BitVec 32) (v1417 : BitVec 32), BitVec 32 ← q_part38 i v1377 v1379 v1380 v1381 c0_i32_763
  let ⟨v1454, c16_i32_806⟩ : Σ' (v1454 : BitVec 32), BitVec 32 ← q_part39 i v1 v1377 v1387 v1396 v1397 v1409 c3_i32_781 v1410 v1415 v1417 v1419
  let ⟨v1471, v1481, v1486, v1490, v1491, c3_i32_827, v1492⟩ : Σ' (v1471 : BitVec 32) (v1481 : BitVec 32) (v1486 : BitVec 32) (v1490 : BitVec 32) (v1491 : BitVec 1) (c3_i32_827 : BitVec 32), BitVec 1 ← q_part40 i v1454 c16_i32_806
  let ⟨v1531, c4_i32_849⟩ : Σ' (v1531 : BitVec 32), BitVec 32 ← q_part41 i v1471 v1481 v1490 v1491 c3_i32_827 v1492
  let ⟨v1558, v1568, v1569⟩ : Σ' (v1558 : BitVec 32) (v1568 : BitVec 32), BitVec 32 ← q_part42 i v1 v1486 v1531 c4_i32_849
  let ⟨v1577, v1578, v1590, v1607⟩ : Σ' (v1577 : BitVec 32) (v1578 : BitVec 1) (v1590 : BitVec 32), BitVec 32 ← q_part43 i v1568 v1569
  let ⟨v1635, c16_i32_908, v1636, v1641, v1643⟩ : Σ' (v1635 : BitVec 32) (c16_i32_908 : BitVec 32) (v1636 : BitVec 32) (v1641 : BitVec 32), BitVec 32 ← q_part44 i v1 v1558 v1568 v1577 v1578 v1590 v1607
  let ⟨v1652, v1662, v1667, v1671, v1672, v1674, v1675, v1680⟩ : Σ' (v1652 : BitVec 32) (v1662 : BitVec 32) (v1667 : BitVec 32) (v1671 : BitVec 32) (v1672 : BitVec 1) (v1674 : BitVec 32) (v1675 : BitVec 32), BitVec 1 ← q_part45 i v1635 c16_i32_908 v1636 v1641 v1643
  q_part46 i v1652 v1662 v1667 v1671 v1672 v1674 v1675 v1680
  let ⟨v1741, v1751, c9_i32_976⟩ : Σ' (v1741 : BitVec 32) (v1751 : BitVec 32), BitVec 32 ← q_part47 i v1
  let ⟨v1760, v1794, v1795⟩ : Σ' (v1760 : BitVec 32) (v1794 : BitVec 32), BitVec 32 ← q_part48 i v1741 v1751 c9_i32_976
  let ⟨v1818, v1819, v1830, v1831⟩ : Σ' (v1818 : BitVec 32) (v1819 : BitVec 32) (v1830 : BitVec 1), BitVec 32 ← q_part49 i v1 v1741 v1760 v1794 v1795
  let ⟨v1835, v1845, v1850, v1854, v1855, v1867⟩ : Σ' (v1835 : BitVec 32) (v1845 : BitVec 32) (v1850 : BitVec 32) (v1854 : BitVec 32) (v1855 : BitVec 1), BitVec 32 ← q_part50 i v1818 v1819 v1830 v1831
  let ⟨v1904, c1_i32_1062⟩ : Σ' (v1904 : BitVec 32), BitVec 32 ← q_part51 i v1 v1835 v1845 v1850 v1854 v1855 v1867
  let ⟨v1922, v1932, v1941, v1942, c3_i32_1084⟩ : Σ' (v1922 : BitVec 32) (v1932 : BitVec 32) (v1941 : BitVec 32) (v1942 : BitVec 1), BitVec 32 ← q_part52 i v1904 c1_i32_1062
  let ⟨v1975, v1980, v1981⟩ : Σ' (v1975 : BitVec 32) (v1980 : BitVec 32), BitVec 32 ← q_part53 i v1922 v1932 v1941 v1942 c3_i32_1084
  let v1982 : BitVec 32 := Scalar.addi v1981 v1975
  let c4_i32_1106 : BitVec 32 := 4#32
  let v1983 : BitVec 32 := Scalar.muli v1982 c4_i32_1106
  let c3_i32_1107 : BitVec 32 := 3#32
  let v1984 : BitVec 32 := Scalar.addi v1983 c3_i32_1107
  let c65536_i32_1108 : BitVec 32 := 65536#32
  let v1985 : BitVec 32 := Scalar.muli v1984 c65536_i32_1108
  pure ⟨v1980, v1985⟩

noncomputable def qbody (i : grid0.Coords) :
    Prog (TpuEff nD τ sig (Elt F) Λ₀ (.scVector ((i 0).castLE hcore0) ((i 1).castLE hsub0))) PUnit := do
  let ⟨v1980, v1985⟩ : Σ' (v1980 : BitVec 32), BitVec 32 ← q_part54 i
  let v1986 : BitVec 32 := v1980
  let v1987 : Memref sig .scVector .hbm S65536 .f32 := (pc28 i)
  let v1988 : Memref sig .scVector .hbm S65536 .f32 := (pc28 i)
  Prog.lift (.enqueueDma bW (.here v1988) (.dma cc0_scratch5.sem) (Memref.isWhole_whole _).wordExact (View.wordExact_bits rfl) ⟨Or.inl rfl, trivial⟩)
  let v1989 : BitVec 32 := v1985
  let v1990 : Memref sig .scVector .hbm S65536 .f32 := (pc29 i)
  let v1991 : Memref sig .scVector .hbm S65536 .f32 := (pc29 i)
  Prog.lift (.enqueueDma bW (.here v1991) (.dma cc0_scratch5.sem) (Memref.isWhole_whole _).wordExact (View.wordExact_bits rfl) ⟨Or.inl rfl, trivial⟩)
  let c0_i32_1109 : BitVec 32 := 0#32
  let v1992 : Memref sig .scVector .hbm S65536 .f32 := oW.slice (Rect.unit (s := S62914560) ![0] S65536.size inb_S62914560_S65536_0) (fun _ => rfl)
  let c0_i32_1110 : BitVec 32 := 0#32
  let v1993 : Memref sig .scVector .shared S1x65536 .f32 := shW.slice (Rect.unit (s := S16x65536) (k0_off1 i) S1x65536.size (k0_off1_inb i)) (fun _ => rfl)
  let v1994 : Memref sig .scVector .shared S65536 .f32 := rowM i
  Prog.lift (.waitDma2 cc0_scratch4.sem v1994 v1992 ((View.wordExact_bits rfl).reshape _ _) (View.wordExact_bits rfl))
  let c0_i32_1111 : BitVec 32 := 0#32
  let v1995 : Memref sig .scVector .hbm S65536 .f32 := oW.slice (Rect.unit (s := S62914560) ![0] S65536.size inb_S62914560_S65536_0) (fun _ => rfl)
  let c0_i32_1112 : BitVec 32 := 0#32
  let v1996 : Memref sig .scVector .shared S1x65536 .f32 := shW.slice (Rect.unit (s := S16x65536) (k0_off1 i) S1x65536.size (k0_off1_inb i)) (fun _ => rfl)
  let v1997 : Memref sig .scVector .shared S65536 .f32 := rowM i
  Prog.lift (.waitDma2 cc0_scratch4.sem v1997 v1995 ((View.wordExact_bits rfl).reshape _ _) (View.wordExact_bits rfl))
  let c0_i32_1113 : BitVec 32 := 0#32
  let v1998 : Memref sig .scVector .hbm S65536 .f32 := oW.slice (Rect.unit (s := S62914560) ![0] S65536.size inb_S62914560_S65536_0) (fun _ => rfl)
  let c0_i32_1114 : BitVec 32 := 0#32
  let v1999 : Memref sig .scVector .hbm S65536 .f32 := oW.slice (Rect.unit (s := S62914560) ![0] S65536.size inb_S62914560_S65536_0) (fun _ => rfl)
  Prog.lift (.waitDma2 cc0_scratch5.sem bW v1999 (Memref.isWhole_whole _).wordExact (View.wordExact_bits rfl))
  let c0_i32_1115 : BitVec 32 := 0#32
  let v2000 : Memref sig .scVector .hbm S65536 .f32 := oW.slice (Rect.unit (s := S62914560) ![0] S65536.size inb_S62914560_S65536_0) (fun _ => rfl)
  let c0_i32_1116 : BitVec 32 := 0#32
  let v2001 : Memref sig .scVector .hbm S65536 .f32 := oW.slice (Rect.unit (s := S62914560) ![0] S65536.size inb_S62914560_S65536_0) (fun _ => rfl)
  Prog.lift (.waitDma2 cc0_scratch5.sem bW v2001 (Memref.isWhole_whole _).wordExact (View.wordExact_bits rfl))
  pure ⟨⟩

/-! ## Each printed definition at the launch's operands is its copy -/

set_option maxRecDepth 65536 in
theorem q_part1_eq (i : grid0.Coords) : k0_part1 (F := F) i xW (Memref.isWhole_whole _) oW (Memref.isWhole_whole _) shW (Memref.isWhole_whole _) bW (Memref.isWhole_whole _) cc0_scratch2 cc0_scratch3 cc0_scratch4 cc0_scratch5 = q_part1 (F := F) i := rfl

set_option maxRecDepth 65536 in
theorem q_part2_eq (i : grid0.Coords) : k0_part2 (F := F) i xW (Memref.isWhole_whole _) oW (Memref.isWhole_whole _) shW (Memref.isWhole_whole _) bW (Memref.isWhole_whole _) cc0_scratch2 cc0_scratch3 cc0_scratch4 cc0_scratch5 = q_part2 (F := F) i := rfl

set_option maxRecDepth 65536 in
theorem q_part3_eq (i : grid0.Coords) : k0_part3 (F := F) i xW (Memref.isWhole_whole _) oW (Memref.isWhole_whole _) shW (Memref.isWhole_whole _) bW (Memref.isWhole_whole _) cc0_scratch2 cc0_scratch3 cc0_scratch4 cc0_scratch5 = q_part3 (F := F) i := rfl

set_option maxRecDepth 65536 in
theorem q_part4_eq (i : grid0.Coords) : k0_part4 (F := F) i xW (Memref.isWhole_whole _) oW (Memref.isWhole_whole _) shW (Memref.isWhole_whole _) bW (Memref.isWhole_whole _) cc0_scratch2 cc0_scratch3 cc0_scratch4 cc0_scratch5 = q_part4 (F := F) i := rfl

set_option maxRecDepth 65536 in
theorem q_part5_eq (i : grid0.Coords) : k0_part5 (F := F) i xW (Memref.isWhole_whole _) oW (Memref.isWhole_whole _) shW (Memref.isWhole_whole _) bW (Memref.isWhole_whole _) cc0_scratch2 cc0_scratch3 cc0_scratch4 cc0_scratch5 = q_part5 (F := F) i := rfl

set_option maxRecDepth 65536 in
theorem q_part6_eq (i : grid0.Coords) : k0_part6 (F := F) i xW (Memref.isWhole_whole _) oW (Memref.isWhole_whole _) shW (Memref.isWhole_whole _) bW (Memref.isWhole_whole _) cc0_scratch2 cc0_scratch3 cc0_scratch4 cc0_scratch5 = q_part6 (F := F) i := rfl

set_option maxRecDepth 65536 in
theorem q_part7_eq (i : grid0.Coords) : k0_part7 (F := F) i xW (Memref.isWhole_whole _) oW (Memref.isWhole_whole _) shW (Memref.isWhole_whole _) bW (Memref.isWhole_whole _) cc0_scratch2 cc0_scratch3 cc0_scratch4 cc0_scratch5 = q_part7 (F := F) i := rfl

set_option maxRecDepth 65536 in
theorem q_part8_eq (i : grid0.Coords) : k0_part8 (F := F) i xW (Memref.isWhole_whole _) oW (Memref.isWhole_whole _) shW (Memref.isWhole_whole _) bW (Memref.isWhole_whole _) cc0_scratch2 cc0_scratch3 cc0_scratch4 cc0_scratch5 = q_part8 (F := F) i := rfl

set_option maxRecDepth 65536 in
theorem q_part9_eq (i : grid0.Coords) : k0_part9 (F := F) i xW (Memref.isWhole_whole _) oW (Memref.isWhole_whole _) shW (Memref.isWhole_whole _) bW (Memref.isWhole_whole _) cc0_scratch2 cc0_scratch3 cc0_scratch4 cc0_scratch5 = q_part9 (F := F) i := rfl

set_option maxRecDepth 65536 in
theorem q_part10_eq (i : grid0.Coords) : k0_part10 (F := F) i xW (Memref.isWhole_whole _) oW (Memref.isWhole_whole _) shW (Memref.isWhole_whole _) bW (Memref.isWhole_whole _) cc0_scratch2 cc0_scratch3 cc0_scratch4 cc0_scratch5 = q_part10 (F := F) i := rfl

set_option maxRecDepth 65536 in
theorem q_part11_eq (i : grid0.Coords) : k0_part11 (F := F) i xW (Memref.isWhole_whole _) oW (Memref.isWhole_whole _) shW (Memref.isWhole_whole _) bW (Memref.isWhole_whole _) cc0_scratch2 cc0_scratch3 cc0_scratch4 cc0_scratch5 = q_part11 (F := F) i := rfl

set_option maxRecDepth 65536 in
theorem q_part12_eq (i : grid0.Coords) : k0_part12 (F := F) i xW (Memref.isWhole_whole _) oW (Memref.isWhole_whole _) shW (Memref.isWhole_whole _) bW (Memref.isWhole_whole _) cc0_scratch2 cc0_scratch3 cc0_scratch4 cc0_scratch5 = q_part12 (F := F) i := rfl

set_option maxRecDepth 65536 in
theorem q_part13_eq (i : grid0.Coords) : k0_part13 (F := F) i xW (Memref.isWhole_whole _) oW (Memref.isWhole_whole _) shW (Memref.isWhole_whole _) bW (Memref.isWhole_whole _) cc0_scratch2 cc0_scratch3 cc0_scratch4 cc0_scratch5 = q_part13 (F := F) i := rfl

set_option maxRecDepth 65536 in
theorem q_part14_eq (i : grid0.Coords) : k0_part14 (F := F) i xW (Memref.isWhole_whole _) oW (Memref.isWhole_whole _) shW (Memref.isWhole_whole _) bW (Memref.isWhole_whole _) cc0_scratch2 cc0_scratch3 cc0_scratch4 cc0_scratch5 = q_part14 (F := F) i := rfl

set_option maxRecDepth 65536 in
theorem q_part15_eq (i : grid0.Coords) : k0_part15 (F := F) i xW (Memref.isWhole_whole _) oW (Memref.isWhole_whole _) shW (Memref.isWhole_whole _) bW (Memref.isWhole_whole _) cc0_scratch2 cc0_scratch3 cc0_scratch4 cc0_scratch5 = q_part15 (F := F) i := rfl

set_option maxRecDepth 65536 in
theorem q_part16_eq (i : grid0.Coords) : k0_part16 (F := F) i xW (Memref.isWhole_whole _) oW (Memref.isWhole_whole _) shW (Memref.isWhole_whole _) bW (Memref.isWhole_whole _) cc0_scratch2 cc0_scratch3 cc0_scratch4 cc0_scratch5 = q_part16 (F := F) i := rfl

set_option maxRecDepth 65536 in
theorem q_part17_eq (i : grid0.Coords) : k0_part17 (F := F) i xW (Memref.isWhole_whole _) oW (Memref.isWhole_whole _) shW (Memref.isWhole_whole _) bW (Memref.isWhole_whole _) cc0_scratch2 cc0_scratch3 cc0_scratch4 cc0_scratch5 = q_part17 (F := F) i := rfl

set_option maxRecDepth 65536 in
theorem q_part18_eq (i : grid0.Coords) : k0_part18 (F := F) i xW (Memref.isWhole_whole _) oW (Memref.isWhole_whole _) shW (Memref.isWhole_whole _) bW (Memref.isWhole_whole _) cc0_scratch2 cc0_scratch3 cc0_scratch4 cc0_scratch5 = q_part18 (F := F) i := rfl

set_option maxRecDepth 65536 in
theorem q_part19_eq (i : grid0.Coords) : k0_part19 (F := F) i xW (Memref.isWhole_whole _) oW (Memref.isWhole_whole _) shW (Memref.isWhole_whole _) bW (Memref.isWhole_whole _) cc0_scratch2 cc0_scratch3 cc0_scratch4 cc0_scratch5 = q_part19 (F := F) i := rfl

set_option maxRecDepth 65536 in
theorem q_part20_eq (i : grid0.Coords) : k0_part20 (F := F) i xW (Memref.isWhole_whole _) oW (Memref.isWhole_whole _) shW (Memref.isWhole_whole _) bW (Memref.isWhole_whole _) cc0_scratch2 cc0_scratch3 cc0_scratch4 cc0_scratch5 = q_part20 (F := F) i := rfl

set_option maxRecDepth 65536 in
theorem q_part21_eq (i : grid0.Coords) : k0_part21 (F := F) i xW (Memref.isWhole_whole _) oW (Memref.isWhole_whole _) shW (Memref.isWhole_whole _) bW (Memref.isWhole_whole _) cc0_scratch2 cc0_scratch3 cc0_scratch4 cc0_scratch5 = q_part21 (F := F) i := rfl

set_option maxRecDepth 65536 in
theorem q_part22_eq (i : grid0.Coords) : k0_part22 (F := F) i xW (Memref.isWhole_whole _) oW (Memref.isWhole_whole _) shW (Memref.isWhole_whole _) bW (Memref.isWhole_whole _) cc0_scratch2 cc0_scratch3 cc0_scratch4 cc0_scratch5 = q_part22 (F := F) i := rfl

set_option maxRecDepth 65536 in
theorem q_part23_eq (i : grid0.Coords) : k0_part23 (F := F) i xW (Memref.isWhole_whole _) oW (Memref.isWhole_whole _) shW (Memref.isWhole_whole _) bW (Memref.isWhole_whole _) cc0_scratch2 cc0_scratch3 cc0_scratch4 cc0_scratch5 = q_part23 (F := F) i := rfl

set_option maxRecDepth 65536 in
theorem q_part24_eq (i : grid0.Coords) : k0_part24 (F := F) i xW (Memref.isWhole_whole _) oW (Memref.isWhole_whole _) shW (Memref.isWhole_whole _) bW (Memref.isWhole_whole _) cc0_scratch2 cc0_scratch3 cc0_scratch4 cc0_scratch5 = q_part24 (F := F) i := rfl

set_option maxRecDepth 65536 in
theorem q_part25_eq (i : grid0.Coords) : k0_part25 (F := F) i xW (Memref.isWhole_whole _) oW (Memref.isWhole_whole _) shW (Memref.isWhole_whole _) bW (Memref.isWhole_whole _) cc0_scratch2 cc0_scratch3 cc0_scratch4 cc0_scratch5 = q_part25 (F := F) i := rfl

set_option maxRecDepth 65536 in
theorem q_part26_eq (i : grid0.Coords) : k0_part26 (F := F) i xW (Memref.isWhole_whole _) oW (Memref.isWhole_whole _) shW (Memref.isWhole_whole _) bW (Memref.isWhole_whole _) cc0_scratch2 cc0_scratch3 cc0_scratch4 cc0_scratch5 = q_part26 (F := F) i := rfl

set_option maxRecDepth 65536 in
theorem q_part27_eq (i : grid0.Coords) : k0_part27 (F := F) i xW (Memref.isWhole_whole _) oW (Memref.isWhole_whole _) shW (Memref.isWhole_whole _) bW (Memref.isWhole_whole _) cc0_scratch2 cc0_scratch3 cc0_scratch4 cc0_scratch5 = q_part27 (F := F) i := rfl

set_option maxRecDepth 65536 in
theorem q_part28_eq (i : grid0.Coords) : k0_part28 (F := F) i xW (Memref.isWhole_whole _) oW (Memref.isWhole_whole _) shW (Memref.isWhole_whole _) bW (Memref.isWhole_whole _) cc0_scratch2 cc0_scratch3 cc0_scratch4 cc0_scratch5 = q_part28 (F := F) i := rfl

set_option maxRecDepth 65536 in
theorem q_part29_eq (i : grid0.Coords) : k0_part29 (F := F) i xW (Memref.isWhole_whole _) oW (Memref.isWhole_whole _) shW (Memref.isWhole_whole _) bW (Memref.isWhole_whole _) cc0_scratch2 cc0_scratch3 cc0_scratch4 cc0_scratch5 = q_part29 (F := F) i := rfl

set_option maxRecDepth 65536 in
theorem q_part30_eq (i : grid0.Coords) : k0_part30 (F := F) i xW (Memref.isWhole_whole _) oW (Memref.isWhole_whole _) shW (Memref.isWhole_whole _) bW (Memref.isWhole_whole _) cc0_scratch2 cc0_scratch3 cc0_scratch4 cc0_scratch5 = q_part30 (F := F) i := rfl

set_option maxRecDepth 65536 in
theorem q_part31_eq (i : grid0.Coords) : k0_part31 (F := F) i xW (Memref.isWhole_whole _) oW (Memref.isWhole_whole _) shW (Memref.isWhole_whole _) bW (Memref.isWhole_whole _) cc0_scratch2 cc0_scratch3 cc0_scratch4 cc0_scratch5 = q_part31 (F := F) i := rfl

set_option maxRecDepth 65536 in
theorem q_part32_eq (i : grid0.Coords) : k0_part32 (F := F) i xW (Memref.isWhole_whole _) oW (Memref.isWhole_whole _) shW (Memref.isWhole_whole _) bW (Memref.isWhole_whole _) cc0_scratch2 cc0_scratch3 cc0_scratch4 cc0_scratch5 = q_part32 (F := F) i := rfl

set_option maxRecDepth 65536 in
theorem q_part33_eq (i : grid0.Coords) : k0_part33 (F := F) i xW (Memref.isWhole_whole _) oW (Memref.isWhole_whole _) shW (Memref.isWhole_whole _) bW (Memref.isWhole_whole _) cc0_scratch2 cc0_scratch3 cc0_scratch4 cc0_scratch5 = q_part33 (F := F) i := rfl

set_option maxRecDepth 65536 in
theorem q_part34_eq (i : grid0.Coords) : k0_part34 (F := F) i xW (Memref.isWhole_whole _) oW (Memref.isWhole_whole _) shW (Memref.isWhole_whole _) bW (Memref.isWhole_whole _) cc0_scratch2 cc0_scratch3 cc0_scratch4 cc0_scratch5 = q_part34 (F := F) i := rfl

set_option maxRecDepth 65536 in
theorem q_part35_eq (i : grid0.Coords) : k0_part35 (F := F) i xW (Memref.isWhole_whole _) oW (Memref.isWhole_whole _) shW (Memref.isWhole_whole _) bW (Memref.isWhole_whole _) cc0_scratch2 cc0_scratch3 cc0_scratch4 cc0_scratch5 = q_part35 (F := F) i := rfl

set_option maxRecDepth 65536 in
theorem q_part36_eq (i : grid0.Coords) : k0_part36 (F := F) i xW (Memref.isWhole_whole _) oW (Memref.isWhole_whole _) shW (Memref.isWhole_whole _) bW (Memref.isWhole_whole _) cc0_scratch2 cc0_scratch3 cc0_scratch4 cc0_scratch5 = q_part36 (F := F) i := rfl

set_option maxRecDepth 65536 in
theorem q_part37_eq (i : grid0.Coords) : k0_part37 (F := F) i xW (Memref.isWhole_whole _) oW (Memref.isWhole_whole _) shW (Memref.isWhole_whole _) bW (Memref.isWhole_whole _) cc0_scratch2 cc0_scratch3 cc0_scratch4 cc0_scratch5 = q_part37 (F := F) i := rfl

set_option maxRecDepth 65536 in
theorem q_part38_eq (i : grid0.Coords) : k0_part38 (F := F) i xW (Memref.isWhole_whole _) oW (Memref.isWhole_whole _) shW (Memref.isWhole_whole _) bW (Memref.isWhole_whole _) cc0_scratch2 cc0_scratch3 cc0_scratch4 cc0_scratch5 = q_part38 (F := F) i := rfl

set_option maxRecDepth 65536 in
theorem q_part39_eq (i : grid0.Coords) : k0_part39 (F := F) i xW (Memref.isWhole_whole _) oW (Memref.isWhole_whole _) shW (Memref.isWhole_whole _) bW (Memref.isWhole_whole _) cc0_scratch2 cc0_scratch3 cc0_scratch4 cc0_scratch5 = q_part39 (F := F) i := rfl

set_option maxRecDepth 65536 in
theorem q_part40_eq (i : grid0.Coords) : k0_part40 (F := F) i xW (Memref.isWhole_whole _) oW (Memref.isWhole_whole _) shW (Memref.isWhole_whole _) bW (Memref.isWhole_whole _) cc0_scratch2 cc0_scratch3 cc0_scratch4 cc0_scratch5 = q_part40 (F := F) i := rfl

set_option maxRecDepth 65536 in
theorem q_part41_eq (i : grid0.Coords) : k0_part41 (F := F) i xW (Memref.isWhole_whole _) oW (Memref.isWhole_whole _) shW (Memref.isWhole_whole _) bW (Memref.isWhole_whole _) cc0_scratch2 cc0_scratch3 cc0_scratch4 cc0_scratch5 = q_part41 (F := F) i := rfl

set_option maxRecDepth 65536 in
theorem q_part42_eq (i : grid0.Coords) : k0_part42 (F := F) i xW (Memref.isWhole_whole _) oW (Memref.isWhole_whole _) shW (Memref.isWhole_whole _) bW (Memref.isWhole_whole _) cc0_scratch2 cc0_scratch3 cc0_scratch4 cc0_scratch5 = q_part42 (F := F) i := rfl

set_option maxRecDepth 65536 in
theorem q_part43_eq (i : grid0.Coords) : k0_part43 (F := F) i xW (Memref.isWhole_whole _) oW (Memref.isWhole_whole _) shW (Memref.isWhole_whole _) bW (Memref.isWhole_whole _) cc0_scratch2 cc0_scratch3 cc0_scratch4 cc0_scratch5 = q_part43 (F := F) i := rfl

set_option maxRecDepth 65536 in
theorem q_part44_eq (i : grid0.Coords) : k0_part44 (F := F) i xW (Memref.isWhole_whole _) oW (Memref.isWhole_whole _) shW (Memref.isWhole_whole _) bW (Memref.isWhole_whole _) cc0_scratch2 cc0_scratch3 cc0_scratch4 cc0_scratch5 = q_part44 (F := F) i := rfl

set_option maxRecDepth 65536 in
theorem q_part45_eq (i : grid0.Coords) : k0_part45 (F := F) i xW (Memref.isWhole_whole _) oW (Memref.isWhole_whole _) shW (Memref.isWhole_whole _) bW (Memref.isWhole_whole _) cc0_scratch2 cc0_scratch3 cc0_scratch4 cc0_scratch5 = q_part45 (F := F) i := rfl

set_option maxRecDepth 65536 in
theorem q_part46_eq (i : grid0.Coords) : k0_part46 (F := F) i xW (Memref.isWhole_whole _) oW (Memref.isWhole_whole _) shW (Memref.isWhole_whole _) bW (Memref.isWhole_whole _) cc0_scratch2 cc0_scratch3 cc0_scratch4 cc0_scratch5 = q_part46 (F := F) i := rfl

set_option maxRecDepth 65536 in
theorem q_part47_eq (i : grid0.Coords) : k0_part47 (F := F) i xW (Memref.isWhole_whole _) oW (Memref.isWhole_whole _) shW (Memref.isWhole_whole _) bW (Memref.isWhole_whole _) cc0_scratch2 cc0_scratch3 cc0_scratch4 cc0_scratch5 = q_part47 (F := F) i := rfl

set_option maxRecDepth 65536 in
theorem q_part48_eq (i : grid0.Coords) : k0_part48 (F := F) i xW (Memref.isWhole_whole _) oW (Memref.isWhole_whole _) shW (Memref.isWhole_whole _) bW (Memref.isWhole_whole _) cc0_scratch2 cc0_scratch3 cc0_scratch4 cc0_scratch5 = q_part48 (F := F) i := rfl

set_option maxRecDepth 65536 in
theorem q_part49_eq (i : grid0.Coords) : k0_part49 (F := F) i xW (Memref.isWhole_whole _) oW (Memref.isWhole_whole _) shW (Memref.isWhole_whole _) bW (Memref.isWhole_whole _) cc0_scratch2 cc0_scratch3 cc0_scratch4 cc0_scratch5 = q_part49 (F := F) i := rfl

set_option maxRecDepth 65536 in
theorem q_part50_eq (i : grid0.Coords) : k0_part50 (F := F) i xW (Memref.isWhole_whole _) oW (Memref.isWhole_whole _) shW (Memref.isWhole_whole _) bW (Memref.isWhole_whole _) cc0_scratch2 cc0_scratch3 cc0_scratch4 cc0_scratch5 = q_part50 (F := F) i := rfl

set_option maxRecDepth 65536 in
theorem q_part51_eq (i : grid0.Coords) : k0_part51 (F := F) i xW (Memref.isWhole_whole _) oW (Memref.isWhole_whole _) shW (Memref.isWhole_whole _) bW (Memref.isWhole_whole _) cc0_scratch2 cc0_scratch3 cc0_scratch4 cc0_scratch5 = q_part51 (F := F) i := rfl

set_option maxRecDepth 65536 in
theorem q_part52_eq (i : grid0.Coords) : k0_part52 (F := F) i xW (Memref.isWhole_whole _) oW (Memref.isWhole_whole _) shW (Memref.isWhole_whole _) bW (Memref.isWhole_whole _) cc0_scratch2 cc0_scratch3 cc0_scratch4 cc0_scratch5 = q_part52 (F := F) i := rfl

set_option maxRecDepth 65536 in
theorem q_part53_eq (i : grid0.Coords) : k0_part53 (F := F) i xW (Memref.isWhole_whole _) oW (Memref.isWhole_whole _) shW (Memref.isWhole_whole _) bW (Memref.isWhole_whole _) cc0_scratch2 cc0_scratch3 cc0_scratch4 cc0_scratch5 = q_part53 (F := F) i := rfl

set_option maxRecDepth 65536 in
theorem q_part54_eq (i : grid0.Coords) : k0_part54 (F := F) i xW (Memref.isWhole_whole _) oW (Memref.isWhole_whole _) shW (Memref.isWhole_whole _) bW (Memref.isWhole_whole _) cc0_scratch2 cc0_scratch3 cc0_scratch4 cc0_scratch5 = q_part54 (F := F) i := by
  unfold k0_part54 q_part54
  simp only [q_part1_eq, q_part2_eq, q_part3_eq, q_part4_eq, q_part5_eq, q_part6_eq, q_part7_eq, q_part8_eq, q_part9_eq, q_part10_eq, q_part11_eq, q_part12_eq, q_part13_eq, q_part14_eq, q_part15_eq, q_part16_eq, q_part17_eq, q_part18_eq, q_part19_eq, q_part20_eq, q_part21_eq, q_part22_eq, q_part23_eq, q_part24_eq, q_part25_eq, q_part26_eq, q_part27_eq, q_part28_eq, q_part29_eq, q_part30_eq, q_part31_eq, q_part32_eq, q_part33_eq, q_part34_eq, q_part35_eq, q_part36_eq, q_part37_eq, q_part38_eq, q_part39_eq, q_part40_eq, q_part41_eq, q_part42_eq, q_part43_eq, q_part44_eq, q_part45_eq, q_part46_eq, q_part47_eq, q_part48_eq, q_part49_eq, q_part50_eq, q_part51_eq, q_part52_eq, q_part53_eq]

set_option maxRecDepth 65536 in
theorem qbody_eq (i : grid0.Coords) : cc0__body (F := F) i xW (Memref.isWhole_whole _) oW (Memref.isWhole_whole _) shW (Memref.isWhole_whole _) bW (Memref.isWhole_whole _) cc0_scratch2 cc0_scratch3 cc0_scratch4 cc0_scratch5 = qbody (F := F) i := by
  unfold cc0__body qbody
  simp only [q_part54_eq]

end Cert.Kernel.Respelt

end
-- ==== Proof.Pieces.lean ====
/-
  The kernel's copy table, as arithmetic on natural numbers.

  The input is 4 · 16 rows of 262144 numbers and the output 4 · 60 rows; a row is four PIECES of 65536. Output row
  `(b, j)` is a copy of input row `(b, rowOf j)`. The thirty-two workers (SparseCore `c`, subcore `s`; worker number
  `2 s + c`) each make thirty copies of one piece: fourteen in a first phase (two staged pieces, each written to seven
  output rows three apart) and sixteen in a second (eight staged pieces, each written to two output rows). Numbering
  output pieces `(b · 60 + j) · 4 + p` and input pieces `(b · 16 + i) · 4 + p`:

  * `dstPiece c s k` is the output piece worker `(c, s)`'s copy `k` writes, `srcPiece c s k` the input piece it reads;
  * every output piece is written by some copy (`dst_surj`), hence by exactly one (960 copies, 960 pieces);
  * a copy reads the piece the output's row table asks for: `refSrc (dstPiece c s k) = srcPiece c s k`.
-/
import Mathlib.Data.Fintype.Card
import Mathlib.Data.Fintype.Prod
import Mathlib.Data.Fin.Basic

namespace Cert.Pieces

/-- The output's row table: output row `j` (of 60) copies input row `rowOf j` (of 16). -/
def rowTab : List ℕ :=
  [0, 1, 2, 3, 4, 5, 6, 7, 8, 6, 7, 9, 6, 7, 10, 6, 7, 11, 6, 7, 12, 6, 7, 13, 6, 7, 14, 6, 7, 15,
   0, 3, 6, 1, 4, 7, 2, 5, 8, 2, 5, 9, 2, 5, 10, 2, 5, 11, 2, 5, 12, 2, 5, 13, 2, 5, 14, 2, 5, 15]
def rowOf (j : ℕ) : ℕ := rowTab.getD j 0

/-- The output piece that copy `k` (of 30) of worker `(c, s)` writes. Copies 0–13 are the first phase (staged piece
    `k / 7`, output row `j₀ + 3 (k % 7)`); copies 14–29 the second (staged piece `(k - 14) / 2`, the first or the second
    of its two output rows). -/
def dstPiece (c s k : ℕ) : ℕ :=
  if k < 14 then
    (s / 4 * 60 + (if s % 4 < 2 then 9 + s % 4 else 37 + s % 4) + 3 * (k % 7)) * 4 + (2 * c + k / 7)
  else
    let n := 2 * (2 * s + c) + (k - 14) / 2 / 4
    let i := n % 16
    (n / 16 * 60 + (if (k - 14) % 2 = 0 then (if i < 9 then i else 3 * i - 16) else (if i < 9 then 30 + 3 * (i % 3) + i / 3 else 3 * i + 14))) * 4
      + (k - 14) / 2 % 4

/-- The input piece that copy reads. -/
def srcPiece (c s k : ℕ) : ℕ :=
  if k < 14 then (s / 4 * 16 + (if s % 4 < 2 then 6 + s % 4 else 3 * (s % 4) - 4)) * 4 + (2 * c + k / 7)
  else (2 * (2 * s + c) + (k - 14) / 2 / 4) * 4 + (k - 14) / 2 % 4

/-- The input piece the row table asks for at output piece `q`. -/
def refSrc (q : ℕ) : ℕ := (q / 4 / 60 * 16 + rowOf (q / 4 % 60)) * 4 + q % 4

theorem dst_lt : ∀ (c : Fin 2) (s : Fin 16) (k : Fin 30), dstPiece c s k < 960 := by decide +kernel
theorem src_lt : ∀ (c : Fin 2) (s : Fin 16) (k : Fin 30), srcPiece c s k < 256 := by decide +kernel

/-- A copy reads what the row table asks for. -/
theorem ref_src : ∀ (c : Fin 2) (s : Fin 16) (k : Fin 30), refSrc (dstPiece c s k) = srcPiece c s k := by decide +kernel

/-- The row table names input rows. -/
theorem rowOf_lt : ∀ j : Fin 60, rowOf j < 16 := by decide

/-- On piece `p` of output row `(b, j)` the row table asks for piece `p` of input row `(b, rowOf j)`. -/
theorem refSrc_row : ∀ (b : Fin 4) (j : Fin 60) (p : Fin 4), refSrc ((b.val * 60 + j.val) * 4 + p.val) = (b.val * 16 + rowOf j) * 4 + p.val := by
  decide +kernel

/-- The row table names input pieces. -/
theorem refSrc_lt : ∀ q : Fin 960, refSrc q < 256 := by decide +kernel

/-- The staged piece a copy writes out: copies 0–6 and 7–13 share the first phase's two staged pieces, copies `14 + 2 j` and
    `14 + 2 j + 1` the second phase's `j`-th. -/
def stepOf (k : ℕ) : ℕ := if k < 14 then 7 * (k / 7) else 14 + 2 * ((k - 14) / 2)
theorem src_step : ∀ (c : Fin 2) (s : Fin 16) (k : Fin 30), srcPiece c s k = srcPiece c s (stepOf k) := by decide +kernel

/-- The copies as a map into the 960 output pieces. -/
def dst (x : Fin 2 × Fin 16 × Fin 30) : Fin 960 := ⟨dstPiece x.1 x.2.1 x.2.2, dst_lt x.1 x.2.1 x.2.2⟩

/-- Who writes output piece `q = (b · 60 + j) · 4 + p`. If row `j` is one of the first phase's (`j₀ + 3 t` with `j₀` one of
    9, 10, 39, 40), the worker is subcore `4 b + e` (`e` the position of `j₀` among those four) of SparseCore `p / 2`, its
    copy `7 (p % 2) + t`. Otherwise the row is the first (`j < 30`) or second output row of input row `i = rowOf j`, staged
    as input row number `n = 16 b + i` by worker number `n / 2`, piece `p` of its half `n % 2`. -/
def owner (q : ℕ) : ℕ × ℕ × ℕ :=
  let b := q / 240
  let j := q / 4 % 60
  let p := q % 4
  if 9 ≤ j ∧ j < 30 ∧ (j - 9) % 3 < 2 then (p / 2, 4 * b + (j - 9) % 3, 7 * (p % 2) + (j - 9) / 3)
  else if 39 ≤ j ∧ (j - 39) % 3 < 2 then (p / 2, 4 * b + 2 + (j - 39) % 3, 7 * (p % 2) + (j - 39) / 3)
  else
    let n := 16 * b + rowOf j
    (n / 2 % 2, n / 2 / 2, 14 + 2 * (4 * (n % 2) + p) + (if j < 30 then 0 else 1))

theorem owner_spec : ∀ q : Fin 960, (owner q).1 < 2 ∧ (owner q).2.1 < 16 ∧ (owner q).2.2 < 30
    ∧ dstPiece (owner q).1 (owner q).2.1 (owner q).2.2 = q := by decide +kernel

theorem dst_surj : Function.Surjective dst := fun q =>
  ⟨(⟨(owner q).1, (owner_spec q).1⟩, ⟨(owner q).2.1, (owner_spec q).2.1⟩, ⟨(owner q).2.2, (owner_spec q).2.2.1⟩),
    Fin.ext (owner_spec q).2.2.2⟩

theorem dst_bij : Function.Bijective dst :=
  (Fintype.bijective_iff_surjective_and_card dst).mpr ⟨dst_surj, by simp⟩

theorem dst_inj : Function.Injective dst := dst_bij.1

end Cert.Pieces
-- ==== Proof.SlicesKernel.lean ====
/-
  Pieces of the two flat arrays.

  The kernel sees the input as one array of 16777216 numbers and the output as one of 62914560, and moves PIECES of
  65536: piece `q` is the indices `65536 q ≤ n < 65536 (q + 1)`. A window the program slices at an offset `65536 q` is
  piece `q`: it has exactly that piece's elements (`set_outSlice`, `set_inSlice`), and its `k`-th element is flat index
  `65536 q + k` (`emb_outSlice`, `emb_inSlice`). Distinct pieces are disjoint and the 960 pieces cover the output.

  The kernel's result is one function of the flat input: output index `o`, in output piece `q = o / 65536`, copies the input
  index at the same place of input piece `refSrc q` (`srcIx`, `gout`). An output window that received, whole, what an input
  window reads of the input holds exactly that function on its piece, provided the row table sends the one piece to the
  other (`done_outSlice`).
-/
import proofs.«214454_g70703751626829_cont_9to1c4b_566_26_alg».proof.Proof.RespeltKernel
import proofs.«214454_g70703751626829_cont_9to1c4b_566_26_alg».proof.Proof.Pieces
import Idealize.ShloMosaic.Lib.ValueIdx
import Idealize.ShloMosaic.Lib.SparseCore.Launch

noncomputable section

namespace Cert.Kernel.Respelt

open Cert.Kernel Cert.Kernel.GenP
open Idealize.ShloMosaic Idealize.SL.Sem

/-- Piece `q` of the flat output, and of the flat input. -/
def outPiece (q : ℕ) : Finset S62914560.Idx := Finset.univ.filter fun o => (o 0).val / 65536 = q
def inPiece (q : ℕ) : Finset S16777216.Idx := Finset.univ.filter fun o => (o 0).val / 65536 = q

theorem mem_outPiece {q : ℕ} {o : S62914560.Idx} : o ∈ outPiece q ↔ (o 0).val / 65536 = q := by simp [outPiece]
theorem mem_inPiece {q : ℕ} {o : S16777216.Idx} : o ∈ inPiece q ↔ (o 0).val / 65536 = q := by simp [inPiece]

theorem outPiece_disjoint {q q' : ℕ} (h : q ≠ q') : Disjoint (outPiece q) (outPiece q') :=
  Finset.disjoint_left.mpr fun o h1 h2 => h ((mem_outPiece.mp h1).symm.trans (mem_outPiece.mp h2))
theorem inPiece_disjoint {q q' : ℕ} (h : q ≠ q') : Disjoint (inPiece q) (inPiece q') :=
  Finset.disjoint_left.mpr fun o h1 h2 => h ((mem_inPiece.mp h1).symm.trans (mem_inPiece.mp h2))

/-- Every output index lies in one of the 960 pieces. -/
theorem outPiece_cover : (Finset.univ : Finset (Fin 960)).biUnion (fun q => outPiece q.val) = Finset.univ := by
  ext o
  simp only [Finset.mem_biUnion, Finset.mem_univ, true_and, iff_true]
  have h : (o 0).val < 62914560 := (o 0).isLt
  exact ⟨⟨(o 0).val / 65536, by omega⟩, mem_outPiece.mpr rfl⟩

/-- A window of the output sliced at offset `65536 q` has piece `q`'s elements. -/
theorem set_outSlice (off : Fin 1 → ℕ) (inb : ∀ a, off a + S65536.size a ≤ S62914560.size a) (hs) (q : ℕ) (h : off = ![65536 * q]) :
    (oW.slice (Rect.unit (s := S62914560) off S65536.size inb) hs).view.set = outPiece q := by
  subst h
  show ((View.whole (main_v1_scv : Ref sig .scVector)).slice (Rect.unit (s := S62914560) ![65536 * q] S65536.size inb)).set = _
  rw [View.set_slice_whole]
  ext o
  rw [Rect.mem_set_unit, mem_outPiece]
  show (∀ a : Fin 1, (![65536 * q] : Fin 1 → ℕ) a ≤ ((o : S62914560.Idx) a).val ∧ ((o : S62914560.Idx) a).val < (![65536 * q] : Fin 1 → ℕ) a + S65536.size a) ↔ _
  rw [Fin.forall_fin_one]
  show (65536 * q ≤ ((o : S62914560.Idx) 0).val ∧ ((o : S62914560.Idx) 0).val < 65536 * q + 65536) ↔ _
  omega

theorem set_inSlice (off : Fin 1 → ℕ) (inb : ∀ a, off a + S65536.size a ≤ S16777216.size a) (hs) (q : ℕ) (h : off = ![65536 * q]) :
    (xW.slice (Rect.unit (s := S16777216) off S65536.size inb) hs).view.set = inPiece q := by
  subst h
  show ((View.whole (main_v0_scv : Ref sig .scVector)).slice (Rect.unit (s := S16777216) ![65536 * q] S65536.size inb)).set = _
  rw [View.set_slice_whole]
  ext o
  rw [Rect.mem_set_unit, mem_inPiece]
  show (∀ a : Fin 1, (![65536 * q] : Fin 1 → ℕ) a ≤ ((o : S16777216.Idx) a).val ∧ ((o : S16777216.Idx) a).val < (![65536 * q] : Fin 1 → ℕ) a + S65536.size a) ↔ _
  rw [Fin.forall_fin_one]
  show (65536 * q ≤ ((o : S16777216.Idx) 0).val ∧ ((o : S16777216.Idx) 0).val < 65536 * q + 65536) ↔ _
  omega

/-- Its `k`-th element is flat index `65536 q + k`. -/
theorem emb_outSlice (off : Fin 1 → ℕ) (inb : ∀ a, off a + S65536.size a ≤ S62914560.size a) (hs) (q : ℕ) (h : off = ![65536 * q]) (y : S65536.Idx) :
    (((oW.slice (Rect.unit (s := S62914560) off S65536.size inb) hs).view.emb y) 0).val = 65536 * q + (y 0).val := by
  subst h
  show (((Rect.unit (s := S62914560) ![65536 * q] S65536.size inb).emb y) 0 : ℕ) = _
  rw [Rect.emb_apply]
  show 65536 * q + 1 * (y 0).val = _
  omega

theorem emb_inSlice (off : Fin 1 → ℕ) (inb : ∀ a, off a + S65536.size a ≤ S16777216.size a) (hs) (q : ℕ) (h : off = ![65536 * q]) (y : S65536.Idx) :
    (((xW.slice (Rect.unit (s := S16777216) off S65536.size inb) hs).view.emb y) 0).val = 65536 * q + (y 0).val := by
  subst h
  show (((Rect.unit (s := S16777216) ![65536 * q] S65536.size inb).emb y) 0 : ℕ) = _
  rw [Rect.emb_apply]
  show 65536 * q + 1 * (y 0).val = _
  omega

/-! ## The kernel's function, and a landed window -/

/-- The input index an output index copies: piece `q` of the output is piece `refSrc q` of the input, element for element. -/
def srcIx (o : S62914560.Idx) : S16777216.Idx :=
  ValueIdx.ix1 ⟨65536 * Cert.Pieces.refSrc ((o 0).val / 65536) + (o 0).val % 65536, by
    have h : (o 0).val < 62914560 := (o 0).isLt
    have := Cert.Pieces.refSrc_lt ⟨(o 0).val / 65536, by omega⟩
    show _ < 16777216
    simp only at this
    omega⟩

theorem srcIx_eq (o : S62914560.Idx) (x : S16777216.Idx) (qd qs y0 : ℕ) (hy : y0 < 65536) (ho : (o 0).val = 65536 * qd + y0)
    (hx : (x 0).val = 65536 * qs + y0) (hr : Cert.Pieces.refSrc qd = qs) : srcIx o = x := by
  rw [ValueIdx.eq_ix1 x]
  unfold srcIx
  congr 1
  apply Fin.ext
  show 65536 * Cert.Pieces.refSrc ((o 0).val / 65536) + (o 0).val % 65536 = (x 0).val
  rw [hx, ho, ← hr]
  have h1 : (65536 * qd + y0) / 65536 = qd := by omega
  have h2 : (65536 * qd + y0) % 65536 = y0 := by omega
  rw [h1, h2]

/-- A buffer whose last listed write is a whole-view piece reads back that piece's payload, whatever was written before. -/
theorem read_writes_whole_cons {sig' : RefSig} {κ : Kind} {sp : Space} {s : Shape} {e : EltTy} {Val : EltTy → Type}
    (v : View sig' κ sp s e) (f : v.ty.Contents Val) (w : s.Idx → Val e) (L : List (View.Piece Val s e)) :
    v.read Val (v.writes Val f (⟨Rect.whole s, w⟩ :: L)) = w := by
  funext y
  have h := View.read_writes_cons_emb v f (Rect.whole s) w L y
  rwa [Rect.emb_whole_apply] at h

section Landed

open Idealize.SL Idealize.SL.RA Idealize.SL.BI
open scoped Idealize.SL.BI
open Idealize.ShloMosaic.SparseCore (V T)

variable {F : FTy → Type} {Ix : Type} [DecidableEq Ix] {Name : Type} [DecidableEq Name] {U : Type} [URA U] {Lvl : Type}

local notation "𝕄" => MT nD τ sig Ix (Elt F) Name U Lvl

/-- The output the kernel computes, as one function of the flat input. -/
def gout {d : Dev nD} (xf : Buf (Elt F) ((T d : Thread nD τ).loc main_v0)) : Buf (Elt F) ((T d : Thread nD τ).loc main_v1) :=
  fun o => xf (srcIx o)

/-- A window of the output and one of the input, as the program slices them. -/
abbrev outSl (off : Fin 1 → ℕ) (inb : ∀ a, off a + S65536.size a ≤ S62914560.size a)
    (hs : ∀ a, (Rect.unit (s := S62914560) off S65536.size inb).stride a = 1) : Memref sig .scVector .hbm S65536 .f32 :=
  oW.slice (Rect.unit (s := S62914560) off S65536.size inb) hs
abbrev inSl (off : Fin 1 → ℕ) (inb : ∀ a, off a + S65536.size a ≤ S16777216.size a)
    (hs : ∀ a, (Rect.unit (s := S16777216) off S65536.size inb).stride a = 1) : Memref sig .scVector .hbm S65536 .f32 :=
  xW.slice (Rect.unit (s := S16777216) off S65536.size inb) hs

/-- An output window at piece `qd` that received whole what the input window at piece `qs` reads of `xf`, with the row table
    sending `qd` to `qs`, is output piece `qd` at `gout xf`. -/
theorem done_outSlice (d : Dev nD) (c : Fin τ.nSC) (j : Fin τ.nSub)
    (offd : Fin 1 → ℕ) (inbd : ∀ a, offd a + S65536.size a ≤ S62914560.size a) (hsd)
    (offs : Fin 1 → ℕ) (inbs : ∀ a, offs a + S65536.size a ≤ S16777216.size a) (hss)
    (qd qs : ℕ) (hd : offd = ![65536 * qd]) (hs : offs = ![65536 * qs]) (hr : Cert.Pieces.refSrc qd = qs)
    (xf : Buf (Elt F) ((T d : Thread nD τ).loc main_v0)) (fo : Buf (Elt F) ((T d : Thread nD τ).loc main_v1)) :
    ((outSl offd inbd hsd).view.loc (V d c j) ↦[(outSl offd inbd hsd).view.set]{fullShare}
        (outSl offd inbd hsd).view.writes (Elt F) fo [⟨Rect.whole S65536, (inSl offs inbs hss).view.read (Elt F) xf⟩] : sProp 𝕄)
      = ((T d : Thread nD τ).loc main_v1 ↦[outPiece qd]{fullShare} gout xf) := by
  have e : ((outSl offd inbd hsd).view.loc (V d c j) ↦[(outSl offd inbd hsd).view.set]{fullShare} gout xf : sProp 𝕄)
      = ((T d : Thread nD τ).loc main_v1 ↦[outPiece qd]{fullShare} gout xf) := by rw [set_outSlice _ _ _ _ hd]
  rw [← e]
  refine pointsTo_congr fun o ho => ?_
  obtain ⟨y, -, rfl⟩ := Finset.mem_map.mp ho
  have h := congrFun (View.read_writes_whole (outSl offd inbd hsd).view fo ((inSl offs inbs hss).view.read (Elt F) xf)) y
  rw [View.read_apply, View.read_apply] at h
  have hix : srcIx ((outSl offd inbd hsd).view.emb y) = (inSl offs inbs hss).view.emb y :=
    srcIx_eq _ _ qd qs (y 0).val (y 0).isLt (emb_outSlice _ _ _ _ hd y) (emb_inSlice _ _ _ _ hs y) hr
  show _ = xf (srcIx ((outSl offd inbd hsd).view.emb y))
  rw [hix]
  exact (cast_eq _ _).symm.trans (h.trans (cast_eq _ _))

end Landed

end Cert.Kernel.Respelt

end
-- ==== Proof.WindowsKernel.lean ====
/-
  Where each window of the body sits.

  Window `pc k i` (the `k`-th output piece that subcore `i` writes) is output piece `dstPiece (i 0) (i 1) k` and window
  `xw j i` (the input piece its `j`-th step stages) input piece `srcPiece (i 0) (i 1) k` for the first copy `k` that the step
  feeds: the program's offset chains, evaluated at each of the 32 subcores, are `65536` times those piece numbers.
-/
import proofs.«214454_g70703751626829_cont_9to1c4b_566_26_alg».proof.Proof.SlicesKernel
import Idealize.ShloMosaic.Lib.SparseCore.Launch

set_option Elab.async false

noncomputable section

namespace Cert.Kernel.Respelt

open Cert.Kernel Cert.Kernel.GenP
open Idealize.ShloMosaic Idealize.SL.Sem

theorem off_xw0 : ∀ i : grid0.Coords, k0_off2 i 0#32 = ![65536 * Cert.Pieces.srcPiece (i 0).val (i 1).val 0] := by decide +kernel
theorem set_xw0 (i : grid0.Coords) : (xw0 i).view.set = inPiece (Cert.Pieces.srcPiece (i 0).val (i 1).val 0) := set_inSlice _ _ _ _ (off_xw0 i)
theorem emb_xw0 (i : grid0.Coords) (y : S65536.Idx) : (((xw0 i).view.emb y) 0).val = 65536 * Cert.Pieces.srcPiece (i 0).val (i 1).val 0 + (y 0).val := emb_inSlice _ _ _ _ (off_xw0 i) y
theorem off_xw1 : ∀ i : grid0.Coords, k0_off2 i 1#32 = ![65536 * Cert.Pieces.srcPiece (i 0).val (i 1).val 7] := by decide +kernel
theorem set_xw1 (i : grid0.Coords) : (xw1 i).view.set = inPiece (Cert.Pieces.srcPiece (i 0).val (i 1).val 7) := set_inSlice _ _ _ _ (off_xw1 i)
theorem emb_xw1 (i : grid0.Coords) (y : S65536.Idx) : (((xw1 i).view.emb y) 0).val = 65536 * Cert.Pieces.srcPiece (i 0).val (i 1).val 7 + (y 0).val := emb_inSlice _ _ _ _ (off_xw1 i) y
theorem off_xw2 : ∀ i : grid0.Coords, k0_off4 i 0#32 0#32 = ![65536 * Cert.Pieces.srcPiece (i 0).val (i 1).val 14] := by decide +kernel
theorem set_xw2 (i : grid0.Coords) : (xw2 i).view.set = inPiece (Cert.Pieces.srcPiece (i 0).val (i 1).val 14) := set_inSlice _ _ _ _ (off_xw2 i)
theorem emb_xw2 (i : grid0.Coords) (y : S65536.Idx) : (((xw2 i).view.emb y) 0).val = 65536 * Cert.Pieces.srcPiece (i 0).val (i 1).val 14 + (y 0).val := emb_inSlice _ _ _ _ (off_xw2 i) y
theorem off_xw3 : ∀ i : grid0.Coords, k0_off4 i 0#32 1#32 = ![65536 * Cert.Pieces.srcPiece (i 0).val (i 1).val 16] := by decide +kernel
theorem set_xw3 (i : grid0.Coords) : (xw3 i).view.set = inPiece (Cert.Pieces.srcPiece (i 0).val (i 1).val 16) := set_inSlice _ _ _ _ (off_xw3 i)
theorem emb_xw3 (i : grid0.Coords) (y : S65536.Idx) : (((xw3 i).view.emb y) 0).val = 65536 * Cert.Pieces.srcPiece (i 0).val (i 1).val 16 + (y 0).val := emb_inSlice _ _ _ _ (off_xw3 i) y
theorem off_xw4 : ∀ i : grid0.Coords, k0_off4 i 0#32 2#32 = ![65536 * Cert.Pieces.srcPiece (i 0).val (i 1).val 18] := by decide +kernel
theorem set_xw4 (i : grid0.Coords) : (xw4 i).view.set = inPiece (Cert.Pieces.srcPiece (i 0).val (i 1).val 18) := set_inSlice _ _ _ _ (off_xw4 i)
theorem emb_xw4 (i : grid0.Coords) (y : S65536.Idx) : (((xw4 i).view.emb y) 0).val = 65536 * Cert.Pieces.srcPiece (i 0).val (i 1).val 18 + (y 0).val := emb_inSlice _ _ _ _ (off_xw4 i) y
theorem off_xw5 : ∀ i : grid0.Coords, k0_off4 i 0#32 3#32 = ![65536 * Cert.Pieces.srcPiece (i 0).val (i 1).val 20] := by decide +kernel
theorem set_xw5 (i : grid0.Coords) : (xw5 i).view.set = inPiece (Cert.Pieces.srcPiece (i 0).val (i 1).val 20) := set_inSlice _ _ _ _ (off_xw5 i)
theorem emb_xw5 (i : grid0.Coords) (y : S65536.Idx) : (((xw5 i).view.emb y) 0).val = 65536 * Cert.Pieces.srcPiece (i 0).val (i 1).val 20 + (y 0).val := emb_inSlice _ _ _ _ (off_xw5 i) y
theorem off_xw6 : ∀ i : grid0.Coords, k0_off4 i 1#32 0#32 = ![65536 * Cert.Pieces.srcPiece (i 0).val (i 1).val 22] := by decide +kernel
theorem set_xw6 (i : grid0.Coords) : (xw6 i).view.set = inPiece (Cert.Pieces.srcPiece (i 0).val (i 1).val 22) := set_inSlice _ _ _ _ (off_xw6 i)
theorem emb_xw6 (i : grid0.Coords) (y : S65536.Idx) : (((xw6 i).view.emb y) 0).val = 65536 * Cert.Pieces.srcPiece (i 0).val (i 1).val 22 + (y 0).val := emb_inSlice _ _ _ _ (off_xw6 i) y
theorem off_xw7 : ∀ i : grid0.Coords, k0_off4 i 1#32 1#32 = ![65536 * Cert.Pieces.srcPiece (i 0).val (i 1).val 24] := by decide +kernel
theorem set_xw7 (i : grid0.Coords) : (xw7 i).view.set = inPiece (Cert.Pieces.srcPiece (i 0).val (i 1).val 24) := set_inSlice _ _ _ _ (off_xw7 i)
theorem emb_xw7 (i : grid0.Coords) (y : S65536.Idx) : (((xw7 i).view.emb y) 0).val = 65536 * Cert.Pieces.srcPiece (i 0).val (i 1).val 24 + (y 0).val := emb_inSlice _ _ _ _ (off_xw7 i) y
theorem off_xw8 : ∀ i : grid0.Coords, k0_off4 i 1#32 2#32 = ![65536 * Cert.Pieces.srcPiece (i 0).val (i 1).val 26] := by decide +kernel
theorem set_xw8 (i : grid0.Coords) : (xw8 i).view.set = inPiece (Cert.Pieces.srcPiece (i 0).val (i 1).val 26) := set_inSlice _ _ _ _ (off_xw8 i)
theorem emb_xw8 (i : grid0.Coords) (y : S65536.Idx) : (((xw8 i).view.emb y) 0).val = 65536 * Cert.Pieces.srcPiece (i 0).val (i 1).val 26 + (y 0).val := emb_inSlice _ _ _ _ (off_xw8 i) y
theorem off_xw9 : ∀ i : grid0.Coords, k0_off4 i 1#32 3#32 = ![65536 * Cert.Pieces.srcPiece (i 0).val (i 1).val 28] := by decide +kernel
theorem set_xw9 (i : grid0.Coords) : (xw9 i).view.set = inPiece (Cert.Pieces.srcPiece (i 0).val (i 1).val 28) := set_inSlice _ _ _ _ (off_xw9 i)
theorem emb_xw9 (i : grid0.Coords) (y : S65536.Idx) : (((xw9 i).view.emb y) 0).val = 65536 * Cert.Pieces.srcPiece (i 0).val (i 1).val 28 + (y 0).val := emb_inSlice _ _ _ _ (off_xw9 i) y
theorem off_pc0 : ∀ i : grid0.Coords, k0_off3 i 0#32 0#32 = ![65536 * Cert.Pieces.dstPiece (i 0).val (i 1).val 0] := by decide +kernel
theorem set_pc0 (i : grid0.Coords) : (pc0 i).view.set = outPiece (Cert.Pieces.dstPiece (i 0).val (i 1).val 0) := set_outSlice _ _ _ _ (off_pc0 i)
theorem emb_pc0 (i : grid0.Coords) (y : S65536.Idx) : (((pc0 i).view.emb y) 0).val = 65536 * Cert.Pieces.dstPiece (i 0).val (i 1).val 0 + (y 0).val := emb_outSlice _ _ _ _ (off_pc0 i) y
theorem off_pc1 : ∀ i : grid0.Coords, k0_off3 i 3#32 0#32 = ![65536 * Cert.Pieces.dstPiece (i 0).val (i 1).val 1] := by decide +kernel
theorem set_pc1 (i : grid0.Coords) : (pc1 i).view.set = outPiece (Cert.Pieces.dstPiece (i 0).val (i 1).val 1) := set_outSlice _ _ _ _ (off_pc1 i)
theorem emb_pc1 (i : grid0.Coords) (y : S65536.Idx) : (((pc1 i).view.emb y) 0).val = 65536 * Cert.Pieces.dstPiece (i 0).val (i 1).val 1 + (y 0).val := emb_outSlice _ _ _ _ (off_pc1 i) y
theorem off_pc2 : ∀ i : grid0.Coords, k0_off3 i 6#32 0#32 = ![65536 * Cert.Pieces.dstPiece (i 0).val (i 1).val 2] := by decide +kernel
theorem set_pc2 (i : grid0.Coords) : (pc2 i).view.set = outPiece (Cert.Pieces.dstPiece (i 0).val (i 1).val 2) := set_outSlice _ _ _ _ (off_pc2 i)
theorem emb_pc2 (i : grid0.Coords) (y : S65536.Idx) : (((pc2 i).view.emb y) 0).val = 65536 * Cert.Pieces.dstPiece (i 0).val (i 1).val 2 + (y 0).val := emb_outSlice _ _ _ _ (off_pc2 i) y
theorem off_pc3 : ∀ i : grid0.Coords, k0_off3 i 9#32 0#32 = ![65536 * Cert.Pieces.dstPiece (i 0).val (i 1).val 3] := by decide +kernel
theorem set_pc3 (i : grid0.Coords) : (pc3 i).view.set = outPiece (Cert.Pieces.dstPiece (i 0).val (i 1).val 3) := set_outSlice _ _ _ _ (off_pc3 i)
theorem emb_pc3 (i : grid0.Coords) (y : S65536.Idx) : (((pc3 i).view.emb y) 0).val = 65536 * Cert.Pieces.dstPiece (i 0).val (i 1).val 3 + (y 0).val := emb_outSlice _ _ _ _ (off_pc3 i) y
theorem off_pc4 : ∀ i : grid0.Coords, k0_off3 i 12#32 0#32 = ![65536 * Cert.Pieces.dstPiece (i 0).val (i 1).val 4] := by decide +kernel
theorem set_pc4 (i : grid0.Coords) : (pc4 i).view.set = outPiece (Cert.Pieces.dstPiece (i 0).val (i 1).val 4) := set_outSlice _ _ _ _ (off_pc4 i)
theorem emb_pc4 (i : grid0.Coords) (y : S65536.Idx) : (((pc4 i).view.emb y) 0).val = 65536 * Cert.Pieces.dstPiece (i 0).val (i 1).val 4 + (y 0).val := emb_outSlice _ _ _ _ (off_pc4 i) y
theorem off_pc5 : ∀ i : grid0.Coords, k0_off3 i 15#32 0#32 = ![65536 * Cert.Pieces.dstPiece (i 0).val (i 1).val 5] := by decide +kernel
theorem set_pc5 (i : grid0.Coords) : (pc5 i).view.set = outPiece (Cert.Pieces.dstPiece (i 0).val (i 1).val 5) := set_outSlice _ _ _ _ (off_pc5 i)
theorem emb_pc5 (i : grid0.Coords) (y : S65536.Idx) : (((pc5 i).view.emb y) 0).val = 65536 * Cert.Pieces.dstPiece (i 0).val (i 1).val 5 + (y 0).val := emb_outSlice _ _ _ _ (off_pc5 i) y
theorem off_pc6 : ∀ i : grid0.Coords, k0_off3 i 18#32 0#32 = ![65536 * Cert.Pieces.dstPiece (i 0).val (i 1).val 6] := by decide +kernel
theorem set_pc6 (i : grid0.Coords) : (pc6 i).view.set = outPiece (Cert.Pieces.dstPiece (i 0).val (i 1).val 6) := set_outSlice _ _ _ _ (off_pc6 i)
theorem emb_pc6 (i : grid0.Coords) (y : S65536.Idx) : (((pc6 i).view.emb y) 0).val = 65536 * Cert.Pieces.dstPiece (i 0).val (i 1).val 6 + (y 0).val := emb_outSlice _ _ _ _ (off_pc6 i) y
theorem off_pc7 : ∀ i : grid0.Coords, k0_off3 i 0#32 1#32 = ![65536 * Cert.Pieces.dstPiece (i 0).val (i 1).val 7] := by decide +kernel
theorem set_pc7 (i : grid0.Coords) : (pc7 i).view.set = outPiece (Cert.Pieces.dstPiece (i 0).val (i 1).val 7) := set_outSlice _ _ _ _ (off_pc7 i)
theorem emb_pc7 (i : grid0.Coords) (y : S65536.Idx) : (((pc7 i).view.emb y) 0).val = 65536 * Cert.Pieces.dstPiece (i 0).val (i 1).val 7 + (y 0).val := emb_outSlice _ _ _ _ (off_pc7 i) y
theorem off_pc8 : ∀ i : grid0.Coords, k0_off3 i 3#32 1#32 = ![65536 * Cert.Pieces.dstPiece (i 0).val (i 1).val 8] := by decide +kernel
theorem set_pc8 (i : grid0.Coords) : (pc8 i).view.set = outPiece (Cert.Pieces.dstPiece (i 0).val (i 1).val 8) := set_outSlice _ _ _ _ (off_pc8 i)
theorem emb_pc8 (i : grid0.Coords) (y : S65536.Idx) : (((pc8 i).view.emb y) 0).val = 65536 * Cert.Pieces.dstPiece (i 0).val (i 1).val 8 + (y 0).val := emb_outSlice _ _ _ _ (off_pc8 i) y
theorem off_pc9 : ∀ i : grid0.Coords, k0_off3 i 6#32 1#32 = ![65536 * Cert.Pieces.dstPiece (i 0).val (i 1).val 9] := by decide +kernel
theorem set_pc9 (i : grid0.Coords) : (pc9 i).view.set = outPiece (Cert.Pieces.dstPiece (i 0).val (i 1).val 9) := set_outSlice _ _ _ _ (off_pc9 i)
theorem emb_pc9 (i : grid0.Coords) (y : S65536.Idx) : (((pc9 i).view.emb y) 0).val = 65536 * Cert.Pieces.dstPiece (i 0).val (i 1).val 9 + (y 0).val := emb_outSlice _ _ _ _ (off_pc9 i) y
theorem off_pc10 : ∀ i : grid0.Coords, k0_off3 i 9#32 1#32 = ![65536 * Cert.Pieces.dstPiece (i 0).val (i 1).val 10] := by decide +kernel
theorem set_pc10 (i : grid0.Coords) : (pc10 i).view.set = outPiece (Cert.Pieces.dstPiece (i 0).val (i 1).val 10) := set_outSlice _ _ _ _ (off_pc10 i)
theorem emb_pc10 (i : grid0.Coords) (y : S65536.Idx) : (((pc10 i).view.emb y) 0).val = 65536 * Cert.Pieces.dstPiece (i 0).val (i 1).val 10 + (y 0).val := emb_outSlice _ _ _ _ (off_pc10 i) y
theorem off_pc11 : ∀ i : grid0.Coords, k0_off3 i 12#32 1#32 = ![65536 * Cert.Pieces.dstPiece (i 0).val (i 1).val 11] := by decide +kernel
theorem set_pc11 (i : grid0.Coords) : (pc11 i).view.set = outPiece (Cert.Pieces.dstPiece (i 0).val (i 1).val 11) := set_outSlice _ _ _ _ (off_pc11 i)
theorem emb_pc11 (i : grid0.Coords) (y : S65536.Idx) : (((pc11 i).view.emb y) 0).val = 65536 * Cert.Pieces.dstPiece (i 0).val (i 1).val 11 + (y 0).val := emb_outSlice _ _ _ _ (off_pc11 i) y
theorem off_pc12 : ∀ i : grid0.Coords, k0_off3 i 15#32 1#32 = ![65536 * Cert.Pieces.dstPiece (i 0).val (i 1).val 12] := by decide +kernel
theorem set_pc12 (i : grid0.Coords) : (pc12 i).view.set = outPiece (Cert.Pieces.dstPiece (i 0).val (i 1).val 12) := set_outSlice _ _ _ _ (off_pc12 i)
theorem emb_pc12 (i : grid0.Coords) (y : S65536.Idx) : (((pc12 i).view.emb y) 0).val = 65536 * Cert.Pieces.dstPiece (i 0).val (i 1).val 12 + (y 0).val := emb_outSlice _ _ _ _ (off_pc12 i) y
theorem off_pc13 : ∀ i : grid0.Coords, k0_off3 i 18#32 1#32 = ![65536 * Cert.Pieces.dstPiece (i 0).val (i 1).val 13] := by decide +kernel
theorem set_pc13 (i : grid0.Coords) : (pc13 i).view.set = outPiece (Cert.Pieces.dstPiece (i 0).val (i 1).val 13) := set_outSlice _ _ _ _ (off_pc13 i)
theorem emb_pc13 (i : grid0.Coords) (y : S65536.Idx) : (((pc13 i).view.emb y) 0).val = 65536 * Cert.Pieces.dstPiece (i 0).val (i 1).val 13 + (y 0).val := emb_outSlice _ _ _ _ (off_pc13 i) y
theorem off_pc14 : ∀ i : grid0.Coords, k0_off5 i 0#32 0#32 = ![65536 * Cert.Pieces.dstPiece (i 0).val (i 1).val 14] := by decide +kernel
theorem set_pc14 (i : grid0.Coords) : (pc14 i).view.set = outPiece (Cert.Pieces.dstPiece (i 0).val (i 1).val 14) := set_outSlice _ _ _ _ (off_pc14 i)
theorem emb_pc14 (i : grid0.Coords) (y : S65536.Idx) : (((pc14 i).view.emb y) 0).val = 65536 * Cert.Pieces.dstPiece (i 0).val (i 1).val 14 + (y 0).val := emb_outSlice _ _ _ _ (off_pc14 i) y
theorem off_pc15 : ∀ i : grid0.Coords, k0_off6 i 0#32 0#32 = ![65536 * Cert.Pieces.dstPiece (i 0).val (i 1).val 15] := by decide +kernel
theorem set_pc15 (i : grid0.Coords) : (pc15 i).view.set = outPiece (Cert.Pieces.dstPiece (i 0).val (i 1).val 15) := set_outSlice _ _ _ _ (off_pc15 i)
theorem emb_pc15 (i : grid0.Coords) (y : S65536.Idx) : (((pc15 i).view.emb y) 0).val = 65536 * Cert.Pieces.dstPiece (i 0).val (i 1).val 15 + (y 0).val := emb_outSlice _ _ _ _ (off_pc15 i) y
theorem off_pc16 : ∀ i : grid0.Coords, k0_off5 i 0#32 1#32 = ![65536 * Cert.Pieces.dstPiece (i 0).val (i 1).val 16] := by decide +kernel
theorem set_pc16 (i : grid0.Coords) : (pc16 i).view.set = outPiece (Cert.Pieces.dstPiece (i 0).val (i 1).val 16) := set_outSlice _ _ _ _ (off_pc16 i)
theorem emb_pc16 (i : grid0.Coords) (y : S65536.Idx) : (((pc16 i).view.emb y) 0).val = 65536 * Cert.Pieces.dstPiece (i 0).val (i 1).val 16 + (y 0).val := emb_outSlice _ _ _ _ (off_pc16 i) y
theorem off_pc17 : ∀ i : grid0.Coords, k0_off6 i 0#32 1#32 = ![65536 * Cert.Pieces.dstPiece (i 0).val (i 1).val 17] := by decide +kernel
theorem set_pc17 (i : grid0.Coords) : (pc17 i).view.set = outPiece (Cert.Pieces.dstPiece (i 0).val (i 1).val 17) := set_outSlice _ _ _ _ (off_pc17 i)
theorem emb_pc17 (i : grid0.Coords) (y : S65536.Idx) : (((pc17 i).view.emb y) 0).val = 65536 * Cert.Pieces.dstPiece (i 0).val (i 1).val 17 + (y 0).val := emb_outSlice _ _ _ _ (off_pc17 i) y
theorem off_pc18 : ∀ i : grid0.Coords, k0_off5 i 0#32 2#32 = ![65536 * Cert.Pieces.dstPiece (i 0).val (i 1).val 18] := by decide +kernel
theorem set_pc18 (i : grid0.Coords) : (pc18 i).view.set = outPiece (Cert.Pieces.dstPiece (i 0).val (i 1).val 18) := set_outSlice _ _ _ _ (off_pc18 i)
theorem emb_pc18 (i : grid0.Coords) (y : S65536.Idx) : (((pc18 i).view.emb y) 0).val = 65536 * Cert.Pieces.dstPiece (i 0).val (i 1).val 18 + (y 0).val := emb_outSlice _ _ _ _ (off_pc18 i) y
theorem off_pc19 : ∀ i : grid0.Coords, k0_off6 i 0#32 2#32 = ![65536 * Cert.Pieces.dstPiece (i 0).val (i 1).val 19] := by decide +kernel
theorem set_pc19 (i : grid0.Coords) : (pc19 i).view.set = outPiece (Cert.Pieces.dstPiece (i 0).val (i 1).val 19) := set_outSlice _ _ _ _ (off_pc19 i)
theorem emb_pc19 (i : grid0.Coords) (y : S65536.Idx) : (((pc19 i).view.emb y) 0).val = 65536 * Cert.Pieces.dstPiece (i 0).val (i 1).val 19 + (y 0).val := emb_outSlice _ _ _ _ (off_pc19 i) y
theorem off_pc20 : ∀ i : grid0.Coords, k0_off5 i 0#32 3#32 = ![65536 * Cert.Pieces.dstPiece (i 0).val (i 1).val 20] := by decide +kernel
theorem set_pc20 (i : grid0.Coords) : (pc20 i).view.set = outPiece (Cert.Pieces.dstPiece (i 0).val (i 1).val 20) := set_outSlice _ _ _ _ (off_pc20 i)
theorem emb_pc20 (i : grid0.Coords) (y : S65536.Idx) : (((pc20 i).view.emb y) 0).val = 65536 * Cert.Pieces.dstPiece (i 0).val (i 1).val 20 + (y 0).val := emb_outSlice _ _ _ _ (off_pc20 i) y
theorem off_pc21 : ∀ i : grid0.Coords, k0_off6 i 0#32 3#32 = ![65536 * Cert.Pieces.dstPiece (i 0).val (i 1).val 21] := by decide +kernel
theorem set_pc21 (i : grid0.Coords) : (pc21 i).view.set = outPiece (Cert.Pieces.dstPiece (i 0).val (i 1).val 21) := set_outSlice _ _ _ _ (off_pc21 i)
theorem emb_pc21 (i : grid0.Coords) (y : S65536.Idx) : (((pc21 i).view.emb y) 0).val = 65536 * Cert.Pieces.dstPiece (i 0).val (i 1).val 21 + (y 0).val := emb_outSlice _ _ _ _ (off_pc21 i) y
theorem off_pc22 : ∀ i : grid0.Coords, k0_off5 i 1#32 0#32 = ![65536 * Cert.Pieces.dstPiece (i 0).val (i 1).val 22] := by decide +kernel
theorem set_pc22 (i : grid0.Coords) : (pc22 i).view.set = outPiece (Cert.Pieces.dstPiece (i 0).val (i 1).val 22) := set_outSlice _ _ _ _ (off_pc22 i)
theorem emb_pc22 (i : grid0.Coords) (y : S65536.Idx) : (((pc22 i).view.emb y) 0).val = 65536 * Cert.Pieces.dstPiece (i 0).val (i 1).val 22 + (y 0).val := emb_outSlice _ _ _ _ (off_pc22 i) y
theorem off_pc23 : ∀ i : grid0.Coords, k0_off6 i 1#32 0#32 = ![65536 * Cert.Pieces.dstPiece (i 0).val (i 1).val 23] := by decide +kernel
theorem set_pc23 (i : grid0.Coords) : (pc23 i).view.set = outPiece (Cert.Pieces.dstPiece (i 0).val (i 1).val 23) := set_outSlice _ _ _ _ (off_pc23 i)
theorem emb_pc23 (i : grid0.Coords) (y : S65536.Idx) : (((pc23 i).view.emb y) 0).val = 65536 * Cert.Pieces.dstPiece (i 0).val (i 1).val 23 + (y 0).val := emb_outSlice _ _ _ _ (off_pc23 i) y
theorem off_pc24 : ∀ i : grid0.Coords, k0_off5 i 1#32 1#32 = ![65536 * Cert.Pieces.dstPiece (i 0).val (i 1).val 24] := by decide +kernel
theorem set_pc24 (i : grid0.Coords) : (pc24 i).view.set = outPiece (Cert.Pieces.dstPiece (i 0).val (i 1).val 24) := set_outSlice _ _ _ _ (off_pc24 i)
theorem emb_pc24 (i : grid0.Coords) (y : S65536.Idx) : (((pc24 i).view.emb y) 0).val = 65536 * Cert.Pieces.dstPiece (i 0).val (i 1).val 24 + (y 0).val := emb_outSlice _ _ _ _ (off_pc24 i) y
theorem off_pc25 : ∀ i : grid0.Coords, k0_off6 i 1#32 1#32 = ![65536 * Cert.Pieces.dstPiece (i 0).val (i 1).val 25] := by decide +kernel
theorem set_pc25 (i : grid0.Coords) : (pc25 i).view.set = outPiece (Cert.Pieces.dstPiece (i 0).val (i 1).val 25) := set_outSlice _ _ _ _ (off_pc25 i)
theorem emb_pc25 (i : grid0.Coords) (y : S65536.Idx) : (((pc25 i).view.emb y) 0).val = 65536 * Cert.Pieces.dstPiece (i 0).val (i 1).val 25 + (y 0).val := emb_outSlice _ _ _ _ (off_pc25 i) y
theorem off_pc26 : ∀ i : grid0.Coords, k0_off5 i 1#32 2#32 = ![65536 * Cert.Pieces.dstPiece (i 0).val (i 1).val 26] := by decide +kernel
theorem set_pc26 (i : grid0.Coords) : (pc26 i).view.set = outPiece (Cert.Pieces.dstPiece (i 0).val (i 1).val 26) := set_outSlice _ _ _ _ (off_pc26 i)
theorem emb_pc26 (i : grid0.Coords) (y : S65536.Idx) : (((pc26 i).view.emb y) 0).val = 65536 * Cert.Pieces.dstPiece (i 0).val (i 1).val 26 + (y 0).val := emb_outSlice _ _ _ _ (off_pc26 i) y
theorem off_pc27 : ∀ i : grid0.Coords, k0_off6 i 1#32 2#32 = ![65536 * Cert.Pieces.dstPiece (i 0).val (i 1).val 27] := by decide +kernel
theorem set_pc27 (i : grid0.Coords) : (pc27 i).view.set = outPiece (Cert.Pieces.dstPiece (i 0).val (i 1).val 27) := set_outSlice _ _ _ _ (off_pc27 i)
theorem emb_pc27 (i : grid0.Coords) (y : S65536.Idx) : (((pc27 i).view.emb y) 0).val = 65536 * Cert.Pieces.dstPiece (i 0).val (i 1).val 27 + (y 0).val := emb_outSlice _ _ _ _ (off_pc27 i) y
theorem off_pc28 : ∀ i : grid0.Coords, k0_off5 i 1#32 3#32 = ![65536 * Cert.Pieces.dstPiece (i 0).val (i 1).val 28] := by decide +kernel
theorem set_pc28 (i : grid0.Coords) : (pc28 i).view.set = outPiece (Cert.Pieces.dstPiece (i 0).val (i 1).val 28) := set_outSlice _ _ _ _ (off_pc28 i)
theorem emb_pc28 (i : grid0.Coords) (y : S65536.Idx) : (((pc28 i).view.emb y) 0).val = 65536 * Cert.Pieces.dstPiece (i 0).val (i 1).val 28 + (y 0).val := emb_outSlice _ _ _ _ (off_pc28 i) y
theorem off_pc29 : ∀ i : grid0.Coords, k0_off6 i 1#32 3#32 = ![65536 * Cert.Pieces.dstPiece (i 0).val (i 1).val 29] := by decide +kernel
theorem set_pc29 (i : grid0.Coords) : (pc29 i).view.set = outPiece (Cert.Pieces.dstPiece (i 0).val (i 1).val 29) := set_outSlice _ _ _ _ (off_pc29 i)
theorem emb_pc29 (i : grid0.Coords) (y : S65536.Idx) : (((pc29 i).view.emb y) 0).val = 65536 * Cert.Pieces.dstPiece (i 0).val (i 1).val 29 + (y 0).val := emb_outSlice _ _ _ _ (off_pc29 i) y

/-! ## A window held by its own elements is a piece of the TensorCore's array held -/

section Held

open Idealize.SL Idealize.SL.RA Idealize.SL.BI
open scoped Idealize.SL.BI
open Idealize.ShloMosaic.SparseCore (V T)

variable {F : FTy → Type} {Ix : Type} [DecidableEq Ix] {Name : Type} [DecidableEq Name] {U : Type} [URA U] {Lvl : Type}

local notation "𝕄" => MT nD τ sig Ix (Elt F) Name U Lvl

theorem pts_xw0 (d : Dev nD) (i : grid0.Coords) (q : PosShare TreeShare) (f : Buf (Elt F) ((T d : Thread nD τ).loc main_v0)) :
    ((xw0 i).view.loc (V d ((i 0).castLE hcore0) ((i 1).castLE hsub0)) ↦[(xw0 i).view.set]{q} f : sProp 𝕄)
      = ((T d : Thread nD τ).loc main_v0 ↦[inPiece (Cert.Pieces.srcPiece (i 0).val (i 1).val 0)]{q} f) := by rw [set_xw0]
theorem pts_xw1 (d : Dev nD) (i : grid0.Coords) (q : PosShare TreeShare) (f : Buf (Elt F) ((T d : Thread nD τ).loc main_v0)) :
    ((xw1 i).view.loc (V d ((i 0).castLE hcore0) ((i 1).castLE hsub0)) ↦[(xw1 i).view.set]{q} f : sProp 𝕄)
      = ((T d : Thread nD τ).loc main_v0 ↦[inPiece (Cert.Pieces.srcPiece (i 0).val (i 1).val 7)]{q} f) := by rw [set_xw1]
theorem pts_xw2 (d : Dev nD) (i : grid0.Coords) (q : PosShare TreeShare) (f : Buf (Elt F) ((T d : Thread nD τ).loc main_v0)) :
    ((xw2 i).view.loc (V d ((i 0).castLE hcore0) ((i 1).castLE hsub0)) ↦[(xw2 i).view.set]{q} f : sProp 𝕄)
      = ((T d : Thread nD τ).loc main_v0 ↦[inPiece (Cert.Pieces.srcPiece (i 0).val (i 1).val 14)]{q} f) := by rw [set_xw2]
theorem pts_xw3 (d : Dev nD) (i : grid0.Coords) (q : PosShare TreeShare) (f : Buf (Elt F) ((T d : Thread nD τ).loc main_v0)) :
    ((xw3 i).view.loc (V d ((i 0).castLE hcore0) ((i 1).castLE hsub0)) ↦[(xw3 i).view.set]{q} f : sProp 𝕄)
      = ((T d : Thread nD τ).loc main_v0 ↦[inPiece (Cert.Pieces.srcPiece (i 0).val (i 1).val 16)]{q} f) := by rw [set_xw3]
theorem pts_xw4 (d : Dev nD) (i : grid0.Coords) (q : PosShare TreeShare) (f : Buf (Elt F) ((T d : Thread nD τ).loc main_v0)) :
    ((xw4 i).view.loc (V d ((i 0).castLE hcore0) ((i 1).castLE hsub0)) ↦[(xw4 i).view.set]{q} f : sProp 𝕄)
      = ((T d : Thread nD τ).loc main_v0 ↦[inPiece (Cert.Pieces.srcPiece (i 0).val (i 1).val 18)]{q} f) := by rw [set_xw4]
theorem pts_xw5 (d : Dev nD) (i : grid0.Coords) (q : PosShare TreeShare) (f : Buf (Elt F) ((T d : Thread nD τ).loc main_v0)) :
    ((xw5 i).view.loc (V d ((i 0).castLE hcore0) ((i 1).castLE hsub0)) ↦[(xw5 i).view.set]{q} f : sProp 𝕄)
      = ((T d : Thread nD τ).loc main_v0 ↦[inPiece (Cert.Pieces.srcPiece (i 0).val (i 1).val 20)]{q} f) := by rw [set_xw5]
theorem pts_xw6 (d : Dev nD) (i : grid0.Coords) (q : PosShare TreeShare) (f : Buf (Elt F) ((T d : Thread nD τ).loc main_v0)) :
    ((xw6 i).view.loc (V d ((i 0).castLE hcore0) ((i 1).castLE hsub0)) ↦[(xw6 i).view.set]{q} f : sProp 𝕄)
      = ((T d : Thread nD τ).loc main_v0 ↦[inPiece (Cert.Pieces.srcPiece (i 0).val (i 1).val 22)]{q} f) := by rw [set_xw6]
theorem pts_xw7 (d : Dev nD) (i : grid0.Coords) (q : PosShare TreeShare) (f : Buf (Elt F) ((T d : Thread nD τ).loc main_v0)) :
    ((xw7 i).view.loc (V d ((i 0).castLE hcore0) ((i 1).castLE hsub0)) ↦[(xw7 i).view.set]{q} f : sProp 𝕄)
      = ((T d : Thread nD τ).loc main_v0 ↦[inPiece (Cert.Pieces.srcPiece (i 0).val (i 1).val 24)]{q} f) := by rw [set_xw7]
theorem pts_xw8 (d : Dev nD) (i : grid0.Coords) (q : PosShare TreeShare) (f : Buf (Elt F) ((T d : Thread nD τ).loc main_v0)) :
    ((xw8 i).view.loc (V d ((i 0).castLE hcore0) ((i 1).castLE hsub0)) ↦[(xw8 i).view.set]{q} f : sProp 𝕄)
      = ((T d : Thread nD τ).loc main_v0 ↦[inPiece (Cert.Pieces.srcPiece (i 0).val (i 1).val 26)]{q} f) := by rw [set_xw8]
theorem pts_xw9 (d : Dev nD) (i : grid0.Coords) (q : PosShare TreeShare) (f : Buf (Elt F) ((T d : Thread nD τ).loc main_v0)) :
    ((xw9 i).view.loc (V d ((i 0).castLE hcore0) ((i 1).castLE hsub0)) ↦[(xw9 i).view.set]{q} f : sProp 𝕄)
      = ((T d : Thread nD τ).loc main_v0 ↦[inPiece (Cert.Pieces.srcPiece (i 0).val (i 1).val 28)]{q} f) := by rw [set_xw9]
theorem pts_pc0 (d : Dev nD) (i : grid0.Coords) (q : PosShare TreeShare) (f : Buf (Elt F) ((T d : Thread nD τ).loc main_v1)) :
    ((pc0 i).view.loc (V d ((i 0).castLE hcore0) ((i 1).castLE hsub0)) ↦[(pc0 i).view.set]{q} f : sProp 𝕄)
      = ((T d : Thread nD τ).loc main_v1 ↦[outPiece (Cert.Pieces.dstPiece (i 0).val (i 1).val ((0 : Fin 30) : ℕ))]{q} f) := by rw [set_pc0]; rfl
theorem pts_pc1 (d : Dev nD) (i : grid0.Coords) (q : PosShare TreeShare) (f : Buf (Elt F) ((T d : Thread nD τ).loc main_v1)) :
    ((pc1 i).view.loc (V d ((i 0).castLE hcore0) ((i 1).castLE hsub0)) ↦[(pc1 i).view.set]{q} f : sProp 𝕄)
      = ((T d : Thread nD τ).loc main_v1 ↦[outPiece (Cert.Pieces.dstPiece (i 0).val (i 1).val ((1 : Fin 30) : ℕ))]{q} f) := by rw [set_pc1]; rfl
theorem pts_pc2 (d : Dev nD) (i : grid0.Coords) (q : PosShare TreeShare) (f : Buf (Elt F) ((T d : Thread nD τ).loc main_v1)) :
    ((pc2 i).view.loc (V d ((i 0).castLE hcore0) ((i 1).castLE hsub0)) ↦[(pc2 i).view.set]{q} f : sProp 𝕄)
      = ((T d : Thread nD τ).loc main_v1 ↦[outPiece (Cert.Pieces.dstPiece (i 0).val (i 1).val ((2 : Fin 30) : ℕ))]{q} f) := by rw [set_pc2]; rfl
theorem pts_pc3 (d : Dev nD) (i : grid0.Coords) (q : PosShare TreeShare) (f : Buf (Elt F) ((T d : Thread nD τ).loc main_v1)) :
    ((pc3 i).view.loc (V d ((i 0).castLE hcore0) ((i 1).castLE hsub0)) ↦[(pc3 i).view.set]{q} f : sProp 𝕄)
      = ((T d : Thread nD τ).loc main_v1 ↦[outPiece (Cert.Pieces.dstPiece (i 0).val (i 1).val ((3 : Fin 30) : ℕ))]{q} f) := by rw [set_pc3]; rfl
theorem pts_pc4 (d : Dev nD) (i : grid0.Coords) (q : PosShare TreeShare) (f : Buf (Elt F) ((T d : Thread nD τ).loc main_v1)) :
    ((pc4 i).view.loc (V d ((i 0).castLE hcore0) ((i 1).castLE hsub0)) ↦[(pc4 i).view.set]{q} f : sProp 𝕄)
      = ((T d : Thread nD τ).loc main_v1 ↦[outPiece (Cert.Pieces.dstPiece (i 0).val (i 1).val ((4 : Fin 30) : ℕ))]{q} f) := by rw [set_pc4]; rfl
theorem pts_pc5 (d : Dev nD) (i : grid0.Coords) (q : PosShare TreeShare) (f : Buf (Elt F) ((T d : Thread nD τ).loc main_v1)) :
    ((pc5 i).view.loc (V d ((i 0).castLE hcore0) ((i 1).castLE hsub0)) ↦[(pc5 i).view.set]{q} f : sProp 𝕄)
      = ((T d : Thread nD τ).loc main_v1 ↦[outPiece (Cert.Pieces.dstPiece (i 0).val (i 1).val ((5 : Fin 30) : ℕ))]{q} f) := by rw [set_pc5]; rfl
theorem pts_pc6 (d : Dev nD) (i : grid0.Coords) (q : PosShare TreeShare) (f : Buf (Elt F) ((T d : Thread nD τ).loc main_v1)) :
    ((pc6 i).view.loc (V d ((i 0).castLE hcore0) ((i 1).castLE hsub0)) ↦[(pc6 i).view.set]{q} f : sProp 𝕄)
      = ((T d : Thread nD τ).loc main_v1 ↦[outPiece (Cert.Pieces.dstPiece (i 0).val (i 1).val ((6 : Fin 30) : ℕ))]{q} f) := by rw [set_pc6]; rfl
theorem pts_pc7 (d : Dev nD) (i : grid0.Coords) (q : PosShare TreeShare) (f : Buf (Elt F) ((T d : Thread nD τ).loc main_v1)) :
    ((pc7 i).view.loc (V d ((i 0).castLE hcore0) ((i 1).castLE hsub0)) ↦[(pc7 i).view.set]{q} f : sProp 𝕄)
      = ((T d : Thread nD τ).loc main_v1 ↦[outPiece (Cert.Pieces.dstPiece (i 0).val (i 1).val ((7 : Fin 30) : ℕ))]{q} f) := by rw [set_pc7]; rfl
theorem pts_pc8 (d : Dev nD) (i : grid0.Coords) (q : PosShare TreeShare) (f : Buf (Elt F) ((T d : Thread nD τ).loc main_v1)) :
    ((pc8 i).view.loc (V d ((i 0).castLE hcore0) ((i 1).castLE hsub0)) ↦[(pc8 i).view.set]{q} f : sProp 𝕄)
      = ((T d : Thread nD τ).loc main_v1 ↦[outPiece (Cert.Pieces.dstPiece (i 0).val (i 1).val ((8 : Fin 30) : ℕ))]{q} f) := by rw [set_pc8]; rfl
theorem pts_pc9 (d : Dev nD) (i : grid0.Coords) (q : PosShare TreeShare) (f : Buf (Elt F) ((T d : Thread nD τ).loc main_v1)) :
    ((pc9 i).view.loc (V d ((i 0).castLE hcore0) ((i 1).castLE hsub0)) ↦[(pc9 i).view.set]{q} f : sProp 𝕄)
      = ((T d : Thread nD τ).loc main_v1 ↦[outPiece (Cert.Pieces.dstPiece (i 0).val (i 1).val ((9 : Fin 30) : ℕ))]{q} f) := by rw [set_pc9]; rfl
theorem pts_pc10 (d : Dev nD) (i : grid0.Coords) (q : PosShare TreeShare) (f : Buf (Elt F) ((T d : Thread nD τ).loc main_v1)) :
    ((pc10 i).view.loc (V d ((i 0).castLE hcore0) ((i 1).castLE hsub0)) ↦[(pc10 i).view.set]{q} f : sProp 𝕄)
      = ((T d : Thread nD τ).loc main_v1 ↦[outPiece (Cert.Pieces.dstPiece (i 0).val (i 1).val ((10 : Fin 30) : ℕ))]{q} f) := by rw [set_pc10]; rfl
theorem pts_pc11 (d : Dev nD) (i : grid0.Coords) (q : PosShare TreeShare) (f : Buf (Elt F) ((T d : Thread nD τ).loc main_v1)) :
    ((pc11 i).view.loc (V d ((i 0).castLE hcore0) ((i 1).castLE hsub0)) ↦[(pc11 i).view.set]{q} f : sProp 𝕄)
      = ((T d : Thread nD τ).loc main_v1 ↦[outPiece (Cert.Pieces.dstPiece (i 0).val (i 1).val ((11 : Fin 30) : ℕ))]{q} f) := by rw [set_pc11]; rfl
theorem pts_pc12 (d : Dev nD) (i : grid0.Coords) (q : PosShare TreeShare) (f : Buf (Elt F) ((T d : Thread nD τ).loc main_v1)) :
    ((pc12 i).view.loc (V d ((i 0).castLE hcore0) ((i 1).castLE hsub0)) ↦[(pc12 i).view.set]{q} f : sProp 𝕄)
      = ((T d : Thread nD τ).loc main_v1 ↦[outPiece (Cert.Pieces.dstPiece (i 0).val (i 1).val ((12 : Fin 30) : ℕ))]{q} f) := by rw [set_pc12]; rfl
theorem pts_pc13 (d : Dev nD) (i : grid0.Coords) (q : PosShare TreeShare) (f : Buf (Elt F) ((T d : Thread nD τ).loc main_v1)) :
    ((pc13 i).view.loc (V d ((i 0).castLE hcore0) ((i 1).castLE hsub0)) ↦[(pc13 i).view.set]{q} f : sProp 𝕄)
      = ((T d : Thread nD τ).loc main_v1 ↦[outPiece (Cert.Pieces.dstPiece (i 0).val (i 1).val ((13 : Fin 30) : ℕ))]{q} f) := by rw [set_pc13]; rfl
theorem pts_pc14 (d : Dev nD) (i : grid0.Coords) (q : PosShare TreeShare) (f : Buf (Elt F) ((T d : Thread nD τ).loc main_v1)) :
    ((pc14 i).view.loc (V d ((i 0).castLE hcore0) ((i 1).castLE hsub0)) ↦[(pc14 i).view.set]{q} f : sProp 𝕄)
      = ((T d : Thread nD τ).loc main_v1 ↦[outPiece (Cert.Pieces.dstPiece (i 0).val (i 1).val ((14 : Fin 30) : ℕ))]{q} f) := by rw [set_pc14]; rfl
theorem pts_pc15 (d : Dev nD) (i : grid0.Coords) (q : PosShare TreeShare) (f : Buf (Elt F) ((T d : Thread nD τ).loc main_v1)) :
    ((pc15 i).view.loc (V d ((i 0).castLE hcore0) ((i 1).castLE hsub0)) ↦[(pc15 i).view.set]{q} f : sProp 𝕄)
      = ((T d : Thread nD τ).loc main_v1 ↦[outPiece (Cert.Pieces.dstPiece (i 0).val (i 1).val ((15 : Fin 30) : ℕ))]{q} f) := by rw [set_pc15]; rfl
theorem pts_pc16 (d : Dev nD) (i : grid0.Coords) (q : PosShare TreeShare) (f : Buf (Elt F) ((T d : Thread nD τ).loc main_v1)) :
    ((pc16 i).view.loc (V d ((i 0).castLE hcore0) ((i 1).castLE hsub0)) ↦[(pc16 i).view.set]{q} f : sProp 𝕄)
      = ((T d : Thread nD τ).loc main_v1 ↦[outPiece (Cert.Pieces.dstPiece (i 0).val (i 1).val ((16 : Fin 30) : ℕ))]{q} f) := by rw [set_pc16]; rfl
theorem pts_pc17 (d : Dev nD) (i : grid0.Coords) (q : PosShare TreeShare) (f : Buf (Elt F) ((T d : Thread nD τ).loc main_v1)) :
    ((pc17 i).view.loc (V d ((i 0).castLE hcore0) ((i 1).castLE hsub0)) ↦[(pc17 i).view.set]{q} f : sProp 𝕄)
      = ((T d : Thread nD τ).loc main_v1 ↦[outPiece (Cert.Pieces.dstPiece (i 0).val (i 1).val ((17 : Fin 30) : ℕ))]{q} f) := by rw [set_pc17]; rfl
theorem pts_pc18 (d : Dev nD) (i : grid0.Coords) (q : PosShare TreeShare) (f : Buf (Elt F) ((T d : Thread nD τ).loc main_v1)) :
    ((pc18 i).view.loc (V d ((i 0).castLE hcore0) ((i 1).castLE hsub0)) ↦[(pc18 i).view.set]{q} f : sProp 𝕄)
      = ((T d : Thread nD τ).loc main_v1 ↦[outPiece (Cert.Pieces.dstPiece (i 0).val (i 1).val ((18 : Fin 30) : ℕ))]{q} f) := by rw [set_pc18]; rfl
theorem pts_pc19 (d : Dev nD) (i : grid0.Coords) (q : PosShare TreeShare) (f : Buf (Elt F) ((T d : Thread nD τ).loc main_v1)) :
    ((pc19 i).view.loc (V d ((i 0).castLE hcore0) ((i 1).castLE hsub0)) ↦[(pc19 i).view.set]{q} f : sProp 𝕄)
      = ((T d : Thread nD τ).loc main_v1 ↦[outPiece (Cert.Pieces.dstPiece (i 0).val (i 1).val ((19 : Fin 30) : ℕ))]{q} f) := by rw [set_pc19]; rfl
theorem pts_pc20 (d : Dev nD) (i : grid0.Coords) (q : PosShare TreeShare) (f : Buf (Elt F) ((T d : Thread nD τ).loc main_v1)) :
    ((pc20 i).view.loc (V d ((i 0).castLE hcore0) ((i 1).castLE hsub0)) ↦[(pc20 i).view.set]{q} f : sProp 𝕄)
      = ((T d : Thread nD τ).loc main_v1 ↦[outPiece (Cert.Pieces.dstPiece (i 0).val (i 1).val ((20 : Fin 30) : ℕ))]{q} f) := by rw [set_pc20]; rfl
theorem pts_pc21 (d : Dev nD) (i : grid0.Coords) (q : PosShare TreeShare) (f : Buf (Elt F) ((T d : Thread nD τ).loc main_v1)) :
    ((pc21 i).view.loc (V d ((i 0).castLE hcore0) ((i 1).castLE hsub0)) ↦[(pc21 i).view.set]{q} f : sProp 𝕄)
      = ((T d : Thread nD τ).loc main_v1 ↦[outPiece (Cert.Pieces.dstPiece (i 0).val (i 1).val ((21 : Fin 30) : ℕ))]{q} f) := by rw [set_pc21]; rfl
theorem pts_pc22 (d : Dev nD) (i : grid0.Coords) (q : PosShare TreeShare) (f : Buf (Elt F) ((T d : Thread nD τ).loc main_v1)) :
    ((pc22 i).view.loc (V d ((i 0).castLE hcore0) ((i 1).castLE hsub0)) ↦[(pc22 i).view.set]{q} f : sProp 𝕄)
      = ((T d : Thread nD τ).loc main_v1 ↦[outPiece (Cert.Pieces.dstPiece (i 0).val (i 1).val ((22 : Fin 30) : ℕ))]{q} f) := by rw [set_pc22]; rfl
theorem pts_pc23 (d : Dev nD) (i : grid0.Coords) (q : PosShare TreeShare) (f : Buf (Elt F) ((T d : Thread nD τ).loc main_v1)) :
    ((pc23 i).view.loc (V d ((i 0).castLE hcore0) ((i 1).castLE hsub0)) ↦[(pc23 i).view.set]{q} f : sProp 𝕄)
      = ((T d : Thread nD τ).loc main_v1 ↦[outPiece (Cert.Pieces.dstPiece (i 0).val (i 1).val ((23 : Fin 30) : ℕ))]{q} f) := by rw [set_pc23]; rfl
theorem pts_pc24 (d : Dev nD) (i : grid0.Coords) (q : PosShare TreeShare) (f : Buf (Elt F) ((T d : Thread nD τ).loc main_v1)) :
    ((pc24 i).view.loc (V d ((i 0).castLE hcore0) ((i 1).castLE hsub0)) ↦[(pc24 i).view.set]{q} f : sProp 𝕄)
      = ((T d : Thread nD τ).loc main_v1 ↦[outPiece (Cert.Pieces.dstPiece (i 0).val (i 1).val ((24 : Fin 30) : ℕ))]{q} f) := by rw [set_pc24]; rfl
theorem pts_pc25 (d : Dev nD) (i : grid0.Coords) (q : PosShare TreeShare) (f : Buf (Elt F) ((T d : Thread nD τ).loc main_v1)) :
    ((pc25 i).view.loc (V d ((i 0).castLE hcore0) ((i 1).castLE hsub0)) ↦[(pc25 i).view.set]{q} f : sProp 𝕄)
      = ((T d : Thread nD τ).loc main_v1 ↦[outPiece (Cert.Pieces.dstPiece (i 0).val (i 1).val ((25 : Fin 30) : ℕ))]{q} f) := by rw [set_pc25]; rfl
theorem pts_pc26 (d : Dev nD) (i : grid0.Coords) (q : PosShare TreeShare) (f : Buf (Elt F) ((T d : Thread nD τ).loc main_v1)) :
    ((pc26 i).view.loc (V d ((i 0).castLE hcore0) ((i 1).castLE hsub0)) ↦[(pc26 i).view.set]{q} f : sProp 𝕄)
      = ((T d : Thread nD τ).loc main_v1 ↦[outPiece (Cert.Pieces.dstPiece (i 0).val (i 1).val ((26 : Fin 30) : ℕ))]{q} f) := by rw [set_pc26]; rfl
theorem pts_pc27 (d : Dev nD) (i : grid0.Coords) (q : PosShare TreeShare) (f : Buf (Elt F) ((T d : Thread nD τ).loc main_v1)) :
    ((pc27 i).view.loc (V d ((i 0).castLE hcore0) ((i 1).castLE hsub0)) ↦[(pc27 i).view.set]{q} f : sProp 𝕄)
      = ((T d : Thread nD τ).loc main_v1 ↦[outPiece (Cert.Pieces.dstPiece (i 0).val (i 1).val ((27 : Fin 30) : ℕ))]{q} f) := by rw [set_pc27]; rfl
theorem pts_pc28 (d : Dev nD) (i : grid0.Coords) (q : PosShare TreeShare) (f : Buf (Elt F) ((T d : Thread nD τ).loc main_v1)) :
    ((pc28 i).view.loc (V d ((i 0).castLE hcore0) ((i 1).castLE hsub0)) ↦[(pc28 i).view.set]{q} f : sProp 𝕄)
      = ((T d : Thread nD τ).loc main_v1 ↦[outPiece (Cert.Pieces.dstPiece (i 0).val (i 1).val ((28 : Fin 30) : ℕ))]{q} f) := by rw [set_pc28]; rfl
theorem pts_pc29 (d : Dev nD) (i : grid0.Coords) (q : PosShare TreeShare) (f : Buf (Elt F) ((T d : Thread nD τ).loc main_v1)) :
    ((pc29 i).view.loc (V d ((i 0).castLE hcore0) ((i 1).castLE hsub0)) ↦[(pc29 i).view.set]{q} f : sProp 𝕄)
      = ((T d : Thread nD τ).loc main_v1 ↦[outPiece (Cert.Pieces.dstPiece (i 0).val (i 1).val ((29 : Fin 30) : ℕ))]{q} f) := by rw [set_pc29]; rfl

theorem done_pc0 (d : Dev nD) (i : grid0.Coords) (xf : Buf (Elt F) ((T d : Thread nD τ).loc main_v0)) (fo : Buf (Elt F) ((T d : Thread nD τ).loc main_v1)) :
    ((pc0 i).view.loc (V d ((i 0).castLE hcore0) ((i 1).castLE hsub0)) ↦[(pc0 i).view.set]{fullShare}
        (pc0 i).view.writes (Elt F) fo [⟨Rect.whole S65536, (xw0 i).view.read (Elt F) xf⟩] : sProp 𝕄)
      = ((T d : Thread nD τ).loc main_v1 ↦[outPiece (Cert.Pieces.dstPiece (i 0).val (i 1).val ((0 : Fin 30) : ℕ))]{fullShare} gout xf) :=
  done_outSlice d _ _ _ _ _ _ _ _ _ _ (off_pc0 i) (off_xw0 i) ((Cert.Pieces.ref_src (i 0) (i 1) (0 : Fin 30)).trans (Cert.Pieces.src_step (i 0) (i 1) (0 : Fin 30))) xf fo
theorem done_pc1 (d : Dev nD) (i : grid0.Coords) (xf : Buf (Elt F) ((T d : Thread nD τ).loc main_v0)) (fo : Buf (Elt F) ((T d : Thread nD τ).loc main_v1)) :
    ((pc1 i).view.loc (V d ((i 0).castLE hcore0) ((i 1).castLE hsub0)) ↦[(pc1 i).view.set]{fullShare}
        (pc1 i).view.writes (Elt F) fo [⟨Rect.whole S65536, (xw0 i).view.read (Elt F) xf⟩] : sProp 𝕄)
      = ((T d : Thread nD τ).loc main_v1 ↦[outPiece (Cert.Pieces.dstPiece (i 0).val (i 1).val ((1 : Fin 30) : ℕ))]{fullShare} gout xf) :=
  done_outSlice d _ _ _ _ _ _ _ _ _ _ (off_pc1 i) (off_xw0 i) ((Cert.Pieces.ref_src (i 0) (i 1) (1 : Fin 30)).trans (Cert.Pieces.src_step (i 0) (i 1) (1 : Fin 30))) xf fo
theorem done_pc2 (d : Dev nD) (i : grid0.Coords) (xf : Buf (Elt F) ((T d : Thread nD τ).loc main_v0)) (fo : Buf (Elt F) ((T d : Thread nD τ).loc main_v1)) :
    ((pc2 i).view.loc (V d ((i 0).castLE hcore0) ((i 1).castLE hsub0)) ↦[(pc2 i).view.set]{fullShare}
        (pc2 i).view.writes (Elt F) fo [⟨Rect.whole S65536, (xw0 i).view.read (Elt F) xf⟩] : sProp 𝕄)
      = ((T d : Thread nD τ).loc main_v1 ↦[outPiece (Cert.Pieces.dstPiece (i 0).val (i 1).val ((2 : Fin 30) : ℕ))]{fullShare} gout xf) :=
  done_outSlice d _ _ _ _ _ _ _ _ _ _ (off_pc2 i) (off_xw0 i) ((Cert.Pieces.ref_src (i 0) (i 1) (2 : Fin 30)).trans (Cert.Pieces.src_step (i 0) (i 1) (2 : Fin 30))) xf fo
theorem done_pc3 (d : Dev nD) (i : grid0.Coords) (xf : Buf (Elt F) ((T d : Thread nD τ).loc main_v0)) (fo : Buf (Elt F) ((T d : Thread nD τ).loc main_v1)) :
    ((pc3 i).view.loc (V d ((i 0).castLE hcore0) ((i 1).castLE hsub0)) ↦[(pc3 i).view.set]{fullShare}
        (pc3 i).view.writes (Elt F) fo [⟨Rect.whole S65536, (xw0 i).view.read (Elt F) xf⟩] : sProp 𝕄)
      = ((T d : Thread nD τ).loc main_v1 ↦[outPiece (Cert.Pieces.dstPiece (i 0).val (i 1).val ((3 : Fin 30) : ℕ))]{fullShare} gout xf) :=
  done_outSlice d _ _ _ _ _ _ _ _ _ _ (off_pc3 i) (off_xw0 i) ((Cert.Pieces.ref_src (i 0) (i 1) (3 : Fin 30)).trans (Cert.Pieces.src_step (i 0) (i 1) (3 : Fin 30))) xf fo
theorem done_pc4 (d : Dev nD) (i : grid0.Coords) (xf : Buf (Elt F) ((T d : Thread nD τ).loc main_v0)) (fo : Buf (Elt F) ((T d : Thread nD τ).loc main_v1)) :
    ((pc4 i).view.loc (V d ((i 0).castLE hcore0) ((i 1).castLE hsub0)) ↦[(pc4 i).view.set]{fullShare}
        (pc4 i).view.writes (Elt F) fo [⟨Rect.whole S65536, (xw0 i).view.read (Elt F) xf⟩] : sProp 𝕄)
      = ((T d : Thread nD τ).loc main_v1 ↦[outPiece (Cert.Pieces.dstPiece (i 0).val (i 1).val ((4 : Fin 30) : ℕ))]{fullShare} gout xf) :=
  done_outSlice d _ _ _ _ _ _ _ _ _ _ (off_pc4 i) (off_xw0 i) ((Cert.Pieces.ref_src (i 0) (i 1) (4 : Fin 30)).trans (Cert.Pieces.src_step (i 0) (i 1) (4 : Fin 30))) xf fo
theorem done_pc5 (d : Dev nD) (i : grid0.Coords) (xf : Buf (Elt F) ((T d : Thread nD τ).loc main_v0)) (fo : Buf (Elt F) ((T d : Thread nD τ).loc main_v1)) :
    ((pc5 i).view.loc (V d ((i 0).castLE hcore0) ((i 1).castLE hsub0)) ↦[(pc5 i).view.set]{fullShare}
        (pc5 i).view.writes (Elt F) fo [⟨Rect.whole S65536, (xw0 i).view.read (Elt F) xf⟩] : sProp 𝕄)
      = ((T d : Thread nD τ).loc main_v1 ↦[outPiece (Cert.Pieces.dstPiece (i 0).val (i 1).val ((5 : Fin 30) : ℕ))]{fullShare} gout xf) :=
  done_outSlice d _ _ _ _ _ _ _ _ _ _ (off_pc5 i) (off_xw0 i) ((Cert.Pieces.ref_src (i 0) (i 1) (5 : Fin 30)).trans (Cert.Pieces.src_step (i 0) (i 1) (5 : Fin 30))) xf fo
theorem done_pc6 (d : Dev nD) (i : grid0.Coords) (xf : Buf (Elt F) ((T d : Thread nD τ).loc main_v0)) (fo : Buf (Elt F) ((T d : Thread nD τ).loc main_v1)) :
    ((pc6 i).view.loc (V d ((i 0).castLE hcore0) ((i 1).castLE hsub0)) ↦[(pc6 i).view.set]{fullShare}
        (pc6 i).view.writes (Elt F) fo [⟨Rect.whole S65536, (xw0 i).view.read (Elt F) xf⟩] : sProp 𝕄)
      = ((T d : Thread nD τ).loc main_v1 ↦[outPiece (Cert.Pieces.dstPiece (i 0).val (i 1).val ((6 : Fin 30) : ℕ))]{fullShare} gout xf) :=
  done_outSlice d _ _ _ _ _ _ _ _ _ _ (off_pc6 i) (off_xw0 i) ((Cert.Pieces.ref_src (i 0) (i 1) (6 : Fin 30)).trans (Cert.Pieces.src_step (i 0) (i 1) (6 : Fin 30))) xf fo
theorem done_pc7 (d : Dev nD) (i : grid0.Coords) (xf : Buf (Elt F) ((T d : Thread nD τ).loc main_v0)) (fo : Buf (Elt F) ((T d : Thread nD τ).loc main_v1)) :
    ((pc7 i).view.loc (V d ((i 0).castLE hcore0) ((i 1).castLE hsub0)) ↦[(pc7 i).view.set]{fullShare}
        (pc7 i).view.writes (Elt F) fo [⟨Rect.whole S65536, (xw1 i).view.read (Elt F) xf⟩] : sProp 𝕄)
      = ((T d : Thread nD τ).loc main_v1 ↦[outPiece (Cert.Pieces.dstPiece (i 0).val (i 1).val ((7 : Fin 30) : ℕ))]{fullShare} gout xf) :=
  done_outSlice d _ _ _ _ _ _ _ _ _ _ (off_pc7 i) (off_xw1 i) ((Cert.Pieces.ref_src (i 0) (i 1) (7 : Fin 30)).trans (Cert.Pieces.src_step (i 0) (i 1) (7 : Fin 30))) xf fo
theorem done_pc8 (d : Dev nD) (i : grid0.Coords) (xf : Buf (Elt F) ((T d : Thread nD τ).loc main_v0)) (fo : Buf (Elt F) ((T d : Thread nD τ).loc main_v1)) :
    ((pc8 i).view.loc (V d ((i 0).castLE hcore0) ((i 1).castLE hsub0)) ↦[(pc8 i).view.set]{fullShare}
        (pc8 i).view.writes (Elt F) fo [⟨Rect.whole S65536, (xw1 i).view.read (Elt F) xf⟩] : sProp 𝕄)
      = ((T d : Thread nD τ).loc main_v1 ↦[outPiece (Cert.Pieces.dstPiece (i 0).val (i 1).val ((8 : Fin 30) : ℕ))]{fullShare} gout xf) :=
  done_outSlice d _ _ _ _ _ _ _ _ _ _ (off_pc8 i) (off_xw1 i) ((Cert.Pieces.ref_src (i 0) (i 1) (8 : Fin 30)).trans (Cert.Pieces.src_step (i 0) (i 1) (8 : Fin 30))) xf fo
theorem done_pc9 (d : Dev nD) (i : grid0.Coords) (xf : Buf (Elt F) ((T d : Thread nD τ).loc main_v0)) (fo : Buf (Elt F) ((T d : Thread nD τ).loc main_v1)) :
    ((pc9 i).view.loc (V d ((i 0).castLE hcore0) ((i 1).castLE hsub0)) ↦[(pc9 i).view.set]{fullShare}
        (pc9 i).view.writes (Elt F) fo [⟨Rect.whole S65536, (xw1 i).view.read (Elt F) xf⟩] : sProp 𝕄)
      = ((T d : Thread nD τ).loc main_v1 ↦[outPiece (Cert.Pieces.dstPiece (i 0).val (i 1).val ((9 : Fin 30) : ℕ))]{fullShare} gout xf) :=
  done_outSlice d _ _ _ _ _ _ _ _ _ _ (off_pc9 i) (off_xw1 i) ((Cert.Pieces.ref_src (i 0) (i 1) (9 : Fin 30)).trans (Cert.Pieces.src_step (i 0) (i 1) (9 : Fin 30))) xf fo
theorem done_pc10 (d : Dev nD) (i : grid0.Coords) (xf : Buf (Elt F) ((T d : Thread nD τ).loc main_v0)) (fo : Buf (Elt F) ((T d : Thread nD τ).loc main_v1)) :
    ((pc10 i).view.loc (V d ((i 0).castLE hcore0) ((i 1).castLE hsub0)) ↦[(pc10 i).view.set]{fullShare}
        (pc10 i).view.writes (Elt F) fo [⟨Rect.whole S65536, (xw1 i).view.read (Elt F) xf⟩] : sProp 𝕄)
      = ((T d : Thread nD τ).loc main_v1 ↦[outPiece (Cert.Pieces.dstPiece (i 0).val (i 1).val ((10 : Fin 30) : ℕ))]{fullShare} gout xf) :=
  done_outSlice d _ _ _ _ _ _ _ _ _ _ (off_pc10 i) (off_xw1 i) ((Cert.Pieces.ref_src (i 0) (i 1) (10 : Fin 30)).trans (Cert.Pieces.src_step (i 0) (i 1) (10 : Fin 30))) xf fo
theorem done_pc11 (d : Dev nD) (i : grid0.Coords) (xf : Buf (Elt F) ((T d : Thread nD τ).loc main_v0)) (fo : Buf (Elt F) ((T d : Thread nD τ).loc main_v1)) :
    ((pc11 i).view.loc (V d ((i 0).castLE hcore0) ((i 1).castLE hsub0)) ↦[(pc11 i).view.set]{fullShare}
        (pc11 i).view.writes (Elt F) fo [⟨Rect.whole S65536, (xw1 i).view.read (Elt F) xf⟩] : sProp 𝕄)
      = ((T d : Thread nD τ).loc main_v1 ↦[outPiece (Cert.Pieces.dstPiece (i 0).val (i 1).val ((11 : Fin 30) : ℕ))]{fullShare} gout xf) :=
  done_outSlice d _ _ _ _ _ _ _ _ _ _ (off_pc11 i) (off_xw1 i) ((Cert.Pieces.ref_src (i 0) (i 1) (11 : Fin 30)).trans (Cert.Pieces.src_step (i 0) (i 1) (11 : Fin 30))) xf fo
theorem done_pc12 (d : Dev nD) (i : grid0.Coords) (xf : Buf (Elt F) ((T d : Thread nD τ).loc main_v0)) (fo : Buf (Elt F) ((T d : Thread nD τ).loc main_v1)) :
    ((pc12 i).view.loc (V d ((i 0).castLE hcore0) ((i 1).castLE hsub0)) ↦[(pc12 i).view.set]{fullShare}
        (pc12 i).view.writes (Elt F) fo [⟨Rect.whole S65536, (xw1 i).view.read (Elt F) xf⟩] : sProp 𝕄)
      = ((T d : Thread nD τ).loc main_v1 ↦[outPiece (Cert.Pieces.dstPiece (i 0).val (i 1).val ((12 : Fin 30) : ℕ))]{fullShare} gout xf) :=
  done_outSlice d _ _ _ _ _ _ _ _ _ _ (off_pc12 i) (off_xw1 i) ((Cert.Pieces.ref_src (i 0) (i 1) (12 : Fin 30)).trans (Cert.Pieces.src_step (i 0) (i 1) (12 : Fin 30))) xf fo
theorem done_pc13 (d : Dev nD) (i : grid0.Coords) (xf : Buf (Elt F) ((T d : Thread nD τ).loc main_v0)) (fo : Buf (Elt F) ((T d : Thread nD τ).loc main_v1)) :
    ((pc13 i).view.loc (V d ((i 0).castLE hcore0) ((i 1).castLE hsub0)) ↦[(pc13 i).view.set]{fullShare}
        (pc13 i).view.writes (Elt F) fo [⟨Rect.whole S65536, (xw1 i).view.read (Elt F) xf⟩] : sProp 𝕄)
      = ((T d : Thread nD τ).loc main_v1 ↦[outPiece (Cert.Pieces.dstPiece (i 0).val (i 1).val ((13 : Fin 30) : ℕ))]{fullShare} gout xf) :=
  done_outSlice d _ _ _ _ _ _ _ _ _ _ (off_pc13 i) (off_xw1 i) ((Cert.Pieces.ref_src (i 0) (i 1) (13 : Fin 30)).trans (Cert.Pieces.src_step (i 0) (i 1) (13 : Fin 30))) xf fo
theorem done_pc14 (d : Dev nD) (i : grid0.Coords) (xf : Buf (Elt F) ((T d : Thread nD τ).loc main_v0)) (fo : Buf (Elt F) ((T d : Thread nD τ).loc main_v1)) :
    ((pc14 i).view.loc (V d ((i 0).castLE hcore0) ((i 1).castLE hsub0)) ↦[(pc14 i).view.set]{fullShare}
        (pc14 i).view.writes (Elt F) fo [⟨Rect.whole S65536, (xw2 i).view.read (Elt F) xf⟩] : sProp 𝕄)
      = ((T d : Thread nD τ).loc main_v1 ↦[outPiece (Cert.Pieces.dstPiece (i 0).val (i 1).val ((14 : Fin 30) : ℕ))]{fullShare} gout xf) :=
  done_outSlice d _ _ _ _ _ _ _ _ _ _ (off_pc14 i) (off_xw2 i) ((Cert.Pieces.ref_src (i 0) (i 1) (14 : Fin 30)).trans (Cert.Pieces.src_step (i 0) (i 1) (14 : Fin 30))) xf fo
theorem done_pc15 (d : Dev nD) (i : grid0.Coords) (xf : Buf (Elt F) ((T d : Thread nD τ).loc main_v0)) (fo : Buf (Elt F) ((T d : Thread nD τ).loc main_v1)) :
    ((pc15 i).view.loc (V d ((i 0).castLE hcore0) ((i 1).castLE hsub0)) ↦[(pc15 i).view.set]{fullShare}
        (pc15 i).view.writes (Elt F) fo [⟨Rect.whole S65536, (xw2 i).view.read (Elt F) xf⟩] : sProp 𝕄)
      = ((T d : Thread nD τ).loc main_v1 ↦[outPiece (Cert.Pieces.dstPiece (i 0).val (i 1).val ((15 : Fin 30) : ℕ))]{fullShare} gout xf) :=
  done_outSlice d _ _ _ _ _ _ _ _ _ _ (off_pc15 i) (off_xw2 i) ((Cert.Pieces.ref_src (i 0) (i 1) (15 : Fin 30)).trans (Cert.Pieces.src_step (i 0) (i 1) (15 : Fin 30))) xf fo
theorem done_pc16 (d : Dev nD) (i : grid0.Coords) (xf : Buf (Elt F) ((T d : Thread nD τ).loc main_v0)) (fo : Buf (Elt F) ((T d : Thread nD τ).loc main_v1)) :
    ((pc16 i).view.loc (V d ((i 0).castLE hcore0) ((i 1).castLE hsub0)) ↦[(pc16 i).view.set]{fullShare}
        (pc16 i).view.writes (Elt F) fo [⟨Rect.whole S65536, (xw3 i).view.read (Elt F) xf⟩] : sProp 𝕄)
      = ((T d : Thread nD τ).loc main_v1 ↦[outPiece (Cert.Pieces.dstPiece (i 0).val (i 1).val ((16 : Fin 30) : ℕ))]{fullShare} gout xf) :=
  done_outSlice d _ _ _ _ _ _ _ _ _ _ (off_pc16 i) (off_xw3 i) ((Cert.Pieces.ref_src (i 0) (i 1) (16 : Fin 30)).trans (Cert.Pieces.src_step (i 0) (i 1) (16 : Fin 30))) xf fo
theorem done_pc17 (d : Dev nD) (i : grid0.Coords) (xf : Buf (Elt F) ((T d : Thread nD τ).loc main_v0)) (fo : Buf (Elt F) ((T d : Thread nD τ).loc main_v1)) :
    ((pc17 i).view.loc (V d ((i 0).castLE hcore0) ((i 1).castLE hsub0)) ↦[(pc17 i).view.set]{fullShare}
        (pc17 i).view.writes (Elt F) fo [⟨Rect.whole S65536, (xw3 i).view.read (Elt F) xf⟩] : sProp 𝕄)
      = ((T d : Thread nD τ).loc main_v1 ↦[outPiece (Cert.Pieces.dstPiece (i 0).val (i 1).val ((17 : Fin 30) : ℕ))]{fullShare} gout xf) :=
  done_outSlice d _ _ _ _ _ _ _ _ _ _ (off_pc17 i) (off_xw3 i) ((Cert.Pieces.ref_src (i 0) (i 1) (17 : Fin 30)).trans (Cert.Pieces.src_step (i 0) (i 1) (17 : Fin 30))) xf fo
theorem done_pc18 (d : Dev nD) (i : grid0.Coords) (xf : Buf (Elt F) ((T d : Thread nD τ).loc main_v0)) (fo : Buf (Elt F) ((T d : Thread nD τ).loc main_v1)) :
    ((pc18 i).view.loc (V d ((i 0).castLE hcore0) ((i 1).castLE hsub0)) ↦[(pc18 i).view.set]{fullShare}
        (pc18 i).view.writes (Elt F) fo [⟨Rect.whole S65536, (xw4 i).view.read (Elt F) xf⟩] : sProp 𝕄)
      = ((T d : Thread nD τ).loc main_v1 ↦[outPiece (Cert.Pieces.dstPiece (i 0).val (i 1).val ((18 : Fin 30) : ℕ))]{fullShare} gout xf) :=
  done_outSlice d _ _ _ _ _ _ _ _ _ _ (off_pc18 i) (off_xw4 i) ((Cert.Pieces.ref_src (i 0) (i 1) (18 : Fin 30)).trans (Cert.Pieces.src_step (i 0) (i 1) (18 : Fin 30))) xf fo
theorem done_pc19 (d : Dev nD) (i : grid0.Coords) (xf : Buf (Elt F) ((T d : Thread nD τ).loc main_v0)) (fo : Buf (Elt F) ((T d : Thread nD τ).loc main_v1)) :
    ((pc19 i).view.loc (V d ((i 0).castLE hcore0) ((i 1).castLE hsub0)) ↦[(pc19 i).view.set]{fullShare}
        (pc19 i).view.writes (Elt F) fo [⟨Rect.whole S65536, (xw4 i).view.read (Elt F) xf⟩] : sProp 𝕄)
      = ((T d : Thread nD τ).loc main_v1 ↦[outPiece (Cert.Pieces.dstPiece (i 0).val (i 1).val ((19 : Fin 30) : ℕ))]{fullShare} gout xf) :=
  done_outSlice d _ _ _ _ _ _ _ _ _ _ (off_pc19 i) (off_xw4 i) ((Cert.Pieces.ref_src (i 0) (i 1) (19 : Fin 30)).trans (Cert.Pieces.src_step (i 0) (i 1) (19 : Fin 30))) xf fo
theorem done_pc20 (d : Dev nD) (i : grid0.Coords) (xf : Buf (Elt F) ((T d : Thread nD τ).loc main_v0)) (fo : Buf (Elt F) ((T d : Thread nD τ).loc main_v1)) :
    ((pc20 i).view.loc (V d ((i 0).castLE hcore0) ((i 1).castLE hsub0)) ↦[(pc20 i).view.set]{fullShare}
        (pc20 i).view.writes (Elt F) fo [⟨Rect.whole S65536, (xw5 i).view.read (Elt F) xf⟩] : sProp 𝕄)
      = ((T d : Thread nD τ).loc main_v1 ↦[outPiece (Cert.Pieces.dstPiece (i 0).val (i 1).val ((20 : Fin 30) : ℕ))]{fullShare} gout xf) :=
  done_outSlice d _ _ _ _ _ _ _ _ _ _ (off_pc20 i) (off_xw5 i) ((Cert.Pieces.ref_src (i 0) (i 1) (20 : Fin 30)).trans (Cert.Pieces.src_step (i 0) (i 1) (20 : Fin 30))) xf fo
theorem done_pc21 (d : Dev nD) (i : grid0.Coords) (xf : Buf (Elt F) ((T d : Thread nD τ).loc main_v0)) (fo : Buf (Elt F) ((T d : Thread nD τ).loc main_v1)) :
    ((pc21 i).view.loc (V d ((i 0).castLE hcore0) ((i 1).castLE hsub0)) ↦[(pc21 i).view.set]{fullShare}
        (pc21 i).view.writes (Elt F) fo [⟨Rect.whole S65536, (xw5 i).view.read (Elt F) xf⟩] : sProp 𝕄)
      = ((T d : Thread nD τ).loc main_v1 ↦[outPiece (Cert.Pieces.dstPiece (i 0).val (i 1).val ((21 : Fin 30) : ℕ))]{fullShare} gout xf) :=
  done_outSlice d _ _ _ _ _ _ _ _ _ _ (off_pc21 i) (off_xw5 i) ((Cert.Pieces.ref_src (i 0) (i 1) (21 : Fin 30)).trans (Cert.Pieces.src_step (i 0) (i 1) (21 : Fin 30))) xf fo
theorem done_pc22 (d : Dev nD) (i : grid0.Coords) (xf : Buf (Elt F) ((T d : Thread nD τ).loc main_v0)) (fo : Buf (Elt F) ((T d : Thread nD τ).loc main_v1)) :
    ((pc22 i).view.loc (V d ((i 0).castLE hcore0) ((i 1).castLE hsub0)) ↦[(pc22 i).view.set]{fullShare}
        (pc22 i).view.writes (Elt F) fo [⟨Rect.whole S65536, (xw6 i).view.read (Elt F) xf⟩] : sProp 𝕄)
      = ((T d : Thread nD τ).loc main_v1 ↦[outPiece (Cert.Pieces.dstPiece (i 0).val (i 1).val ((22 : Fin 30) : ℕ))]{fullShare} gout xf) :=
  done_outSlice d _ _ _ _ _ _ _ _ _ _ (off_pc22 i) (off_xw6 i) ((Cert.Pieces.ref_src (i 0) (i 1) (22 : Fin 30)).trans (Cert.Pieces.src_step (i 0) (i 1) (22 : Fin 30))) xf fo
theorem done_pc23 (d : Dev nD) (i : grid0.Coords) (xf : Buf (Elt F) ((T d : Thread nD τ).loc main_v0)) (fo : Buf (Elt F) ((T d : Thread nD τ).loc main_v1)) :
    ((pc23 i).view.loc (V d ((i 0).castLE hcore0) ((i 1).castLE hsub0)) ↦[(pc23 i).view.set]{fullShare}
        (pc23 i).view.writes (Elt F) fo [⟨Rect.whole S65536, (xw6 i).view.read (Elt F) xf⟩] : sProp 𝕄)
      = ((T d : Thread nD τ).loc main_v1 ↦[outPiece (Cert.Pieces.dstPiece (i 0).val (i 1).val ((23 : Fin 30) : ℕ))]{fullShare} gout xf) :=
  done_outSlice d _ _ _ _ _ _ _ _ _ _ (off_pc23 i) (off_xw6 i) ((Cert.Pieces.ref_src (i 0) (i 1) (23 : Fin 30)).trans (Cert.Pieces.src_step (i 0) (i 1) (23 : Fin 30))) xf fo
theorem done_pc24 (d : Dev nD) (i : grid0.Coords) (xf : Buf (Elt F) ((T d : Thread nD τ).loc main_v0)) (fo : Buf (Elt F) ((T d : Thread nD τ).loc main_v1)) :
    ((pc24 i).view.loc (V d ((i 0).castLE hcore0) ((i 1).castLE hsub0)) ↦[(pc24 i).view.set]{fullShare}
        (pc24 i).view.writes (Elt F) fo [⟨Rect.whole S65536, (xw7 i).view.read (Elt F) xf⟩] : sProp 𝕄)
      = ((T d : Thread nD τ).loc main_v1 ↦[outPiece (Cert.Pieces.dstPiece (i 0).val (i 1).val ((24 : Fin 30) : ℕ))]{fullShare} gout xf) :=
  done_outSlice d _ _ _ _ _ _ _ _ _ _ (off_pc24 i) (off_xw7 i) ((Cert.Pieces.ref_src (i 0) (i 1) (24 : Fin 30)).trans (Cert.Pieces.src_step (i 0) (i 1) (24 : Fin 30))) xf fo
theorem done_pc25 (d : Dev nD) (i : grid0.Coords) (xf : Buf (Elt F) ((T d : Thread nD τ).loc main_v0)) (fo : Buf (Elt F) ((T d : Thread nD τ).loc main_v1)) :
    ((pc25 i).view.loc (V d ((i 0).castLE hcore0) ((i 1).castLE hsub0)) ↦[(pc25 i).view.set]{fullShare}
        (pc25 i).view.writes (Elt F) fo [⟨Rect.whole S65536, (xw7 i).view.read (Elt F) xf⟩] : sProp 𝕄)
      = ((T d : Thread nD τ).loc main_v1 ↦[outPiece (Cert.Pieces.dstPiece (i 0).val (i 1).val ((25 : Fin 30) : ℕ))]{fullShare} gout xf) :=
  done_outSlice d _ _ _ _ _ _ _ _ _ _ (off_pc25 i) (off_xw7 i) ((Cert.Pieces.ref_src (i 0) (i 1) (25 : Fin 30)).trans (Cert.Pieces.src_step (i 0) (i 1) (25 : Fin 30))) xf fo
theorem done_pc26 (d : Dev nD) (i : grid0.Coords) (xf : Buf (Elt F) ((T d : Thread nD τ).loc main_v0)) (fo : Buf (Elt F) ((T d : Thread nD τ).loc main_v1)) :
    ((pc26 i).view.loc (V d ((i 0).castLE hcore0) ((i 1).castLE hsub0)) ↦[(pc26 i).view.set]{fullShare}
        (pc26 i).view.writes (Elt F) fo [⟨Rect.whole S65536, (xw8 i).view.read (Elt F) xf⟩] : sProp 𝕄)
      = ((T d : Thread nD τ).loc main_v1 ↦[outPiece (Cert.Pieces.dstPiece (i 0).val (i 1).val ((26 : Fin 30) : ℕ))]{fullShare} gout xf) :=
  done_outSlice d _ _ _ _ _ _ _ _ _ _ (off_pc26 i) (off_xw8 i) ((Cert.Pieces.ref_src (i 0) (i 1) (26 : Fin 30)).trans (Cert.Pieces.src_step (i 0) (i 1) (26 : Fin 30))) xf fo
theorem done_pc27 (d : Dev nD) (i : grid0.Coords) (xf : Buf (Elt F) ((T d : Thread nD τ).loc main_v0)) (fo : Buf (Elt F) ((T d : Thread nD τ).loc main_v1)) :
    ((pc27 i).view.loc (V d ((i 0).castLE hcore0) ((i 1).castLE hsub0)) ↦[(pc27 i).view.set]{fullShare}
        (pc27 i).view.writes (Elt F) fo [⟨Rect.whole S65536, (xw8 i).view.read (Elt F) xf⟩] : sProp 𝕄)
      = ((T d : Thread nD τ).loc main_v1 ↦[outPiece (Cert.Pieces.dstPiece (i 0).val (i 1).val ((27 : Fin 30) : ℕ))]{fullShare} gout xf) :=
  done_outSlice d _ _ _ _ _ _ _ _ _ _ (off_pc27 i) (off_xw8 i) ((Cert.Pieces.ref_src (i 0) (i 1) (27 : Fin 30)).trans (Cert.Pieces.src_step (i 0) (i 1) (27 : Fin 30))) xf fo
theorem done_pc28 (d : Dev nD) (i : grid0.Coords) (xf : Buf (Elt F) ((T d : Thread nD τ).loc main_v0)) (fo : Buf (Elt F) ((T d : Thread nD τ).loc main_v1)) :
    ((pc28 i).view.loc (V d ((i 0).castLE hcore0) ((i 1).castLE hsub0)) ↦[(pc28 i).view.set]{fullShare}
        (pc28 i).view.writes (Elt F) fo [⟨Rect.whole S65536, (xw9 i).view.read (Elt F) xf⟩] : sProp 𝕄)
      = ((T d : Thread nD τ).loc main_v1 ↦[outPiece (Cert.Pieces.dstPiece (i 0).val (i 1).val ((28 : Fin 30) : ℕ))]{fullShare} gout xf) :=
  done_outSlice d _ _ _ _ _ _ _ _ _ _ (off_pc28 i) (off_xw9 i) ((Cert.Pieces.ref_src (i 0) (i 1) (28 : Fin 30)).trans (Cert.Pieces.src_step (i 0) (i 1) (28 : Fin 30))) xf fo
theorem done_pc29 (d : Dev nD) (i : grid0.Coords) (xf : Buf (Elt F) ((T d : Thread nD τ).loc main_v0)) (fo : Buf (Elt F) ((T d : Thread nD τ).loc main_v1)) :
    ((pc29 i).view.loc (V d ((i 0).castLE hcore0) ((i 1).castLE hsub0)) ↦[(pc29 i).view.set]{fullShare}
        (pc29 i).view.writes (Elt F) fo [⟨Rect.whole S65536, (xw9 i).view.read (Elt F) xf⟩] : sProp 𝕄)
      = ((T d : Thread nD τ).loc main_v1 ↦[outPiece (Cert.Pieces.dstPiece (i 0).val (i 1).val ((29 : Fin 30) : ℕ))]{fullShare} gout xf) :=
  done_outSlice d _ _ _ _ _ _ _ _ _ _ (off_pc29 i) (off_xw9 i) ((Cert.Pieces.ref_src (i 0) (i 1) (29 : Fin 30)).trans (Cert.Pieces.src_step (i 0) (i 1) (29 : Fin 30))) xf fo

end Held

end Cert.Kernel.Respelt

end
-- ==== Proof.BodyKernel.lean ====
/-
  One subcore's task.

  A subcore `(c, s)` stages ten pieces of the flat input, one per step, alternately in its row of the SparseCore's shared
  scratch and in its own scratch, and copies each staged piece to seven (the first two steps) or two output pieces, thirty
  in all. The copies out of one staging buffer complete on one semaphore: they are started together, all waited for, and
  only then is the buffer filled again, so each output piece receives the staged input piece whole. What the task is
  handed: a read share of the flat input, its thirty output pieces, its row of the shared scratch, and its own scratch and
  semaphores. What it hands back: the same, the thirty output pieces now holding `gout xf` — the input read through the
  output's row table (`done_pc…`, Proof/Windows…) —, whatever the staging buffers hold, the semaphores at zero.
-/
import proofs.«214454_g70703751626829_cont_9to1c4b_566_26_alg».proof.Proof.WindowsKernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Kernel.Respelt

open Cert.Kernel Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat input and the flat output as the TensorCore holds them; SparseCore `c`'s shared scratch. -/
abbrev xLoc (d : Dev nD) : Loc nD τ sig := (SparseCore.T d).loc main_v0
abbrev oLoc (d : Dev nD) : Loc nD τ sig := (SparseCore.T d).loc main_v1
abbrev shRef (c : Fin τ.nSC) : DevRef τ sig := ⟨.shared, ⟨0, by decide⟩, c⟩
abbrev shLoc (d : Dev nD) (c : Fin τ.nSC) : Loc nD τ sig := (d, shRef c)

variable [FloatOps F]

abbrev cV (L : grid0.Coords) : Fin τ.nSC := (L 0).castLE hcore0
abbrev jV (L : grid0.Coords) : Fin τ.nSub := (L 1).castLE hsub0

/-- Row `j` of a SparseCore's shared scratch: what subcore `j` stages in. -/
theorem hdiv16 : 16 ∣ S16x65536.size 0 := ⟨1, rfl⟩
abbrev rowR (j : Fin 16) : Rect S16x65536 := Rect.part (s := S16x65536) (a₀ := 0) hdiv16 j
abbrev rowSet (j : Fin 16) : Finset S16x65536.Idx := (rowR j).set
omit [FloatOps F] in
theorem bound_one : grid0.bound 1 = 16 := rfl
abbrev jL (L : grid0.Coords) : Fin 16 := Fin.cast bound_one (L 1)

omit [FloatOps F] in
theorem rowUnit_eq (L : grid0.Coords) : Rect.unit (s := S16x65536) (k0_off1 L) S1x65536.size (k0_off1_inb L) = rowR (jL L) := by
  unfold rowR Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]

omit [FloatOps F] in
theorem set_rowM (L : grid0.Coords) : (rowM L).view.set = rowSet (jL L) := by
  show (((shW : Memref sig .scVector .shared S16x65536 .f32).view.slice (Rect.unit (s := S16x65536) (k0_off1 L) S1x65536.size (k0_off1_inb L))).reshape S65536 squeezes_S1x65536_S65536.numel_eq).set = (rowR (jL L)).set
  rw [View.set_reshape]
  have h : ((shW : Memref sig .scVector .shared S16x65536 .f32).view.slice (Rect.unit (s := S16x65536) (k0_off1 L) S1x65536.size (k0_off1_inb L))).set
      = ((shW : Memref sig .scVector .shared S16x65536 .f32).view.slice (rowR (jL L))).set := rowUnit_eq L ▸ rfl
  rw [h]
  show ((View.whole (cc0_scratch0 : Ref sig .scVector)).slice (rowR (jL L))).set = _
  rw [View.set_slice_whole]

omit [FloatOps F] in
theorem pts_rowM (d : Dev nD) (L : grid0.Coords) (f : Buf (Elt F) (shLoc d (cV L))) :
    ((rowM L).view.loc (V d (cV L) (jV L)) ↦[(rowM L).view.set]{fullShare} f : sProp 𝕄) = shLoc d (cV L) ↦[rowSet (jL L)]{fullShare} f := by
  rw [set_rowM]; rfl

omit [FloatOps F] in
theorem pts_bW (d : Dev nD) (L : grid0.Coords) (f : Buf (Elt F) ((V d (cV L) (jV L)).loc cc0_scratch1)) :
    ((bW).view.loc (V d (cV L) (jV L)) ↦{fullShare} f : sProp 𝕄) = (V d (cV L) (jV L)).loc cc0_scratch1 ↦{fullShare} f := rfl

/-! ## The subcore's own semaphores and scratch -/

abbrev cell2 (d : Dev nD) (L : grid0.Coords) : GSem nD τ sig := (V d (cV L) (jV L), .dma cc0_scratch2.sem)
abbrev cell3 (d : Dev nD) (L : grid0.Coords) : GSem nD τ sig := (V d (cV L) (jV L), .dma cc0_scratch3.sem)
abbrev cell4 (d : Dev nD) (L : grid0.Coords) : GSem nD τ sig := (V d (cV L) (jV L), .dma cc0_scratch4.sem)
abbrev cell5 (d : Dev nD) (L : grid0.Coords) : GSem nD τ sig := (V d (cV L) (jV L), .dma cc0_scratch5.sem)

omit [FloatOps F] in
theorem ownSems0_V (d : Dev nD) (L : grid0.Coords) :
    (ownSems0 (V d (cV L) (jV L)) : sProp 𝕄)
      = iprop(semVal (cell2 d L) 0 ∗ semVal (cell3 d L) 0 ∗ semVal (cell4 d L) 0 ∗ semVal (cell5 d L) 0
          ∗ bigSep (((((ownCells (V d (cV L) (jV L))).erase (cell2 d L)).erase (cell3 d L)).erase (cell4 d L)).erase (cell5 d L)) fun g => semVal g 0) := by
  unfold SparseCore.Cfg.ownSems0
  have m2 : cell2 d L ∈ ownCells (V d (cV L) (jV L)) := (mem_ownCells (g := cell2 d L)).mpr ⟨rfl, by show (SemLoc.dma cc0_scratch2.sem : SemLoc sig).isScoped .scVector = true; decide⟩
  have m3 : cell3 d L ∈ ownCells (V d (cV L) (jV L)) := (mem_ownCells (g := cell3 d L)).mpr ⟨rfl, by show (SemLoc.dma cc0_scratch3.sem : SemLoc sig).isScoped .scVector = true; decide⟩
  have m4 : cell4 d L ∈ ownCells (V d (cV L) (jV L)) := (mem_ownCells (g := cell4 d L)).mpr ⟨rfl, by show (SemLoc.dma cc0_scratch4.sem : SemLoc sig).isScoped .scVector = true; decide⟩
  have m5 : cell5 d L ∈ ownCells (V d (cV L) (jV L)) := (mem_ownCells (g := cell5 d L)).mpr ⟨rfl, by show (SemLoc.dma cc0_scratch5.sem : SemLoc sig).isScoped .scVector = true; decide⟩
  have n32 : cell3 d L ≠ cell2 d L := by simp [cell2, cell3]; decide
  have n42 : cell4 d L ≠ cell2 d L := by simp [cell2, cell4]; decide
  have n43 : cell4 d L ≠ cell3 d L := by simp [cell3, cell4]; decide
  have n52 : cell5 d L ≠ cell2 d L := by simp [cell2, cell5]; decide
  have n53 : cell5 d L ≠ cell3 d L := by simp [cell3, cell5]; decide
  have n54 : cell5 d L ≠ cell4 d L := by simp [cell4, cell5]; decide
  rw [SparseCore.bigSep_erase' m2,
    SparseCore.bigSep_erase' (Finset.mem_erase.mpr ⟨n32, m3⟩),
    SparseCore.bigSep_erase' (Finset.mem_erase.mpr ⟨n43, Finset.mem_erase.mpr ⟨n42, m4⟩⟩),
    SparseCore.bigSep_erase' (Finset.mem_erase.mpr ⟨n54, Finset.mem_erase.mpr ⟨n53, Finset.mem_erase.mpr ⟨n52, m5⟩⟩⟩)]

omit [FloatOps F] in
theorem ownBufs_V (d : Dev nD) (L : grid0.Coords) :
    (ownBufs (V d (cV L) (jV L)) : sProp 𝕄)
      = iprop((∃ f, (V d (cV L) (jV L)).loc cc0_scratch1 ↦{fullShare} f)
          ∗ bigSep ((ownRefs (τ := τ) (.scVector (cV L) (jV L))).erase ((Proc.scVector (cV L) (jV L)).devRef cc0_scratch1))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scratch1) rfl)

/-! ## A family over ten or thirty indices, spread out -/

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_fin30 (Φ : Fin 30 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) := by
  rw [show (Finset.univ : Finset (Fin 30)) = {0, 1, 2, 3, 4, 5, 6, 7, 8, 9, 10, 11, 12, 13, 14, 15, 16, 17, 18, 19, 20, 21, 22, 23, 24, 25, 26, 27, 28, 29} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## An input window out of a share of the whole input, and back -/

omit [FloatOps F] in
/-- A share of the whole flat input lends the elements of a piece, and takes them back. -/
theorem carve_in (d : Dev nD) (q : PosShare TreeShare) (xf : Buf (Elt F) (xLoc d)) (n : ℕ) :
    (xLoc d ↦{q} xf : sProp 𝕄) ⊢ iprop((xLoc d ↦[inPiece n]{q} xf) ∗ ((xLoc d ↦[inPiece n]{q} xf) -∗ (xLoc d ↦{q} xf))) := by
  refine (pointsTo_split_subset (Finset.subset_univ (inPiece n))).1.trans ?_
  iintro ⟨Hw, Hr⟩
  isplitl [Hw]; · iexact Hw
  iintro Hw
  iapply (pointsTo_split_subset (Finset.subset_univ (inPiece n))).2
  isplitl [Hw] <;> iassumption

omit [FloatOps F] in
/-- One more wait recorded at the kernel's own index keeps the recorded waits where the launch wants them. -/
theorem waits_none {W : Waits sig (HIx 1)} (W' : Waits sig (HIx 1)) (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- What the task is handed of the arrays, and what it hands back. -/
def taskIn (d : Dev nD) (L : grid0.Coords) (q : PosShare TreeShare) (xf : Buf (Elt F) (xLoc d)) (fo : Buf (Elt F) (oLoc d)) : sProp 𝕄 :=
  iprop((xLoc d ↦{q} xf) ∗ (bigSep Finset.univ fun k : Fin 30 => oLoc d ↦[outPiece (Cert.Pieces.dstPiece (L 0).val (L 1).val k.val)]{fullShare} fo)
    ∗ ∃ f, shLoc d (cV L) ↦[rowSet (jL L)]{fullShare} f)

/-! ## The task -/

set_option maxHeartbeats 8000000 in
/-- The task on subcore `(L 0, L 1)` of device `d`: from a read share of the flat input at `xf`, its thirty output pieces at
    anything, its staging row and its own scratch and semaphores, to the same with the output pieces at `gout xf`. -/
theorem tile_body [∀ e, Nonempty (Elt F e)] (hF : (K (F := F)).Facts) (d : Dev nD) (L : grid0.Coords) (q : PosShare TreeShare)
    (xf : Buf (Elt F) (xLoc d)) (fo : Buf (Elt F) (oLoc d))
    (O : CellTallies nD τ sig (HIx 1)) (W : Waits sig (HIx 1)) (hO : ∀ g, O g none = 0) :
    iprop(levAts (K (F := F)).L (K (F := F)).lev ∗ emp ∗ taskIn d L q xf fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xW (Memref.isWhole_whole _) oW (Memref.isWhole_whole _) shW (Memref.isWhole_whole _) bW (Memref.isWhole_whole _)
            cc0_scratch2 cc0_scratch3 cc0_scratch4 cc0_scratch5)
          fun _ => iprop(taskIn d L q xf (gout xf) ∗ scopedBufs (V d (cV L) (jV L)) ∗ scopedSems0 (V d (cV L) (jV L))
            ∗ ∃ W', ⌜∀ p ∈ W', p ∈ W ∨ p.2 = none⌝ ∗ owes (V d (cV L) (jV L)) O W') := by
  have _p8 := Transfers.BatchOfUse.intro (c := V d (cV L) (jV L)) (SemLoc.dma (sig := sig) cc0_scratch4.sem) 0 7 (windows := true)
  have _p8' := Transfers.BatchOf.intro (c := V d (cV L) (jV L)) (SemLoc.dma (sig := sig) cc0_scratch4.sem) 2 (windows := true)
  have _p9 := Transfers.BatchOfUse.intro (c := V d (cV L) (jV L)) (SemLoc.dma (sig := sig) cc0_scratch5.sem) 0 7 (windows := true)
  have _p9' := Transfers.BatchOf.intro (c := V d (cV L) (jV L)) (SemLoc.dma (sig := sig) cc0_scratch5.sem) 2 (windows := true)
  rw [qbody_eq]
  rw [(K (F := F)).scopedBufs_V hF d (cV L) (jV L), SparseCore.Cfg.scopedSems0_V (Val := Elt F) d (cV L) (jV L), ownSems0_V, ownBufs_V]
  unfold taskIn
  rw [bigSep_fin30, bigSep_fin30]
  iintro ⟨#Hlv, -, ⟨Hx, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29⟩, ⟨%fsh, Hrow⟩⟩, ⟨⟨%fb, Hb⟩, Hbufs⟩, ⟨Hs2, Hs3, Hs4, Hs5, Hsems⟩, HO⟩
  ihave Hmw := ((K (F := F)).mayWaits_none (thr := V d (cV L) (jV L)) hO) $$ Hlv
  -- the ten input windows, each out of a read token of the share
  ihave Hx' := (Transfers.pointsTo_toks_split q 10) $$ Hx
  icases Hx' with ⟨Hxrest, Htoks⟩
  ihave Htoks' := (Entails.of_eq (bigSep_fin10 (F := F) _)) $$ Htoks
  icases Htoks' with ⟨Hx0, Hx1, Hx2, Hx3, Hx4, Hx5, Hx6, Hx7, Hx8, Hx9⟩
  ihave Hc0 := (carve_in (F := F) d _ xf (Cert.Pieces.srcPiece (L 0).val (L 1).val 0)) $$ Hx0
  icases Hc0 with ⟨Hx0, Hxb0⟩
  ihave Hx0 := (Entails.of_eq (pts_xw0 (F := F) d L _ xf).symm) $$ Hx0
  ihave Hc1 := (carve_in (F := F) d _ xf (Cert.Pieces.srcPiece (L 0).val (L 1).val 7)) $$ Hx1
  icases Hc1 with ⟨Hx1, Hxb1⟩
  ihave Hx1 := (Entails.of_eq (pts_xw1 (F := F) d L _ xf).symm) $$ Hx1
  ihave Hc2 := (carve_in (F := F) d _ xf (Cert.Pieces.srcPiece (L 0).val (L 1).val 14)) $$ Hx2
  icases Hc2 with ⟨Hx2, Hxb2⟩
  ihave Hx2 := (Entails.of_eq (pts_xw2 (F := F) d L _ xf).symm) $$ Hx2
  ihave Hc3 := (carve_in (F := F) d _ xf (Cert.Pieces.srcPiece (L 0).val (L 1).val 16)) $$ Hx3
  icases Hc3 with ⟨Hx3, Hxb3⟩
  ihave Hx3 := (Entails.of_eq (pts_xw3 (F := F) d L _ xf).symm) $$ Hx3
  ihave Hc4 := (carve_in (F := F) d _ xf (Cert.Pieces.srcPiece (L 0).val (L 1).val 18)) $$ Hx4
  icases Hc4 with ⟨Hx4, Hxb4⟩
  ihave Hx4 := (Entails.of_eq (pts_xw4 (F := F) d L _ xf).symm) $$ Hx4
  ihave Hc5 := (carve_in (F := F) d _ xf (Cert.Pieces.srcPiece (L 0).val (L 1).val 20)) $$ Hx5
  icases Hc5 with ⟨Hx5, Hxb5⟩
  ihave Hx5 := (Entails.of_eq (pts_xw5 (F := F) d L _ xf).symm) $$ Hx5
  ihave Hc6 := (carve_in (F := F) d _ xf (Cert.Pieces.srcPiece (L 0).val (L 1).val 22)) $$ Hx6
  icases Hc6 with ⟨Hx6, Hxb6⟩
  ihave Hx6 := (Entails.of_eq (pts_xw6 (F := F) d L _ xf).symm) $$ Hx6
  ihave Hc7 := (carve_in (F := F) d _ xf (Cert.Pieces.srcPiece (L 0).val (L 1).val 24)) $$ Hx7
  icases Hc7 with ⟨Hx7, Hxb7⟩
  ihave Hx7 := (Entails.of_eq (pts_xw7 (F := F) d L _ xf).symm) $$ Hx7
  ihave Hc8 := (carve_in (F := F) d _ xf (Cert.Pieces.srcPiece (L 0).val (L 1).val 26)) $$ Hx8
  icases Hc8 with ⟨Hx8, Hxb8⟩
  ihave Hx8 := (Entails.of_eq (pts_xw8 (F := F) d L _ xf).symm) $$ Hx8
  ihave Hc9 := (carve_in (F := F) d _ xf (Cert.Pieces.srcPiece (L 0).val (L 1).val 28)) $$ Hx9
  icases Hc9 with ⟨Hx9, Hxb9⟩
  ihave Hx9 := (Entails.of_eq (pts_xw9 (F := F) d L _ xf).symm) $$ Hx9
  ihave Hp0 := (Entails.of_eq (pts_pc0 (F := F) d L fullShare fo).symm) $$ Hp0
  ihave Hp1 := (Entails.of_eq (pts_pc1 (F := F) d L fullShare fo).symm) $$ Hp1
  ihave Hp2 := (Entails.of_eq (pts_pc2 (F := F) d L fullShare fo).symm) $$ Hp2
  ihave Hp3 := (Entails.of_eq (pts_pc3 (F := F) d L fullShare fo).symm) $$ Hp3
  ihave Hp4 := (Entails.of_eq (pts_pc4 (F := F) d L fullShare fo).symm) $$ Hp4
  ihave Hp5 := (Entails.of_eq (pts_pc5 (F := F) d L fullShare fo).symm) $$ Hp5
  ihave Hp6 := (Entails.of_eq (pts_pc6 (F := F) d L fullShare fo).symm) $$ Hp6
  ihave Hp7 := (Entails.of_eq (pts_pc7 (F := F) d L fullShare fo).symm) $$ Hp7
  ihave Hp8 := (Entails.of_eq (pts_pc8 (F := F) d L fullShare fo).symm) $$ Hp8
  ihave Hp9 := (Entails.of_eq (pts_pc9 (F := F) d L fullShare fo).symm) $$ Hp9
  ihave Hp10 := (Entails.of_eq (pts_pc10 (F := F) d L fullShare fo).symm) $$ Hp10
  ihave Hp11 := (Entails.of_eq (pts_pc11 (F := F) d L fullShare fo).symm) $$ Hp11
  ihave Hp12 := (Entails.of_eq (pts_pc12 (F := F) d L fullShare fo).symm) $$ Hp12
  ihave Hp13 := (Entails.of_eq (pts_pc13 (F := F) d L fullShare fo).symm) $$ Hp13
  ihave Hp14 := (Entails.of_eq (pts_pc14 (F := F) d L fullShare fo).symm) $$ Hp14
  ihave Hp15 := (Entails.of_eq (pts_pc15 (F := F) d L fullShare fo).symm) $$ Hp15
  ihave Hp16 := (Entails.of_eq (pts_pc16 (F := F) d L fullShare fo).symm) $$ Hp16
  ihave Hp17 := (Entails.of_eq (pts_pc17 (F := F) d L fullShare fo).symm) $$ Hp17
  ihave Hp18 := (Entails.of_eq (pts_pc18 (F := F) d L fullShare fo).symm) $$ Hp18
  ihave Hp19 := (Entails.of_eq (pts_pc19 (F := F) d L fullShare fo).symm) $$ Hp19
  ihave Hp20 := (Entails.of_eq (pts_pc20 (F := F) d L fullShare fo).symm) $$ Hp20
  ihave Hp21 := (Entails.of_eq (pts_pc21 (F := F) d L fullShare fo).symm) $$ Hp21
  ihave Hp22 := (Entails.of_eq (pts_pc22 (F := F) d L fullShare fo).symm) $$ Hp22
  ihave Hp23 := (Entails.of_eq (pts_pc23 (F := F) d L fullShare fo).symm) $$ Hp23
  ihave Hp24 := (Entails.of_eq (pts_pc24 (F := F) d L fullShare fo).symm) $$ Hp24
  ihave Hp25 := (Entails.of_eq (pts_pc25 (F := F) d L fullShare fo).symm) $$ Hp25
  ihave Hp26 := (Entails.of_eq (pts_pc26 (F := F) d L fullShare fo).symm) $$ Hp26
  ihave Hp27 := (Entails.of_eq (pts_pc27 (F := F) d L fullShare fo).symm) $$ Hp27
  ihave Hp28 := (Entails.of_eq (pts_pc28 (F := F) d L fullShare fo).symm) $$ Hp28
  ihave Hp29 := (Entails.of_eq (pts_pc29 (F := F) d L fullShare fo).symm) $$ Hp29
  ihave Hrow := (Entails.of_eq (pts_rowM (F := F) d L fsh).symm) $$ Hrow
  ihave Hb := (Entails.of_eq (pts_bW (F := F) d L fb).symm) $$ Hb
  sl_exec_parts
  sl_step
  -- every staged piece is what its input window reads of `xf`; every copy out delivers the staged piece
  have e0 : tile_body.sl.dma1 d L xf fsh = (xw0 L).view.read (Elt F) xf := by
    delta tile_body.sl.dma1 tile_body.sl.dma0
    simp only [ReadAs.apply_same, read_writes_whole_cons, View.read_write_univ]
  have e1 : tile_body.sl.dma9 d L xf fb = (xw1 L).view.read (Elt F) xf := by
    delta tile_body.sl.dma9 tile_body.sl.dma0 tile_body.sl.dma0_1
    simp only [ReadAs.apply_same, read_writes_whole_cons, View.read_write_univ]
  have e2 : tile_body.sl.dma17 d L xf fsh = (xw2 L).view.read (Elt F) xf := by
    delta tile_body.sl.dma17 tile_body.sl.dma0 tile_body.sl.dma0_1 tile_body.sl.dma0_2
    simp only [ReadAs.apply_same, read_writes_whole_cons, View.read_write_univ]
  have e3 : tile_body.sl.dma20 d L xf fb = (xw3 L).view.read (Elt F) xf := by
    delta tile_body.sl.dma20 tile_body.sl.dma0 tile_body.sl.dma0_1 tile_body.sl.dma0_2 tile_body.sl.dma0_3
    simp only [ReadAs.apply_same, read_writes_whole_cons, View.read_write_univ]
  have e4 : tile_body.sl.dma23 d L xf fsh = (xw4 L).view.read (Elt F) xf := by
    delta tile_body.sl.dma23 tile_body.sl.dma0 tile_body.sl.dma0_1 tile_body.sl.dma0_2 tile_body.sl.dma0_3 tile_body.sl.dma0_4
    simp only [ReadAs.apply_same, read_writes_whole_cons, View.read_write_univ]
  have e5 : tile_body.sl.dma26 d L xf fb = (xw5 L).view.read (Elt F) xf := by
    delta tile_body.sl.dma26 tile_body.sl.dma0 tile_body.sl.dma0_1 tile_body.sl.dma0_2 tile_body.sl.dma0_3 tile_body.sl.dma0_4 tile_body.sl.dma0_5
    simp only [ReadAs.apply_same, read_writes_whole_cons, View.read_write_univ]
  have e6 : tile_body.sl.dma29 d L xf fsh = (xw6 L).view.read (Elt F) xf := by
    delta tile_body.sl.dma29 tile_body.sl.dma0 tile_body.sl.dma0_1 tile_body.sl.dma0_2 tile_body.sl.dma0_3 tile_body.sl.dma0_4 tile_body.sl.dma0_5 tile_body.sl.dma0_6
    simp only [ReadAs.apply_same, read_writes_whole_cons, View.read_write_univ]
  have e7 : tile_body.sl.dma32 d L xf fb = (xw7 L).view.read (Elt F) xf := by
    delta tile_body.sl.dma32 tile_body.sl.dma0 tile_body.sl.dma0_1 tile_body.sl.dma0_2 tile_body.sl.dma0_3 tile_body.sl.dma0_4 tile_body.sl.dma0_5 tile_body.sl.dma0_6 tile_body.sl.dma0_7
    simp only [ReadAs.apply_same, read_writes_whole_cons, View.read_write_univ]
  have e8 : tile_body.sl.dma35 d L xf fsh = (xw8 L).view.read (Elt F) xf := by
    delta tile_body.sl.dma35 tile_body.sl.dma0 tile_body.sl.dma0_1 tile_body.sl.dma0_2 tile_body.sl.dma0_3 tile_body.sl.dma0_4 tile_body.sl.dma0_5 tile_body.sl.dma0_6 tile_body.sl.dma0_7 tile_body.sl.dma0_8
    simp only [ReadAs.apply_same, read_writes_whole_cons, View.read_write_univ]
  have e9 : tile_body.sl.dma38 d L xf fb = (xw9 L).view.read (Elt F) xf := by
    delta tile_body.sl.dma38 tile_body.sl.dma0 tile_body.sl.dma0_1 tile_body.sl.dma0_2 tile_body.sl.dma0_3 tile_body.sl.dma0_4 tile_body.sl.dma0_5 tile_body.sl.dma0_6 tile_body.sl.dma0_7 tile_body.sl.dma0_8 tile_body.sl.dma0_9
    simp only [ReadAs.apply_same, read_writes_whole_cons, View.read_write_univ]
  rw [e0, e1, e2, e3, e4, e5, e6, e7, e8, e9]
  isplitl [Hxrest Hx0 Hx1 Hx2 Hx3 Hx4 Hx5 Hx6 Hx7 Hx8 Hx9 Hxb0 Hxb1 Hxb2 Hxb3 Hxb4 Hxb5 Hxb6 Hxb7 Hxb8 Hxb9 Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29 Hrow]
  · isplitl [Hxrest Hx0 Hx1 Hx2 Hx3 Hx4 Hx5 Hx6 Hx7 Hx8 Hx9 Hxb0 Hxb1 Hxb2 Hxb3 Hxb4 Hxb5 Hxb6 Hxb7 Hxb8 Hxb9]
    · iapply (Transfers.pointsTo_toks_join q 10)
      isplitl [Hxrest]; · iexact Hxrest
      rw [bigSep_fin10]
      isplitl [Hx0 Hxb0]
      · iapply Hxb0; iapply (Entails.of_eq (pts_xw0 (F := F) d L _ xf)); iexact Hx0
      isplitl [Hx1 Hxb1]
      · iapply Hxb1; iapply (Entails.of_eq (pts_xw1 (F := F) d L _ xf)); iexact Hx1
      isplitl [Hx2 Hxb2]
      · iapply Hxb2; iapply (Entails.of_eq (pts_xw2 (F := F) d L _ xf)); iexact Hx2
      isplitl [Hx3 Hxb3]
      · iapply Hxb3; iapply (Entails.of_eq (pts_xw3 (F := F) d L _ xf)); iexact Hx3
      isplitl [Hx4 Hxb4]
      · iapply Hxb4; iapply (Entails.of_eq (pts_xw4 (F := F) d L _ xf)); iexact Hx4
      isplitl [Hx5 Hxb5]
      · iapply Hxb5; iapply (Entails.of_eq (pts_xw5 (F := F) d L _ xf)); iexact Hx5
      isplitl [Hx6 Hxb6]
      · iapply Hxb6; iapply (Entails.of_eq (pts_xw6 (F := F) d L _ xf)); iexact Hx6
      isplitl [Hx7 Hxb7]
      · iapply Hxb7; iapply (Entails.of_eq (pts_xw7 (F := F) d L _ xf)); iexact Hx7
      isplitl [Hx8 Hxb8]
      · iapply Hxb8; iapply (Entails.of_eq (pts_xw8 (F := F) d L _ xf)); iexact Hx8
      iapply Hxb9; iapply (Entails.of_eq (pts_xw9 (F := F) d L _ xf)); iexact Hx9
    isplitl [Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29]
    · isplitl [Hp0]; · iapply (Entails.of_eq (done_pc0 (F := F) d L xf fo)); iexact Hp0
      isplitl [Hp1]; · iapply (Entails.of_eq (done_pc1 (F := F) d L xf fo)); iexact Hp1
      isplitl [Hp2]; · iapply (Entails.of_eq (done_pc2 (F := F) d L xf fo)); iexact Hp2
      isplitl [Hp3]; · iapply (Entails.of_eq (done_pc3 (F := F) d L xf fo)); iexact Hp3
      isplitl [Hp4]; · iapply (Entails.of_eq (done_pc4 (F := F) d L xf fo)); iexact Hp4
      isplitl [Hp5]; · iapply (Entails.of_eq (done_pc5 (F := F) d L xf fo)); iexact Hp5
      isplitl [Hp6]; · iapply (Entails.of_eq (done_pc6 (F := F) d L xf fo)); iexact Hp6
      isplitl [Hp7]; · iapply (Entails.of_eq (done_pc7 (F := F) d L xf fo)); iexact Hp7
      isplitl [Hp8]; · iapply (Entails.of_eq (done_pc8 (F := F) d L xf fo)); iexact Hp8
      isplitl [Hp9]; · iapply (Entails.of_eq (done_pc9 (F := F) d L xf fo)); iexact Hp9
      isplitl [Hp10]; · iapply (Entails.of_eq (done_pc10 (F := F) d L xf fo)); iexact Hp10
      isplitl [Hp11]; · iapply (Entails.of_eq (done_pc11 (F := F) d L xf fo)); iexact Hp11
      isplitl [Hp12]; · iapply (Entails.of_eq (done_pc12 (F := F) d L xf fo)); iexact Hp12
      isplitl [Hp13]; · iapply (Entails.of_eq (done_pc13 (F := F) d L xf fo)); iexact Hp13
      isplitl [Hp14]; · iapply (Entails.of_eq (done_pc14 (F := F) d L xf fo)); iexact Hp14
      isplitl [Hp15]; · iapply (Entails.of_eq (done_pc15 (F := F) d L xf fo)); iexact Hp15
      isplitl [Hp16]; · iapply (Entails.of_eq (done_pc16 (F := F) d L xf fo)); iexact Hp16
      isplitl [Hp17]; · iapply (Entails.of_eq (done_pc17 (F := F) d L xf fo)); iexact Hp17
      isplitl [Hp18]; · iapply (Entails.of_eq (done_pc18 (F := F) d L xf fo)); iexact Hp18
      isplitl [Hp19]; · iapply (Entails.of_eq (done_pc19 (F := F) d L xf fo)); iexact Hp19
      isplitl [Hp20]; · iapply (Entails.of_eq (done_pc20 (F := F) d L xf fo)); iexact Hp20
      isplitl [Hp21]; · iapply (Entails.of_eq (done_pc21 (F := F) d L xf fo)); iexact Hp21
      isplitl [Hp22]; · iapply (Entails.of_eq (done_pc22 (F := F) d L xf fo)); iexact Hp22
      isplitl [Hp23]; · iapply (Entails.of_eq (done_pc23 (F := F) d L xf fo)); iexact Hp23
      isplitl [Hp24]; · iapply (Entails.of_eq (done_pc24 (F := F) d L xf fo)); iexact Hp24
      isplitl [Hp25]; · iapply (Entails.of_eq (done_pc25 (F := F) d L xf fo)); iexact Hp25
      isplitl [Hp26]; · iapply (Entails.of_eq (done_pc26 (F := F) d L xf fo)); iexact Hp26
      isplitl [Hp27]; · iapply (Entails.of_eq (done_pc27 (F := F) d L xf fo)); iexact Hp27
      isplitl [Hp28]; · iapply (Entails.of_eq (done_pc28 (F := F) d L xf fo)); iexact Hp28
      iapply (Entails.of_eq (done_pc29 (F := F) d L xf fo)); iexact Hp29
    · iexists _; iapply (Entails.of_eq (pts_rowM (F := F) d L _)); iexact Hrow
  isplitl [Hb Hbufs]
  · isplitl [Hb]
    · iexists _; iexact Hb
    · iexact Hbufs
  isplitl [Hs2 Hs3 Hs4 Hs5 Hsems]
  · isplitl [Hs2]; · iexact Hs2
    isplitl [Hs3]; · iexact Hs3
    isplitl [Hs4]; · iexact Hs4
    isplitl [Hs5]; · iexact Hs5
    iexact Hsems
  iexists _; isplitr
  rotate_left
  · iexact HO
  · ipureintro
    repeat' (first | refine waits_none _ ?_ _ | exact fun p hp => Or.inl hp)

end Cert.Kernel.Respelt

end
-- ==== Proof.LaunchKernel.lean ====
/-
  The launch: @main on the TensorCore and the thirty-two tasks.

  @main flattens the input, calls the SparseCore kernel once, and gives the flat output its five-dimensional shape. The
  call hands each of the two SparseCores a read share of the flat input and its 480 output pieces; the SparseCore hands
  each of its sixteen subcores a read share of its own share, the subcore's thirty pieces and the subcore's row of the
  SparseCore's shared scratch (`vecSplit`), and the subcore's task (Proof/Body…, `tile_body`) returns them with the
  pieces at `gout` of the flat input. The 960 pieces are the whole output (`out_pieces`: every output piece is written
  by exactly one copy, Proof/Pieces.lean), so after the call the flat output IS `gout` of the flat input, and what the
  program leaves is the input array unchanged and the result array at `rfin`: the reshape of `gout` of the reshape of the
  input. Every weakly fair execution terminates, nothing faulting, no wait unanswered (`run_main`).
-/
import proofs.«214454_g70703751626829_cont_9to1c4b_566_26_alg».proof.Proof.BodyKernel

noncomputable section

namespace Cert.Kernel.Respelt

open Cert.Kernel Cert.Kernel.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main's arrays and its two host operations -/

abbrev aLoc (d : Dev nD) : Loc nD τ sig := (SparseCore.T d).loc main_arg0
abbrev rLoc (d : Dev nD) : Loc nD τ sig := (SparseCore.T d).loc main_v2
abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) := StableHlo.reshape main_arg0 main_v0 rfl shapeCasts_S4x16x2048x128_S16777216
abbrev opOut : HloOp τ sig (Elt F) := StableHlo.reshape main_v1 main_v2 rfl shapeCasts_S62914560_S4x20x3x2048x128

/-- The TensorCore's arrays, all unscoped. -/
abbrev S4 : Finset (DevRef τ sig) := {a', x', o', r'}

omit [FloatOps F] in
theorem hIn : (opIn (F := F)).bufs ⊆ S4 := show ({a', x'} : Finset (DevRef τ sig)) ⊆ S4 by decide
omit [FloatOps F] in
theorem hOut : (opOut (F := F)).bufs ⊆ S4 := show ({o', r'} : Finset (DevRef τ sig)) ⊆ S4 by decide

/-- The launch valuation; the flat input after the first reshape; the valuation after the call; the result. -/
def V0 (d : Dev nD) : Valuation τ sig (Elt F) := fun b => m (d, b)
def xfl (d : Dev nD) : Buf (Elt F) (xLoc d) := (opIn (F := F)).result (V0 m d) x'
def V2 (d : Dev nD) : Valuation τ sig (Elt F) := Function.update ((opIn (F := F)).result (V0 m d)) o' (gout (xfl m d))
def rfin (d : Dev nD) : Buf (Elt F) (rLoc d) := (opOut (F := F)).result (V2 m d) r'

omit [FloatOps F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem in_a (d : Dev nD) : (opIn (F := F)).result (V0 m d) a' = m (aLoc d) :=
  (opIn (F := F)).result_of_not_mem (V0 m d) (b := a') (show a' ∉ ({x'} : Finset (DevRef τ sig)) by decide)
theorem in_o (d : Dev nD) : (opIn (F := F)).result (V0 m d) o' = m (oLoc d) :=
  (opIn (F := F)).result_of_not_mem (V0 m d) (b := o') (show o' ∉ ({x'} : Finset (DevRef τ sig)) by decide)
theorem in_r (d : Dev nD) : (opIn (F := F)).result (V0 m d) r' = m (rLoc d) :=
  (opIn (F := F)).result_of_not_mem (V0 m d) (b := r') (show r' ∉ ({x'} : Finset (DevRef τ sig)) by decide)
theorem V2_a (d : Dev nD) : V2 m d a' = m (aLoc d) := (Function.update_of_ne (show a' ≠ o' by decide) _ _).trans (in_a m d)
theorem V2_x (d : Dev nD) : V2 m d x' = xfl m d := Function.update_of_ne (show x' ≠ o' by decide) _ _
theorem V2_o (d : Dev nD) : V2 m d o' = gout (xfl m d) := Function.update_self _ _ _
theorem V2_r (d : Dev nD) : V2 m d r' = m (rLoc d) := (Function.update_of_ne (show r' ≠ o' by decide) _ _).trans (in_r m d)
theorem out_a (d : Dev nD) : (opOut (F := F)).result (V2 m d) a' = m (aLoc d) :=
  ((opOut (F := F)).result_of_not_mem (V2 m d) (b := a') (show a' ∉ ({r'} : Finset (DevRef τ sig)) by decide)).trans (V2_a m d)

/-! ## The shares of the flat input, and the output's 960 pieces -/

/-- SparseCore `c`'s read share of the flat input, and subcore `i`'s of it. -/
abbrev coreShare (c : Fin 2) : PosShare TreeShare := Transfers.shareTok fullShare 2 c
abbrev tileShare (c : Fin 2) (i : Fin 16) : PosShare TreeShare := Transfers.shareTok (coreShare c) 16 i

/-- Subcore `(c, i)`'s thirty pieces of the flat output, at `f`. -/
abbrev tilePieces (d : Dev nD) (c : Fin 2) (i : Fin 16) (f : Buf (Elt F) (oLoc d)) : sProp 𝕄 :=
  bigSep Finset.univ fun k : Fin 30 => oLoc d ↦[outPiece (Cert.Pieces.dstPiece c.val i.val k.val)]{fullShare} f

/-- The output piece that copy `t = (c, i, k)` writes. -/
abbrev pieceOf (d : Dev nD) (t : Fin 2 × Fin 16 × Fin 30) : Finset (Idx (oLoc d)) := outPiece (Cert.Pieces.dst t).val

omit [FloatOps F] in
set_option maxHeartbeats 1600000 in
set_option maxRecDepth 8192 in
/-- The flat output whole is the thirty-two subcores' pieces: each of the 960 pieces is exactly one copy's. -/
theorem out_pieces (d : Dev nD) (f : Buf (Elt F) (oLoc d)) :
    (oLoc d ↦{fullShare} f : sProp 𝕄) = bigSep Finset.univ fun c : Fin 2 => bigSep Finset.univ fun i : Fin 16 => tilePieces d c i f := by
  have hdisj : ∀ t ∈ (Finset.univ : Finset (Fin 2 × Fin 16 × Fin 30)), ∀ t' ∈ (Finset.univ : Finset (Fin 2 × Fin 16 × Fin 30)), t ≠ t' →
      Disjoint (pieceOf d t) (pieceOf d t') :=
    fun t _ t' _ h => Finset.disjoint_left.mpr fun o h1 h2 =>
      h (Cert.Pieces.dst_inj (Fin.ext ((mem_outPiece.mp h1).symm.trans (mem_outPiece.mp h2))))
  have key : (oLoc d ↦{fullShare} f : sProp 𝕄)
      = bigSep Finset.univ fun t : Fin 2 × Fin 16 × Fin 30 => oLoc d ↦[pieceOf d t]{fullShare} f := by
    have hc : (Finset.univ : Finset (Idx (oLoc d))) = (Finset.univ : Finset (Fin 2 × Fin 16 × Fin 30)).biUnion (pieceOf d) := by
      ext o
      simp only [Finset.mem_univ, Finset.mem_biUnion, true_and, true_iff]
      have o' : S62914560.Idx := o
      have ho : ((show S62914560.Idx from o) 0).val < 62914560 := ((show S62914560.Idx from o) 0).isLt
      obtain ⟨t, ht⟩ := Cert.Pieces.dst_surj ⟨((show S62914560.Idx from o) 0).val / 65536, by omega⟩
      exact ⟨t, (mem_outPiece (o := (show S62914560.Idx from o))).mpr (by rw [ht])⟩
    exact (congrArg (fun S => (oLoc d ↦[S]{fullShare} f : sProp 𝕄)) hc).trans
      (pointsTo_biUnion (Finset.univ : Finset (Fin 2 × Fin 16 × Fin 30)) (ℓ := oLoc d) (pieceOf d) hdisj)
  rw [key, bigSep_univ_prod]
  refine bigSep_congr fun c _ => ?_
  rw [bigSep_univ_prod]
  rfl

/-! ## What the handshakes carry -/

/-- The grid point of subcore `s` of SparseCore `c`, as the body table passes it. -/
def coordsV (c : Fin (grid0.bound 0)) (s : Fin (grid0.bound 1)) : grid0.Coords :=
  fun | 0 => c | 1 => s | ⟨_ + 2, h⟩ => absurd h (Nat.not_lt.2 (Nat.le_add_left _ _))
abbrev LL (c : Fin 2) (i : Fin 16) : grid0.Coords := coordsV c i

/-- The call hands SparseCore `c` its share of the flat input and its subcores' pieces; each task its share of that, its
    pieces and its row of the shared scratch; and brings them back with the pieces at `gout` of the flat input. -/
def P : (K (F := F)).Pay (nD := nD) (Val := Elt F) (Name := ℕ) (U := UU) where
  st := fun q d c => match q with
    | 0 => iprop((xLoc d ↦{coreShare c} xfl m d) ∗ bigSep Finset.univ fun i : Fin 16 => tilePieces d c i (m (oLoc d)))
  dn := fun q d c => match q with
    | 0 => iprop((xLoc d ↦{coreShare c} xfl m d) ∗ bigSep Finset.univ fun i : Fin 16 => tilePieces d c i (gout (xfl m d)))
  go := fun q d c i => match q with
    | 0 => taskIn d (LL c (Fin.cast nSub_zero i)) (tileShare c (Fin.cast nSub_zero i)) (xfl m d) (m (oLoc d))
  td := fun q d c i => match q with
    | 0 => taskIn d (LL c (Fin.cast nSub_zero i)) (tileShare c (Fin.cast nSub_zero i)) (xfl m d) (gout (xfl m d))
  x := fun _ _ => iprop(emp)

instance taskIn_storable (d : Dev nD) (L : grid0.Coords) (q : PosShare TreeShare) (xf : Buf (Elt F) (xLoc d)) (fo : Buf (Elt F) (oLoc d)) :
    BI.Storable (upEmb : UEmb _ 𝕄) (taskIn d L q xf fo) := by unfold taskIn; infer_instance

instance P_storable : (P (F := F) m).IsStorable where
  st q d c := match q with
    | 0 => (inferInstance : BI.Storable (upEmb : UEmb _ 𝕄) iprop((xLoc d ↦{coreShare c} xfl m d) ∗ bigSep Finset.univ fun i : Fin 16 => tilePieces d c i (m (oLoc d))))
  dn q d c := match q with
    | 0 => (inferInstance : BI.Storable (upEmb : UEmb _ 𝕄) iprop((xLoc d ↦{coreShare c} xfl m d) ∗ bigSep Finset.univ fun i : Fin 16 => tilePieces d c i (gout (xfl m d))))
  go q d c i := match q with
    | 0 => (inferInstance : BI.Storable (upEmb : UEmb _ 𝕄) (taskIn d (LL c (Fin.cast nSub_zero i)) (tileShare c (Fin.cast nSub_zero i)) (xfl m d) (m (oLoc d))))
  td q d c i := match q with
    | 0 => (inferInstance : BI.Storable (upEmb : UEmb _ 𝕄) (taskIn d (LL c (Fin.cast nSub_zero i)) (tileShare c (Fin.cast nSub_zero i)) (xfl m d) (gout (xfl m d))))

/-! ## The task, as the launch theorem asks for it -/

theorem defs₀_vector (c : Fin τ.nSC) (s : Fin τ.nSub) :
    defs₀ (F := F) (.scVector c s) 0 ()
      = SparseCore.onTile hcore0 hsub0 (fun c s => cc0__body (coordsV c s)
          xW (Memref.isWhole_whole _) oW (Memref.isWhole_whole _) shW (Memref.isWhole_whole _) bW (Memref.isWhole_whole _)
          cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (tileShare c (Fin.cast nSub_zero i)) (xfl m d) (m (oLoc d)) O W hO).trans (wp_mono frame _ _ fun _ => obl_post)

/-! ## A SparseCore's operands among its sixteen tasks -/

omit [FloatOps F] in
theorem rows_disjoint : ∀ i ∈ (Finset.univ : Finset (Fin 16)), ∀ j ∈ (Finset.univ : Finset (Fin 16)), i ≠ j → Disjoint (rowSet i) (rowSet j) :=
  fun i _ j _ h => Rect.part_disjoint hdiv16 h
omit [FloatOps F] in
theorem rows_cover : (Finset.univ : Finset (Fin 16)).biUnion rowSet = Finset.univ := Rect.biUnion_part hdiv16

omit [FloatOps F] in
theorem shPts_rows (d : Dev nD) (c : Fin τ.nSC) (f : Buf (Elt F) (shLoc d c)) :
    (shLoc d c ↦{fullShare} f : sProp 𝕄) = bigSep Finset.univ fun i : Fin 16 => shLoc d c ↦[rowSet i]{fullShare} f := by
  rw [← pointsTo_biUnion Finset.univ (ℓ := shLoc d c) rowSet rows_disjoint, rows_cover]; try rfl

omit [FloatOps F] in
/-- The rows of the shared scratch, each at contents of its own, are it whole at some contents. -/
theorem shRows_join [∀ e, Nonempty (Elt F e)] (d : Dev nD) (c : Fin τ.nSC) :
    (bigSep Finset.univ fun i : Fin 16 => iprop(∃ f, shLoc d c ↦[rowSet i]{fullShare} f)) ⊢ (iprop(∃ f, shLoc d c ↦{fullShare} f) : sProp 𝕄) := by
  refine (bigSep_exists_pi Finset.univ (fun i (f : Buf (Elt F) (shLoc d c)) => (shLoc d c ↦[rowSet i]{fullShare} f : sProp 𝕄))).trans ?_
  iintro ⟨%fs, H⟩
  ihave H' := (pointsTo_biUnion_join Finset.univ rowSet fs (fs 0) rows_disjoint) $$ H
  icases H' with ⟨%g, -, Hg⟩
  rw [rows_cover]
  iexists g; iexact Hg

omit [FloatOps F] in
/-- The shared scratch is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A task's three holdings of the arrays, apart. -/
theorem taskIn_eq (d : Dev nD) (c : Fin 2) (i : Fin 16) (f : Buf (Elt F) (oLoc d)) :
    taskIn d (LL c i) (tileShare c i) (xfl m d) f
      = iprop((xLoc d ↦{tileShare c i} xfl m d) ∗ tilePieces d c i f ∗ ∃ g, shLoc d ((K (F := F)).core 0 c) ↦[rowSet i]{fullShare} g) := rfl

theorem vecSplit [∀ e, Nonempty (Elt F e)] : (K (F := F)).VecSplit (P m) 0 := by
  intro d c
  show iprop(iprop((xLoc d ↦{coreShare c} xfl m d) ∗ bigSep Finset.univ fun i : Fin 16 => tilePieces d c i (m (oLoc d))) ∗ ownBufs (S d ((K (F := F)).core 0 c)))
    ⊢ |={Set.univ}=> iprop(
      (bigSep Finset.univ fun i : Fin ((K (F := F)).nSub 0) => taskIn d (LL c (Fin.cast nSub_zero i)) (tileShare c (Fin.cast nSub_zero i)) (xfl m d) (m (oLoc d)))
      ∗ ((bigSep Finset.univ fun i : Fin ((K (F := F)).nSub 0) => taskIn d (LL c (Fin.cast nSub_zero i)) (tileShare c (Fin.cast nSub_zero i)) (xfl m d) (gout (xfl m d)))
          -∗ iprop(iprop((xLoc d ↦{coreShare c} xfl m d) ∗ bigSep Finset.univ fun i : Fin 16 => tilePieces d c i (gout (xfl m d))) ∗ ownBufs (S d ((K (F := F)).core 0 c)))))
  rw [bigSep_tasks (F := F) (fun i => taskIn d (LL c i) (tileShare c i) (xfl m d) (m (oLoc d))),
    bigSep_tasks (F := F) (fun i => taskIn d (LL c i) (tileShare c i) (xfl m d) (gout (xfl m d)))]
  simp only [taskIn_eq]
  rw [bigSep_sep', bigSep_sep', bigSep_sep', bigSep_sep', ownBufs_S]
  iintro ⟨⟨Hx, Ho⟩, ⟨%fsh, Hsh⟩, Hrest⟩; imodintro
  ihave Hx' := (Transfers.pointsTo_toks_split (coreShare c) 16) $$ Hx
  icases Hx' with ⟨Hxr, Hxt⟩
  isplitl [Hxt Ho Hsh]
  · isplitl [Hxt]; · iexact Hxt
    isplitl [Ho]; · iexact Ho
    ihave Hsh' := ((Entails.of_eq (shPts_rows d ((K (F := F)).core 0 c) fsh)).trans (SparseCore.ent (bigSep_mono (Φ := fun i => (shLoc d ((K (F := F)).core 0 c) ↦[rowSet i]{fullShare} fsh : sProp 𝕄))
      (Ψ := fun i => iprop(∃ f, shLoc d ((K (F := F)).core 0 c) ↦[rowSet i]{fullShare} f))
      fun i _ => BI.BIClass.exists_intro (Φ := fun f => (shLoc d ((K (F := F)).core 0 c) ↦[rowSet i]{fullShare} f : sProp 𝕄)) fsh))) $$ Hsh
    iexact Hsh'
  iintro ⟨Hxt, Ho, Hsh⟩
  isplitl [Hxr Hxt Ho]
  · isplitl [Hxr Hxt]
    · iapply (Transfers.pointsTo_toks_join (coreShare c) 16)
      isplitl [Hxr] <;> iassumption
    · iexact Ho
  isplitl [Hsh]; · iapply (shRows_join d); iexact Hsh
  iexact Hrest

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What the call takes for the two SparseCores, and what it hands back: the shares of the flat input, and all the pieces. -/
theorem st0_eq (d : Dev nD) :
    (bigSep Finset.univ fun c : Fin ((K (F := F)).nCore 0) => (P m).st 0 d c)
      = iprop((bigSep Finset.univ fun c : Fin 2 => (xLoc d ↦{coreShare c} xfl m d : sProp 𝕄))
          ∗ bigSep Finset.univ fun c : Fin 2 => bigSep Finset.univ fun i : Fin 16 => tilePieces d c i (m (oLoc d))) :=
  bigSep_sep' _ _ _
theorem dn0_eq (d : Dev nD) :
    (bigSep Finset.univ fun c : Fin ((K (F := F)).nCore 0) => (P m).dn 0 d c)
      = iprop((bigSep Finset.univ fun c : Fin 2 => (xLoc d ↦{coreShare c} xfl m d : sProp 𝕄))
          ∗ bigSep Finset.univ fun c : Fin 2 => bigSep Finset.univ fun i : Fin 16 => tilePieces d c i (gout (xfl m d))) :=
  bigSep_sep' _ _ _

/-- What @main leaves the claim: the input as it was, the result at `rfin`. -/
abbrev FIN (d : Dev nD) : sProp 𝕄 := iprop((aLoc d ↦{fullShare} m (aLoc d)) ∗ rLoc d ↦{fullShare} rfin m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flat input
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (held_S4 (F := F) d _)) $$ Hheld
  rw [in_a, in_o, in_r, show (opIn (F := F)).result (V0 m d) x' = xfl m d from rfl]
  icases Hh with ⟨Ha, Hx, Ho, Hr⟩
  -- the call: to each SparseCore its share of the flat input and its subcores' pieces of the flat output
  ihave Hx' := (Transfers.pointsTo_toks_split fullShare 2) $$ Hx
  icases Hx' with ⟨Hxr, Hxt⟩
  ihave Ho' := (Entails.of_eq (out_pieces (F := F) d (m (oLoc d)))) $$ Ho
  iapply ((K (F := F)).wp_run (D (F := F)) 𝒱 (EH := EH) (P := P m) κ d 0) $$ [Hst Hxt Ho' Hb Ha Hr Hxr]
  isplitr; · iexact Hctx
  isplitl [Hst]; · iexact Hst
  isplitl [Hxt Ho']
  · rw [st0_eq]
    isplitl [Hxt] <;> iassumption
  iintro ⟨Hst, Hdn⟩
  ihave Hdn' := (Entails.of_eq (dn0_eq m d)) $$ Hdn
  icases Hdn' with ⟨Hxt, Ho⟩
  ihave Hx := (Transfers.pointsTo_toks_join fullShare 2) $$ [Hxr Hxt]
  · isplitl [Hxr] <;> iassumption
  ihave Ho := (Entails.of_eq (out_pieces (F := F) d (gout (xfl m d))).symm) $$ Ho
  -- the result's shape
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_S4 (F := F) d _)) $$ Hheld
  rw [out_a]
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (rLoc d) = rfin m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := rLoc d) (I := Finset.univ) (q := fullShare) (f := rfin m d))) $$ [HSI Hr]
  · isplitl [HSI] <;> iassumption
  icases H with ⟨%hr, HSI, -⟩
  ihave H := (SI_pointsTo_agree (st := s') (ℓ := aLoc d) (I := Finset.univ) (q := fullShare) (f := m (aLoc d))) $$ [HSI Ha]
  · isplitl [HSI] <;> iassumption
  icases H with %ha
  ipureintro
  exact ⟨funext fun i => hr i (Finset.mem_univ i), funext fun i => ha i (Finset.mem_univ i)⟩

/-! ## The program's run -/

/-- What the run leaves: on every device the result array at `rfin` and the input array as it was. -/
def QC : PUnit × MemSt nD τ sig (Elt F) → Prop := fun r => ∀ c : Dev nD, r.2.mem (rLoc c) = rfin m c ∧ r.2.mem (aLoc c) = m (aLoc c)

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h => h)

end Cert.Kernel.Respelt

end
-- ==== Proof.RespeltKernelIdeal.lean ====
/-
  The kernel's body with its operands fixed and its windows named.

  The body of `KernelIdeal`'s one kernel moves pieces of 65536 numbers: ten out of the flat input array `xW` (one per step) into a
  staging buffer — row `i 1` of the SparseCore's shared scratch `shW` on even steps, the subcore's own scratch `bW` on odd
  ones — and thirty out of the staging buffers into the flat output array `oW`. Below, `rowM i` is that row, `xw0 i … xw9 i`
  the ten input windows in the order the steps read them (steps 8, 9, 0, …, 7) and `pc0 i … pc29 i` the thirty output
  windows in the order they are written; each is the slice the program itself takes, at the program's own offsets. `q_partN`
  and `qbody` are the printed parts and body at the launch's operands with those names in place of the slices, and each
  `…_eq` says the printed definition at those operands is the copy: the two differ by the names only.
-/
import proofs.«214454_g70703751626829_cont_9to1c4b_566_26_alg».proof.Proof.GenP.KernelIdeal

set_option synthInstance.maxSize 4096

noncomputable section

namespace Cert.KernelIdeal.Respelt

open Cert.KernelIdeal Cert.KernelIdeal.GenP
open Idealize.ShloMosaic Idealize.SL.Sem

variable {F : FTy → Type} [FloatOps F]

/-- The flat input and output arrays, the SparseCore's shared scratch and the subcore's own, whole. -/
abbrev xW : Memref sig .scVector .hbm S16777216 .f32 := Memref.whole main_v0_scv
abbrev oW : Memref sig .scVector .hbm S62914560 .f32 := Memref.whole main_v1_scv
abbrev shW : Memref sig .scVector .shared S16x65536 .f32 := Memref.whole cc0_scratch0
abbrev bW : Memref sig .scVector .vmem S65536 .f32 := Memref.whole cc0_scratch1

/-- The subcore's row of the shared scratch, as one piece. -/
abbrev rowM (i : grid0.Coords) : Memref sig .scVector .shared S65536 .f32 :=
  (shW.slice (Rect.unit (s := S16x65536) (k0_off1 i) S1x65536.size (k0_off1_inb i)) (fun _ => rfl)).squeeze S65536 squeezes_S1x65536_S65536

/-! ## The ten input windows and the thirty output windows -/

abbrev xw0 (i : grid0.Coords) : Memref sig .scVector .hbm S65536 .f32 := xW.slice (Rect.unit (s := S16777216) (k0_off2 i 0#32) S65536.size (k0_off2_inb i 0)) (fun _ => rfl)
abbrev xw1 (i : grid0.Coords) : Memref sig .scVector .hbm S65536 .f32 := xW.slice (Rect.unit (s := S16777216) (k0_off2 i 1#32) S65536.size (k0_off2_inb i 1)) (fun _ => rfl)
abbrev xw2 (i : grid0.Coords) : Memref sig .scVector .hbm S65536 .f32 := xW.slice (Rect.unit (s := S16777216) (k0_off4 i 0#32 0#32) S65536.size (k0_off4_inb i 0 0)) (fun _ => rfl)
abbrev xw3 (i : grid0.Coords) : Memref sig .scVector .hbm S65536 .f32 := xW.slice (Rect.unit (s := S16777216) (k0_off4 i 0#32 1#32) S65536.size (k0_off4_inb i 0 1)) (fun _ => rfl)
abbrev xw4 (i : grid0.Coords) : Memref sig .scVector .hbm S65536 .f32 := xW.slice (Rect.unit (s := S16777216) (k0_off4 i 0#32 2#32) S65536.size (k0_off4_inb i 0 2)) (fun _ => rfl)
abbrev xw5 (i : grid0.Coords) : Memref sig .scVector .hbm S65536 .f32 := xW.slice (Rect.unit (s := S16777216) (k0_off4 i 0#32 3#32) S65536.size (k0_off4_inb i 0 3)) (fun _ => rfl)
abbrev xw6 (i : grid0.Coords) : Memref sig .scVector .hbm S65536 .f32 := xW.slice (Rect.unit (s := S16777216) (k0_off4 i 1#32 0#32) S65536.size (k0_off4_inb i 1 0)) (fun _ => rfl)
abbrev xw7 (i : grid0.Coords) : Memref sig .scVector .hbm S65536 .f32 := xW.slice (Rect.unit (s := S16777216) (k0_off4 i 1#32 1#32) S65536.size (k0_off4_inb i 1 1)) (fun _ => rfl)
abbrev xw8 (i : grid0.Coords) : Memref sig .scVector .hbm S65536 .f32 := xW.slice (Rect.unit (s := S16777216) (k0_off4 i 1#32 2#32) S65536.size (k0_off4_inb i 1 2)) (fun _ => rfl)
abbrev xw9 (i : grid0.Coords) : Memref sig .scVector .hbm S65536 .f32 := xW.slice (Rect.unit (s := S16777216) (k0_off4 i 1#32 3#32) S65536.size (k0_off4_inb i 1 3)) (fun _ => rfl)
abbrev pc0 (i : grid0.Coords) : Memref sig .scVector .hbm S65536 .f32 := oW.slice (Rect.unit (s := S62914560) (k0_off3 i 0#32 0#32) S65536.size (k0_off3_inb i 0 0)) (fun _ => rfl)
abbrev pc1 (i : grid0.Coords) : Memref sig .scVector .hbm S65536 .f32 := oW.slice (Rect.unit (s := S62914560) (k0_off3 i 3#32 0#32) S65536.size (k0_off3_inb i 1 0)) (fun _ => rfl)
abbrev pc2 (i : grid0.Coords) : Memref sig .scVector .hbm S65536 .f32 := oW.slice (Rect.unit (s := S62914560) (k0_off3 i 6#32 0#32) S65536.size (k0_off3_inb i 2 0)) (fun _ => rfl)
abbrev pc3 (i : grid0.Coords) : Memref sig .scVector .hbm S65536 .f32 := oW.slice (Rect.unit (s := S62914560) (k0_off3 i 9#32 0#32) S65536.size (k0_off3_inb i 3 0)) (fun _ => rfl)
abbrev pc4 (i : grid0.Coords) : Memref sig .scVector .hbm S65536 .f32 := oW.slice (Rect.unit (s := S62914560) (k0_off3 i 12#32 0#32) S65536.size (k0_off3_inb i 4 0)) (fun _ => rfl)
abbrev pc5 (i : grid0.Coords) : Memref sig .scVector .hbm S65536 .f32 := oW.slice (Rect.unit (s := S62914560) (k0_off3 i 15#32 0#32) S65536.size (k0_off3_inb i 5 0)) (fun _ => rfl)
abbrev pc6 (i : grid0.Coords) : Memref sig .scVector .hbm S65536 .f32 := oW.slice (Rect.unit (s := S62914560) (k0_off3 i 18#32 0#32) S65536.size (k0_off3_inb i 6 0)) (fun _ => rfl)
abbrev pc7 (i : grid0.Coords) : Memref sig .scVector .hbm S65536 .f32 := oW.slice (Rect.unit (s := S62914560) (k0_off3 i 0#32 1#32) S65536.size (k0_off3_inb i 0 1)) (fun _ => rfl)
abbrev pc8 (i : grid0.Coords) : Memref sig .scVector .hbm S65536 .f32 := oW.slice (Rect.unit (s := S62914560) (k0_off3 i 3#32 1#32) S65536.size (k0_off3_inb i 1 1)) (fun _ => rfl)
abbrev pc9 (i : grid0.Coords) : Memref sig .scVector .hbm S65536 .f32 := oW.slice (Rect.unit (s := S62914560) (k0_off3 i 6#32 1#32) S65536.size (k0_off3_inb i 2 1)) (fun _ => rfl)
abbrev pc10 (i : grid0.Coords) : Memref sig .scVector .hbm S65536 .f32 := oW.slice (Rect.unit (s := S62914560) (k0_off3 i 9#32 1#32) S65536.size (k0_off3_inb i 3 1)) (fun _ => rfl)
abbrev pc11 (i : grid0.Coords) : Memref sig .scVector .hbm S65536 .f32 := oW.slice (Rect.unit (s := S62914560) (k0_off3 i 12#32 1#32) S65536.size (k0_off3_inb i 4 1)) (fun _ => rfl)
abbrev pc12 (i : grid0.Coords) : Memref sig .scVector .hbm S65536 .f32 := oW.slice (Rect.unit (s := S62914560) (k0_off3 i 15#32 1#32) S65536.size (k0_off3_inb i 5 1)) (fun _ => rfl)
abbrev pc13 (i : grid0.Coords) : Memref sig .scVector .hbm S65536 .f32 := oW.slice (Rect.unit (s := S62914560) (k0_off3 i 18#32 1#32) S65536.size (k0_off3_inb i 6 1)) (fun _ => rfl)
abbrev pc14 (i : grid0.Coords) : Memref sig .scVector .hbm S65536 .f32 := oW.slice (Rect.unit (s := S62914560) (k0_off5 i 0#32 0#32) S65536.size (k0_off5_inb i 0 0)) (fun _ => rfl)
abbrev pc15 (i : grid0.Coords) : Memref sig .scVector .hbm S65536 .f32 := oW.slice (Rect.unit (s := S62914560) (k0_off6 i 0#32 0#32) S65536.size (k0_off6_inb i 0 0)) (fun _ => rfl)
abbrev pc16 (i : grid0.Coords) : Memref sig .scVector .hbm S65536 .f32 := oW.slice (Rect.unit (s := S62914560) (k0_off5 i 0#32 1#32) S65536.size (k0_off5_inb i 0 1)) (fun _ => rfl)
abbrev pc17 (i : grid0.Coords) : Memref sig .scVector .hbm S65536 .f32 := oW.slice (Rect.unit (s := S62914560) (k0_off6 i 0#32 1#32) S65536.size (k0_off6_inb i 0 1)) (fun _ => rfl)
abbrev pc18 (i : grid0.Coords) : Memref sig .scVector .hbm S65536 .f32 := oW.slice (Rect.unit (s := S62914560) (k0_off5 i 0#32 2#32) S65536.size (k0_off5_inb i 0 2)) (fun _ => rfl)
abbrev pc19 (i : grid0.Coords) : Memref sig .scVector .hbm S65536 .f32 := oW.slice (Rect.unit (s := S62914560) (k0_off6 i 0#32 2#32) S65536.size (k0_off6_inb i 0 2)) (fun _ => rfl)
abbrev pc20 (i : grid0.Coords) : Memref sig .scVector .hbm S65536 .f32 := oW.slice (Rect.unit (s := S62914560) (k0_off5 i 0#32 3#32) S65536.size (k0_off5_inb i 0 3)) (fun _ => rfl)
abbrev pc21 (i : grid0.Coords) : Memref sig .scVector .hbm S65536 .f32 := oW.slice (Rect.unit (s := S62914560) (k0_off6 i 0#32 3#32) S65536.size (k0_off6_inb i 0 3)) (fun _ => rfl)
abbrev pc22 (i : grid0.Coords) : Memref sig .scVector .hbm S65536 .f32 := oW.slice (Rect.unit (s := S62914560) (k0_off5 i 1#32 0#32) S65536.size (k0_off5_inb i 1 0)) (fun _ => rfl)
abbrev pc23 (i : grid0.Coords) : Memref sig .scVector .hbm S65536 .f32 := oW.slice (Rect.unit (s := S62914560) (k0_off6 i 1#32 0#32) S65536.size (k0_off6_inb i 1 0)) (fun _ => rfl)
abbrev pc24 (i : grid0.Coords) : Memref sig .scVector .hbm S65536 .f32 := oW.slice (Rect.unit (s := S62914560) (k0_off5 i 1#32 1#32) S65536.size (k0_off5_inb i 1 1)) (fun _ => rfl)
abbrev pc25 (i : grid0.Coords) : Memref sig .scVector .hbm S65536 .f32 := oW.slice (Rect.unit (s := S62914560) (k0_off6 i 1#32 1#32) S65536.size (k0_off6_inb i 1 1)) (fun _ => rfl)
abbrev pc26 (i : grid0.Coords) : Memref sig .scVector .hbm S65536 .f32 := oW.slice (Rect.unit (s := S62914560) (k0_off5 i 1#32 2#32) S65536.size (k0_off5_inb i 1 2)) (fun _ => rfl)
abbrev pc27 (i : grid0.Coords) : Memref sig .scVector .hbm S65536 .f32 := oW.slice (Rect.unit (s := S62914560) (k0_off6 i 1#32 2#32) S65536.size (k0_off6_inb i 1 2)) (fun _ => rfl)
abbrev pc28 (i : grid0.Coords) : Memref sig .scVector .hbm S65536 .f32 := oW.slice (Rect.unit (s := S62914560) (k0_off5 i 1#32 3#32) S65536.size (k0_off5_inb i 1 3)) (fun _ => rfl)
abbrev pc29 (i : grid0.Coords) : Memref sig .scVector .hbm S65536 .f32 := oW.slice (Rect.unit (s := S62914560) (k0_off6 i 1#32 3#32) S65536.size (k0_off6_inb i 1 3)) (fun _ => rfl)

/-! ## The parts and the body over those names -/

noncomputable def q_part1 (i : grid0.Coords) :
    Prog (TpuEff nD τ sig (Elt F) Λ₀ (.scVector ((i 0).castLE hcore0) ((i 1).castLE hsub0))) (Σ' (v1 : BitVec 32) (v18 : BitVec 32) (v30 : BitVec 32) (c4_i32 : BitVec 32) (v31 : BitVec 32) (v36 : BitVec 32), BitVec 1) := do
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32_11 : BitVec 32 := 2#32
  let v29 : BitVec 32 := Scalar.muli c2_i32_11 v28
  let c0_i32_12 : BitVec 32 := 0#32
  let v30 : BitVec 32 := Scalar.addi v29 c0_i32_12
  let c4_i32 : BitVec 32 := 4#32
  let v31 : BitVec 32 := Scalar.divsi v18 c4_i32
  let c0_i32_13 : BitVec 32 := 0#32
  let v32 : BitVec 1 := Scalar.cmpi .sgt v18 c0_i32_13
  let v33 : BitVec 32 := Scalar.extui v32
  let c0_i32_14 : BitVec 32 := 0#32
  let v34 : BitVec 1 := Scalar.cmpi .slt v18 c0_i32_14
  let v35 : BitVec 32 := Scalar.extui v34
  let v36 : BitVec 32 := Scalar.subi v33 v35
  let c0_i32_15 : BitVec 32 := 0#32
  let v37 : BitVec 1 := Scalar.cmpi .sgt c4_i32 c0_i32_15
  pure ⟨v1, v18, v30, c4_i32, v31, v36, v37⟩

noncomputable def q_part2 (i : grid0.Coords) (v18 : BitVec 32) (v30 : BitVec 32) (c4_i32 : BitVec 32) (v31 : BitVec 32) (v36 : BitVec 32) (v37 : BitVec 1) :
    Prog (TpuEff nD τ sig (Elt F) Λ₀ (.scVector ((i 0).castLE hcore0) ((i 1).castLE hsub0))) (Σ' (v47 : BitVec 32) (v66 : BitVec 32) (v71 : BitVec 32), BitVec 32) := do
  let v38 : BitVec 32 := Scalar.extui v37
  let c0_i32_16 : BitVec 32 := 0#32
  let v39 : BitVec 1 := Scalar.cmpi .slt c4_i32 c0_i32_16
  let v40 : BitVec 32 := Scalar.extui v39
  let v41 : BitVec 32 := Scalar.subi v38 v40
  let v42 : BitVec 1 := Scalar.cmpi .ne v36 v41
  let v43 : BitVec 32 := Scalar.remsi v18 c4_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v18 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c2_i32_25 : BitVec 32 := 2#32
  let v58 : BitVec 1 := Scalar.cmpi .slt v57 c2_i32_25
  let c6_i32 : BitVec 32 := 6#32
  let v59 : BitVec 32 := Scalar.addi c6_i32 v57
  let c3_i32 : BitVec 32 := 3#32
  let v60 : BitVec 32 := Scalar.muli c3_i32 v57
  let c4_i32_26 : BitVec 32 := 4#32
  let v61 : BitVec 32 := Scalar.subi v60 c4_i32_26
  let v62 : BitVec 32 := Scalar.select v58 v59 v61
  let c2_i32_27 : BitVec 32 := 2#32
  let v63 : BitVec 1 := Scalar.cmpi .slt v57 c2_i32_27
  let c9_i32 : BitVec 32 := 9#32
  let v64 : BitVec 32 := Scalar.addi c9_i32 v57
  let c37_i32 : BitVec 32 := 37#32
  let v65 : BitVec 32 := Scalar.addi c37_i32 v57
  let v66 : BitVec 32 := Scalar.select v63 v64 v65
  let c16_i32 : BitVec 32 := 16#32
  let v67 : BitVec 32 := Scalar.muli v47 c16_i32
  let v68 : BitVec 32 := Scalar.addi v67 v62
  let c4_i32_28 : BitVec 32 := 4#32
  let v69 : BitVec 32 := Scalar.muli v68 c4_i32_28
  let v70 : BitVec 32 := Scalar.addi v69 v30
  let c65536_i32 : BitVec 32 := 65536#32
  let v71 : BitVec 32 := Scalar.muli v70 c65536_i32
  let c60_i32 : BitVec 32 := 60#32
  let v72 : BitVec 32 := Scalar.muli v47 c60_i32
  let v73 : BitVec 32 := Scalar.addi v72 v66
  let c0_i32_29 : BitVec 32 := 0#32
  let v74 : BitVec 32 := Scalar.addi v73 c0_i32_29
  let c4_i32_30 : BitVec 32 := 4#32
  let v75 : BitVec 32 := Scalar.muli v74 c4_i32_30
  pure ⟨v47, v66, v71, v75⟩

noncomputable def q_part3 (i : grid0.Coords) (v30 : BitVec 32) (v47 : BitVec 32) (v66 : BitVec 32) (v75 : BitVec 32) :
    Prog (TpuEff nD τ sig (Elt F) Λ₀ (.scVector ((i 0).castLE hcore0) ((i 1).castLE hsub0))) (BitVec 32) := do
  let v76 : BitVec 32 := Scalar.addi v75 v30
  let c65536_i32_31 : BitVec 32 := 65536#32
  let v77 : BitVec 32 := Scalar.muli v76 c65536_i32_31
  let c60_i32_32 : BitVec 32 := 60#32
  let v78 : BitVec 32 := Scalar.muli v47 c60_i32_32
  let v79 : BitVec 32 := Scalar.addi v78 v66
  let c3_i32_33 : BitVec 32 := 3#32
  let v80 : BitVec 32 := Scalar.addi v79 c3_i32_33
  let c4_i32_34 : BitVec 32 := 4#32
  let v81 : BitVec 32 := Scalar.muli v80 c4_i32_34
  let v82 : BitVec 32 := Scalar.addi v81 v30
  let c65536_i32_35 : BitVec 32 := 65536#32
  let v83 : BitVec 32 := Scalar.muli v82 c65536_i32_35
  let c60_i32_36 : BitVec 32 := 60#32
  let v84 : BitVec 32 := Scalar.muli v47 c60_i32_36
  let v85 : BitVec 32 := Scalar.addi v84 v66
  let c6_i32_37 : BitVec 32 := 6#32
  let v86 : BitVec 32 := Scalar.addi v85 c6_i32_37
  let c4_i32_38 : BitVec 32 := 4#32
  let v87 : BitVec 32 := Scalar.muli v86 c4_i32_38
  let v88 : BitVec 32 := Scalar.addi v87 v30
  let c65536_i32_39 : BitVec 32 := 65536#32
  let v89 : BitVec 32 := Scalar.muli v88 c65536_i32_39
  let c60_i32_40 : BitVec 32 := 60#32
  let v90 : BitVec 32 := Scalar.muli v47 c60_i32_40
  let v91 : BitVec 32 := Scalar.addi v90 v66
  let c9_i32_41 : BitVec 32 := 9#32
  let v92 : BitVec 32 := Scalar.addi v91 c9_i32_41
  let c4_i32_42 : BitVec 32 := 4#32
  let v93 : BitVec 32 := Scalar.muli v92 c4_i32_42
  let v94 : BitVec 32 := Scalar.addi v93 v30
  let c65536_i32_43 : BitVec 32 := 65536#32
  let v95 : BitVec 32 := Scalar.muli v94 c65536_i32_43
  let c60_i32_44 : BitVec 32 := 60#32
  let v96 : BitVec 32 := Scalar.muli v47 c60_i32_44
  let v97 : BitVec 32 := Scalar.addi v96 v66
  let c12_i32 : BitVec 32 := 12#32
  let v98 : BitVec 32 := Scalar.addi v97 c12_i32
  let c4_i32_45 : BitVec 32 := 4#32
  let v99 : BitVec 32 := Scalar.muli v98 c4_i32_45
  let v100 : BitVec 32 := Scalar.addi v99 v30
  let c65536_i32_46 : BitVec 32 := 65536#32
  let v101 : BitVec 32 := Scalar.muli v100 c65536_i32_46
  let c60_i32_47 : BitVec 32 := 60#32
  let v102 : BitVec 32 := Scalar.muli v47 c60_i32_47
  let v103 : BitVec 32 := Scalar.addi v102 v66
  let c15_i32 : BitVec 32 := 15#32
  let v104 : BitVec 32 := Scalar.addi v103 c15_i32
  let c4_i32_48 : BitVec 32 := 4#32
  let v105 : BitVec 32 := Scalar.muli v104 c4_i32_48
  let v106 : BitVec 32 := Scalar.addi v105 v30
  let c65536_i32_49 : BitVec 32 := 65536#32
  let v107 : BitVec 32 := Scalar.muli v106 c65536_i32_49
  let c60_i32_50 : BitVec 32 := 60#32
  let v108 : BitVec 32 := Scalar.muli v47 c60_i32_50
  let v109 : BitVec 32 := Scalar.addi v108 v66
  let c18_i32 : BitVec 32 := 18#32
  let v110 : BitVec 32 := Scalar.addi v109 c18_i32
  let c4_i32_51 : BitVec 32 := 4#32
  let v111 : BitVec 32 := Scalar.muli v110 c4_i32_51
  pure v111

noncomputable def q_part4 (i : grid0.Coords) (v1 : BitVec 32) (v30 : BitVec 32) (v71 : BitVec 32) (v111 : BitVec 32) :
    Prog (TpuEff nD τ sig (Elt F) Λ₀ (.scVector ((i 0).castLE hcore0) ((i 1).castLE hsub0))) (Σ' (v137 : BitVec 32) (v149 : BitVec 32), BitVec 32) := do
  let v112 : BitVec 32 := Scalar.addi v111 v30
  let c65536_i32_52 : BitVec 32 := 65536#32
  let v113 : BitVec 32 := Scalar.muli v112 c65536_i32_52
  let v114 : BitVec 32 := v71
  let c0_i32_53 : BitVec 32 := 0#32
  let v115 : Memref sig .scVector .shared S1x65536 .f32 := shW.slice (Rect.unit (s := S16x65536) (k0_off1 i) S1x65536.size (k0_off1_inb i)) (fun _ => rfl)
  let v116 : Memref sig .scVector .shared S65536 .f32 := rowM i
  let v117 : Memref sig .scVector .hbm S65536 .f32 := (xw0 i)
  Prog.lift (.enqueueDma v117 (.here v116) (.dma cc0_scratch2.sem) (View.wordExact_bits rfl) ((View.wordExact_bits rfl).reshape _ _) ⟨Or.inl rfl, trivial⟩)
  let c0_i32_54 : BitVec 32 := 0#32
  let v118 : Memref sig .scVector .shared S1x65536 .f32 := shW.slice (Rect.unit (s := S16x65536) (k0_off1 i) S1x65536.size (k0_off1_inb i)) (fun _ => rfl)
  let v119 : Memref sig .scVector .shared S65536 .f32 := rowM i
  let c0_i32_55 : BitVec 32 := 0#32
  let v120 : Memref sig .scVector .hbm S65536 .f32 := xW.slice (Rect.unit (s := S16777216) ![0] S65536.size inb_S16777216_S65536_0) (fun _ => rfl)
  Prog.lift (.waitDma2 cc0_scratch2.sem v120 v119 (View.wordExact_bits rfl) ((View.wordExact_bits rfl).reshape _ _))
  let c2_i32_56 : BitVec 32 := 2#32
  let v121 : BitVec 32 := Scalar.divsi v1 c2_i32_56
  let c0_i32_57 : BitVec 32 := 0#32
  let v122 : BitVec 1 := Scalar.cmpi .sgt v1 c0_i32_57
  let v123 : BitVec 32 := Scalar.extui v122
  let c0_i32_58 : BitVec 32 := 0#32
  let v124 : BitVec 1 := Scalar.cmpi .slt v1 c0_i32_58
  let v125 : BitVec 32 := Scalar.extui v124
  let v126 : BitVec 32 := Scalar.subi v123 v125
  let c0_i32_59 : BitVec 32 := 0#32
  let v127 : BitVec 1 := Scalar.cmpi .sgt c2_i32_56 c0_i32_59
  let v128 : BitVec 32 := Scalar.extui v127
  let c0_i32_60 : BitVec 32 := 0#32
  let v129 : BitVec 1 := Scalar.cmpi .slt c2_i32_56 c0_i32_60
  let v130 : BitVec 32 := Scalar.extui v129
  let v131 : BitVec 32 := Scalar.subi v128 v130
  let v132 : BitVec 1 := Scalar.cmpi .ne v126 v131
  let v133 : BitVec 32 := Scalar.remsi v1 c2_i32_56
  let c0_i32_61 : BitVec 32 := 0#32
  let v134 : BitVec 1 := Scalar.cmpi .ne v133 c0_i32_61
  let v135 : BitVec 1 := Scalar.andi v132 v134
  let c1_i32_62 : BitVec 32 := 1#32
  let v136 : BitVec 32 := Scalar.subi v121 c1_i32_62
  let v137 : BitVec 32 := Scalar.select v135 v136 v121
  let c2_i32_63 : BitVec 32 := 2#32
  let c0_i32_64 : BitVec 32 := 0#32
  let v138 : BitVec 1 := Scalar.cmpi .eq c2_i32_63 c0_i32_64
  let c1_i32_65 : BitVec 32 := 1#32
  let v139 : BitVec 32 := Scalar.select v138 c1_i32_65 c2_i32_63
  let v140 : BitVec 32 := Scalar.remsi v1 v139
  let c0_i32_66 : BitVec 32 := 0#32
  let v141 : BitVec 1 := Scalar.cmpi .ne v140 c0_i32_66
  let c0_i32_67 : BitVec 32 := 0#32
  let v142 : BitVec 1 := Scalar.cmpi .slt v140 c0_i32_67
  let c0_i32_68 : BitVec 32 := 0#32
  let v143 : BitVec 1 := Scalar.cmpi .slt v139 c0_i32_68
  let v144 : BitVec 1 := Scalar.xori v142 v143
  let v145 : BitVec 1 := Scalar.andi v144 v141
  let v146 : BitVec 32 := Scalar.addi v140 v139
  let v147 : BitVec 32 := Scalar.select v145 v146 v140
  let c2_i32_69 : BitVec 32 := 2#32
  let v148 : BitVec 32 := Scalar.muli c2_i32_69 v147
  let c0_i32_70 : BitVec 32 := 0#32
  let v149 : BitVec 32 := Scalar.addi v148 c0_i32_70
  let c4_i32_71 : BitVec 32 := 4#32
  pure ⟨v137, v149, c4_i32_71⟩

noncomputable def q_part5 (i : grid0.Coords) (v137 : BitVec 32) (c4_i32_71 : BitVec 32) :
    Prog (TpuEff nD τ sig (Elt F) Λ₀ (.scVector ((i 0).castLE hcore0) ((i 1).castLE hsub0))) (Σ' (v166 : BitVec 32) (v185 : BitVec 32), BitVec 32) := do
  let v150 : BitVec 32 := Scalar.divsi v137 c4_i32_71
  let c0_i32_72 : BitVec 32 := 0#32
  let v151 : BitVec 1 := Scalar.cmpi .sgt v137 c0_i32_72
  let v152 : BitVec 32 := Scalar.extui v151
  let c0_i32_73 : BitVec 32 := 0#32
  let v153 : BitVec 1 := Scalar.cmpi .slt v137 c0_i32_73
  let v154 : BitVec 32 := Scalar.extui v153
  let v155 : BitVec 32 := Scalar.subi v152 v154
  let c0_i32_74 : BitVec 32 := 0#32
  let v156 : BitVec 1 := Scalar.cmpi .sgt c4_i32_71 c0_i32_74
  let v157 : BitVec 32 := Scalar.extui v156
  let c0_i32_75 : BitVec 32 := 0#32
  let v158 : BitVec 1 := Scalar.cmpi .slt c4_i32_71 c0_i32_75
  let v159 : BitVec 32 := Scalar.extui v158
  let v160 : BitVec 32 := Scalar.subi v157 v159
  let v161 : BitVec 1 := Scalar.cmpi .ne v155 v160
  let v162 : BitVec 32 := Scalar.remsi v137 c4_i32_71
  let c0_i32_76 : BitVec 32 := 0#32
  let v163 : BitVec 1 := Scalar.cmpi .ne v162 c0_i32_76
  let v164 : BitVec 1 := Scalar.andi v161 v163
  let c1_i32_77 : BitVec 32 := 1#32
  let v165 : BitVec 32 := Scalar.subi v150 c1_i32_77
  let v166 : BitVec 32 := Scalar.select v164 v165 v150
  let c4_i32_78 : BitVec 32 := 4#32
  let c0_i32_79 : BitVec 32 := 0#32
  let v167 : BitVec 1 := Scalar.cmpi .eq c4_i32_78 c0_i32_79
  let c1_i32_80 : BitVec 32 := 1#32
  let v168 : BitVec 32 := Scalar.select v167 c1_i32_80 c4_i32_78
  let v169 : BitVec 32 := Scalar.remsi v137 v168
  let c0_i32_81 : BitVec 32 := 0#32
  let v170 : BitVec 1 := Scalar.cmpi .ne v169 c0_i32_81
  let c0_i32_82 : BitVec 32 := 0#32
  let v171 : BitVec 1 := Scalar.cmpi .slt v169 c0_i32_82
  let c0_i32_83 : BitVec 32 := 0#32
  let v172 : BitVec 1 := Scalar.cmpi .slt v168 c0_i32_83
  let v173 : BitVec 1 := Scalar.xori v171 v172
  let v174 : BitVec 1 := Scalar.andi v173 v170
  let v175 : BitVec 32 := Scalar.addi v169 v168
  let v176 : BitVec 32 := Scalar.select v174 v175 v169
  let c2_i32_84 : BitVec 32 := 2#32
  let v177 : BitVec 1 := Scalar.cmpi .slt v176 c2_i32_84
  let c6_i32_85 : BitVec 32 := 6#32
  let v178 : BitVec 32 := Scalar.addi c6_i32_85 v176
  let c3_i32_86 : BitVec 32 := 3#32
  let v179 : BitVec 32 := Scalar.muli c3_i32_86 v176
  let c4_i32_87 : BitVec 32 := 4#32
  let v180 : BitVec 32 := Scalar.subi v179 c4_i32_87
  let v181 : BitVec 32 := Scalar.select v177 v178 v180
  let c2_i32_88 : BitVec 32 := 2#32
  let v182 : BitVec 1 := Scalar.cmpi .slt v176 c2_i32_88
  let c9_i32_89 : BitVec 32 := 9#32
  let v183 : BitVec 32 := Scalar.addi c9_i32_89 v176
  let c37_i32_90 : BitVec 32 := 37#32
  let v184 : BitVec 32 := Scalar.addi c37_i32_90 v176
  let v185 : BitVec 32 := Scalar.select v182 v183 v184
  let c16_i32_91 : BitVec 32 := 16#32
  let v186 : BitVec 32 := Scalar.muli v166 c16_i32_91
  let v187 : BitVec 32 := Scalar.addi v186 v181
  let c4_i32_92 : BitVec 32 := 4#32
  let v188 : BitVec 32 := Scalar.muli v187 c4_i32_92
  pure ⟨v166, v185, v188⟩

noncomputable def q_part6 (i : grid0.Coords) (v149 : BitVec 32) (v166 : BitVec 32) (v185 : BitVec 32) (v188 : BitVec 32) :
    Prog (TpuEff nD τ sig (Elt F) Λ₀ (.scVector ((i 0).castLE hcore0) ((i 1).castLE hsub0))) (Σ' (v196 : BitVec 32) (v202 : BitVec 32) (v208 : BitVec 32) (v214 : BitVec 32) (v220 : BitVec 32), BitVec 32) := do
  let v189 : BitVec 32 := Scalar.addi v188 v149
  let c65536_i32_93 : BitVec 32 := 65536#32
  let v190 : BitVec 32 := Scalar.muli v189 c65536_i32_93
  let c60_i32_94 : BitVec 32 := 60#32
  let v191 : BitVec 32 := Scalar.muli v166 c60_i32_94
  let v192 : BitVec 32 := Scalar.addi v191 v185
  let c0_i32_95 : BitVec 32 := 0#32
  let v193 : BitVec 32 := Scalar.addi v192 c0_i32_95
  let c4_i32_96 : BitVec 32 := 4#32
  let v194 : BitVec 32 := Scalar.muli v193 c4_i32_96
  let v195 : BitVec 32 := Scalar.addi v194 v149
  let c65536_i32_97 : BitVec 32 := 65536#32
  let v196 : BitVec 32 := Scalar.muli v195 c65536_i32_97
  let c60_i32_98 : BitVec 32 := 60#32
  let v197 : BitVec 32 := Scalar.muli v166 c60_i32_98
  let v198 : BitVec 32 := Scalar.addi v197 v185
  let c3_i32_99 : BitVec 32 := 3#32
  let v199 : BitVec 32 := Scalar.addi v198 c3_i32_99
  let c4_i32_100 : BitVec 32 := 4#32
  let v200 : BitVec 32 := Scalar.muli v199 c4_i32_100
  let v201 : BitVec 32 := Scalar.addi v200 v149
  let c65536_i32_101 : BitVec 32 := 65536#32
  let v202 : BitVec 32 := Scalar.muli v201 c65536_i32_101
  let c60_i32_102 : BitVec 32 := 60#32
  let v203 : BitVec 32 := Scalar.muli v166 c60_i32_102
  let v204 : BitVec 32 := Scalar.addi v203 v185
  let c6_i32_103 : BitVec 32 := 6#32
  let v205 : BitVec 32 := Scalar.addi v204 c6_i32_103
  let c4_i32_104 : BitVec 32 := 4#32
  let v206 : BitVec 32 := Scalar.muli v205 c4_i32_104
  let v207 : BitVec 32 := Scalar.addi v206 v149
  let c65536_i32_105 : BitVec 32 := 65536#32
  let v208 : BitVec 32 := Scalar.muli v207 c65536_i32_105
  let c60_i32_106 : BitVec 32 := 60#32
  let v209 : BitVec 32 := Scalar.muli v166 c60_i32_106
  let v210 : BitVec 32 := Scalar.addi v209 v185
  let c9_i32_107 : BitVec 32 := 9#32
  let v211 : BitVec 32 := Scalar.addi v210 c9_i32_107
  let c4_i32_108 : BitVec 32 := 4#32
  let v212 : BitVec 32 := Scalar.muli v211 c4_i32_108
  let v213 : BitVec 32 := Scalar.addi v212 v149
  let c65536_i32_109 : BitVec 32 := 65536#32
  let v214 : BitVec 32 := Scalar.muli v213 c65536_i32_109
  let c60_i32_110 : BitVec 32 := 60#32
  let v215 : BitVec 32 := Scalar.muli v166 c60_i32_110
  let v216 : BitVec 32 := Scalar.addi v215 v185
  let c12_i32_111 : BitVec 32 := 12#32
  let v217 : BitVec 32 := Scalar.addi v216 c12_i32_111
  let c4_i32_112 : BitVec 32 := 4#32
  let v218 : BitVec 32 := Scalar.muli v217 c4_i32_112
  let v219 : BitVec 32 := Scalar.addi v218 v149
  let c65536_i32_113 : BitVec 32 := 65536#32
  let v220 : BitVec 32 := Scalar.muli v219 c65536_i32_113
  let c60_i32_114 : BitVec 32 := 60#32
  let v221 : BitVec 32 := Scalar.muli v166 c60_i32_114
  let v222 : BitVec 32 := Scalar.addi v221 v185
  let c15_i32_115 : BitVec 32 := 15#32
  let v223 : BitVec 32 := Scalar.addi v222 c15_i32_115
  let c4_i32_116 : BitVec 32 := 4#32
  let v224 : BitVec 32 := Scalar.muli v223 c4_i32_116
  pure ⟨v196, v202, v208, v214, v220, v224⟩

noncomputable def q_part7 (i : grid0.Coords) (v1 : BitVec 32) (v149 : BitVec 32) (v166 : BitVec 32) (v185 : BitVec 32) (v196 : BitVec 32) (v202 : BitVec 32) (v208 : BitVec 32) (v214 : BitVec 32) (v220 : BitVec 32) (v224 : BitVec 32) :
    Prog (TpuEff nD τ sig (Elt F) Λ₀ (.scVector ((i 0).castLE hcore0) ((i 1).castLE hsub0))) (Σ' (c2_i32_129 : BitVec 32) (v261 : BitVec 32), BitVec 32) := do
  let v225 : BitVec 32 := Scalar.addi v224 v149
  let c65536_i32_117 : BitVec 32 := 65536#32
  let v226 : BitVec 32 := Scalar.muli v225 c65536_i32_117
  let c60_i32_118 : BitVec 32 := 60#32
  let v227 : BitVec 32 := Scalar.muli v166 c60_i32_118
  let v228 : BitVec 32 := Scalar.addi v227 v185
  let c18_i32_119 : BitVec 32 := 18#32
  let v229 : BitVec 32 := Scalar.addi v228 c18_i32_119
  let c4_i32_120 : BitVec 32 := 4#32
  let v230 : BitVec 32 := Scalar.muli v229 c4_i32_120
  let v231 : BitVec 32 := Scalar.addi v230 v149
  let c65536_i32_121 : BitVec 32 := 65536#32
  let v232 : BitVec 32 := Scalar.muli v231 c65536_i32_121
  let v233 : BitVec 32 := v196
  let v234 : Memref sig .scVector .hbm S65536 .f32 := (pc0 i)
  let c0_i32_122 : BitVec 32 := 0#32
  let v235 : Memref sig .scVector .shared S1x65536 .f32 := shW.slice (Rect.unit (s := S16x65536) (k0_off1 i) S1x65536.size (k0_off1_inb i)) (fun _ => rfl)
  let v236 : Memref sig .scVector .shared S65536 .f32 := rowM i
  Prog.lift (.enqueueDma v236 (.here v234) (.dma cc0_scratch4.sem) ((View.wordExact_bits rfl).reshape _ _) (View.wordExact_bits rfl) ⟨Or.inl rfl, trivial⟩)
  let v237 : BitVec 32 := v202
  let v238 : Memref sig .scVector .hbm S65536 .f32 := (pc1 i)
  let c0_i32_123 : BitVec 32 := 0#32
  let v239 : Memref sig .scVector .shared S1x65536 .f32 := shW.slice (Rect.unit (s := S16x65536) (k0_off1 i) S1x65536.size (k0_off1_inb i)) (fun _ => rfl)
  let v240 : Memref sig .scVector .shared S65536 .f32 := rowM i
  Prog.lift (.enqueueDma v240 (.here v238) (.dma cc0_scratch4.sem) ((View.wordExact_bits rfl).reshape _ _) (View.wordExact_bits rfl) ⟨Or.inl rfl, trivial⟩)
  let v241 : BitVec 32 := v208
  let v242 : Memref sig .scVector .hbm S65536 .f32 := (pc2 i)
  let c0_i32_124 : BitVec 32 := 0#32
  let v243 : Memref sig .scVector .shared S1x65536 .f32 := shW.slice (Rect.unit (s := S16x65536) (k0_off1 i) S1x65536.size (k0_off1_inb i)) (fun _ => rfl)
  let v244 : Memref sig .scVector .shared S65536 .f32 := rowM i
  Prog.lift (.enqueueDma v244 (.here v242) (.dma cc0_scratch4.sem) ((View.wordExact_bits rfl).reshape _ _) (View.wordExact_bits rfl) ⟨Or.inl rfl, trivial⟩)
  let v245 : BitVec 32 := v214
  let v246 : Memref sig .scVector .hbm S65536 .f32 := (pc3 i)
  let c0_i32_125 : BitVec 32 := 0#32
  let v247 : Memref sig .scVector .shared S1x65536 .f32 := shW.slice (Rect.unit (s := S16x65536) (k0_off1 i) S1x65536.size (k0_off1_inb i)) (fun _ => rfl)
  let v248 : Memref sig .scVector .shared S65536 .f32 := rowM i
  Prog.lift (.enqueueDma v248 (.here v246) (.dma cc0_scratch4.sem) ((View.wordExact_bits rfl).reshape _ _) (View.wordExact_bits rfl) ⟨Or.inl rfl, trivial⟩)
  let v249 : BitVec 32 := v220
  let v250 : Memref sig .scVector .hbm S65536 .f32 := (pc4 i)
  let c0_i32_126 : BitVec 32 := 0#32
  let v251 : Memref sig .scVector .shared S1x65536 .f32 := shW.slice (Rect.unit (s := S16x65536) (k0_off1 i) S1x65536.size (k0_off1_inb i)) (fun _ => rfl)
  let v252 : Memref sig .scVector .shared S65536 .f32 := rowM i
  Prog.lift (.enqueueDma v252 (.here v250) (.dma cc0_scratch4.sem) ((View.wordExact_bits rfl).reshape _ _) (View.wordExact_bits rfl) ⟨Or.inl rfl, trivial⟩)
  let v253 : BitVec 32 := v226
  let v254 : Memref sig .scVector .hbm S65536 .f32 := (pc5 i)
  let c0_i32_127 : BitVec 32 := 0#32
  let v255 : Memref sig .scVector .shared S1x65536 .f32 := shW.slice (Rect.unit (s := S16x65536) (k0_off1 i) S1x65536.size (k0_off1_inb i)) (fun _ => rfl)
  let v256 : Memref sig .scVector .shared S65536 .f32 := rowM i
  Prog.lift (.enqueueDma v256 (.here v254) (.dma cc0_scratch4.sem) ((View.wordExact_bits rfl).reshape _ _) (View.wordExact_bits rfl) ⟨Or.inl rfl, trivial⟩)
  let v257 : BitVec 32 := v232
  let v258 : Memref sig .scVector .hbm S65536 .f32 := (pc6 i)
  let c0_i32_128 : BitVec 32 := 0#32
  let v259 : Memref sig .scVector .shared S1x65536 .f32 := shW.slice (Rect.unit (s := S16x65536) (k0_off1 i) S1x65536.size (k0_off1_inb i)) (fun _ => rfl)
  let v260 : Memref sig .scVector .shared S65536 .f32 := rowM i
  Prog.lift (.enqueueDma v260 (.here v258) (.dma cc0_scratch4.sem) ((View.wordExact_bits rfl).reshape _ _) (View.wordExact_bits rfl) ⟨Or.inl rfl, trivial⟩)
  let c2_i32_129 : BitVec 32 := 2#32
  let v261 : BitVec 32 := Scalar.divsi v1 c2_i32_129
  let c0_i32_130 : BitVec 32 := 0#32
  let v262 : BitVec 1 := Scalar.cmpi .sgt v1 c0_i32_130
  let v263 : BitVec 32 := Scalar.extui v262
  pure ⟨c2_i32_129, v261, v263⟩

noncomputable def q_part8 (i : grid0.Coords) (v1 : BitVec 32) (c2_i32_129 : BitVec 32) (v261 : BitVec 32) (v263 : BitVec 32) :
    Prog (TpuEff nD τ sig (Elt F) Λ₀ (.scVector ((i 0).castLE hcore0) ((i 1).castLE hsub0))) (Σ' (v277 : BitVec 32) (v289 : BitVec 32) (v290 : BitVec 32), BitVec 1) := do
  let c0_i32_131 : BitVec 32 := 0#32
  let v264 : BitVec 1 := Scalar.cmpi .slt v1 c0_i32_131
  let v265 : BitVec 32 := Scalar.extui v264
  let v266 : BitVec 32 := Scalar.subi v263 v265
  let c0_i32_132 : BitVec 32 := 0#32
  let v267 : BitVec 1 := Scalar.cmpi .sgt c2_i32_129 c0_i32_132
  let v268 : BitVec 32 := Scalar.extui v267
  let c0_i32_133 : BitVec 32 := 0#32
  let v269 : BitVec 1 := Scalar.cmpi .slt c2_i32_129 c0_i32_133
  let v270 : BitVec 32 := Scalar.extui v269
  let v271 : BitVec 32 := Scalar.subi v268 v270
  let v272 : BitVec 1 := Scalar.cmpi .ne v266 v271
  let v273 : BitVec 32 := Scalar.remsi v1 c2_i32_129
  let c0_i32_134 : BitVec 32 := 0#32
  let v274 : BitVec 1 := Scalar.cmpi .ne v273 c0_i32_134
  let v275 : BitVec 1 := Scalar.andi v272 v274
  let c1_i32_135 : BitVec 32 := 1#32
  let v276 : BitVec 32 := Scalar.subi v261 c1_i32_135
  let v277 : BitVec 32 := Scalar.select v275 v276 v261
  let c2_i32_136 : BitVec 32 := 2#32
  let c0_i32_137 : BitVec 32 := 0#32
  let v278 : BitVec 1 := Scalar.cmpi .eq c2_i32_136 c0_i32_137
  let c1_i32_138 : BitVec 32 := 1#32
  let v279 : BitVec 32 := Scalar.select v278 c1_i32_138 c2_i32_136
  let v280 : BitVec 32 := Scalar.remsi v1 v279
  let c0_i32_139 : BitVec 32 := 0#32
  let v281 : BitVec 1 := Scalar.cmpi .ne v280 c0_i32_139
  let c0_i32_140 : BitVec 32 := 0#32
  let v282 : BitVec 1 := Scalar.cmpi .slt v280 c0_i32_140
  let c0_i32_141 : BitVec 32 := 0#32
  let v283 : BitVec 1 := Scalar.cmpi .slt v279 c0_i32_141
  let v284 : BitVec 1 := Scalar.xori v282 v283
  let v285 : BitVec 1 := Scalar.andi v284 v281
  let v286 : BitVec 32 := Scalar.addi v280 v279
  let v287 : BitVec 32 := Scalar.select v285 v286 v280
  let c2_i32_142 : BitVec 32 := 2#32
  let v288 : BitVec 32 := Scalar.muli c2_i32_142 v287
  let c1_i32_143 : BitVec 32 := 1#32
  let v289 : BitVec 32 := Scalar.addi v288 c1_i32_143
  let c4_i32_144 : BitVec 32 := 4#32
  let v290 : BitVec 32 := Scalar.divsi v277 c4_i32_144
  let c0_i32_145 : BitVec 32 := 0#32
  let v291 : BitVec 1 := Scalar.cmpi .sgt v277 c0_i32_145
  let v292 : BitVec 32 := Scalar.extui v291
  let c0_i32_146 : BitVec 32 := 0#32
  let v293 : BitVec 1 := Scalar.cmpi .slt v277 c0_i32_146
  let v294 : BitVec 32 := Scalar.extui v293
  let v295 : BitVec 32 := Scalar.subi v292 v294
  let c0_i32_147 : BitVec 32 := 0#32
  let v296 : BitVec 1 := Scalar.cmpi .sgt c4_i32_144 c0_i32_147
  let v297 : BitVec 32 := Scalar.extui v296
  let c0_i32_148 : BitVec 32 := 0#32
  let v298 : BitVec 1 := Scalar.cmpi .slt c4_i32_144 c0_i32_148
  let v299 : BitVec 32 := Scalar.extui v298
  let v300 : BitVec 32 := Scalar.subi v297 v299
  let v301 : BitVec 1 := Scalar.cmpi .ne v295 v300
  let v302 : BitVec 32 := Scalar.remsi v277 c4_i32_144
  let c0_i32_149 : BitVec 32 := 0#32
  let v303 : BitVec 1 := Scalar.cmpi .ne v302 c0_i32_149
  let v304 : BitVec 1 := Scalar.andi v301 v303
  pure ⟨v277, v289, v290, v304⟩

noncomputable def q_part9 (i : grid0.Coords) (v277 : BitVec 32) (v289 : BitVec 32) (v290 : BitVec 32) (v304 : BitVec 1) :
    Prog (TpuEff nD τ sig (Elt F) Λ₀ (.scVector ((i 0).castLE hcore0) ((i 1).castLE hsub0))) (Σ' (v306 : BitVec 32) (v325 : BitVec 32) (v330 : BitVec 32), BitVec 32) := do
  let c1_i32_150 : BitVec 32 := 1#32
  let v305 : BitVec 32 := Scalar.subi v290 c1_i32_150
  let v306 : BitVec 32 := Scalar.select v304 v305 v290
  let c4_i32_151 : BitVec 32 := 4#32
  let c0_i32_152 : BitVec 32 := 0#32
  let v307 : BitVec 1 := Scalar.cmpi .eq c4_i32_151 c0_i32_152
  let c1_i32_153 : BitVec 32 := 1#32
  let v308 : BitVec 32 := Scalar.select v307 c1_i32_153 c4_i32_151
  let v309 : BitVec 32 := Scalar.remsi v277 v308
  let c0_i32_154 : BitVec 32 := 0#32
  let v310 : BitVec 1 := Scalar.cmpi .ne v309 c0_i32_154
  let c0_i32_155 : BitVec 32 := 0#32
  let v311 : BitVec 1 := Scalar.cmpi .slt v309 c0_i32_155
  let c0_i32_156 : BitVec 32 := 0#32
  let v312 : BitVec 1 := Scalar.cmpi .slt v308 c0_i32_156
  let v313 : BitVec 1 := Scalar.xori v311 v312
  let v314 : BitVec 1 := Scalar.andi v313 v310
  let v315 : BitVec 32 := Scalar.addi v309 v308
  let v316 : BitVec 32 := Scalar.select v314 v315 v309
  let c2_i32_157 : BitVec 32 := 2#32
  let v317 : BitVec 1 := Scalar.cmpi .slt v316 c2_i32_157
  let c6_i32_158 : BitVec 32 := 6#32
  let v318 : BitVec 32 := Scalar.addi c6_i32_158 v316
  let c3_i32_159 : BitVec 32 := 3#32
  let v319 : BitVec 32 := Scalar.muli c3_i32_159 v316
  let c4_i32_160 : BitVec 32 := 4#32
  let v320 : BitVec 32 := Scalar.subi v319 c4_i32_160
  let v321 : BitVec 32 := Scalar.select v317 v318 v320
  let c2_i32_161 : BitVec 32 := 2#32
  let v322 : BitVec 1 := Scalar.cmpi .slt v316 c2_i32_161
  let c9_i32_162 : BitVec 32 := 9#32
  let v323 : BitVec 32 := Scalar.addi c9_i32_162 v316
  let c37_i32_163 : BitVec 32 := 37#32
  let v324 : BitVec 32 := Scalar.addi c37_i32_163 v316
  let v325 : BitVec 32 := Scalar.select v322 v323 v324
  let c16_i32_164 : BitVec 32 := 16#32
  let v326 : BitVec 32 := Scalar.muli v306 c16_i32_164
  let v327 : BitVec 32 := Scalar.addi v326 v321
  let c4_i32_165 : BitVec 32 := 4#32
  let v328 : BitVec 32 := Scalar.muli v327 c4_i32_165
  let v329 : BitVec 32 := Scalar.addi v328 v289
  let c65536_i32_166 : BitVec 32 := 65536#32
  let v330 : BitVec 32 := Scalar.muli v329 c65536_i32_166
  let c60_i32_167 : BitVec 32 := 60#32
  let v331 : BitVec 32 := Scalar.muli v306 c60_i32_167
  let v332 : BitVec 32 := Scalar.addi v331 v325
  let c0_i32_168 : BitVec 32 := 0#32
  let v333 : BitVec 32 := Scalar.addi v332 c0_i32_168
  let c4_i32_169 : BitVec 32 := 4#32
  let v334 : BitVec 32 := Scalar.muli v333 c4_i32_169
  let v335 : BitVec 32 := Scalar.addi v334 v289
  let c65536_i32_170 : BitVec 32 := 65536#32
  let v336 : BitVec 32 := Scalar.muli v335 c65536_i32_170
  let c60_i32_171 : BitVec 32 := 60#32
  let v337 : BitVec 32 := Scalar.muli v306 c60_i32_171
  let v338 : BitVec 32 := Scalar.addi v337 v325
  let c3_i32_172 : BitVec 32 := 3#32
  let v339 : BitVec 32 := Scalar.addi v338 c3_i32_172
  let c4_i32_173 : BitVec 32 := 4#32
  let v340 : BitVec 32 := Scalar.muli v339 c4_i32_173
  pure ⟨v306, v325, v330, v340⟩

noncomputable def q_part10 (i : grid0.Coords) (v289 : BitVec 32) (v306 : BitVec 32) (v325 : BitVec 32) (v330 : BitVec 32) (v340 : BitVec 32) :
    Prog (TpuEff nD τ sig (Elt F) Λ₀ (.scVector ((i 0).castLE hcore0) ((i 1).castLE hsub0))) (PUnit) := do
  let v341 : BitVec 32 := Scalar.addi v340 v289
  let c65536_i32_174 : BitVec 32 := 65536#32
  let v342 : BitVec 32 := Scalar.muli v341 c65536_i32_174
  let c60_i32_175 : BitVec 32 := 60#32
  let v343 : BitVec 32 := Scalar.muli v306 c60_i32_175
  let v344 : BitVec 32 := Scalar.addi v343 v325
  let c6_i32_176 : BitVec 32 := 6#32
  let v345 : BitVec 32 := Scalar.addi v344 c6_i32_176
  let c4_i32_177 : BitVec 32 := 4#32
  let v346 : BitVec 32 := Scalar.muli v345 c4_i32_177
  let v347 : BitVec 32 := Scalar.addi v346 v289
  let c65536_i32_178 : BitVec 32 := 65536#32
  let v348 : BitVec 32 := Scalar.muli v347 c65536_i32_178
  let c60_i32_179 : BitVec 32 := 60#32
  let v349 : BitVec 32 := Scalar.muli v306 c60_i32_179
  let v350 : BitVec 32 := Scalar.addi v349 v325
  let c9_i32_180 : BitVec 32 := 9#32
  let v351 : BitVec 32 := Scalar.addi v350 c9_i32_180
  let c4_i32_181 : BitVec 32 := 4#32
  let v352 : BitVec 32 := Scalar.muli v351 c4_i32_181
  let v353 : BitVec 32 := Scalar.addi v352 v289
  let c65536_i32_182 : BitVec 32 := 65536#32
  let v354 : BitVec 32 := Scalar.muli v353 c65536_i32_182
  let c60_i32_183 : BitVec 32 := 60#32
  let v355 : BitVec 32 := Scalar.muli v306 c60_i32_183
  let v356 : BitVec 32 := Scalar.addi v355 v325
  let c12_i32_184 : BitVec 32 := 12#32
  let v357 : BitVec 32 := Scalar.addi v356 c12_i32_184
  let c4_i32_185 : BitVec 32 := 4#32
  let v358 : BitVec 32 := Scalar.muli v357 c4_i32_185
  let v359 : BitVec 32 := Scalar.addi v358 v289
  let c65536_i32_186 : BitVec 32 := 65536#32
  let v360 : BitVec 32 := Scalar.muli v359 c65536_i32_186
  let c60_i32_187 : BitVec 32 := 60#32
  let v361 : BitVec 32 := Scalar.muli v306 c60_i32_187
  let v362 : BitVec 32 := Scalar.addi v361 v325
  let c15_i32_188 : BitVec 32 := 15#32
  let v363 : BitVec 32 := Scalar.addi v362 c15_i32_188
  let c4_i32_189 : BitVec 32 := 4#32
  let v364 : BitVec 32 := Scalar.muli v363 c4_i32_189
  let v365 : BitVec 32 := Scalar.addi v364 v289
  let c65536_i32_190 : BitVec 32 := 65536#32
  let v366 : BitVec 32 := Scalar.muli v365 c65536_i32_190
  let c60_i32_191 : BitVec 32 := 60#32
  let v367 : BitVec 32 := Scalar.muli v306 c60_i32_191
  let v368 : BitVec 32 := Scalar.addi v367 v325
  let c18_i32_192 : BitVec 32 := 18#32
  let v369 : BitVec 32 := Scalar.addi v368 c18_i32_192
  let c4_i32_193 : BitVec 32 := 4#32
  let v370 : BitVec 32 := Scalar.muli v369 c4_i32_193
  let v371 : BitVec 32 := Scalar.addi v370 v289
  let c65536_i32_194 : BitVec 32 := 65536#32
  let v372 : BitVec 32 := Scalar.muli v371 c65536_i32_194
  let v373 : BitVec 32 := v330
  let v374 : Memref sig .scVector .hbm S65536 .f32 := (xw1 i)
  let v375 : Memref sig .scVector .hbm S65536 .f32 := (xw1 i)
  Prog.lift (.enqueueDma v375 (.here bW) (.dma cc0_scratch3.sem) (View.wordExact_bits rfl) (Memref.isWhole_whole _).wordExact ⟨Or.inl rfl, trivial⟩)
  let c0_i32_195 : BitVec 32 := 0#32
  let v376 : Memref sig .scVector .hbm S65536 .f32 := xW.slice (Rect.unit (s := S16777216) ![0] S65536.size inb_S16777216_S65536_0) (fun _ => rfl)
  let c0_i32_196 : BitVec 32 := 0#32
  pure ⟨⟩

noncomputable def q_part11 (i : grid0.Coords) (v1 : BitVec 32) :
    Prog (TpuEff nD τ sig (Elt F) Λ₀ (.scVector ((i 0).castLE hcore0) ((i 1).castLE hsub0))) (Σ' (v394 : BitVec 32) (v406 : BitVec 32) (c4_i32_212 : BitVec 32) (v407 : BitVec 32) (v412 : BitVec 32) (v414 : BitVec 32), BitVec 1) := do
  let v377 : Memref sig .scVector .hbm S65536 .f32 := xW.slice (Rect.unit (s := S16777216) ![0] S65536.size inb_S16777216_S65536_0) (fun _ => rfl)
  Prog.lift (.waitDma2 cc0_scratch3.sem v377 bW (View.wordExact_bits rfl) (Memref.isWhole_whole _).wordExact)
  let c2_i32_197 : BitVec 32 := 2#32
  let v378 : BitVec 32 := Scalar.divsi v1 c2_i32_197
  let c0_i32_198 : BitVec 32 := 0#32
  let v379 : BitVec 1 := Scalar.cmpi .sgt v1 c0_i32_198
  let v380 : BitVec 32 := Scalar.extui v379
  let c0_i32_199 : BitVec 32 := 0#32
  let v381 : BitVec 1 := Scalar.cmpi .slt v1 c0_i32_199
  let v382 : BitVec 32 := Scalar.extui v381
  let v383 : BitVec 32 := Scalar.subi v380 v382
  let c0_i32_200 : BitVec 32 := 0#32
  let v384 : BitVec 1 := Scalar.cmpi .sgt c2_i32_197 c0_i32_200
  let v385 : BitVec 32 := Scalar.extui v384
  let c0_i32_201 : BitVec 32 := 0#32
  let v386 : BitVec 1 := Scalar.cmpi .slt c2_i32_197 c0_i32_201
  let v387 : BitVec 32 := Scalar.extui v386
  let v388 : BitVec 32 := Scalar.subi v385 v387
  let v389 : BitVec 1 := Scalar.cmpi .ne v383 v388
  let v390 : BitVec 32 := Scalar.remsi v1 c2_i32_197
  let c0_i32_202 : BitVec 32 := 0#32
  let v391 : BitVec 1 := Scalar.cmpi .ne v390 c0_i32_202
  let v392 : BitVec 1 := Scalar.andi v389 v391
  let c1_i32_203 : BitVec 32 := 1#32
  let v393 : BitVec 32 := Scalar.subi v378 c1_i32_203
  let v394 : BitVec 32 := Scalar.select v392 v393 v378
  let c2_i32_204 : BitVec 32 := 2#32
  let c0_i32_205 : BitVec 32 := 0#32
  let v395 : BitVec 1 := Scalar.cmpi .eq c2_i32_204 c0_i32_205
  let c1_i32_206 : BitVec 32 := 1#32
  let v396 : BitVec 32 := Scalar.select v395 c1_i32_206 c2_i32_204
  let v397 : BitVec 32 := Scalar.remsi v1 v396
  let c0_i32_207 : BitVec 32 := 0#32
  let v398 : BitVec 1 := Scalar.cmpi .ne v397 c0_i32_207
  let c0_i32_208 : BitVec 32 := 0#32
  let v399 : BitVec 1 := Scalar.cmpi .slt v397 c0_i32_208
  let c0_i32_209 : BitVec 32 := 0#32
  let v400 : BitVec 1 := Scalar.cmpi .slt v396 c0_i32_209
  let v401 : BitVec 1 := Scalar.xori v399 v400
  let v402 : BitVec 1 := Scalar.andi v401 v398
  let v403 : BitVec 32 := Scalar.addi v397 v396
  let v404 : BitVec 32 := Scalar.select v402 v403 v397
  let c2_i32_210 : BitVec 32 := 2#32
  let v405 : BitVec 32 := Scalar.muli c2_i32_210 v404
  let c1_i32_211 : BitVec 32 := 1#32
  let v406 : BitVec 32 := Scalar.addi v405 c1_i32_211
  let c4_i32_212 : BitVec 32 := 4#32
  let v407 : BitVec 32 := Scalar.divsi v394 c4_i32_212
  let c0_i32_213 : BitVec 32 := 0#32
  let v408 : BitVec 1 := Scalar.cmpi .sgt v394 c0_i32_213
  let v409 : BitVec 32 := Scalar.extui v408
  let c0_i32_214 : BitVec 32 := 0#32
  let v410 : BitVec 1 := Scalar.cmpi .slt v394 c0_i32_214
  let v411 : BitVec 32 := Scalar.extui v410
  let v412 : BitVec 32 := Scalar.subi v409 v411
  let c0_i32_215 : BitVec 32 := 0#32
  let v413 : BitVec 1 := Scalar.cmpi .sgt c4_i32_212 c0_i32_215
  let v414 : BitVec 32 := Scalar.extui v413
  let c0_i32_216 : BitVec 32 := 0#32
  let v415 : BitVec 1 := Scalar.cmpi .slt c4_i32_212 c0_i32_216
  pure ⟨v394, v406, c4_i32_212, v407, v412, v414, v415⟩

noncomputable def q_part12 (i : grid0.Coords) (v394 : BitVec 32) (v406 : BitVec 32) (c4_i32_212 : BitVec 32) (v407 : BitVec 32) (v412 : BitVec 32) (v414 : BitVec 32) (v415 : BitVec 1) :
    Prog (TpuEff nD τ sig (Elt F) Λ₀ (.scVector ((i 0).castLE hcore0) ((i 1).castLE hsub0))) (Σ' (v423 : BitVec 32) (v442 : BitVec 32), BitVec 32) := do
  let v416 : BitVec 32 := Scalar.extui v415
  let v417 : BitVec 32 := Scalar.subi v414 v416
  let v418 : BitVec 1 := Scalar.cmpi .ne v412 v417
  let v419 : BitVec 32 := Scalar.remsi v394 c4_i32_212
  let c0_i32_217 : BitVec 32 := 0#32
  let v420 : BitVec 1 := Scalar.cmpi .ne v419 c0_i32_217
  let v421 : BitVec 1 := Scalar.andi v418 v420
  let c1_i32_218 : BitVec 32 := 1#32
  let v422 : BitVec 32 := Scalar.subi v407 c1_i32_218
  let v423 : BitVec 32 := Scalar.select v421 v422 v407
  let c4_i32_219 : BitVec 32 := 4#32
  let c0_i32_220 : BitVec 32 := 0#32
  let v424 : BitVec 1 := Scalar.cmpi .eq c4_i32_219 c0_i32_220
  let c1_i32_221 : BitVec 32 := 1#32
  let v425 : BitVec 32 := Scalar.select v424 c1_i32_221 c4_i32_219
  let v426 : BitVec 32 := Scalar.remsi v394 v425
  let c0_i32_222 : BitVec 32 := 0#32
  let v427 : BitVec 1 := Scalar.cmpi .ne v426 c0_i32_222
  let c0_i32_223 : BitVec 32 := 0#32
  let v428 : BitVec 1 := Scalar.cmpi .slt v426 c0_i32_223
  let c0_i32_224 : BitVec 32 := 0#32
  let v429 : BitVec 1 := Scalar.cmpi .slt v425 c0_i32_224
  let v430 : BitVec 1 := Scalar.xori v428 v429
  let v431 : BitVec 1 := Scalar.andi v430 v427
  let v432 : BitVec 32 := Scalar.addi v426 v425
  let v433 : BitVec 32 := Scalar.select v431 v432 v426
  let c2_i32_225 : BitVec 32 := 2#32
  let v434 : BitVec 1 := Scalar.cmpi .slt v433 c2_i32_225
  let c6_i32_226 : BitVec 32 := 6#32
  let v435 : BitVec 32 := Scalar.addi c6_i32_226 v433
  let c3_i32_227 : BitVec 32 := 3#32
  let v436 : BitVec 32 := Scalar.muli c3_i32_227 v433
  let c4_i32_228 : BitVec 32 := 4#32
  let v437 : BitVec 32 := Scalar.subi v436 c4_i32_228
  let v438 : BitVec 32 := Scalar.select v434 v435 v437
  let c2_i32_229 : BitVec 32 := 2#32
  let v439 : BitVec 1 := Scalar.cmpi .slt v433 c2_i32_229
  let c9_i32_230 : BitVec 32 := 9#32
  let v440 : BitVec 32 := Scalar.addi c9_i32_230 v433
  let c37_i32_231 : BitVec 32 := 37#32
  let v441 : BitVec 32 := Scalar.addi c37_i32_231 v433
  let v442 : BitVec 32 := Scalar.select v439 v440 v441
  let c16_i32_232 : BitVec 32 := 16#32
  let v443 : BitVec 32 := Scalar.muli v423 c16_i32_232
  let v444 : BitVec 32 := Scalar.addi v443 v438
  let c4_i32_233 : BitVec 32 := 4#32
  let v445 : BitVec 32 := Scalar.muli v444 c4_i32_233
  let v446 : BitVec 32 := Scalar.addi v445 v406
  let c65536_i32_234 : BitVec 32 := 65536#32
  let v447 : BitVec 32 := Scalar.muli v446 c65536_i32_234
  let c60_i32_235 : BitVec 32 := 60#32
  let v448 : BitVec 32 := Scalar.muli v423 c60_i32_235
  let v449 : BitVec 32 := Scalar.addi v448 v442
  let c0_i32_236 : BitVec 32 := 0#32
  let v450 : BitVec 32 := Scalar.addi v449 c0_i32_236
  let c4_i32_237 : BitVec 32 := 4#32
  let v451 : BitVec 32 := Scalar.muli v450 c4_i32_237
  let v452 : BitVec 32 := Scalar.addi v451 v406
  let c65536_i32_238 : BitVec 32 := 65536#32
  let v453 : BitVec 32 := Scalar.muli v452 c65536_i32_238
  pure ⟨v423, v442, v453⟩

noncomputable def q_part13 (i : grid0.Coords) (v406 : BitVec 32) (v423 : BitVec 32) (v442 : BitVec 32) :
    Prog (TpuEff nD τ sig (Elt F) Λ₀ (.scVector ((i 0).castLE hcore0) ((i 1).castLE hsub0))) (Σ' (v459 : BitVec 32) (v465 : BitVec 32) (v471 : BitVec 32) (v477 : BitVec 32) (v483 : BitVec 32), BitVec 32) := do
  let c60_i32_239 : BitVec 32 := 60#32
  let v454 : BitVec 32 := Scalar.muli v423 c60_i32_239
  let v455 : BitVec 32 := Scalar.addi v454 v442
  let c3_i32_240 : BitVec 32 := 3#32
  let v456 : BitVec 32 := Scalar.addi v455 c3_i32_240
  let c4_i32_241 : BitVec 32 := 4#32
  let v457 : BitVec 32 := Scalar.muli v456 c4_i32_241
  let v458 : BitVec 32 := Scalar.addi v457 v406
  let c65536_i32_242 : BitVec 32 := 65536#32
  let v459 : BitVec 32 := Scalar.muli v458 c65536_i32_242
  let c60_i32_243 : BitVec 32 := 60#32
  let v460 : BitVec 32 := Scalar.muli v423 c60_i32_243
  let v461 : BitVec 32 := Scalar.addi v460 v442
  let c6_i32_244 : BitVec 32 := 6#32
  let v462 : BitVec 32 := Scalar.addi v461 c6_i32_244
  let c4_i32_245 : BitVec 32 := 4#32
  let v463 : BitVec 32 := Scalar.muli v462 c4_i32_245
  let v464 : BitVec 32 := Scalar.addi v463 v406
  let c65536_i32_246 : BitVec 32 := 65536#32
  let v465 : BitVec 32 := Scalar.muli v464 c65536_i32_246
  let c60_i32_247 : BitVec 32 := 60#32
  let v466 : BitVec 32 := Scalar.muli v423 c60_i32_247
  let v467 : BitVec 32 := Scalar.addi v466 v442
  let c9_i32_248 : BitVec 32 := 9#32
  let v468 : BitVec 32 := Scalar.addi v467 c9_i32_248
  let c4_i32_249 : BitVec 32 := 4#32
  let v469 : BitVec 32 := Scalar.muli v468 c4_i32_249
  let v470 : BitVec 32 := Scalar.addi v469 v406
  let c65536_i32_250 : BitVec 32 := 65536#32
  let v471 : BitVec 32 := Scalar.muli v470 c65536_i32_250
  let c60_i32_251 : BitVec 32 := 60#32
  let v472 : BitVec 32 := Scalar.muli v423 c60_i32_251
  let v473 : BitVec 32 := Scalar.addi v472 v442
  let c12_i32_252 : BitVec 32 := 12#32
  let v474 : BitVec 32 := Scalar.addi v473 c12_i32_252
  let c4_i32_253 : BitVec 32 := 4#32
  let v475 : BitVec 32 := Scalar.muli v474 c4_i32_253
  let v476 : BitVec 32 := Scalar.addi v475 v406
  let c65536_i32_254 : BitVec 32 := 65536#32
  let v477 : BitVec 32 := Scalar.muli v476 c65536_i32_254
  let c60_i32_255 : BitVec 32 := 60#32
  let v478 : BitVec 32 := Scalar.muli v423 c60_i32_255
  let v479 : BitVec 32 := Scalar.addi v478 v442
  let c15_i32_256 : BitVec 32 := 15#32
  let v480 : BitVec 32 := Scalar.addi v479 c15_i32_256
  let c4_i32_257 : BitVec 32 := 4#32
  let v481 : BitVec 32 := Scalar.muli v480 c4_i32_257
  let v482 : BitVec 32 := Scalar.addi v481 v406
  let c65536_i32_258 : BitVec 32 := 65536#32
  let v483 : BitVec 32 := Scalar.muli v482 c65536_i32_258
  let c60_i32_259 : BitVec 32 := 60#32
  let v484 : BitVec 32 := Scalar.muli v423 c60_i32_259
  let v485 : BitVec 32 := Scalar.addi v484 v442
  let c18_i32_260 : BitVec 32 := 18#32
  let v486 : BitVec 32 := Scalar.addi v485 c18_i32_260
  let c4_i32_261 : BitVec 32 := 4#32
  let v487 : BitVec 32 := Scalar.muli v486 c4_i32_261
  let v488 : BitVec 32 := Scalar.addi v487 v406
  let c65536_i32_262 : BitVec 32 := 65536#32
  let v489 : BitVec 32 := Scalar.muli v488 c65536_i32_262
  pure ⟨v459, v465, v471, v477, v483, v489⟩

noncomputable def q_part14 (i : grid0.Coords) (v453 : BitVec 32) (v459 : BitVec 32) (v465 : BitVec 32) (v471 : BitVec 32) (v477 : BitVec 32) (v483 : BitVec 32) (v489 : BitVec 32) :
    Prog (TpuEff nD τ sig (Elt F) Λ₀ (.scVector ((i 0).castLE hcore0) ((i 1).castLE hsub0))) (PUnit) := do
  let v490 : BitVec 32 := v453
  let v491 : Memref sig .scVector .hbm S65536 .f32 := (pc7 i)
  let v492 : Memref sig .scVector .hbm S65536 .f32 := (pc7 i)
  Prog.lift (.enqueueDma bW (.here v492) (.dma cc0_scratch5.sem) (Memref.isWhole_whole _).wordExact (View.wordExact_bits rfl) ⟨Or.inl rfl, trivial⟩)
  let v493 : BitVec 32 := v459
  let v494 : Memref sig .scVector .hbm S65536 .f32 := (pc8 i)
  let v495 : Memref sig .scVector .hbm S65536 .f32 := (pc8 i)
  Prog.lift (.enqueueDma bW (.here v495) (.dma cc0_scratch5.sem) (Memref.isWhole_whole _).wordExact (View.wordExact_bits rfl) ⟨Or.inl rfl, trivial⟩)
  let v496 : BitVec 32 := v465
  let v497 : Memref sig .scVector .hbm S65536 .f32 := (pc9 i)
  let v498 : Memref sig .scVector .hbm S65536 .f32 := (pc9 i)
  Prog.lift (.enqueueDma bW (.here v498) (.dma cc0_scratch5.sem) (Memref.isWhole_whole _).wordExact (View.wordExact_bits rfl) ⟨Or.inl rfl, trivial⟩)
  let v499 : BitVec 32 := v471
  let v500 : Memref sig .scVector .hbm S65536 .f32 := (pc10 i)
  let v501 : Memref sig .scVector .hbm S65536 .f32 := (pc10 i)
  Prog.lift (.enqueueDma bW (.here v501) (.dma cc0_scratch5.sem) (Memref.isWhole_whole _).wordExact (View.wordExact_bits rfl) ⟨Or.inl rfl, trivial⟩)
  let v502 : BitVec 32 := v477
  let v503 : Memref sig .scVector .hbm S65536 .f32 := (pc11 i)
  let v504 : Memref sig .scVector .hbm S65536 .f32 := (pc11 i)
  Prog.lift (.enqueueDma bW (.here v504) (.dma cc0_scratch5.sem) (Memref.isWhole_whole _).wordExact (View.wordExact_bits rfl) ⟨Or.inl rfl, trivial⟩)
  let v505 : BitVec 32 := v483
  let v506 : Memref sig .scVector .hbm S65536 .f32 := (pc12 i)
  let v507 : Memref sig .scVector .hbm S65536 .f32 := (pc12 i)
  Prog.lift (.enqueueDma bW (.here v507) (.dma cc0_scratch5.sem) (Memref.isWhole_whole _).wordExact (View.wordExact_bits rfl) ⟨Or.inl rfl, trivial⟩)
  let v508 : BitVec 32 := v489
  let v509 : Memref sig .scVector .hbm S65536 .f32 := (pc13 i)
  let v510 : Memref sig .scVector .hbm S65536 .f32 := (pc13 i)
  Prog.lift (.enqueueDma bW (.here v510) (.dma cc0_scratch5.sem) (Memref.isWhole_whole _).wordExact (View.wordExact_bits rfl) ⟨Or.inl rfl, trivial⟩)
  let c0_i32_263 : BitVec 32 := 0#32
  let v511 : Memref sig .scVector .hbm S65536 .f32 := oW.slice (Rect.unit (s := S62914560) ![0] S65536.size inb_S62914560_S65536_0) (fun _ => rfl)
  let c0_i32_264 : BitVec 32 := 0#32
  let v512 : Memref sig .scVector .shared S1x65536 .f32 := shW.slice (Rect.unit (s := S16x65536) (k0_off1 i) S1x65536.size (k0_off1_inb i)) (fun _ => rfl)
  let v513 : Memref sig .scVector .shared S65536 .f32 := rowM i
  Prog.lift (.waitDma2 cc0_scratch4.sem v513 v511 ((View.wordExact_bits rfl).reshape _ _) (View.wordExact_bits rfl))
  let c0_i32_265 : BitVec 32 := 0#32
  let v514 : Memref sig .scVector .hbm S65536 .f32 := oW.slice (Rect.unit (s := S62914560) ![0] S65536.size inb_S62914560_S65536_0) (fun _ => rfl)
  let c0_i32_266 : BitVec 32 := 0#32
  let v515 : Memref sig .scVector .shared S1x65536 .f32 := shW.slice (Rect.unit (s := S16x65536) (k0_off1 i) S1x65536.size (k0_off1_inb i)) (fun _ => rfl)
  let v516 : Memref sig .scVector .shared S65536 .f32 := rowM i
  Prog.lift (.waitDma2 cc0_scratch4.sem v516 v514 ((View.wordExact_bits rfl).reshape _ _) (View.wordExact_bits rfl))
  let c0_i32_267 : BitVec 32 := 0#32
  let v517 : Memref sig .scVector .hbm S65536 .f32 := oW.slice (Rect.unit (s := S62914560) ![0] S65536.size inb_S62914560_S65536_0) (fun _ => rfl)
  let c0_i32_268 : BitVec 32 := 0#32
  let v518 : Memref sig .scVector .shared S1x65536 .f32 := shW.slice (Rect.unit (s := S16x65536) (k0_off1 i) S1x65536.size (k0_off1_inb i)) (fun _ => rfl)
  let v519 : Memref sig .scVector .shared S65536 .f32 := rowM i
  Prog.lift (.waitDma2 cc0_scratch4.sem v519 v517 ((View.wordExact_bits rfl).reshape _ _) (View.wordExact_bits rfl))
  let c0_i32_269 : BitVec 32 := 0#32
  let v520 : Memref sig .scVector .hbm S65536 .f32 := oW.slice (Rect.unit (s := S62914560) ![0] S65536.size inb_S62914560_S65536_0) (fun _ => rfl)
  let c0_i32_270 : BitVec 32 := 0#32
  let v521 : Memref sig .scVector .shared S1x65536 .f32 := shW.slice (Rect.unit (s := S16x65536) (k0_off1 i) S1x65536.size (k0_off1_inb i)) (fun _ => rfl)
  let v522 : Memref sig .scVector .shared S65536 .f32 := rowM i
  Prog.lift (.waitDma2 cc0_scratch4.sem v522 v520 ((View.wordExact_bits rfl).reshape _ _) (View.wordExact_bits rfl))
  let c0_i32_271 : BitVec 32 := 0#32
  let v523 : Memref sig .scVector .hbm S65536 .f32 := oW.slice (Rect.unit (s := S62914560) ![0] S65536.size inb_S62914560_S65536_0) (fun _ => rfl)
  let c0_i32_272 : BitVec 32 := 0#32
  let v524 : Memref sig .scVector .shared S1x65536 .f32 := shW.slice (Rect.unit (s := S16x65536) (k0_off1 i) S1x65536.size (k0_off1_inb i)) (fun _ => rfl)
  let v525 : Memref sig .scVector .shared S65536 .f32 := rowM i
  Prog.lift (.waitDma2 cc0_scratch4.sem v525 v523 ((View.wordExact_bits rfl).reshape _ _) (View.wordExact_bits rfl))
  let c0_i32_273 : BitVec 32 := 0#32
  let v526 : Memref sig .scVector .hbm S65536 .f32 := oW.slice (Rect.unit (s := S62914560) ![0] S65536.size inb_S62914560_S65536_0) (fun _ => rfl)
  pure ⟨⟩

noncomputable def q_part15 (i : grid0.Coords) (v1 : BitVec 32) :
    Prog (TpuEff nD τ sig (Elt F) Λ₀ (.scVector ((i 0).castLE hcore0) ((i 1).castLE hsub0))) (Σ' (v550 : BitVec 32) (v560 : BitVec 32) (v563 : BitVec 32), BitVec 32) := do
  let c0_i32_274 : BitVec 32 := 0#32
  let v527 : Memref sig .scVector .shared S1x65536 .f32 := shW.slice (Rect.unit (s := S16x65536) (k0_off1 i) S1x65536.size (k0_off1_inb i)) (fun _ => rfl)
  let v528 : Memref sig .scVector .shared S65536 .f32 := rowM i
  let v526 : Memref sig .scVector .hbm S65536 .f32 := oW.slice (Rect.unit (s := S62914560) ![0] S65536.size inb_S62914560_S65536_0) (fun _ => rfl)
  Prog.lift (.waitDma2 cc0_scratch4.sem v528 v526 ((View.wordExact_bits rfl).reshape _ _) (View.wordExact_bits rfl))
  let c0_i32_275 : BitVec 32 := 0#32
  let v529 : Memref sig .scVector .hbm S65536 .f32 := oW.slice (Rect.unit (s := S62914560) ![0] S65536.size inb_S62914560_S65536_0) (fun _ => rfl)
  let c0_i32_276 : BitVec 32 := 0#32
  let v530 : Memref sig .scVector .shared S1x65536 .f32 := shW.slice (Rect.unit (s := S16x65536) (k0_off1 i) S1x65536.size (k0_off1_inb i)) (fun _ => rfl)
  let v531 : Memref sig .scVector .shared S65536 .f32 := rowM i
  Prog.lift (.waitDma2 cc0_scratch4.sem v531 v529 ((View.wordExact_bits rfl).reshape _ _) (View.wordExact_bits rfl))
  let c2_i32_277 : BitVec 32 := 2#32
  let v532 : BitVec 32 := Scalar.muli c2_i32_277 v1
  let c0_i32_278 : BitVec 32 := 0#32
  let v533 : BitVec 32 := Scalar.addi v532 c0_i32_278
  let c16_i32_279 : BitVec 32 := 16#32
  let v534 : BitVec 32 := Scalar.divsi v533 c16_i32_279
  let c0_i32_280 : BitVec 32 := 0#32
  let v535 : BitVec 1 := Scalar.cmpi .sgt v533 c0_i32_280
  let v536 : BitVec 32 := Scalar.extui v535
  let c0_i32_281 : BitVec 32 := 0#32
  let v537 : BitVec 1 := Scalar.cmpi .slt v533 c0_i32_281
  let v538 : BitVec 32 := Scalar.extui v537
  let v539 : BitVec 32 := Scalar.subi v536 v538
  let c0_i32_282 : BitVec 32 := 0#32
  let v540 : BitVec 1 := Scalar.cmpi .sgt c16_i32_279 c0_i32_282
  let v541 : BitVec 32 := Scalar.extui v540
  let c0_i32_283 : BitVec 32 := 0#32
  let v542 : BitVec 1 := Scalar.cmpi .slt c16_i32_279 c0_i32_283
  let v543 : BitVec 32 := Scalar.extui v542
  let v544 : BitVec 32 := Scalar.subi v541 v543
  let v545 : BitVec 1 := Scalar.cmpi .ne v539 v544
  let v546 : BitVec 32 := Scalar.remsi v533 c16_i32_279
  let c0_i32_284 : BitVec 32 := 0#32
  let v547 : BitVec 1 := Scalar.cmpi .ne v546 c0_i32_284
  let v548 : BitVec 1 := Scalar.andi v545 v547
  let c1_i32_285 : BitVec 32 := 1#32
  let v549 : BitVec 32 := Scalar.subi v534 c1_i32_285
  let v550 : BitVec 32 := Scalar.select v548 v549 v534
  let c16_i32_286 : BitVec 32 := 16#32
  let c0_i32_287 : BitVec 32 := 0#32
  let v551 : BitVec 1 := Scalar.cmpi .eq c16_i32_286 c0_i32_287
  let c1_i32_288 : BitVec 32 := 1#32
  let v552 : BitVec 32 := Scalar.select v551 c1_i32_288 c16_i32_286
  let v553 : BitVec 32 := Scalar.remsi v533 v552
  let c0_i32_289 : BitVec 32 := 0#32
  let v554 : BitVec 1 := Scalar.cmpi .ne v553 c0_i32_289
  let c0_i32_290 : BitVec 32 := 0#32
  let v555 : BitVec 1 := Scalar.cmpi .slt v553 c0_i32_290
  let c0_i32_291 : BitVec 32 := 0#32
  let v556 : BitVec 1 := Scalar.cmpi .slt v552 c0_i32_291
  let v557 : BitVec 1 := Scalar.xori v555 v556
  let v558 : BitVec 1 := Scalar.andi v557 v554
  let v559 : BitVec 32 := Scalar.addi v553 v552
  let v560 : BitVec 32 := Scalar.select v558 v559 v553
  let c16_i32_292 : BitVec 32 := 16#32
  let v561 : BitVec 32 := Scalar.muli v550 c16_i32_292
  let v562 : BitVec 32 := Scalar.addi v561 v560
  let c4_i32_293 : BitVec 32 := 4#32
  let v563 : BitVec 32 := Scalar.muli v562 c4_i32_293
  let c0_i32_294 : BitVec 32 := 0#32
  pure ⟨v550, v560, v563, c0_i32_294⟩

noncomputable def q_part16 (i : grid0.Coords) (v560 : BitVec 32) (v563 : BitVec 32) (c0_i32_294 : BitVec 32) :
    Prog (TpuEff nD τ sig (Elt F) Λ₀ (.scVector ((i 0).castLE hcore0) ((i 1).castLE hsub0))) (Σ' (v565 : BitVec 32) (v569 : BitVec 32) (v570 : BitVec 1) (v600 : BitVec 32) (v601 : BitVec 32), BitVec 32) := do
  let v564 : BitVec 32 := Scalar.addi v563 c0_i32_294
  let c65536_i32_295 : BitVec 32 := 65536#32
  let v565 : BitVec 32 := Scalar.muli v564 c65536_i32_295
  let c9_i32_296 : BitVec 32 := 9#32
  let v566 : BitVec 1 := Scalar.cmpi .slt v560 c9_i32_296
  let c3_i32_297 : BitVec 32 := 3#32
  let v567 : BitVec 32 := Scalar.muli c3_i32_297 v560
  let c16_i32_298 : BitVec 32 := 16#32
  let v568 : BitVec 32 := Scalar.subi v567 c16_i32_298
  let v569 : BitVec 32 := Scalar.select v566 v560 v568
  let c9_i32_299 : BitVec 32 := 9#32
  let v570 : BitVec 1 := Scalar.cmpi .slt v560 c9_i32_299
  let c3_i32_300 : BitVec 32 := 3#32
  let c0_i32_301 : BitVec 32 := 0#32
  let v571 : BitVec 1 := Scalar.cmpi .eq c3_i32_300 c0_i32_301
  let c1_i32_302 : BitVec 32 := 1#32
  let v572 : BitVec 32 := Scalar.select v571 c1_i32_302 c3_i32_300
  let v573 : BitVec 32 := Scalar.remsi v560 v572
  let c0_i32_303 : BitVec 32 := 0#32
  let v574 : BitVec 1 := Scalar.cmpi .ne v573 c0_i32_303
  let c0_i32_304 : BitVec 32 := 0#32
  let v575 : BitVec 1 := Scalar.cmpi .slt v573 c0_i32_304
  let c0_i32_305 : BitVec 32 := 0#32
  let v576 : BitVec 1 := Scalar.cmpi .slt v572 c0_i32_305
  let v577 : BitVec 1 := Scalar.xori v575 v576
  let v578 : BitVec 1 := Scalar.andi v577 v574
  let v579 : BitVec 32 := Scalar.addi v573 v572
  let v580 : BitVec 32 := Scalar.select v578 v579 v573
  let c3_i32_306 : BitVec 32 := 3#32
  let v581 : BitVec 32 := Scalar.muli c3_i32_306 v580
  let c30_i32 : BitVec 32 := 30#32
  let v582 : BitVec 32 := Scalar.addi c30_i32 v581
  let c3_i32_307 : BitVec 32 := 3#32
  let v583 : BitVec 32 := Scalar.divsi v560 c3_i32_307
  let c0_i32_308 : BitVec 32 := 0#32
  let v584 : BitVec 1 := Scalar.cmpi .sgt v560 c0_i32_308
  let v585 : BitVec 32 := Scalar.extui v584
  let c0_i32_309 : BitVec 32 := 0#32
  let v586 : BitVec 1 := Scalar.cmpi .slt v560 c0_i32_309
  let v587 : BitVec 32 := Scalar.extui v586
  let v588 : BitVec 32 := Scalar.subi v585 v587
  let c0_i32_310 : BitVec 32 := 0#32
  let v589 : BitVec 1 := Scalar.cmpi .sgt c3_i32_307 c0_i32_310
  let v590 : BitVec 32 := Scalar.extui v589
  let c0_i32_311 : BitVec 32 := 0#32
  let v591 : BitVec 1 := Scalar.cmpi .slt c3_i32_307 c0_i32_311
  let v592 : BitVec 32 := Scalar.extui v591
  let v593 : BitVec 32 := Scalar.subi v590 v592
  let v594 : BitVec 1 := Scalar.cmpi .ne v588 v593
  let v595 : BitVec 32 := Scalar.remsi v560 c3_i32_307
  let c0_i32_312 : BitVec 32 := 0#32
  let v596 : BitVec 1 := Scalar.cmpi .ne v595 c0_i32_312
  let v597 : BitVec 1 := Scalar.andi v594 v596
  let c1_i32_313 : BitVec 32 := 1#32
  let v598 : BitVec 32 := Scalar.subi v583 c1_i32_313
  let v599 : BitVec 32 := Scalar.select v597 v598 v583
  let v600 : BitVec 32 := Scalar.addi v582 v599
  let c3_i32_314 : BitVec 32 := 3#32
  let v601 : BitVec 32 := Scalar.muli c3_i32_314 v560
  let c14_i32 : BitVec 32 := 14#32
  pure ⟨v565, v569, v570, v600, v601, c14_i32⟩

noncomputable def q_part17 (i : grid0.Coords) (v1 : BitVec 32) (v550 : BitVec 32) (v565 : BitVec 32) (v569 : BitVec 32) (v570 : BitVec 1) (v600 : BitVec 32) (v601 : BitVec 32) (c14_i32 : BitVec 32) :
    Prog (TpuEff nD τ sig (Elt F) Λ₀ (.scVector ((i 0).castLE hcore0) ((i 1).castLE hsub0))) (Σ' (v622 : BitVec 32), BitVec 32) := do
  let v602 : BitVec 32 := Scalar.addi v601 c14_i32
  let v603 : BitVec 32 := Scalar.select v570 v600 v602
  let c60_i32_315 : BitVec 32 := 60#32
  let v604 : BitVec 32 := Scalar.muli v550 c60_i32_315
  let v605 : BitVec 32 := Scalar.addi v604 v569
  let c4_i32_316 : BitVec 32 := 4#32
  let v606 : BitVec 32 := Scalar.muli v605 c4_i32_316
  let c0_i32_317 : BitVec 32 := 0#32
  let v607 : BitVec 32 := Scalar.addi v606 c0_i32_317
  let c65536_i32_318 : BitVec 32 := 65536#32
  let v608 : BitVec 32 := Scalar.muli v607 c65536_i32_318
  let c60_i32_319 : BitVec 32 := 60#32
  let v609 : BitVec 32 := Scalar.muli v550 c60_i32_319
  let v610 : BitVec 32 := Scalar.addi v609 v603
  let c4_i32_320 : BitVec 32 := 4#32
  let v611 : BitVec 32 := Scalar.muli v610 c4_i32_320
  let c0_i32_321 : BitVec 32 := 0#32
  let v612 : BitVec 32 := Scalar.addi v611 c0_i32_321
  let c65536_i32_322 : BitVec 32 := 65536#32
  let v613 : BitVec 32 := Scalar.muli v612 c65536_i32_322
  let v614 : BitVec 32 := v565
  let c0_i32_323 : BitVec 32 := 0#32
  let v615 : Memref sig .scVector .shared S1x65536 .f32 := shW.slice (Rect.unit (s := S16x65536) (k0_off1 i) S1x65536.size (k0_off1_inb i)) (fun _ => rfl)
  let v616 : Memref sig .scVector .shared S65536 .f32 := rowM i
  let v617 : Memref sig .scVector .hbm S65536 .f32 := (xw2 i)
  Prog.lift (.enqueueDma v617 (.here v616) (.dma cc0_scratch2.sem) (View.wordExact_bits rfl) ((View.wordExact_bits rfl).reshape _ _) ⟨Or.inl rfl, trivial⟩)
  let c0_i32_324 : BitVec 32 := 0#32
  let v618 : Memref sig .scVector .shared S1x65536 .f32 := shW.slice (Rect.unit (s := S16x65536) (k0_off1 i) S1x65536.size (k0_off1_inb i)) (fun _ => rfl)
  let v619 : Memref sig .scVector .shared S65536 .f32 := rowM i
  let c0_i32_325 : BitVec 32 := 0#32
  let v620 : Memref sig .scVector .hbm S65536 .f32 := xW.slice (Rect.unit (s := S16777216) ![0] S65536.size inb_S16777216_S65536_0) (fun _ => rfl)
  Prog.lift (.waitDma2 cc0_scratch2.sem v620 v619 (View.wordExact_bits rfl) ((View.wordExact_bits rfl).reshape _ _))
  let c2_i32_326 : BitVec 32 := 2#32
  let v621 : BitVec 32 := Scalar.muli c2_i32_326 v1
  let c0_i32_327 : BitVec 32 := 0#32
  let v622 : BitVec 32 := Scalar.addi v621 c0_i32_327
  let c16_i32_328 : BitVec 32 := 16#32
  let v623 : BitVec 32 := Scalar.divsi v622 c16_i32_328
  let c0_i32_329 : BitVec 32 := 0#32
  let v624 : BitVec 1 := Scalar.cmpi .sgt v622 c0_i32_329
  let v625 : BitVec 32 := Scalar.extui v624
  let c0_i32_330 : BitVec 32 := 0#32
  let v626 : BitVec 1 := Scalar.cmpi .slt v622 c0_i32_330
  let v627 : BitVec 32 := Scalar.extui v626
  let v628 : BitVec 32 := Scalar.subi v625 v627
  let c0_i32_331 : BitVec 32 := 0#32
  let v629 : BitVec 1 := Scalar.cmpi .sgt c16_i32_328 c0_i32_331
  let v630 : BitVec 32 := Scalar.extui v629
  let c0_i32_332 : BitVec 32 := 0#32
  let v631 : BitVec 1 := Scalar.cmpi .slt c16_i32_328 c0_i32_332
  let v632 : BitVec 32 := Scalar.extui v631
  let v633 : BitVec 32 := Scalar.subi v630 v632
  let v634 : BitVec 1 := Scalar.cmpi .ne v628 v633
  let v635 : BitVec 32 := Scalar.remsi v622 c16_i32_328
  let c0_i32_333 : BitVec 32 := 0#32
  let v636 : BitVec 1 := Scalar.cmpi .ne v635 c0_i32_333
  let v637 : BitVec 1 := Scalar.andi v634 v636
  let c1_i32_334 : BitVec 32 := 1#32
  let v638 : BitVec 32 := Scalar.subi v623 c1_i32_334
  let v639 : BitVec 32 := Scalar.select v637 v638 v623
  pure ⟨v622, v639⟩

noncomputable def q_part18 (i : grid0.Coords) (v622 : BitVec 32) (v639 : BitVec 32) :
    Prog (TpuEff nD τ sig (Elt F) Λ₀ (.scVector ((i 0).castLE hcore0) ((i 1).castLE hsub0))) (Σ' (v649 : BitVec 32) (v658 : BitVec 32) (v659 : BitVec 1) (v671 : BitVec 32) (c3_i32_357 : BitVec 32) (v672 : BitVec 32) (v674 : BitVec 32), BitVec 32) := do
  let c16_i32_335 : BitVec 32 := 16#32
  let c0_i32_336 : BitVec 32 := 0#32
  let v640 : BitVec 1 := Scalar.cmpi .eq c16_i32_335 c0_i32_336
  let c1_i32_337 : BitVec 32 := 1#32
  let v641 : BitVec 32 := Scalar.select v640 c1_i32_337 c16_i32_335
  let v642 : BitVec 32 := Scalar.remsi v622 v641
  let c0_i32_338 : BitVec 32 := 0#32
  let v643 : BitVec 1 := Scalar.cmpi .ne v642 c0_i32_338
  let c0_i32_339 : BitVec 32 := 0#32
  let v644 : BitVec 1 := Scalar.cmpi .slt v642 c0_i32_339
  let c0_i32_340 : BitVec 32 := 0#32
  let v645 : BitVec 1 := Scalar.cmpi .slt v641 c0_i32_340
  let v646 : BitVec 1 := Scalar.xori v644 v645
  let v647 : BitVec 1 := Scalar.andi v646 v643
  let v648 : BitVec 32 := Scalar.addi v642 v641
  let v649 : BitVec 32 := Scalar.select v647 v648 v642
  let c16_i32_341 : BitVec 32 := 16#32
  let v650 : BitVec 32 := Scalar.muli v639 c16_i32_341
  let v651 : BitVec 32 := Scalar.addi v650 v649
  let c4_i32_342 : BitVec 32 := 4#32
  let v652 : BitVec 32 := Scalar.muli v651 c4_i32_342
  let c0_i32_343 : BitVec 32 := 0#32
  let v653 : BitVec 32 := Scalar.addi v652 c0_i32_343
  let c65536_i32_344 : BitVec 32 := 65536#32
  let v654 : BitVec 32 := Scalar.muli v653 c65536_i32_344
  let c9_i32_345 : BitVec 32 := 9#32
  let v655 : BitVec 1 := Scalar.cmpi .slt v649 c9_i32_345
  let c3_i32_346 : BitVec 32 := 3#32
  let v656 : BitVec 32 := Scalar.muli c3_i32_346 v649
  let c16_i32_347 : BitVec 32 := 16#32
  let v657 : BitVec 32 := Scalar.subi v656 c16_i32_347
  let v658 : BitVec 32 := Scalar.select v655 v649 v657
  let c9_i32_348 : BitVec 32 := 9#32
  let v659 : BitVec 1 := Scalar.cmpi .slt v649 c9_i32_348
  let c3_i32_349 : BitVec 32 := 3#32
  let c0_i32_350 : BitVec 32 := 0#32
  let v660 : BitVec 1 := Scalar.cmpi .eq c3_i32_349 c0_i32_350
  let c1_i32_351 : BitVec 32 := 1#32
  let v661 : BitVec 32 := Scalar.select v660 c1_i32_351 c3_i32_349
  let v662 : BitVec 32 := Scalar.remsi v649 v661
  let c0_i32_352 : BitVec 32 := 0#32
  let v663 : BitVec 1 := Scalar.cmpi .ne v662 c0_i32_352
  let c0_i32_353 : BitVec 32 := 0#32
  let v664 : BitVec 1 := Scalar.cmpi .slt v662 c0_i32_353
  let c0_i32_354 : BitVec 32 := 0#32
  let v665 : BitVec 1 := Scalar.cmpi .slt v661 c0_i32_354
  let v666 : BitVec 1 := Scalar.xori v664 v665
  let v667 : BitVec 1 := Scalar.andi v666 v663
  let v668 : BitVec 32 := Scalar.addi v662 v661
  let v669 : BitVec 32 := Scalar.select v667 v668 v662
  let c3_i32_355 : BitVec 32 := 3#32
  let v670 : BitVec 32 := Scalar.muli c3_i32_355 v669
  let c30_i32_356 : BitVec 32 := 30#32
  let v671 : BitVec 32 := Scalar.addi c30_i32_356 v670
  let c3_i32_357 : BitVec 32 := 3#32
  let v672 : BitVec 32 := Scalar.divsi v649 c3_i32_357
  let c0_i32_358 : BitVec 32 := 0#32
  let v673 : BitVec 1 := Scalar.cmpi .sgt v649 c0_i32_358
  let v674 : BitVec 32 := Scalar.extui v673
  let c0_i32_359 : BitVec 32 := 0#32
  pure ⟨v649, v658, v659, v671, c3_i32_357, v672, v674, c0_i32_359⟩

noncomputable def q_part19 (i : grid0.Coords) (v639 : BitVec 32) (v649 : BitVec 32) (v658 : BitVec 32) (v659 : BitVec 1) (v671 : BitVec 32) (c3_i32_357 : BitVec 32) (v672 : BitVec 32) (v674 : BitVec 32) (c0_i32_359 : BitVec 32) :
    Prog (TpuEff nD τ sig (Elt F) Λ₀ (.scVector ((i 0).castLE hcore0) ((i 1).castLE hsub0))) (PUnit) := do
  let v675 : BitVec 1 := Scalar.cmpi .slt v649 c0_i32_359
  let v676 : BitVec 32 := Scalar.extui v675
  let v677 : BitVec 32 := Scalar.subi v674 v676
  let c0_i32_360 : BitVec 32 := 0#32
  let v678 : BitVec 1 := Scalar.cmpi .sgt c3_i32_357 c0_i32_360
  let v679 : BitVec 32 := Scalar.extui v678
  let c0_i32_361 : BitVec 32 := 0#32
  let v680 : BitVec 1 := Scalar.cmpi .slt c3_i32_357 c0_i32_361
  let v681 : BitVec 32 := Scalar.extui v680
  let v682 : BitVec 32 := Scalar.subi v679 v681
  let v683 : BitVec 1 := Scalar.cmpi .ne v677 v682
  let v684 : BitVec 32 := Scalar.remsi v649 c3_i32_357
  let c0_i32_362 : BitVec 32 := 0#32
  let v685 : BitVec 1 := Scalar.cmpi .ne v684 c0_i32_362
  let v686 : BitVec 1 := Scalar.andi v683 v685
  let c1_i32_363 : BitVec 32 := 1#32
  let v687 : BitVec 32 := Scalar.subi v672 c1_i32_363
  let v688 : BitVec 32 := Scalar.select v686 v687 v672
  let v689 : BitVec 32 := Scalar.addi v671 v688
  let c3_i32_364 : BitVec 32 := 3#32
  let v690 : BitVec 32 := Scalar.muli c3_i32_364 v649
  let c14_i32_365 : BitVec 32 := 14#32
  let v691 : BitVec 32 := Scalar.addi v690 c14_i32_365
  let v692 : BitVec 32 := Scalar.select v659 v689 v691
  let c60_i32_366 : BitVec 32 := 60#32
  let v693 : BitVec 32 := Scalar.muli v639 c60_i32_366
  let v694 : BitVec 32 := Scalar.addi v693 v658
  let c4_i32_367 : BitVec 32 := 4#32
  let v695 : BitVec 32 := Scalar.muli v694 c4_i32_367
  let c0_i32_368 : BitVec 32 := 0#32
  let v696 : BitVec 32 := Scalar.addi v695 c0_i32_368
  let c65536_i32_369 : BitVec 32 := 65536#32
  let v697 : BitVec 32 := Scalar.muli v696 c65536_i32_369
  let c60_i32_370 : BitVec 32 := 60#32
  let v698 : BitVec 32 := Scalar.muli v639 c60_i32_370
  let v699 : BitVec 32 := Scalar.addi v698 v692
  let c4_i32_371 : BitVec 32 := 4#32
  let v700 : BitVec 32 := Scalar.muli v699 c4_i32_371
  let c0_i32_372 : BitVec 32 := 0#32
  let v701 : BitVec 32 := Scalar.addi v700 c0_i32_372
  let c65536_i32_373 : BitVec 32 := 65536#32
  let v702 : BitVec 32 := Scalar.muli v701 c65536_i32_373
  let v703 : BitVec 32 := v697
  let v704 : Memref sig .scVector .hbm S65536 .f32 := (pc14 i)
  let c0_i32_374 : BitVec 32 := 0#32
  let v705 : Memref sig .scVector .shared S1x65536 .f32 := shW.slice (Rect.unit (s := S16x65536) (k0_off1 i) S1x65536.size (k0_off1_inb i)) (fun _ => rfl)
  let v706 : Memref sig .scVector .shared S65536 .f32 := rowM i
  Prog.lift (.enqueueDma v706 (.here v704) (.dma cc0_scratch4.sem) ((View.wordExact_bits rfl).reshape _ _) (View.wordExact_bits rfl) ⟨Or.inl rfl, trivial⟩)
  let v707 : BitVec 32 := v702
  let v708 : Memref sig .scVector .hbm S65536 .f32 := (pc15 i)
  let c0_i32_375 : BitVec 32 := 0#32
  let v709 : Memref sig .scVector .shared S1x65536 .f32 := shW.slice (Rect.unit (s := S16x65536) (k0_off1 i) S1x65536.size (k0_off1_inb i)) (fun _ => rfl)
  let v710 : Memref sig .scVector .shared S65536 .f32 := rowM i
  Prog.lift (.enqueueDma v710 (.here v708) (.dma cc0_scratch4.sem) ((View.wordExact_bits rfl).reshape _ _) (View.wordExact_bits rfl) ⟨Or.inl rfl, trivial⟩)
  let c0_i32_376 : BitVec 32 := 0#32
  let v711 : Memref sig .scVector .hbm S65536 .f32 := oW.slice (Rect.unit (s := S62914560) ![0] S65536.size inb_S62914560_S65536_0) (fun _ => rfl)
  let c0_i32_377 : BitVec 32 := 0#32
  let v712 : Memref sig .scVector .hbm S65536 .f32 := oW.slice (Rect.unit (s := S62914560) ![0] S65536.size inb_S62914560_S65536_0) (fun _ => rfl)
  Prog.lift (.waitDma2 cc0_scratch5.sem bW v712 (Memref.isWhole_whole _).wordExact (View.wordExact_bits rfl))
  let c0_i32_378 : BitVec 32 := 0#32
  pure ⟨⟩

noncomputable def q_part20 (i : grid0.Coords) (v1 : BitVec 32) :
    Prog (TpuEff nD τ sig (Elt F) Λ₀ (.scVector ((i 0).castLE hcore0) ((i 1).castLE hsub0))) (Σ' (v726 : BitVec 32) (v743 : BitVec 32) (c16_i32_399 : BitVec 32), BitVec 1) := do
  let v713 : Memref sig .scVector .hbm S65536 .f32 := oW.slice (Rect.unit (s := S62914560) ![0] S65536.size inb_S62914560_S65536_0) (fun _ => rfl)
  let c0_i32_379 : BitVec 32 := 0#32
  let v714 : Memref sig .scVector .hbm S65536 .f32 := oW.slice (Rect.unit (s := S62914560) ![0] S65536.size inb_S62914560_S65536_0) (fun _ => rfl)
  Prog.lift (.waitDma2 cc0_scratch5.sem bW v714 (Memref.isWhole_whole _).wordExact (View.wordExact_bits rfl))
  let c0_i32_380 : BitVec 32 := 0#32
  let v715 : Memref sig .scVector .hbm S65536 .f32 := oW.slice (Rect.unit (s := S62914560) ![0] S65536.size inb_S62914560_S65536_0) (fun _ => rfl)
  let c0_i32_381 : BitVec 32 := 0#32
  let v716 : Memref sig .scVector .hbm S65536 .f32 := oW.slice (Rect.unit (s := S62914560) ![0] S65536.size inb_S62914560_S65536_0) (fun _ => rfl)
  Prog.lift (.waitDma2 cc0_scratch5.sem bW v716 (Memref.isWhole_whole _).wordExact (View.wordExact_bits rfl))
  let c0_i32_382 : BitVec 32 := 0#32
  let v717 : Memref sig .scVector .hbm S65536 .f32 := oW.slice (Rect.unit (s := S62914560) ![0] S65536.size inb_S62914560_S65536_0) (fun _ => rfl)
  let c0_i32_383 : BitVec 32 := 0#32
  let v718 : Memref sig .scVector .hbm S65536 .f32 := oW.slice (Rect.unit (s := S62914560) ![0] S65536.size inb_S62914560_S65536_0) (fun _ => rfl)
  Prog.lift (.waitDma2 cc0_scratch5.sem bW v718 (Memref.isWhole_whole _).wordExact (View.wordExact_bits rfl))
  let c0_i32_384 : BitVec 32 := 0#32
  let v719 : Memref sig .scVector .hbm S65536 .f32 := oW.slice (Rect.unit (s := S62914560) ![0] S65536.size inb_S62914560_S65536_0) (fun _ => rfl)
  let c0_i32_385 : BitVec 32 := 0#32
  let v720 : Memref sig .scVector .hbm S65536 .f32 := oW.slice (Rect.unit (s := S62914560) ![0] S65536.size inb_S62914560_S65536_0) (fun _ => rfl)
  Prog.lift (.waitDma2 cc0_scratch5.sem bW v720 (Memref.isWhole_whole _).wordExact (View.wordExact_bits rfl))
  let c0_i32_386 : BitVec 32 := 0#32
  let v721 : Memref sig .scVector .hbm S65536 .f32 := oW.slice (Rect.unit (s := S62914560) ![0] S65536.size inb_S62914560_S65536_0) (fun _ => rfl)
  let c0_i32_387 : BitVec 32 := 0#32
  let v722 : Memref sig .scVector .hbm S65536 .f32 := oW.slice (Rect.unit (s := S62914560) ![0] S65536.size inb_S62914560_S65536_0) (fun _ => rfl)
  Prog.lift (.waitDma2 cc0_scratch5.sem bW v722 (Memref.isWhole_whole _).wordExact (View.wordExact_bits rfl))
  let c0_i32_388 : BitVec 32 := 0#32
  let v723 : Memref sig .scVector .hbm S65536 .f32 := oW.slice (Rect.unit (s := S62914560) ![0] S65536.size inb_S62914560_S65536_0) (fun _ => rfl)
  let c0_i32_389 : BitVec 32 := 0#32
  let v724 : Memref sig .scVector .hbm S65536 .f32 := oW.slice (Rect.unit (s := S62914560) ![0] S65536.size inb_S62914560_S65536_0) (fun _ => rfl)
  Prog.lift (.waitDma2 cc0_scratch5.sem bW v724 (Memref.isWhole_whole _).wordExact (View.wordExact_bits rfl))
  let c2_i32_390 : BitVec 32 := 2#32
  let v725 : BitVec 32 := Scalar.muli c2_i32_390 v1
  let c0_i32_391 : BitVec 32 := 0#32
  let v726 : BitVec 32 := Scalar.addi v725 c0_i32_391
  let c16_i32_392 : BitVec 32 := 16#32
  let v727 : BitVec 32 := Scalar.divsi v726 c16_i32_392
  let c0_i32_393 : BitVec 32 := 0#32
  let v728 : BitVec 1 := Scalar.cmpi .sgt v726 c0_i32_393
  let v729 : BitVec 32 := Scalar.extui v728
  let c0_i32_394 : BitVec 32 := 0#32
  let v730 : BitVec 1 := Scalar.cmpi .slt v726 c0_i32_394
  let v731 : BitVec 32 := Scalar.extui v730
  let v732 : BitVec 32 := Scalar.subi v729 v731
  let c0_i32_395 : BitVec 32 := 0#32
  let v733 : BitVec 1 := Scalar.cmpi .sgt c16_i32_392 c0_i32_395
  let v734 : BitVec 32 := Scalar.extui v733
  let c0_i32_396 : BitVec 32 := 0#32
  let v735 : BitVec 1 := Scalar.cmpi .slt c16_i32_392 c0_i32_396
  let v736 : BitVec 32 := Scalar.extui v735
  let v737 : BitVec 32 := Scalar.subi v734 v736
  let v738 : BitVec 1 := Scalar.cmpi .ne v732 v737
  let v739 : BitVec 32 := Scalar.remsi v726 c16_i32_392
  let c0_i32_397 : BitVec 32 := 0#32
  let v740 : BitVec 1 := Scalar.cmpi .ne v739 c0_i32_397
  let v741 : BitVec 1 := Scalar.andi v738 v740
  let c1_i32_398 : BitVec 32 := 1#32
  let v742 : BitVec 32 := Scalar.subi v727 c1_i32_398
  let v743 : BitVec 32 := Scalar.select v741 v742 v727
  let c16_i32_399 : BitVec 32 := 16#32
  let c0_i32_400 : BitVec 32 := 0#32
  let v744 : BitVec 1 := Scalar.cmpi .eq c16_i32_399 c0_i32_400
  pure ⟨v726, v743, c16_i32_399, v744⟩

noncomputable def q_part21 (i : grid0.Coords) (v726 : BitVec 32) (v743 : BitVec 32) (c16_i32_399 : BitVec 32) (v744 : BitVec 1) :
    Prog (TpuEff nD τ sig (Elt F) Λ₀ (.scVector ((i 0).castLE hcore0) ((i 1).castLE hsub0))) (Σ' (v753 : BitVec 32) (v758 : BitVec 32) (v762 : BitVec 32) (v763 : BitVec 1) (v775 : BitVec 32) (c3_i32_421 : BitVec 32) (v776 : BitVec 32), BitVec 32) := do
  let c1_i32_401 : BitVec 32 := 1#32
  let v745 : BitVec 32 := Scalar.select v744 c1_i32_401 c16_i32_399
  let v746 : BitVec 32 := Scalar.remsi v726 v745
  let c0_i32_402 : BitVec 32 := 0#32
  let v747 : BitVec 1 := Scalar.cmpi .ne v746 c0_i32_402
  let c0_i32_403 : BitVec 32 := 0#32
  let v748 : BitVec 1 := Scalar.cmpi .slt v746 c0_i32_403
  let c0_i32_404 : BitVec 32 := 0#32
  let v749 : BitVec 1 := Scalar.cmpi .slt v745 c0_i32_404
  let v750 : BitVec 1 := Scalar.xori v748 v749
  let v751 : BitVec 1 := Scalar.andi v750 v747
  let v752 : BitVec 32 := Scalar.addi v746 v745
  let v753 : BitVec 32 := Scalar.select v751 v752 v746
  let c16_i32_405 : BitVec 32 := 16#32
  let v754 : BitVec 32 := Scalar.muli v743 c16_i32_405
  let v755 : BitVec 32 := Scalar.addi v754 v753
  let c4_i32_406 : BitVec 32 := 4#32
  let v756 : BitVec 32 := Scalar.muli v755 c4_i32_406
  let c1_i32_407 : BitVec 32 := 1#32
  let v757 : BitVec 32 := Scalar.addi v756 c1_i32_407
  let c65536_i32_408 : BitVec 32 := 65536#32
  let v758 : BitVec 32 := Scalar.muli v757 c65536_i32_408
  let c9_i32_409 : BitVec 32 := 9#32
  let v759 : BitVec 1 := Scalar.cmpi .slt v753 c9_i32_409
  let c3_i32_410 : BitVec 32 := 3#32
  let v760 : BitVec 32 := Scalar.muli c3_i32_410 v753
  let c16_i32_411 : BitVec 32 := 16#32
  let v761 : BitVec 32 := Scalar.subi v760 c16_i32_411
  let v762 : BitVec 32 := Scalar.select v759 v753 v761
  let c9_i32_412 : BitVec 32 := 9#32
  let v763 : BitVec 1 := Scalar.cmpi .slt v753 c9_i32_412
  let c3_i32_413 : BitVec 32 := 3#32
  let c0_i32_414 : BitVec 32 := 0#32
  let v764 : BitVec 1 := Scalar.cmpi .eq c3_i32_413 c0_i32_414
  let c1_i32_415 : BitVec 32 := 1#32
  let v765 : BitVec 32 := Scalar.select v764 c1_i32_415 c3_i32_413
  let v766 : BitVec 32 := Scalar.remsi v753 v765
  let c0_i32_416 : BitVec 32 := 0#32
  let v767 : BitVec 1 := Scalar.cmpi .ne v766 c0_i32_416
  let c0_i32_417 : BitVec 32 := 0#32
  let v768 : BitVec 1 := Scalar.cmpi .slt v766 c0_i32_417
  let c0_i32_418 : BitVec 32 := 0#32
  let v769 : BitVec 1 := Scalar.cmpi .slt v765 c0_i32_418
  let v770 : BitVec 1 := Scalar.xori v768 v769
  let v771 : BitVec 1 := Scalar.andi v770 v767
  let v772 : BitVec 32 := Scalar.addi v766 v765
  let v773 : BitVec 32 := Scalar.select v771 v772 v766
  let c3_i32_419 : BitVec 32 := 3#32
  let v774 : BitVec 32 := Scalar.muli c3_i32_419 v773
  let c30_i32_420 : BitVec 32 := 30#32
  let v775 : BitVec 32 := Scalar.addi c30_i32_420 v774
  let c3_i32_421 : BitVec 32 := 3#32
  let v776 : BitVec 32 := Scalar.divsi v753 c3_i32_421
  let c0_i32_422 : BitVec 32 := 0#32
  let v777 : BitVec 1 := Scalar.cmpi .sgt v753 c0_i32_422
  let v778 : BitVec 32 := Scalar.extui v777
  let c0_i32_423 : BitVec 32 := 0#32
  let v779 : BitVec 1 := Scalar.cmpi .slt v753 c0_i32_423
  let v780 : BitVec 32 := Scalar.extui v779
  let v781 : BitVec 32 := Scalar.subi v778 v780
  pure ⟨v753, v758, v762, v763, v775, c3_i32_421, v776, v781⟩

noncomputable def q_part22 (i : grid0.Coords) (v1 : BitVec 32) (v743 : BitVec 32) (v753 : BitVec 32) (v758 : BitVec 32) (v762 : BitVec 32) (v763 : BitVec 1) (v775 : BitVec 32) (c3_i32_421 : BitVec 32) (v776 : BitVec 32) (v781 : BitVec 32) :
    Prog (TpuEff nD τ sig (Elt F) Λ₀ (.scVector ((i 0).castLE hcore0) ((i 1).castLE hsub0))) (Σ' (v813 : BitVec 32) (c16_i32_442 : BitVec 32) (v814 : BitVec 32) (v816 : BitVec 32), BitVec 32) := do
  let c0_i32_424 : BitVec 32 := 0#32
  let v782 : BitVec 1 := Scalar.cmpi .sgt c3_i32_421 c0_i32_424
  let v783 : BitVec 32 := Scalar.extui v782
  let c0_i32_425 : BitVec 32 := 0#32
  let v784 : BitVec 1 := Scalar.cmpi .slt c3_i32_421 c0_i32_425
  let v785 : BitVec 32 := Scalar.extui v784
  let v786 : BitVec 32 := Scalar.subi v783 v785
  let v787 : BitVec 1 := Scalar.cmpi .ne v781 v786
  let v788 : BitVec 32 := Scalar.remsi v753 c3_i32_421
  let c0_i32_426 : BitVec 32 := 0#32
  let v789 : BitVec 1 := Scalar.cmpi .ne v788 c0_i32_426
  let v790 : BitVec 1 := Scalar.andi v787 v789
  let c1_i32_427 : BitVec 32 := 1#32
  let v791 : BitVec 32 := Scalar.subi v776 c1_i32_427
  let v792 : BitVec 32 := Scalar.select v790 v791 v776
  let v793 : BitVec 32 := Scalar.addi v775 v792
  let c3_i32_428 : BitVec 32 := 3#32
  let v794 : BitVec 32 := Scalar.muli c3_i32_428 v753
  let c14_i32_429 : BitVec 32 := 14#32
  let v795 : BitVec 32 := Scalar.addi v794 c14_i32_429
  let v796 : BitVec 32 := Scalar.select v763 v793 v795
  let c60_i32_430 : BitVec 32 := 60#32
  let v797 : BitVec 32 := Scalar.muli v743 c60_i32_430
  let v798 : BitVec 32 := Scalar.addi v797 v762
  let c4_i32_431 : BitVec 32 := 4#32
  let v799 : BitVec 32 := Scalar.muli v798 c4_i32_431
  let c1_i32_432 : BitVec 32 := 1#32
  let v800 : BitVec 32 := Scalar.addi v799 c1_i32_432
  let c65536_i32_433 : BitVec 32 := 65536#32
  let v801 : BitVec 32 := Scalar.muli v800 c65536_i32_433
  let c60_i32_434 : BitVec 32 := 60#32
  let v802 : BitVec 32 := Scalar.muli v743 c60_i32_434
  let v803 : BitVec 32 := Scalar.addi v802 v796
  let c4_i32_435 : BitVec 32 := 4#32
  let v804 : BitVec 32 := Scalar.muli v803 c4_i32_435
  let c1_i32_436 : BitVec 32 := 1#32
  let v805 : BitVec 32 := Scalar.addi v804 c1_i32_436
  let c65536_i32_437 : BitVec 32 := 65536#32
  let v806 : BitVec 32 := Scalar.muli v805 c65536_i32_437
  let v807 : BitVec 32 := v758
  let v808 : Memref sig .scVector .hbm S65536 .f32 := (xw3 i)
  let v809 : Memref sig .scVector .hbm S65536 .f32 := (xw3 i)
  Prog.lift (.enqueueDma v809 (.here bW) (.dma cc0_scratch3.sem) (View.wordExact_bits rfl) (Memref.isWhole_whole _).wordExact ⟨Or.inl rfl, trivial⟩)
  let c0_i32_438 : BitVec 32 := 0#32
  let v810 : Memref sig .scVector .hbm S65536 .f32 := xW.slice (Rect.unit (s := S16777216) ![0] S65536.size inb_S16777216_S65536_0) (fun _ => rfl)
  let c0_i32_439 : BitVec 32 := 0#32
  let v811 : Memref sig .scVector .hbm S65536 .f32 := xW.slice (Rect.unit (s := S16777216) ![0] S65536.size inb_S16777216_S65536_0) (fun _ => rfl)
  Prog.lift (.waitDma2 cc0_scratch3.sem v811 bW (View.wordExact_bits rfl) (Memref.isWhole_whole _).wordExact)
  let c2_i32_440 : BitVec 32 := 2#32
  let v812 : BitVec 32 := Scalar.muli c2_i32_440 v1
  let c0_i32_441 : BitVec 32 := 0#32
  let v813 : BitVec 32 := Scalar.addi v812 c0_i32_441
  let c16_i32_442 : BitVec 32 := 16#32
  let v814 : BitVec 32 := Scalar.divsi v813 c16_i32_442
  let c0_i32_443 : BitVec 32 := 0#32
  let v815 : BitVec 1 := Scalar.cmpi .sgt v813 c0_i32_443
  let v816 : BitVec 32 := Scalar.extui v815
  let c0_i32_444 : BitVec 32 := 0#32
  let v817 : BitVec 1 := Scalar.cmpi .slt v813 c0_i32_444
  let v818 : BitVec 32 := Scalar.extui v817
  pure ⟨v813, c16_i32_442, v814, v816, v818⟩

noncomputable def q_part23 (i : grid0.Coords) (v813 : BitVec 32) (c16_i32_442 : BitVec 32) (v814 : BitVec 32) (v816 : BitVec 32) (v818 : BitVec 32) :
    Prog (TpuEff nD τ sig (Elt F) Λ₀ (.scVector ((i 0).castLE hcore0) ((i 1).castLE hsub0))) (Σ' (v830 : BitVec 32) (v840 : BitVec 32) (v849 : BitVec 32) (v850 : BitVec 1) (v852 : BitVec 32) (v853 : BitVec 32) (v854 : BitVec 1), BitVec 1) := do
  let v819 : BitVec 32 := Scalar.subi v816 v818
  let c0_i32_445 : BitVec 32 := 0#32
  let v820 : BitVec 1 := Scalar.cmpi .sgt c16_i32_442 c0_i32_445
  let v821 : BitVec 32 := Scalar.extui v820
  let c0_i32_446 : BitVec 32 := 0#32
  let v822 : BitVec 1 := Scalar.cmpi .slt c16_i32_442 c0_i32_446
  let v823 : BitVec 32 := Scalar.extui v822
  let v824 : BitVec 32 := Scalar.subi v821 v823
  let v825 : BitVec 1 := Scalar.cmpi .ne v819 v824
  let v826 : BitVec 32 := Scalar.remsi v813 c16_i32_442
  let c0_i32_447 : BitVec 32 := 0#32
  let v827 : BitVec 1 := Scalar.cmpi .ne v826 c0_i32_447
  let v828 : BitVec 1 := Scalar.andi v825 v827
  let c1_i32_448 : BitVec 32 := 1#32
  let v829 : BitVec 32 := Scalar.subi v814 c1_i32_448
  let v830 : BitVec 32 := Scalar.select v828 v829 v814
  let c16_i32_449 : BitVec 32 := 16#32
  let c0_i32_450 : BitVec 32 := 0#32
  let v831 : BitVec 1 := Scalar.cmpi .eq c16_i32_449 c0_i32_450
  let c1_i32_451 : BitVec 32 := 1#32
  let v832 : BitVec 32 := Scalar.select v831 c1_i32_451 c16_i32_449
  let v833 : BitVec 32 := Scalar.remsi v813 v832
  let c0_i32_452 : BitVec 32 := 0#32
  let v834 : BitVec 1 := Scalar.cmpi .ne v833 c0_i32_452
  let c0_i32_453 : BitVec 32 := 0#32
  let v835 : BitVec 1 := Scalar.cmpi .slt v833 c0_i32_453
  let c0_i32_454 : BitVec 32 := 0#32
  let v836 : BitVec 1 := Scalar.cmpi .slt v832 c0_i32_454
  let v837 : BitVec 1 := Scalar.xori v835 v836
  let v838 : BitVec 1 := Scalar.andi v837 v834
  let v839 : BitVec 32 := Scalar.addi v833 v832
  let v840 : BitVec 32 := Scalar.select v838 v839 v833
  let c16_i32_455 : BitVec 32 := 16#32
  let v841 : BitVec 32 := Scalar.muli v830 c16_i32_455
  let v842 : BitVec 32 := Scalar.addi v841 v840
  let c4_i32_456 : BitVec 32 := 4#32
  let v843 : BitVec 32 := Scalar.muli v842 c4_i32_456
  let c1_i32_457 : BitVec 32 := 1#32
  let v844 : BitVec 32 := Scalar.addi v843 c1_i32_457
  let c65536_i32_458 : BitVec 32 := 65536#32
  let v845 : BitVec 32 := Scalar.muli v844 c65536_i32_458
  let c9_i32_459 : BitVec 32 := 9#32
  let v846 : BitVec 1 := Scalar.cmpi .slt v840 c9_i32_459
  let c3_i32_460 : BitVec 32 := 3#32
  let v847 : BitVec 32 := Scalar.muli c3_i32_460 v840
  let c16_i32_461 : BitVec 32 := 16#32
  let v848 : BitVec 32 := Scalar.subi v847 c16_i32_461
  let v849 : BitVec 32 := Scalar.select v846 v840 v848
  let c9_i32_462 : BitVec 32 := 9#32
  let v850 : BitVec 1 := Scalar.cmpi .slt v840 c9_i32_462
  let c3_i32_463 : BitVec 32 := 3#32
  let c0_i32_464 : BitVec 32 := 0#32
  let v851 : BitVec 1 := Scalar.cmpi .eq c3_i32_463 c0_i32_464
  let c1_i32_465 : BitVec 32 := 1#32
  let v852 : BitVec 32 := Scalar.select v851 c1_i32_465 c3_i32_463
  let v853 : BitVec 32 := Scalar.remsi v840 v852
  let c0_i32_466 : BitVec 32 := 0#32
  let v854 : BitVec 1 := Scalar.cmpi .ne v853 c0_i32_466
  let c0_i32_467 : BitVec 32 := 0#32
  let v855 : BitVec 1 := Scalar.cmpi .slt v853 c0_i32_467
  pure ⟨v830, v840, v849, v850, v852, v853, v854, v855⟩

noncomputable def q_part24 (i : grid0.Coords) (v830 : BitVec 32) (v840 : BitVec 32) (v849 : BitVec 32) (v850 : BitVec 1) (v852 : BitVec 32) (v853 : BitVec 32) (v854 : BitVec 1) (v855 : BitVec 1) :
    Prog (TpuEff nD τ sig (Elt F) Λ₀ (.scVector ((i 0).castLE hcore0) ((i 1).castLE hsub0))) (BitVec 32) := do
  let c0_i32_468 : BitVec 32 := 0#32
  let v856 : BitVec 1 := Scalar.cmpi .slt v852 c0_i32_468
  let v857 : BitVec 1 := Scalar.xori v855 v856
  let v858 : BitVec 1 := Scalar.andi v857 v854
  let v859 : BitVec 32 := Scalar.addi v853 v852
  let v860 : BitVec 32 := Scalar.select v858 v859 v853
  let c3_i32_469 : BitVec 32 := 3#32
  let v861 : BitVec 32 := Scalar.muli c3_i32_469 v860
  let c30_i32_470 : BitVec 32 := 30#32
  let v862 : BitVec 32 := Scalar.addi c30_i32_470 v861
  let c3_i32_471 : BitVec 32 := 3#32
  let v863 : BitVec 32 := Scalar.divsi v840 c3_i32_471
  let c0_i32_472 : BitVec 32 := 0#32
  let v864 : BitVec 1 := Scalar.cmpi .sgt v840 c0_i32_472
  let v865 : BitVec 32 := Scalar.extui v864
  let c0_i32_473 : BitVec 32 := 0#32
  let v866 : BitVec 1 := Scalar.cmpi .slt v840 c0_i32_473
  let v867 : BitVec 32 := Scalar.extui v866
  let v868 : BitVec 32 := Scalar.subi v865 v867
  let c0_i32_474 : BitVec 32 := 0#32
  let v869 : BitVec 1 := Scalar.cmpi .sgt c3_i32_471 c0_i32_474
  let v870 : BitVec 32 := Scalar.extui v869
  let c0_i32_475 : BitVec 32 := 0#32
  let v871 : BitVec 1 := Scalar.cmpi .slt c3_i32_471 c0_i32_475
  let v872 : BitVec 32 := Scalar.extui v871
  let v873 : BitVec 32 := Scalar.subi v870 v872
  let v874 : BitVec 1 := Scalar.cmpi .ne v868 v873
  let v875 : BitVec 32 := Scalar.remsi v840 c3_i32_471
  let c0_i32_476 : BitVec 32 := 0#32
  let v876 : BitVec 1 := Scalar.cmpi .ne v875 c0_i32_476
  let v877 : BitVec 1 := Scalar.andi v874 v876
  let c1_i32_477 : BitVec 32 := 1#32
  let v878 : BitVec 32 := Scalar.subi v863 c1_i32_477
  let v879 : BitVec 32 := Scalar.select v877 v878 v863
  let v880 : BitVec 32 := Scalar.addi v862 v879
  let c3_i32_478 : BitVec 32 := 3#32
  let v881 : BitVec 32 := Scalar.muli c3_i32_478 v840
  let c14_i32_479 : BitVec 32 := 14#32
  let v882 : BitVec 32 := Scalar.addi v881 c14_i32_479
  let v883 : BitVec 32 := Scalar.select v850 v880 v882
  let c60_i32_480 : BitVec 32 := 60#32
  let v884 : BitVec 32 := Scalar.muli v830 c60_i32_480
  let v885 : BitVec 32 := Scalar.addi v884 v849
  let c4_i32_481 : BitVec 32 := 4#32
  let v886 : BitVec 32 := Scalar.muli v885 c4_i32_481
  let c1_i32_482 : BitVec 32 := 1#32
  let v887 : BitVec 32 := Scalar.addi v886 c1_i32_482
  let c65536_i32_483 : BitVec 32 := 65536#32
  let v888 : BitVec 32 := Scalar.muli v887 c65536_i32_483
  let c60_i32_484 : BitVec 32 := 60#32
  let v889 : BitVec 32 := Scalar.muli v830 c60_i32_484
  let v890 : BitVec 32 := Scalar.addi v889 v883
  let c4_i32_485 : BitVec 32 := 4#32
  let v891 : BitVec 32 := Scalar.muli v890 c4_i32_485
  let c1_i32_486 : BitVec 32 := 1#32
  let v892 : BitVec 32 := Scalar.addi v891 c1_i32_486
  let c65536_i32_487 : BitVec 32 := 65536#32
  let v893 : BitVec 32 := Scalar.muli v892 c65536_i32_487
  let v894 : BitVec 32 := v888
  let v895 : Memref sig .scVector .hbm S65536 .f32 := (pc16 i)
  pure v893

noncomputable def q_part25 (i : grid0.Coords) (v1 : BitVec 32) (v893 : BitVec 32) :
    Prog (TpuEff nD τ sig (Elt F) Λ₀ (.scVector ((i 0).castLE hcore0) ((i 1).castLE hsub0))) (Σ' (v924 : BitVec 32) (v926 : BitVec 32) (v927 : BitVec 32), BitVec 1) := do
  let v896 : Memref sig .scVector .hbm S65536 .f32 := (pc16 i)
  Prog.lift (.enqueueDma bW (.here v896) (.dma cc0_scratch5.sem) (Memref.isWhole_whole _).wordExact (View.wordExact_bits rfl) ⟨Or.inl rfl, trivial⟩)
  let v897 : BitVec 32 := v893
  let v898 : Memref sig .scVector .hbm S65536 .f32 := (pc17 i)
  let v899 : Memref sig .scVector .hbm S65536 .f32 := (pc17 i)
  Prog.lift (.enqueueDma bW (.here v899) (.dma cc0_scratch5.sem) (Memref.isWhole_whole _).wordExact (View.wordExact_bits rfl) ⟨Or.inl rfl, trivial⟩)
  let c0_i32_488 : BitVec 32 := 0#32
  let v900 : Memref sig .scVector .hbm S65536 .f32 := oW.slice (Rect.unit (s := S62914560) ![0] S65536.size inb_S62914560_S65536_0) (fun _ => rfl)
  let c0_i32_489 : BitVec 32 := 0#32
  let v901 : Memref sig .scVector .shared S1x65536 .f32 := shW.slice (Rect.unit (s := S16x65536) (k0_off1 i) S1x65536.size (k0_off1_inb i)) (fun _ => rfl)
  let v902 : Memref sig .scVector .shared S65536 .f32 := rowM i
  Prog.lift (.waitDma2 cc0_scratch4.sem v902 v900 ((View.wordExact_bits rfl).reshape _ _) (View.wordExact_bits rfl))
  let c0_i32_490 : BitVec 32 := 0#32
  let v903 : Memref sig .scVector .hbm S65536 .f32 := oW.slice (Rect.unit (s := S62914560) ![0] S65536.size inb_S62914560_S65536_0) (fun _ => rfl)
  let c0_i32_491 : BitVec 32 := 0#32
  let v904 : Memref sig .scVector .shared S1x65536 .f32 := shW.slice (Rect.unit (s := S16x65536) (k0_off1 i) S1x65536.size (k0_off1_inb i)) (fun _ => rfl)
  let v905 : Memref sig .scVector .shared S65536 .f32 := rowM i
  Prog.lift (.waitDma2 cc0_scratch4.sem v905 v903 ((View.wordExact_bits rfl).reshape _ _) (View.wordExact_bits rfl))
  let c2_i32_492 : BitVec 32 := 2#32
  let v906 : BitVec 32 := Scalar.muli c2_i32_492 v1
  let c0_i32_493 : BitVec 32 := 0#32
  let v907 : BitVec 32 := Scalar.addi v906 c0_i32_493
  let c16_i32_494 : BitVec 32 := 16#32
  let v908 : BitVec 32 := Scalar.divsi v907 c16_i32_494
  let c0_i32_495 : BitVec 32 := 0#32
  let v909 : BitVec 1 := Scalar.cmpi .sgt v907 c0_i32_495
  let v910 : BitVec 32 := Scalar.extui v909
  let c0_i32_496 : BitVec 32 := 0#32
  let v911 : BitVec 1 := Scalar.cmpi .slt v907 c0_i32_496
  let v912 : BitVec 32 := Scalar.extui v911
  let v913 : BitVec 32 := Scalar.subi v910 v912
  let c0_i32_497 : BitVec 32 := 0#32
  let v914 : BitVec 1 := Scalar.cmpi .sgt c16_i32_494 c0_i32_497
  let v915 : BitVec 32 := Scalar.extui v914
  let c0_i32_498 : BitVec 32 := 0#32
  let v916 : BitVec 1 := Scalar.cmpi .slt c16_i32_494 c0_i32_498
  let v917 : BitVec 32 := Scalar.extui v916
  let v918 : BitVec 32 := Scalar.subi v915 v917
  let v919 : BitVec 1 := Scalar.cmpi .ne v913 v918
  let v920 : BitVec 32 := Scalar.remsi v907 c16_i32_494
  let c0_i32_499 : BitVec 32 := 0#32
  let v921 : BitVec 1 := Scalar.cmpi .ne v920 c0_i32_499
  let v922 : BitVec 1 := Scalar.andi v919 v921
  let c1_i32_500 : BitVec 32 := 1#32
  let v923 : BitVec 32 := Scalar.subi v908 c1_i32_500
  let v924 : BitVec 32 := Scalar.select v922 v923 v908
  let c16_i32_501 : BitVec 32 := 16#32
  let c0_i32_502 : BitVec 32 := 0#32
  let v925 : BitVec 1 := Scalar.cmpi .eq c16_i32_501 c0_i32_502
  let c1_i32_503 : BitVec 32 := 1#32
  let v926 : BitVec 32 := Scalar.select v925 c1_i32_503 c16_i32_501
  let v927 : BitVec 32 := Scalar.remsi v907 v926
  let c0_i32_504 : BitVec 32 := 0#32
  let v928 : BitVec 1 := Scalar.cmpi .ne v927 c0_i32_504
  let c0_i32_505 : BitVec 32 := 0#32
  let v929 : BitVec 1 := Scalar.cmpi .slt v927 c0_i32_505
  let c0_i32_506 : BitVec 32 := 0#32
  let v930 : BitVec 1 := Scalar.cmpi .slt v926 c0_i32_506
  let v931 : BitVec 1 := Scalar.xori v929 v930
  let v932 : BitVec 1 := Scalar.andi v931 v928
  pure ⟨v924, v926, v927, v932⟩

noncomputable def q_part26 (i : grid0.Coords) (v924 : BitVec 32) (v926 : BitVec 32) (v927 : BitVec 32) (v932 : BitVec 1) :
    Prog (TpuEff nD τ sig (Elt F) Λ₀ (.scVector ((i 0).castLE hcore0) ((i 1).castLE hsub0))) (Σ' (v934 : BitVec 32) (v939 : BitVec 32) (v943 : BitVec 32) (v944 : BitVec 1) (v956 : BitVec 32) (v957 : BitVec 32) (v968 : BitVec 1), BitVec 1) := do
  let v933 : BitVec 32 := Scalar.addi v927 v926
  let v934 : BitVec 32 := Scalar.select v932 v933 v927
  let c16_i32_507 : BitVec 32 := 16#32
  let v935 : BitVec 32 := Scalar.muli v924 c16_i32_507
  let v936 : BitVec 32 := Scalar.addi v935 v934
  let c4_i32_508 : BitVec 32 := 4#32
  let v937 : BitVec 32 := Scalar.muli v936 c4_i32_508
  let c2_i32_509 : BitVec 32 := 2#32
  let v938 : BitVec 32 := Scalar.addi v937 c2_i32_509
  let c65536_i32_510 : BitVec 32 := 65536#32
  let v939 : BitVec 32 := Scalar.muli v938 c65536_i32_510
  let c9_i32_511 : BitVec 32 := 9#32
  let v940 : BitVec 1 := Scalar.cmpi .slt v934 c9_i32_511
  let c3_i32_512 : BitVec 32 := 3#32
  let v941 : BitVec 32 := Scalar.muli c3_i32_512 v934
  let c16_i32_513 : BitVec 32 := 16#32
  let v942 : BitVec 32 := Scalar.subi v941 c16_i32_513
  let v943 : BitVec 32 := Scalar.select v940 v934 v942
  let c9_i32_514 : BitVec 32 := 9#32
  let v944 : BitVec 1 := Scalar.cmpi .slt v934 c9_i32_514
  let c3_i32_515 : BitVec 32 := 3#32
  let c0_i32_516 : BitVec 32 := 0#32
  let v945 : BitVec 1 := Scalar.cmpi .eq c3_i32_515 c0_i32_516
  let c1_i32_517 : BitVec 32 := 1#32
  let v946 : BitVec 32 := Scalar.select v945 c1_i32_517 c3_i32_515
  let v947 : BitVec 32 := Scalar.remsi v934 v946
  let c0_i32_518 : BitVec 32 := 0#32
  let v948 : BitVec 1 := Scalar.cmpi .ne v947 c0_i32_518
  let c0_i32_519 : BitVec 32 := 0#32
  let v949 : BitVec 1 := Scalar.cmpi .slt v947 c0_i32_519
  let c0_i32_520 : BitVec 32 := 0#32
  let v950 : BitVec 1 := Scalar.cmpi .slt v946 c0_i32_520
  let v951 : BitVec 1 := Scalar.xori v949 v950
  let v952 : BitVec 1 := Scalar.andi v951 v948
  let v953 : BitVec 32 := Scalar.addi v947 v946
  let v954 : BitVec 32 := Scalar.select v952 v953 v947
  let c3_i32_521 : BitVec 32 := 3#32
  let v955 : BitVec 32 := Scalar.muli c3_i32_521 v954
  let c30_i32_522 : BitVec 32 := 30#32
  let v956 : BitVec 32 := Scalar.addi c30_i32_522 v955
  let c3_i32_523 : BitVec 32 := 3#32
  let v957 : BitVec 32 := Scalar.divsi v934 c3_i32_523
  let c0_i32_524 : BitVec 32 := 0#32
  let v958 : BitVec 1 := Scalar.cmpi .sgt v934 c0_i32_524
  let v959 : BitVec 32 := Scalar.extui v958
  let c0_i32_525 : BitVec 32 := 0#32
  let v960 : BitVec 1 := Scalar.cmpi .slt v934 c0_i32_525
  let v961 : BitVec 32 := Scalar.extui v960
  let v962 : BitVec 32 := Scalar.subi v959 v961
  let c0_i32_526 : BitVec 32 := 0#32
  let v963 : BitVec 1 := Scalar.cmpi .sgt c3_i32_523 c0_i32_526
  let v964 : BitVec 32 := Scalar.extui v963
  let c0_i32_527 : BitVec 32 := 0#32
  let v965 : BitVec 1 := Scalar.cmpi .slt c3_i32_523 c0_i32_527
  let v966 : BitVec 32 := Scalar.extui v965
  let v967 : BitVec 32 := Scalar.subi v964 v966
  let v968 : BitVec 1 := Scalar.cmpi .ne v962 v967
  let v969 : BitVec 32 := Scalar.remsi v934 c3_i32_523
  let c0_i32_528 : BitVec 32 := 0#32
  let v970 : BitVec 1 := Scalar.cmpi .ne v969 c0_i32_528
  pure ⟨v934, v939, v943, v944, v956, v957, v968, v970⟩

noncomputable def q_part27 (i : grid0.Coords) (v1 : BitVec 32) (v924 : BitVec 32) (v934 : BitVec 32) (v939 : BitVec 32) (v943 : BitVec 32) (v944 : BitVec 1) (v956 : BitVec 32) (v957 : BitVec 32) (v968 : BitVec 1) (v970 : BitVec 1) :
    Prog (TpuEff nD τ sig (Elt F) Λ₀ (.scVector ((i 0).castLE hcore0) ((i 1).castLE hsub0))) (Σ' (v996 : BitVec 32) (c16_i32_545 : BitVec 32) (v997 : BitVec 32) (v1002 : BitVec 32), BitVec 32) := do
  let v971 : BitVec 1 := Scalar.andi v968 v970
  let c1_i32_529 : BitVec 32 := 1#32
  let v972 : BitVec 32 := Scalar.subi v957 c1_i32_529
  let v973 : BitVec 32 := Scalar.select v971 v972 v957
  let v974 : BitVec 32 := Scalar.addi v956 v973
  let c3_i32_530 : BitVec 32 := 3#32
  let v975 : BitVec 32 := Scalar.muli c3_i32_530 v934
  let c14_i32_531 : BitVec 32 := 14#32
  let v976 : BitVec 32 := Scalar.addi v975 c14_i32_531
  let v977 : BitVec 32 := Scalar.select v944 v974 v976
  let c60_i32_532 : BitVec 32 := 60#32
  let v978 : BitVec 32 := Scalar.muli v924 c60_i32_532
  let v979 : BitVec 32 := Scalar.addi v978 v943
  let c4_i32_533 : BitVec 32 := 4#32
  let v980 : BitVec 32 := Scalar.muli v979 c4_i32_533
  let c2_i32_534 : BitVec 32 := 2#32
  let v981 : BitVec 32 := Scalar.addi v980 c2_i32_534
  let c65536_i32_535 : BitVec 32 := 65536#32
  let v982 : BitVec 32 := Scalar.muli v981 c65536_i32_535
  let c60_i32_536 : BitVec 32 := 60#32
  let v983 : BitVec 32 := Scalar.muli v924 c60_i32_536
  let v984 : BitVec 32 := Scalar.addi v983 v977
  let c4_i32_537 : BitVec 32 := 4#32
  let v985 : BitVec 32 := Scalar.muli v984 c4_i32_537
  let c2_i32_538 : BitVec 32 := 2#32
  let v986 : BitVec 32 := Scalar.addi v985 c2_i32_538
  let c65536_i32_539 : BitVec 32 := 65536#32
  let v987 : BitVec 32 := Scalar.muli v986 c65536_i32_539
  let v988 : BitVec 32 := v939
  let c0_i32_540 : BitVec 32 := 0#32
  let v989 : Memref sig .scVector .shared S1x65536 .f32 := shW.slice (Rect.unit (s := S16x65536) (k0_off1 i) S1x65536.size (k0_off1_inb i)) (fun _ => rfl)
  let v990 : Memref sig .scVector .shared S65536 .f32 := rowM i
  let v991 : Memref sig .scVector .hbm S65536 .f32 := (xw4 i)
  Prog.lift (.enqueueDma v991 (.here v990) (.dma cc0_scratch2.sem) (View.wordExact_bits rfl) ((View.wordExact_bits rfl).reshape _ _) ⟨Or.inl rfl, trivial⟩)
  let c0_i32_541 : BitVec 32 := 0#32
  let v992 : Memref sig .scVector .shared S1x65536 .f32 := shW.slice (Rect.unit (s := S16x65536) (k0_off1 i) S1x65536.size (k0_off1_inb i)) (fun _ => rfl)
  let v993 : Memref sig .scVector .shared S65536 .f32 := rowM i
  let c0_i32_542 : BitVec 32 := 0#32
  let v994 : Memref sig .scVector .hbm S65536 .f32 := xW.slice (Rect.unit (s := S16777216) ![0] S65536.size inb_S16777216_S65536_0) (fun _ => rfl)
  Prog.lift (.waitDma2 cc0_scratch2.sem v994 v993 (View.wordExact_bits rfl) ((View.wordExact_bits rfl).reshape _ _))
  let c2_i32_543 : BitVec 32 := 2#32
  let v995 : BitVec 32 := Scalar.muli c2_i32_543 v1
  let c0_i32_544 : BitVec 32 := 0#32
  let v996 : BitVec 32 := Scalar.addi v995 c0_i32_544
  let c16_i32_545 : BitVec 32 := 16#32
  let v997 : BitVec 32 := Scalar.divsi v996 c16_i32_545
  let c0_i32_546 : BitVec 32 := 0#32
  let v998 : BitVec 1 := Scalar.cmpi .sgt v996 c0_i32_546
  let v999 : BitVec 32 := Scalar.extui v998
  let c0_i32_547 : BitVec 32 := 0#32
  let v1000 : BitVec 1 := Scalar.cmpi .slt v996 c0_i32_547
  let v1001 : BitVec 32 := Scalar.extui v1000
  let v1002 : BitVec 32 := Scalar.subi v999 v1001
  let c0_i32_548 : BitVec 32 := 0#32
  let v1003 : BitVec 1 := Scalar.cmpi .sgt c16_i32_545 c0_i32_548
  let v1004 : BitVec 32 := Scalar.extui v1003
  let c0_i32_549 : BitVec 32 := 0#32
  let v1005 : BitVec 1 := Scalar.cmpi .slt c16_i32_545 c0_i32_549
  let v1006 : BitVec 32 := Scalar.extui v1005
  let v1007 : BitVec 32 := Scalar.subi v1004 v1006
  pure ⟨v996, c16_i32_545, v997, v1002, v1007⟩

noncomputable def q_part28 (i : grid0.Coords) (v996 : BitVec 32) (c16_i32_545 : BitVec 32) (v997 : BitVec 32) (v1002 : BitVec 32) (v1007 : BitVec 32) :
    Prog (TpuEff nD τ sig (Elt F) Λ₀ (.scVector ((i 0).castLE hcore0) ((i 1).castLE hsub0))) (Σ' (v1013 : BitVec 32) (v1023 : BitVec 32) (v1032 : BitVec 32) (v1033 : BitVec 1), BitVec 32) := do
  let v1008 : BitVec 1 := Scalar.cmpi .ne v1002 v1007
  let v1009 : BitVec 32 := Scalar.remsi v996 c16_i32_545
  let c0_i32_550 : BitVec 32 := 0#32
  let v1010 : BitVec 1 := Scalar.cmpi .ne v1009 c0_i32_550
  let v1011 : BitVec 1 := Scalar.andi v1008 v1010
  let c1_i32_551 : BitVec 32 := 1#32
  let v1012 : BitVec 32 := Scalar.subi v997 c1_i32_551
  let v1013 : BitVec 32 := Scalar.select v1011 v1012 v997
  let c16_i32_552 : BitVec 32 := 16#32
  let c0_i32_553 : BitVec 32 := 0#32
  let v1014 : BitVec 1 := Scalar.cmpi .eq c16_i32_552 c0_i32_553
  let c1_i32_554 : BitVec 32 := 1#32
  let v1015 : BitVec 32 := Scalar.select v1014 c1_i32_554 c16_i32_552
  let v1016 : BitVec 32 := Scalar.remsi v996 v1015
  let c0_i32_555 : BitVec 32 := 0#32
  let v1017 : BitVec 1 := Scalar.cmpi .ne v1016 c0_i32_555
  let c0_i32_556 : BitVec 32 := 0#32
  let v1018 : BitVec 1 := Scalar.cmpi .slt v1016 c0_i32_556
  let c0_i32_557 : BitVec 32 := 0#32
  let v1019 : BitVec 1 := Scalar.cmpi .slt v1015 c0_i32_557
  let v1020 : BitVec 1 := Scalar.xori v1018 v1019
  let v1021 : BitVec 1 := Scalar.andi v1020 v1017
  let v1022 : BitVec 32 := Scalar.addi v1016 v1015
  let v1023 : BitVec 32 := Scalar.select v1021 v1022 v1016
  let c16_i32_558 : BitVec 32 := 16#32
  let v1024 : BitVec 32 := Scalar.muli v1013 c16_i32_558
  let v1025 : BitVec 32 := Scalar.addi v1024 v1023
  let c4_i32_559 : BitVec 32 := 4#32
  let v1026 : BitVec 32 := Scalar.muli v1025 c4_i32_559
  let c2_i32_560 : BitVec 32 := 2#32
  let v1027 : BitVec 32 := Scalar.addi v1026 c2_i32_560
  let c65536_i32_561 : BitVec 32 := 65536#32
  let v1028 : BitVec 32 := Scalar.muli v1027 c65536_i32_561
  let c9_i32_562 : BitVec 32 := 9#32
  let v1029 : BitVec 1 := Scalar.cmpi .slt v1023 c9_i32_562
  let c3_i32_563 : BitVec 32 := 3#32
  let v1030 : BitVec 32 := Scalar.muli c3_i32_563 v1023
  let c16_i32_564 : BitVec 32 := 16#32
  let v1031 : BitVec 32 := Scalar.subi v1030 c16_i32_564
  let v1032 : BitVec 32 := Scalar.select v1029 v1023 v1031
  let c9_i32_565 : BitVec 32 := 9#32
  let v1033 : BitVec 1 := Scalar.cmpi .slt v1023 c9_i32_565
  let c3_i32_566 : BitVec 32 := 3#32
  let c0_i32_567 : BitVec 32 := 0#32
  let v1034 : BitVec 1 := Scalar.cmpi .eq c3_i32_566 c0_i32_567
  let c1_i32_568 : BitVec 32 := 1#32
  let v1035 : BitVec 32 := Scalar.select v1034 c1_i32_568 c3_i32_566
  let v1036 : BitVec 32 := Scalar.remsi v1023 v1035
  let c0_i32_569 : BitVec 32 := 0#32
  let v1037 : BitVec 1 := Scalar.cmpi .ne v1036 c0_i32_569
  let c0_i32_570 : BitVec 32 := 0#32
  let v1038 : BitVec 1 := Scalar.cmpi .slt v1036 c0_i32_570
  let c0_i32_571 : BitVec 32 := 0#32
  let v1039 : BitVec 1 := Scalar.cmpi .slt v1035 c0_i32_571
  let v1040 : BitVec 1 := Scalar.xori v1038 v1039
  let v1041 : BitVec 1 := Scalar.andi v1040 v1037
  let v1042 : BitVec 32 := Scalar.addi v1036 v1035
  let v1043 : BitVec 32 := Scalar.select v1041 v1042 v1036
  let c3_i32_572 : BitVec 32 := 3#32
  let v1044 : BitVec 32 := Scalar.muli c3_i32_572 v1043
  pure ⟨v1013, v1023, v1032, v1033, v1044⟩

noncomputable def q_part29 (i : grid0.Coords) (v1013 : BitVec 32) (v1023 : BitVec 32) (v1032 : BitVec 32) (v1033 : BitVec 1) (v1044 : BitVec 32) :
    Prog (TpuEff nD τ sig (Elt F) Λ₀ (.scVector ((i 0).castLE hcore0) ((i 1).castLE hsub0))) (PUnit) := do
  let c30_i32_573 : BitVec 32 := 30#32
  let v1045 : BitVec 32 := Scalar.addi c30_i32_573 v1044
  let c3_i32_574 : BitVec 32 := 3#32
  let v1046 : BitVec 32 := Scalar.divsi v1023 c3_i32_574
  let c0_i32_575 : BitVec 32 := 0#32
  let v1047 : BitVec 1 := Scalar.cmpi .sgt v1023 c0_i32_575
  let v1048 : BitVec 32 := Scalar.extui v1047
  let c0_i32_576 : BitVec 32 := 0#32
  let v1049 : BitVec 1 := Scalar.cmpi .slt v1023 c0_i32_576
  let v1050 : BitVec 32 := Scalar.extui v1049
  let v1051 : BitVec 32 := Scalar.subi v1048 v1050
  let c0_i32_577 : BitVec 32 := 0#32
  let v1052 : BitVec 1 := Scalar.cmpi .sgt c3_i32_574 c0_i32_577
  let v1053 : BitVec 32 := Scalar.extui v1052
  let c0_i32_578 : BitVec 32 := 0#32
  let v1054 : BitVec 1 := Scalar.cmpi .slt c3_i32_574 c0_i32_578
  let v1055 : BitVec 32 := Scalar.extui v1054
  let v1056 : BitVec 32 := Scalar.subi v1053 v1055
  let v1057 : BitVec 1 := Scalar.cmpi .ne v1051 v1056
  let v1058 : BitVec 32 := Scalar.remsi v1023 c3_i32_574
  let c0_i32_579 : BitVec 32 := 0#32
  let v1059 : BitVec 1 := Scalar.cmpi .ne v1058 c0_i32_579
  let v1060 : BitVec 1 := Scalar.andi v1057 v1059
  let c1_i32_580 : BitVec 32 := 1#32
  let v1061 : BitVec 32 := Scalar.subi v1046 c1_i32_580
  let v1062 : BitVec 32 := Scalar.select v1060 v1061 v1046
  let v1063 : BitVec 32 := Scalar.addi v1045 v1062
  let c3_i32_581 : BitVec 32 := 3#32
  let v1064 : BitVec 32 := Scalar.muli c3_i32_581 v1023
  let c14_i32_582 : BitVec 32 := 14#32
  let v1065 : BitVec 32 := Scalar.addi v1064 c14_i32_582
  let v1066 : BitVec 32 := Scalar.select v1033 v1063 v1065
  let c60_i32_583 : BitVec 32 := 60#32
  let v1067 : BitVec 32 := Scalar.muli v1013 c60_i32_583
  let v1068 : BitVec 32 := Scalar.addi v1067 v1032
  let c4_i32_584 : BitVec 32 := 4#32
  let v1069 : BitVec 32 := Scalar.muli v1068 c4_i32_584
  let c2_i32_585 : BitVec 32 := 2#32
  let v1070 : BitVec 32 := Scalar.addi v1069 c2_i32_585
  let c65536_i32_586 : BitVec 32 := 65536#32
  let v1071 : BitVec 32 := Scalar.muli v1070 c65536_i32_586
  let c60_i32_587 : BitVec 32 := 60#32
  let v1072 : BitVec 32 := Scalar.muli v1013 c60_i32_587
  let v1073 : BitVec 32 := Scalar.addi v1072 v1066
  let c4_i32_588 : BitVec 32 := 4#32
  let v1074 : BitVec 32 := Scalar.muli v1073 c4_i32_588
  let c2_i32_589 : BitVec 32 := 2#32
  let v1075 : BitVec 32 := Scalar.addi v1074 c2_i32_589
  let c65536_i32_590 : BitVec 32 := 65536#32
  let v1076 : BitVec 32 := Scalar.muli v1075 c65536_i32_590
  let v1077 : BitVec 32 := v1071
  let v1078 : Memref sig .scVector .hbm S65536 .f32 := (pc18 i)
  let c0_i32_591 : BitVec 32 := 0#32
  let v1079 : Memref sig .scVector .shared S1x65536 .f32 := shW.slice (Rect.unit (s := S16x65536) (k0_off1 i) S1x65536.size (k0_off1_inb i)) (fun _ => rfl)
  let v1080 : Memref sig .scVector .shared S65536 .f32 := rowM i
  Prog.lift (.enqueueDma v1080 (.here v1078) (.dma cc0_scratch4.sem) ((View.wordExact_bits rfl).reshape _ _) (View.wordExact_bits rfl) ⟨Or.inl rfl, trivial⟩)
  let v1081 : BitVec 32 := v1076
  let v1082 : Memref sig .scVector .hbm S65536 .f32 := (pc19 i)
  let c0_i32_592 : BitVec 32 := 0#32
  let v1083 : Memref sig .scVector .shared S1x65536 .f32 := shW.slice (Rect.unit (s := S16x65536) (k0_off1 i) S1x65536.size (k0_off1_inb i)) (fun _ => rfl)
  pure ⟨⟩

noncomputable def q_part30 (i : grid0.Coords) (v1 : BitVec 32) :
    Prog (TpuEff nD τ sig (Elt F) Λ₀ (.scVector ((i 0).castLE hcore0) ((i 1).castLE hsub0))) (Σ' (v1107 : BitVec 32) (v1117 : BitVec 32) (v1119 : BitVec 32), BitVec 32) := do
  let v1083 : Memref sig .scVector .shared S1x65536 .f32 := shW.slice (Rect.unit (s := S16x65536) (k0_off1 i) S1x65536.size (k0_off1_inb i)) (fun _ => rfl)
  let v1084 : Memref sig .scVector .shared S65536 .f32 := rowM i
  let v1082 : Memref sig .scVector .hbm S65536 .f32 := (pc19 i)
  Prog.lift (.enqueueDma v1084 (.here v1082) (.dma cc0_scratch4.sem) ((View.wordExact_bits rfl).reshape _ _) (View.wordExact_bits rfl) ⟨Or.inl rfl, trivial⟩)
  let c0_i32_593 : BitVec 32 := 0#32
  let v1085 : Memref sig .scVector .hbm S65536 .f32 := oW.slice (Rect.unit (s := S62914560) ![0] S65536.size inb_S62914560_S65536_0) (fun _ => rfl)
  let c0_i32_594 : BitVec 32 := 0#32
  let v1086 : Memref sig .scVector .hbm S65536 .f32 := oW.slice (Rect.unit (s := S62914560) ![0] S65536.size inb_S62914560_S65536_0) (fun _ => rfl)
  Prog.lift (.waitDma2 cc0_scratch5.sem bW v1086 (Memref.isWhole_whole _).wordExact (View.wordExact_bits rfl))
  let c0_i32_595 : BitVec 32 := 0#32
  let v1087 : Memref sig .scVector .hbm S65536 .f32 := oW.slice (Rect.unit (s := S62914560) ![0] S65536.size inb_S62914560_S65536_0) (fun _ => rfl)
  let c0_i32_596 : BitVec 32 := 0#32
  let v1088 : Memref sig .scVector .hbm S65536 .f32 := oW.slice (Rect.unit (s := S62914560) ![0] S65536.size inb_S62914560_S65536_0) (fun _ => rfl)
  Prog.lift (.waitDma2 cc0_scratch5.sem bW v1088 (Memref.isWhole_whole _).wordExact (View.wordExact_bits rfl))
  let c2_i32_597 : BitVec 32 := 2#32
  let v1089 : BitVec 32 := Scalar.muli c2_i32_597 v1
  let c0_i32_598 : BitVec 32 := 0#32
  let v1090 : BitVec 32 := Scalar.addi v1089 c0_i32_598
  let c16_i32_599 : BitVec 32 := 16#32
  let v1091 : BitVec 32 := Scalar.divsi v1090 c16_i32_599
  let c0_i32_600 : BitVec 32 := 0#32
  let v1092 : BitVec 1 := Scalar.cmpi .sgt v1090 c0_i32_600
  let v1093 : BitVec 32 := Scalar.extui v1092
  let c0_i32_601 : BitVec 32 := 0#32
  let v1094 : BitVec 1 := Scalar.cmpi .slt v1090 c0_i32_601
  let v1095 : BitVec 32 := Scalar.extui v1094
  let v1096 : BitVec 32 := Scalar.subi v1093 v1095
  let c0_i32_602 : BitVec 32 := 0#32
  let v1097 : BitVec 1 := Scalar.cmpi .sgt c16_i32_599 c0_i32_602
  let v1098 : BitVec 32 := Scalar.extui v1097
  let c0_i32_603 : BitVec 32 := 0#32
  let v1099 : BitVec 1 := Scalar.cmpi .slt c16_i32_599 c0_i32_603
  let v1100 : BitVec 32 := Scalar.extui v1099
  let v1101 : BitVec 32 := Scalar.subi v1098 v1100
  let v1102 : BitVec 1 := Scalar.cmpi .ne v1096 v1101
  let v1103 : BitVec 32 := Scalar.remsi v1090 c16_i32_599
  let c0_i32_604 : BitVec 32 := 0#32
  let v1104 : BitVec 1 := Scalar.cmpi .ne v1103 c0_i32_604
  let v1105 : BitVec 1 := Scalar.andi v1102 v1104
  let c1_i32_605 : BitVec 32 := 1#32
  let v1106 : BitVec 32 := Scalar.subi v1091 c1_i32_605
  let v1107 : BitVec 32 := Scalar.select v1105 v1106 v1091
  let c16_i32_606 : BitVec 32 := 16#32
  let c0_i32_607 : BitVec 32 := 0#32
  let v1108 : BitVec 1 := Scalar.cmpi .eq c16_i32_606 c0_i32_607
  let c1_i32_608 : BitVec 32 := 1#32
  let v1109 : BitVec 32 := Scalar.select v1108 c1_i32_608 c16_i32_606
  let v1110 : BitVec 32 := Scalar.remsi v1090 v1109
  let c0_i32_609 : BitVec 32 := 0#32
  let v1111 : BitVec 1 := Scalar.cmpi .ne v1110 c0_i32_609
  let c0_i32_610 : BitVec 32 := 0#32
  let v1112 : BitVec 1 := Scalar.cmpi .slt v1110 c0_i32_610
  let c0_i32_611 : BitVec 32 := 0#32
  let v1113 : BitVec 1 := Scalar.cmpi .slt v1109 c0_i32_611
  let v1114 : BitVec 1 := Scalar.xori v1112 v1113
  let v1115 : BitVec 1 := Scalar.andi v1114 v1111
  let v1116 : BitVec 32 := Scalar.addi v1110 v1109
  let v1117 : BitVec 32 := Scalar.select v1115 v1116 v1110
  let c16_i32_612 : BitVec 32 := 16#32
  let v1118 : BitVec 32 := Scalar.muli v1107 c16_i32_612
  let v1119 : BitVec 32 := Scalar.addi v1118 v1117
  let c4_i32_613 : BitVec 32 := 4#32
  pure ⟨v1107, v1117, v1119, c4_i32_613⟩

noncomputable def q_part31 (i : grid0.Coords) (v1117 : BitVec 32) (v1119 : BitVec 32) (c4_i32_613 : BitVec 32) :
    Prog (TpuEff nD τ sig (Elt F) Λ₀ (.scVector ((i 0).castLE hcore0) ((i 1).castLE hsub0))) (Σ' (v1122 : BitVec 32) (v1126 : BitVec 32) (v1127 : BitVec 1) (v1157 : BitVec 32), BitVec 32) := do
  let v1120 : BitVec 32 := Scalar.muli v1119 c4_i32_613
  let c3_i32_614 : BitVec 32 := 3#32
  let v1121 : BitVec 32 := Scalar.addi v1120 c3_i32_614
  let c65536_i32_615 : BitVec 32 := 65536#32
  let v1122 : BitVec 32 := Scalar.muli v1121 c65536_i32_615
  let c9_i32_616 : BitVec 32 := 9#32
  let v1123 : BitVec 1 := Scalar.cmpi .slt v1117 c9_i32_616
  let c3_i32_617 : BitVec 32 := 3#32
  let v1124 : BitVec 32 := Scalar.muli c3_i32_617 v1117
  let c16_i32_618 : BitVec 32 := 16#32
  let v1125 : BitVec 32 := Scalar.subi v1124 c16_i32_618
  let v1126 : BitVec 32 := Scalar.select v1123 v1117 v1125
  let c9_i32_619 : BitVec 32 := 9#32
  let v1127 : BitVec 1 := Scalar.cmpi .slt v1117 c9_i32_619
  let c3_i32_620 : BitVec 32 := 3#32
  let c0_i32_621 : BitVec 32 := 0#32
  let v1128 : BitVec 1 := Scalar.cmpi .eq c3_i32_620 c0_i32_621
  let c1_i32_622 : BitVec 32 := 1#32
  let v1129 : BitVec 32 := Scalar.select v1128 c1_i32_622 c3_i32_620
  let v1130 : BitVec 32 := Scalar.remsi v1117 v1129
  let c0_i32_623 : BitVec 32 := 0#32
  let v1131 : BitVec 1 := Scalar.cmpi .ne v1130 c0_i32_623
  let c0_i32_624 : BitVec 32 := 0#32
  let v1132 : BitVec 1 := Scalar.cmpi .slt v1130 c0_i32_624
  let c0_i32_625 : BitVec 32 := 0#32
  let v1133 : BitVec 1 := Scalar.cmpi .slt v1129 c0_i32_625
  let v1134 : BitVec 1 := Scalar.xori v1132 v1133
  let v1135 : BitVec 1 := Scalar.andi v1134 v1131
  let v1136 : BitVec 32 := Scalar.addi v1130 v1129
  let v1137 : BitVec 32 := Scalar.select v1135 v1136 v1130
  let c3_i32_626 : BitVec 32 := 3#32
  let v1138 : BitVec 32 := Scalar.muli c3_i32_626 v1137
  let c30_i32_627 : BitVec 32 := 30#32
  let v1139 : BitVec 32 := Scalar.addi c30_i32_627 v1138
  let c3_i32_628 : BitVec 32 := 3#32
  let v1140 : BitVec 32 := Scalar.divsi v1117 c3_i32_628
  let c0_i32_629 : BitVec 32 := 0#32
  let v1141 : BitVec 1 := Scalar.cmpi .sgt v1117 c0_i32_629
  let v1142 : BitVec 32 := Scalar.extui v1141
  let c0_i32_630 : BitVec 32 := 0#32
  let v1143 : BitVec 1 := Scalar.cmpi .slt v1117 c0_i32_630
  let v1144 : BitVec 32 := Scalar.extui v1143
  let v1145 : BitVec 32 := Scalar.subi v1142 v1144
  let c0_i32_631 : BitVec 32 := 0#32
  let v1146 : BitVec 1 := Scalar.cmpi .sgt c3_i32_628 c0_i32_631
  let v1147 : BitVec 32 := Scalar.extui v1146
  let c0_i32_632 : BitVec 32 := 0#32
  let v1148 : BitVec 1 := Scalar.cmpi .slt c3_i32_628 c0_i32_632
  let v1149 : BitVec 32 := Scalar.extui v1148
  let v1150 : BitVec 32 := Scalar.subi v1147 v1149
  let v1151 : BitVec 1 := Scalar.cmpi .ne v1145 v1150
  let v1152 : BitVec 32 := Scalar.remsi v1117 c3_i32_628
  let c0_i32_633 : BitVec 32 := 0#32
  let v1153 : BitVec 1 := Scalar.cmpi .ne v1152 c0_i32_633
  let v1154 : BitVec 1 := Scalar.andi v1151 v1153
  let c1_i32_634 : BitVec 32 := 1#32
  let v1155 : BitVec 32 := Scalar.subi v1140 c1_i32_634
  let v1156 : BitVec 32 := Scalar.select v1154 v1155 v1140
  let v1157 : BitVec 32 := Scalar.addi v1139 v1156
  let c3_i32_635 : BitVec 32 := 3#32
  pure ⟨v1122, v1126, v1127, v1157, c3_i32_635⟩

noncomputable def q_part32 (i : grid0.Coords) (v1 : BitVec 32) (v1107 : BitVec 32) (v1117 : BitVec 32) (v1122 : BitVec 32) (v1126 : BitVec 32) (v1127 : BitVec 1) (v1157 : BitVec 32) (c3_i32_635 : BitVec 32) :
    Prog (TpuEff nD τ sig (Elt F) Λ₀ (.scVector ((i 0).castLE hcore0) ((i 1).castLE hsub0))) (Σ' (v1177 : BitVec 32) (v1194 : BitVec 32), BitVec 32) := do
  let v1158 : BitVec 32 := Scalar.muli c3_i32_635 v1117
  let c14_i32_636 : BitVec 32 := 14#32
  let v1159 : BitVec 32 := Scalar.addi v1158 c14_i32_636
  let v1160 : BitVec 32 := Scalar.select v1127 v1157 v1159
  let c60_i32_637 : BitVec 32 := 60#32
  let v1161 : BitVec 32 := Scalar.muli v1107 c60_i32_637
  let v1162 : BitVec 32 := Scalar.addi v1161 v1126
  let c4_i32_638 : BitVec 32 := 4#32
  let v1163 : BitVec 32 := Scalar.muli v1162 c4_i32_638
  let c3_i32_639 : BitVec 32 := 3#32
  let v1164 : BitVec 32 := Scalar.addi v1163 c3_i32_639
  let c65536_i32_640 : BitVec 32 := 65536#32
  let v1165 : BitVec 32 := Scalar.muli v1164 c65536_i32_640
  let c60_i32_641 : BitVec 32 := 60#32
  let v1166 : BitVec 32 := Scalar.muli v1107 c60_i32_641
  let v1167 : BitVec 32 := Scalar.addi v1166 v1160
  let c4_i32_642 : BitVec 32 := 4#32
  let v1168 : BitVec 32 := Scalar.muli v1167 c4_i32_642
  let c3_i32_643 : BitVec 32 := 3#32
  let v1169 : BitVec 32 := Scalar.addi v1168 c3_i32_643
  let c65536_i32_644 : BitVec 32 := 65536#32
  let v1170 : BitVec 32 := Scalar.muli v1169 c65536_i32_644
  let v1171 : BitVec 32 := v1122
  let v1172 : Memref sig .scVector .hbm S65536 .f32 := (xw5 i)
  let v1173 : Memref sig .scVector .hbm S65536 .f32 := (xw5 i)
  Prog.lift (.enqueueDma v1173 (.here bW) (.dma cc0_scratch3.sem) (View.wordExact_bits rfl) (Memref.isWhole_whole _).wordExact ⟨Or.inl rfl, trivial⟩)
  let c0_i32_645 : BitVec 32 := 0#32
  let v1174 : Memref sig .scVector .hbm S65536 .f32 := xW.slice (Rect.unit (s := S16777216) ![0] S65536.size inb_S16777216_S65536_0) (fun _ => rfl)
  let c0_i32_646 : BitVec 32 := 0#32
  let v1175 : Memref sig .scVector .hbm S65536 .f32 := xW.slice (Rect.unit (s := S16777216) ![0] S65536.size inb_S16777216_S65536_0) (fun _ => rfl)
  Prog.lift (.waitDma2 cc0_scratch3.sem v1175 bW (View.wordExact_bits rfl) (Memref.isWhole_whole _).wordExact)
  let c2_i32_647 : BitVec 32 := 2#32
  let v1176 : BitVec 32 := Scalar.muli c2_i32_647 v1
  let c0_i32_648 : BitVec 32 := 0#32
  let v1177 : BitVec 32 := Scalar.addi v1176 c0_i32_648
  let c16_i32_649 : BitVec 32 := 16#32
  let v1178 : BitVec 32 := Scalar.divsi v1177 c16_i32_649
  let c0_i32_650 : BitVec 32 := 0#32
  let v1179 : BitVec 1 := Scalar.cmpi .sgt v1177 c0_i32_650
  let v1180 : BitVec 32 := Scalar.extui v1179
  let c0_i32_651 : BitVec 32 := 0#32
  let v1181 : BitVec 1 := Scalar.cmpi .slt v1177 c0_i32_651
  let v1182 : BitVec 32 := Scalar.extui v1181
  let v1183 : BitVec 32 := Scalar.subi v1180 v1182
  let c0_i32_652 : BitVec 32 := 0#32
  let v1184 : BitVec 1 := Scalar.cmpi .sgt c16_i32_649 c0_i32_652
  let v1185 : BitVec 32 := Scalar.extui v1184
  let c0_i32_653 : BitVec 32 := 0#32
  let v1186 : BitVec 1 := Scalar.cmpi .slt c16_i32_649 c0_i32_653
  let v1187 : BitVec 32 := Scalar.extui v1186
  let v1188 : BitVec 32 := Scalar.subi v1185 v1187
  let v1189 : BitVec 1 := Scalar.cmpi .ne v1183 v1188
  let v1190 : BitVec 32 := Scalar.remsi v1177 c16_i32_649
  let c0_i32_654 : BitVec 32 := 0#32
  let v1191 : BitVec 1 := Scalar.cmpi .ne v1190 c0_i32_654
  let v1192 : BitVec 1 := Scalar.andi v1189 v1191
  let c1_i32_655 : BitVec 32 := 1#32
  let v1193 : BitVec 32 := Scalar.subi v1178 c1_i32_655
  let v1194 : BitVec 32 := Scalar.select v1192 v1193 v1178
  let c16_i32_656 : BitVec 32 := 16#32
  pure ⟨v1177, v1194, c16_i32_656⟩

noncomputable def q_part33 (i : grid0.Coords) (v1177 : BitVec 32) (v1194 : BitVec 32) (c16_i32_656 : BitVec 32) :
    Prog (TpuEff nD τ sig (Elt F) Λ₀ (.scVector ((i 0).castLE hcore0) ((i 1).castLE hsub0))) (Σ' (v1204 : BitVec 32) (v1213 : BitVec 32) (v1214 : BitVec 1) (v1226 : BitVec 32) (c3_i32_678 : BitVec 32) (v1227 : BitVec 32) (v1229 : BitVec 32), BitVec 1) := do
  let c0_i32_657 : BitVec 32 := 0#32
  let v1195 : BitVec 1 := Scalar.cmpi .eq c16_i32_656 c0_i32_657
  let c1_i32_658 : BitVec 32 := 1#32
  let v1196 : BitVec 32 := Scalar.select v1195 c1_i32_658 c16_i32_656
  let v1197 : BitVec 32 := Scalar.remsi v1177 v1196
  let c0_i32_659 : BitVec 32 := 0#32
  let v1198 : BitVec 1 := Scalar.cmpi .ne v1197 c0_i32_659
  let c0_i32_660 : BitVec 32 := 0#32
  let v1199 : BitVec 1 := Scalar.cmpi .slt v1197 c0_i32_660
  let c0_i32_661 : BitVec 32 := 0#32
  let v1200 : BitVec 1 := Scalar.cmpi .slt v1196 c0_i32_661
  let v1201 : BitVec 1 := Scalar.xori v1199 v1200
  let v1202 : BitVec 1 := Scalar.andi v1201 v1198
  let v1203 : BitVec 32 := Scalar.addi v1197 v1196
  let v1204 : BitVec 32 := Scalar.select v1202 v1203 v1197
  let c16_i32_662 : BitVec 32 := 16#32
  let v1205 : BitVec 32 := Scalar.muli v1194 c16_i32_662
  let v1206 : BitVec 32 := Scalar.addi v1205 v1204
  let c4_i32_663 : BitVec 32 := 4#32
  let v1207 : BitVec 32 := Scalar.muli v1206 c4_i32_663
  let c3_i32_664 : BitVec 32 := 3#32
  let v1208 : BitVec 32 := Scalar.addi v1207 c3_i32_664
  let c65536_i32_665 : BitVec 32 := 65536#32
  let v1209 : BitVec 32 := Scalar.muli v1208 c65536_i32_665
  let c9_i32_666 : BitVec 32 := 9#32
  let v1210 : BitVec 1 := Scalar.cmpi .slt v1204 c9_i32_666
  let c3_i32_667 : BitVec 32 := 3#32
  let v1211 : BitVec 32 := Scalar.muli c3_i32_667 v1204
  let c16_i32_668 : BitVec 32 := 16#32
  let v1212 : BitVec 32 := Scalar.subi v1211 c16_i32_668
  let v1213 : BitVec 32 := Scalar.select v1210 v1204 v1212
  let c9_i32_669 : BitVec 32 := 9#32
  let v1214 : BitVec 1 := Scalar.cmpi .slt v1204 c9_i32_669
  let c3_i32_670 : BitVec 32 := 3#32
  let c0_i32_671 : BitVec 32 := 0#32
  let v1215 : BitVec 1 := Scalar.cmpi .eq c3_i32_670 c0_i32_671
  let c1_i32_672 : BitVec 32 := 1#32
  let v1216 : BitVec 32 := Scalar.select v1215 c1_i32_672 c3_i32_670
  let v1217 : BitVec 32 := Scalar.remsi v1204 v1216
  let c0_i32_673 : BitVec 32 := 0#32
  let v1218 : BitVec 1 := Scalar.cmpi .ne v1217 c0_i32_673
  let c0_i32_674 : BitVec 32 := 0#32
  let v1219 : BitVec 1 := Scalar.cmpi .slt v1217 c0_i32_674
  let c0_i32_675 : BitVec 32 := 0#32
  let v1220 : BitVec 1 := Scalar.cmpi .slt v1216 c0_i32_675
  let v1221 : BitVec 1 := Scalar.xori v1219 v1220
  let v1222 : BitVec 1 := Scalar.andi v1221 v1218
  let v1223 : BitVec 32 := Scalar.addi v1217 v1216
  let v1224 : BitVec 32 := Scalar.select v1222 v1223 v1217
  let c3_i32_676 : BitVec 32 := 3#32
  let v1225 : BitVec 32 := Scalar.muli c3_i32_676 v1224
  let c30_i32_677 : BitVec 32 := 30#32
  let v1226 : BitVec 32 := Scalar.addi c30_i32_677 v1225
  let c3_i32_678 : BitVec 32 := 3#32
  let v1227 : BitVec 32 := Scalar.divsi v1204 c3_i32_678
  let c0_i32_679 : BitVec 32 := 0#32
  let v1228 : BitVec 1 := Scalar.cmpi .sgt v1204 c0_i32_679
  let v1229 : BitVec 32 := Scalar.extui v1228
  let c0_i32_680 : BitVec 32 := 0#32
  let v1230 : BitVec 1 := Scalar.cmpi .slt v1204 c0_i32_680
  pure ⟨v1204, v1213, v1214, v1226, c3_i32_678, v1227, v1229, v1230⟩

noncomputable def q_part34 (i : grid0.Coords) (v1194 : BitVec 32) (v1204 : BitVec 32) (v1213 : BitVec 32) (v1214 : BitVec 1) (v1226 : BitVec 32) (c3_i32_678 : BitVec 32) (v1227 : BitVec 32) (v1229 : BitVec 32) (v1230 : BitVec 1) :
    Prog (TpuEff nD τ sig (Elt F) Λ₀ (.scVector ((i 0).castLE hcore0) ((i 1).castLE hsub0))) (PUnit) := do
  let v1231 : BitVec 32 := Scalar.extui v1230
  let v1232 : BitVec 32 := Scalar.subi v1229 v1231
  let c0_i32_681 : BitVec 32 := 0#32
  let v1233 : BitVec 1 := Scalar.cmpi .sgt c3_i32_678 c0_i32_681
  let v1234 : BitVec 32 := Scalar.extui v1233
  let c0_i32_682 : BitVec 32 := 0#32
  let v1235 : BitVec 1 := Scalar.cmpi .slt c3_i32_678 c0_i32_682
  let v1236 : BitVec 32 := Scalar.extui v1235
  let v1237 : BitVec 32 := Scalar.subi v1234 v1236
  let v1238 : BitVec 1 := Scalar.cmpi .ne v1232 v1237
  let v1239 : BitVec 32 := Scalar.remsi v1204 c3_i32_678
  let c0_i32_683 : BitVec 32 := 0#32
  let v1240 : BitVec 1 := Scalar.cmpi .ne v1239 c0_i32_683
  let v1241 : BitVec 1 := Scalar.andi v1238 v1240
  let c1_i32_684 : BitVec 32 := 1#32
  let v1242 : BitVec 32 := Scalar.subi v1227 c1_i32_684
  let v1243 : BitVec 32 := Scalar.select v1241 v1242 v1227
  let v1244 : BitVec 32 := Scalar.addi v1226 v1243
  let c3_i32_685 : BitVec 32 := 3#32
  let v1245 : BitVec 32 := Scalar.muli c3_i32_685 v1204
  let c14_i32_686 : BitVec 32 := 14#32
  let v1246 : BitVec 32 := Scalar.addi v1245 c14_i32_686
  let v1247 : BitVec 32 := Scalar.select v1214 v1244 v1246
  let c60_i32_687 : BitVec 32 := 60#32
  let v1248 : BitVec 32 := Scalar.muli v1194 c60_i32_687
  let v1249 : BitVec 32 := Scalar.addi v1248 v1213
  let c4_i32_688 : BitVec 32 := 4#32
  let v1250 : BitVec 32 := Scalar.muli v1249 c4_i32_688
  let c3_i32_689 : BitVec 32 := 3#32
  let v1251 : BitVec 32 := Scalar.addi v1250 c3_i32_689
  let c65536_i32_690 : BitVec 32 := 65536#32
  let v1252 : BitVec 32 := Scalar.muli v1251 c65536_i32_690
  let c60_i32_691 : BitVec 32 := 60#32
  let v1253 : BitVec 32 := Scalar.muli v1194 c60_i32_691
  let v1254 : BitVec 32 := Scalar.addi v1253 v1247
  let c4_i32_692 : BitVec 32 := 4#32
  let v1255 : BitVec 32 := Scalar.muli v1254 c4_i32_692
  let c3_i32_693 : BitVec 32 := 3#32
  let v1256 : BitVec 32 := Scalar.addi v1255 c3_i32_693
  let c65536_i32_694 : BitVec 32 := 65536#32
  let v1257 : BitVec 32 := Scalar.muli v1256 c65536_i32_694
  let v1258 : BitVec 32 := v1252
  let v1259 : Memref sig .scVector .hbm S65536 .f32 := (pc20 i)
  let v1260 : Memref sig .scVector .hbm S65536 .f32 := (pc20 i)
  Prog.lift (.enqueueDma bW (.here v1260) (.dma cc0_scratch5.sem) (Memref.isWhole_whole _).wordExact (View.wordExact_bits rfl) ⟨Or.inl rfl, trivial⟩)
  let v1261 : BitVec 32 := v1257
  let v1262 : Memref sig .scVector .hbm S65536 .f32 := (pc21 i)
  let v1263 : Memref sig .scVector .hbm S65536 .f32 := (pc21 i)
  Prog.lift (.enqueueDma bW (.here v1263) (.dma cc0_scratch5.sem) (Memref.isWhole_whole _).wordExact (View.wordExact_bits rfl) ⟨Or.inl rfl, trivial⟩)
  let c0_i32_695 : BitVec 32 := 0#32
  let v1264 : Memref sig .scVector .hbm S65536 .f32 := oW.slice (Rect.unit (s := S62914560) ![0] S65536.size inb_S62914560_S65536_0) (fun _ => rfl)
  let c0_i32_696 : BitVec 32 := 0#32
  let v1265 : Memref sig .scVector .shared S1x65536 .f32 := shW.slice (Rect.unit (s := S16x65536) (k0_off1 i) S1x65536.size (k0_off1_inb i)) (fun _ => rfl)
  let v1266 : Memref sig .scVector .shared S65536 .f32 := rowM i
  Prog.lift (.waitDma2 cc0_scratch4.sem v1266 v1264 ((View.wordExact_bits rfl).reshape _ _) (View.wordExact_bits rfl))
  let c0_i32_697 : BitVec 32 := 0#32
  let v1267 : Memref sig .scVector .hbm S65536 .f32 := oW.slice (Rect.unit (s := S62914560) ![0] S65536.size inb_S62914560_S65536_0) (fun _ => rfl)
  let c0_i32_698 : BitVec 32 := 0#32
  let v1268 : Memref sig .scVector .shared S1x65536 .f32 := shW.slice (Rect.unit (s := S16x65536) (k0_off1 i) S1x65536.size (k0_off1_inb i)) (fun _ => rfl)
  let v1269 : Memref sig .scVector .shared S65536 .f32 := rowM i
  pure ⟨⟩

noncomputable def q_part35 (i : grid0.Coords) (v1 : BitVec 32) :
    Prog (TpuEff nD τ sig (Elt F) Λ₀ (.scVector ((i 0).castLE hcore0) ((i 1).castLE hsub0))) (Σ' (v1288 : BitVec 32) (v1298 : BitVec 32) (v1303 : BitVec 32) (v1304 : BitVec 1), BitVec 32) := do
  let v1267 : Memref sig .scVector .hbm S65536 .f32 := oW.slice (Rect.unit (s := S62914560) ![0] S65536.size inb_S62914560_S65536_0) (fun _ => rfl)
  let v1268 : Memref sig .scVector .shared S1x65536 .f32 := shW.slice (Rect.unit (s := S16x65536) (k0_off1 i) S1x65536.size (k0_off1_inb i)) (fun _ => rfl)
  let v1269 : Memref sig .scVector .shared S65536 .f32 := rowM i
  Prog.lift (.waitDma2 cc0_scratch4.sem v1269 v1267 ((View.wordExact_bits rfl).reshape _ _) (View.wordExact_bits rfl))
  let c2_i32_699 : BitVec 32 := 2#32
  let v1270 : BitVec 32 := Scalar.muli c2_i32_699 v1
  let c1_i32_700 : BitVec 32 := 1#32
  let v1271 : BitVec 32 := Scalar.addi v1270 c1_i32_700
  let c16_i32_701 : BitVec 32 := 16#32
  let v1272 : BitVec 32 := Scalar.divsi v1271 c16_i32_701
  let c0_i32_702 : BitVec 32 := 0#32
  let v1273 : BitVec 1 := Scalar.cmpi .sgt v1271 c0_i32_702
  let v1274 : BitVec 32 := Scalar.extui v1273
  let c0_i32_703 : BitVec 32 := 0#32
  let v1275 : BitVec 1 := Scalar.cmpi .slt v1271 c0_i32_703
  let v1276 : BitVec 32 := Scalar.extui v1275
  let v1277 : BitVec 32 := Scalar.subi v1274 v1276
  let c0_i32_704 : BitVec 32 := 0#32
  let v1278 : BitVec 1 := Scalar.cmpi .sgt c16_i32_701 c0_i32_704
  let v1279 : BitVec 32 := Scalar.extui v1278
  let c0_i32_705 : BitVec 32 := 0#32
  let v1280 : BitVec 1 := Scalar.cmpi .slt c16_i32_701 c0_i32_705
  let v1281 : BitVec 32 := Scalar.extui v1280
  let v1282 : BitVec 32 := Scalar.subi v1279 v1281
  let v1283 : BitVec 1 := Scalar.cmpi .ne v1277 v1282
  let v1284 : BitVec 32 := Scalar.remsi v1271 c16_i32_701
  let c0_i32_706 : BitVec 32 := 0#32
  let v1285 : BitVec 1 := Scalar.cmpi .ne v1284 c0_i32_706
  let v1286 : BitVec 1 := Scalar.andi v1283 v1285
  let c1_i32_707 : BitVec 32 := 1#32
  let v1287 : BitVec 32 := Scalar.subi v1272 c1_i32_707
  let v1288 : BitVec 32 := Scalar.select v1286 v1287 v1272
  let c16_i32_708 : BitVec 32 := 16#32
  let c0_i32_709 : BitVec 32 := 0#32
  let v1289 : BitVec 1 := Scalar.cmpi .eq c16_i32_708 c0_i32_709
  let c1_i32_710 : BitVec 32 := 1#32
  let v1290 : BitVec 32 := Scalar.select v1289 c1_i32_710 c16_i32_708
  let v1291 : BitVec 32 := Scalar.remsi v1271 v1290
  let c0_i32_711 : BitVec 32 := 0#32
  let v1292 : BitVec 1 := Scalar.cmpi .ne v1291 c0_i32_711
  let c0_i32_712 : BitVec 32 := 0#32
  let v1293 : BitVec 1 := Scalar.cmpi .slt v1291 c0_i32_712
  let c0_i32_713 : BitVec 32 := 0#32
  let v1294 : BitVec 1 := Scalar.cmpi .slt v1290 c0_i32_713
  let v1295 : BitVec 1 := Scalar.xori v1293 v1294
  let v1296 : BitVec 1 := Scalar.andi v1295 v1292
  let v1297 : BitVec 32 := Scalar.addi v1291 v1290
  let v1298 : BitVec 32 := Scalar.select v1296 v1297 v1291
  let c16_i32_714 : BitVec 32 := 16#32
  let v1299 : BitVec 32 := Scalar.muli v1288 c16_i32_714
  let v1300 : BitVec 32 := Scalar.addi v1299 v1298
  let c4_i32_715 : BitVec 32 := 4#32
  let v1301 : BitVec 32 := Scalar.muli v1300 c4_i32_715
  let c0_i32_716 : BitVec 32 := 0#32
  let v1302 : BitVec 32 := Scalar.addi v1301 c0_i32_716
  let c65536_i32_717 : BitVec 32 := 65536#32
  let v1303 : BitVec 32 := Scalar.muli v1302 c65536_i32_717
  let c9_i32_718 : BitVec 32 := 9#32
  let v1304 : BitVec 1 := Scalar.cmpi .slt v1298 c9_i32_718
  let c3_i32_719 : BitVec 32 := 3#32
  let v1305 : BitVec 32 := Scalar.muli c3_i32_719 v1298
  let c16_i32_720 : BitVec 32 := 16#32
  let v1306 : BitVec 32 := Scalar.subi v1305 c16_i32_720
  pure ⟨v1288, v1298, v1303, v1304, v1306⟩

noncomputable def q_part36 (i : grid0.Coords) (v1288 : BitVec 32) (v1298 : BitVec 32) (v1304 : BitVec 1) (v1306 : BitVec 32) :
    Prog (TpuEff nD τ sig (Elt F) Λ₀ (.scVector ((i 0).castLE hcore0) ((i 1).castLE hsub0))) (Σ' (v1341 : BitVec 32), BitVec 32) := do
  let v1307 : BitVec 32 := Scalar.select v1304 v1298 v1306
  let c9_i32_721 : BitVec 32 := 9#32
  let v1308 : BitVec 1 := Scalar.cmpi .slt v1298 c9_i32_721
  let c3_i32_722 : BitVec 32 := 3#32
  let c0_i32_723 : BitVec 32 := 0#32
  let v1309 : BitVec 1 := Scalar.cmpi .eq c3_i32_722 c0_i32_723
  let c1_i32_724 : BitVec 32 := 1#32
  let v1310 : BitVec 32 := Scalar.select v1309 c1_i32_724 c3_i32_722
  let v1311 : BitVec 32 := Scalar.remsi v1298 v1310
  let c0_i32_725 : BitVec 32 := 0#32
  let v1312 : BitVec 1 := Scalar.cmpi .ne v1311 c0_i32_725
  let c0_i32_726 : BitVec 32 := 0#32
  let v1313 : BitVec 1 := Scalar.cmpi .slt v1311 c0_i32_726
  let c0_i32_727 : BitVec 32 := 0#32
  let v1314 : BitVec 1 := Scalar.cmpi .slt v1310 c0_i32_727
  let v1315 : BitVec 1 := Scalar.xori v1313 v1314
  let v1316 : BitVec 1 := Scalar.andi v1315 v1312
  let v1317 : BitVec 32 := Scalar.addi v1311 v1310
  let v1318 : BitVec 32 := Scalar.select v1316 v1317 v1311
  let c3_i32_728 : BitVec 32 := 3#32
  let v1319 : BitVec 32 := Scalar.muli c3_i32_728 v1318
  let c30_i32_729 : BitVec 32 := 30#32
  let v1320 : BitVec 32 := Scalar.addi c30_i32_729 v1319
  let c3_i32_730 : BitVec 32 := 3#32
  let v1321 : BitVec 32 := Scalar.divsi v1298 c3_i32_730
  let c0_i32_731 : BitVec 32 := 0#32
  let v1322 : BitVec 1 := Scalar.cmpi .sgt v1298 c0_i32_731
  let v1323 : BitVec 32 := Scalar.extui v1322
  let c0_i32_732 : BitVec 32 := 0#32
  let v1324 : BitVec 1 := Scalar.cmpi .slt v1298 c0_i32_732
  let v1325 : BitVec 32 := Scalar.extui v1324
  let v1326 : BitVec 32 := Scalar.subi v1323 v1325
  let c0_i32_733 : BitVec 32 := 0#32
  let v1327 : BitVec 1 := Scalar.cmpi .sgt c3_i32_730 c0_i32_733
  let v1328 : BitVec 32 := Scalar.extui v1327
  let c0_i32_734 : BitVec 32 := 0#32
  let v1329 : BitVec 1 := Scalar.cmpi .slt c3_i32_730 c0_i32_734
  let v1330 : BitVec 32 := Scalar.extui v1329
  let v1331 : BitVec 32 := Scalar.subi v1328 v1330
  let v1332 : BitVec 1 := Scalar.cmpi .ne v1326 v1331
  let v1333 : BitVec 32 := Scalar.remsi v1298 c3_i32_730
  let c0_i32_735 : BitVec 32 := 0#32
  let v1334 : BitVec 1 := Scalar.cmpi .ne v1333 c0_i32_735
  let v1335 : BitVec 1 := Scalar.andi v1332 v1334
  let c1_i32_736 : BitVec 32 := 1#32
  let v1336 : BitVec 32 := Scalar.subi v1321 c1_i32_736
  let v1337 : BitVec 32 := Scalar.select v1335 v1336 v1321
  let v1338 : BitVec 32 := Scalar.addi v1320 v1337
  let c3_i32_737 : BitVec 32 := 3#32
  let v1339 : BitVec 32 := Scalar.muli c3_i32_737 v1298
  let c14_i32_738 : BitVec 32 := 14#32
  let v1340 : BitVec 32 := Scalar.addi v1339 c14_i32_738
  let v1341 : BitVec 32 := Scalar.select v1308 v1338 v1340
  let c60_i32_739 : BitVec 32 := 60#32
  let v1342 : BitVec 32 := Scalar.muli v1288 c60_i32_739
  let v1343 : BitVec 32 := Scalar.addi v1342 v1307
  let c4_i32_740 : BitVec 32 := 4#32
  let v1344 : BitVec 32 := Scalar.muli v1343 c4_i32_740
  let c0_i32_741 : BitVec 32 := 0#32
  let v1345 : BitVec 32 := Scalar.addi v1344 c0_i32_741
  pure ⟨v1341, v1345⟩

noncomputable def q_part37 (i : grid0.Coords) (v1 : BitVec 32) (v1288 : BitVec 32) (v1303 : BitVec 32) (v1341 : BitVec 32) (v1345 : BitVec 32) :
    Prog (TpuEff nD τ sig (Elt F) Λ₀ (.scVector ((i 0).castLE hcore0) ((i 1).castLE hsub0))) (Σ' (v1377 : BitVec 32) (v1379 : BitVec 32) (v1380 : BitVec 32) (v1381 : BitVec 1), BitVec 32) := do
  let c65536_i32_742 : BitVec 32 := 65536#32
  let v1346 : BitVec 32 := Scalar.muli v1345 c65536_i32_742
  let c60_i32_743 : BitVec 32 := 60#32
  let v1347 : BitVec 32 := Scalar.muli v1288 c60_i32_743
  let v1348 : BitVec 32 := Scalar.addi v1347 v1341
  let c4_i32_744 : BitVec 32 := 4#32
  let v1349 : BitVec 32 := Scalar.muli v1348 c4_i32_744
  let c0_i32_745 : BitVec 32 := 0#32
  let v1350 : BitVec 32 := Scalar.addi v1349 c0_i32_745
  let c65536_i32_746 : BitVec 32 := 65536#32
  let v1351 : BitVec 32 := Scalar.muli v1350 c65536_i32_746
  let v1352 : BitVec 32 := v1303
  let c0_i32_747 : BitVec 32 := 0#32
  let v1353 : Memref sig .scVector .shared S1x65536 .f32 := shW.slice (Rect.unit (s := S16x65536) (k0_off1 i) S1x65536.size (k0_off1_inb i)) (fun _ => rfl)
  let v1354 : Memref sig .scVector .shared S65536 .f32 := rowM i
  let v1355 : Memref sig .scVector .hbm S65536 .f32 := (xw6 i)
  Prog.lift (.enqueueDma v1355 (.here v1354) (.dma cc0_scratch2.sem) (View.wordExact_bits rfl) ((View.wordExact_bits rfl).reshape _ _) ⟨Or.inl rfl, trivial⟩)
  let c0_i32_748 : BitVec 32 := 0#32
  let v1356 : Memref sig .scVector .shared S1x65536 .f32 := shW.slice (Rect.unit (s := S16x65536) (k0_off1 i) S1x65536.size (k0_off1_inb i)) (fun _ => rfl)
  let v1357 : Memref sig .scVector .shared S65536 .f32 := rowM i
  let c0_i32_749 : BitVec 32 := 0#32
  let v1358 : Memref sig .scVector .hbm S65536 .f32 := xW.slice (Rect.unit (s := S16777216) ![0] S65536.size inb_S16777216_S65536_0) (fun _ => rfl)
  Prog.lift (.waitDma2 cc0_scratch2.sem v1358 v1357 (View.wordExact_bits rfl) ((View.wordExact_bits rfl).reshape _ _))
  let c2_i32_750 : BitVec 32 := 2#32
  let v1359 : BitVec 32 := Scalar.muli c2_i32_750 v1
  let c1_i32_751 : BitVec 32 := 1#32
  let v1360 : BitVec 32 := Scalar.addi v1359 c1_i32_751
  let c16_i32_752 : BitVec 32 := 16#32
  let v1361 : BitVec 32 := Scalar.divsi v1360 c16_i32_752
  let c0_i32_753 : BitVec 32 := 0#32
  let v1362 : BitVec 1 := Scalar.cmpi .sgt v1360 c0_i32_753
  let v1363 : BitVec 32 := Scalar.extui v1362
  let c0_i32_754 : BitVec 32 := 0#32
  let v1364 : BitVec 1 := Scalar.cmpi .slt v1360 c0_i32_754
  let v1365 : BitVec 32 := Scalar.extui v1364
  let v1366 : BitVec 32 := Scalar.subi v1363 v1365
  let c0_i32_755 : BitVec 32 := 0#32
  let v1367 : BitVec 1 := Scalar.cmpi .sgt c16_i32_752 c0_i32_755
  let v1368 : BitVec 32 := Scalar.extui v1367
  let c0_i32_756 : BitVec 32 := 0#32
  let v1369 : BitVec 1 := Scalar.cmpi .slt c16_i32_752 c0_i32_756
  let v1370 : BitVec 32 := Scalar.extui v1369
  let v1371 : BitVec 32 := Scalar.subi v1368 v1370
  let v1372 : BitVec 1 := Scalar.cmpi .ne v1366 v1371
  let v1373 : BitVec 32 := Scalar.remsi v1360 c16_i32_752
  let c0_i32_757 : BitVec 32 := 0#32
  let v1374 : BitVec 1 := Scalar.cmpi .ne v1373 c0_i32_757
  let v1375 : BitVec 1 := Scalar.andi v1372 v1374
  let c1_i32_758 : BitVec 32 := 1#32
  let v1376 : BitVec 32 := Scalar.subi v1361 c1_i32_758
  let v1377 : BitVec 32 := Scalar.select v1375 v1376 v1361
  let c16_i32_759 : BitVec 32 := 16#32
  let c0_i32_760 : BitVec 32 := 0#32
  let v1378 : BitVec 1 := Scalar.cmpi .eq c16_i32_759 c0_i32_760
  let c1_i32_761 : BitVec 32 := 1#32
  let v1379 : BitVec 32 := Scalar.select v1378 c1_i32_761 c16_i32_759
  let v1380 : BitVec 32 := Scalar.remsi v1360 v1379
  let c0_i32_762 : BitVec 32 := 0#32
  let v1381 : BitVec 1 := Scalar.cmpi .ne v1380 c0_i32_762
  let c0_i32_763 : BitVec 32 := 0#32
  pure ⟨v1377, v1379, v1380, v1381, c0_i32_763⟩

noncomputable def q_part38 (i : grid0.Coords) (v1377 : BitVec 32) (v1379 : BitVec 32) (v1380 : BitVec 32) (v1381 : BitVec 1) (c0_i32_763 : BitVec 32) :
    Prog (TpuEff nD τ sig (Elt F) Λ₀ (.scVector ((i 0).castLE hcore0) ((i 1).castLE hsub0))) (Σ' (v1387 : BitVec 32) (v1396 : BitVec 32) (v1397 : BitVec 1) (v1409 : BitVec 32) (c3_i32_781 : BitVec 32) (v1410 : BitVec 32) (v1415 : BitVec 32) (v1417 : BitVec 32), BitVec 32) := do
  let v1382 : BitVec 1 := Scalar.cmpi .slt v1380 c0_i32_763
  let c0_i32_764 : BitVec 32 := 0#32
  let v1383 : BitVec 1 := Scalar.cmpi .slt v1379 c0_i32_764
  let v1384 : BitVec 1 := Scalar.xori v1382 v1383
  let v1385 : BitVec 1 := Scalar.andi v1384 v1381
  let v1386 : BitVec 32 := Scalar.addi v1380 v1379
  let v1387 : BitVec 32 := Scalar.select v1385 v1386 v1380
  let c16_i32_765 : BitVec 32 := 16#32
  let v1388 : BitVec 32 := Scalar.muli v1377 c16_i32_765
  let v1389 : BitVec 32 := Scalar.addi v1388 v1387
  let c4_i32_766 : BitVec 32 := 4#32
  let v1390 : BitVec 32 := Scalar.muli v1389 c4_i32_766
  let c0_i32_767 : BitVec 32 := 0#32
  let v1391 : BitVec 32 := Scalar.addi v1390 c0_i32_767
  let c65536_i32_768 : BitVec 32 := 65536#32
  let v1392 : BitVec 32 := Scalar.muli v1391 c65536_i32_768
  let c9_i32_769 : BitVec 32 := 9#32
  let v1393 : BitVec 1 := Scalar.cmpi .slt v1387 c9_i32_769
  let c3_i32_770 : BitVec 32 := 3#32
  let v1394 : BitVec 32 := Scalar.muli c3_i32_770 v1387
  let c16_i32_771 : BitVec 32 := 16#32
  let v1395 : BitVec 32 := Scalar.subi v1394 c16_i32_771
  let v1396 : BitVec 32 := Scalar.select v1393 v1387 v1395
  let c9_i32_772 : BitVec 32 := 9#32
  let v1397 : BitVec 1 := Scalar.cmpi .slt v1387 c9_i32_772
  let c3_i32_773 : BitVec 32 := 3#32
  let c0_i32_774 : BitVec 32 := 0#32
  let v1398 : BitVec 1 := Scalar.cmpi .eq c3_i32_773 c0_i32_774
  let c1_i32_775 : BitVec 32 := 1#32
  let v1399 : BitVec 32 := Scalar.select v1398 c1_i32_775 c3_i32_773
  let v1400 : BitVec 32 := Scalar.remsi v1387 v1399
  let c0_i32_776 : BitVec 32 := 0#32
  let v1401 : BitVec 1 := Scalar.cmpi .ne v1400 c0_i32_776
  let c0_i32_777 : BitVec 32 := 0#32
  let v1402 : BitVec 1 := Scalar.cmpi .slt v1400 c0_i32_777
  let c0_i32_778 : BitVec 32 := 0#32
  let v1403 : BitVec 1 := Scalar.cmpi .slt v1399 c0_i32_778
  let v1404 : BitVec 1 := Scalar.xori v1402 v1403
  let v1405 : BitVec 1 := Scalar.andi v1404 v1401
  let v1406 : BitVec 32 := Scalar.addi v1400 v1399
  let v1407 : BitVec 32 := Scalar.select v1405 v1406 v1400
  let c3_i32_779 : BitVec 32 := 3#32
  let v1408 : BitVec 32 := Scalar.muli c3_i32_779 v1407
  let c30_i32_780 : BitVec 32 := 30#32
  let v1409 : BitVec 32 := Scalar.addi c30_i32_780 v1408
  let c3_i32_781 : BitVec 32 := 3#32
  let v1410 : BitVec 32 := Scalar.divsi v1387 c3_i32_781
  let c0_i32_782 : BitVec 32 := 0#32
  let v1411 : BitVec 1 := Scalar.cmpi .sgt v1387 c0_i32_782
  let v1412 : BitVec 32 := Scalar.extui v1411
  let c0_i32_783 : BitVec 32 := 0#32
  let v1413 : BitVec 1 := Scalar.cmpi .slt v1387 c0_i32_783
  let v1414 : BitVec 32 := Scalar.extui v1413
  let v1415 : BitVec 32 := Scalar.subi v1412 v1414
  let c0_i32_784 : BitVec 32 := 0#32
  let v1416 : BitVec 1 := Scalar.cmpi .sgt c3_i32_781 c0_i32_784
  let v1417 : BitVec 32 := Scalar.extui v1416
  let c0_i32_785 : BitVec 32 := 0#32
  let v1418 : BitVec 1 := Scalar.cmpi .slt c3_i32_781 c0_i32_785
  let v1419 : BitVec 32 := Scalar.extui v1418
  pure ⟨v1387, v1396, v1397, v1409, c3_i32_781, v1410, v1415, v1417, v1419⟩

noncomputable def q_part39 (i : grid0.Coords) (v1 : BitVec 32) (v1377 : BitVec 32) (v1387 : BitVec 32) (v1396 : BitVec 32) (v1397 : BitVec 1) (v1409 : BitVec 32) (c3_i32_781 : BitVec 32) (v1410 : BitVec 32) (v1415 : BitVec 32) (v1417 : BitVec 32) (v1419 : BitVec 32) :
    Prog (TpuEff nD τ sig (Elt F) Λ₀ (.scVector ((i 0).castLE hcore0) ((i 1).castLE hsub0))) (Σ' (v1454 : BitVec 32), BitVec 32) := do
  let v1420 : BitVec 32 := Scalar.subi v1417 v1419
  let v1421 : BitVec 1 := Scalar.cmpi .ne v1415 v1420
  let v1422 : BitVec 32 := Scalar.remsi v1387 c3_i32_781
  let c0_i32_786 : BitVec 32 := 0#32
  let v1423 : BitVec 1 := Scalar.cmpi .ne v1422 c0_i32_786
  let v1424 : BitVec 1 := Scalar.andi v1421 v1423
  let c1_i32_787 : BitVec 32 := 1#32
  let v1425 : BitVec 32 := Scalar.subi v1410 c1_i32_787
  let v1426 : BitVec 32 := Scalar.select v1424 v1425 v1410
  let v1427 : BitVec 32 := Scalar.addi v1409 v1426
  let c3_i32_788 : BitVec 32 := 3#32
  let v1428 : BitVec 32 := Scalar.muli c3_i32_788 v1387
  let c14_i32_789 : BitVec 32 := 14#32
  let v1429 : BitVec 32 := Scalar.addi v1428 c14_i32_789
  let v1430 : BitVec 32 := Scalar.select v1397 v1427 v1429
  let c60_i32_790 : BitVec 32 := 60#32
  let v1431 : BitVec 32 := Scalar.muli v1377 c60_i32_790
  let v1432 : BitVec 32 := Scalar.addi v1431 v1396
  let c4_i32_791 : BitVec 32 := 4#32
  let v1433 : BitVec 32 := Scalar.muli v1432 c4_i32_791
  let c0_i32_792 : BitVec 32 := 0#32
  let v1434 : BitVec 32 := Scalar.addi v1433 c0_i32_792
  let c65536_i32_793 : BitVec 32 := 65536#32
  let v1435 : BitVec 32 := Scalar.muli v1434 c65536_i32_793
  let c60_i32_794 : BitVec 32 := 60#32
  let v1436 : BitVec 32 := Scalar.muli v1377 c60_i32_794
  let v1437 : BitVec 32 := Scalar.addi v1436 v1430
  let c4_i32_795 : BitVec 32 := 4#32
  let v1438 : BitVec 32 := Scalar.muli v1437 c4_i32_795
  let c0_i32_796 : BitVec 32 := 0#32
  let v1439 : BitVec 32 := Scalar.addi v1438 c0_i32_796
  let c65536_i32_797 : BitVec 32 := 65536#32
  let v1440 : BitVec 32 := Scalar.muli v1439 c65536_i32_797
  let v1441 : BitVec 32 := v1435
  let v1442 : Memref sig .scVector .hbm S65536 .f32 := (pc22 i)
  let c0_i32_798 : BitVec 32 := 0#32
  let v1443 : Memref sig .scVector .shared S1x65536 .f32 := shW.slice (Rect.unit (s := S16x65536) (k0_off1 i) S1x65536.size (k0_off1_inb i)) (fun _ => rfl)
  let v1444 : Memref sig .scVector .shared S65536 .f32 := rowM i
  Prog.lift (.enqueueDma v1444 (.here v1442) (.dma cc0_scratch4.sem) ((View.wordExact_bits rfl).reshape _ _) (View.wordExact_bits rfl) ⟨Or.inl rfl, trivial⟩)
  let v1445 : BitVec 32 := v1440
  let v1446 : Memref sig .scVector .hbm S65536 .f32 := (pc23 i)
  let c0_i32_799 : BitVec 32 := 0#32
  let v1447 : Memref sig .scVector .shared S1x65536 .f32 := shW.slice (Rect.unit (s := S16x65536) (k0_off1 i) S1x65536.size (k0_off1_inb i)) (fun _ => rfl)
  let v1448 : Memref sig .scVector .shared S65536 .f32 := rowM i
  Prog.lift (.enqueueDma v1448 (.here v1446) (.dma cc0_scratch4.sem) ((View.wordExact_bits rfl).reshape _ _) (View.wordExact_bits rfl) ⟨Or.inl rfl, trivial⟩)
  let c0_i32_800 : BitVec 32 := 0#32
  let v1449 : Memref sig .scVector .hbm S65536 .f32 := oW.slice (Rect.unit (s := S62914560) ![0] S65536.size inb_S62914560_S65536_0) (fun _ => rfl)
  let c0_i32_801 : BitVec 32 := 0#32
  let v1450 : Memref sig .scVector .hbm S65536 .f32 := oW.slice (Rect.unit (s := S62914560) ![0] S65536.size inb_S62914560_S65536_0) (fun _ => rfl)
  Prog.lift (.waitDma2 cc0_scratch5.sem bW v1450 (Memref.isWhole_whole _).wordExact (View.wordExact_bits rfl))
  let c0_i32_802 : BitVec 32 := 0#32
  let v1451 : Memref sig .scVector .hbm S65536 .f32 := oW.slice (Rect.unit (s := S62914560) ![0] S65536.size inb_S62914560_S65536_0) (fun _ => rfl)
  let c0_i32_803 : BitVec 32 := 0#32
  let v1452 : Memref sig .scVector .hbm S65536 .f32 := oW.slice (Rect.unit (s := S62914560) ![0] S65536.size inb_S62914560_S65536_0) (fun _ => rfl)
  Prog.lift (.waitDma2 cc0_scratch5.sem bW v1452 (Memref.isWhole_whole _).wordExact (View.wordExact_bits rfl))
  let c2_i32_804 : BitVec 32 := 2#32
  let v1453 : BitVec 32 := Scalar.muli c2_i32_804 v1
  let c1_i32_805 : BitVec 32 := 1#32
  let v1454 : BitVec 32 := Scalar.addi v1453 c1_i32_805
  let c16_i32_806 : BitVec 32 := 16#32
  pure ⟨v1454, c16_i32_806⟩

noncomputable def q_part40 (i : grid0.Coords) (v1454 : BitVec 32) (c16_i32_806 : BitVec 32) :
    Prog (TpuEff nD τ sig (Elt F) Λ₀ (.scVector ((i 0).castLE hcore0) ((i 1).castLE hsub0))) (Σ' (v1471 : BitVec 32) (v1481 : BitVec 32) (v1486 : BitVec 32) (v1490 : BitVec 32) (v1491 : BitVec 1) (c3_i32_827 : BitVec 32), BitVec 1) := do
  let v1455 : BitVec 32 := Scalar.divsi v1454 c16_i32_806
  let c0_i32_807 : BitVec 32 := 0#32
  let v1456 : BitVec 1 := Scalar.cmpi .sgt v1454 c0_i32_807
  let v1457 : BitVec 32 := Scalar.extui v1456
  let c0_i32_808 : BitVec 32 := 0#32
  let v1458 : BitVec 1 := Scalar.cmpi .slt v1454 c0_i32_808
  let v1459 : BitVec 32 := Scalar.extui v1458
  let v1460 : BitVec 32 := Scalar.subi v1457 v1459
  let c0_i32_809 : BitVec 32 := 0#32
  let v1461 : BitVec 1 := Scalar.cmpi .sgt c16_i32_806 c0_i32_809
  let v1462 : BitVec 32 := Scalar.extui v1461
  let c0_i32_810 : BitVec 32 := 0#32
  let v1463 : BitVec 1 := Scalar.cmpi .slt c16_i32_806 c0_i32_810
  let v1464 : BitVec 32 := Scalar.extui v1463
  let v1465 : BitVec 32 := Scalar.subi v1462 v1464
  let v1466 : BitVec 1 := Scalar.cmpi .ne v1460 v1465
  let v1467 : BitVec 32 := Scalar.remsi v1454 c16_i32_806
  let c0_i32_811 : BitVec 32 := 0#32
  let v1468 : BitVec 1 := Scalar.cmpi .ne v1467 c0_i32_811
  let v1469 : BitVec 1 := Scalar.andi v1466 v1468
  let c1_i32_812 : BitVec 32 := 1#32
  let v1470 : BitVec 32 := Scalar.subi v1455 c1_i32_812
  let v1471 : BitVec 32 := Scalar.select v1469 v1470 v1455
  let c16_i32_813 : BitVec 32 := 16#32
  let c0_i32_814 : BitVec 32 := 0#32
  let v1472 : BitVec 1 := Scalar.cmpi .eq c16_i32_813 c0_i32_814
  let c1_i32_815 : BitVec 32 := 1#32
  let v1473 : BitVec 32 := Scalar.select v1472 c1_i32_815 c16_i32_813
  let v1474 : BitVec 32 := Scalar.remsi v1454 v1473
  let c0_i32_816 : BitVec 32 := 0#32
  let v1475 : BitVec 1 := Scalar.cmpi .ne v1474 c0_i32_816
  let c0_i32_817 : BitVec 32 := 0#32
  let v1476 : BitVec 1 := Scalar.cmpi .slt v1474 c0_i32_817
  let c0_i32_818 : BitVec 32 := 0#32
  let v1477 : BitVec 1 := Scalar.cmpi .slt v1473 c0_i32_818
  let v1478 : BitVec 1 := Scalar.xori v1476 v1477
  let v1479 : BitVec 1 := Scalar.andi v1478 v1475
  let v1480 : BitVec 32 := Scalar.addi v1474 v1473
  let v1481 : BitVec 32 := Scalar.select v1479 v1480 v1474
  let c16_i32_819 : BitVec 32 := 16#32
  let v1482 : BitVec 32 := Scalar.muli v1471 c16_i32_819
  let v1483 : BitVec 32 := Scalar.addi v1482 v1481
  let c4_i32_820 : BitVec 32 := 4#32
  let v1484 : BitVec 32 := Scalar.muli v1483 c4_i32_820
  let c1_i32_821 : BitVec 32 := 1#32
  let v1485 : BitVec 32 := Scalar.addi v1484 c1_i32_821
  let c65536_i32_822 : BitVec 32 := 65536#32
  let v1486 : BitVec 32 := Scalar.muli v1485 c65536_i32_822
  let c9_i32_823 : BitVec 32 := 9#32
  let v1487 : BitVec 1 := Scalar.cmpi .slt v1481 c9_i32_823
  let c3_i32_824 : BitVec 32 := 3#32
  let v1488 : BitVec 32 := Scalar.muli c3_i32_824 v1481
  let c16_i32_825 : BitVec 32 := 16#32
  let v1489 : BitVec 32 := Scalar.subi v1488 c16_i32_825
  let v1490 : BitVec 32 := Scalar.select v1487 v1481 v1489
  let c9_i32_826 : BitVec 32 := 9#32
  let v1491 : BitVec 1 := Scalar.cmpi .slt v1481 c9_i32_826
  let c3_i32_827 : BitVec 32 := 3#32
  let c0_i32_828 : BitVec 32 := 0#32
  let v1492 : BitVec 1 := Scalar.cmpi .eq c3_i32_827 c0_i32_828
  pure ⟨v1471, v1481, v1486, v1490, v1491, c3_i32_827, v1492⟩

noncomputable def q_part41 (i : grid0.Coords) (v1471 : BitVec 32) (v1481 : BitVec 32) (v1490 : BitVec 32) (v1491 : BitVec 1) (c3_i32_827 : BitVec 32) (v1492 : BitVec 1) :
    Prog (TpuEff nD τ sig (Elt F) Λ₀ (.scVector ((i 0).castLE hcore0) ((i 1).castLE hsub0))) (Σ' (v1531 : BitVec 32), BitVec 32) := do
  let c1_i32_829 : BitVec 32 := 1#32
  let v1493 : BitVec 32 := Scalar.select v1492 c1_i32_829 c3_i32_827
  let v1494 : BitVec 32 := Scalar.remsi v1481 v1493
  let c0_i32_830 : BitVec 32 := 0#32
  let v1495 : BitVec 1 := Scalar.cmpi .ne v1494 c0_i32_830
  let c0_i32_831 : BitVec 32 := 0#32
  let v1496 : BitVec 1 := Scalar.cmpi .slt v1494 c0_i32_831
  let c0_i32_832 : BitVec 32 := 0#32
  let v1497 : BitVec 1 := Scalar.cmpi .slt v1493 c0_i32_832
  let v1498 : BitVec 1 := Scalar.xori v1496 v1497
  let v1499 : BitVec 1 := Scalar.andi v1498 v1495
  let v1500 : BitVec 32 := Scalar.addi v1494 v1493
  let v1501 : BitVec 32 := Scalar.select v1499 v1500 v1494
  let c3_i32_833 : BitVec 32 := 3#32
  let v1502 : BitVec 32 := Scalar.muli c3_i32_833 v1501
  let c30_i32_834 : BitVec 32 := 30#32
  let v1503 : BitVec 32 := Scalar.addi c30_i32_834 v1502
  let c3_i32_835 : BitVec 32 := 3#32
  let v1504 : BitVec 32 := Scalar.divsi v1481 c3_i32_835
  let c0_i32_836 : BitVec 32 := 0#32
  let v1505 : BitVec 1 := Scalar.cmpi .sgt v1481 c0_i32_836
  let v1506 : BitVec 32 := Scalar.extui v1505
  let c0_i32_837 : BitVec 32 := 0#32
  let v1507 : BitVec 1 := Scalar.cmpi .slt v1481 c0_i32_837
  let v1508 : BitVec 32 := Scalar.extui v1507
  let v1509 : BitVec 32 := Scalar.subi v1506 v1508
  let c0_i32_838 : BitVec 32 := 0#32
  let v1510 : BitVec 1 := Scalar.cmpi .sgt c3_i32_835 c0_i32_838
  let v1511 : BitVec 32 := Scalar.extui v1510
  let c0_i32_839 : BitVec 32 := 0#32
  let v1512 : BitVec 1 := Scalar.cmpi .slt c3_i32_835 c0_i32_839
  let v1513 : BitVec 32 := Scalar.extui v1512
  let v1514 : BitVec 32 := Scalar.subi v1511 v1513
  let v1515 : BitVec 1 := Scalar.cmpi .ne v1509 v1514
  let v1516 : BitVec 32 := Scalar.remsi v1481 c3_i32_835
  let c0_i32_840 : BitVec 32 := 0#32
  let v1517 : BitVec 1 := Scalar.cmpi .ne v1516 c0_i32_840
  let v1518 : BitVec 1 := Scalar.andi v1515 v1517
  let c1_i32_841 : BitVec 32 := 1#32
  let v1519 : BitVec 32 := Scalar.subi v1504 c1_i32_841
  let v1520 : BitVec 32 := Scalar.select v1518 v1519 v1504
  let v1521 : BitVec 32 := Scalar.addi v1503 v1520
  let c3_i32_842 : BitVec 32 := 3#32
  let v1522 : BitVec 32 := Scalar.muli c3_i32_842 v1481
  let c14_i32_843 : BitVec 32 := 14#32
  let v1523 : BitVec 32 := Scalar.addi v1522 c14_i32_843
  let v1524 : BitVec 32 := Scalar.select v1491 v1521 v1523
  let c60_i32_844 : BitVec 32 := 60#32
  let v1525 : BitVec 32 := Scalar.muli v1471 c60_i32_844
  let v1526 : BitVec 32 := Scalar.addi v1525 v1490
  let c4_i32_845 : BitVec 32 := 4#32
  let v1527 : BitVec 32 := Scalar.muli v1526 c4_i32_845
  let c1_i32_846 : BitVec 32 := 1#32
  let v1528 : BitVec 32 := Scalar.addi v1527 c1_i32_846
  let c65536_i32_847 : BitVec 32 := 65536#32
  let v1529 : BitVec 32 := Scalar.muli v1528 c65536_i32_847
  let c60_i32_848 : BitVec 32 := 60#32
  let v1530 : BitVec 32 := Scalar.muli v1471 c60_i32_848
  let v1531 : BitVec 32 := Scalar.addi v1530 v1524
  let c4_i32_849 : BitVec 32 := 4#32
  pure ⟨v1531, c4_i32_849⟩

noncomputable def q_part42 (i : grid0.Coords) (v1 : BitVec 32) (v1486 : BitVec 32) (v1531 : BitVec 32) (c4_i32_849 : BitVec 32) :
    Prog (TpuEff nD τ sig (Elt F) Λ₀ (.scVector ((i 0).castLE hcore0) ((i 1).castLE hsub0))) (Σ' (v1558 : BitVec 32) (v1568 : BitVec 32), BitVec 32) := do
  let v1532 : BitVec 32 := Scalar.muli v1531 c4_i32_849
  let c1_i32_850 : BitVec 32 := 1#32
  let v1533 : BitVec 32 := Scalar.addi v1532 c1_i32_850
  let c65536_i32_851 : BitVec 32 := 65536#32
  let v1534 : BitVec 32 := Scalar.muli v1533 c65536_i32_851
  let v1535 : BitVec 32 := v1486
  let v1536 : Memref sig .scVector .hbm S65536 .f32 := (xw7 i)
  let v1537 : Memref sig .scVector .hbm S65536 .f32 := (xw7 i)
  Prog.lift (.enqueueDma v1537 (.here bW) (.dma cc0_scratch3.sem) (View.wordExact_bits rfl) (Memref.isWhole_whole _).wordExact ⟨Or.inl rfl, trivial⟩)
  let c0_i32_852 : BitVec 32 := 0#32
  let v1538 : Memref sig .scVector .hbm S65536 .f32 := xW.slice (Rect.unit (s := S16777216) ![0] S65536.size inb_S16777216_S65536_0) (fun _ => rfl)
  let c0_i32_853 : BitVec 32 := 0#32
  let v1539 : Memref sig .scVector .hbm S65536 .f32 := xW.slice (Rect.unit (s := S16777216) ![0] S65536.size inb_S16777216_S65536_0) (fun _ => rfl)
  Prog.lift (.waitDma2 cc0_scratch3.sem v1539 bW (View.wordExact_bits rfl) (Memref.isWhole_whole _).wordExact)
  let c2_i32_854 : BitVec 32 := 2#32
  let v1540 : BitVec 32 := Scalar.muli c2_i32_854 v1
  let c1_i32_855 : BitVec 32 := 1#32
  let v1541 : BitVec 32 := Scalar.addi v1540 c1_i32_855
  let c16_i32_856 : BitVec 32 := 16#32
  let v1542 : BitVec 32 := Scalar.divsi v1541 c16_i32_856
  let c0_i32_857 : BitVec 32 := 0#32
  let v1543 : BitVec 1 := Scalar.cmpi .sgt v1541 c0_i32_857
  let v1544 : BitVec 32 := Scalar.extui v1543
  let c0_i32_858 : BitVec 32 := 0#32
  let v1545 : BitVec 1 := Scalar.cmpi .slt v1541 c0_i32_858
  let v1546 : BitVec 32 := Scalar.extui v1545
  let v1547 : BitVec 32 := Scalar.subi v1544 v1546
  let c0_i32_859 : BitVec 32 := 0#32
  let v1548 : BitVec 1 := Scalar.cmpi .sgt c16_i32_856 c0_i32_859
  let v1549 : BitVec 32 := Scalar.extui v1548
  let c0_i32_860 : BitVec 32 := 0#32
  let v1550 : BitVec 1 := Scalar.cmpi .slt c16_i32_856 c0_i32_860
  let v1551 : BitVec 32 := Scalar.extui v1550
  let v1552 : BitVec 32 := Scalar.subi v1549 v1551
  let v1553 : BitVec 1 := Scalar.cmpi .ne v1547 v1552
  let v1554 : BitVec 32 := Scalar.remsi v1541 c16_i32_856
  let c0_i32_861 : BitVec 32 := 0#32
  let v1555 : BitVec 1 := Scalar.cmpi .ne v1554 c0_i32_861
  let v1556 : BitVec 1 := Scalar.andi v1553 v1555
  let c1_i32_862 : BitVec 32 := 1#32
  let v1557 : BitVec 32 := Scalar.subi v1542 c1_i32_862
  let v1558 : BitVec 32 := Scalar.select v1556 v1557 v1542
  let c16_i32_863 : BitVec 32 := 16#32
  let c0_i32_864 : BitVec 32 := 0#32
  let v1559 : BitVec 1 := Scalar.cmpi .eq c16_i32_863 c0_i32_864
  let c1_i32_865 : BitVec 32 := 1#32
  let v1560 : BitVec 32 := Scalar.select v1559 c1_i32_865 c16_i32_863
  let v1561 : BitVec 32 := Scalar.remsi v1541 v1560
  let c0_i32_866 : BitVec 32 := 0#32
  let v1562 : BitVec 1 := Scalar.cmpi .ne v1561 c0_i32_866
  let c0_i32_867 : BitVec 32 := 0#32
  let v1563 : BitVec 1 := Scalar.cmpi .slt v1561 c0_i32_867
  let c0_i32_868 : BitVec 32 := 0#32
  let v1564 : BitVec 1 := Scalar.cmpi .slt v1560 c0_i32_868
  let v1565 : BitVec 1 := Scalar.xori v1563 v1564
  let v1566 : BitVec 1 := Scalar.andi v1565 v1562
  let v1567 : BitVec 32 := Scalar.addi v1561 v1560
  let v1568 : BitVec 32 := Scalar.select v1566 v1567 v1561
  let c16_i32_869 : BitVec 32 := 16#32
  let v1569 : BitVec 32 := Scalar.muli v1558 c16_i32_869
  pure ⟨v1558, v1568, v1569⟩

noncomputable def q_part43 (i : grid0.Coords) (v1568 : BitVec 32) (v1569 : BitVec 32) :
    Prog (TpuEff nD τ sig (Elt F) Λ₀ (.scVector ((i 0).castLE hcore0) ((i 1).castLE hsub0))) (Σ' (v1577 : BitVec 32) (v1578 : BitVec 1) (v1590 : BitVec 32), BitVec 32) := do
  let v1570 : BitVec 32 := Scalar.addi v1569 v1568
  let c4_i32_870 : BitVec 32 := 4#32
  let v1571 : BitVec 32 := Scalar.muli v1570 c4_i32_870
  let c1_i32_871 : BitVec 32 := 1#32
  let v1572 : BitVec 32 := Scalar.addi v1571 c1_i32_871
  let c65536_i32_872 : BitVec 32 := 65536#32
  let v1573 : BitVec 32 := Scalar.muli v1572 c65536_i32_872
  let c9_i32_873 : BitVec 32 := 9#32
  let v1574 : BitVec 1 := Scalar.cmpi .slt v1568 c9_i32_873
  let c3_i32_874 : BitVec 32 := 3#32
  let v1575 : BitVec 32 := Scalar.muli c3_i32_874 v1568
  let c16_i32_875 : BitVec 32 := 16#32
  let v1576 : BitVec 32 := Scalar.subi v1575 c16_i32_875
  let v1577 : BitVec 32 := Scalar.select v1574 v1568 v1576
  let c9_i32_876 : BitVec 32 := 9#32
  let v1578 : BitVec 1 := Scalar.cmpi .slt v1568 c9_i32_876
  let c3_i32_877 : BitVec 32 := 3#32
  let c0_i32_878 : BitVec 32 := 0#32
  let v1579 : BitVec 1 := Scalar.cmpi .eq c3_i32_877 c0_i32_878
  let c1_i32_879 : BitVec 32 := 1#32
  let v1580 : BitVec 32 := Scalar.select v1579 c1_i32_879 c3_i32_877
  let v1581 : BitVec 32 := Scalar.remsi v1568 v1580
  let c0_i32_880 : BitVec 32 := 0#32
  let v1582 : BitVec 1 := Scalar.cmpi .ne v1581 c0_i32_880
  let c0_i32_881 : BitVec 32 := 0#32
  let v1583 : BitVec 1 := Scalar.cmpi .slt v1581 c0_i32_881
  let c0_i32_882 : BitVec 32 := 0#32
  let v1584 : BitVec 1 := Scalar.cmpi .slt v1580 c0_i32_882
  let v1585 : BitVec 1 := Scalar.xori v1583 v1584
  let v1586 : BitVec 1 := Scalar.andi v1585 v1582
  let v1587 : BitVec 32 := Scalar.addi v1581 v1580
  let v1588 : BitVec 32 := Scalar.select v1586 v1587 v1581
  let c3_i32_883 : BitVec 32 := 3#32
  let v1589 : BitVec 32 := Scalar.muli c3_i32_883 v1588
  let c30_i32_884 : BitVec 32 := 30#32
  let v1590 : BitVec 32 := Scalar.addi c30_i32_884 v1589
  let c3_i32_885 : BitVec 32 := 3#32
  let v1591 : BitVec 32 := Scalar.divsi v1568 c3_i32_885
  let c0_i32_886 : BitVec 32 := 0#32
  let v1592 : BitVec 1 := Scalar.cmpi .sgt v1568 c0_i32_886
  let v1593 : BitVec 32 := Scalar.extui v1592
  let c0_i32_887 : BitVec 32 := 0#32
  let v1594 : BitVec 1 := Scalar.cmpi .slt v1568 c0_i32_887
  let v1595 : BitVec 32 := Scalar.extui v1594
  let v1596 : BitVec 32 := Scalar.subi v1593 v1595
  let c0_i32_888 : BitVec 32 := 0#32
  let v1597 : BitVec 1 := Scalar.cmpi .sgt c3_i32_885 c0_i32_888
  let v1598 : BitVec 32 := Scalar.extui v1597
  let c0_i32_889 : BitVec 32 := 0#32
  let v1599 : BitVec 1 := Scalar.cmpi .slt c3_i32_885 c0_i32_889
  let v1600 : BitVec 32 := Scalar.extui v1599
  let v1601 : BitVec 32 := Scalar.subi v1598 v1600
  let v1602 : BitVec 1 := Scalar.cmpi .ne v1596 v1601
  let v1603 : BitVec 32 := Scalar.remsi v1568 c3_i32_885
  let c0_i32_890 : BitVec 32 := 0#32
  let v1604 : BitVec 1 := Scalar.cmpi .ne v1603 c0_i32_890
  let v1605 : BitVec 1 := Scalar.andi v1602 v1604
  let c1_i32_891 : BitVec 32 := 1#32
  let v1606 : BitVec 32 := Scalar.subi v1591 c1_i32_891
  let v1607 : BitVec 32 := Scalar.select v1605 v1606 v1591
  pure ⟨v1577, v1578, v1590, v1607⟩

noncomputable def q_part44 (i : grid0.Coords) (v1 : BitVec 32) (v1558 : BitVec 32) (v1568 : BitVec 32) (v1577 : BitVec 32) (v1578 : BitVec 1) (v1590 : BitVec 32) (v1607 : BitVec 32) :
    Prog (TpuEff nD τ sig (Elt F) Λ₀ (.scVector ((i 0).castLE hcore0) ((i 1).castLE hsub0))) (Σ' (v1635 : BitVec 32) (c16_i32_908 : BitVec 32) (v1636 : BitVec 32) (v1641 : BitVec 32), BitVec 32) := do
  let v1608 : BitVec 32 := Scalar.addi v1590 v1607
  let c3_i32_892 : BitVec 32 := 3#32
  let v1609 : BitVec 32 := Scalar.muli c3_i32_892 v1568
  let c14_i32_893 : BitVec 32 := 14#32
  let v1610 : BitVec 32 := Scalar.addi v1609 c14_i32_893
  let v1611 : BitVec 32 := Scalar.select v1578 v1608 v1610
  let c60_i32_894 : BitVec 32 := 60#32
  let v1612 : BitVec 32 := Scalar.muli v1558 c60_i32_894
  let v1613 : BitVec 32 := Scalar.addi v1612 v1577
  let c4_i32_895 : BitVec 32 := 4#32
  let v1614 : BitVec 32 := Scalar.muli v1613 c4_i32_895
  let c1_i32_896 : BitVec 32 := 1#32
  let v1615 : BitVec 32 := Scalar.addi v1614 c1_i32_896
  let c65536_i32_897 : BitVec 32 := 65536#32
  let v1616 : BitVec 32 := Scalar.muli v1615 c65536_i32_897
  let c60_i32_898 : BitVec 32 := 60#32
  let v1617 : BitVec 32 := Scalar.muli v1558 c60_i32_898
  let v1618 : BitVec 32 := Scalar.addi v1617 v1611
  let c4_i32_899 : BitVec 32 := 4#32
  let v1619 : BitVec 32 := Scalar.muli v1618 c4_i32_899
  let c1_i32_900 : BitVec 32 := 1#32
  let v1620 : BitVec 32 := Scalar.addi v1619 c1_i32_900
  let c65536_i32_901 : BitVec 32 := 65536#32
  let v1621 : BitVec 32 := Scalar.muli v1620 c65536_i32_901
  let v1622 : BitVec 32 := v1616
  let v1623 : Memref sig .scVector .hbm S65536 .f32 := (pc24 i)
  let v1624 : Memref sig .scVector .hbm S65536 .f32 := (pc24 i)
  Prog.lift (.enqueueDma bW (.here v1624) (.dma cc0_scratch5.sem) (Memref.isWhole_whole _).wordExact (View.wordExact_bits rfl) ⟨Or.inl rfl, trivial⟩)
  let v1625 : BitVec 32 := v1621
  let v1626 : Memref sig .scVector .hbm S65536 .f32 := (pc25 i)
  let v1627 : Memref sig .scVector .hbm S65536 .f32 := (pc25 i)
  Prog.lift (.enqueueDma bW (.here v1627) (.dma cc0_scratch5.sem) (Memref.isWhole_whole _).wordExact (View.wordExact_bits rfl) ⟨Or.inl rfl, trivial⟩)
  let c0_i32_902 : BitVec 32 := 0#32
  let v1628 : Memref sig .scVector .hbm S65536 .f32 := oW.slice (Rect.unit (s := S62914560) ![0] S65536.size inb_S62914560_S65536_0) (fun _ => rfl)
  let c0_i32_903 : BitVec 32 := 0#32
  let v1629 : Memref sig .scVector .shared S1x65536 .f32 := shW.slice (Rect.unit (s := S16x65536) (k0_off1 i) S1x65536.size (k0_off1_inb i)) (fun _ => rfl)
  let v1630 : Memref sig .scVector .shared S65536 .f32 := rowM i
  Prog.lift (.waitDma2 cc0_scratch4.sem v1630 v1628 ((View.wordExact_bits rfl).reshape _ _) (View.wordExact_bits rfl))
  let c0_i32_904 : BitVec 32 := 0#32
  let v1631 : Memref sig .scVector .hbm S65536 .f32 := oW.slice (Rect.unit (s := S62914560) ![0] S65536.size inb_S62914560_S65536_0) (fun _ => rfl)
  let c0_i32_905 : BitVec 32 := 0#32
  let v1632 : Memref sig .scVector .shared S1x65536 .f32 := shW.slice (Rect.unit (s := S16x65536) (k0_off1 i) S1x65536.size (k0_off1_inb i)) (fun _ => rfl)
  let v1633 : Memref sig .scVector .shared S65536 .f32 := rowM i
  Prog.lift (.waitDma2 cc0_scratch4.sem v1633 v1631 ((View.wordExact_bits rfl).reshape _ _) (View.wordExact_bits rfl))
  let c2_i32_906 : BitVec 32 := 2#32
  let v1634 : BitVec 32 := Scalar.muli c2_i32_906 v1
  let c1_i32_907 : BitVec 32 := 1#32
  let v1635 : BitVec 32 := Scalar.addi v1634 c1_i32_907
  let c16_i32_908 : BitVec 32 := 16#32
  let v1636 : BitVec 32 := Scalar.divsi v1635 c16_i32_908
  let c0_i32_909 : BitVec 32 := 0#32
  let v1637 : BitVec 1 := Scalar.cmpi .sgt v1635 c0_i32_909
  let v1638 : BitVec 32 := Scalar.extui v1637
  let c0_i32_910 : BitVec 32 := 0#32
  let v1639 : BitVec 1 := Scalar.cmpi .slt v1635 c0_i32_910
  let v1640 : BitVec 32 := Scalar.extui v1639
  let v1641 : BitVec 32 := Scalar.subi v1638 v1640
  let c0_i32_911 : BitVec 32 := 0#32
  let v1642 : BitVec 1 := Scalar.cmpi .sgt c16_i32_908 c0_i32_911
  let v1643 : BitVec 32 := Scalar.extui v1642
  pure ⟨v1635, c16_i32_908, v1636, v1641, v1643⟩

noncomputable def q_part45 (i : grid0.Coords) (v1635 : BitVec 32) (c16_i32_908 : BitVec 32) (v1636 : BitVec 32) (v1641 : BitVec 32) (v1643 : BitVec 32) :
    Prog (TpuEff nD τ sig (Elt F) Λ₀ (.scVector ((i 0).castLE hcore0) ((i 1).castLE hsub0))) (Σ' (v1652 : BitVec 32) (v1662 : BitVec 32) (v1667 : BitVec 32) (v1671 : BitVec 32) (v1672 : BitVec 1) (v1674 : BitVec 32) (v1675 : BitVec 32), BitVec 1) := do
  let c0_i32_912 : BitVec 32 := 0#32
  let v1644 : BitVec 1 := Scalar.cmpi .slt c16_i32_908 c0_i32_912
  let v1645 : BitVec 32 := Scalar.extui v1644
  let v1646 : BitVec 32 := Scalar.subi v1643 v1645
  let v1647 : BitVec 1 := Scalar.cmpi .ne v1641 v1646
  let v1648 : BitVec 32 := Scalar.remsi v1635 c16_i32_908
  let c0_i32_913 : BitVec 32 := 0#32
  let v1649 : BitVec 1 := Scalar.cmpi .ne v1648 c0_i32_913
  let v1650 : BitVec 1 := Scalar.andi v1647 v1649
  let c1_i32_914 : BitVec 32 := 1#32
  let v1651 : BitVec 32 := Scalar.subi v1636 c1_i32_914
  let v1652 : BitVec 32 := Scalar.select v1650 v1651 v1636
  let c16_i32_915 : BitVec 32 := 16#32
  let c0_i32_916 : BitVec 32 := 0#32
  let v1653 : BitVec 1 := Scalar.cmpi .eq c16_i32_915 c0_i32_916
  let c1_i32_917 : BitVec 32 := 1#32
  let v1654 : BitVec 32 := Scalar.select v1653 c1_i32_917 c16_i32_915
  let v1655 : BitVec 32 := Scalar.remsi v1635 v1654
  let c0_i32_918 : BitVec 32 := 0#32
  let v1656 : BitVec 1 := Scalar.cmpi .ne v1655 c0_i32_918
  let c0_i32_919 : BitVec 32 := 0#32
  let v1657 : BitVec 1 := Scalar.cmpi .slt v1655 c0_i32_919
  let c0_i32_920 : BitVec 32 := 0#32
  let v1658 : BitVec 1 := Scalar.cmpi .slt v1654 c0_i32_920
  let v1659 : BitVec 1 := Scalar.xori v1657 v1658
  let v1660 : BitVec 1 := Scalar.andi v1659 v1656
  let v1661 : BitVec 32 := Scalar.addi v1655 v1654
  let v1662 : BitVec 32 := Scalar.select v1660 v1661 v1655
  let c16_i32_921 : BitVec 32 := 16#32
  let v1663 : BitVec 32 := Scalar.muli v1652 c16_i32_921
  let v1664 : BitVec 32 := Scalar.addi v1663 v1662
  let c4_i32_922 : BitVec 32 := 4#32
  let v1665 : BitVec 32 := Scalar.muli v1664 c4_i32_922
  let c2_i32_923 : BitVec 32 := 2#32
  let v1666 : BitVec 32 := Scalar.addi v1665 c2_i32_923
  let c65536_i32_924 : BitVec 32 := 65536#32
  let v1667 : BitVec 32 := Scalar.muli v1666 c65536_i32_924
  let c9_i32_925 : BitVec 32 := 9#32
  let v1668 : BitVec 1 := Scalar.cmpi .slt v1662 c9_i32_925
  let c3_i32_926 : BitVec 32 := 3#32
  let v1669 : BitVec 32 := Scalar.muli c3_i32_926 v1662
  let c16_i32_927 : BitVec 32 := 16#32
  let v1670 : BitVec 32 := Scalar.subi v1669 c16_i32_927
  let v1671 : BitVec 32 := Scalar.select v1668 v1662 v1670
  let c9_i32_928 : BitVec 32 := 9#32
  let v1672 : BitVec 1 := Scalar.cmpi .slt v1662 c9_i32_928
  let c3_i32_929 : BitVec 32 := 3#32
  let c0_i32_930 : BitVec 32 := 0#32
  let v1673 : BitVec 1 := Scalar.cmpi .eq c3_i32_929 c0_i32_930
  let c1_i32_931 : BitVec 32 := 1#32
  let v1674 : BitVec 32 := Scalar.select v1673 c1_i32_931 c3_i32_929
  let v1675 : BitVec 32 := Scalar.remsi v1662 v1674
  let c0_i32_932 : BitVec 32 := 0#32
  let v1676 : BitVec 1 := Scalar.cmpi .ne v1675 c0_i32_932
  let c0_i32_933 : BitVec 32 := 0#32
  let v1677 : BitVec 1 := Scalar.cmpi .slt v1675 c0_i32_933
  let c0_i32_934 : BitVec 32 := 0#32
  let v1678 : BitVec 1 := Scalar.cmpi .slt v1674 c0_i32_934
  let v1679 : BitVec 1 := Scalar.xori v1677 v1678
  let v1680 : BitVec 1 := Scalar.andi v1679 v1676
  pure ⟨v1652, v1662, v1667, v1671, v1672, v1674, v1675, v1680⟩

noncomputable def q_part46 (i : grid0.Coords) (v1652 : BitVec 32) (v1662 : BitVec 32) (v1667 : BitVec 32) (v1671 : BitVec 32) (v1672 : BitVec 1) (v1674 : BitVec 32) (v1675 : BitVec 32) (v1680 : BitVec 1) :
    Prog (TpuEff nD τ sig (Elt F) Λ₀ (.scVector ((i 0).castLE hcore0) ((i 1).castLE hsub0))) (PUnit) := do
  let v1681 : BitVec 32 := Scalar.addi v1675 v1674
  let v1682 : BitVec 32 := Scalar.select v1680 v1681 v1675
  let c3_i32_935 : BitVec 32 := 3#32
  let v1683 : BitVec 32 := Scalar.muli c3_i32_935 v1682
  let c30_i32_936 : BitVec 32 := 30#32
  let v1684 : BitVec 32 := Scalar.addi c30_i32_936 v1683
  let c3_i32_937 : BitVec 32 := 3#32
  let v1685 : BitVec 32 := Scalar.divsi v1662 c3_i32_937
  let c0_i32_938 : BitVec 32 := 0#32
  let v1686 : BitVec 1 := Scalar.cmpi .sgt v1662 c0_i32_938
  let v1687 : BitVec 32 := Scalar.extui v1686
  let c0_i32_939 : BitVec 32 := 0#32
  let v1688 : BitVec 1 := Scalar.cmpi .slt v1662 c0_i32_939
  let v1689 : BitVec 32 := Scalar.extui v1688
  let v1690 : BitVec 32 := Scalar.subi v1687 v1689
  let c0_i32_940 : BitVec 32 := 0#32
  let v1691 : BitVec 1 := Scalar.cmpi .sgt c3_i32_937 c0_i32_940
  let v1692 : BitVec 32 := Scalar.extui v1691
  let c0_i32_941 : BitVec 32 := 0#32
  let v1693 : BitVec 1 := Scalar.cmpi .slt c3_i32_937 c0_i32_941
  let v1694 : BitVec 32 := Scalar.extui v1693
  let v1695 : BitVec 32 := Scalar.subi v1692 v1694
  let v1696 : BitVec 1 := Scalar.cmpi .ne v1690 v1695
  let v1697 : BitVec 32 := Scalar.remsi v1662 c3_i32_937
  let c0_i32_942 : BitVec 32 := 0#32
  let v1698 : BitVec 1 := Scalar.cmpi .ne v1697 c0_i32_942
  let v1699 : BitVec 1 := Scalar.andi v1696 v1698
  let c1_i32_943 : BitVec 32 := 1#32
  let v1700 : BitVec 32 := Scalar.subi v1685 c1_i32_943
  let v1701 : BitVec 32 := Scalar.select v1699 v1700 v1685
  let v1702 : BitVec 32 := Scalar.addi v1684 v1701
  let c3_i32_944 : BitVec 32 := 3#32
  let v1703 : BitVec 32 := Scalar.muli c3_i32_944 v1662
  let c14_i32_945 : BitVec 32 := 14#32
  let v1704 : BitVec 32 := Scalar.addi v1703 c14_i32_945
  let v1705 : BitVec 32 := Scalar.select v1672 v1702 v1704
  let c60_i32_946 : BitVec 32 := 60#32
  let v1706 : BitVec 32 := Scalar.muli v1652 c60_i32_946
  let v1707 : BitVec 32 := Scalar.addi v1706 v1671
  let c4_i32_947 : BitVec 32 := 4#32
  let v1708 : BitVec 32 := Scalar.muli v1707 c4_i32_947
  let c2_i32_948 : BitVec 32 := 2#32
  let v1709 : BitVec 32 := Scalar.addi v1708 c2_i32_948
  let c65536_i32_949 : BitVec 32 := 65536#32
  let v1710 : BitVec 32 := Scalar.muli v1709 c65536_i32_949
  let c60_i32_950 : BitVec 32 := 60#32
  let v1711 : BitVec 32 := Scalar.muli v1652 c60_i32_950
  let v1712 : BitVec 32 := Scalar.addi v1711 v1705
  let c4_i32_951 : BitVec 32 := 4#32
  let v1713 : BitVec 32 := Scalar.muli v1712 c4_i32_951
  let c2_i32_952 : BitVec 32 := 2#32
  let v1714 : BitVec 32 := Scalar.addi v1713 c2_i32_952
  let c65536_i32_953 : BitVec 32 := 65536#32
  let v1715 : BitVec 32 := Scalar.muli v1714 c65536_i32_953
  let v1716 : BitVec 32 := v1667
  let c0_i32_954 : BitVec 32 := 0#32
  let v1717 : Memref sig .scVector .shared S1x65536 .f32 := shW.slice (Rect.unit (s := S16x65536) (k0_off1 i) S1x65536.size (k0_off1_inb i)) (fun _ => rfl)
  let v1718 : Memref sig .scVector .shared S65536 .f32 := rowM i
  let v1719 : Memref sig .scVector .hbm S65536 .f32 := (xw8 i)
  Prog.lift (.enqueueDma v1719 (.here v1718) (.dma cc0_scratch2.sem) (View.wordExact_bits rfl) ((View.wordExact_bits rfl).reshape _ _) ⟨Or.inl rfl, trivial⟩)
  pure ⟨⟩

noncomputable def q_part47 (i : grid0.Coords) (v1 : BitVec 32) :
    Prog (TpuEff nD τ sig (Elt F) Λ₀ (.scVector ((i 0).castLE hcore0) ((i 1).castLE hsub0))) (Σ' (v1741 : BitVec 32) (v1751 : BitVec 32), BitVec 32) := do
  let c0_i32_955 : BitVec 32 := 0#32
  let v1720 : Memref sig .scVector .shared S1x65536 .f32 := shW.slice (Rect.unit (s := S16x65536) (k0_off1 i) S1x65536.size (k0_off1_inb i)) (fun _ => rfl)
  let v1721 : Memref sig .scVector .shared S65536 .f32 := rowM i
  let c0_i32_956 : BitVec 32 := 0#32
  let v1722 : Memref sig .scVector .hbm S65536 .f32 := xW.slice (Rect.unit (s := S16777216) ![0] S65536.size inb_S16777216_S65536_0) (fun _ => rfl)
  Prog.lift (.waitDma2 cc0_scratch2.sem v1722 v1721 (View.wordExact_bits rfl) ((View.wordExact_bits rfl).reshape _ _))
  let c2_i32_957 : BitVec 32 := 2#32
  let v1723 : BitVec 32 := Scalar.muli c2_i32_957 v1
  let c1_i32_958 : BitVec 32 := 1#32
  let v1724 : BitVec 32 := Scalar.addi v1723 c1_i32_958
  let c16_i32_959 : BitVec 32 := 16#32
  let v1725 : BitVec 32 := Scalar.divsi v1724 c16_i32_959
  let c0_i32_960 : BitVec 32 := 0#32
  let v1726 : BitVec 1 := Scalar.cmpi .sgt v1724 c0_i32_960
  let v1727 : BitVec 32 := Scalar.extui v1726
  let c0_i32_961 : BitVec 32 := 0#32
  let v1728 : BitVec 1 := Scalar.cmpi .slt v1724 c0_i32_961
  let v1729 : BitVec 32 := Scalar.extui v1728
  let v1730 : BitVec 32 := Scalar.subi v1727 v1729
  let c0_i32_962 : BitVec 32 := 0#32
  let v1731 : BitVec 1 := Scalar.cmpi .sgt c16_i32_959 c0_i32_962
  let v1732 : BitVec 32 := Scalar.extui v1731
  let c0_i32_963 : BitVec 32 := 0#32
  let v1733 : BitVec 1 := Scalar.cmpi .slt c16_i32_959 c0_i32_963
  let v1734 : BitVec 32 := Scalar.extui v1733
  let v1735 : BitVec 32 := Scalar.subi v1732 v1734
  let v1736 : BitVec 1 := Scalar.cmpi .ne v1730 v1735
  let v1737 : BitVec 32 := Scalar.remsi v1724 c16_i32_959
  let c0_i32_964 : BitVec 32 := 0#32
  let v1738 : BitVec 1 := Scalar.cmpi .ne v1737 c0_i32_964
  let v1739 : BitVec 1 := Scalar.andi v1736 v1738
  let c1_i32_965 : BitVec 32 := 1#32
  let v1740 : BitVec 32 := Scalar.subi v1725 c1_i32_965
  let v1741 : BitVec 32 := Scalar.select v1739 v1740 v1725
  let c16_i32_966 : BitVec 32 := 16#32
  let c0_i32_967 : BitVec 32 := 0#32
  let v1742 : BitVec 1 := Scalar.cmpi .eq c16_i32_966 c0_i32_967
  let c1_i32_968 : BitVec 32 := 1#32
  let v1743 : BitVec 32 := Scalar.select v1742 c1_i32_968 c16_i32_966
  let v1744 : BitVec 32 := Scalar.remsi v1724 v1743
  let c0_i32_969 : BitVec 32 := 0#32
  let v1745 : BitVec 1 := Scalar.cmpi .ne v1744 c0_i32_969
  let c0_i32_970 : BitVec 32 := 0#32
  let v1746 : BitVec 1 := Scalar.cmpi .slt v1744 c0_i32_970
  let c0_i32_971 : BitVec 32 := 0#32
  let v1747 : BitVec 1 := Scalar.cmpi .slt v1743 c0_i32_971
  let v1748 : BitVec 1 := Scalar.xori v1746 v1747
  let v1749 : BitVec 1 := Scalar.andi v1748 v1745
  let v1750 : BitVec 32 := Scalar.addi v1744 v1743
  let v1751 : BitVec 32 := Scalar.select v1749 v1750 v1744
  let c16_i32_972 : BitVec 32 := 16#32
  let v1752 : BitVec 32 := Scalar.muli v1741 c16_i32_972
  let v1753 : BitVec 32 := Scalar.addi v1752 v1751
  let c4_i32_973 : BitVec 32 := 4#32
  let v1754 : BitVec 32 := Scalar.muli v1753 c4_i32_973
  let c2_i32_974 : BitVec 32 := 2#32
  let v1755 : BitVec 32 := Scalar.addi v1754 c2_i32_974
  let c65536_i32_975 : BitVec 32 := 65536#32
  let v1756 : BitVec 32 := Scalar.muli v1755 c65536_i32_975
  let c9_i32_976 : BitVec 32 := 9#32
  pure ⟨v1741, v1751, c9_i32_976⟩

noncomputable def q_part48 (i : grid0.Coords) (v1741 : BitVec 32) (v1751 : BitVec 32) (c9_i32_976 : BitVec 32) :
    Prog (TpuEff nD τ sig (Elt F) Λ₀ (.scVector ((i 0).castLE hcore0) ((i 1).castLE hsub0))) (Σ' (v1760 : BitVec 32) (v1794 : BitVec 32), BitVec 32) := do
  let v1757 : BitVec 1 := Scalar.cmpi .slt v1751 c9_i32_976
  let c3_i32_977 : BitVec 32 := 3#32
  let v1758 : BitVec 32 := Scalar.muli c3_i32_977 v1751
  let c16_i32_978 : BitVec 32 := 16#32
  let v1759 : BitVec 32 := Scalar.subi v1758 c16_i32_978
  let v1760 : BitVec 32 := Scalar.select v1757 v1751 v1759
  let c9_i32_979 : BitVec 32 := 9#32
  let v1761 : BitVec 1 := Scalar.cmpi .slt v1751 c9_i32_979
  let c3_i32_980 : BitVec 32 := 3#32
  let c0_i32_981 : BitVec 32 := 0#32
  let v1762 : BitVec 1 := Scalar.cmpi .eq c3_i32_980 c0_i32_981
  let c1_i32_982 : BitVec 32 := 1#32
  let v1763 : BitVec 32 := Scalar.select v1762 c1_i32_982 c3_i32_980
  let v1764 : BitVec 32 := Scalar.remsi v1751 v1763
  let c0_i32_983 : BitVec 32 := 0#32
  let v1765 : BitVec 1 := Scalar.cmpi .ne v1764 c0_i32_983
  let c0_i32_984 : BitVec 32 := 0#32
  let v1766 : BitVec 1 := Scalar.cmpi .slt v1764 c0_i32_984
  let c0_i32_985 : BitVec 32 := 0#32
  let v1767 : BitVec 1 := Scalar.cmpi .slt v1763 c0_i32_985
  let v1768 : BitVec 1 := Scalar.xori v1766 v1767
  let v1769 : BitVec 1 := Scalar.andi v1768 v1765
  let v1770 : BitVec 32 := Scalar.addi v1764 v1763
  let v1771 : BitVec 32 := Scalar.select v1769 v1770 v1764
  let c3_i32_986 : BitVec 32 := 3#32
  let v1772 : BitVec 32 := Scalar.muli c3_i32_986 v1771
  let c30_i32_987 : BitVec 32 := 30#32
  let v1773 : BitVec 32 := Scalar.addi c30_i32_987 v1772
  let c3_i32_988 : BitVec 32 := 3#32
  let v1774 : BitVec 32 := Scalar.divsi v1751 c3_i32_988
  let c0_i32_989 : BitVec 32 := 0#32
  let v1775 : BitVec 1 := Scalar.cmpi .sgt v1751 c0_i32_989
  let v1776 : BitVec 32 := Scalar.extui v1775
  let c0_i32_990 : BitVec 32 := 0#32
  let v1777 : BitVec 1 := Scalar.cmpi .slt v1751 c0_i32_990
  let v1778 : BitVec 32 := Scalar.extui v1777
  let v1779 : BitVec 32 := Scalar.subi v1776 v1778
  let c0_i32_991 : BitVec 32 := 0#32
  let v1780 : BitVec 1 := Scalar.cmpi .sgt c3_i32_988 c0_i32_991
  let v1781 : BitVec 32 := Scalar.extui v1780
  let c0_i32_992 : BitVec 32 := 0#32
  let v1782 : BitVec 1 := Scalar.cmpi .slt c3_i32_988 c0_i32_992
  let v1783 : BitVec 32 := Scalar.extui v1782
  let v1784 : BitVec 32 := Scalar.subi v1781 v1783
  let v1785 : BitVec 1 := Scalar.cmpi .ne v1779 v1784
  let v1786 : BitVec 32 := Scalar.remsi v1751 c3_i32_988
  let c0_i32_993 : BitVec 32 := 0#32
  let v1787 : BitVec 1 := Scalar.cmpi .ne v1786 c0_i32_993
  let v1788 : BitVec 1 := Scalar.andi v1785 v1787
  let c1_i32_994 : BitVec 32 := 1#32
  let v1789 : BitVec 32 := Scalar.subi v1774 c1_i32_994
  let v1790 : BitVec 32 := Scalar.select v1788 v1789 v1774
  let v1791 : BitVec 32 := Scalar.addi v1773 v1790
  let c3_i32_995 : BitVec 32 := 3#32
  let v1792 : BitVec 32 := Scalar.muli c3_i32_995 v1751
  let c14_i32_996 : BitVec 32 := 14#32
  let v1793 : BitVec 32 := Scalar.addi v1792 c14_i32_996
  let v1794 : BitVec 32 := Scalar.select v1761 v1791 v1793
  let c60_i32_997 : BitVec 32 := 60#32
  let v1795 : BitVec 32 := Scalar.muli v1741 c60_i32_997
  pure ⟨v1760, v1794, v1795⟩

noncomputable def q_part49 (i : grid0.Coords) (v1 : BitVec 32) (v1741 : BitVec 32) (v1760 : BitVec 32) (v1794 : BitVec 32) (v1795 : BitVec 32) :
    Prog (TpuEff nD τ sig (Elt F) Λ₀ (.scVector ((i 0).castLE hcore0) ((i 1).castLE hsub0))) (Σ' (v1818 : BitVec 32) (v1819 : BitVec 32) (v1830 : BitVec 1), BitVec 32) := do
  let v1796 : BitVec 32 := Scalar.addi v1795 v1760
  let c4_i32_998 : BitVec 32 := 4#32
  let v1797 : BitVec 32 := Scalar.muli v1796 c4_i32_998
  let c2_i32_999 : BitVec 32 := 2#32
  let v1798 : BitVec 32 := Scalar.addi v1797 c2_i32_999
  let c65536_i32_1000 : BitVec 32 := 65536#32
  let v1799 : BitVec 32 := Scalar.muli v1798 c65536_i32_1000
  let c60_i32_1001 : BitVec 32 := 60#32
  let v1800 : BitVec 32 := Scalar.muli v1741 c60_i32_1001
  let v1801 : BitVec 32 := Scalar.addi v1800 v1794
  let c4_i32_1002 : BitVec 32 := 4#32
  let v1802 : BitVec 32 := Scalar.muli v1801 c4_i32_1002
  let c2_i32_1003 : BitVec 32 := 2#32
  let v1803 : BitVec 32 := Scalar.addi v1802 c2_i32_1003
  let c65536_i32_1004 : BitVec 32 := 65536#32
  let v1804 : BitVec 32 := Scalar.muli v1803 c65536_i32_1004
  let v1805 : BitVec 32 := v1799
  let v1806 : Memref sig .scVector .hbm S65536 .f32 := (pc26 i)
  let c0_i32_1005 : BitVec 32 := 0#32
  let v1807 : Memref sig .scVector .shared S1x65536 .f32 := shW.slice (Rect.unit (s := S16x65536) (k0_off1 i) S1x65536.size (k0_off1_inb i)) (fun _ => rfl)
  let v1808 : Memref sig .scVector .shared S65536 .f32 := rowM i
  Prog.lift (.enqueueDma v1808 (.here v1806) (.dma cc0_scratch4.sem) ((View.wordExact_bits rfl).reshape _ _) (View.wordExact_bits rfl) ⟨Or.inl rfl, trivial⟩)
  let v1809 : BitVec 32 := v1804
  let v1810 : Memref sig .scVector .hbm S65536 .f32 := (pc27 i)
  let c0_i32_1006 : BitVec 32 := 0#32
  let v1811 : Memref sig .scVector .shared S1x65536 .f32 := shW.slice (Rect.unit (s := S16x65536) (k0_off1 i) S1x65536.size (k0_off1_inb i)) (fun _ => rfl)
  let v1812 : Memref sig .scVector .shared S65536 .f32 := rowM i
  Prog.lift (.enqueueDma v1812 (.here v1810) (.dma cc0_scratch4.sem) ((View.wordExact_bits rfl).reshape _ _) (View.wordExact_bits rfl) ⟨Or.inl rfl, trivial⟩)
  let c0_i32_1007 : BitVec 32 := 0#32
  let v1813 : Memref sig .scVector .hbm S65536 .f32 := oW.slice (Rect.unit (s := S62914560) ![0] S65536.size inb_S62914560_S65536_0) (fun _ => rfl)
  let c0_i32_1008 : BitVec 32 := 0#32
  let v1814 : Memref sig .scVector .hbm S65536 .f32 := oW.slice (Rect.unit (s := S62914560) ![0] S65536.size inb_S62914560_S65536_0) (fun _ => rfl)
  Prog.lift (.waitDma2 cc0_scratch5.sem bW v1814 (Memref.isWhole_whole _).wordExact (View.wordExact_bits rfl))
  let c0_i32_1009 : BitVec 32 := 0#32
  let v1815 : Memref sig .scVector .hbm S65536 .f32 := oW.slice (Rect.unit (s := S62914560) ![0] S65536.size inb_S62914560_S65536_0) (fun _ => rfl)
  let c0_i32_1010 : BitVec 32 := 0#32
  let v1816 : Memref sig .scVector .hbm S65536 .f32 := oW.slice (Rect.unit (s := S62914560) ![0] S65536.size inb_S62914560_S65536_0) (fun _ => rfl)
  Prog.lift (.waitDma2 cc0_scratch5.sem bW v1816 (Memref.isWhole_whole _).wordExact (View.wordExact_bits rfl))
  let c2_i32_1011 : BitVec 32 := 2#32
  let v1817 : BitVec 32 := Scalar.muli c2_i32_1011 v1
  let c1_i32_1012 : BitVec 32 := 1#32
  let v1818 : BitVec 32 := Scalar.addi v1817 c1_i32_1012
  let c16_i32_1013 : BitVec 32 := 16#32
  let v1819 : BitVec 32 := Scalar.divsi v1818 c16_i32_1013
  let c0_i32_1014 : BitVec 32 := 0#32
  let v1820 : BitVec 1 := Scalar.cmpi .sgt v1818 c0_i32_1014
  let v1821 : BitVec 32 := Scalar.extui v1820
  let c0_i32_1015 : BitVec 32 := 0#32
  let v1822 : BitVec 1 := Scalar.cmpi .slt v1818 c0_i32_1015
  let v1823 : BitVec 32 := Scalar.extui v1822
  let v1824 : BitVec 32 := Scalar.subi v1821 v1823
  let c0_i32_1016 : BitVec 32 := 0#32
  let v1825 : BitVec 1 := Scalar.cmpi .sgt c16_i32_1013 c0_i32_1016
  let v1826 : BitVec 32 := Scalar.extui v1825
  let c0_i32_1017 : BitVec 32 := 0#32
  let v1827 : BitVec 1 := Scalar.cmpi .slt c16_i32_1013 c0_i32_1017
  let v1828 : BitVec 32 := Scalar.extui v1827
  let v1829 : BitVec 32 := Scalar.subi v1826 v1828
  let v1830 : BitVec 1 := Scalar.cmpi .ne v1824 v1829
  let v1831 : BitVec 32 := Scalar.remsi v1818 c16_i32_1013
  pure ⟨v1818, v1819, v1830, v1831⟩

noncomputable def q_part50 (i : grid0.Coords) (v1818 : BitVec 32) (v1819 : BitVec 32) (v1830 : BitVec 1) (v1831 : BitVec 32) :
    Prog (TpuEff nD τ sig (Elt F) Λ₀ (.scVector ((i 0).castLE hcore0) ((i 1).castLE hsub0))) (Σ' (v1835 : BitVec 32) (v1845 : BitVec 32) (v1850 : BitVec 32) (v1854 : BitVec 32) (v1855 : BitVec 1), BitVec 32) := do
  let c0_i32_1018 : BitVec 32 := 0#32
  let v1832 : BitVec 1 := Scalar.cmpi .ne v1831 c0_i32_1018
  let v1833 : BitVec 1 := Scalar.andi v1830 v1832
  let c1_i32_1019 : BitVec 32 := 1#32
  let v1834 : BitVec 32 := Scalar.subi v1819 c1_i32_1019
  let v1835 : BitVec 32 := Scalar.select v1833 v1834 v1819
  let c16_i32_1020 : BitVec 32 := 16#32
  let c0_i32_1021 : BitVec 32 := 0#32
  let v1836 : BitVec 1 := Scalar.cmpi .eq c16_i32_1020 c0_i32_1021
  let c1_i32_1022 : BitVec 32 := 1#32
  let v1837 : BitVec 32 := Scalar.select v1836 c1_i32_1022 c16_i32_1020
  let v1838 : BitVec 32 := Scalar.remsi v1818 v1837
  let c0_i32_1023 : BitVec 32 := 0#32
  let v1839 : BitVec 1 := Scalar.cmpi .ne v1838 c0_i32_1023
  let c0_i32_1024 : BitVec 32 := 0#32
  let v1840 : BitVec 1 := Scalar.cmpi .slt v1838 c0_i32_1024
  let c0_i32_1025 : BitVec 32 := 0#32
  let v1841 : BitVec 1 := Scalar.cmpi .slt v1837 c0_i32_1025
  let v1842 : BitVec 1 := Scalar.xori v1840 v1841
  let v1843 : BitVec 1 := Scalar.andi v1842 v1839
  let v1844 : BitVec 32 := Scalar.addi v1838 v1837
  let v1845 : BitVec 32 := Scalar.select v1843 v1844 v1838
  let c16_i32_1026 : BitVec 32 := 16#32
  let v1846 : BitVec 32 := Scalar.muli v1835 c16_i32_1026
  let v1847 : BitVec 32 := Scalar.addi v1846 v1845
  let c4_i32_1027 : BitVec 32 := 4#32
  let v1848 : BitVec 32 := Scalar.muli v1847 c4_i32_1027
  let c3_i32_1028 : BitVec 32 := 3#32
  let v1849 : BitVec 32 := Scalar.addi v1848 c3_i32_1028
  let c65536_i32_1029 : BitVec 32 := 65536#32
  let v1850 : BitVec 32 := Scalar.muli v1849 c65536_i32_1029
  let c9_i32_1030 : BitVec 32 := 9#32
  let v1851 : BitVec 1 := Scalar.cmpi .slt v1845 c9_i32_1030
  let c3_i32_1031 : BitVec 32 := 3#32
  let v1852 : BitVec 32 := Scalar.muli c3_i32_1031 v1845
  let c16_i32_1032 : BitVec 32 := 16#32
  let v1853 : BitVec 32 := Scalar.subi v1852 c16_i32_1032
  let v1854 : BitVec 32 := Scalar.select v1851 v1845 v1853
  let c9_i32_1033 : BitVec 32 := 9#32
  let v1855 : BitVec 1 := Scalar.cmpi .slt v1845 c9_i32_1033
  let c3_i32_1034 : BitVec 32 := 3#32
  let c0_i32_1035 : BitVec 32 := 0#32
  let v1856 : BitVec 1 := Scalar.cmpi .eq c3_i32_1034 c0_i32_1035
  let c1_i32_1036 : BitVec 32 := 1#32
  let v1857 : BitVec 32 := Scalar.select v1856 c1_i32_1036 c3_i32_1034
  let v1858 : BitVec 32 := Scalar.remsi v1845 v1857
  let c0_i32_1037 : BitVec 32 := 0#32
  let v1859 : BitVec 1 := Scalar.cmpi .ne v1858 c0_i32_1037
  let c0_i32_1038 : BitVec 32 := 0#32
  let v1860 : BitVec 1 := Scalar.cmpi .slt v1858 c0_i32_1038
  let c0_i32_1039 : BitVec 32 := 0#32
  let v1861 : BitVec 1 := Scalar.cmpi .slt v1857 c0_i32_1039
  let v1862 : BitVec 1 := Scalar.xori v1860 v1861
  let v1863 : BitVec 1 := Scalar.andi v1862 v1859
  let v1864 : BitVec 32 := Scalar.addi v1858 v1857
  let v1865 : BitVec 32 := Scalar.select v1863 v1864 v1858
  let c3_i32_1040 : BitVec 32 := 3#32
  let v1866 : BitVec 32 := Scalar.muli c3_i32_1040 v1865
  let c30_i32_1041 : BitVec 32 := 30#32
  let v1867 : BitVec 32 := Scalar.addi c30_i32_1041 v1866
  pure ⟨v1835, v1845, v1850, v1854, v1855, v1867⟩

noncomputable def q_part51 (i : grid0.Coords) (v1 : BitVec 32) (v1835 : BitVec 32) (v1845 : BitVec 32) (v1850 : BitVec 32) (v1854 : BitVec 32) (v1855 : BitVec 1) (v1867 : BitVec 32) :
    Prog (TpuEff nD τ sig (Elt F) Λ₀ (.scVector ((i 0).castLE hcore0) ((i 1).castLE hsub0))) (Σ' (v1904 : BitVec 32), BitVec 32) := do
  let c3_i32_1042 : BitVec 32 := 3#32
  let v1868 : BitVec 32 := Scalar.divsi v1845 c3_i32_1042
  let c0_i32_1043 : BitVec 32 := 0#32
  let v1869 : BitVec 1 := Scalar.cmpi .sgt v1845 c0_i32_1043
  let v1870 : BitVec 32 := Scalar.extui v1869
  let c0_i32_1044 : BitVec 32 := 0#32
  let v1871 : BitVec 1 := Scalar.cmpi .slt v1845 c0_i32_1044
  let v1872 : BitVec 32 := Scalar.extui v1871
  let v1873 : BitVec 32 := Scalar.subi v1870 v1872
  let c0_i32_1045 : BitVec 32 := 0#32
  let v1874 : BitVec 1 := Scalar.cmpi .sgt c3_i32_1042 c0_i32_1045
  let v1875 : BitVec 32 := Scalar.extui v1874
  let c0_i32_1046 : BitVec 32 := 0#32
  let v1876 : BitVec 1 := Scalar.cmpi .slt c3_i32_1042 c0_i32_1046
  let v1877 : BitVec 32 := Scalar.extui v1876
  let v1878 : BitVec 32 := Scalar.subi v1875 v1877
  let v1879 : BitVec 1 := Scalar.cmpi .ne v1873 v1878
  let v1880 : BitVec 32 := Scalar.remsi v1845 c3_i32_1042
  let c0_i32_1047 : BitVec 32 := 0#32
  let v1881 : BitVec 1 := Scalar.cmpi .ne v1880 c0_i32_1047
  let v1882 : BitVec 1 := Scalar.andi v1879 v1881
  let c1_i32_1048 : BitVec 32 := 1#32
  let v1883 : BitVec 32 := Scalar.subi v1868 c1_i32_1048
  let v1884 : BitVec 32 := Scalar.select v1882 v1883 v1868
  let v1885 : BitVec 32 := Scalar.addi v1867 v1884
  let c3_i32_1049 : BitVec 32 := 3#32
  let v1886 : BitVec 32 := Scalar.muli c3_i32_1049 v1845
  let c14_i32_1050 : BitVec 32 := 14#32
  let v1887 : BitVec 32 := Scalar.addi v1886 c14_i32_1050
  let v1888 : BitVec 32 := Scalar.select v1855 v1885 v1887
  let c60_i32_1051 : BitVec 32 := 60#32
  let v1889 : BitVec 32 := Scalar.muli v1835 c60_i32_1051
  let v1890 : BitVec 32 := Scalar.addi v1889 v1854
  let c4_i32_1052 : BitVec 32 := 4#32
  let v1891 : BitVec 32 := Scalar.muli v1890 c4_i32_1052
  let c3_i32_1053 : BitVec 32 := 3#32
  let v1892 : BitVec 32 := Scalar.addi v1891 c3_i32_1053
  let c65536_i32_1054 : BitVec 32 := 65536#32
  let v1893 : BitVec 32 := Scalar.muli v1892 c65536_i32_1054
  let c60_i32_1055 : BitVec 32 := 60#32
  let v1894 : BitVec 32 := Scalar.muli v1835 c60_i32_1055
  let v1895 : BitVec 32 := Scalar.addi v1894 v1888
  let c4_i32_1056 : BitVec 32 := 4#32
  let v1896 : BitVec 32 := Scalar.muli v1895 c4_i32_1056
  let c3_i32_1057 : BitVec 32 := 3#32
  let v1897 : BitVec 32 := Scalar.addi v1896 c3_i32_1057
  let c65536_i32_1058 : BitVec 32 := 65536#32
  let v1898 : BitVec 32 := Scalar.muli v1897 c65536_i32_1058
  let v1899 : BitVec 32 := v1850
  let v1900 : Memref sig .scVector .hbm S65536 .f32 := (xw9 i)
  let v1901 : Memref sig .scVector .hbm S65536 .f32 := (xw9 i)
  Prog.lift (.enqueueDma v1901 (.here bW) (.dma cc0_scratch3.sem) (View.wordExact_bits rfl) (Memref.isWhole_whole _).wordExact ⟨Or.inl rfl, trivial⟩)
  let c0_i32_1059 : BitVec 32 := 0#32
  let v1902 : Memref sig .scVector .hbm S65536 .f32 := xW.slice (Rect.unit (s := S16777216) ![0] S65536.size inb_S16777216_S65536_0) (fun _ => rfl)
  let c0_i32_1060 : BitVec 32 := 0#32
  let v1903 : Memref sig .scVector .hbm S65536 .f32 := xW.slice (Rect.unit (s := S16777216) ![0] S65536.size inb_S16777216_S65536_0) (fun _ => rfl)
  Prog.lift (.waitDma2 cc0_scratch3.sem v1903 bW (View.wordExact_bits rfl) (Memref.isWhole_whole _).wordExact)
  let c2_i32_1061 : BitVec 32 := 2#32
  let v1904 : BitVec 32 := Scalar.muli c2_i32_1061 v1
  let c1_i32_1062 : BitVec 32 := 1#32
  pure ⟨v1904, c1_i32_1062⟩

noncomputable def q_part52 (i : grid0.Coords) (v1904 : BitVec 32) (c1_i32_1062 : BitVec 32) :
    Prog (TpuEff nD τ sig (Elt F) Λ₀ (.scVector ((i 0).castLE hcore0) ((i 1).castLE hsub0))) (Σ' (v1922 : BitVec 32) (v1932 : BitVec 32) (v1941 : BitVec 32) (v1942 : BitVec 1), BitVec 32) := do
  let v1905 : BitVec 32 := Scalar.addi v1904 c1_i32_1062
  let c16_i32_1063 : BitVec 32 := 16#32
  let v1906 : BitVec 32 := Scalar.divsi v1905 c16_i32_1063
  let c0_i32_1064 : BitVec 32 := 0#32
  let v1907 : BitVec 1 := Scalar.cmpi .sgt v1905 c0_i32_1064
  let v1908 : BitVec 32 := Scalar.extui v1907
  let c0_i32_1065 : BitVec 32 := 0#32
  let v1909 : BitVec 1 := Scalar.cmpi .slt v1905 c0_i32_1065
  let v1910 : BitVec 32 := Scalar.extui v1909
  let v1911 : BitVec 32 := Scalar.subi v1908 v1910
  let c0_i32_1066 : BitVec 32 := 0#32
  let v1912 : BitVec 1 := Scalar.cmpi .sgt c16_i32_1063 c0_i32_1066
  let v1913 : BitVec 32 := Scalar.extui v1912
  let c0_i32_1067 : BitVec 32 := 0#32
  let v1914 : BitVec 1 := Scalar.cmpi .slt c16_i32_1063 c0_i32_1067
  let v1915 : BitVec 32 := Scalar.extui v1914
  let v1916 : BitVec 32 := Scalar.subi v1913 v1915
  let v1917 : BitVec 1 := Scalar.cmpi .ne v1911 v1916
  let v1918 : BitVec 32 := Scalar.remsi v1905 c16_i32_1063
  let c0_i32_1068 : BitVec 32 := 0#32
  let v1919 : BitVec 1 := Scalar.cmpi .ne v1918 c0_i32_1068
  let v1920 : BitVec 1 := Scalar.andi v1917 v1919
  let c1_i32_1069 : BitVec 32 := 1#32
  let v1921 : BitVec 32 := Scalar.subi v1906 c1_i32_1069
  let v1922 : BitVec 32 := Scalar.select v1920 v1921 v1906
  let c16_i32_1070 : BitVec 32 := 16#32
  let c0_i32_1071 : BitVec 32 := 0#32
  let v1923 : BitVec 1 := Scalar.cmpi .eq c16_i32_1070 c0_i32_1071
  let c1_i32_1072 : BitVec 32 := 1#32
  let v1924 : BitVec 32 := Scalar.select v1923 c1_i32_1072 c16_i32_1070
  let v1925 : BitVec 32 := Scalar.remsi v1905 v1924
  let c0_i32_1073 : BitVec 32 := 0#32
  let v1926 : BitVec 1 := Scalar.cmpi .ne v1925 c0_i32_1073
  let c0_i32_1074 : BitVec 32 := 0#32
  let v1927 : BitVec 1 := Scalar.cmpi .slt v1925 c0_i32_1074
  let c0_i32_1075 : BitVec 32 := 0#32
  let v1928 : BitVec 1 := Scalar.cmpi .slt v1924 c0_i32_1075
  let v1929 : BitVec 1 := Scalar.xori v1927 v1928
  let v1930 : BitVec 1 := Scalar.andi v1929 v1926
  let v1931 : BitVec 32 := Scalar.addi v1925 v1924
  let v1932 : BitVec 32 := Scalar.select v1930 v1931 v1925
  let c16_i32_1076 : BitVec 32 := 16#32
  let v1933 : BitVec 32 := Scalar.muli v1922 c16_i32_1076
  let v1934 : BitVec 32 := Scalar.addi v1933 v1932
  let c4_i32_1077 : BitVec 32 := 4#32
  let v1935 : BitVec 32 := Scalar.muli v1934 c4_i32_1077
  let c3_i32_1078 : BitVec 32 := 3#32
  let v1936 : BitVec 32 := Scalar.addi v1935 c3_i32_1078
  let c65536_i32_1079 : BitVec 32 := 65536#32
  let v1937 : BitVec 32 := Scalar.muli v1936 c65536_i32_1079
  let c9_i32_1080 : BitVec 32 := 9#32
  let v1938 : BitVec 1 := Scalar.cmpi .slt v1932 c9_i32_1080
  let c3_i32_1081 : BitVec 32 := 3#32
  let v1939 : BitVec 32 := Scalar.muli c3_i32_1081 v1932
  let c16_i32_1082 : BitVec 32 := 16#32
  let v1940 : BitVec 32 := Scalar.subi v1939 c16_i32_1082
  let v1941 : BitVec 32 := Scalar.select v1938 v1932 v1940
  let c9_i32_1083 : BitVec 32 := 9#32
  let v1942 : BitVec 1 := Scalar.cmpi .slt v1932 c9_i32_1083
  let c3_i32_1084 : BitVec 32 := 3#32
  pure ⟨v1922, v1932, v1941, v1942, c3_i32_1084⟩

noncomputable def q_part53 (i : grid0.Coords) (v1922 : BitVec 32) (v1932 : BitVec 32) (v1941 : BitVec 32) (v1942 : BitVec 1) (c3_i32_1084 : BitVec 32) :
    Prog (TpuEff nD τ sig (Elt F) Λ₀ (.scVector ((i 0).castLE hcore0) ((i 1).castLE hsub0))) (Σ' (v1975 : BitVec 32) (v1980 : BitVec 32), BitVec 32) := do
  let c0_i32_1085 : BitVec 32 := 0#32
  let v1943 : BitVec 1 := Scalar.cmpi .eq c3_i32_1084 c0_i32_1085
  let c1_i32_1086 : BitVec 32 := 1#32
  let v1944 : BitVec 32 := Scalar.select v1943 c1_i32_1086 c3_i32_1084
  let v1945 : BitVec 32 := Scalar.remsi v1932 v1944
  let c0_i32_1087 : BitVec 32 := 0#32
  let v1946 : BitVec 1 := Scalar.cmpi .ne v1945 c0_i32_1087
  let c0_i32_1088 : BitVec 32 := 0#32
  let v1947 : BitVec 1 := Scalar.cmpi .slt v1945 c0_i32_1088
  let c0_i32_1089 : BitVec 32 := 0#32
  let v1948 : BitVec 1 := Scalar.cmpi .slt v1944 c0_i32_1089
  let v1949 : BitVec 1 := Scalar.xori v1947 v1948
  let v1950 : BitVec 1 := Scalar.andi v1949 v1946
  let v1951 : BitVec 32 := Scalar.addi v1945 v1944
  let v1952 : BitVec 32 := Scalar.select v1950 v1951 v1945
  let c3_i32_1090 : BitVec 32 := 3#32
  let v1953 : BitVec 32 := Scalar.muli c3_i32_1090 v1952
  let c30_i32_1091 : BitVec 32 := 30#32
  let v1954 : BitVec 32 := Scalar.addi c30_i32_1091 v1953
  let c3_i32_1092 : BitVec 32 := 3#32
  let v1955 : BitVec 32 := Scalar.divsi v1932 c3_i32_1092
  let c0_i32_1093 : BitVec 32 := 0#32
  let v1956 : BitVec 1 := Scalar.cmpi .sgt v1932 c0_i32_1093
  let v1957 : BitVec 32 := Scalar.extui v1956
  let c0_i32_1094 : BitVec 32 := 0#32
  let v1958 : BitVec 1 := Scalar.cmpi .slt v1932 c0_i32_1094
  let v1959 : BitVec 32 := Scalar.extui v1958
  let v1960 : BitVec 32 := Scalar.subi v1957 v1959
  let c0_i32_1095 : BitVec 32 := 0#32
  let v1961 : BitVec 1 := Scalar.cmpi .sgt c3_i32_1092 c0_i32_1095
  let v1962 : BitVec 32 := Scalar.extui v1961
  let c0_i32_1096 : BitVec 32 := 0#32
  let v1963 : BitVec 1 := Scalar.cmpi .slt c3_i32_1092 c0_i32_1096
  let v1964 : BitVec 32 := Scalar.extui v1963
  let v1965 : BitVec 32 := Scalar.subi v1962 v1964
  let v1966 : BitVec 1 := Scalar.cmpi .ne v1960 v1965
  let v1967 : BitVec 32 := Scalar.remsi v1932 c3_i32_1092
  let c0_i32_1097 : BitVec 32 := 0#32
  let v1968 : BitVec 1 := Scalar.cmpi .ne v1967 c0_i32_1097
  let v1969 : BitVec 1 := Scalar.andi v1966 v1968
  let c1_i32_1098 : BitVec 32 := 1#32
  let v1970 : BitVec 32 := Scalar.subi v1955 c1_i32_1098
  let v1971 : BitVec 32 := Scalar.select v1969 v1970 v1955
  let v1972 : BitVec 32 := Scalar.addi v1954 v1971
  let c3_i32_1099 : BitVec 32 := 3#32
  let v1973 : BitVec 32 := Scalar.muli c3_i32_1099 v1932
  let c14_i32_1100 : BitVec 32 := 14#32
  let v1974 : BitVec 32 := Scalar.addi v1973 c14_i32_1100
  let v1975 : BitVec 32 := Scalar.select v1942 v1972 v1974
  let c60_i32_1101 : BitVec 32 := 60#32
  let v1976 : BitVec 32 := Scalar.muli v1922 c60_i32_1101
  let v1977 : BitVec 32 := Scalar.addi v1976 v1941
  let c4_i32_1102 : BitVec 32 := 4#32
  let v1978 : BitVec 32 := Scalar.muli v1977 c4_i32_1102
  let c3_i32_1103 : BitVec 32 := 3#32
  let v1979 : BitVec 32 := Scalar.addi v1978 c3_i32_1103
  let c65536_i32_1104 : BitVec 32 := 65536#32
  let v1980 : BitVec 32 := Scalar.muli v1979 c65536_i32_1104
  let c60_i32_1105 : BitVec 32 := 60#32
  let v1981 : BitVec 32 := Scalar.muli v1922 c60_i32_1105
  pure ⟨v1975, v1980, v1981⟩

noncomputable def q_part54 (i : grid0.Coords) :
    Prog (TpuEff nD τ sig (Elt F) Λ₀ (.scVector ((i 0).castLE hcore0) ((i 1).castLE hsub0))) (Σ' (v1980 : BitVec 32), BitVec 32) := do
  let ⟨v1, v18, v30, c4_i32, v31, v36, v37⟩ : Σ' (v1 : BitVec 32) (v18 : BitVec 32) (v30 : BitVec 32) (c4_i32 : BitVec 32) (v31 : BitVec 32) (v36 : BitVec 32), BitVec 1 ← q_part1 i
  let ⟨v47, v66, v71, v75⟩ : Σ' (v47 : BitVec 32) (v66 : BitVec 32) (v71 : BitVec 32), BitVec 32 ← q_part2 i v18 v30 c4_i32 v31 v36 v37
  let v111 : BitVec 32 ← q_part3 i v30 v47 v66 v75
  let ⟨v137, v149, c4_i32_71⟩ : Σ' (v137 : BitVec 32) (v149 : BitVec 32), BitVec 32 ← q_part4 i v1 v30 v71 v111
  let ⟨v166, v185, v188⟩ : Σ' (v166 : BitVec 32) (v185 : BitVec 32), BitVec 32 ← q_part5 i v137 c4_i32_71
  let ⟨v196, v202, v208, v214, v220, v224⟩ : Σ' (v196 : BitVec 32) (v202 : BitVec 32) (v208 : BitVec 32) (v214 : BitVec 32) (v220 : BitVec 32), BitVec 32 ← q_part6 i v149 v166 v185 v188
  let ⟨c2_i32_129, v261, v263⟩ : Σ' (c2_i32_129 : BitVec 32) (v261 : BitVec 32), BitVec 32 ← q_part7 i v1 v149 v166 v185 v196 v202 v208 v214 v220 v224
  let ⟨v277, v289, v290, v304⟩ : Σ' (v277 : BitVec 32) (v289 : BitVec 32) (v290 : BitVec 32), BitVec 1 ← q_part8 i v1 c2_i32_129 v261 v263
  let ⟨v306, v325, v330, v340⟩ : Σ' (v306 : BitVec 32) (v325 : BitVec 32) (v330 : BitVec 32), BitVec 32 ← q_part9 i v277 v289 v290 v304
  q_part10 i v289 v306 v325 v330 v340
  let ⟨v394, v406, c4_i32_212, v407, v412, v414, v415⟩ : Σ' (v394 : BitVec 32) (v406 : BitVec 32) (c4_i32_212 : BitVec 32) (v407 : BitVec 32) (v412 : BitVec 32) (v414 : BitVec 32), BitVec 1 ← q_part11 i v1
  let ⟨v423, v442, v453⟩ : Σ' (v423 : BitVec 32) (v442 : BitVec 32), BitVec 32 ← q_part12 i v394 v406 c4_i32_212 v407 v412 v414 v415
  let ⟨v459, v465, v471, v477, v483, v489⟩ : Σ' (v459 : BitVec 32) (v465 : BitVec 32) (v471 : BitVec 32) (v477 : BitVec 32) (v483 : BitVec 32), BitVec 32 ← q_part13 i v406 v423 v442
  q_part14 i v453 v459 v465 v471 v477 v483 v489
  let ⟨v550, v560, v563, c0_i32_294⟩ : Σ' (v550 : BitVec 32) (v560 : BitVec 32) (v563 : BitVec 32), BitVec 32 ← q_part15 i v1
  let ⟨v565, v569, v570, v600, v601, c14_i32⟩ : Σ' (v565 : BitVec 32) (v569 : BitVec 32) (v570 : BitVec 1) (v600 : BitVec 32) (v601 : BitVec 32), BitVec 32 ← q_part16 i v560 v563 c0_i32_294
  let ⟨v622, v639⟩ : Σ' (v622 : BitVec 32), BitVec 32 ← q_part17 i v1 v550 v565 v569 v570 v600 v601 c14_i32
  let ⟨v649, v658, v659, v671, c3_i32_357, v672, v674, c0_i32_359⟩ : Σ' (v649 : BitVec 32) (v658 : BitVec 32) (v659 : BitVec 1) (v671 : BitVec 32) (c3_i32_357 : BitVec 32) (v672 : BitVec 32) (v674 : BitVec 32), BitVec 32 ← q_part18 i v622 v639
  q_part19 i v639 v649 v658 v659 v671 c3_i32_357 v672 v674 c0_i32_359
  let ⟨v726, v743, c16_i32_399, v744⟩ : Σ' (v726 : BitVec 32) (v743 : BitVec 32) (c16_i32_399 : BitVec 32), BitVec 1 ← q_part20 i v1
  let ⟨v753, v758, v762, v763, v775, c3_i32_421, v776, v781⟩ : Σ' (v753 : BitVec 32) (v758 : BitVec 32) (v762 : BitVec 32) (v763 : BitVec 1) (v775 : BitVec 32) (c3_i32_421 : BitVec 32) (v776 : BitVec 32), BitVec 32 ← q_part21 i v726 v743 c16_i32_399 v744
  let ⟨v813, c16_i32_442, v814, v816, v818⟩ : Σ' (v813 : BitVec 32) (c16_i32_442 : BitVec 32) (v814 : BitVec 32) (v816 : BitVec 32), BitVec 32 ← q_part22 i v1 v743 v753 v758 v762 v763 v775 c3_i32_421 v776 v781
  let ⟨v830, v840, v849, v850, v852, v853, v854, v855⟩ : Σ' (v830 : BitVec 32) (v840 : BitVec 32) (v849 : BitVec 32) (v850 : BitVec 1) (v852 : BitVec 32) (v853 : BitVec 32) (v854 : BitVec 1), BitVec 1 ← q_part23 i v813 c16_i32_442 v814 v816 v818
  let v893 : BitVec 32 ← q_part24 i v830 v840 v849 v850 v852 v853 v854 v855
  let ⟨v924, v926, v927, v932⟩ : Σ' (v924 : BitVec 32) (v926 : BitVec 32) (v927 : BitVec 32), BitVec 1 ← q_part25 i v1 v893
  let ⟨v934, v939, v943, v944, v956, v957, v968, v970⟩ : Σ' (v934 : BitVec 32) (v939 : BitVec 32) (v943 : BitVec 32) (v944 : BitVec 1) (v956 : BitVec 32) (v957 : BitVec 32) (v968 : BitVec 1), BitVec 1 ← q_part26 i v924 v926 v927 v932
  let ⟨v996, c16_i32_545, v997, v1002, v1007⟩ : Σ' (v996 : BitVec 32) (c16_i32_545 : BitVec 32) (v997 : BitVec 32) (v1002 : BitVec 32), BitVec 32 ← q_part27 i v1 v924 v934 v939 v943 v944 v956 v957 v968 v970
  let ⟨v1013, v1023, v1032, v1033, v1044⟩ : Σ' (v1013 : BitVec 32) (v1023 : BitVec 32) (v1032 : BitVec 32) (v1033 : BitVec 1), BitVec 32 ← q_part28 i v996 c16_i32_545 v997 v1002 v1007
  q_part29 i v1013 v1023 v1032 v1033 v1044
  let ⟨v1107, v1117, v1119, c4_i32_613⟩ : Σ' (v1107 : BitVec 32) (v1117 : BitVec 32) (v1119 : BitVec 32), BitVec 32 ← q_part30 i v1
  let ⟨v1122, v1126, v1127, v1157, c3_i32_635⟩ : Σ' (v1122 : BitVec 32) (v1126 : BitVec 32) (v1127 : BitVec 1) (v1157 : BitVec 32), BitVec 32 ← q_part31 i v1117 v1119 c4_i32_613
  let ⟨v1177, v1194, c16_i32_656⟩ : Σ' (v1177 : BitVec 32) (v1194 : BitVec 32), BitVec 32 ← q_part32 i v1 v1107 v1117 v1122 v1126 v1127 v1157 c3_i32_635
  let ⟨v1204, v1213, v1214, v1226, c3_i32_678, v1227, v1229, v1230⟩ : Σ' (v1204 : BitVec 32) (v1213 : BitVec 32) (v1214 : BitVec 1) (v1226 : BitVec 32) (c3_i32_678 : BitVec 32) (v1227 : BitVec 32) (v1229 : BitVec 32), BitVec 1 ← q_part33 i v1177 v1194 c16_i32_656
  q_part34 i v1194 v1204 v1213 v1214 v1226 c3_i32_678 v1227 v1229 v1230
  let ⟨v1288, v1298, v1303, v1304, v1306⟩ : Σ' (v1288 : BitVec 32) (v1298 : BitVec 32) (v1303 : BitVec 32) (v1304 : BitVec 1), BitVec 32 ← q_part35 i v1
  let ⟨v1341, v1345⟩ : Σ' (v1341 : BitVec 32), BitVec 32 ← q_part36 i v1288 v1298 v1304 v1306
  let ⟨v1377, v1379, v1380, v1381, c0_i32_763⟩ : Σ' (v1377 : BitVec 32) (v1379 : BitVec 32) (v1380 : BitVec 32) (v1381 : BitVec 1), BitVec 32 ← q_part37 i v1 v1288 v1303 v1341 v1345
  let ⟨v1387, v1396, v1397, v1409, c3_i32_781, v1410, v1415, v1417, v1419⟩ : Σ' (v1387 : BitVec 32) (v1396 : BitVec 32) (v1397 : BitVec 1) (v1409 : BitVec 32) (c3_i32_781 : BitVec 32) (v1410 : BitVec 32) (v1415 : BitVec 32) (v1417 : BitVec 32), BitVec 32 ← q_part38 i v1377 v1379 v1380 v1381 c0_i32_763
  let ⟨v1454, c16_i32_806⟩ : Σ' (v1454 : BitVec 32), BitVec 32 ← q_part39 i v1 v1377 v1387 v1396 v1397 v1409 c3_i32_781 v1410 v1415 v1417 v1419
  let ⟨v1471, v1481, v1486, v1490, v1491, c3_i32_827, v1492⟩ : Σ' (v1471 : BitVec 32) (v1481 : BitVec 32) (v1486 : BitVec 32) (v1490 : BitVec 32) (v1491 : BitVec 1) (c3_i32_827 : BitVec 32), BitVec 1 ← q_part40 i v1454 c16_i32_806
  let ⟨v1531, c4_i32_849⟩ : Σ' (v1531 : BitVec 32), BitVec 32 ← q_part41 i v1471 v1481 v1490 v1491 c3_i32_827 v1492
  let ⟨v1558, v1568, v1569⟩ : Σ' (v1558 : BitVec 32) (v1568 : BitVec 32), BitVec 32 ← q_part42 i v1 v1486 v1531 c4_i32_849
  let ⟨v1577, v1578, v1590, v1607⟩ : Σ' (v1577 : BitVec 32) (v1578 : BitVec 1) (v1590 : BitVec 32), BitVec 32 ← q_part43 i v1568 v1569
  let ⟨v1635, c16_i32_908, v1636, v1641, v1643⟩ : Σ' (v1635 : BitVec 32) (c16_i32_908 : BitVec 32) (v1636 : BitVec 32) (v1641 : BitVec 32), BitVec 32 ← q_part44 i v1 v1558 v1568 v1577 v1578 v1590 v1607
  let ⟨v1652, v1662, v1667, v1671, v1672, v1674, v1675, v1680⟩ : Σ' (v1652 : BitVec 32) (v1662 : BitVec 32) (v1667 : BitVec 32) (v1671 : BitVec 32) (v1672 : BitVec 1) (v1674 : BitVec 32) (v1675 : BitVec 32), BitVec 1 ← q_part45 i v1635 c16_i32_908 v1636 v1641 v1643
  q_part46 i v1652 v1662 v1667 v1671 v1672 v1674 v1675 v1680
  let ⟨v1741, v1751, c9_i32_976⟩ : Σ' (v1741 : BitVec 32) (v1751 : BitVec 32), BitVec 32 ← q_part47 i v1
  let ⟨v1760, v1794, v1795⟩ : Σ' (v1760 : BitVec 32) (v1794 : BitVec 32), BitVec 32 ← q_part48 i v1741 v1751 c9_i32_976
  let ⟨v1818, v1819, v1830, v1831⟩ : Σ' (v1818 : BitVec 32) (v1819 : BitVec 32) (v1830 : BitVec 1), BitVec 32 ← q_part49 i v1 v1741 v1760 v1794 v1795
  let ⟨v1835, v1845, v1850, v1854, v1855, v1867⟩ : Σ' (v1835 : BitVec 32) (v1845 : BitVec 32) (v1850 : BitVec 32) (v1854 : BitVec 32) (v1855 : BitVec 1), BitVec 32 ← q_part50 i v1818 v1819 v1830 v1831
  let ⟨v1904, c1_i32_1062⟩ : Σ' (v1904 : BitVec 32), BitVec 32 ← q_part51 i v1 v1835 v1845 v1850 v1854 v1855 v1867
  let ⟨v1922, v1932, v1941, v1942, c3_i32_1084⟩ : Σ' (v1922 : BitVec 32) (v1932 : BitVec 32) (v1941 : BitVec 32) (v1942 : BitVec 1), BitVec 32 ← q_part52 i v1904 c1_i32_1062
  let ⟨v1975, v1980, v1981⟩ : Σ' (v1975 : BitVec 32) (v1980 : BitVec 32), BitVec 32 ← q_part53 i v1922 v1932 v1941 v1942 c3_i32_1084
  let v1982 : BitVec 32 := Scalar.addi v1981 v1975
  let c4_i32_1106 : BitVec 32 := 4#32
  let v1983 : BitVec 32 := Scalar.muli v1982 c4_i32_1106
  let c3_i32_1107 : BitVec 32 := 3#32
  let v1984 : BitVec 32 := Scalar.addi v1983 c3_i32_1107
  let c65536_i32_1108 : BitVec 32 := 65536#32
  let v1985 : BitVec 32 := Scalar.muli v1984 c65536_i32_1108
  pure ⟨v1980, v1985⟩

noncomputable def qbody (i : grid0.Coords) :
    Prog (TpuEff nD τ sig (Elt F) Λ₀ (.scVector ((i 0).castLE hcore0) ((i 1).castLE hsub0))) PUnit := do
  let ⟨v1980, v1985⟩ : Σ' (v1980 : BitVec 32), BitVec 32 ← q_part54 i
  let v1986 : BitVec 32 := v1980
  let v1987 : Memref sig .scVector .hbm S65536 .f32 := (pc28 i)
  let v1988 : Memref sig .scVector .hbm S65536 .f32 := (pc28 i)
  Prog.lift (.enqueueDma bW (.here v1988) (.dma cc0_scratch5.sem) (Memref.isWhole_whole _).wordExact (View.wordExact_bits rfl) ⟨Or.inl rfl, trivial⟩)
  let v1989 : BitVec 32 := v1985
  let v1990 : Memref sig .scVector .hbm S65536 .f32 := (pc29 i)
  let v1991 : Memref sig .scVector .hbm S65536 .f32 := (pc29 i)
  Prog.lift (.enqueueDma bW (.here v1991) (.dma cc0_scratch5.sem) (Memref.isWhole_whole _).wordExact (View.wordExact_bits rfl) ⟨Or.inl rfl, trivial⟩)
  let c0_i32_1109 : BitVec 32 := 0#32
  let v1992 : Memref sig .scVector .hbm S65536 .f32 := oW.slice (Rect.unit (s := S62914560) ![0] S65536.size inb_S62914560_S65536_0) (fun _ => rfl)
  let c0_i32_1110 : BitVec 32 := 0#32
  let v1993 : Memref sig .scVector .shared S1x65536 .f32 := shW.slice (Rect.unit (s := S16x65536) (k0_off1 i) S1x65536.size (k0_off1_inb i)) (fun _ => rfl)
  let v1994 : Memref sig .scVector .shared S65536 .f32 := rowM i
  Prog.lift (.waitDma2 cc0_scratch4.sem v1994 v1992 ((View.wordExact_bits rfl).reshape _ _) (View.wordExact_bits rfl))
  let c0_i32_1111 : BitVec 32 := 0#32
  let v1995 : Memref sig .scVector .hbm S65536 .f32 := oW.slice (Rect.unit (s := S62914560) ![0] S65536.size inb_S62914560_S65536_0) (fun _ => rfl)
  let c0_i32_1112 : BitVec 32 := 0#32
  let v1996 : Memref sig .scVector .shared S1x65536 .f32 := shW.slice (Rect.unit (s := S16x65536) (k0_off1 i) S1x65536.size (k0_off1_inb i)) (fun _ => rfl)
  let v1997 : Memref sig .scVector .shared S65536 .f32 := rowM i
  Prog.lift (.waitDma2 cc0_scratch4.sem v1997 v1995 ((View.wordExact_bits rfl).reshape _ _) (View.wordExact_bits rfl))
  let c0_i32_1113 : BitVec 32 := 0#32
  let v1998 : Memref sig .scVector .hbm S65536 .f32 := oW.slice (Rect.unit (s := S62914560) ![0] S65536.size inb_S62914560_S65536_0) (fun _ => rfl)
  let c0_i32_1114 : BitVec 32 := 0#32
  let v1999 : Memref sig .scVector .hbm S65536 .f32 := oW.slice (Rect.unit (s := S62914560) ![0] S65536.size inb_S62914560_S65536_0) (fun _ => rfl)
  Prog.lift (.waitDma2 cc0_scratch5.sem bW v1999 (Memref.isWhole_whole _).wordExact (View.wordExact_bits rfl))
  let c0_i32_1115 : BitVec 32 := 0#32
  let v2000 : Memref sig .scVector .hbm S65536 .f32 := oW.slice (Rect.unit (s := S62914560) ![0] S65536.size inb_S62914560_S65536_0) (fun _ => rfl)
  let c0_i32_1116 : BitVec 32 := 0#32
  let v2001 : Memref sig .scVector .hbm S65536 .f32 := oW.slice (Rect.unit (s := S62914560) ![0] S65536.size inb_S62914560_S65536_0) (fun _ => rfl)
  Prog.lift (.waitDma2 cc0_scratch5.sem bW v2001 (Memref.isWhole_whole _).wordExact (View.wordExact_bits rfl))
  pure ⟨⟩

/-! ## Each printed definition at the launch's operands is its copy -/

set_option maxRecDepth 65536 in
theorem q_part1_eq (i : grid0.Coords) : k0_part1 (F := F) i xW (Memref.isWhole_whole _) oW (Memref.isWhole_whole _) shW (Memref.isWhole_whole _) bW (Memref.isWhole_whole _) cc0_scratch2 cc0_scratch3 cc0_scratch4 cc0_scratch5 = q_part1 (F := F) i := rfl

set_option maxRecDepth 65536 in
theorem q_part2_eq (i : grid0.Coords) : k0_part2 (F := F) i xW (Memref.isWhole_whole _) oW (Memref.isWhole_whole _) shW (Memref.isWhole_whole _) bW (Memref.isWhole_whole _) cc0_scratch2 cc0_scratch3 cc0_scratch4 cc0_scratch5 = q_part2 (F := F) i := rfl

set_option maxRecDepth 65536 in
theorem q_part3_eq (i : grid0.Coords) : k0_part3 (F := F) i xW (Memref.isWhole_whole _) oW (Memref.isWhole_whole _) shW (Memref.isWhole_whole _) bW (Memref.isWhole_whole _) cc0_scratch2 cc0_scratch3 cc0_scratch4 cc0_scratch5 = q_part3 (F := F) i := rfl

set_option maxRecDepth 65536 in
theorem q_part4_eq (i : grid0.Coords) : k0_part4 (F := F) i xW (Memref.isWhole_whole _) oW (Memref.isWhole_whole _) shW (Memref.isWhole_whole _) bW (Memref.isWhole_whole _) cc0_scratch2 cc0_scratch3 cc0_scratch4 cc0_scratch5 = q_part4 (F := F) i := rfl

set_option maxRecDepth 65536 in
theorem q_part5_eq (i : grid0.Coords) : k0_part5 (F := F) i xW (Memref.isWhole_whole _) oW (Memref.isWhole_whole _) shW (Memref.isWhole_whole _) bW (Memref.isWhole_whole _) cc0_scratch2 cc0_scratch3 cc0_scratch4 cc0_scratch5 = q_part5 (F := F) i := rfl

set_option maxRecDepth 65536 in
theorem q_part6_eq (i : grid0.Coords) : k0_part6 (F := F) i xW (Memref.isWhole_whole _) oW (Memref.isWhole_whole _) shW (Memref.isWhole_whole _) bW (Memref.isWhole_whole _) cc0_scratch2 cc0_scratch3 cc0_scratch4 cc0_scratch5 = q_part6 (F := F) i := rfl

set_option maxRecDepth 65536 in
theorem q_part7_eq (i : grid0.Coords) : k0_part7 (F := F) i xW (Memref.isWhole_whole _) oW (Memref.isWhole_whole _) shW (Memref.isWhole_whole _) bW (Memref.isWhole_whole _) cc0_scratch2 cc0_scratch3 cc0_scratch4 cc0_scratch5 = q_part7 (F := F) i := rfl

set_option maxRecDepth 65536 in
theorem q_part8_eq (i : grid0.Coords) : k0_part8 (F := F) i xW (Memref.isWhole_whole _) oW (Memref.isWhole_whole _) shW (Memref.isWhole_whole _) bW (Memref.isWhole_whole _) cc0_scratch2 cc0_scratch3 cc0_scratch4 cc0_scratch5 = q_part8 (F := F) i := rfl

set_option maxRecDepth 65536 in
theorem q_part9_eq (i : grid0.Coords) : k0_part9 (F := F) i xW (Memref.isWhole_whole _) oW (Memref.isWhole_whole _) shW (Memref.isWhole_whole _) bW (Memref.isWhole_whole _) cc0_scratch2 cc0_scratch3 cc0_scratch4 cc0_scratch5 = q_part9 (F := F) i := rfl

set_option maxRecDepth 65536 in
theorem q_part10_eq (i : grid0.Coords) : k0_part10 (F := F) i xW (Memref.isWhole_whole _) oW (Memref.isWhole_whole _) shW (Memref.isWhole_whole _) bW (Memref.isWhole_whole _) cc0_scratch2 cc0_scratch3 cc0_scratch4 cc0_scratch5 = q_part10 (F := F) i := rfl

set_option maxRecDepth 65536 in
theorem q_part11_eq (i : grid0.Coords) : k0_part11 (F := F) i xW (Memref.isWhole_whole _) oW (Memref.isWhole_whole _) shW (Memref.isWhole_whole _) bW (Memref.isWhole_whole _) cc0_scratch2 cc0_scratch3 cc0_scratch4 cc0_scratch5 = q_part11 (F := F) i := rfl

set_option maxRecDepth 65536 in
theorem q_part12_eq (i : grid0.Coords) : k0_part12 (F := F) i xW (Memref.isWhole_whole _) oW (Memref.isWhole_whole _) shW (Memref.isWhole_whole _) bW (Memref.isWhole_whole _) cc0_scratch2 cc0_scratch3 cc0_scratch4 cc0_scratch5 = q_part12 (F := F) i := rfl

set_option maxRecDepth 65536 in
theorem q_part13_eq (i : grid0.Coords) : k0_part13 (F := F) i xW (Memref.isWhole_whole _) oW (Memref.isWhole_whole _) shW (Memref.isWhole_whole _) bW (Memref.isWhole_whole _) cc0_scratch2 cc0_scratch3 cc0_scratch4 cc0_scratch5 = q_part13 (F := F) i := rfl

set_option maxRecDepth 65536 in
theorem q_part14_eq (i : grid0.Coords) : k0_part14 (F := F) i xW (Memref.isWhole_whole _) oW (Memref.isWhole_whole _) shW (Memref.isWhole_whole _) bW (Memref.isWhole_whole _) cc0_scratch2 cc0_scratch3 cc0_scratch4 cc0_scratch5 = q_part14 (F := F) i := rfl

set_option maxRecDepth 65536 in
theorem q_part15_eq (i : grid0.Coords) : k0_part15 (F := F) i xW (Memref.isWhole_whole _) oW (Memref.isWhole_whole _) shW (Memref.isWhole_whole _) bW (Memref.isWhole_whole _) cc0_scratch2 cc0_scratch3 cc0_scratch4 cc0_scratch5 = q_part15 (F := F) i := rfl

set_option maxRecDepth 65536 in
theorem q_part16_eq (i : grid0.Coords) : k0_part16 (F := F) i xW (Memref.isWhole_whole _) oW (Memref.isWhole_whole _) shW (Memref.isWhole_whole _) bW (Memref.isWhole_whole _) cc0_scratch2 cc0_scratch3 cc0_scratch4 cc0_scratch5 = q_part16 (F := F) i := rfl

set_option maxRecDepth 65536 in
theorem q_part17_eq (i : grid0.Coords) : k0_part17 (F := F) i xW (Memref.isWhole_whole _) oW (Memref.isWhole_whole _) shW (Memref.isWhole_whole _) bW (Memref.isWhole_whole _) cc0_scratch2 cc0_scratch3 cc0_scratch4 cc0_scratch5 = q_part17 (F := F) i := rfl

set_option maxRecDepth 65536 in
theorem q_part18_eq (i : grid0.Coords) : k0_part18 (F := F) i xW (Memref.isWhole_whole _) oW (Memref.isWhole_whole _) shW (Memref.isWhole_whole _) bW (Memref.isWhole_whole _) cc0_scratch2 cc0_scratch3 cc0_scratch4 cc0_scratch5 = q_part18 (F := F) i := rfl

set_option maxRecDepth 65536 in
theorem q_part19_eq (i : grid0.Coords) : k0_part19 (F := F) i xW (Memref.isWhole_whole _) oW (Memref.isWhole_whole _) shW (Memref.isWhole_whole _) bW (Memref.isWhole_whole _) cc0_scratch2 cc0_scratch3 cc0_scratch4 cc0_scratch5 = q_part19 (F := F) i := rfl

set_option maxRecDepth 65536 in
theorem q_part20_eq (i : grid0.Coords) : k0_part20 (F := F) i xW (Memref.isWhole_whole _) oW (Memref.isWhole_whole _) shW (Memref.isWhole_whole _) bW (Memref.isWhole_whole _) cc0_scratch2 cc0_scratch3 cc0_scratch4 cc0_scratch5 = q_part20 (F := F) i := rfl

set_option maxRecDepth 65536 in
theorem q_part21_eq (i : grid0.Coords) : k0_part21 (F := F) i xW (Memref.isWhole_whole _) oW (Memref.isWhole_whole _) shW (Memref.isWhole_whole _) bW (Memref.isWhole_whole _) cc0_scratch2 cc0_scratch3 cc0_scratch4 cc0_scratch5 = q_part21 (F := F) i := rfl

set_option maxRecDepth 65536 in
theorem q_part22_eq (i : grid0.Coords) : k0_part22 (F := F) i xW (Memref.isWhole_whole _) oW (Memref.isWhole_whole _) shW (Memref.isWhole_whole _) bW (Memref.isWhole_whole _) cc0_scratch2 cc0_scratch3 cc0_scratch4 cc0_scratch5 = q_part22 (F := F) i := rfl

set_option maxRecDepth 65536 in
theorem q_part23_eq (i : grid0.Coords) : k0_part23 (F := F) i xW (Memref.isWhole_whole _) oW (Memref.isWhole_whole _) shW (Memref.isWhole_whole _) bW (Memref.isWhole_whole _) cc0_scratch2 cc0_scratch3 cc0_scratch4 cc0_scratch5 = q_part23 (F := F) i := rfl

set_option maxRecDepth 65536 in
theorem q_part24_eq (i : grid0.Coords) : k0_part24 (F := F) i xW (Memref.isWhole_whole _) oW (Memref.isWhole_whole _) shW (Memref.isWhole_whole _) bW (Memref.isWhole_whole _) cc0_scratch2 cc0_scratch3 cc0_scratch4 cc0_scratch5 = q_part24 (F := F) i := rfl

set_option maxRecDepth 65536 in
theorem q_part25_eq (i : grid0.Coords) : k0_part25 (F := F) i xW (Memref.isWhole_whole _) oW (Memref.isWhole_whole _) shW (Memref.isWhole_whole _) bW (Memref.isWhole_whole _) cc0_scratch2 cc0_scratch3 cc0_scratch4 cc0_scratch5 = q_part25 (F := F) i := rfl

set_option maxRecDepth 65536 in
theorem q_part26_eq (i : grid0.Coords) : k0_part26 (F := F) i xW (Memref.isWhole_whole _) oW (Memref.isWhole_whole _) shW (Memref.isWhole_whole _) bW (Memref.isWhole_whole _) cc0_scratch2 cc0_scratch3 cc0_scratch4 cc0_scratch5 = q_part26 (F := F) i := rfl

set_option maxRecDepth 65536 in
theorem q_part27_eq (i : grid0.Coords) : k0_part27 (F := F) i xW (Memref.isWhole_whole _) oW (Memref.isWhole_whole _) shW (Memref.isWhole_whole _) bW (Memref.isWhole_whole _) cc0_scratch2 cc0_scratch3 cc0_scratch4 cc0_scratch5 = q_part27 (F := F) i := rfl

set_option maxRecDepth 65536 in
theorem q_part28_eq (i : grid0.Coords) : k0_part28 (F := F) i xW (Memref.isWhole_whole _) oW (Memref.isWhole_whole _) shW (Memref.isWhole_whole _) bW (Memref.isWhole_whole _) cc0_scratch2 cc0_scratch3 cc0_scratch4 cc0_scratch5 = q_part28 (F := F) i := rfl

set_option maxRecDepth 65536 in
theorem q_part29_eq (i : grid0.Coords) : k0_part29 (F := F) i xW (Memref.isWhole_whole _) oW (Memref.isWhole_whole _) shW (Memref.isWhole_whole _) bW (Memref.isWhole_whole _) cc0_scratch2 cc0_scratch3 cc0_scratch4 cc0_scratch5 = q_part29 (F := F) i := rfl

set_option maxRecDepth 65536 in
theorem q_part30_eq (i : grid0.Coords) : k0_part30 (F := F) i xW (Memref.isWhole_whole _) oW (Memref.isWhole_whole _) shW (Memref.isWhole_whole _) bW (Memref.isWhole_whole _) cc0_scratch2 cc0_scratch3 cc0_scratch4 cc0_scratch5 = q_part30 (F := F) i := rfl

set_option maxRecDepth 65536 in
theorem q_part31_eq (i : grid0.Coords) : k0_part31 (F := F) i xW (Memref.isWhole_whole _) oW (Memref.isWhole_whole _) shW (Memref.isWhole_whole _) bW (Memref.isWhole_whole _) cc0_scratch2 cc0_scratch3 cc0_scratch4 cc0_scratch5 = q_part31 (F := F) i := rfl

set_option maxRecDepth 65536 in
theorem q_part32_eq (i : grid0.Coords) : k0_part32 (F := F) i xW (Memref.isWhole_whole _) oW (Memref.isWhole_whole _) shW (Memref.isWhole_whole _) bW (Memref.isWhole_whole _) cc0_scratch2 cc0_scratch3 cc0_scratch4 cc0_scratch5 = q_part32 (F := F) i := rfl

set_option maxRecDepth 65536 in
theorem q_part33_eq (i : grid0.Coords) : k0_part33 (F := F) i xW (Memref.isWhole_whole _) oW (Memref.isWhole_whole _) shW (Memref.isWhole_whole _) bW (Memref.isWhole_whole _) cc0_scratch2 cc0_scratch3 cc0_scratch4 cc0_scratch5 = q_part33 (F := F) i := rfl

set_option maxRecDepth 65536 in
theorem q_part34_eq (i : grid0.Coords) : k0_part34 (F := F) i xW (Memref.isWhole_whole _) oW (Memref.isWhole_whole _) shW (Memref.isWhole_whole _) bW (Memref.isWhole_whole _) cc0_scratch2 cc0_scratch3 cc0_scratch4 cc0_scratch5 = q_part34 (F := F) i := rfl

set_option maxRecDepth 65536 in
theorem q_part35_eq (i : grid0.Coords) : k0_part35 (F := F) i xW (Memref.isWhole_whole _) oW (Memref.isWhole_whole _) shW (Memref.isWhole_whole _) bW (Memref.isWhole_whole _) cc0_scratch2 cc0_scratch3 cc0_scratch4 cc0_scratch5 = q_part35 (F := F) i := rfl

set_option maxRecDepth 65536 in
theorem q_part36_eq (i : grid0.Coords) : k0_part36 (F := F) i xW (Memref.isWhole_whole _) oW (Memref.isWhole_whole _) shW (Memref.isWhole_whole _) bW (Memref.isWhole_whole _) cc0_scratch2 cc0_scratch3 cc0_scratch4 cc0_scratch5 = q_part36 (F := F) i := rfl

set_option maxRecDepth 65536 in
theorem q_part37_eq (i : grid0.Coords) : k0_part37 (F := F) i xW (Memref.isWhole_whole _) oW (Memref.isWhole_whole _) shW (Memref.isWhole_whole _) bW (Memref.isWhole_whole _) cc0_scratch2 cc0_scratch3 cc0_scratch4 cc0_scratch5 = q_part37 (F := F) i := rfl

set_option maxRecDepth 65536 in
theorem q_part38_eq (i : grid0.Coords) : k0_part38 (F := F) i xW (Memref.isWhole_whole _) oW (Memref.isWhole_whole _) shW (Memref.isWhole_whole _) bW (Memref.isWhole_whole _) cc0_scratch2 cc0_scratch3 cc0_scratch4 cc0_scratch5 = q_part38 (F := F) i := rfl

set_option maxRecDepth 65536 in
theorem q_part39_eq (i : grid0.Coords) : k0_part39 (F := F) i xW (Memref.isWhole_whole _) oW (Memref.isWhole_whole _) shW (Memref.isWhole_whole _) bW (Memref.isWhole_whole _) cc0_scratch2 cc0_scratch3 cc0_scratch4 cc0_scratch5 = q_part39 (F := F) i := rfl

set_option maxRecDepth 65536 in
theorem q_part40_eq (i : grid0.Coords) : k0_part40 (F := F) i xW (Memref.isWhole_whole _) oW (Memref.isWhole_whole _) shW (Memref.isWhole_whole _) bW (Memref.isWhole_whole _) cc0_scratch2 cc0_scratch3 cc0_scratch4 cc0_scratch5 = q_part40 (F := F) i := rfl

set_option maxRecDepth 65536 in
theorem q_part41_eq (i : grid0.Coords) : k0_part41 (F := F) i xW (Memref.isWhole_whole _) oW (Memref.isWhole_whole _) shW (Memref.isWhole_whole _) bW (Memref.isWhole_whole _) cc0_scratch2 cc0_scratch3 cc0_scratch4 cc0_scratch5 = q_part41 (F := F) i := rfl

set_option maxRecDepth 65536 in
theorem q_part42_eq (i : grid0.Coords) : k0_part42 (F := F) i xW (Memref.isWhole_whole _) oW (Memref.isWhole_whole _) shW (Memref.isWhole_whole _) bW (Memref.isWhole_whole _) cc0_scratch2 cc0_scratch3 cc0_scratch4 cc0_scratch5 = q_part42 (F := F) i := rfl

set_option maxRecDepth 65536 in
theorem q_part43_eq (i : grid0.Coords) : k0_part43 (F := F) i xW (Memref.isWhole_whole _) oW (Memref.isWhole_whole _) shW (Memref.isWhole_whole _) bW (Memref.isWhole_whole _) cc0_scratch2 cc0_scratch3 cc0_scratch4 cc0_scratch5 = q_part43 (F := F) i := rfl

set_option maxRecDepth 65536 in
theorem q_part44_eq (i : grid0.Coords) : k0_part44 (F := F) i xW (Memref.isWhole_whole _) oW (Memref.isWhole_whole _) shW (Memref.isWhole_whole _) bW (Memref.isWhole_whole _) cc0_scratch2 cc0_scratch3 cc0_scratch4 cc0_scratch5 = q_part44 (F := F) i := rfl

set_option maxRecDepth 65536 in
theorem q_part45_eq (i : grid0.Coords) : k0_part45 (F := F) i xW (Memref.isWhole_whole _) oW (Memref.isWhole_whole _) shW (Memref.isWhole_whole _) bW (Memref.isWhole_whole _) cc0_scratch2 cc0_scratch3 cc0_scratch4 cc0_scratch5 = q_part45 (F := F) i := rfl

set_option maxRecDepth 65536 in
theorem q_part46_eq (i : grid0.Coords) : k0_part46 (F := F) i xW (Memref.isWhole_whole _) oW (Memref.isWhole_whole _) shW (Memref.isWhole_whole _) bW (Memref.isWhole_whole _) cc0_scratch2 cc0_scratch3 cc0_scratch4 cc0_scratch5 = q_part46 (F := F) i := rfl

set_option maxRecDepth 65536 in
theorem q_part47_eq (i : grid0.Coords) : k0_part47 (F := F) i xW (Memref.isWhole_whole _) oW (Memref.isWhole_whole _) shW (Memref.isWhole_whole _) bW (Memref.isWhole_whole _) cc0_scratch2 cc0_scratch3 cc0_scratch4 cc0_scratch5 = q_part47 (F := F) i := rfl

set_option maxRecDepth 65536 in
theorem q_part48_eq (i : grid0.Coords) : k0_part48 (F := F) i xW (Memref.isWhole_whole _) oW (Memref.isWhole_whole _) shW (Memref.isWhole_whole _) bW (Memref.isWhole_whole _) cc0_scratch2 cc0_scratch3 cc0_scratch4 cc0_scratch5 = q_part48 (F := F) i := rfl

set_option maxRecDepth 65536 in
theorem q_part49_eq (i : grid0.Coords) : k0_part49 (F := F) i xW (Memref.isWhole_whole _) oW (Memref.isWhole_whole _) shW (Memref.isWhole_whole _) bW (Memref.isWhole_whole _) cc0_scratch2 cc0_scratch3 cc0_scratch4 cc0_scratch5 = q_part49 (F := F) i := rfl

set_option maxRecDepth 65536 in
theorem q_part50_eq (i : grid0.Coords) : k0_part50 (F := F) i xW (Memref.isWhole_whole _) oW (Memref.isWhole_whole _) shW (Memref.isWhole_whole _) bW (Memref.isWhole_whole _) cc0_scratch2 cc0_scratch3 cc0_scratch4 cc0_scratch5 = q_part50 (F := F) i := rfl

set_option maxRecDepth 65536 in
theorem q_part51_eq (i : grid0.Coords) : k0_part51 (F := F) i xW (Memref.isWhole_whole _) oW (Memref.isWhole_whole _) shW (Memref.isWhole_whole _) bW (Memref.isWhole_whole _) cc0_scratch2 cc0_scratch3 cc0_scratch4 cc0_scratch5 = q_part51 (F := F) i := rfl

set_option maxRecDepth 65536 in
theorem q_part52_eq (i : grid0.Coords) : k0_part52 (F := F) i xW (Memref.isWhole_whole _) oW (Memref.isWhole_whole _) shW (Memref.isWhole_whole _) bW (Memref.isWhole_whole _) cc0_scratch2 cc0_scratch3 cc0_scratch4 cc0_scratch5 = q_part52 (F := F) i := rfl

set_option maxRecDepth 65536 in
theorem q_part53_eq (i : grid0.Coords) : k0_part53 (F := F) i xW (Memref.isWhole_whole _) oW (Memref.isWhole_whole _) shW (Memref.isWhole_whole _) bW (Memref.isWhole_whole _) cc0_scratch2 cc0_scratch3 cc0_scratch4 cc0_scratch5 = q_part53 (F := F) i := rfl

set_option maxRecDepth 65536 in
theorem q_part54_eq (i : grid0.Coords) : k0_part54 (F := F) i xW (Memref.isWhole_whole _) oW (Memref.isWhole_whole _) shW (Memref.isWhole_whole _) bW (Memref.isWhole_whole _) cc0_scratch2 cc0_scratch3 cc0_scratch4 cc0_scratch5 = q_part54 (F := F) i := by
  unfold k0_part54 q_part54
  simp only [q_part1_eq, q_part2_eq, q_part3_eq, q_part4_eq, q_part5_eq, q_part6_eq, q_part7_eq, q_part8_eq, q_part9_eq, q_part10_eq, q_part11_eq, q_part12_eq, q_part13_eq, q_part14_eq, q_part15_eq, q_part16_eq, q_part17_eq, q_part18_eq, q_part19_eq, q_part20_eq, q_part21_eq, q_part22_eq, q_part23_eq, q_part24_eq, q_part25_eq, q_part26_eq, q_part27_eq, q_part28_eq, q_part29_eq, q_part30_eq, q_part31_eq, q_part32_eq, q_part33_eq, q_part34_eq, q_part35_eq, q_part36_eq, q_part37_eq, q_part38_eq, q_part39_eq, q_part40_eq, q_part41_eq, q_part42_eq, q_part43_eq, q_part44_eq, q_part45_eq, q_part46_eq, q_part47_eq, q_part48_eq, q_part49_eq, q_part50_eq, q_part51_eq, q_part52_eq, q_part53_eq]

set_option maxRecDepth 65536 in
theorem qbody_eq (i : grid0.Coords) : cc0__body (F := F) i xW (Memref.isWhole_whole _) oW (Memref.isWhole_whole _) shW (Memref.isWhole_whole _) bW (Memref.isWhole_whole _) cc0_scratch2 cc0_scratch3 cc0_scratch4 cc0_scratch5 = qbody (F := F) i := by
  unfold cc0__body qbody
  simp only [q_part54_eq]

end Cert.KernelIdeal.Respelt

end
-- ==== Proof.SlicesKernelIdeal.lean ====
/-
  Pieces of the two flat arrays.

  The kernel sees the input as one array of 16777216 numbers and the output as one of 62914560, and moves PIECES of
  65536: piece `q` is the indices `65536 q ≤ n < 65536 (q + 1)`. A window the program slices at an offset `65536 q` is
  piece `q`: it has exactly that piece's elements (`set_outSlice`, `set_inSlice`), and its `k`-th element is flat index
  `65536 q + k` (`emb_outSlice`, `emb_inSlice`). Distinct pieces are disjoint and the 960 pieces cover the output.

  The kernel's result is one function of the flat input: output index `o`, in output piece `q = o / 65536`, copies the input
  index at the same place of input piece `refSrc q` (`srcIx`, `gout`). An output window that received, whole, what an input
  window reads of the input holds exactly that function on its piece, provided the row table sends the one piece to the
  other (`done_outSlice`).
-/
import proofs.«214454_g70703751626829_cont_9to1c4b_566_26_alg».proof.Proof.RespeltKernelIdeal
import proofs.«214454_g70703751626829_cont_9to1c4b_566_26_alg».proof.Proof.Pieces
import Idealize.ShloMosaic.Lib.ValueIdx
import Idealize.ShloMosaic.Lib.SparseCore.Launch

noncomputable section

namespace Cert.KernelIdeal.Respelt

open Cert.KernelIdeal Cert.KernelIdeal.GenP
open Idealize.ShloMosaic Idealize.SL.Sem

/-- Piece `q` of the flat output, and of the flat input. -/
def outPiece (q : ℕ) : Finset S62914560.Idx := Finset.univ.filter fun o => (o 0).val / 65536 = q
def inPiece (q : ℕ) : Finset S16777216.Idx := Finset.univ.filter fun o => (o 0).val / 65536 = q

theorem mem_outPiece {q : ℕ} {o : S62914560.Idx} : o ∈ outPiece q ↔ (o 0).val / 65536 = q := by simp [outPiece]
theorem mem_inPiece {q : ℕ} {o : S16777216.Idx} : o ∈ inPiece q ↔ (o 0).val / 65536 = q := by simp [inPiece]

theorem outPiece_disjoint {q q' : ℕ} (h : q ≠ q') : Disjoint (outPiece q) (outPiece q') :=
  Finset.disjoint_left.mpr fun o h1 h2 => h ((mem_outPiece.mp h1).symm.trans (mem_outPiece.mp h2))
theorem inPiece_disjoint {q q' : ℕ} (h : q ≠ q') : Disjoint (inPiece q) (inPiece q') :=
  Finset.disjoint_left.mpr fun o h1 h2 => h ((mem_inPiece.mp h1).symm.trans (mem_inPiece.mp h2))

/-- Every output index lies in one of the 960 pieces. -/
theorem outPiece_cover : (Finset.univ : Finset (Fin 960)).biUnion (fun q => outPiece q.val) = Finset.univ := by
  ext o
  simp only [Finset.mem_biUnion, Finset.mem_univ, true_and, iff_true]
  have h : (o 0).val < 62914560 := (o 0).isLt
  exact ⟨⟨(o 0).val / 65536, by omega⟩, mem_outPiece.mpr rfl⟩

/-- A window of the output sliced at offset `65536 q` has piece `q`'s elements. -/
theorem set_outSlice (off : Fin 1 → ℕ) (inb : ∀ a, off a + S65536.size a ≤ S62914560.size a) (hs) (q : ℕ) (h : off = ![65536 * q]) :
    (oW.slice (Rect.unit (s := S62914560) off S65536.size inb) hs).view.set = outPiece q := by
  subst h
  show ((View.whole (main_v1_scv : Ref sig .scVector)).slice (Rect.unit (s := S62914560) ![65536 * q] S65536.size inb)).set = _
  rw [View.set_slice_whole]
  ext o
  rw [Rect.mem_set_unit, mem_outPiece]
  show (∀ a : Fin 1, (![65536 * q] : Fin 1 → ℕ) a ≤ ((o : S62914560.Idx) a).val ∧ ((o : S62914560.Idx) a).val < (![65536 * q] : Fin 1 → ℕ) a + S65536.size a) ↔ _
  rw [Fin.forall_fin_one]
  show (65536 * q ≤ ((o : S62914560.Idx) 0).val ∧ ((o : S62914560.Idx) 0).val < 65536 * q + 65536) ↔ _
  omega

theorem set_inSlice (off : Fin 1 → ℕ) (inb : ∀ a, off a + S65536.size a ≤ S16777216.size a) (hs) (q : ℕ) (h : off = ![65536 * q]) :
    (xW.slice (Rect.unit (s := S16777216) off S65536.size inb) hs).view.set = inPiece q := by
  subst h
  show ((View.whole (main_v0_scv : Ref sig .scVector)).slice (Rect.unit (s := S16777216) ![65536 * q] S65536.size inb)).set = _
  rw [View.set_slice_whole]
  ext o
  rw [Rect.mem_set_unit, mem_inPiece]
  show (∀ a : Fin 1, (![65536 * q] : Fin 1 → ℕ) a ≤ ((o : S16777216.Idx) a).val ∧ ((o : S16777216.Idx) a).val < (![65536 * q] : Fin 1 → ℕ) a + S65536.size a) ↔ _
  rw [Fin.forall_fin_one]
  show (65536 * q ≤ ((o : S16777216.Idx) 0).val ∧ ((o : S16777216.Idx) 0).val < 65536 * q + 65536) ↔ _
  omega

/-- Its `k`-th element is flat index `65536 q + k`. -/
theorem emb_outSlice (off : Fin 1 → ℕ) (inb : ∀ a, off a + S65536.size a ≤ S62914560.size a) (hs) (q : ℕ) (h : off = ![65536 * q]) (y : S65536.Idx) :
    (((oW.slice (Rect.unit (s := S62914560) off S65536.size inb) hs).view.emb y) 0).val = 65536 * q + (y 0).val := by
  subst h
  show (((Rect.unit (s := S62914560) ![65536 * q] S65536.size inb).emb y) 0 : ℕ) = _
  rw [Rect.emb_apply]
  show 65536 * q + 1 * (y 0).val = _
  omega

theorem emb_inSlice (off : Fin 1 → ℕ) (inb : ∀ a, off a + S65536.size a ≤ S16777216.size a) (hs) (q : ℕ) (h : off = ![65536 * q]) (y : S65536.Idx) :
    (((xW.slice (Rect.unit (s := S16777216) off S65536.size inb) hs).view.emb y) 0).val = 65536 * q + (y 0).val := by
  subst h
  show (((Rect.unit (s := S16777216) ![65536 * q] S65536.size inb).emb y) 0 : ℕ) = _
  rw [Rect.emb_apply]
  show 65536 * q + 1 * (y 0).val = _
  omega

/-! ## The kernel's function, and a landed window -/

/-- The input index an output index copies: piece `q` of the output is piece `refSrc q` of the input, element for element. -/
def srcIx (o : S62914560.Idx) : S16777216.Idx :=
  ValueIdx.ix1 ⟨65536 * Cert.Pieces.refSrc ((o 0).val / 65536) + (o 0).val % 65536, by
    have h : (o 0).val < 62914560 := (o 0).isLt
    have := Cert.Pieces.refSrc_lt ⟨(o 0).val / 65536, by omega⟩
    show _ < 16777216
    simp only at this
    omega⟩

theorem srcIx_eq (o : S62914560.Idx) (x : S16777216.Idx) (qd qs y0 : ℕ) (hy : y0 < 65536) (ho : (o 0).val = 65536 * qd + y0)
    (hx : (x 0).val = 65536 * qs + y0) (hr : Cert.Pieces.refSrc qd = qs) : srcIx o = x := by
  rw [ValueIdx.eq_ix1 x]
  unfold srcIx
  congr 1
  apply Fin.ext
  show 65536 * Cert.Pieces.refSrc ((o 0).val / 65536) + (o 0).val % 65536 = (x 0).val
  rw [hx, ho, ← hr]
  have h1 : (65536 * qd + y0) / 65536 = qd := by omega
  have h2 : (65536 * qd + y0) % 65536 = y0 := by omega
  rw [h1, h2]

/-- A buffer whose last listed write is a whole-view piece reads back that piece's payload, whatever was written before. -/
theorem read_writes_whole_cons {sig' : RefSig} {κ : Kind} {sp : Space} {s : Shape} {e : EltTy} {Val : EltTy → Type}
    (v : View sig' κ sp s e) (f : v.ty.Contents Val) (w : s.Idx → Val e) (L : List (View.Piece Val s e)) :
    v.read Val (v.writes Val f (⟨Rect.whole s, w⟩ :: L)) = w := by
  funext y
  have h := View.read_writes_cons_emb v f (Rect.whole s) w L y
  rwa [Rect.emb_whole_apply] at h

section Landed

open Idealize.SL Idealize.SL.RA Idealize.SL.BI
open scoped Idealize.SL.BI
open Idealize.ShloMosaic.SparseCore (V T)

variable {F : FTy → Type} {Ix : Type} [DecidableEq Ix] {Name : Type} [DecidableEq Name] {U : Type} [URA U] {Lvl : Type}

local notation "𝕄" => MT nD τ sig Ix (Elt F) Name U Lvl

/-- The output the kernel computes, as one function of the flat input. -/
def gout {d : Dev nD} (xf : Buf (Elt F) ((T d : Thread nD τ).loc main_v0)) : Buf (Elt F) ((T d : Thread nD τ).loc main_v1) :=
  fun o => xf (srcIx o)

/-- A window of the output and one of the input, as the program slices them. -/
abbrev outSl (off : Fin 1 → ℕ) (inb : ∀ a, off a + S65536.size a ≤ S62914560.size a)
    (hs : ∀ a, (Rect.unit (s := S62914560) off S65536.size inb).stride a = 1) : Memref sig .scVector .hbm S65536 .f32 :=
  oW.slice (Rect.unit (s := S62914560) off S65536.size inb) hs
abbrev inSl (off : Fin 1 → ℕ) (inb : ∀ a, off a + S65536.size a ≤ S16777216.size a)
    (hs : ∀ a, (Rect.unit (s := S16777216) off S65536.size inb).stride a = 1) : Memref sig .scVector .hbm S65536 .f32 :=
  xW.slice (Rect.unit (s := S16777216) off S65536.size inb) hs

/-- An output window at piece `qd` that received whole what the input window at piece `qs` reads of `xf`, with the row table
    sending `qd` to `qs`, is output piece `qd` at `gout xf`. -/
theorem done_outSlice (d : Dev nD) (c : Fin τ.nSC) (j : Fin τ.nSub)
    (offd : Fin 1 → ℕ) (inbd : ∀ a, offd a + S65536.size a ≤ S62914560.size a) (hsd)
    (offs : Fin 1 → ℕ) (inbs : ∀ a, offs a + S65536.size a ≤ S16777216.size a) (hss)
    (qd qs : ℕ) (hd : offd = ![65536 * qd]) (hs : offs = ![65536 * qs]) (hr : Cert.Pieces.refSrc qd = qs)
    (xf : Buf (Elt F) ((T d : Thread nD τ).loc main_v0)) (fo : Buf (Elt F) ((T d : Thread nD τ).loc main_v1)) :
    ((outSl offd inbd hsd).view.loc (V d c j) ↦[(outSl offd inbd hsd).view.set]{fullShare}
        (outSl offd inbd hsd).view.writes (Elt F) fo [⟨Rect.whole S65536, (inSl offs inbs hss).view.read (Elt F) xf⟩] : sProp 𝕄)
      = ((T d : Thread nD τ).loc main_v1 ↦[outPiece qd]{fullShare} gout xf) := by
  have e : ((outSl offd inbd hsd).view.loc (V d c j) ↦[(outSl offd inbd hsd).view.set]{fullShare} gout xf : sProp 𝕄)
      = ((T d : Thread nD τ).loc main_v1 ↦[outPiece qd]{fullShare} gout xf) := by rw [set_outSlice _ _ _ _ hd]
  rw [← e]
  refine pointsTo_congr fun o ho => ?_
  obtain ⟨y, -, rfl⟩ := Finset.mem_map.mp ho
  have h := congrFun (View.read_writes_whole (outSl offd inbd hsd).view fo ((inSl offs inbs hss).view.read (Elt F) xf)) y
  rw [View.read_apply, View.read_apply] at h
  have hix : srcIx ((outSl offd inbd hsd).view.emb y) = (inSl offs inbs hss).view.emb y :=
    srcIx_eq _ _ qd qs (y 0).val (y 0).isLt (emb_outSlice _ _ _ _ hd y) (emb_inSlice _ _ _ _ hs y) hr
  show _ = xf (srcIx ((outSl offd inbd hsd).view.emb y))
  rw [hix]
  exact (cast_eq _ _).symm.trans (h.trans (cast_eq _ _))

end Landed

end Cert.KernelIdeal.Respelt

end
-- ==== Proof.WindowsKernelIdeal.lean ====
/-
  Where each window of the body sits.

  Window `pc k i` (the `k`-th output piece that subcore `i` writes) is output piece `dstPiece (i 0) (i 1) k` and window
  `xw j i` (the input piece its `j`-th step stages) input piece `srcPiece (i 0) (i 1) k` for the first copy `k` that the step
  feeds: the program's offset chains, evaluated at each of the 32 subcores, are `65536` times those piece numbers.
-/
import proofs.«214454_g70703751626829_cont_9to1c4b_566_26_alg».proof.Proof.SlicesKernelIdeal
import Idealize.ShloMosaic.Lib.SparseCore.Launch

set_option Elab.async false

noncomputable section

namespace Cert.KernelIdeal.Respelt

open Cert.KernelIdeal Cert.KernelIdeal.GenP
open Idealize.ShloMosaic Idealize.SL.Sem

theorem off_xw0 : ∀ i : grid0.Coords, k0_off2 i 0#32 = ![65536 * Cert.Pieces.srcPiece (i 0).val (i 1).val 0] := by decide +kernel
theorem set_xw0 (i : grid0.Coords) : (xw0 i).view.set = inPiece (Cert.Pieces.srcPiece (i 0).val (i 1).val 0) := set_inSlice _ _ _ _ (off_xw0 i)
theorem emb_xw0 (i : grid0.Coords) (y : S65536.Idx) : (((xw0 i).view.emb y) 0).val = 65536 * Cert.Pieces.srcPiece (i 0).val (i 1).val 0 + (y 0).val := emb_inSlice _ _ _ _ (off_xw0 i) y
theorem off_xw1 : ∀ i : grid0.Coords, k0_off2 i 1#32 = ![65536 * Cert.Pieces.srcPiece (i 0).val (i 1).val 7] := by decide +kernel
theorem set_xw1 (i : grid0.Coords) : (xw1 i).view.set = inPiece (Cert.Pieces.srcPiece (i 0).val (i 1).val 7) := set_inSlice _ _ _ _ (off_xw1 i)
theorem emb_xw1 (i : grid0.Coords) (y : S65536.Idx) : (((xw1 i).view.emb y) 0).val = 65536 * Cert.Pieces.srcPiece (i 0).val (i 1).val 7 + (y 0).val := emb_inSlice _ _ _ _ (off_xw1 i) y
theorem off_xw2 : ∀ i : grid0.Coords, k0_off4 i 0#32 0#32 = ![65536 * Cert.Pieces.srcPiece (i 0).val (i 1).val 14] := by decide +kernel
theorem set_xw2 (i : grid0.Coords) : (xw2 i).view.set = inPiece (Cert.Pieces.srcPiece (i 0).val (i 1).val 14) := set_inSlice _ _ _ _ (off_xw2 i)
theorem emb_xw2 (i : grid0.Coords) (y : S65536.Idx) : (((xw2 i).view.emb y) 0).val = 65536 * Cert.Pieces.srcPiece (i 0).val (i 1).val 14 + (y 0).val := emb_inSlice _ _ _ _ (off_xw2 i) y
theorem off_xw3 : ∀ i : grid0.Coords, k0_off4 i 0#32 1#32 = ![65536 * Cert.Pieces.srcPiece (i 0).val (i 1).val 16] := by decide +kernel
theorem set_xw3 (i : grid0.Coords) : (xw3 i).view.set = inPiece (Cert.Pieces.srcPiece (i 0).val (i 1).val 16) := set_inSlice _ _ _ _ (off_xw3 i)
theorem emb_xw3 (i : grid0.Coords) (y : S65536.Idx) : (((xw3 i).view.emb y) 0).val = 65536 * Cert.Pieces.srcPiece (i 0).val (i 1).val 16 + (y 0).val := emb_inSlice _ _ _ _ (off_xw3 i) y
theorem off_xw4 : ∀ i : grid0.Coords, k0_off4 i 0#32 2#32 = ![65536 * Cert.Pieces.srcPiece (i 0).val (i 1).val 18] := by decide +kernel
theorem set_xw4 (i : grid0.Coords) : (xw4 i).view.set = inPiece (Cert.Pieces.srcPiece (i 0).val (i 1).val 18) := set_inSlice _ _ _ _ (off_xw4 i)
theorem emb_xw4 (i : grid0.Coords) (y : S65536.Idx) : (((xw4 i).view.emb y) 0).val = 65536 * Cert.Pieces.srcPiece (i 0).val (i 1).val 18 + (y 0).val := emb_inSlice _ _ _ _ (off_xw4 i) y
theorem off_xw5 : ∀ i : grid0.Coords, k0_off4 i 0#32 3#32 = ![65536 * Cert.Pieces.srcPiece (i 0).val (i 1).val 20] := by decide +kernel
theorem set_xw5 (i : grid0.Coords) : (xw5 i).view.set = inPiece (Cert.Pieces.srcPiece (i 0).val (i 1).val 20) := set_inSlice _ _ _ _ (off_xw5 i)
theorem emb_xw5 (i : grid0.Coords) (y : S65536.Idx) : (((xw5 i).view.emb y) 0).val = 65536 * Cert.Pieces.srcPiece (i 0).val (i 1).val 20 + (y 0).val := emb_inSlice _ _ _ _ (off_xw5 i) y
theorem off_xw6 : ∀ i : grid0.Coords, k0_off4 i 1#32 0#32 = ![65536 * Cert.Pieces.srcPiece (i 0).val (i 1).val 22] := by decide +kernel
theorem set_xw6 (i : grid0.Coords) : (xw6 i).view.set = inPiece (Cert.Pieces.srcPiece (i 0).val (i 1).val 22) := set_inSlice _ _ _ _ (off_xw6 i)
theorem emb_xw6 (i : grid0.Coords) (y : S65536.Idx) : (((xw6 i).view.emb y) 0).val = 65536 * Cert.Pieces.srcPiece (i 0).val (i 1).val 22 + (y 0).val := emb_inSlice _ _ _ _ (off_xw6 i) y
theorem off_xw7 : ∀ i : grid0.Coords, k0_off4 i 1#32 1#32 = ![65536 * Cert.Pieces.srcPiece (i 0).val (i 1).val 24] := by decide +kernel
theorem set_xw7 (i : grid0.Coords) : (xw7 i).view.set = inPiece (Cert.Pieces.srcPiece (i 0).val (i 1).val 24) := set_inSlice _ _ _ _ (off_xw7 i)
theorem emb_xw7 (i : grid0.Coords) (y : S65536.Idx) : (((xw7 i).view.emb y) 0).val = 65536 * Cert.Pieces.srcPiece (i 0).val (i 1).val 24 + (y 0).val := emb_inSlice _ _ _ _ (off_xw7 i) y
theorem off_xw8 : ∀ i : grid0.Coords, k0_off4 i 1#32 2#32 = ![65536 * Cert.Pieces.srcPiece (i 0).val (i 1).val 26] := by decide +kernel
theorem set_xw8 (i : grid0.Coords) : (xw8 i).view.set = inPiece (Cert.Pieces.srcPiece (i 0).val (i 1).val 26) := set_inSlice _ _ _ _ (off_xw8 i)
theorem emb_xw8 (i : grid0.Coords) (y : S65536.Idx) : (((xw8 i).view.emb y) 0).val = 65536 * Cert.Pieces.srcPiece (i 0).val (i 1).val 26 + (y 0).val := emb_inSlice _ _ _ _ (off_xw8 i) y
theorem off_xw9 : ∀ i : grid0.Coords, k0_off4 i 1#32 3#32 = ![65536 * Cert.Pieces.srcPiece (i 0).val (i 1).val 28] := by decide +kernel
theorem set_xw9 (i : grid0.Coords) : (xw9 i).view.set = inPiece (Cert.Pieces.srcPiece (i 0).val (i 1).val 28) := set_inSlice _ _ _ _ (off_xw9 i)
theorem emb_xw9 (i : grid0.Coords) (y : S65536.Idx) : (((xw9 i).view.emb y) 0).val = 65536 * Cert.Pieces.srcPiece (i 0).val (i 1).val 28 + (y 0).val := emb_inSlice _ _ _ _ (off_xw9 i) y
theorem off_pc0 : ∀ i : grid0.Coords, k0_off3 i 0#32 0#32 = ![65536 * Cert.Pieces.dstPiece (i 0).val (i 1).val 0] := by decide +kernel
theorem set_pc0 (i : grid0.Coords) : (pc0 i).view.set = outPiece (Cert.Pieces.dstPiece (i 0).val (i 1).val 0) := set_outSlice _ _ _ _ (off_pc0 i)
theorem emb_pc0 (i : grid0.Coords) (y : S65536.Idx) : (((pc0 i).view.emb y) 0).val = 65536 * Cert.Pieces.dstPiece (i 0).val (i 1).val 0 + (y 0).val := emb_outSlice _ _ _ _ (off_pc0 i) y
theorem off_pc1 : ∀ i : grid0.Coords, k0_off3 i 3#32 0#32 = ![65536 * Cert.Pieces.dstPiece (i 0).val (i 1).val 1] := by decide +kernel
theorem set_pc1 (i : grid0.Coords) : (pc1 i).view.set = outPiece (Cert.Pieces.dstPiece (i 0).val (i 1).val 1) := set_outSlice _ _ _ _ (off_pc1 i)
theorem emb_pc1 (i : grid0.Coords) (y : S65536.Idx) : (((pc1 i).view.emb y) 0).val = 65536 * Cert.Pieces.dstPiece (i 0).val (i 1).val 1 + (y 0).val := emb_outSlice _ _ _ _ (off_pc1 i) y
theorem off_pc2 : ∀ i : grid0.Coords, k0_off3 i 6#32 0#32 = ![65536 * Cert.Pieces.dstPiece (i 0).val (i 1).val 2] := by decide +kernel
theorem set_pc2 (i : grid0.Coords) : (pc2 i).view.set = outPiece (Cert.Pieces.dstPiece (i 0).val (i 1).val 2) := set_outSlice _ _ _ _ (off_pc2 i)
theorem emb_pc2 (i : grid0.Coords) (y : S65536.Idx) : (((pc2 i).view.emb y) 0).val = 65536 * Cert.Pieces.dstPiece (i 0).val (i 1).val 2 + (y 0).val := emb_outSlice _ _ _ _ (off_pc2 i) y
theorem off_pc3 : ∀ i : grid0.Coords, k0_off3 i 9#32 0#32 = ![65536 * Cert.Pieces.dstPiece (i 0).val (i 1).val 3] := by decide +kernel
theorem set_pc3 (i : grid0.Coords) : (pc3 i).view.set = outPiece (Cert.Pieces.dstPiece (i 0).val (i 1).val 3) := set_outSlice _ _ _ _ (off_pc3 i)
theorem emb_pc3 (i : grid0.Coords) (y : S65536.Idx) : (((pc3 i).view.emb y) 0).val = 65536 * Cert.Pieces.dstPiece (i 0).val (i 1).val 3 + (y 0).val := emb_outSlice _ _ _ _ (off_pc3 i) y
theorem off_pc4 : ∀ i : grid0.Coords, k0_off3 i 12#32 0#32 = ![65536 * Cert.Pieces.dstPiece (i 0).val (i 1).val 4] := by decide +kernel
theorem set_pc4 (i : grid0.Coords) : (pc4 i).view.set = outPiece (Cert.Pieces.dstPiece (i 0).val (i 1).val 4) := set_outSlice _ _ _ _ (off_pc4 i)
theorem emb_pc4 (i : grid0.Coords) (y : S65536.Idx) : (((pc4 i).view.emb y) 0).val = 65536 * Cert.Pieces.dstPiece (i 0).val (i 1).val 4 + (y 0).val := emb_outSlice _ _ _ _ (off_pc4 i) y
theorem off_pc5 : ∀ i : grid0.Coords, k0_off3 i 15#32 0#32 = ![65536 * Cert.Pieces.dstPiece (i 0).val (i 1).val 5] := by decide +kernel
theorem set_pc5 (i : grid0.Coords) : (pc5 i).view.set = outPiece (Cert.Pieces.dstPiece (i 0).val (i 1).val 5) := set_outSlice _ _ _ _ (off_pc5 i)
theorem emb_pc5 (i : grid0.Coords) (y : S65536.Idx) : (((pc5 i).view.emb y) 0).val = 65536 * Cert.Pieces.dstPiece (i 0).val (i 1).val 5 + (y 0).val := emb_outSlice _ _ _ _ (off_pc5 i) y
theorem off_pc6 : ∀ i : grid0.Coords, k0_off3 i 18#32 0#32 = ![65536 * Cert.Pieces.dstPiece (i 0).val (i 1).val 6] := by decide +kernel
theorem set_pc6 (i : grid0.Coords) : (pc6 i).view.set = outPiece (Cert.Pieces.dstPiece (i 0).val (i 1).val 6) := set_outSlice _ _ _ _ (off_pc6 i)
theorem emb_pc6 (i : grid0.Coords) (y : S65536.Idx) : (((pc6 i).view.emb y) 0).val = 65536 * Cert.Pieces.dstPiece (i 0).val (i 1).val 6 + (y 0).val := emb_outSlice _ _ _ _ (off_pc6 i) y
theorem off_pc7 : ∀ i : grid0.Coords, k0_off3 i 0#32 1#32 = ![65536 * Cert.Pieces.dstPiece (i 0).val (i 1).val 7] := by decide +kernel
theorem set_pc7 (i : grid0.Coords) : (pc7 i).view.set = outPiece (Cert.Pieces.dstPiece (i 0).val (i 1).val 7) := set_outSlice _ _ _ _ (off_pc7 i)
theorem emb_pc7 (i : grid0.Coords) (y : S65536.Idx) : (((pc7 i).view.emb y) 0).val = 65536 * Cert.Pieces.dstPiece (i 0).val (i 1).val 7 + (y 0).val := emb_outSlice _ _ _ _ (off_pc7 i) y
theorem off_pc8 : ∀ i : grid0.Coords, k0_off3 i 3#32 1#32 = ![65536 * Cert.Pieces.dstPiece (i 0).val (i 1).val 8] := by decide +kernel
theorem set_pc8 (i : grid0.Coords) : (pc8 i).view.set = outPiece (Cert.Pieces.dstPiece (i 0).val (i 1).val 8) := set_outSlice _ _ _ _ (off_pc8 i)
theorem emb_pc8 (i : grid0.Coords) (y : S65536.Idx) : (((pc8 i).view.emb y) 0).val = 65536 * Cert.Pieces.dstPiece (i 0).val (i 1).val 8 + (y 0).val := emb_outSlice _ _ _ _ (off_pc8 i) y
theorem off_pc9 : ∀ i : grid0.Coords, k0_off3 i 6#32 1#32 = ![65536 * Cert.Pieces.dstPiece (i 0).val (i 1).val 9] := by decide +kernel
theorem set_pc9 (i : grid0.Coords) : (pc9 i).view.set = outPiece (Cert.Pieces.dstPiece (i 0).val (i 1).val 9) := set_outSlice _ _ _ _ (off_pc9 i)
theorem emb_pc9 (i : grid0.Coords) (y : S65536.Idx) : (((pc9 i).view.emb y) 0).val = 65536 * Cert.Pieces.dstPiece (i 0).val (i 1).val 9 + (y 0).val := emb_outSlice _ _ _ _ (off_pc9 i) y
theorem off_pc10 : ∀ i : grid0.Coords, k0_off3 i 9#32 1#32 = ![65536 * Cert.Pieces.dstPiece (i 0).val (i 1).val 10] := by decide +kernel
theorem set_pc10 (i : grid0.Coords) : (pc10 i).view.set = outPiece (Cert.Pieces.dstPiece (i 0).val (i 1).val 10) := set_outSlice _ _ _ _ (off_pc10 i)
theorem emb_pc10 (i : grid0.Coords) (y : S65536.Idx) : (((pc10 i).view.emb y) 0).val = 65536 * Cert.Pieces.dstPiece (i 0).val (i 1).val 10 + (y 0).val := emb_outSlice _ _ _ _ (off_pc10 i) y
theorem off_pc11 : ∀ i : grid0.Coords, k0_off3 i 12#32 1#32 = ![65536 * Cert.Pieces.dstPiece (i 0).val (i 1).val 11] := by decide +kernel
theorem set_pc11 (i : grid0.Coords) : (pc11 i).view.set = outPiece (Cert.Pieces.dstPiece (i 0).val (i 1).val 11) := set_outSlice _ _ _ _ (off_pc11 i)
theorem emb_pc11 (i : grid0.Coords) (y : S65536.Idx) : (((pc11 i).view.emb y) 0).val = 65536 * Cert.Pieces.dstPiece (i 0).val (i 1).val 11 + (y 0).val := emb_outSlice _ _ _ _ (off_pc11 i) y
theorem off_pc12 : ∀ i : grid0.Coords, k0_off3 i 15#32 1#32 = ![65536 * Cert.Pieces.dstPiece (i 0).val (i 1).val 12] := by decide +kernel
theorem set_pc12 (i : grid0.Coords) : (pc12 i).view.set = outPiece (Cert.Pieces.dstPiece (i 0).val (i 1).val 12) := set_outSlice _ _ _ _ (off_pc12 i)
theorem emb_pc12 (i : grid0.Coords) (y : S65536.Idx) : (((pc12 i).view.emb y) 0).val = 65536 * Cert.Pieces.dstPiece (i 0).val (i 1).val 12 + (y 0).val := emb_outSlice _ _ _ _ (off_pc12 i) y
theorem off_pc13 : ∀ i : grid0.Coords, k0_off3 i 18#32 1#32 = ![65536 * Cert.Pieces.dstPiece (i 0).val (i 1).val 13] := by decide +kernel
theorem set_pc13 (i : grid0.Coords) : (pc13 i).view.set = outPiece (Cert.Pieces.dstPiece (i 0).val (i 1).val 13) := set_outSlice _ _ _ _ (off_pc13 i)
theorem emb_pc13 (i : grid0.Coords) (y : S65536.Idx) : (((pc13 i).view.emb y) 0).val = 65536 * Cert.Pieces.dstPiece (i 0).val (i 1).val 13 + (y 0).val := emb_outSlice _ _ _ _ (off_pc13 i) y
theorem off_pc14 : ∀ i : grid0.Coords, k0_off5 i 0#32 0#32 = ![65536 * Cert.Pieces.dstPiece (i 0).val (i 1).val 14] := by decide +kernel
theorem set_pc14 (i : grid0.Coords) : (pc14 i).view.set = outPiece (Cert.Pieces.dstPiece (i 0).val (i 1).val 14) := set_outSlice _ _ _ _ (off_pc14 i)
theorem emb_pc14 (i : grid0.Coords) (y : S65536.Idx) : (((pc14 i).view.emb y) 0).val = 65536 * Cert.Pieces.dstPiece (i 0).val (i 1).val 14 + (y 0).val := emb_outSlice _ _ _ _ (off_pc14 i) y
theorem off_pc15 : ∀ i : grid0.Coords, k0_off6 i 0#32 0#32 = ![65536 * Cert.Pieces.dstPiece (i 0).val (i 1).val 15] := by decide +kernel
theorem set_pc15 (i : grid0.Coords) : (pc15 i).view.set = outPiece (Cert.Pieces.dstPiece (i 0).val (i 1).val 15) := set_outSlice _ _ _ _ (off_pc15 i)
theorem emb_pc15 (i : grid0.Coords) (y : S65536.Idx) : (((pc15 i).view.emb y) 0).val = 65536 * Cert.Pieces.dstPiece (i 0).val (i 1).val 15 + (y 0).val := emb_outSlice _ _ _ _ (off_pc15 i) y
theorem off_pc16 : ∀ i : grid0.Coords, k0_off5 i 0#32 1#32 = ![65536 * Cert.Pieces.dstPiece (i 0).val (i 1).val 16] := by decide +kernel
theorem set_pc16 (i : grid0.Coords) : (pc16 i).view.set = outPiece (Cert.Pieces.dstPiece (i 0).val (i 1).val 16) := set_outSlice _ _ _ _ (off_pc16 i)
theorem emb_pc16 (i : grid0.Coords) (y : S65536.Idx) : (((pc16 i).view.emb y) 0).val = 65536 * Cert.Pieces.dstPiece (i 0).val (i 1).val 16 + (y 0).val := emb_outSlice _ _ _ _ (off_pc16 i) y
theorem off_pc17 : ∀ i : grid0.Coords, k0_off6 i 0#32 1#32 = ![65536 * Cert.Pieces.dstPiece (i 0).val (i 1).val 17] := by decide +kernel
theorem set_pc17 (i : grid0.Coords) : (pc17 i).view.set = outPiece (Cert.Pieces.dstPiece (i 0).val (i 1).val 17) := set_outSlice _ _ _ _ (off_pc17 i)
theorem emb_pc17 (i : grid0.Coords) (y : S65536.Idx) : (((pc17 i).view.emb y) 0).val = 65536 * Cert.Pieces.dstPiece (i 0).val (i 1).val 17 + (y 0).val := emb_outSlice _ _ _ _ (off_pc17 i) y
theorem off_pc18 : ∀ i : grid0.Coords, k0_off5 i 0#32 2#32 = ![65536 * Cert.Pieces.dstPiece (i 0).val (i 1).val 18] := by decide +kernel
theorem set_pc18 (i : grid0.Coords) : (pc18 i).view.set = outPiece (Cert.Pieces.dstPiece (i 0).val (i 1).val 18) := set_outSlice _ _ _ _ (off_pc18 i)
theorem emb_pc18 (i : grid0.Coords) (y : S65536.Idx) : (((pc18 i).view.emb y) 0).val = 65536 * Cert.Pieces.dstPiece (i 0).val (i 1).val 18 + (y 0).val := emb_outSlice _ _ _ _ (off_pc18 i) y
theorem off_pc19 : ∀ i : grid0.Coords, k0_off6 i 0#32 2#32 = ![65536 * Cert.Pieces.dstPiece (i 0).val (i 1).val 19] := by decide +kernel
theorem set_pc19 (i : grid0.Coords) : (pc19 i).view.set = outPiece (Cert.Pieces.dstPiece (i 0).val (i 1).val 19) := set_outSlice _ _ _ _ (off_pc19 i)
theorem emb_pc19 (i : grid0.Coords) (y : S65536.Idx) : (((pc19 i).view.emb y) 0).val = 65536 * Cert.Pieces.dstPiece (i 0).val (i 1).val 19 + (y 0).val := emb_outSlice _ _ _ _ (off_pc19 i) y
theorem off_pc20 : ∀ i : grid0.Coords, k0_off5 i 0#32 3#32 = ![65536 * Cert.Pieces.dstPiece (i 0).val (i 1).val 20] := by decide +kernel
theorem set_pc20 (i : grid0.Coords) : (pc20 i).view.set = outPiece (Cert.Pieces.dstPiece (i 0).val (i 1).val 20) := set_outSlice _ _ _ _ (off_pc20 i)
theorem emb_pc20 (i : grid0.Coords) (y : S65536.Idx) : (((pc20 i).view.emb y) 0).val = 65536 * Cert.Pieces.dstPiece (i 0).val (i 1).val 20 + (y 0).val := emb_outSlice _ _ _ _ (off_pc20 i) y
theorem off_pc21 : ∀ i : grid0.Coords, k0_off6 i 0#32 3#32 = ![65536 * Cert.Pieces.dstPiece (i 0).val (i 1).val 21] := by decide +kernel
theorem set_pc21 (i : grid0.Coords) : (pc21 i).view.set = outPiece (Cert.Pieces.dstPiece (i 0).val (i 1).val 21) := set_outSlice _ _ _ _ (off_pc21 i)
theorem emb_pc21 (i : grid0.Coords) (y : S65536.Idx) : (((pc21 i).view.emb y) 0).val = 65536 * Cert.Pieces.dstPiece (i 0).val (i 1).val 21 + (y 0).val := emb_outSlice _ _ _ _ (off_pc21 i) y
theorem off_pc22 : ∀ i : grid0.Coords, k0_off5 i 1#32 0#32 = ![65536 * Cert.Pieces.dstPiece (i 0).val (i 1).val 22] := by decide +kernel
theorem set_pc22 (i : grid0.Coords) : (pc22 i).view.set = outPiece (Cert.Pieces.dstPiece (i 0).val (i 1).val 22) := set_outSlice _ _ _ _ (off_pc22 i)
theorem emb_pc22 (i : grid0.Coords) (y : S65536.Idx) : (((pc22 i).view.emb y) 0).val = 65536 * Cert.Pieces.dstPiece (i 0).val (i 1).val 22 + (y 0).val := emb_outSlice _ _ _ _ (off_pc22 i) y
theorem off_pc23 : ∀ i : grid0.Coords, k0_off6 i 1#32 0#32 = ![65536 * Cert.Pieces.dstPiece (i 0).val (i 1).val 23] := by decide +kernel
theorem set_pc23 (i : grid0.Coords) : (pc23 i).view.set = outPiece (Cert.Pieces.dstPiece (i 0).val (i 1).val 23) := set_outSlice _ _ _ _ (off_pc23 i)
theorem emb_pc23 (i : grid0.Coords) (y : S65536.Idx) : (((pc23 i).view.emb y) 0).val = 65536 * Cert.Pieces.dstPiece (i 0).val (i 1).val 23 + (y 0).val := emb_outSlice _ _ _ _ (off_pc23 i) y
theorem off_pc24 : ∀ i : grid0.Coords, k0_off5 i 1#32 1#32 = ![65536 * Cert.Pieces.dstPiece (i 0).val (i 1).val 24] := by decide +kernel
theorem set_pc24 (i : grid0.Coords) : (pc24 i).view.set = outPiece (Cert.Pieces.dstPiece (i 0).val (i 1).val 24) := set_outSlice _ _ _ _ (off_pc24 i)
theorem emb_pc24 (i : grid0.Coords) (y : S65536.Idx) : (((pc24 i).view.emb y) 0).val = 65536 * Cert.Pieces.dstPiece (i 0).val (i 1).val 24 + (y 0).val := emb_outSlice _ _ _ _ (off_pc24 i) y
theorem off_pc25 : ∀ i : grid0.Coords, k0_off6 i 1#32 1#32 = ![65536 * Cert.Pieces.dstPiece (i 0).val (i 1).val 25] := by decide +kernel
theorem set_pc25 (i : grid0.Coords) : (pc25 i).view.set = outPiece (Cert.Pieces.dstPiece (i 0).val (i 1).val 25) := set_outSlice _ _ _ _ (off_pc25 i)
theorem emb_pc25 (i : grid0.Coords) (y : S65536.Idx) : (((pc25 i).view.emb y) 0).val = 65536 * Cert.Pieces.dstPiece (i 0).val (i 1).val 25 + (y 0).val := emb_outSlice _ _ _ _ (off_pc25 i) y
theorem off_pc26 : ∀ i : grid0.Coords, k0_off5 i 1#32 2#32 = ![65536 * Cert.Pieces.dstPiece (i 0).val (i 1).val 26] := by decide +kernel
theorem set_pc26 (i : grid0.Coords) : (pc26 i).view.set = outPiece (Cert.Pieces.dstPiece (i 0).val (i 1).val 26) := set_outSlice _ _ _ _ (off_pc26 i)
theorem emb_pc26 (i : grid0.Coords) (y : S65536.Idx) : (((pc26 i).view.emb y) 0).val = 65536 * Cert.Pieces.dstPiece (i 0).val (i 1).val 26 + (y 0).val := emb_outSlice _ _ _ _ (off_pc26 i) y
theorem off_pc27 : ∀ i : grid0.Coords, k0_off6 i 1#32 2#32 = ![65536 * Cert.Pieces.dstPiece (i 0).val (i 1).val 27] := by decide +kernel
theorem set_pc27 (i : grid0.Coords) : (pc27 i).view.set = outPiece (Cert.Pieces.dstPiece (i 0).val (i 1).val 27) := set_outSlice _ _ _ _ (off_pc27 i)
theorem emb_pc27 (i : grid0.Coords) (y : S65536.Idx) : (((pc27 i).view.emb y) 0).val = 65536 * Cert.Pieces.dstPiece (i 0).val (i 1).val 27 + (y 0).val := emb_outSlice _ _ _ _ (off_pc27 i) y
theorem off_pc28 : ∀ i : grid0.Coords, k0_off5 i 1#32 3#32 = ![65536 * Cert.Pieces.dstPiece (i 0).val (i 1).val 28] := by decide +kernel
theorem set_pc28 (i : grid0.Coords) : (pc28 i).view.set = outPiece (Cert.Pieces.dstPiece (i 0).val (i 1).val 28) := set_outSlice _ _ _ _ (off_pc28 i)
theorem emb_pc28 (i : grid0.Coords) (y : S65536.Idx) : (((pc28 i).view.emb y) 0).val = 65536 * Cert.Pieces.dstPiece (i 0).val (i 1).val 28 + (y 0).val := emb_outSlice _ _ _ _ (off_pc28 i) y
theorem off_pc29 : ∀ i : grid0.Coords, k0_off6 i 1#32 3#32 = ![65536 * Cert.Pieces.dstPiece (i 0).val (i 1).val 29] := by decide +kernel
theorem set_pc29 (i : grid0.Coords) : (pc29 i).view.set = outPiece (Cert.Pieces.dstPiece (i 0).val (i 1).val 29) := set_outSlice _ _ _ _ (off_pc29 i)
theorem emb_pc29 (i : grid0.Coords) (y : S65536.Idx) : (((pc29 i).view.emb y) 0).val = 65536 * Cert.Pieces.dstPiece (i 0).val (i 1).val 29 + (y 0).val := emb_outSlice _ _ _ _ (off_pc29 i) y

/-! ## A window held by its own elements is a piece of the TensorCore's array held -/

section Held

open Idealize.SL Idealize.SL.RA Idealize.SL.BI
open scoped Idealize.SL.BI
open Idealize.ShloMosaic.SparseCore (V T)

variable {F : FTy → Type} {Ix : Type} [DecidableEq Ix] {Name : Type} [DecidableEq Name] {U : Type} [URA U] {Lvl : Type}

local notation "𝕄" => MT nD τ sig Ix (Elt F) Name U Lvl

theorem pts_xw0 (d : Dev nD) (i : grid0.Coords) (q : PosShare TreeShare) (f : Buf (Elt F) ((T d : Thread nD τ).loc main_v0)) :
    ((xw0 i).view.loc (V d ((i 0).castLE hcore0) ((i 1).castLE hsub0)) ↦[(xw0 i).view.set]{q} f : sProp 𝕄)
      = ((T d : Thread nD τ).loc main_v0 ↦[inPiece (Cert.Pieces.srcPiece (i 0).val (i 1).val 0)]{q} f) := by rw [set_xw0]
theorem pts_xw1 (d : Dev nD) (i : grid0.Coords) (q : PosShare TreeShare) (f : Buf (Elt F) ((T d : Thread nD τ).loc main_v0)) :
    ((xw1 i).view.loc (V d ((i 0).castLE hcore0) ((i 1).castLE hsub0)) ↦[(xw1 i).view.set]{q} f : sProp 𝕄)
      = ((T d : Thread nD τ).loc main_v0 ↦[inPiece (Cert.Pieces.srcPiece (i 0).val (i 1).val 7)]{q} f) := by rw [set_xw1]
theorem pts_xw2 (d : Dev nD) (i : grid0.Coords) (q : PosShare TreeShare) (f : Buf (Elt F) ((T d : Thread nD τ).loc main_v0)) :
    ((xw2 i).view.loc (V d ((i 0).castLE hcore0) ((i 1).castLE hsub0)) ↦[(xw2 i).view.set]{q} f : sProp 𝕄)
      = ((T d : Thread nD τ).loc main_v0 ↦[inPiece (Cert.Pieces.srcPiece (i 0).val (i 1).val 14)]{q} f) := by rw [set_xw2]
theorem pts_xw3 (d : Dev nD) (i : grid0.Coords) (q : PosShare TreeShare) (f : Buf (Elt F) ((T d : Thread nD τ).loc main_v0)) :
    ((xw3 i).view.loc (V d ((i 0).castLE hcore0) ((i 1).castLE hsub0)) ↦[(xw3 i).view.set]{q} f : sProp 𝕄)
      = ((T d : Thread nD τ).loc main_v0 ↦[inPiece (Cert.Pieces.srcPiece (i 0).val (i 1).val 16)]{q} f) := by rw [set_xw3]
theorem pts_xw4 (d : Dev nD) (i : grid0.Coords) (q : PosShare TreeShare) (f : Buf (Elt F) ((T d : Thread nD τ).loc main_v0)) :
    ((xw4 i).view.loc (V d ((i 0).castLE hcore0) ((i 1).castLE hsub0)) ↦[(xw4 i).view.set]{q} f : sProp 𝕄)
      = ((T d : Thread nD τ).loc main_v0 ↦[inPiece (Cert.Pieces.srcPiece (i 0).val (i 1).val 18)]{q} f) := by rw [set_xw4]
theorem pts_xw5 (d : Dev nD) (i : grid0.Coords) (q : PosShare TreeShare) (f : Buf (Elt F) ((T d : Thread nD τ).loc main_v0)) :
    ((xw5 i).view.loc (V d ((i 0).castLE hcore0) ((i 1).castLE hsub0)) ↦[(xw5 i).view.set]{q} f : sProp 𝕄)
      = ((T d : Thread nD τ).loc main_v0 ↦[inPiece (Cert.Pieces.srcPiece (i 0).val (i 1).val 20)]{q} f) := by rw [set_xw5]
theorem pts_xw6 (d : Dev nD) (i : grid0.Coords) (q : PosShare TreeShare) (f : Buf (Elt F) ((T d : Thread nD τ).loc main_v0)) :
    ((xw6 i).view.loc (V d ((i 0).castLE hcore0) ((i 1).castLE hsub0)) ↦[(xw6 i).view.set]{q} f : sProp 𝕄)
      = ((T d : Thread nD τ).loc main_v0 ↦[inPiece (Cert.Pieces.srcPiece (i 0).val (i 1).val 22)]{q} f) := by rw [set_xw6]
theorem pts_xw7 (d : Dev nD) (i : grid0.Coords) (q : PosShare TreeShare) (f : Buf (Elt F) ((T d : Thread nD τ).loc main_v0)) :
    ((xw7 i).view.loc (V d ((i 0).castLE hcore0) ((i 1).castLE hsub0)) ↦[(xw7 i).view.set]{q} f : sProp 𝕄)
      = ((T d : Thread nD τ).loc main_v0 ↦[inPiece (Cert.Pieces.srcPiece (i 0).val (i 1).val 24)]{q} f) := by rw [set_xw7]
theorem pts_xw8 (d : Dev nD) (i : grid0.Coords) (q : PosShare TreeShare) (f : Buf (Elt F) ((T d : Thread nD τ).loc main_v0)) :
    ((xw8 i).view.loc (V d ((i 0).castLE hcore0) ((i 1).castLE hsub0)) ↦[(xw8 i).view.set]{q} f : sProp 𝕄)
      = ((T d : Thread nD τ).loc main_v0 ↦[inPiece (Cert.Pieces.srcPiece (i 0).val (i 1).val 26)]{q} f) := by rw [set_xw8]
theorem pts_xw9 (d : Dev nD) (i : grid0.Coords) (q : PosShare TreeShare) (f : Buf (Elt F) ((T d : Thread nD τ).loc main_v0)) :
    ((xw9 i).view.loc (V d ((i 0).castLE hcore0) ((i 1).castLE hsub0)) ↦[(xw9 i).view.set]{q} f : sProp 𝕄)
      = ((T d : Thread nD τ).loc main_v0 ↦[inPiece (Cert.Pieces.srcPiece (i 0).val (i 1).val 28)]{q} f) := by rw [set_xw9]
theorem pts_pc0 (d : Dev nD) (i : grid0.Coords) (q : PosShare TreeShare) (f : Buf (Elt F) ((T d : Thread nD τ).loc main_v1)) :
    ((pc0 i).view.loc (V d ((i 0).castLE hcore0) ((i 1).castLE hsub0)) ↦[(pc0 i).view.set]{q} f : sProp 𝕄)
      = ((T d : Thread nD τ).loc main_v1 ↦[outPiece (Cert.Pieces.dstPiece (i 0).val (i 1).val ((0 : Fin 30) : ℕ))]{q} f) := by rw [set_pc0]; rfl
theorem pts_pc1 (d : Dev nD) (i : grid0.Coords) (q : PosShare TreeShare) (f : Buf (Elt F) ((T d : Thread nD τ).loc main_v1)) :
    ((pc1 i).view.loc (V d ((i 0).castLE hcore0) ((i 1).castLE hsub0)) ↦[(pc1 i).view.set]{q} f : sProp 𝕄)
      = ((T d : Thread nD τ).loc main_v1 ↦[outPiece (Cert.Pieces.dstPiece (i 0).val (i 1).val ((1 : Fin 30) : ℕ))]{q} f) := by rw [set_pc1]; rfl
theorem pts_pc2 (d : Dev nD) (i : grid0.Coords) (q : PosShare TreeShare) (f : Buf (Elt F) ((T d : Thread nD τ).loc main_v1)) :
    ((pc2 i).view.loc (V d ((i 0).castLE hcore0) ((i 1).castLE hsub0)) ↦[(pc2 i).view.set]{q} f : sProp 𝕄)
      = ((T d : Thread nD τ).loc main_v1 ↦[outPiece (Cert.Pieces.dstPiece (i 0).val (i 1).val ((2 : Fin 30) : ℕ))]{q} f) := by rw [set_pc2]; rfl
theorem pts_pc3 (d : Dev nD) (i : grid0.Coords) (q : PosShare TreeShare) (f : Buf (Elt F) ((T d : Thread nD τ).loc main_v1)) :
    ((pc3 i).view.loc (V d ((i 0).castLE hcore0) ((i 1).castLE hsub0)) ↦[(pc3 i).view.set]{q} f : sProp 𝕄)
      = ((T d : Thread nD τ).loc main_v1 ↦[outPiece (Cert.Pieces.dstPiece (i 0).val (i 1).val ((3 : Fin 30) : ℕ))]{q} f) := by rw [set_pc3]; rfl
theorem pts_pc4 (d : Dev nD) (i : grid0.Coords) (q : PosShare TreeShare) (f : Buf (Elt F) ((T d : Thread nD τ).loc main_v1)) :
    ((pc4 i).view.loc (V d ((i 0).castLE hcore0) ((i 1).castLE hsub0)) ↦[(pc4 i).view.set]{q} f : sProp 𝕄)
      = ((T d : Thread nD τ).loc main_v1 ↦[outPiece (Cert.Pieces.dstPiece (i 0).val (i 1).val ((4 : Fin 30) : ℕ))]{q} f) := by rw [set_pc4]; rfl
theorem pts_pc5 (d : Dev nD) (i : grid0.Coords) (q : PosShare TreeShare) (f : Buf (Elt F) ((T d : Thread nD τ).loc main_v1)) :
    ((pc5 i).view.loc (V d ((i 0).castLE hcore0) ((i 1).castLE hsub0)) ↦[(pc5 i).view.set]{q} f : sProp 𝕄)
      = ((T d : Thread nD τ).loc main_v1 ↦[outPiece (Cert.Pieces.dstPiece (i 0).val (i 1).val ((5 : Fin 30) : ℕ))]{q} f) := by rw [set_pc5]; rfl
theorem pts_pc6 (d : Dev nD) (i : grid0.Coords) (q : PosShare TreeShare) (f : Buf (Elt F) ((T d : Thread nD τ).loc main_v1)) :
    ((pc6 i).view.loc (V d ((i 0).castLE hcore0) ((i 1).castLE hsub0)) ↦[(pc6 i).view.set]{q} f : sProp 𝕄)
      = ((T d : Thread nD τ).loc main_v1 ↦[outPiece (Cert.Pieces.dstPiece (i 0).val (i 1).val ((6 : Fin 30) : ℕ))]{q} f) := by rw [set_pc6]; rfl
theorem pts_pc7 (d : Dev nD) (i : grid0.Coords) (q : PosShare TreeShare) (f : Buf (Elt F) ((T d : Thread nD τ).loc main_v1)) :
    ((pc7 i).view.loc (V d ((i 0).castLE hcore0) ((i 1).castLE hsub0)) ↦[(pc7 i).view.set]{q} f : sProp 𝕄)
      = ((T d : Thread nD τ).loc main_v1 ↦[outPiece (Cert.Pieces.dstPiece (i 0).val (i 1).val ((7 : Fin 30) : ℕ))]{q} f) := by rw [set_pc7]; rfl
theorem pts_pc8 (d : Dev nD) (i : grid0.Coords) (q : PosShare TreeShare) (f : Buf (Elt F) ((T d : Thread nD τ).loc main_v1)) :
    ((pc8 i).view.loc (V d ((i 0).castLE hcore0) ((i 1).castLE hsub0)) ↦[(pc8 i).view.set]{q} f : sProp 𝕄)
      = ((T d : Thread nD τ).loc main_v1 ↦[outPiece (Cert.Pieces.dstPiece (i 0).val (i 1).val ((8 : Fin 30) : ℕ))]{q} f) := by rw [set_pc8]; rfl
theorem pts_pc9 (d : Dev nD) (i : grid0.Coords) (q : PosShare TreeShare) (f : Buf (Elt F) ((T d : Thread nD τ).loc main_v1)) :
    ((pc9 i).view.loc (V d ((i 0).castLE hcore0) ((i 1).castLE hsub0)) ↦[(pc9 i).view.set]{q} f : sProp 𝕄)
      = ((T d : Thread nD τ).loc main_v1 ↦[outPiece (Cert.Pieces.dstPiece (i 0).val (i 1).val ((9 : Fin 30) : ℕ))]{q} f) := by rw [set_pc9]; rfl
theorem pts_pc10 (d : Dev nD) (i : grid0.Coords) (q : PosShare TreeShare) (f : Buf (Elt F) ((T d : Thread nD τ).loc main_v1)) :
    ((pc10 i).view.loc (V d ((i 0).castLE hcore0) ((i 1).castLE hsub0)) ↦[(pc10 i).view.set]{q} f : sProp 𝕄)
      = ((T d : Thread nD τ).loc main_v1 ↦[outPiece (Cert.Pieces.dstPiece (i 0).val (i 1).val ((10 : Fin 30) : ℕ))]{q} f) := by rw [set_pc10]; rfl
theorem pts_pc11 (d : Dev nD) (i : grid0.Coords) (q : PosShare TreeShare) (f : Buf (Elt F) ((T d : Thread nD τ).loc main_v1)) :
    ((pc11 i).view.loc (V d ((i 0).castLE hcore0) ((i 1).castLE hsub0)) ↦[(pc11 i).view.set]{q} f : sProp 𝕄)
      = ((T d : Thread nD τ).loc main_v1 ↦[outPiece (Cert.Pieces.dstPiece (i 0).val (i 1).val ((11 : Fin 30) : ℕ))]{q} f) := by rw [set_pc11]; rfl
theorem pts_pc12 (d : Dev nD) (i : grid0.Coords) (q : PosShare TreeShare) (f : Buf (Elt F) ((T d : Thread nD τ).loc main_v1)) :
    ((pc12 i).view.loc (V d ((i 0).castLE hcore0) ((i 1).castLE hsub0)) ↦[(pc12 i).view.set]{q} f : sProp 𝕄)
      = ((T d : Thread nD τ).loc main_v1 ↦[outPiece (Cert.Pieces.dstPiece (i 0).val (i 1).val ((12 : Fin 30) : ℕ))]{q} f) := by rw [set_pc12]; rfl
theorem pts_pc13 (d : Dev nD) (i : grid0.Coords) (q : PosShare TreeShare) (f : Buf (Elt F) ((T d : Thread nD τ).loc main_v1)) :
    ((pc13 i).view.loc (V d ((i 0).castLE hcore0) ((i 1).castLE hsub0)) ↦[(pc13 i).view.set]{q} f : sProp 𝕄)
      = ((T d : Thread nD τ).loc main_v1 ↦[outPiece (Cert.Pieces.dstPiece (i 0).val (i 1).val ((13 : Fin 30) : ℕ))]{q} f) := by rw [set_pc13]; rfl
theorem pts_pc14 (d : Dev nD) (i : grid0.Coords) (q : PosShare TreeShare) (f : Buf (Elt F) ((T d : Thread nD τ).loc main_v1)) :
    ((pc14 i).view.loc (V d ((i 0).castLE hcore0) ((i 1).castLE hsub0)) ↦[(pc14 i).view.set]{q} f : sProp 𝕄)
      = ((T d : Thread nD τ).loc main_v1 ↦[outPiece (Cert.Pieces.dstPiece (i 0).val (i 1).val ((14 : Fin 30) : ℕ))]{q} f) := by rw [set_pc14]; rfl
theorem pts_pc15 (d : Dev nD) (i : grid0.Coords) (q : PosShare TreeShare) (f : Buf (Elt F) ((T d : Thread nD τ).loc main_v1)) :
    ((pc15 i).view.loc (V d ((i 0).castLE hcore0) ((i 1).castLE hsub0)) ↦[(pc15 i).view.set]{q} f : sProp 𝕄)
      = ((T d : Thread nD τ).loc main_v1 ↦[outPiece (Cert.Pieces.dstPiece (i 0).val (i 1).val ((15 : Fin 30) : ℕ))]{q} f) := by rw [set_pc15]; rfl
theorem pts_pc16 (d : Dev nD) (i : grid0.Coords) (q : PosShare TreeShare) (f : Buf (Elt F) ((T d : Thread nD τ).loc main_v1)) :
    ((pc16 i).view.loc (V d ((i 0).castLE hcore0) ((i 1).castLE hsub0)) ↦[(pc16 i).view.set]{q} f : sProp 𝕄)
      = ((T d : Thread nD τ).loc main_v1 ↦[outPiece (Cert.Pieces.dstPiece (i 0).val (i 1).val ((16 : Fin 30) : ℕ))]{q} f) := by rw [set_pc16]; rfl
theorem pts_pc17 (d : Dev nD) (i : grid0.Coords) (q : PosShare TreeShare) (f : Buf (Elt F) ((T d : Thread nD τ).loc main_v1)) :
    ((pc17 i).view.loc (V d ((i 0).castLE hcore0) ((i 1).castLE hsub0)) ↦[(pc17 i).view.set]{q} f : sProp 𝕄)
      = ((T d : Thread nD τ).loc main_v1 ↦[outPiece (Cert.Pieces.dstPiece (i 0).val (i 1).val ((17 : Fin 30) : ℕ))]{q} f) := by rw [set_pc17]; rfl
theorem pts_pc18 (d : Dev nD) (i : grid0.Coords) (q : PosShare TreeShare) (f : Buf (Elt F) ((T d : Thread nD τ).loc main_v1)) :
    ((pc18 i).view.loc (V d ((i 0).castLE hcore0) ((i 1).castLE hsub0)) ↦[(pc18 i).view.set]{q} f : sProp 𝕄)
      = ((T d : Thread nD τ).loc main_v1 ↦[outPiece (Cert.Pieces.dstPiece (i 0).val (i 1).val ((18 : Fin 30) : ℕ))]{q} f) := by rw [set_pc18]; rfl
theorem pts_pc19 (d : Dev nD) (i : grid0.Coords) (q : PosShare TreeShare) (f : Buf (Elt F) ((T d : Thread nD τ).loc main_v1)) :
    ((pc19 i).view.loc (V d ((i 0).castLE hcore0) ((i 1).castLE hsub0)) ↦[(pc19 i).view.set]{q} f : sProp 𝕄)
      = ((T d : Thread nD τ).loc main_v1 ↦[outPiece (Cert.Pieces.dstPiece (i 0).val (i 1).val ((19 : Fin 30) : ℕ))]{q} f) := by rw [set_pc19]; rfl
theorem pts_pc20 (d : Dev nD) (i : grid0.Coords) (q : PosShare TreeShare) (f : Buf (Elt F) ((T d : Thread nD τ).loc main_v1)) :
    ((pc20 i).view.loc (V d ((i 0).castLE hcore0) ((i 1).castLE hsub0)) ↦[(pc20 i).view.set]{q} f : sProp 𝕄)
      = ((T d : Thread nD τ).loc main_v1 ↦[outPiece (Cert.Pieces.dstPiece (i 0).val (i 1).val ((20 : Fin 30) : ℕ))]{q} f) := by rw [set_pc20]; rfl
theorem pts_pc21 (d : Dev nD) (i : grid0.Coords) (q : PosShare TreeShare) (f : Buf (Elt F) ((T d : Thread nD τ).loc main_v1)) :
    ((pc21 i).view.loc (V d ((i 0).castLE hcore0) ((i 1).castLE hsub0)) ↦[(pc21 i).view.set]{q} f : sProp 𝕄)
      = ((T d : Thread nD τ).loc main_v1 ↦[outPiece (Cert.Pieces.dstPiece (i 0).val (i 1).val ((21 : Fin 30) : ℕ))]{q} f) := by rw [set_pc21]; rfl
theorem pts_pc22 (d : Dev nD) (i : grid0.Coords) (q : PosShare TreeShare) (f : Buf (Elt F) ((T d : Thread nD τ).loc main_v1)) :
    ((pc22 i).view.loc (V d ((i 0).castLE hcore0) ((i 1).castLE hsub0)) ↦[(pc22 i).view.set]{q} f : sProp 𝕄)
      = ((T d : Thread nD τ).loc main_v1 ↦[outPiece (Cert.Pieces.dstPiece (i 0).val (i 1).val ((22 : Fin 30) : ℕ))]{q} f) := by rw [set_pc22]; rfl
theorem pts_pc23 (d : Dev nD) (i : grid0.Coords) (q : PosShare TreeShare) (f : Buf (Elt F) ((T d : Thread nD τ).loc main_v1)) :
    ((pc23 i).view.loc (V d ((i 0).castLE hcore0) ((i 1).castLE hsub0)) ↦[(pc23 i).view.set]{q} f : sProp 𝕄)
      = ((T d : Thread nD τ).loc main_v1 ↦[outPiece (Cert.Pieces.dstPiece (i 0).val (i 1).val ((23 : Fin 30) : ℕ))]{q} f) := by rw [set_pc23]; rfl
theorem pts_pc24 (d : Dev nD) (i : grid0.Coords) (q : PosShare TreeShare) (f : Buf (Elt F) ((T d : Thread nD τ).loc main_v1)) :
    ((pc24 i).view.loc (V d ((i 0).castLE hcore0) ((i 1).castLE hsub0)) ↦[(pc24 i).view.set]{q} f : sProp 𝕄)
      = ((T d : Thread nD τ).loc main_v1 ↦[outPiece (Cert.Pieces.dstPiece (i 0).val (i 1).val ((24 : Fin 30) : ℕ))]{q} f) := by rw [set_pc24]; rfl
theorem pts_pc25 (d : Dev nD) (i : grid0.Coords) (q : PosShare TreeShare) (f : Buf (Elt F) ((T d : Thread nD τ).loc main_v1)) :
    ((pc25 i).view.loc (V d ((i 0).castLE hcore0) ((i 1).castLE hsub0)) ↦[(pc25 i).view.set]{q} f : sProp 𝕄)
      = ((T d : Thread nD τ).loc main_v1 ↦[outPiece (Cert.Pieces.dstPiece (i 0).val (i 1).val ((25 : Fin 30) : ℕ))]{q} f) := by rw [set_pc25]; rfl
theorem pts_pc26 (d : Dev nD) (i : grid0.Coords) (q : PosShare TreeShare) (f : Buf (Elt F) ((T d : Thread nD τ).loc main_v1)) :
    ((pc26 i).view.loc (V d ((i 0).castLE hcore0) ((i 1).castLE hsub0)) ↦[(pc26 i).view.set]{q} f : sProp 𝕄)
      = ((T d : Thread nD τ).loc main_v1 ↦[outPiece (Cert.Pieces.dstPiece (i 0).val (i 1).val ((26 : Fin 30) : ℕ))]{q} f) := by rw [set_pc26]; rfl
theorem pts_pc27 (d : Dev nD) (i : grid0.Coords) (q : PosShare TreeShare) (f : Buf (Elt F) ((T d : Thread nD τ).loc main_v1)) :
    ((pc27 i).view.loc (V d ((i 0).castLE hcore0) ((i 1).castLE hsub0)) ↦[(pc27 i).view.set]{q} f : sProp 𝕄)
      = ((T d : Thread nD τ).loc main_v1 ↦[outPiece (Cert.Pieces.dstPiece (i 0).val (i 1).val ((27 : Fin 30) : ℕ))]{q} f) := by rw [set_pc27]; rfl
theorem pts_pc28 (d : Dev nD) (i : grid0.Coords) (q : PosShare TreeShare) (f : Buf (Elt F) ((T d : Thread nD τ).loc main_v1)) :
    ((pc28 i).view.loc (V d ((i 0).castLE hcore0) ((i 1).castLE hsub0)) ↦[(pc28 i).view.set]{q} f : sProp 𝕄)
      = ((T d : Thread nD τ).loc main_v1 ↦[outPiece (Cert.Pieces.dstPiece (i 0).val (i 1).val ((28 : Fin 30) : ℕ))]{q} f) := by rw [set_pc28]; rfl
theorem pts_pc29 (d : Dev nD) (i : grid0.Coords) (q : PosShare TreeShare) (f : Buf (Elt F) ((T d : Thread nD τ).loc main_v1)) :
    ((pc29 i).view.loc (V d ((i 0).castLE hcore0) ((i 1).castLE hsub0)) ↦[(pc29 i).view.set]{q} f : sProp 𝕄)
      = ((T d : Thread nD τ).loc main_v1 ↦[outPiece (Cert.Pieces.dstPiece (i 0).val (i 1).val ((29 : Fin 30) : ℕ))]{q} f) := by rw [set_pc29]; rfl

theorem done_pc0 (d : Dev nD) (i : grid0.Coords) (xf : Buf (Elt F) ((T d : Thread nD τ).loc main_v0)) (fo : Buf (Elt F) ((T d : Thread nD τ).loc main_v1)) :
    ((pc0 i).view.loc (V d ((i 0).castLE hcore0) ((i 1).castLE hsub0)) ↦[(pc0 i).view.set]{fullShare}
        (pc0 i).view.writes (Elt F) fo [⟨Rect.whole S65536, (xw0 i).view.read (Elt F) xf⟩] : sProp 𝕄)
      = ((T d : Thread nD τ).loc main_v1 ↦[outPiece (Cert.Pieces.dstPiece (i 0).val (i 1).val ((0 : Fin 30) : ℕ))]{fullShare} gout xf) :=
  done_outSlice d _ _ _ _ _ _ _ _ _ _ (off_pc0 i) (off_xw0 i) ((Cert.Pieces.ref_src (i 0) (i 1) (0 : Fin 30)).trans (Cert.Pieces.src_step (i 0) (i 1) (0 : Fin 30))) xf fo
theorem done_pc1 (d : Dev nD) (i : grid0.Coords) (xf : Buf (Elt F) ((T d : Thread nD τ).loc main_v0)) (fo : Buf (Elt F) ((T d : Thread nD τ).loc main_v1)) :
    ((pc1 i).view.loc (V d ((i 0).castLE hcore0) ((i 1).castLE hsub0)) ↦[(pc1 i).view.set]{fullShare}
        (pc1 i).view.writes (Elt F) fo [⟨Rect.whole S65536, (xw0 i).view.read (Elt F) xf⟩] : sProp 𝕄)
      = ((T d : Thread nD τ).loc main_v1 ↦[outPiece (Cert.Pieces.dstPiece (i 0).val (i 1).val ((1 : Fin 30) : ℕ))]{fullShare} gout xf) :=
  done_outSlice d _ _ _ _ _ _ _ _ _ _ (off_pc1 i) (off_xw0 i) ((Cert.Pieces.ref_src (i 0) (i 1) (1 : Fin 30)).trans (Cert.Pieces.src_step (i 0) (i 1) (1 : Fin 30))) xf fo
theorem done_pc2 (d : Dev nD) (i : grid0.Coords) (xf : Buf (Elt F) ((T d : Thread nD τ).loc main_v0)) (fo : Buf (Elt F) ((T d : Thread nD τ).loc main_v1)) :
    ((pc2 i).view.loc (V d ((i 0).castLE hcore0) ((i 1).castLE hsub0)) ↦[(pc2 i).view.set]{fullShare}
        (pc2 i).view.writes (Elt F) fo [⟨Rect.whole S65536, (xw0 i).view.read (Elt F) xf⟩] : sProp 𝕄)
      = ((T d : Thread nD τ).loc main_v1 ↦[outPiece (Cert.Pieces.dstPiece (i 0).val (i 1).val ((2 : Fin 30) : ℕ))]{fullShare} gout xf) :=
  done_outSlice d _ _ _ _ _ _ _ _ _ _ (off_pc2 i) (off_xw0 i) ((Cert.Pieces.ref_src (i 0) (i 1) (2 : Fin 30)).trans (Cert.Pieces.src_step (i 0) (i 1) (2 : Fin 30))) xf fo
theorem done_pc3 (d : Dev nD) (i : grid0.Coords) (xf : Buf (Elt F) ((T d : Thread nD τ).loc main_v0)) (fo : Buf (Elt F) ((T d : Thread nD τ).loc main_v1)) :
    ((pc3 i).view.loc (V d ((i 0).castLE hcore0) ((i 1).castLE hsub0)) ↦[(pc3 i).view.set]{fullShare}
        (pc3 i).view.writes (Elt F) fo [⟨Rect.whole S65536, (xw0 i).view.read (Elt F) xf⟩] : sProp 𝕄)
      = ((T d : Thread nD τ).loc main_v1 ↦[outPiece (Cert.Pieces.dstPiece (i 0).val (i 1).val ((3 : Fin 30) : ℕ))]{fullShare} gout xf) :=
  done_outSlice d _ _ _ _ _ _ _ _ _ _ (off_pc3 i) (off_xw0 i) ((Cert.Pieces.ref_src (i 0) (i 1) (3 : Fin 30)).trans (Cert.Pieces.src_step (i 0) (i 1) (3 : Fin 30))) xf fo
theorem done_pc4 (d : Dev nD) (i : grid0.Coords) (xf : Buf (Elt F) ((T d : Thread nD τ).loc main_v0)) (fo : Buf (Elt F) ((T d : Thread nD τ).loc main_v1)) :
    ((pc4 i).view.loc (V d ((i 0).castLE hcore0) ((i 1).castLE hsub0)) ↦[(pc4 i).view.set]{fullShare}
        (pc4 i).view.writes (Elt F) fo [⟨Rect.whole S65536, (xw0 i).view.read (Elt F) xf⟩] : sProp 𝕄)
      = ((T d : Thread nD τ).loc main_v1 ↦[outPiece (Cert.Pieces.dstPiece (i 0).val (i 1).val ((4 : Fin 30) : ℕ))]{fullShare} gout xf) :=
  done_outSlice d _ _ _ _ _ _ _ _ _ _ (off_pc4 i) (off_xw0 i) ((Cert.Pieces.ref_src (i 0) (i 1) (4 : Fin 30)).trans (Cert.Pieces.src_step (i 0) (i 1) (4 : Fin 30))) xf fo
theorem done_pc5 (d : Dev nD) (i : grid0.Coords) (xf : Buf (Elt F) ((T d : Thread nD τ).loc main_v0)) (fo : Buf (Elt F) ((T d : Thread nD τ).loc main_v1)) :
    ((pc5 i).view.loc (V d ((i 0).castLE hcore0) ((i 1).castLE hsub0)) ↦[(pc5 i).view.set]{fullShare}
        (pc5 i).view.writes (Elt F) fo [⟨Rect.whole S65536, (xw0 i).view.read (Elt F) xf⟩] : sProp 𝕄)
      = ((T d : Thread nD τ).loc main_v1 ↦[outPiece (Cert.Pieces.dstPiece (i 0).val (i 1).val ((5 : Fin 30) : ℕ))]{fullShare} gout xf) :=
  done_outSlice d _ _ _ _ _ _ _ _ _ _ (off_pc5 i) (off_xw0 i) ((Cert.Pieces.ref_src (i 0) (i 1) (5 : Fin 30)).trans (Cert.Pieces.src_step (i 0) (i 1) (5 : Fin 30))) xf fo
theorem done_pc6 (d : Dev nD) (i : grid0.Coords) (xf : Buf (Elt F) ((T d : Thread nD τ).loc main_v0)) (fo : Buf (Elt F) ((T d : Thread nD τ).loc main_v1)) :
    ((pc6 i).view.loc (V d ((i 0).castLE hcore0) ((i 1).castLE hsub0)) ↦[(pc6 i).view.set]{fullShare}
        (pc6 i).view.writes (Elt F) fo [⟨Rect.whole S65536, (xw0 i).view.read (Elt F) xf⟩] : sProp 𝕄)
      = ((T d : Thread nD τ).loc main_v1 ↦[outPiece (Cert.Pieces.dstPiece (i 0).val (i 1).val ((6 : Fin 30) : ℕ))]{fullShare} gout xf) :=
  done_outSlice d _ _ _ _ _ _ _ _ _ _ (off_pc6 i) (off_xw0 i) ((Cert.Pieces.ref_src (i 0) (i 1) (6 : Fin 30)).trans (Cert.Pieces.src_step (i 0) (i 1) (6 : Fin 30))) xf fo
theorem done_pc7 (d : Dev nD) (i : grid0.Coords) (xf : Buf (Elt F) ((T d : Thread nD τ).loc main_v0)) (fo : Buf (Elt F) ((T d : Thread nD τ).loc main_v1)) :
    ((pc7 i).view.loc (V d ((i 0).castLE hcore0) ((i 1).castLE hsub0)) ↦[(pc7 i).view.set]{fullShare}
        (pc7 i).view.writes (Elt F) fo [⟨Rect.whole S65536, (xw1 i).view.read (Elt F) xf⟩] : sProp 𝕄)
      = ((T d : Thread nD τ).loc main_v1 ↦[outPiece (Cert.Pieces.dstPiece (i 0).val (i 1).val ((7 : Fin 30) : ℕ))]{fullShare} gout xf) :=
  done_outSlice d _ _ _ _ _ _ _ _ _ _ (off_pc7 i) (off_xw1 i) ((Cert.Pieces.ref_src (i 0) (i 1) (7 : Fin 30)).trans (Cert.Pieces.src_step (i 0) (i 1) (7 : Fin 30))) xf fo
theorem done_pc8 (d : Dev nD) (i : grid0.Coords) (xf : Buf (Elt F) ((T d : Thread nD τ).loc main_v0)) (fo : Buf (Elt F) ((T d : Thread nD τ).loc main_v1)) :
    ((pc8 i).view.loc (V d ((i 0).castLE hcore0) ((i 1).castLE hsub0)) ↦[(pc8 i).view.set]{fullShare}
        (pc8 i).view.writes (Elt F) fo [⟨Rect.whole S65536, (xw1 i).view.read (Elt F) xf⟩] : sProp 𝕄)
      = ((T d : Thread nD τ).loc main_v1 ↦[outPiece (Cert.Pieces.dstPiece (i 0).val (i 1).val ((8 : Fin 30) : ℕ))]{fullShare} gout xf) :=
  done_outSlice d _ _ _ _ _ _ _ _ _ _ (off_pc8 i) (off_xw1 i) ((Cert.Pieces.ref_src (i 0) (i 1) (8 : Fin 30)).trans (Cert.Pieces.src_step (i 0) (i 1) (8 : Fin 30))) xf fo
theorem done_pc9 (d : Dev nD) (i : grid0.Coords) (xf : Buf (Elt F) ((T d : Thread nD τ).loc main_v0)) (fo : Buf (Elt F) ((T d : Thread nD τ).loc main_v1)) :
    ((pc9 i).view.loc (V d ((i 0).castLE hcore0) ((i 1).castLE hsub0)) ↦[(pc9 i).view.set]{fullShare}
        (pc9 i).view.writes (Elt F) fo [⟨Rect.whole S65536, (xw1 i).view.read (Elt F) xf⟩] : sProp 𝕄)
      = ((T d : Thread nD τ).loc main_v1 ↦[outPiece (Cert.Pieces.dstPiece (i 0).val (i 1).val ((9 : Fin 30) : ℕ))]{fullShare} gout xf) :=
  done_outSlice d _ _ _ _ _ _ _ _ _ _ (off_pc9 i) (off_xw1 i) ((Cert.Pieces.ref_src (i 0) (i 1) (9 : Fin 30)).trans (Cert.Pieces.src_step (i 0) (i 1) (9 : Fin 30))) xf fo
theorem done_pc10 (d : Dev nD) (i : grid0.Coords) (xf : Buf (Elt F) ((T d : Thread nD τ).loc main_v0)) (fo : Buf (Elt F) ((T d : Thread nD τ).loc main_v1)) :
    ((pc10 i).view.loc (V d ((i 0).castLE hcore0) ((i 1).castLE hsub0)) ↦[(pc10 i).view.set]{fullShare}
        (pc10 i).view.writes (Elt F) fo [⟨Rect.whole S65536, (xw1 i).view.read (Elt F) xf⟩] : sProp 𝕄)
      = ((T d : Thread nD τ).loc main_v1 ↦[outPiece (Cert.Pieces.dstPiece (i 0).val (i 1).val ((10 : Fin 30) : ℕ))]{fullShare} gout xf) :=
  done_outSlice d _ _ _ _ _ _ _ _ _ _ (off_pc10 i) (off_xw1 i) ((Cert.Pieces.ref_src (i 0) (i 1) (10 : Fin 30)).trans (Cert.Pieces.src_step (i 0) (i 1) (10 : Fin 30))) xf fo
theorem done_pc11 (d : Dev nD) (i : grid0.Coords) (xf : Buf (Elt F) ((T d : Thread nD τ).loc main_v0)) (fo : Buf (Elt F) ((T d : Thread nD τ).loc main_v1)) :
    ((pc11 i).view.loc (V d ((i 0).castLE hcore0) ((i 1).castLE hsub0)) ↦[(pc11 i).view.set]{fullShare}
        (pc11 i).view.writes (Elt F) fo [⟨Rect.whole S65536, (xw1 i).view.read (Elt F) xf⟩] : sProp 𝕄)
      = ((T d : Thread nD τ).loc main_v1 ↦[outPiece (Cert.Pieces.dstPiece (i 0).val (i 1).val ((11 : Fin 30) : ℕ))]{fullShare} gout xf) :=
  done_outSlice d _ _ _ _ _ _ _ _ _ _ (off_pc11 i) (off_xw1 i) ((Cert.Pieces.ref_src (i 0) (i 1) (11 : Fin 30)).trans (Cert.Pieces.src_step (i 0) (i 1) (11 : Fin 30))) xf fo
theorem done_pc12 (d : Dev nD) (i : grid0.Coords) (xf : Buf (Elt F) ((T d : Thread nD τ).loc main_v0)) (fo : Buf (Elt F) ((T d : Thread nD τ).loc main_v1)) :
    ((pc12 i).view.loc (V d ((i 0).castLE hcore0) ((i 1).castLE hsub0)) ↦[(pc12 i).view.set]{fullShare}
        (pc12 i).view.writes (Elt F) fo [⟨Rect.whole S65536, (xw1 i).view.read (Elt F) xf⟩] : sProp 𝕄)
      = ((T d : Thread nD τ).loc main_v1 ↦[outPiece (Cert.Pieces.dstPiece (i 0).val (i 1).val ((12 : Fin 30) : ℕ))]{fullShare} gout xf) :=
  done_outSlice d _ _ _ _ _ _ _ _ _ _ (off_pc12 i) (off_xw1 i) ((Cert.Pieces.ref_src (i 0) (i 1) (12 : Fin 30)).trans (Cert.Pieces.src_step (i 0) (i 1) (12 : Fin 30))) xf fo
theorem done_pc13 (d : Dev nD) (i : grid0.Coords) (xf : Buf (Elt F) ((T d : Thread nD τ).loc main_v0)) (fo : Buf (Elt F) ((T d : Thread nD τ).loc main_v1)) :
    ((pc13 i).view.loc (V d ((i 0).castLE hcore0) ((i 1).castLE hsub0)) ↦[(pc13 i).view.set]{fullShare}
        (pc13 i).view.writes (Elt F) fo [⟨Rect.whole S65536, (xw1 i).view.read (Elt F) xf⟩] : sProp 𝕄)
      = ((T d : Thread nD τ).loc main_v1 ↦[outPiece (Cert.Pieces.dstPiece (i 0).val (i 1).val ((13 : Fin 30) : ℕ))]{fullShare} gout xf) :=
  done_outSlice d _ _ _ _ _ _ _ _ _ _ (off_pc13 i) (off_xw1 i) ((Cert.Pieces.ref_src (i 0) (i 1) (13 : Fin 30)).trans (Cert.Pieces.src_step (i 0) (i 1) (13 : Fin 30))) xf fo
theorem done_pc14 (d : Dev nD) (i : grid0.Coords) (xf : Buf (Elt F) ((T d : Thread nD τ).loc main_v0)) (fo : Buf (Elt F) ((T d : Thread nD τ).loc main_v1)) :
    ((pc14 i).view.loc (V d ((i 0).castLE hcore0) ((i 1).castLE hsub0)) ↦[(pc14 i).view.set]{fullShare}
        (pc14 i).view.writes (Elt F) fo [⟨Rect.whole S65536, (xw2 i).view.read (Elt F) xf⟩] : sProp 𝕄)
      = ((T d : Thread nD τ).loc main_v1 ↦[outPiece (Cert.Pieces.dstPiece (i 0).val (i 1).val ((14 : Fin 30) : ℕ))]{fullShare} gout xf) :=
  done_outSlice d _ _ _ _ _ _ _ _ _ _ (off_pc14 i) (off_xw2 i) ((Cert.Pieces.ref_src (i 0) (i 1) (14 : Fin 30)).trans (Cert.Pieces.src_step (i 0) (i 1) (14 : Fin 30))) xf fo
theorem done_pc15 (d : Dev nD) (i : grid0.Coords) (xf : Buf (Elt F) ((T d : Thread nD τ).loc main_v0)) (fo : Buf (Elt F) ((T d : Thread nD τ).loc main_v1)) :
    ((pc15 i).view.loc (V d ((i 0).castLE hcore0) ((i 1).castLE hsub0)) ↦[(pc15 i).view.set]{fullShare}
        (pc15 i).view.writes (Elt F) fo [⟨Rect.whole S65536, (xw2 i).view.read (Elt F) xf⟩] : sProp 𝕄)
      = ((T d : Thread nD τ).loc main_v1 ↦[outPiece (Cert.Pieces.dstPiece (i 0).val (i 1).val ((15 : Fin 30) : ℕ))]{fullShare} gout xf) :=
  done_outSlice d _ _ _ _ _ _ _ _ _ _ (off_pc15 i) (off_xw2 i) ((Cert.Pieces.ref_src (i 0) (i 1) (15 : Fin 30)).trans (Cert.Pieces.src_step (i 0) (i 1) (15 : Fin 30))) xf fo
theorem done_pc16 (d : Dev nD) (i : grid0.Coords) (xf : Buf (Elt F) ((T d : Thread nD τ).loc main_v0)) (fo : Buf (Elt F) ((T d : Thread nD τ).loc main_v1)) :
    ((pc16 i).view.loc (V d ((i 0).castLE hcore0) ((i 1).castLE hsub0)) ↦[(pc16 i).view.set]{fullShare}
        (pc16 i).view.writes (Elt F) fo [⟨Rect.whole S65536, (xw3 i).view.read (Elt F) xf⟩] : sProp 𝕄)
      = ((T d : Thread nD τ).loc main_v1 ↦[outPiece (Cert.Pieces.dstPiece (i 0).val (i 1).val ((16 : Fin 30) : ℕ))]{fullShare} gout xf) :=
  done_outSlice d _ _ _ _ _ _ _ _ _ _ (off_pc16 i) (off_xw3 i) ((Cert.Pieces.ref_src (i 0) (i 1) (16 : Fin 30)).trans (Cert.Pieces.src_step (i 0) (i 1) (16 : Fin 30))) xf fo
theorem done_pc17 (d : Dev nD) (i : grid0.Coords) (xf : Buf (Elt F) ((T d : Thread nD τ).loc main_v0)) (fo : Buf (Elt F) ((T d : Thread nD τ).loc main_v1)) :
    ((pc17 i).view.loc (V d ((i 0).castLE hcore0) ((i 1).castLE hsub0)) ↦[(pc17 i).view.set]{fullShare}
        (pc17 i).view.writes (Elt F) fo [⟨Rect.whole S65536, (xw3 i).view.read (Elt F) xf⟩] : sProp 𝕄)
      = ((T d : Thread nD τ).loc main_v1 ↦[outPiece (Cert.Pieces.dstPiece (i 0).val (i 1).val ((17 : Fin 30) : ℕ))]{fullShare} gout xf) :=
  done_outSlice d _ _ _ _ _ _ _ _ _ _ (off_pc17 i) (off_xw3 i) ((Cert.Pieces.ref_src (i 0) (i 1) (17 : Fin 30)).trans (Cert.Pieces.src_step (i 0) (i 1) (17 : Fin 30))) xf fo
theorem done_pc18 (d : Dev nD) (i : grid0.Coords) (xf : Buf (Elt F) ((T d : Thread nD τ).loc main_v0)) (fo : Buf (Elt F) ((T d : Thread nD τ).loc main_v1)) :
    ((pc18 i).view.loc (V d ((i 0).castLE hcore0) ((i 1).castLE hsub0)) ↦[(pc18 i).view.set]{fullShare}
        (pc18 i).view.writes (Elt F) fo [⟨Rect.whole S65536, (xw4 i).view.read (Elt F) xf⟩] : sProp 𝕄)
      = ((T d : Thread nD τ).loc main_v1 ↦[outPiece (Cert.Pieces.dstPiece (i 0).val (i 1).val ((18 : Fin 30) : ℕ))]{fullShare} gout xf) :=
  done_outSlice d _ _ _ _ _ _ _ _ _ _ (off_pc18 i) (off_xw4 i) ((Cert.Pieces.ref_src (i 0) (i 1) (18 : Fin 30)).trans (Cert.Pieces.src_step (i 0) (i 1) (18 : Fin 30))) xf fo
theorem done_pc19 (d : Dev nD) (i : grid0.Coords) (xf : Buf (Elt F) ((T d : Thread nD τ).loc main_v0)) (fo : Buf (Elt F) ((T d : Thread nD τ).loc main_v1)) :
    ((pc19 i).view.loc (V d ((i 0).castLE hcore0) ((i 1).castLE hsub0)) ↦[(pc19 i).view.set]{fullShare}
        (pc19 i).view.writes (Elt F) fo [⟨Rect.whole S65536, (xw4 i).view.read (Elt F) xf⟩] : sProp 𝕄)
      = ((T d : Thread nD τ).loc main_v1 ↦[outPiece (Cert.Pieces.dstPiece (i 0).val (i 1).val ((19 : Fin 30) : ℕ))]{fullShare} gout xf) :=
  done_outSlice d _ _ _ _ _ _ _ _ _ _ (off_pc19 i) (off_xw4 i) ((Cert.Pieces.ref_src (i 0) (i 1) (19 : Fin 30)).trans (Cert.Pieces.src_step (i 0) (i 1) (19 : Fin 30))) xf fo
theorem done_pc20 (d : Dev nD) (i : grid0.Coords) (xf : Buf (Elt F) ((T d : Thread nD τ).loc main_v0)) (fo : Buf (Elt F) ((T d : Thread nD τ).loc main_v1)) :
    ((pc20 i).view.loc (V d ((i 0).castLE hcore0) ((i 1).castLE hsub0)) ↦[(pc20 i).view.set]{fullShare}
        (pc20 i).view.writes (Elt F) fo [⟨Rect.whole S65536, (xw5 i).view.read (Elt F) xf⟩] : sProp 𝕄)
      = ((T d : Thread nD τ).loc main_v1 ↦[outPiece (Cert.Pieces.dstPiece (i 0).val (i 1).val ((20 : Fin 30) : ℕ))]{fullShare} gout xf) :=
  done_outSlice d _ _ _ _ _ _ _ _ _ _ (off_pc20 i) (off_xw5 i) ((Cert.Pieces.ref_src (i 0) (i 1) (20 : Fin 30)).trans (Cert.Pieces.src_step (i 0) (i 1) (20 : Fin 30))) xf fo
theorem done_pc21 (d : Dev nD) (i : grid0.Coords) (xf : Buf (Elt F) ((T d : Thread nD τ).loc main_v0)) (fo : Buf (Elt F) ((T d : Thread nD τ).loc main_v1)) :
    ((pc21 i).view.loc (V d ((i 0).castLE hcore0) ((i 1).castLE hsub0)) ↦[(pc21 i).view.set]{fullShare}
        (pc21 i).view.writes (Elt F) fo [⟨Rect.whole S65536, (xw5 i).view.read (Elt F) xf⟩] : sProp 𝕄)
      = ((T d : Thread nD τ).loc main_v1 ↦[outPiece (Cert.Pieces.dstPiece (i 0).val (i 1).val ((21 : Fin 30) : ℕ))]{fullShare} gout xf) :=
  done_outSlice d _ _ _ _ _ _ _ _ _ _ (off_pc21 i) (off_xw5 i) ((Cert.Pieces.ref_src (i 0) (i 1) (21 : Fin 30)).trans (Cert.Pieces.src_step (i 0) (i 1) (21 : Fin 30))) xf fo
theorem done_pc22 (d : Dev nD) (i : grid0.Coords) (xf : Buf (Elt F) ((T d : Thread nD τ).loc main_v0)) (fo : Buf (Elt F) ((T d : Thread nD τ).loc main_v1)) :
    ((pc22 i).view.loc (V d ((i 0).castLE hcore0) ((i 1).castLE hsub0)) ↦[(pc22 i).view.set]{fullShare}
        (pc22 i).view.writes (Elt F) fo [⟨Rect.whole S65536, (xw6 i).view.read (Elt F) xf⟩] : sProp 𝕄)
      = ((T d : Thread nD τ).loc main_v1 ↦[outPiece (Cert.Pieces.dstPiece (i 0).val (i 1).val ((22 : Fin 30) : ℕ))]{fullShare} gout xf) :=
  done_outSlice d _ _ _ _ _ _ _ _ _ _ (off_pc22 i) (off_xw6 i) ((Cert.Pieces.ref_src (i 0) (i 1) (22 : Fin 30)).trans (Cert.Pieces.src_step (i 0) (i 1) (22 : Fin 30))) xf fo
theorem done_pc23 (d : Dev nD) (i : grid0.Coords) (xf : Buf (Elt F) ((T d : Thread nD τ).loc main_v0)) (fo : Buf (Elt F) ((T d : Thread nD τ).loc main_v1)) :
    ((pc23 i).view.loc (V d ((i 0).castLE hcore0) ((i 1).castLE hsub0)) ↦[(pc23 i).view.set]{fullShare}
        (pc23 i).view.writes (Elt F) fo [⟨Rect.whole S65536, (xw6 i).view.read (Elt F) xf⟩] : sProp 𝕄)
      = ((T d : Thread nD τ).loc main_v1 ↦[outPiece (Cert.Pieces.dstPiece (i 0).val (i 1).val ((23 : Fin 30) : ℕ))]{fullShare} gout xf) :=
  done_outSlice d _ _ _ _ _ _ _ _ _ _ (off_pc23 i) (off_xw6 i) ((Cert.Pieces.ref_src (i 0) (i 1) (23 : Fin 30)).trans (Cert.Pieces.src_step (i 0) (i 1) (23 : Fin 30))) xf fo
theorem done_pc24 (d : Dev nD) (i : grid0.Coords) (xf : Buf (Elt F) ((T d : Thread nD τ).loc main_v0)) (fo : Buf (Elt F) ((T d : Thread nD τ).loc main_v1)) :
    ((pc24 i).view.loc (V d ((i 0).castLE hcore0) ((i 1).castLE hsub0)) ↦[(pc24 i).view.set]{fullShare}
        (pc24 i).view.writes (Elt F) fo [⟨Rect.whole S65536, (xw7 i).view.read (Elt F) xf⟩] : sProp 𝕄)
      = ((T d : Thread nD τ).loc main_v1 ↦[outPiece (Cert.Pieces.dstPiece (i 0).val (i 1).val ((24 : Fin 30) : ℕ))]{fullShare} gout xf) :=
  done_outSlice d _ _ _ _ _ _ _ _ _ _ (off_pc24 i) (off_xw7 i) ((Cert.Pieces.ref_src (i 0) (i 1) (24 : Fin 30)).trans (Cert.Pieces.src_step (i 0) (i 1) (24 : Fin 30))) xf fo
theorem done_pc25 (d : Dev nD) (i : grid0.Coords) (xf : Buf (Elt F) ((T d : Thread nD τ).loc main_v0)) (fo : Buf (Elt F) ((T d : Thread nD τ).loc main_v1)) :
    ((pc25 i).view.loc (V d ((i 0).castLE hcore0) ((i 1).castLE hsub0)) ↦[(pc25 i).view.set]{fullShare}
        (pc25 i).view.writes (Elt F) fo [⟨Rect.whole S65536, (xw7 i).view.read (Elt F) xf⟩] : sProp 𝕄)
      = ((T d : Thread nD τ).loc main_v1 ↦[outPiece (Cert.Pieces.dstPiece (i 0).val (i 1).val ((25 : Fin 30) : ℕ))]{fullShare} gout xf) :=
  done_outSlice d _ _ _ _ _ _ _ _ _ _ (off_pc25 i) (off_xw7 i) ((Cert.Pieces.ref_src (i 0) (i 1) (25 : Fin 30)).trans (Cert.Pieces.src_step (i 0) (i 1) (25 : Fin 30))) xf fo
theorem done_pc26 (d : Dev nD) (i : grid0.Coords) (xf : Buf (Elt F) ((T d : Thread nD τ).loc main_v0)) (fo : Buf (Elt F) ((T d : Thread nD τ).loc main_v1)) :
    ((pc26 i).view.loc (V d ((i 0).castLE hcore0) ((i 1).castLE hsub0)) ↦[(pc26 i).view.set]{fullShare}
        (pc26 i).view.writes (Elt F) fo [⟨Rect.whole S65536, (xw8 i).view.read (Elt F) xf⟩] : sProp 𝕄)
      = ((T d : Thread nD τ).loc main_v1 ↦[outPiece (Cert.Pieces.dstPiece (i 0).val (i 1).val ((26 : Fin 30) : ℕ))]{fullShare} gout xf) :=
  done_outSlice d _ _ _ _ _ _ _ _ _ _ (off_pc26 i) (off_xw8 i) ((Cert.Pieces.ref_src (i 0) (i 1) (26 : Fin 30)).trans (Cert.Pieces.src_step (i 0) (i 1) (26 : Fin 30))) xf fo
theorem done_pc27 (d : Dev nD) (i : grid0.Coords) (xf : Buf (Elt F) ((T d : Thread nD τ).loc main_v0)) (fo : Buf (Elt F) ((T d : Thread nD τ).loc main_v1)) :
    ((pc27 i).view.loc (V d ((i 0).castLE hcore0) ((i 1).castLE hsub0)) ↦[(pc27 i).view.set]{fullShare}
        (pc27 i).view.writes (Elt F) fo [⟨Rect.whole S65536, (xw8 i).view.read (Elt F) xf⟩] : sProp 𝕄)
      = ((T d : Thread nD τ).loc main_v1 ↦[outPiece (Cert.Pieces.dstPiece (i 0).val (i 1).val ((27 : Fin 30) : ℕ))]{fullShare} gout xf) :=
  done_outSlice d _ _ _ _ _ _ _ _ _ _ (off_pc27 i) (off_xw8 i) ((Cert.Pieces.ref_src (i 0) (i 1) (27 : Fin 30)).trans (Cert.Pieces.src_step (i 0) (i 1) (27 : Fin 30))) xf fo
theorem done_pc28 (d : Dev nD) (i : grid0.Coords) (xf : Buf (Elt F) ((T d : Thread nD τ).loc main_v0)) (fo : Buf (Elt F) ((T d : Thread nD τ).loc main_v1)) :
    ((pc28 i).view.loc (V d ((i 0).castLE hcore0) ((i 1).castLE hsub0)) ↦[(pc28 i).view.set]{fullShare}
        (pc28 i).view.writes (Elt F) fo [⟨Rect.whole S65536, (xw9 i).view.read (Elt F) xf⟩] : sProp 𝕄)
      = ((T d : Thread nD τ).loc main_v1 ↦[outPiece (Cert.Pieces.dstPiece (i 0).val (i 1).val ((28 : Fin 30) : ℕ))]{fullShare} gout xf) :=
  done_outSlice d _ _ _ _ _ _ _ _ _ _ (off_pc28 i) (off_xw9 i) ((Cert.Pieces.ref_src (i 0) (i 1) (28 : Fin 30)).trans (Cert.Pieces.src_step (i 0) (i 1) (28 : Fin 30))) xf fo
theorem done_pc29 (d : Dev nD) (i : grid0.Coords) (xf : Buf (Elt F) ((T d : Thread nD τ).loc main_v0)) (fo : Buf (Elt F) ((T d : Thread nD τ).loc main_v1)) :
    ((pc29 i).view.loc (V d ((i 0).castLE hcore0) ((i 1).castLE hsub0)) ↦[(pc29 i).view.set]{fullShare}
        (pc29 i).view.writes (Elt F) fo [⟨Rect.whole S65536, (xw9 i).view.read (Elt F) xf⟩] : sProp 𝕄)
      = ((T d : Thread nD τ).loc main_v1 ↦[outPiece (Cert.Pieces.dstPiece (i 0).val (i 1).val ((29 : Fin 30) : ℕ))]{fullShare} gout xf) :=
  done_outSlice d _ _ _ _ _ _ _ _ _ _ (off_pc29 i) (off_xw9 i) ((Cert.Pieces.ref_src (i 0) (i 1) (29 : Fin 30)).trans (Cert.Pieces.src_step (i 0) (i 1) (29 : Fin 30))) xf fo

end Held

end Cert.KernelIdeal.Respelt

end
-- ==== Proof.BodyKernelIdeal.lean ====
/-
  One subcore's task.

  A subcore `(c, s)` stages ten pieces of the flat input, one per step, alternately in its row of the SparseCore's shared
  scratch and in its own scratch, and copies each staged piece to seven (the first two steps) or two output pieces, thirty
  in all. The copies out of one staging buffer complete on one semaphore: they are started together, all waited for, and
  only then is the buffer filled again, so each output piece receives the staged input piece whole. What the task is
  handed: a read share of the flat input, its thirty output pieces, its row of the shared scratch, and its own scratch and
  semaphores. What it hands back: the same, the thirty output pieces now holding `gout xf` — the input read through the
  output's row table (`done_pc…`, Proof/Windows…) —, whatever the staging buffers hold, the semaphores at zero.
-/
import proofs.«214454_g70703751626829_cont_9to1c4b_566_26_alg».proof.Proof.WindowsKernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.KernelIdeal.Respelt

open Cert.KernelIdeal Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat input and the flat output as the TensorCore holds them; SparseCore `c`'s shared scratch. -/
abbrev xLoc (d : Dev nD) : Loc nD τ sig := (SparseCore.T d).loc main_v0
abbrev oLoc (d : Dev nD) : Loc nD τ sig := (SparseCore.T d).loc main_v1
abbrev shRef (c : Fin τ.nSC) : DevRef τ sig := ⟨.shared, ⟨0, by decide⟩, c⟩
abbrev shLoc (d : Dev nD) (c : Fin τ.nSC) : Loc nD τ sig := (d, shRef c)

variable [FloatOps F]

abbrev cV (L : grid0.Coords) : Fin τ.nSC := (L 0).castLE hcore0
abbrev jV (L : grid0.Coords) : Fin τ.nSub := (L 1).castLE hsub0

/-- Row `j` of a SparseCore's shared scratch: what subcore `j` stages in. -/
theorem hdiv16 : 16 ∣ S16x65536.size 0 := ⟨1, rfl⟩
abbrev rowR (j : Fin 16) : Rect S16x65536 := Rect.part (s := S16x65536) (a₀ := 0) hdiv16 j
abbrev rowSet (j : Fin 16) : Finset S16x65536.Idx := (rowR j).set
omit [FloatOps F] in
theorem bound_one : grid0.bound 1 = 16 := rfl
abbrev jL (L : grid0.Coords) : Fin 16 := Fin.cast bound_one (L 1)

omit [FloatOps F] in
theorem rowUnit_eq (L : grid0.Coords) : Rect.unit (s := S16x65536) (k0_off1 L) S1x65536.size (k0_off1_inb L) = rowR (jL L) := by
  unfold rowR Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]

omit [FloatOps F] in
theorem set_rowM (L : grid0.Coords) : (rowM L).view.set = rowSet (jL L) := by
  show (((shW : Memref sig .scVector .shared S16x65536 .f32).view.slice (Rect.unit (s := S16x65536) (k0_off1 L) S1x65536.size (k0_off1_inb L))).reshape S65536 squeezes_S1x65536_S65536.numel_eq).set = (rowR (jL L)).set
  rw [View.set_reshape]
  have h : ((shW : Memref sig .scVector .shared S16x65536 .f32).view.slice (Rect.unit (s := S16x65536) (k0_off1 L) S1x65536.size (k0_off1_inb L))).set
      = ((shW : Memref sig .scVector .shared S16x65536 .f32).view.slice (rowR (jL L))).set := rowUnit_eq L ▸ rfl
  rw [h]
  show ((View.whole (cc0_scratch0 : Ref sig .scVector)).slice (rowR (jL L))).set = _
  rw [View.set_slice_whole]

omit [FloatOps F] in
theorem pts_rowM (d : Dev nD) (L : grid0.Coords) (f : Buf (Elt F) (shLoc d (cV L))) :
    ((rowM L).view.loc (V d (cV L) (jV L)) ↦[(rowM L).view.set]{fullShare} f : sProp 𝕄) = shLoc d (cV L) ↦[rowSet (jL L)]{fullShare} f := by
  rw [set_rowM]; rfl

omit [FloatOps F] in
theorem pts_bW (d : Dev nD) (L : grid0.Coords) (f : Buf (Elt F) ((V d (cV L) (jV L)).loc cc0_scratch1)) :
    ((bW).view.loc (V d (cV L) (jV L)) ↦{fullShare} f : sProp 𝕄) = (V d (cV L) (jV L)).loc cc0_scratch1 ↦{fullShare} f := rfl

/-! ## The subcore's own semaphores and scratch -/

abbrev cell2 (d : Dev nD) (L : grid0.Coords) : GSem nD τ sig := (V d (cV L) (jV L), .dma cc0_scratch2.sem)
abbrev cell3 (d : Dev nD) (L : grid0.Coords) : GSem nD τ sig := (V d (cV L) (jV L), .dma cc0_scratch3.sem)
abbrev cell4 (d : Dev nD) (L : grid0.Coords) : GSem nD τ sig := (V d (cV L) (jV L), .dma cc0_scratch4.sem)
abbrev cell5 (d : Dev nD) (L : grid0.Coords) : GSem nD τ sig := (V d (cV L) (jV L), .dma cc0_scratch5.sem)

omit [FloatOps F] in
theorem ownSems0_V (d : Dev nD) (L : grid0.Coords) :
    (ownSems0 (V d (cV L) (jV L)) : sProp 𝕄)
      = iprop(semVal (cell2 d L) 0 ∗ semVal (cell3 d L) 0 ∗ semVal (cell4 d L) 0 ∗ semVal (cell5 d L) 0
          ∗ bigSep (((((ownCells (V d (cV L) (jV L))).erase (cell2 d L)).erase (cell3 d L)).erase (cell4 d L)).erase (cell5 d L)) fun g => semVal g 0) := by
  unfold SparseCore.Cfg.ownSems0
  have m2 : cell2 d L ∈ ownCells (V d (cV L) (jV L)) := (mem_ownCells (g := cell2 d L)).mpr ⟨rfl, by show (SemLoc.dma cc0_scratch2.sem : SemLoc sig).isScoped .scVector = true; decide⟩
  have m3 : cell3 d L ∈ ownCells (V d (cV L) (jV L)) := (mem_ownCells (g := cell3 d L)).mpr ⟨rfl, by show (SemLoc.dma cc0_scratch3.sem : SemLoc sig).isScoped .scVector = true; decide⟩
  have m4 : cell4 d L ∈ ownCells (V d (cV L) (jV L)) := (mem_ownCells (g := cell4 d L)).mpr ⟨rfl, by show (SemLoc.dma cc0_scratch4.sem : SemLoc sig).isScoped .scVector = true; decide⟩
  have m5 : cell5 d L ∈ ownCells (V d (cV L) (jV L)) := (mem_ownCells (g := cell5 d L)).mpr ⟨rfl, by show (SemLoc.dma cc0_scratch5.sem : SemLoc sig).isScoped .scVector = true; decide⟩
  have n32 : cell3 d L ≠ cell2 d L := by simp [cell2, cell3]; decide
  have n42 : cell4 d L ≠ cell2 d L := by simp [cell2, cell4]; decide
  have n43 : cell4 d L ≠ cell3 d L := by simp [cell3, cell4]; decide
  have n52 : cell5 d L ≠ cell2 d L := by simp [cell2, cell5]; decide
  have n53 : cell5 d L ≠ cell3 d L := by simp [cell3, cell5]; decide
  have n54 : cell5 d L ≠ cell4 d L := by simp [cell4, cell5]; decide
  rw [SparseCore.bigSep_erase' m2,
    SparseCore.bigSep_erase' (Finset.mem_erase.mpr ⟨n32, m3⟩),
    SparseCore.bigSep_erase' (Finset.mem_erase.mpr ⟨n43, Finset.mem_erase.mpr ⟨n42, m4⟩⟩),
    SparseCore.bigSep_erase' (Finset.mem_erase.mpr ⟨n54, Finset.mem_erase.mpr ⟨n53, Finset.mem_erase.mpr ⟨n52, m5⟩⟩⟩)]

omit [FloatOps F] in
theorem ownBufs_V (d : Dev nD) (L : grid0.Coords) :
    (ownBufs (V d (cV L) (jV L)) : sProp 𝕄)
      = iprop((∃ f, (V d (cV L) (jV L)).loc cc0_scratch1 ↦{fullShare} f)
          ∗ bigSep ((ownRefs (τ := τ) (.scVector (cV L) (jV L))).erase ((Proc.scVector (cV L) (jV L)).devRef cc0_scratch1))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scratch1) rfl)

/-! ## A family over ten or thirty indices, spread out -/

omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_fin30 (Φ : Fin 30 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) := by
  rw [show (Finset.univ : Finset (Fin 30)) = {0, 1, 2, 3, 4, 5, 6, 7, 8, 9, 10, 11, 12, 13, 14, 15, 16, 17, 18, 19, 20, 21, 22, 23, 24, 25, 26, 27, 28, 29} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## An input window out of a share of the whole input, and back -/

omit [FloatOps F] in
/-- A share of the whole flat input lends the elements of a piece, and takes them back. -/
theorem carve_in (d : Dev nD) (q : PosShare TreeShare) (xf : Buf (Elt F) (xLoc d)) (n : ℕ) :
    (xLoc d ↦{q} xf : sProp 𝕄) ⊢ iprop((xLoc d ↦[inPiece n]{q} xf) ∗ ((xLoc d ↦[inPiece n]{q} xf) -∗ (xLoc d ↦{q} xf))) := by
  refine (pointsTo_split_subset (Finset.subset_univ (inPiece n))).1.trans ?_
  iintro ⟨Hw, Hr⟩
  isplitl [Hw]; · iexact Hw
  iintro Hw
  iapply (pointsTo_split_subset (Finset.subset_univ (inPiece n))).2
  isplitl [Hw] <;> iassumption

omit [FloatOps F] in
/-- One more wait recorded at the kernel's own index keeps the recorded waits where the launch wants them. -/
theorem waits_none {W : Waits sig (HIx 1)} (W' : Waits sig (HIx 1)) (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- What the task is handed of the arrays, and what it hands back. -/
def taskIn (d : Dev nD) (L : grid0.Coords) (q : PosShare TreeShare) (xf : Buf (Elt F) (xLoc d)) (fo : Buf (Elt F) (oLoc d)) : sProp 𝕄 :=
  iprop((xLoc d ↦{q} xf) ∗ (bigSep Finset.univ fun k : Fin 30 => oLoc d ↦[outPiece (Cert.Pieces.dstPiece (L 0).val (L 1).val k.val)]{fullShare} fo)
    ∗ ∃ f, shLoc d (cV L) ↦[rowSet (jL L)]{fullShare} f)

/-! ## The task -/

set_option maxHeartbeats 8000000 in
/-- The task on subcore `(L 0, L 1)` of device `d`: from a read share of the flat input at `xf`, its thirty output pieces at
    anything, its staging row and its own scratch and semaphores, to the same with the output pieces at `gout xf`. -/
theorem tile_body [∀ e, Nonempty (Elt F e)] (hF : (K (F := F)).Facts) (d : Dev nD) (L : grid0.Coords) (q : PosShare TreeShare)
    (xf : Buf (Elt F) (xLoc d)) (fo : Buf (Elt F) (oLoc d))
    (O : CellTallies nD τ sig (HIx 1)) (W : Waits sig (HIx 1)) (hO : ∀ g, O g none = 0) :
    iprop(levAts (K (F := F)).L (K (F := F)).lev ∗ emp ∗ taskIn d L q xf fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xW (Memref.isWhole_whole _) oW (Memref.isWhole_whole _) shW (Memref.isWhole_whole _) bW (Memref.isWhole_whole _)
            cc0_scratch2 cc0_scratch3 cc0_scratch4 cc0_scratch5)
          fun _ => iprop(taskIn d L q xf (gout xf) ∗ scopedBufs (V d (cV L) (jV L)) ∗ scopedSems0 (V d (cV L) (jV L))
            ∗ ∃ W', ⌜∀ p ∈ W', p ∈ W ∨ p.2 = none⌝ ∗ owes (V d (cV L) (jV L)) O W') := by
  have _p8 := Transfers.BatchOfUse.intro (c := V d (cV L) (jV L)) (SemLoc.dma (sig := sig) cc0_scratch4.sem) 0 7 (windows := true)
  have _p8' := Transfers.BatchOf.intro (c := V d (cV L) (jV L)) (SemLoc.dma (sig := sig) cc0_scratch4.sem) 2 (windows := true)
  have _p9 := Transfers.BatchOfUse.intro (c := V d (cV L) (jV L)) (SemLoc.dma (sig := sig) cc0_scratch5.sem) 0 7 (windows := true)
  have _p9' := Transfers.BatchOf.intro (c := V d (cV L) (jV L)) (SemLoc.dma (sig := sig) cc0_scratch5.sem) 2 (windows := true)
  rw [qbody_eq]
  rw [(K (F := F)).scopedBufs_V hF d (cV L) (jV L), SparseCore.Cfg.scopedSems0_V (Val := Elt F) d (cV L) (jV L), ownSems0_V, ownBufs_V]
  unfold taskIn
  rw [bigSep_fin30, bigSep_fin30]
  iintro ⟨#Hlv, -, ⟨Hx, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24, Hp25, Hp26, Hp27, Hp28, Hp29⟩, ⟨%fsh, Hrow⟩⟩, ⟨⟨%fb, Hb⟩, Hbufs⟩, ⟨Hs2, Hs3, Hs4, Hs5, Hsems⟩, HO⟩
  ihave Hmw := ((K (F := F)).mayWaits_none (thr := V d (cV L) (jV L)) hO) $$ Hlv
  -- the ten input windows, each out of a read token of the share
  ihave Hx' := (Transfers.pointsTo_toks_split q 10) $$ Hx
  icases Hx' with ⟨Hxrest, Htoks⟩
  ihave Htoks' := (Entails.of_eq (bigSep_fin10 (F := F) _)) $$ Htoks
  icases Htoks' with ⟨Hx0, Hx1, Hx2, Hx3, Hx4, Hx5, Hx6, Hx7, Hx8, Hx9⟩
  ihave Hc0 := (carve_in (F := F) d _ xf (Cert.Pieces.srcPiece (L 0).val (L 1).val 0)) $$ Hx0
  icases Hc0 with ⟨Hx0, Hxb0⟩
  ihave Hx0 := (Entails.of_eq (pts_xw0 (F := F) d L _ xf).symm) $$ Hx0
  ihave Hc1 := (carve_in (F := F) d _ xf (Cert.Pieces.srcPiece (L 0).val (L 1).val 7)) $$ Hx1
  icases Hc1 with ⟨Hx1, Hxb1⟩
  ihave Hx1 := (Entails.of_eq (pts_xw1 (F := F) d L _ xf).symm) $$ Hx1
  ihave Hc2 := (carve_in (F := F) d _ xf (Cert.Pieces.srcPiece (L 0).val (L 1).val 14)) $$ Hx2
  icases Hc2 with ⟨Hx2, Hxb2⟩
  ihave Hx2 := (Entails.of_eq (pts_xw2 (F := F) d L _ xf).symm) $$ Hx2
  ihave Hc3 := (carve_in (F := F) d _ xf (Cert.Pieces.srcPiece (L 0).val (L 1).val 16)) $$ Hx3
  icases Hc3 with ⟨Hx3, Hxb3⟩
  ihave Hx3 := (Entails.of_eq (pts_xw3 (F := F) d L _ xf).symm) $$ Hx3
  ihave Hc4 := (carve_in (F := F) d _ xf (Cert.Pieces.srcPiece (L 0).val (L 1).val 18)) $$ Hx4
  icases Hc4 with ⟨Hx4, Hxb4⟩
  ihave Hx4 := (Entails.of_eq (pts_xw4 (F := F) d L _ xf).symm) $$ Hx4
  ihave Hc5 := (carve_in (F := F) d _ xf (Cert.Pieces.srcPiece (L 0).val (L 1).val 20)) $$ Hx5
  icases Hc5 with ⟨Hx5, Hxb5⟩
  ihave Hx5 := (Entails.of_eq (pts_xw5 (F := F) d L _ xf).symm) $$ Hx5
  ihave Hc6 := (carve_in (F := F) d _ xf (Cert.Pieces.srcPiece (L 0).val (L 1).val 22)) $$ Hx6
  icases Hc6 with ⟨Hx6, Hxb6⟩
  ihave Hx6 := (Entails.of_eq (pts_xw6 (F := F) d L _ xf).symm) $$ Hx6
  ihave Hc7 := (carve_in (F := F) d _ xf (Cert.Pieces.srcPiece (L 0).val (L 1).val 24)) $$ Hx7
  icases Hc7 with ⟨Hx7, Hxb7⟩
  ihave Hx7 := (Entails.of_eq (pts_xw7 (F := F) d L _ xf).symm) $$ Hx7
  ihave Hc8 := (carve_in (F := F) d _ xf (Cert.Pieces.srcPiece (L 0).val (L 1).val 26)) $$ Hx8
  icases Hc8 with ⟨Hx8, Hxb8⟩
  ihave Hx8 := (Entails.of_eq (pts_xw8 (F := F) d L _ xf).symm) $$ Hx8
  ihave Hc9 := (carve_in (F := F) d _ xf (Cert.Pieces.srcPiece (L 0).val (L 1).val 28)) $$ Hx9
  icases Hc9 with ⟨Hx9, Hxb9⟩
  ihave Hx9 := (Entails.of_eq (pts_xw9 (F := F) d L _ xf).symm) $$ Hx9
  ihave Hp0 := (Entails.of_eq (pts_pc0 (F := F) d L fullShare fo).symm) $$ Hp0
  ihave Hp1 := (Entails.of_eq (pts_pc1 (F := F) d L fullShare fo).symm) $$ Hp1
  ihave Hp2 := (Entails.of_eq (pts_pc2 (F := F) d L fullShare fo).symm) $$ Hp2
  ihave Hp3 := (Entails.of_eq (pts_pc3 (F := F) d L fullShare fo).symm) $$ Hp3
  ihave Hp4 := (Entails.of_eq (pts_pc4 (F := F) d L fullShare fo).symm) $$ Hp4
  ihave Hp5 := (Entails.of_eq (pts_pc5 (F := F) d L fullShare fo).symm) $$ Hp5
  ihave Hp6 := (Entails.of_eq (pts_pc6 (F := F) d L fullShare fo).symm) $$ Hp6
  ihave Hp7 := (Entails.of_eq (pts_pc7 (F := F) d L fullShare fo).symm) $$ Hp7
  ihave Hp8 := (Entails.of_eq (pts_pc8 (F := F) d L fullShare fo).symm) $$ Hp8
  ihave Hp9 := (Entails.of_eq (pts_pc9 (F := F) d L fullShare fo).symm) $$ Hp9
  ihave Hp10 := (Entails.of_eq (pts_pc10 (F := F) d L fullShare fo).symm) $$ Hp10
  ihave Hp11 := (Entails.of_eq (pts_pc11 (F := F) d L fullShare fo).symm) $$ Hp11
  ihave Hp12 := (Entails.of_eq (pts_pc12 (F := F) d L fullShare fo).symm) $$ Hp12
  ihave Hp13 := (Entails.of_eq (pts_pc13 (F := F) d L fullShare fo).symm) $$ Hp13
  ihave Hp14 := (Entails.of_eq (pts_pc14 (F := F) d L fullShare fo).symm) $$ Hp14
  ihave Hp15 := (Entails.of_eq (pts_pc15 (F := F) d L fullShare fo).symm) $$ Hp15
  ihave Hp16 := (Entails.of_eq (pts_pc16 (F := F) d L fullShare fo).symm) $$ Hp16
  ihave Hp17 := (Entails.of_eq (pts_pc17 (F := F) d L fullShare fo).symm) $$ Hp17
  ihave Hp18 := (Entails.of_eq (pts_pc18 (F := F) d L fullShare fo).symm) $$ Hp18
  ihave Hp19 := (Entails.of_eq (pts_pc19 (F := F) d L fullShare fo).symm) $$ Hp19
  ihave Hp20 := (Entails.of_eq (pts_pc20 (F := F) d L fullShare fo).symm) $$ Hp20
  ihave Hp21 := (Entails.of_eq (pts_pc21 (F := F) d L fullShare fo).symm) $$ Hp21
  ihave Hp22 := (Entails.of_eq (pts_pc22 (F := F) d L fullShare fo).symm) $$ Hp22
  ihave Hp23 := (Entails.of_eq (pts_pc23 (F := F) d L fullShare fo).symm) $$ Hp23
  ihave Hp24 := (Entails.of_eq (pts_pc24 (F := F) d L fullShare fo).symm) $$ Hp24
  ihave Hp25 := (Entails.of_eq (pts_pc25 (F := F) d L fullShare fo).symm) $$ Hp25
  ihave Hp26 := (Entails.of_eq (pts_pc26 (F := F) d L fullShare fo).symm) $$ Hp26
  ihave Hp27 := (Entails.of_eq (pts_pc27 (F := F) d L fullShare fo).symm) $$ Hp27
  ihave Hp28 := (Entails.of_eq (pts_pc28 (F := F) d L fullShare fo).symm) $$ Hp28
  ihave Hp29 := (Entails.of_eq (pts_pc29 (F := F) d L fullShare fo).symm) $$ Hp29
  ihave Hrow := (Entails.of_eq (pts_rowM (F := F) d L fsh).symm) $$ Hrow
  ihave Hb := (Entails.of_eq (pts_bW (F := F) d L fb).symm) $$ Hb
  sl_exec_parts
  sl_step
  -- every staged piece is what its input window reads of `xf`; every copy out delivers the staged piece
  have e0 : tile_body.sl.dma1 d L xf fsh = (xw0 L).view.read (Elt F) xf := by
    delta tile_body.sl.dma1 tile_body.sl.dma0
    simp only [ReadAs.apply_same, read_writes_whole_cons, View.read_write_univ]
  have e1 : tile_body.sl.dma9 d L xf fb = (xw1 L).view.read (Elt F) xf := by
    delta tile_body.sl.dma9 tile_body.sl.dma0 tile_body.sl.dma0_1
    simp only [ReadAs.apply_same, read_writes_whole_cons, View.read_write_univ]
  have e2 : tile_body.sl.dma17 d L xf fsh = (xw2 L).view.read (Elt F) xf := by
    delta tile_body.sl.dma17 tile_body.sl.dma0 tile_body.sl.dma0_1 tile_body.sl.dma0_2
    simp only [ReadAs.apply_same, read_writes_whole_cons, View.read_write_univ]
  have e3 : tile_body.sl.dma20 d L xf fb = (xw3 L).view.read (Elt F) xf := by
    delta tile_body.sl.dma20 tile_body.sl.dma0 tile_body.sl.dma0_1 tile_body.sl.dma0_2 tile_body.sl.dma0_3
    simp only [ReadAs.apply_same, read_writes_whole_cons, View.read_write_univ]
  have e4 : tile_body.sl.dma23 d L xf fsh = (xw4 L).view.read (Elt F) xf := by
    delta tile_body.sl.dma23 tile_body.sl.dma0 tile_body.sl.dma0_1 tile_body.sl.dma0_2 tile_body.sl.dma0_3 tile_body.sl.dma0_4
    simp only [ReadAs.apply_same, read_writes_whole_cons, View.read_write_univ]
  have e5 : tile_body.sl.dma26 d L xf fb = (xw5 L).view.read (Elt F) xf := by
    delta tile_body.sl.dma26 tile_body.sl.dma0 tile_body.sl.dma0_1 tile_body.sl.dma0_2 tile_body.sl.dma0_3 tile_body.sl.dma0_4 tile_body.sl.dma0_5
    simp only [ReadAs.apply_same, read_writes_whole_cons, View.read_write_univ]
  have e6 : tile_body.sl.dma29 d L xf fsh = (xw6 L).view.read (Elt F) xf := by
    delta tile_body.sl.dma29 tile_body.sl.dma0 tile_body.sl.dma0_1 tile_body.sl.dma0_2 tile_body.sl.dma0_3 tile_body.sl.dma0_4 tile_body.sl.dma0_5 tile_body.sl.dma0_6
    simp only [ReadAs.apply_same, read_writes_whole_cons, View.read_write_univ]
  have e7 : tile_body.sl.dma32 d L xf fb = (xw7 L).view.read (Elt F) xf := by
    delta tile_body.sl.dma32 tile_body.sl.dma0 tile_body.sl.dma0_1 tile_body.sl.dma0_2 tile_body.sl.dma0_3 tile_body.sl.dma0_4 tile_body.sl.dma0_5 tile_body.sl.dma0_6 tile_body.sl.dma0_7
    simp only [ReadAs.apply_same, read_writes_whole_cons, View.read_write_univ]
  have e8 : tile_body.sl.dma35 d L xf fsh = (xw8 L).view.read (Elt F) xf := by
    delta tile_body.sl.dma35 tile_body.sl.dma0 tile_body.sl.dma0_1 tile_body.sl.dma0_2 tile_body.sl.dma0_3 tile_body.sl.dma0_4 tile_body.sl.dma0_5 tile_body.sl.dma0_6 tile_body.sl.dma0_7 tile_body.sl.dma0_8
    simp only [ReadAs.apply_same, read_writes_whole_cons, View.read_write_univ]
  have e9 : tile_body.sl.dma38 d L xf fb = (xw9 L).view.read (Elt F) xf := by
    delta tile_body.sl.dma38 tile_body.sl.dma0 tile_body.sl.dma0_1 tile_body.sl.dma0_2 tile_body.sl.dma0_3 tile_body.sl.dma0_4 tile_body.sl.dma0_5 tile_body.sl.dma0_6 tile_body.sl.dma0_7 tile_body.sl.dma0_8 tile_body.sl.dma0_9
    simp only [ReadAs.apply_same, read_writes_whole_cons, View.read_write_univ]
  rw [e0, e1, e2, e3, e4, e5, e6, e7, e8, e9]
  isplitl [Hxrest Hx0 Hx1 Hx2 Hx3 Hx4 Hx5 Hx6 Hx7 Hx8 Hx9 Hxb0 Hxb1 Hxb2 Hxb3 Hxb4 Hxb5 Hxb6 Hxb7 Hxb8 Hxb9 Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29 Hrow]
  · isplitl [Hxrest Hx0 Hx1 Hx2 Hx3 Hx4 Hx5 Hx6 Hx7 Hx8 Hx9 Hxb0 Hxb1 Hxb2 Hxb3 Hxb4 Hxb5 Hxb6 Hxb7 Hxb8 Hxb9]
    · iapply (Transfers.pointsTo_toks_join q 10)
      isplitl [Hxrest]; · iexact Hxrest
      rw [bigSep_fin10]
      isplitl [Hx0 Hxb0]
      · iapply Hxb0; iapply (Entails.of_eq (pts_xw0 (F := F) d L _ xf)); iexact Hx0
      isplitl [Hx1 Hxb1]
      · iapply Hxb1; iapply (Entails.of_eq (pts_xw1 (F := F) d L _ xf)); iexact Hx1
      isplitl [Hx2 Hxb2]
      · iapply Hxb2; iapply (Entails.of_eq (pts_xw2 (F := F) d L _ xf)); iexact Hx2
      isplitl [Hx3 Hxb3]
      · iapply Hxb3; iapply (Entails.of_eq (pts_xw3 (F := F) d L _ xf)); iexact Hx3
      isplitl [Hx4 Hxb4]
      · iapply Hxb4; iapply (Entails.of_eq (pts_xw4 (F := F) d L _ xf)); iexact Hx4
      isplitl [Hx5 Hxb5]
      · iapply Hxb5; iapply (Entails.of_eq (pts_xw5 (F := F) d L _ xf)); iexact Hx5
      isplitl [Hx6 Hxb6]
      · iapply Hxb6; iapply (Entails.of_eq (pts_xw6 (F := F) d L _ xf)); iexact Hx6
      isplitl [Hx7 Hxb7]
      · iapply Hxb7; iapply (Entails.of_eq (pts_xw7 (F := F) d L _ xf)); iexact Hx7
      isplitl [Hx8 Hxb8]
      · iapply Hxb8; iapply (Entails.of_eq (pts_xw8 (F := F) d L _ xf)); iexact Hx8
      iapply Hxb9; iapply (Entails.of_eq (pts_xw9 (F := F) d L _ xf)); iexact Hx9
    isplitl [Hp0 Hp1 Hp2 Hp3 Hp4 Hp5 Hp6 Hp7 Hp8 Hp9 Hp10 Hp11 Hp12 Hp13 Hp14 Hp15 Hp16 Hp17 Hp18 Hp19 Hp20 Hp21 Hp22 Hp23 Hp24 Hp25 Hp26 Hp27 Hp28 Hp29]
    · isplitl [Hp0]; · iapply (Entails.of_eq (done_pc0 (F := F) d L xf fo)); iexact Hp0
      isplitl [Hp1]; · iapply (Entails.of_eq (done_pc1 (F := F) d L xf fo)); iexact Hp1
      isplitl [Hp2]; · iapply (Entails.of_eq (done_pc2 (F := F) d L xf fo)); iexact Hp2
      isplitl [Hp3]; · iapply (Entails.of_eq (done_pc3 (F := F) d L xf fo)); iexact Hp3
      isplitl [Hp4]; · iapply (Entails.of_eq (done_pc4 (F := F) d L xf fo)); iexact Hp4
      isplitl [Hp5]; · iapply (Entails.of_eq (done_pc5 (F := F) d L xf fo)); iexact Hp5
      isplitl [Hp6]; · iapply (Entails.of_eq (done_pc6 (F := F) d L xf fo)); iexact Hp6
      isplitl [Hp7]; · iapply (Entails.of_eq (done_pc7 (F := F) d L xf fo)); iexact Hp7
      isplitl [Hp8]; · iapply (Entails.of_eq (done_pc8 (F := F) d L xf fo)); iexact Hp8
      isplitl [Hp9]; · iapply (Entails.of_eq (done_pc9 (F := F) d L xf fo)); iexact Hp9
      isplitl [Hp10]; · iapply (Entails.of_eq (done_pc10 (F := F) d L xf fo)); iexact Hp10
      isplitl [Hp11]; · iapply (Entails.of_eq (done_pc11 (F := F) d L xf fo)); iexact Hp11
      isplitl [Hp12]; · iapply (Entails.of_eq (done_pc12 (F := F) d L xf fo)); iexact Hp12
      isplitl [Hp13]; · iapply (Entails.of_eq (done_pc13 (F := F) d L xf fo)); iexact Hp13
      isplitl [Hp14]; · iapply (Entails.of_eq (done_pc14 (F := F) d L xf fo)); iexact Hp14
      isplitl [Hp15]; · iapply (Entails.of_eq (done_pc15 (F := F) d L xf fo)); iexact Hp15
      isplitl [Hp16]; · iapply (Entails.of_eq (done_pc16 (F := F) d L xf fo)); iexact Hp16
      isplitl [Hp17]; · iapply (Entails.of_eq (done_pc17 (F := F) d L xf fo)); iexact Hp17
      isplitl [Hp18]; · iapply (Entails.of_eq (done_pc18 (F := F) d L xf fo)); iexact Hp18
      isplitl [Hp19]; · iapply (Entails.of_eq (done_pc19 (F := F) d L xf fo)); iexact Hp19
      isplitl [Hp20]; · iapply (Entails.of_eq (done_pc20 (F := F) d L xf fo)); iexact Hp20
      isplitl [Hp21]; · iapply (Entails.of_eq (done_pc21 (F := F) d L xf fo)); iexact Hp21
      isplitl [Hp22]; · iapply (Entails.of_eq (done_pc22 (F := F) d L xf fo)); iexact Hp22
      isplitl [Hp23]; · iapply (Entails.of_eq (done_pc23 (F := F) d L xf fo)); iexact Hp23
      isplitl [Hp24]; · iapply (Entails.of_eq (done_pc24 (F := F) d L xf fo)); iexact Hp24
      isplitl [Hp25]; · iapply (Entails.of_eq (done_pc25 (F := F) d L xf fo)); iexact Hp25
      isplitl [Hp26]; · iapply (Entails.of_eq (done_pc26 (F := F) d L xf fo)); iexact Hp26
      isplitl [Hp27]; · iapply (Entails.of_eq (done_pc27 (F := F) d L xf fo)); iexact Hp27
      isplitl [Hp28]; · iapply (Entails.of_eq (done_pc28 (F := F) d L xf fo)); iexact Hp28
      iapply (Entails.of_eq (done_pc29 (F := F) d L xf fo)); iexact Hp29
    · iexists _; iapply (Entails.of_eq (pts_rowM (F := F) d L _)); iexact Hrow
  isplitl [Hb Hbufs]
  · isplitl [Hb]
    · iexists _; iexact Hb
    · iexact Hbufs
  isplitl [Hs2 Hs3 Hs4 Hs5 Hsems]
  · isplitl [Hs2]; · iexact Hs2
    isplitl [Hs3]; · iexact Hs3
    isplitl [Hs4]; · iexact Hs4
    isplitl [Hs5]; · iexact Hs5
    iexact Hsems
  iexists _; isplitr
  rotate_left
  · iexact HO
  · ipureintro
    repeat' (first | refine waits_none _ ?_ _ | exact fun p hp => Or.inl hp)

end Cert.KernelIdeal.Respelt

end
-- ==== Proof.LaunchKernelIdeal.lean ====
/-
  The launch: @main on the TensorCore and the thirty-two tasks.

  @main flattens the input, calls the SparseCore kernel once, and gives the flat output its five-dimensional shape. The
  call hands each of the two SparseCores a read share of the flat input and its 480 output pieces; the SparseCore hands
  each of its sixteen subcores a read share of its own share, the subcore's thirty pieces and the subcore's row of the
  SparseCore's shared scratch (`vecSplit`), and the subcore's task (Proof/Body…, `tile_body`) returns them with the
  pieces at `gout` of the flat input. The 960 pieces are the whole output (`out_pieces`: every output piece is written
  by exactly one copy, Proof/Pieces.lean), so after the call the flat output IS `gout` of the flat input, and what the
  program leaves is the input array unchanged and the result array at `rfin`: the reshape of `gout` of the reshape of the
  input. Every weakly fair execution terminates, nothing faulting, no wait unanswered (`run_main`).
-/
import proofs.«214454_g70703751626829_cont_9to1c4b_566_26_alg».proof.Proof.BodyKernelIdeal

noncomputable section

namespace Cert.KernelIdeal.Respelt

open Cert.KernelIdeal Cert.KernelIdeal.GenP

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main's arrays and its two host operations -/

abbrev aLoc (d : Dev nD) : Loc nD τ sig := (SparseCore.T d).loc main_arg0
abbrev rLoc (d : Dev nD) : Loc nD τ sig := (SparseCore.T d).loc main_v2
abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) := StableHlo.reshape main_arg0 main_v0 rfl shapeCasts_S4x16x2048x128_S16777216
abbrev opOut : HloOp τ sig (Elt F) := StableHlo.reshape main_v1 main_v2 rfl shapeCasts_S62914560_S4x20x3x2048x128

/-- The TensorCore's arrays, all unscoped. -/
abbrev S4 : Finset (DevRef τ sig) := {a', x', o', r'}

omit [FloatOps F] in
theorem hIn : (opIn (F := F)).bufs ⊆ S4 := show ({a', x'} : Finset (DevRef τ sig)) ⊆ S4 by decide
omit [FloatOps F] in
theorem hOut : (opOut (F := F)).bufs ⊆ S4 := show ({o', r'} : Finset (DevRef τ sig)) ⊆ S4 by decide

/-- The launch valuation; the flat input after the first reshape; the valuation after the call; the result. -/
def V0 (d : Dev nD) : Valuation τ sig (Elt F) := fun b => m (d, b)
def xfl (d : Dev nD) : Buf (Elt F) (xLoc d) := (opIn (F := F)).result (V0 m d) x'
def V2 (d : Dev nD) : Valuation τ sig (Elt F) := Function.update ((opIn (F := F)).result (V0 m d)) o' (gout (xfl m d))
def rfin (d : Dev nD) : Buf (Elt F) (rLoc d) := (opOut (F := F)).result (V2 m d) r'

omit [FloatOps F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem in_a (d : Dev nD) : (opIn (F := F)).result (V0 m d) a' = m (aLoc d) :=
  (opIn (F := F)).result_of_not_mem (V0 m d) (b := a') (show a' ∉ ({x'} : Finset (DevRef τ sig)) by decide)
theorem in_o (d : Dev nD) : (opIn (F := F)).result (V0 m d) o' = m (oLoc d) :=
  (opIn (F := F)).result_of_not_mem (V0 m d) (b := o') (show o' ∉ ({x'} : Finset (DevRef τ sig)) by decide)
theorem in_r (d : Dev nD) : (opIn (F := F)).result (V0 m d) r' = m (rLoc d) :=
  (opIn (F := F)).result_of_not_mem (V0 m d) (b := r') (show r' ∉ ({x'} : Finset (DevRef τ sig)) by decide)
theorem V2_a (d : Dev nD) : V2 m d a' = m (aLoc d) := (Function.update_of_ne (show a' ≠ o' by decide) _ _).trans (in_a m d)
theorem V2_x (d : Dev nD) : V2 m d x' = xfl m d := Function.update_of_ne (show x' ≠ o' by decide) _ _
theorem V2_o (d : Dev nD) : V2 m d o' = gout (xfl m d) := Function.update_self _ _ _
theorem V2_r (d : Dev nD) : V2 m d r' = m (rLoc d) := (Function.update_of_ne (show r' ≠ o' by decide) _ _).trans (in_r m d)
theorem out_a (d : Dev nD) : (opOut (F := F)).result (V2 m d) a' = m (aLoc d) :=
  ((opOut (F := F)).result_of_not_mem (V2 m d) (b := a') (show a' ∉ ({r'} : Finset (DevRef τ sig)) by decide)).trans (V2_a m d)

/-! ## The shares of the flat input, and the output's 960 pieces -/

/-- SparseCore `c`'s read share of the flat input, and subcore `i`'s of it. -/
abbrev coreShare (c : Fin 2) : PosShare TreeShare := Transfers.shareTok fullShare 2 c
abbrev tileShare (c : Fin 2) (i : Fin 16) : PosShare TreeShare := Transfers.shareTok (coreShare c) 16 i

/-- Subcore `(c, i)`'s thirty pieces of the flat output, at `f`. -/
abbrev tilePieces (d : Dev nD) (c : Fin 2) (i : Fin 16) (f : Buf (Elt F) (oLoc d)) : sProp 𝕄 :=
  bigSep Finset.univ fun k : Fin 30 => oLoc d ↦[outPiece (Cert.Pieces.dstPiece c.val i.val k.val)]{fullShare} f

/-- The output piece that copy `t = (c, i, k)` writes. -/
abbrev pieceOf (d : Dev nD) (t : Fin 2 × Fin 16 × Fin 30) : Finset (Idx (oLoc d)) := outPiece (Cert.Pieces.dst t).val

omit [FloatOps F] in
set_option maxHeartbeats 1600000 in
set_option maxRecDepth 8192 in
/-- The flat output whole is the thirty-two subcores' pieces: each of the 960 pieces is exactly one copy's. -/
theorem out_pieces (d : Dev nD) (f : Buf (Elt F) (oLoc d)) :
    (oLoc d ↦{fullShare} f : sProp 𝕄) = bigSep Finset.univ fun c : Fin 2 => bigSep Finset.univ fun i : Fin 16 => tilePieces d c i f := by
  have hdisj : ∀ t ∈ (Finset.univ : Finset (Fin 2 × Fin 16 × Fin 30)), ∀ t' ∈ (Finset.univ : Finset (Fin 2 × Fin 16 × Fin 30)), t ≠ t' →
      Disjoint (pieceOf d t) (pieceOf d t') :=
    fun t _ t' _ h => Finset.disjoint_left.mpr fun o h1 h2 =>
      h (Cert.Pieces.dst_inj (Fin.ext ((mem_outPiece.mp h1).symm.trans (mem_outPiece.mp h2))))
  have key : (oLoc d ↦{fullShare} f : sProp 𝕄)
      = bigSep Finset.univ fun t : Fin 2 × Fin 16 × Fin 30 => oLoc d ↦[pieceOf d t]{fullShare} f := by
    have hc : (Finset.univ : Finset (Idx (oLoc d))) = (Finset.univ : Finset (Fin 2 × Fin 16 × Fin 30)).biUnion (pieceOf d) := by
      ext o
      simp only [Finset.mem_univ, Finset.mem_biUnion, true_and, true_iff]
      have o' : S62914560.Idx := o
      have ho : ((show S62914560.Idx from o) 0).val < 62914560 := ((show S62914560.Idx from o) 0).isLt
      obtain ⟨t, ht⟩ := Cert.Pieces.dst_surj ⟨((show S62914560.Idx from o) 0).val / 65536, by omega⟩
      exact ⟨t, (mem_outPiece (o := (show S62914560.Idx from o))).mpr (by rw [ht])⟩
    exact (congrArg (fun S => (oLoc d ↦[S]{fullShare} f : sProp 𝕄)) hc).trans
      (pointsTo_biUnion (Finset.univ : Finset (Fin 2 × Fin 16 × Fin 30)) (ℓ := oLoc d) (pieceOf d) hdisj)
  rw [key, bigSep_univ_prod]
  refine bigSep_congr fun c _ => ?_
  rw [bigSep_univ_prod]
  rfl

/-! ## What the handshakes carry -/

/-- The grid point of subcore `s` of SparseCore `c`, as the body table passes it. -/
def coordsV (c : Fin (grid0.bound 0)) (s : Fin (grid0.bound 1)) : grid0.Coords :=
  fun | 0 => c | 1 => s | ⟨_ + 2, h⟩ => absurd h (Nat.not_lt.2 (Nat.le_add_left _ _))
abbrev LL (c : Fin 2) (i : Fin 16) : grid0.Coords := coordsV c i

/-- The call hands SparseCore `c` its share of the flat input and its subcores' pieces; each task its share of that, its
    pieces and its row of the shared scratch; and brings them back with the pieces at `gout` of the flat input. -/
def P : (K (F := F)).Pay (nD := nD) (Val := Elt F) (Name := ℕ) (U := UU) where
  st := fun q d c => match q with
    | 0 => iprop((xLoc d ↦{coreShare c} xfl m d) ∗ bigSep Finset.univ fun i : Fin 16 => tilePieces d c i (m (oLoc d)))
  dn := fun q d c => match q with
    | 0 => iprop((xLoc d ↦{coreShare c} xfl m d) ∗ bigSep Finset.univ fun i : Fin 16 => tilePieces d c i (gout (xfl m d)))
  go := fun q d c i => match q with
    | 0 => taskIn d (LL c (Fin.cast nSub_zero i)) (tileShare c (Fin.cast nSub_zero i)) (xfl m d) (m (oLoc d))
  td := fun q d c i => match q with
    | 0 => taskIn d (LL c (Fin.cast nSub_zero i)) (tileShare c (Fin.cast nSub_zero i)) (xfl m d) (gout (xfl m d))
  x := fun _ _ => iprop(emp)

instance taskIn_storable (d : Dev nD) (L : grid0.Coords) (q : PosShare TreeShare) (xf : Buf (Elt F) (xLoc d)) (fo : Buf (Elt F) (oLoc d)) :
    BI.Storable (upEmb : UEmb _ 𝕄) (taskIn d L q xf fo) := by unfold taskIn; infer_instance

instance P_storable : (P (F := F) m).IsStorable where
  st q d c := match q with
    | 0 => (inferInstance : BI.Storable (upEmb : UEmb _ 𝕄) iprop((xLoc d ↦{coreShare c} xfl m d) ∗ bigSep Finset.univ fun i : Fin 16 => tilePieces d c i (m (oLoc d))))
  dn q d c := match q with
    | 0 => (inferInstance : BI.Storable (upEmb : UEmb _ 𝕄) iprop((xLoc d ↦{coreShare c} xfl m d) ∗ bigSep Finset.univ fun i : Fin 16 => tilePieces d c i (gout (xfl m d))))
  go q d c i := match q with
    | 0 => (inferInstance : BI.Storable (upEmb : UEmb _ 𝕄) (taskIn d (LL c (Fin.cast nSub_zero i)) (tileShare c (Fin.cast nSub_zero i)) (xfl m d) (m (oLoc d))))
  td q d c i := match q with
    | 0 => (inferInstance : BI.Storable (upEmb : UEmb _ 𝕄) (taskIn d (LL c (Fin.cast nSub_zero i)) (tileShare c (Fin.cast nSub_zero i)) (xfl m d) (gout (xfl m d))))

/-! ## The task, as the launch theorem asks for it -/

theorem defs₀_vector (c : Fin τ.nSC) (s : Fin τ.nSub) :
    defs₀ (F := F) (.scVector c s) 0 ()
      = SparseCore.onTile hcore0 hsub0 (fun c s => cc0__body (coordsV c s)
          xW (Memref.isWhole_whole _) oW (Memref.isWhole_whole _) shW (Memref.isWhole_whole _) bW (Memref.isWhole_whole _)
          cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (tileShare c (Fin.cast nSub_zero i)) (xfl m d) (m (oLoc d)) O W hO).trans (wp_mono frame _ _ fun _ => obl_post)

/-! ## A SparseCore's operands among its sixteen tasks -/

omit [FloatOps F] in
theorem rows_disjoint : ∀ i ∈ (Finset.univ : Finset (Fin 16)), ∀ j ∈ (Finset.univ : Finset (Fin 16)), i ≠ j → Disjoint (rowSet i) (rowSet j) :=
  fun i _ j _ h => Rect.part_disjoint hdiv16 h
omit [FloatOps F] in
theorem rows_cover : (Finset.univ : Finset (Fin 16)).biUnion rowSet = Finset.univ := Rect.biUnion_part hdiv16

omit [FloatOps F] in
theorem shPts_rows (d : Dev nD) (c : Fin τ.nSC) (f : Buf (Elt F) (shLoc d c)) :
    (shLoc d c ↦{fullShare} f : sProp 𝕄) = bigSep Finset.univ fun i : Fin 16 => shLoc d c ↦[rowSet i]{fullShare} f := by
  rw [← pointsTo_biUnion Finset.univ (ℓ := shLoc d c) rowSet rows_disjoint, rows_cover]; try rfl

omit [FloatOps F] in
/-- The rows of the shared scratch, each at contents of its own, are it whole at some contents. -/
theorem shRows_join [∀ e, Nonempty (Elt F e)] (d : Dev nD) (c : Fin τ.nSC) :
    (bigSep Finset.univ fun i : Fin 16 => iprop(∃ f, shLoc d c ↦[rowSet i]{fullShare} f)) ⊢ (iprop(∃ f, shLoc d c ↦{fullShare} f) : sProp 𝕄) := by
  refine (bigSep_exists_pi Finset.univ (fun i (f : Buf (Elt F) (shLoc d c)) => (shLoc d c ↦[rowSet i]{fullShare} f : sProp 𝕄))).trans ?_
  iintro ⟨%fs, H⟩
  ihave H' := (pointsTo_biUnion_join Finset.univ rowSet fs (fs 0) rows_disjoint) $$ H
  icases H' with ⟨%g, -, Hg⟩
  rw [rows_cover]
  iexists g; iexact Hg

omit [FloatOps F] in
/-- The shared scratch is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A task's three holdings of the arrays, apart. -/
theorem taskIn_eq (d : Dev nD) (c : Fin 2) (i : Fin 16) (f : Buf (Elt F) (oLoc d)) :
    taskIn d (LL c i) (tileShare c i) (xfl m d) f
      = iprop((xLoc d ↦{tileShare c i} xfl m d) ∗ tilePieces d c i f ∗ ∃ g, shLoc d ((K (F := F)).core 0 c) ↦[rowSet i]{fullShare} g) := rfl

theorem vecSplit [∀ e, Nonempty (Elt F e)] : (K (F := F)).VecSplit (P m) 0 := by
  intro d c
  show iprop(iprop((xLoc d ↦{coreShare c} xfl m d) ∗ bigSep Finset.univ fun i : Fin 16 => tilePieces d c i (m (oLoc d))) ∗ ownBufs (S d ((K (F := F)).core 0 c)))
    ⊢ |={Set.univ}=> iprop(
      (bigSep Finset.univ fun i : Fin ((K (F := F)).nSub 0) => taskIn d (LL c (Fin.cast nSub_zero i)) (tileShare c (Fin.cast nSub_zero i)) (xfl m d) (m (oLoc d)))
      ∗ ((bigSep Finset.univ fun i : Fin ((K (F := F)).nSub 0) => taskIn d (LL c (Fin.cast nSub_zero i)) (tileShare c (Fin.cast nSub_zero i)) (xfl m d) (gout (xfl m d)))
          -∗ iprop(iprop((xLoc d ↦{coreShare c} xfl m d) ∗ bigSep Finset.univ fun i : Fin 16 => tilePieces d c i (gout (xfl m d))) ∗ ownBufs (S d ((K (F := F)).core 0 c)))))
  rw [bigSep_tasks (F := F) (fun i => taskIn d (LL c i) (tileShare c i) (xfl m d) (m (oLoc d))),
    bigSep_tasks (F := F) (fun i => taskIn d (LL c i) (tileShare c i) (xfl m d) (gout (xfl m d)))]
  simp only [taskIn_eq]
  rw [bigSep_sep', bigSep_sep', bigSep_sep', bigSep_sep', ownBufs_S]
  iintro ⟨⟨Hx, Ho⟩, ⟨%fsh, Hsh⟩, Hrest⟩; imodintro
  ihave Hx' := (Transfers.pointsTo_toks_split (coreShare c) 16) $$ Hx
  icases Hx' with ⟨Hxr, Hxt⟩
  isplitl [Hxt Ho Hsh]
  · isplitl [Hxt]; · iexact Hxt
    isplitl [Ho]; · iexact Ho
    ihave Hsh' := ((Entails.of_eq (shPts_rows d ((K (F := F)).core 0 c) fsh)).trans (SparseCore.ent (bigSep_mono (Φ := fun i => (shLoc d ((K (F := F)).core 0 c) ↦[rowSet i]{fullShare} fsh : sProp 𝕄))
      (Ψ := fun i => iprop(∃ f, shLoc d ((K (F := F)).core 0 c) ↦[rowSet i]{fullShare} f))
      fun i _ => BI.BIClass.exists_intro (Φ := fun f => (shLoc d ((K (F := F)).core 0 c) ↦[rowSet i]{fullShare} f : sProp 𝕄)) fsh))) $$ Hsh
    iexact Hsh'
  iintro ⟨Hxt, Ho, Hsh⟩
  isplitl [Hxr Hxt Ho]
  · isplitl [Hxr Hxt]
    · iapply (Transfers.pointsTo_toks_join (coreShare c) 16)
      isplitl [Hxr] <;> iassumption
    · iexact Ho
  isplitl [Hsh]; · iapply (shRows_join d); iexact Hsh
  iexact Hrest

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What the call takes for the two SparseCores, and what it hands back: the shares of the flat input, and all the pieces. -/
theorem st0_eq (d : Dev nD) :
    (bigSep Finset.univ fun c : Fin ((K (F := F)).nCore 0) => (P m).st 0 d c)
      = iprop((bigSep Finset.univ fun c : Fin 2 => (xLoc d ↦{coreShare c} xfl m d : sProp 𝕄))
          ∗ bigSep Finset.univ fun c : Fin 2 => bigSep Finset.univ fun i : Fin 16 => tilePieces d c i (m (oLoc d))) :=
  bigSep_sep' _ _ _
theorem dn0_eq (d : Dev nD) :
    (bigSep Finset.univ fun c : Fin ((K (F := F)).nCore 0) => (P m).dn 0 d c)
      = iprop((bigSep Finset.univ fun c : Fin 2 => (xLoc d ↦{coreShare c} xfl m d : sProp 𝕄))
          ∗ bigSep Finset.univ fun c : Fin 2 => bigSep Finset.univ fun i : Fin 16 => tilePieces d c i (gout (xfl m d))) :=
  bigSep_sep' _ _ _

/-- What @main leaves the claim: the input as it was, the result at `rfin`. -/
abbrev FIN (d : Dev nD) : sProp 𝕄 := iprop((aLoc d ↦{fullShare} m (aLoc d)) ∗ rLoc d ↦{fullShare} rfin m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flat input
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (held_S4 (F := F) d _)) $$ Hheld
  rw [in_a, in_o, in_r, show (opIn (F := F)).result (V0 m d) x' = xfl m d from rfl]
  icases Hh with ⟨Ha, Hx, Ho, Hr⟩
  -- the call: to each SparseCore its share of the flat input and its subcores' pieces of the flat output
  ihave Hx' := (Transfers.pointsTo_toks_split fullShare 2) $$ Hx
  icases Hx' with ⟨Hxr, Hxt⟩
  ihave Ho' := (Entails.of_eq (out_pieces (F := F) d (m (oLoc d)))) $$ Ho
  iapply ((K (F := F)).wp_run (D (F := F)) 𝒱 (EH := EH) (P := P m) κ d 0) $$ [Hst Hxt Ho' Hb Ha Hr Hxr]
  isplitr; · iexact Hctx
  isplitl [Hst]; · iexact Hst
  isplitl [Hxt Ho']
  · rw [st0_eq]
    isplitl [Hxt] <;> iassumption
  iintro ⟨Hst, Hdn⟩
  ihave Hdn' := (Entails.of_eq (dn0_eq m d)) $$ Hdn
  icases Hdn' with ⟨Hxt, Ho⟩
  ihave Hx := (Transfers.pointsTo_toks_join fullShare 2) $$ [Hxr Hxt]
  · isplitl [Hxr] <;> iassumption
  ihave Ho := (Entails.of_eq (out_pieces (F := F) d (gout (xfl m d))).symm) $$ Ho
  -- the result's shape
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_S4 (F := F) d _)) $$ Hheld
  rw [out_a]
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (rLoc d) = rfin m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := rLoc d) (I := Finset.univ) (q := fullShare) (f := rfin m d))) $$ [HSI Hr]
  · isplitl [HSI] <;> iassumption
  icases H with ⟨%hr, HSI, -⟩
  ihave H := (SI_pointsTo_agree (st := s') (ℓ := aLoc d) (I := Finset.univ) (q := fullShare) (f := m (aLoc d))) $$ [HSI Ha]
  · isplitl [HSI] <;> iassumption
  icases H with %ha
  ipureintro
  exact ⟨funext fun i => hr i (Finset.mem_univ i), funext fun i => ha i (Finset.mem_univ i)⟩

/-! ## The program's run -/

/-- What the run leaves: on every device the result array at `rfin` and the input array as it was. -/
def QC : PUnit × MemSt nD τ sig (Elt F) → Prop := fun r => ∀ c : Dev nD, r.2.mem (rLoc c) = rfin m c ∧ r.2.mem (aLoc c) = m (aLoc c)

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h => h)

end Cert.KernelIdeal.Respelt

end
-- ==== Proof.Spec.lean ====
/-
  What both programs compute.

  The input is `x[b, i, s, e]` with 16 rows `i`; the output `y[b, j₃, j₂, s, e]` has 60 rows `J = 3 j₃ + j₂`, and row `J` of
  the output is row `rowOf J` of the input (Proof/Pieces.lean): `y[b, j₃, j₂, s, e] = x[b, rowOf (3 j₃ + j₂), s, e]`.
-/
import proofs.«214454_g70703751626829_cont_9to1c4b_566_26_alg».proof.Proof.Pieces
import Idealize.ShloMosaic.Lib.ValueIdx

namespace Cert.Spec

open Idealize.ShloMosaic Idealize.ShloMosaic.ValueIdx

/-- Output row `(j₃, j₂)` of batch `b` is input row `rowOf (3 j₃ + j₂)` of batch `b`. -/
def spec {α : Type} (x : (⟨4, ![4, 16, 2048, 128]⟩ : Shape).Idx → α) : (⟨5, ![4, 20, 3, 2048, 128]⟩ : Shape).Idx → α :=
  fun j => x (ix4 (j 0) ⟨Cert.Pieces.rowOf (3 * (j 1).val + (j 2).val),
    Cert.Pieces.rowOf_lt ⟨3 * (j 1).val + (j 2).val, by have h1 : (j 1).val < 20 := (j 1).isLt; have h2 : (j 2).val < 3 := (j 2).isLt; omega⟩⟩ (j 3) (j 4))

end Cert.Spec
-- ==== Proof.ValueKernelIdeal.lean ====
/-
  What the kernel program computes, index by index.

  The program's result is the five-dimensional view of `gout` of the flat view of its input. Output element
  `(b, j₃, j₂, s, e)` sits at flat index `((b · 60 + J) · 2048 + s) · 128 + e` with `J = 3 j₃ + j₂`, in output piece
  `(b · 60 + J) · 4 + p` where `p = (128 s + e) / 65536`; `gout` reads there the same place of input piece
  `(b · 16 + rowOf J) · 4 + p`, which is flat input index `((b · 16 + rowOf J) · 2048 + s) · 128 + e`: input element
  `(b, rowOf J, s, e)`. So the result is `Cert.Spec.spec` of the input: output row `J` is input row `rowOf J` (`rfin_eq`).
-/
import proofs.«214454_g70703751626829_cont_9to1c4b_566_26_alg».proof.Proof.LaunchKernelIdeal
import proofs.«214454_g70703751626829_cont_9to1c4b_566_26_alg».proof.Proof.Spec

noncomputable section

namespace Cert.KernelIdeal.Respelt

open Cert.KernelIdeal Cert.KernelIdeal.GenP
open Idealize.ShloMosaic Idealize.SL.Sem
open Idealize.ShloMosaic.SparseCore (S V T)

variable {F : FTy → Type}

variable (m : (ℓ : Loc nD τ sig) → Buf (Elt F) ℓ) [FloatOps F]

theorem rfin_eq (d : Dev nD) : rfin m d = Cert.Spec.spec (m (aLoc d)) := by
  funext j
  have h1 : (j 1).val < 20 := (j 1).isLt
  have h2 : (j 2).val < 3 := (j 2).isLt
  have h0 : (j 0).val < 4 := (j 0).isLt
  have h3 : (j 3).val < 2048 := (j 3).isLt
  have h4 : (j 4).val < 128 := (j 4).isLt
  show (opOut (F := F)).result (V2 m d) r' j = _
  rw [StableHlo.reshape_result (τ := τ) main_v1 main_v2 rfl shapeCasts_S62914560_S4x20x3x2048x128 _ _ (V2 m d)]
  show shapeCast S4x20x3x2048x128 (V2 m d o') shapeCasts_S62914560_S4x20x3x2048x128 j = _
  rw [V2_o]
  show xfl m d (srcIx (Shape.reshapeEquiv shapeCasts_S62914560_S4x20x3x2048x128 j)) = _
  show (opIn (F := F)).result (V0 m d) x' (srcIx (Shape.reshapeEquiv shapeCasts_S62914560_S4x20x3x2048x128 j)) = _
  rw [StableHlo.reshape_result (τ := τ) main_arg0 main_v0 rfl shapeCasts_S4x16x2048x128_S16777216 _ _ (V0 m d)]
  show m (aLoc d) (Shape.reshapeEquiv shapeCasts_S4x16x2048x128_S16777216 (srcIx (Shape.reshapeEquiv shapeCasts_S62914560_S4x20x3x2048x128 j))) = _
  unfold Cert.Spec.spec
  congr 1
  apply Shape.reshapeEquiv_eq_of_rowMajor
  -- the output element's flat index
  have ho : ((Shape.reshapeEquiv shapeCasts_S62914560_S4x20x3x2048x128 j : S62914560.Idx) 0).val
      = ((((j 0).val * 20 + (j 1).val) * 3 + (j 2).val) * 2048 + (j 3).val) * 128 + (j 4).val := by
    rw [← Shape.rowMajor_val_one, Shape.rowMajor_reshapeEquiv, Shape.rowMajor_val_five]; rfl
  rw [Shape.rowMajor_val_four, Shape.rowMajor_val_one]
  show (((j 0).val * 16 + Cert.Pieces.rowOf (3 * (j 1).val + (j 2).val)) * 2048 + (j 3).val) * 128 + (j 4).val
    = 65536 * Cert.Pieces.refSrc (((Shape.reshapeEquiv shapeCasts_S62914560_S4x20x3x2048x128 j : S62914560.Idx) 0).val / 65536)
      + ((Shape.reshapeEquiv shapeCasts_S62914560_S4x20x3x2048x128 j : S62914560.Idx) 0).val % 65536
  rw [ho]
  have hq : (((((j 0).val * 20 + (j 1).val) * 3 + (j 2).val) * 2048 + (j 3).val) * 128 + (j 4).val) / 65536
      = ((j 0).val * 60 + (3 * (j 1).val + (j 2).val)) * 4 + ((j 3).val * 128 + (j 4).val) / 65536 := by omega
  have hr := Cert.Pieces.refSrc_row ⟨(j 0).val, h0⟩ ⟨3 * (j 1).val + (j 2).val, by omega⟩ ⟨((j 3).val * 128 + (j 4).val) / 65536, by omega⟩
  simp only at hr
  rw [hq, hr]
  omega

end Cert.KernelIdeal.Respelt

end
-- ==== Proof.Reference.lean ====
/-
  The reference's run.

  The reference is a straight line of host operations: the constant row table, `jnp.take` along axis 1 by it — the table
  normalised (a negative entry would have 16 added: none is), the rows gathered, an out-of-range entry's row replaced by a
  fill value (none is out of range) — and the reshape to five dimensions. Every weakly fair execution of it terminates with
  the result buffer at the operations' composed term `refOut` of the input and the input unchanged (`run`).
-/
import proofs.«214454_g70703751626829_cont_9to1c4b_566_26_alg».proof.ReferenceIdeal
import proofs.«214454_g70703751626829_cont_9to1c4b_566_26_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls of `_take` and, inside it, of `_where` unfolded at their call sites. -/
abbrev ops : List (HloOp τ sig (Elt F)) :=
  [ nullary main_c (fun i => lit0 (S60.rowMajor i)),
    TRef.nullary main_call0.c (constantI S_ 32 0#32),
    TRef.unary main_call0.c main_call0.v0 (broadcastInDim S60 ![] bcast_S_S60),
    TRef.binary (.of main_c) main_call0.v0 main_call0.v1 (cmpi .slt),
    TRef.nullary main_call0.c_0 (constantI S_ 32 16#32),
    TRef.unary main_call0.c_0 main_call0.v2 (broadcastInDim S60 ![] bcast_S_S60),
    TRef.binary (.of main_c) main_call0.v2 main_call0.v3 addi,
    TRef.ternary main_call0.v1 main_call0.v3 (.of main_c) main_call0.call0.v0 select,
    TRef.unary main_call0.call0.v0 main_call0.v5 (broadcastInDim S60x1 ![0] bcast_S60_S60x1_0),
    TRef.nullary main_call0.c_1 (constantI S1 32 15#32),
    TRef.nullary main_call0.c_2 (constantI S_ 32 0#32),
    TRef.unary main_call0.c_2 main_call0.v6 (broadcastInDim S60x1 ![] bcast_S_S60x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S60x1 ![0, 1] bcast_S1x1_S60x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S60x1_S60_d1 h_S_),
    TRef.binary (.of main_arg0) main_call0.v5 main_call0.v13 (fun x i => Host.gather gather_S4x16x2048x128_S60x1_S4x60x2048x128_023_1_n_n_1_1_412048128 x i),
    TRef.unary main_call0.v12 main_call0.v14 (broadcastInDim S4x60x2048x128 ![1] bcast_S60_S4x60x2048x128_1),
    TRef.nullary main_call0.cst (constant S_ .f32 0x7FC00000#32),
    TRef.unary main_call0.cst main_call0.v15 (broadcastInDim S4x60x2048x128 ![] bcast_S_S4x60x2048x128),
    TRef.ternary main_call0.v14 main_call0.v13 main_call0.v15 main_call0.v16 select,
    reshape main_v0 main_v1 rfl shapeCasts_S4x60x2048x128_S4x20x3x2048x128 ]

/-- @main is that straight line: the functions' definitions unfolded at their calls and the records at their fields, both
    sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., unary_bufs_sub ..,
    nullary_bufs_sub .., unary_bufs_sub .., ternary_bufs_sub .., reshape_bufs_sub ..⟩

/-- The row table as the gather reads it: the constant, normalised (a negative entry would have 16 added), with the index
    vector's axis added. -/
def idxTab : IVec S60x1 32 :=
  broadcastInDim S60x1 ![0] bcast_S60_S60x1_0
    (select (cmpi .slt (fun i => lit0 (S60.rowMajor i)) (broadcastInDim S60 ![] bcast_S_S60 (constantI S_ 32 0#32)))
      (addi (fun i => lit0 (S60.rowMajor i)) (broadcastInDim S60 ![] bcast_S_S60 (constantI S_ 32 16#32)))
      (fun i => lit0 (S60.rowMajor i)))

/-- Which table entries are in range, entry by entry, and reduced along the index vector's axis. -/
def inRange : IVec S60x1 1 :=
  andi (cmpi .sge idxTab (broadcastInDim S60x1 ![] bcast_S_S60x1 (constantI S_ 32 0#32)))
    (cmpi .sle idxTab (broadcastInDim S60x1 ![0, 1] bcast_S1x1_S60x1_0_1 (broadcastInDim S1x1 ![1] bcast_S1_S1x1_1 (constantI S1 32 15#32))))
def refMask : IVec S60 1 := Host.reduce IntOp.andi inRange (constantI S_ 1 1#1) reducesTo_S60x1_S60_d1 h_S_

/-- What the reference computes of its input. -/
def refOut (x : (⟨S4x16x2048x128, .f32⟩ : BufTy).Contents (Elt F)) : (⟨S4x20x3x2048x128, .f32⟩ : BufTy).Contents (Elt F) :=
  shapeCast S4x20x3x2048x128
    (select (broadcastInDim S4x60x2048x128 ![1] bcast_S60_S4x60x2048x128_1 refMask)
      (Host.gather gather_S4x16x2048x128_S60x1_S4x60x2048x128_023_1_n_n_1_1_412048128 x idxTab)
      (broadcastInDim S4x60x2048x128 ![] bcast_S_S4x60x2048x128 (constant S_ .f32 0x7FC00000#32)))
    shapeCasts_S4x60x2048x128_S4x20x3x2048x128

attribute [local irreducible] Host.reduce Host.gather in
set_option maxRecDepth 8192 in
set_option maxHeartbeats 1600000 in
/-- The fold at the result buffer is `refOut` of the input: each operation's result at its own buffer is its function's
    value, at any other buffer what was there. -/
theorem out_eq (V : Valuation τ sig (Elt F)) :
    after ops V (main_v1 : DevRef τ sig) = refOut (V (main_arg0 : DevRef τ sig)) := by
  after_results
  simp only [TRef.ofBuf, TRef.toBuf, cast_eq]
  rfl

set_option maxRecDepth 8192 in
set_option maxHeartbeats 1600000 in
theorem arg0_eq (V : Valuation τ sig (Elt F)) :
    after ops V (main_arg0 : DevRef τ sig) = V (main_arg0 : DevRef τ sig) := by
  after_results

/-- On every device, for any float values, from any memory with zero counters: every weakly fair execution of the
    reference terminates with the result at `refOut` of the input and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v1).trans (out_eq _), (h c main_arg0).trans (arg0_eq _)⟩)
    (run_seq scopedRefs_eq scopedSems_eq defs main (fun _ => ops) main_eq (fun _ => ops_sub) m ρ)

end Cert.ReferenceIdeal.Value

end
-- ==== Proof.RefValue.lean ====
/-
  What the reference computes, index by index.

  The row table is its sixty literal entries, each in `0 … 15` (`idxTab_at`, `inRange_at`: decided row by row), so the
  normalisation adds nothing and the in-range mask is all ones (`refMask_one`: a fold of `and` over ones); the gather reads,
  at output index `(b, J, s, e)` of the 60-row array, input index `(b, table J, s, e)` (`gather_at`: the offset axes 0, 2, 3
  carry `b, s, e`, the collapsed axis 1 takes the clamped table entry); and the final reshape splits `J = 3 j₃ + j₂`.
  So the reference computes `Cert.Spec.spec` of its input (`refOut_eq`).
-/
import proofs.«214454_g70703751626829_cont_9to1c4b_566_26_alg».proof.Proof.Reference
import proofs.«214454_g70703751626829_cont_9to1c4b_566_26_alg».proof.Proof.Spec
import Idealize.ShloMosaic.PureOps.Reduce

noncomputable section

namespace Cert.ReferenceIdeal.Value

open Cert.ReferenceIdeal Cert.ReferenceIdeal.Gen Idealize.ShloMosaic Idealize.ShloMosaic.ValueIdx

variable {F : FTy → Type} [FloatOps F]

/-- Entry `k` of the table, as the gather reads it, is `rowOf k`; and it is in range. -/
theorem idxTab_at : ∀ k : Fin 60, (idxTab (ix2 k 0)).toInt.toNat = Cert.Pieces.rowOf k.val := by decide +kernel
theorem inRange_at : ∀ k : Fin 60, inRange (ix2 k 0) = 1#1 := by decide +kernel

/-- A fold of `and` over ones, from one, is one. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

theorem inRange_one (i : S60x1.Idx) : inRange i = 1#1 := by
  have h1 : i = (ix2 (i 0) (0 : Fin 1) : S60x1.Idx) := by
    rw [eq_ix2 i]
    congr 1
    exact Subsingleton.elim (α := Fin 1) _ _
  rw [h1]
  exact inRange_at (i 0)

/-- The in-range mask is all ones. -/
theorem refMask_one (k : S60.Idx) : refMask k = 1#1 := by
  unfold refMask
  rw [Host.reduce_eq_foldl]
  exact foldl_andi_one inRange inRange_one _

/-- The gather at output index `(b, J, s, e)` reads input index `(b, table J clamped, s, e)`. -/
theorem gather_at (x : S4x16x2048x128.Idx → Elt F .f32) (j : S4x60x2048x128.Idx) :
    Host.gather gather_S4x16x2048x128_S60x1_S4x60x2048x128_023_1_n_n_1_1_412048128 x idxTab j
      = x (ix4 (j 0) ⟨min (idxTab (ix2 (j 1) 0)).toInt.toNat 15, by omega⟩ (j 2) (j 3)) := by
  unfold Host.gather
  congr 1
  funext a
  apply Fin.ext
  match a with
  | ⟨0, _⟩ =>
    show gather_S4x16x2048x128_S60x1_S4x60x2048x128_023_1_n_n_1_1_412048128.start j idxTab 0
        + gather_S4x16x2048x128_S60x1_S4x60x2048x128_023_1_n_n_1_1_412048128.batchCoord j 0
        + gather_S4x16x2048x128_S60x1_S4x60x2048x128_023_1_n_n_1_1_412048128.offCoord j 0 = (j 0).val
    rw [show gather_S4x16x2048x128_S60x1_S4x60x2048x128_023_1_n_n_1_1_412048128.start j idxTab 0 = 0 from by
        unfold GatherDims.start; exact dif_neg (by decide),
      GatherDims.batchCoord_eq_zero _ j 0 (by decide)]
    unfold GatherDims.offCoord
    rw [dif_pos (by decide)]
    simp only [Nat.zero_add, Nat.add_zero]
    exact congrArg (fun a => (j a).val) (by decide)
  | ⟨1, _⟩ => rfl
  | ⟨2, _⟩ =>
    show gather_S4x16x2048x128_S60x1_S4x60x2048x128_023_1_n_n_1_1_412048128.start j idxTab 2
        + gather_S4x16x2048x128_S60x1_S4x60x2048x128_023_1_n_n_1_1_412048128.batchCoord j 2
        + gather_S4x16x2048x128_S60x1_S4x60x2048x128_023_1_n_n_1_1_412048128.offCoord j 2 = (j 2).val
    rw [show gather_S4x16x2048x128_S60x1_S4x60x2048x128_023_1_n_n_1_1_412048128.start j idxTab 2 = 0 from by
        unfold GatherDims.start; exact dif_neg (by decide),
      GatherDims.batchCoord_eq_zero _ j 2 (by decide)]
    unfold GatherDims.offCoord
    rw [dif_pos (by decide)]
    simp only [Nat.zero_add, Nat.add_zero]
    exact congrArg (fun a => (j a).val) (by decide)
  | ⟨3, _⟩ =>
    show gather_S4x16x2048x128_S60x1_S4x60x2048x128_023_1_n_n_1_1_412048128.start j idxTab 3
        + gather_S4x16x2048x128_S60x1_S4x60x2048x128_023_1_n_n_1_1_412048128.batchCoord j 3
        + gather_S4x16x2048x128_S60x1_S4x60x2048x128_023_1_n_n_1_1_412048128.offCoord j 3 = (j 3).val
    rw [show gather_S4x16x2048x128_S60x1_S4x60x2048x128_023_1_n_n_1_1_412048128.start j idxTab 3 = 0 from by
        unfold GatherDims.start; exact dif_neg (by decide),
      GatherDims.batchCoord_eq_zero _ j 3 (by decide)]
    unfold GatherDims.offCoord
    rw [dif_pos (by decide)]
    simp only [Nat.zero_add, Nat.add_zero]
    exact congrArg (fun a => (j a).val) (by decide)

/-- The reference computes `spec` of its input. -/
theorem refOut_eq (x : (⟨S4x16x2048x128, .f32⟩ : BufTy).Contents (Elt F)) : refOut x = Cert.Spec.spec x := by
  funext j
  have h0 : (j 0).val < 4 := (j 0).isLt
  have h1 : (j 1).val < 20 := (j 1).isLt
  have h2 : (j 2).val < 3 := (j 2).isLt
  have hjj : Shape.reshapeEquiv shapeCasts_S4x60x2048x128_S4x20x3x2048x128 j
      = (ix4 (j 0) ⟨3 * (j 1).val + (j 2).val, by omega⟩ (j 3) (j 4) : S4x60x2048x128.Idx) :=
    Shape.reshapeEquiv_eq_of_rowMajor _ (by
      rw [Shape.rowMajor_val_four, Shape.rowMajor_val_five]
      show (((j 0).val * 60 + (3 * (j 1).val + (j 2).val)) * 2048 + (j 3).val) * 128 + (j 4).val
        = ((((j 0).val * 20 + (j 1).val) * 3 + (j 2).val) * 2048 + (j 3).val) * 128 + (j 4).val
      ring)
  show (select (broadcastInDim S4x60x2048x128 ![1] bcast_S60_S4x60x2048x128_1 refMask)
      (Host.gather gather_S4x16x2048x128_S60x1_S4x60x2048x128_023_1_n_n_1_1_412048128 x idxTab)
      (broadcastInDim S4x60x2048x128 ![] bcast_S_S4x60x2048x128 (constant S_ .f32 0x7FC00000#32)))
      (Shape.reshapeEquiv shapeCasts_S4x60x2048x128_S4x20x3x2048x128 j) = _
  rw [hjj, select_apply, show broadcastInDim S4x60x2048x128 ![1] bcast_S60_S4x60x2048x128_1 refMask
      (ix4 (j 0) ⟨3 * (j 1).val + (j 2).val, by omega⟩ (j 3) (j 4)) = 1#1 from refMask_one _, select_one, gather_at]
  unfold Cert.Spec.spec
  congr 1
  have ht : (idxTab (ix2 (⟨3 * (j 1).val + (j 2).val, by omega⟩ : Fin 60) 0)).toInt.toNat = Cert.Pieces.rowOf (3 * (j 1).val + (j 2).val) :=
    idxTab_at ⟨3 * (j 1).val + (j 2).val, by omega⟩
  have hl : Cert.Pieces.rowOf (3 * (j 1).val + (j 2).val) < 16 := Cert.Pieces.rowOf_lt ⟨3 * (j 1).val + (j 2).val, by omega⟩
  funext a
  match a with
  | ⟨0, _⟩ => rfl
  | ⟨1, _⟩ =>
    apply Fin.ext
    show min (idxTab (ix2 (⟨3 * (j 1).val + (j 2).val, _⟩ : Fin 60) 0)).toInt.toNat 15 = Cert.Pieces.rowOf (3 * (j 1).val + (j 2).val)
    rw [ht]; exact Nat.min_eq_left (by omega)
  | ⟨2, _⟩ => rfl
  | ⟨3, _⟩ => rfl

end Cert.ReferenceIdeal.Value

end
-- ==== Proof.lean ====
/-
  The claims of this certificate: the SparseCore gather kernel and its reference.

  The program copies rows of a `4 × 16 × 2048 × 128` array into a `4 × 60 × 2048 × 128` one (reshaped `4 × 20 × 3 × …`): output
  row `J` is input row `rowOf J` of a fixed table (Proof/Pieces.lean). The kernel does it by thirty-two subcores each staging
  ten pieces of 65536 numbers and copying each staged piece to seven or two output pieces; the reference by `take` along
  the row axis. Both compute `Cert.Spec.spec` of the input (Proof/ValueKernelIdeal.lean `rfin_eq`, Proof/RefValue.lean
  `refOut_eq`); no float arithmetic is involved, so the finiteness precondition is not used.

  * The three frames: every weakly fair execution terminates, nothing faulting, the input array unchanged — for the kernel
    program at the bit-exact and at the ideal instance (Proof/LaunchKernel.lean, Proof/LaunchKernelIdeal.lean `run_main`:
    the same proof at both, generic in the float values) and for the reference (Proof/Reference.lean `run`).
  * `preserves`: the ideal pass rewrote nothing, the claim is `True`.
  * `algebraic`: both runs end with the result at `spec` of the common input.

  The kernel's body is reasoned about over its parts restated with every window named (Proof/Respelt….lean); each restated
  part equals the printed one.
-/
import proofs.«214454_g70703751626829_cont_9to1c4b_566_26_alg».proof.Defs
import proofs.«214454_g70703751626829_cont_9to1c4b_566_26_alg».proof.Proof.GenP.Kernel
import proofs.«214454_g70703751626829_cont_9to1c4b_566_26_alg».proof.Proof.GenP.KernelIdeal
import proofs.«214454_g70703751626829_cont_9to1c4b_566_26_alg».proof.Proof.Gen.ReferenceIdeal
import proofs.«214454_g70703751626829_cont_9to1c4b_566_26_alg».proof.Proof.Gen.Pre_finite_inputs
import proofs.«214454_g70703751626829_cont_9to1c4b_566_26_alg».proof.Proof.LaunchKernel
import proofs.«214454_g70703751626829_cont_9to1c4b_566_26_alg».proof.Proof.ValueKernelIdeal
import proofs.«214454_g70703751626829_cont_9to1c4b_566_26_alg».proof.Proof.RefValue
import Idealize.ShloMosaic.Adequacy
import Idealize.ShloMosaic.Init

noncomputable section

namespace Cert.Proof

open Idealize.ShloMosaic Idealize.SL.Sem

theorem frame_Kernel : Cert.frame_Kernel (hKernel := Cert.Kernel.GenP.facts) (hPre_finite_inputs := Cert.Pre_finite_inputs.Gen.facts) :=
  fun m g _ => (θ_run Cert.Kernel.defs _ _).mono (fun _ h c => (h c).2) (Cert.Kernel.Respelt.run_main (F := Bits) m g)

theorem frame_KernelIdeal : Cert.frame_KernelIdeal (hKernelIdeal := Cert.KernelIdeal.GenP.facts) (hPre_finite_inputs := Cert.Pre_finite_inputs.Gen.facts) :=
  fun m g _ => (θ_run Cert.KernelIdeal.defs _ _).mono (fun _ h c => (h c).2) (Cert.KernelIdeal.Respelt.run_main (F := Ideal) m g)

theorem frame_ReferenceIdeal : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- Both programs end with the result at `spec` of the input they share. -/
theorem algebraic : Cert.algebraic_KernelIdeal_ReferenceIdeal (hKernelIdeal := Cert.KernelIdeal.GenP.facts)
    (hReferenceIdeal := Cert.ReferenceIdeal.Gen.facts) (hPre_finite_inputs := Cert.Pre_finite_inputs.Gen.facts) :=
  fun m g m' g' _ hm =>
    ⟨fun c => Cert.Spec.spec (m (Cert.KernelIdeal.Respelt.aLoc c)),
      (θ_run Cert.KernelIdeal.defs _ _).mono
        (fun _ h c => ⟨(h c).1.trans (Cert.KernelIdeal.Respelt.rfin_eq (F := Ideal) m c), (h c).2⟩)
        (Cert.KernelIdeal.Respelt.run_main (F := Ideal) m g),
      (θ_run Cert.ReferenceIdeal.defs _ _).mono
        (fun _ h c => ⟨(h c).1.trans ((Cert.ReferenceIdeal.Value.refOut_eq (F := Ideal) _).trans (congrArg Cert.Spec.spec (hm c))), (h c).2⟩)
        (Cert.ReferenceIdeal.Value.run (F := Ideal) m' g')⟩

theorem claim : Cert.Claim :=
  ⟨Cert.Kernel.GenP.facts, Cert.KernelIdeal.GenP.facts, Cert.ReferenceIdeal.Gen.facts, Cert.Pre_finite_inputs.Gen.facts,
    frame_Kernel, frame_KernelIdeal, frame_ReferenceIdeal, trivial, algebraic⟩

end Cert.Proof

end
